-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v120)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v120) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v180) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S1250000x16 : Shape := ⟨2, ![1250000, 16]⟩
abbrev S3x64x64 : Shape := ⟨3, ![3, 64, 64]⟩
abbrev S3x64 : Shape := ⟨2, ![3, 64]⟩
abbrev S3x16x64 : Shape := ⟨3, ![3, 16, 64]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1250000x16 : S_.BroadcastsInDim S1250000x16 (![] : Fin 0 → Fin S1250000x16.rank)
  reducesTo_S1250000x16_S_d0_1 : S1250000x16.ReducesTo [0, 1] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S3x16x64 : S_.BroadcastsInDim S3x16x64 (![] : Fin 0 → Fin S3x16x64.rank)
  reducesTo_S3x16x64_S_d0_1_2 : S3x16x64.ReducesTo [0, 1, 2] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg8 : FVec F S256 .f32) (main_arg9 : FVec F S256 .f32) (main_arg10 : FVec F S256x64 .f32) (main_arg11 : FVec F S64 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x64 .f32 := Host.absf main_arg10
  let main_cst_16 : FVec F S_ .f32 := constant S_ .f32 0x7F800000#32
  let main_v45 : FVec F S256x64 .f32 := broadcastInDim S256x64 ![] bcast_S_S256x64 main_cst_16
  let main_v46 : IVec S256x64 1 := cmpf .olt main_v44 main_v45
  let main_c_17 : IVec S_ 1 := constantI S_ 1 1#1
  let main_v47 : IVec S_ 1 := (fun x v => Host.reduce IntOp.andi x v reducesTo_S256x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg5 : FVec F S3x64 .f32) (main_arg6 : FVec F S3x16x64 .f32) (main_arg7 : FVec F S3x64 .f32) (main_arg8 : FVec F S256 .f32) (main_arg9 : FVec F S256 .f32) (main_arg10 : FVec F S256x64 .f32) (main_arg11 : FVec F S64 .f32) (main_v13 : IVec S_ 1) (main_v16 : IVec S3x64 1) : IVec S_ 1 :=
  let main_c_5 : IVec S_ 1 := constantI S_ 1 1#1
  let main_v17 : IVec S_ 1 := (fun x v => Host.reduce IntOp.andi x v reducesTo_S3x64_S_d0_1 h_S_) main_v16 main_c_5
  let main_v18 : IVec S_ 1 := andi main_v13 main_v17
  let main_v19 : FVec F S3x64 .f32 := Host.absf main_arg5
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S3x16x64 .f32 := Host.absf main_arg6
  let main_cst_8 : FVec F S_ .f32 := constant S_ .f32 0x7F800000#32
  let main_v25 : FVec F S3x16x64 .f32 := broadcastInDim S3x16x64 ![] bcast_S_S3x16x64 main_cst_8
  let main_v26 : IVec S3x16x64 1 := cmpf .olt main_v24 main_v25
  let main_c_9 : IVec S_ 1 := constantI S_ 1 1#1
  let main_v27 : IVec S_ 1 := (fun x v => Host.reduce IntOp.andi x v reducesTo_S3x16x64_S_d0_1_2 h_S_) main_v26 main_c_9
  let main_v28 : IVec S_ 1 := andi main_v23 main_v27
  let main_v29 : FVec F S3x64 .f32 := Host.absf main_arg7
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x64 .f32) (main_arg1 : IVec S2x1250000 32) (main_arg2 : FVec F S1250000x16 .f32) (main_arg3 : FVec F S3x64x64 .f32) (main_arg4 : FVec F S3x64 .f32) (main_arg5 : FVec F S3x64 .f32) (main_arg6 : FVec F S3x16x64 .f32) (main_arg7 : FVec F S3x64 .f32) (main_arg8 : FVec F S256 .f32) (main_arg9 : FVec F S256 .f32) (main_arg10 : FVec F S256x64 .f32) (main_arg11 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1250000x16 .f32 := Host.absf main_arg2
  let main_cst_0 : FVec F S_ .f32 := constant S_ .f32 0x7F800000#32
  let main_v5 : FVec F S1250000x16 .f32 := broadcastInDim S1250000x16 ![] bcast_S_S1250000x16 main_cst_0
  let main_v6 : IVec S1250000x16 1 := cmpf .olt main_v4 main_v5
  let main_c_1 : IVec S_ 1 := constantI S_ 1 1#1
  let main_v7 : IVec S_ 1 := (fun x v => Host.reduce IntOp.andi x v reducesTo_S1250000x16_S_d0_1 h_S_) main_v6 main_c_1
  let main_v8 : IVec S_ 1 := andi main_v3 main_v7
  let main_v9 : FVec F S3x64x64 .f32 := Host.absf main_arg3
  let main_cst_2 : FVec F S_ .f32 := constant S_ .f32 0x7F800000#32
  let main_v10 : FVec F S3x64x64 .f32 := broadcastInDim S3x64x64 ![] bcast_S_S3x64x64 main_cst_2
  let main_v11 : IVec S3x64x64 1 := cmpf .olt main_v9 main_v10
  let main_c_3 : IVec S_ 1 := constantI S_ 1 1#1
  let main_v12 : IVec S_ 1 := (fun x v => Host.reduce IntOp.andi x v reducesTo_S3x64x64_S_d0_1_2 h_S_) main_v11 main_c_3
  let main_v13 : IVec S_ 1 := andi main_v8 main_v12
  let main_v14 : FVec F S3x64 .f32 := Host.absf main_arg4
  let main_cst_4 : FVec F S_ .f32 := constant S_ .f32 0x7F800000#32
  let main_v15 : FVec F S3x64 .f32 := broadcastInDim S3x64 ![] bcast_S_S3x64 main_cst_4
  let main_v16 : IVec S3x64 1 := cmpf .olt main_v14 main_v15
  fn_part1 (F := F) main_arg5 main_arg6 main_arg7 main_arg8 main_arg9 main_arg10 main_arg11 main_v13 main_v16
-- ==== Kernel.lean ====
abbrev S100000x64 : Shape := ⟨2, ![100000, 64]⟩
abbrev S2x1250000 : Shape := ⟨2, ![2, 1250000]⟩
abbrev S1250000x16 : Shape := ⟨2, ![1250000, 16]⟩
abbrev S3x64x64 : Shape := ⟨3, ![3, 64, 64]⟩
abbrev S3x64 : Shape := ⟨2, ![3, 64]⟩
abbrev S3x16x64 : Shape := ⟨3, ![3, 16, 64]⟩
abbrev S256 : Shape := ⟨1, ![256]⟩
abbrev S256x64 : Shape := ⟨2, ![256, 64]⟩
abbrev S64 : Shape := ⟨1, ![64]⟩
abbrev S1x1250000 : Shape := ⟨2, ![1, 1250000]⟩
abbrev S1250000 : Shape := ⟨1, ![1250000]⟩
abbrev S_ : Shape := ⟨0, ![]⟩
abbrev S100000 : Shape := ⟨1, ![100000]⟩
abbrev S1250000x1 : Shape := ⟨2, ![1250000, 1]⟩
abbrev S100000x1 : Shape := ⟨2, ![100000, 1]⟩
abbrev S1x64x64 : Shape := ⟨3, ![1, 64, 64]⟩
abbrev S64x64 : Shape := ⟨2, ![64, 64]⟩
abbrev S1x64 : Shape := ⟨2, ![1, 64]⟩
abbrev S4000x64 : Shape := ⟨2, ![4000, 64]⟩
abbrev S4000x1 : Shape := ⟨2, ![4000, 1]⟩
abbrev S1250000x64 : Shape := ⟨2, ![1250000, 64]⟩
abbrev S1x16x64 : Shape := ⟨3, ![1, 16, 64]⟩
abbrev S16x64 : Shape := ⟨2, ![16, 64]⟩
abbrev S5000x16 : Shape := ⟨2, ![5000, 16]⟩
abbrev S5000x64 : Shape := ⟨2, ![5000, 64]⟩
abbrev S5000x1 : Shape := ⟨2, ![5000, 1]⟩
abbrev S100000x256 : Shape := ⟨2, ![100000, 256]⟩
abbrev S1x256 : Shape := ⟨2, ![1, 256]⟩
abbrev S4000x256 : Shape := ⟨2, ![4000, 256]⟩

abbrev nBuf : Space → Nat
  | .hbm => 157
  | .vmem => 97
  | .smem => 0
  | _ => 0

abbrev hbmTy0_0 (i : Nat) : BufTy := match i % 128 with
  | 0 => ⟨S100000x64, .f32⟩
  | 1 => ⟨S2x1250000, .i32⟩
  | 2 => ⟨S1250000x16, .f32⟩
  | 3 => ⟨S3x64x64, .f32⟩
  | 4 => ⟨S3x64, .f32⟩
  | 5 => ⟨S3x64, .f32⟩
  | 6 => ⟨S3x16x64, .f32⟩
  | 7 => ⟨S3x64, .f32⟩
  | 8 => ⟨S256, .f32⟩
  | 9 => ⟨S256, .f32⟩
  | 10 => ⟨S256x64, .f32⟩
  | 11 => ⟨S64, .f32⟩
  | 12 => ⟨S1x1250000, .i32⟩
  | 13 => ⟨S1250000, .i32⟩
  | 14 => ⟨S1x1250000, .i32⟩
  | 15 => ⟨S1250000, .i32⟩
  | 16 => ⟨S_, .f32⟩
  | 17 => ⟨S1250000, .f32⟩
  | 18 => ⟨S_, .f32⟩
  | 19 => ⟨S100000, .f32⟩
  | 20 => ⟨S1250000x1, .i32⟩
  | 21 => ⟨S100000, .f32⟩
  | 22 => ⟨S_, .f32⟩
  | 23 => ⟨S100000, .f32⟩
  | 24 => ⟨S100000, .f32⟩
  | 25 => ⟨S_, .f32⟩
  | 26 => ⟨S100000, .f32⟩
  | 27 => ⟨S100000, .f32⟩
  | 28 => ⟨S_, .f32⟩
  | 29 => ⟨S100000, .f32⟩
  | 30 => ⟨S100000, .f32⟩
  | 31 => ⟨S100000x1, .f32⟩
  | 32 => ⟨S_, .i32⟩
  | 33 => ⟨S1250000, .i32⟩
  | 34 => ⟨S1250000, .i1⟩
  | 35 => ⟨S_, .i32⟩
  | 36 => ⟨S1250000, .i32⟩
  | 37 => ⟨S1250000, .i32⟩
  | 38 => ⟨S1250000, .i32⟩
  | 39 => ⟨S1250000x1, .i32⟩
  | 40 => ⟨S1250000, .f32⟩
  | 41 => ⟨S_, .i32⟩
  | 42 => ⟨S1250000, .i32⟩
  | 43 => ⟨S1250000, .i1⟩
  | 44 => ⟨S_, .i32⟩
  | 45 => ⟨S1250000, .i32⟩
  | 46 => ⟨S1250000, .i32⟩
  | 47 => ⟨S1250000, .i32⟩
  | 48 => ⟨S1250000x1, .i32⟩
  | 49 => ⟨S1250000, .f32⟩
  | 50 => ⟨S1250000, .f32⟩
  | 51 => ⟨S1250000x1, .f32⟩
  | 52 => ⟨S1x64x64, .f32⟩
  | 53 => ⟨S64x64, .f32⟩
  | 54 => ⟨S1x64, .f32⟩
  | 55 => ⟨S64, .f32⟩
  | 56 => ⟨S1x64, .f32⟩
  | 57 => ⟨S64, .f32⟩
  | 58 => ⟨S1x64, .f32⟩
  | 59 => ⟨S1x64, .f32⟩
  | 60 => ⟨S100000x64, .f32⟩
  | 61 => ⟨S100000x64, .f32⟩
  | 62 => ⟨S_, .i32⟩
  | 63 => ⟨S1250000, .i32⟩
  | 64 => ⟨S1250000, .i1⟩
  | 65 => ⟨S_, .i32⟩
  | 66 => ⟨S1250000, .i32⟩
  | 67 => ⟨S1250000, .i32⟩
  | 68 => ⟨S1250000, .i32⟩
  | 69 => ⟨S1250000x1, .i32⟩
  | 70 => ⟨S1250000x64, .f32⟩
  | 71 => ⟨S1x16x64, .f32⟩
  | 72 => ⟨S16x64, .f32⟩
  | 73 => ⟨S1x64, .f32⟩
  | 74 => ⟨S64, .f32⟩
  | 75 => ⟨S1x64, .f32⟩
  | 76 => ⟨S1250000x64, .f32⟩
  | 77 => ⟨S_, .f32⟩
  | 78 => ⟨S100000x64, .f32⟩
  | 79 => ⟨S1250000x1, .i32⟩
  | 80 => ⟨S100000x64, .f32⟩
  | 81 => ⟨S100000x64, .f32⟩
  | 82 => ⟨S1x64x64, .f32⟩
  | 83 => ⟨S64x64, .f32⟩
  | 84 => ⟨S1x64, .f32⟩
  | 85 => ⟨S64, .f32⟩
  | 86 => ⟨S1x64, .f32⟩
  | 87 => ⟨S64, .f32⟩
  | 88 => ⟨S1x64, .f32⟩
  | 89 => ⟨S1x64, .f32⟩
  | 90 => ⟨S100000x64, .f32⟩
  | 91 => ⟨S100000x64, .f32⟩
  | 92 => ⟨S_, .i32⟩
  | 93 => ⟨S1250000, .i32⟩
  | 94 => ⟨S1250000, .i1⟩
  | 95 => ⟨S_, .i32⟩
  | 96 => ⟨S1250000, .i32⟩
  | 97 => ⟨S1250000, .i32⟩
  | 98 => ⟨S1250000, .i32⟩
  | 99 => ⟨S1250000x1, .i32⟩
  | 100 => ⟨S1250000x64, .f32⟩
  | 101 => ⟨S1x16x64, .f32⟩
  | 102 => ⟨S16x64, .f32⟩
  | 103 => ⟨S1x64, .f32⟩
  | 104 => ⟨S64, .f32⟩
  | 105 => ⟨S1x64, .f32⟩
  | 106 => ⟨S1250000x64, .f32⟩
  | 107 => ⟨S_, .f32⟩
  | 108 => ⟨S100000x64, .f32⟩
  | 109 => ⟨S1250000x1, .i32⟩
  | 110 => ⟨S100000x64, .f32⟩
  | 111 => ⟨S100000x64, .f32⟩
  | 112 => ⟨S1x64x64, .f32⟩
  | 113 => ⟨S64x64, .f32⟩
  | 114 => ⟨S1x64, .f32⟩
  | 115 => ⟨S64, .f32⟩
  | 116 => ⟨S1x64, .f32⟩
  | 117 => ⟨S64, .f32⟩
  | 118 => ⟨S1x64, .f32⟩
  | 119 => ⟨S1x64, .f32⟩
  | 120 => ⟨S100000x64, .f32⟩
  | 121 => ⟨S100000x64, .f32⟩
  | 122 => ⟨S_, .i32⟩
  | 123 => ⟨S1250000, .i32⟩
  | 124 => ⟨S1250000, .i1⟩
  | 125 => ⟨S_, .i32⟩
  | 126 => ⟨S1250000, .i32⟩
  | 127 => ⟨S1250000, .i32⟩
  | _ => ⟨S100000x64, .f32⟩

abbrev hbmTy0_1 (i : Nat) : BufTy := match i % 128 with
  | 0 => ⟨S1250000, .i32⟩
  | 1 => ⟨S1250000x1, .i32⟩
  | 2 => ⟨S1250000x64, .f32⟩
  | 3 => ⟨S1x16x64, .f32⟩
  | 4 => ⟨S16x64, .f32⟩
  | 5 => ⟨S1x64, .f32⟩
  | 6 => ⟨S64, .f32⟩
  | 7 => ⟨S1x64, .f32⟩
  | 8 => ⟨S1250000x64, .f32⟩
  | 9 => ⟨S_, .f32⟩
  | 10 => ⟨S100000x64, .f32⟩
  | 11 => ⟨S1250000x1, .i32⟩
  | 12 => ⟨S100000x64, .f32⟩
  | 13 => ⟨S100000x64, .f32⟩
  | 14 => ⟨S100000x256, .f32⟩
  | 15 => ⟨S1x256, .f32⟩
  | 16 => ⟨S1x256, .f32⟩
  | 17 => ⟨S_, .f32⟩
  | 18 => ⟨S1x256, .f32⟩
  | 19 => ⟨S1x256, .f32⟩
  | 20 => ⟨S_, .f32⟩
  | 21 => ⟨S1x256, .f32⟩
  | 22 => ⟨S1x256, .f32⟩
  | 23 => ⟨S1x256, .f32⟩
  | 24 => ⟨S1x256, .f32⟩
  | 25 => ⟨S1x256, .f32⟩
  | 26 => ⟨S1x256, .f32⟩
  | 27 => ⟨S1x64, .f32⟩
  | 28 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S4000x64, .f32⟩
  | .local _ .vmem, ⟨1, _⟩ => ⟨S4000x64, .f32⟩
  | .local _ .vmem, ⟨2, _⟩ => ⟨S64x64, .f32⟩
  | .local _ .vmem, ⟨3, _⟩ => ⟨S1x64, .f32⟩
  | .local _ .vmem, ⟨4, _⟩ => ⟨S1x64, .f32⟩
  | .local _ .vmem, ⟨5, _⟩ => ⟨S4000x1, .f32⟩
  | .local _ .vmem, ⟨6, _⟩ => ⟨S4000x1, .f32⟩
  | .local _ .vmem, ⟨7, _⟩ => ⟨S4000x64, .f32⟩
  | .local _ .vmem, ⟨8, _⟩ => ⟨S4000x64, .f32⟩
  | .local _ .vmem, ⟨9, _⟩ => ⟨S4000x64, .f32⟩
  | .local _ .vmem, ⟨10, _⟩ => ⟨S4000x64, .f32⟩
  | .local _ .vmem, ⟨11, _⟩ => ⟨S5000x16, .f32⟩
  | .local _ .vmem, ⟨12, _⟩ => ⟨S5000x16, .f32⟩
  | .local _ .vmem, ⟨13, _⟩ => ⟨S5000x64, .f32⟩
  | .local _ .vmem, ⟨14, _⟩ => ⟨S5000x64, .f32⟩
  | .local _ .vmem, ⟨15, _⟩ => ⟨S5000x1, .f32⟩
  | .local _ .vmem, ⟨16, _⟩ => ⟨S5000x1, .f32⟩
  | .local _ .vmem, ⟨17, _⟩ => ⟨S16x64, .f32⟩
  | .local _ .vmem, ⟨18, _⟩ => ⟨S1x64, .f32⟩
  | .local _ .vmem, ⟨19, _⟩ => ⟨S5000x64, .f32⟩
  | .local _ .vmem, ⟨20, _⟩ => ⟨S5000x64, .f32⟩
  | .local _ .vmem, ⟨21, _⟩ => ⟨S4000x64, .f32⟩
  | .local _ .vmem, ⟨22, _⟩ => ⟨S4000x64, .f32⟩
  | .local _ .vmem, ⟨23, _⟩ => ⟨S4000x64, .f32⟩
  | .local _ .vmem, ⟨24, _⟩ => ⟨S4000x64, .f32⟩
  | .local _ .vmem, ⟨25, _⟩ => ⟨S4000x64, .f32⟩
  | .local _ .vmem, ⟨26, _⟩ => ⟨S4000x64, .f32⟩
  | .local _ .vmem, ⟨27, _⟩ => ⟨S4000x64, .f32⟩
  | .local _ .vmem, ⟨28, _⟩ => ⟨S4000x64, .f32⟩
  | .local _ .vmem, ⟨29, _⟩ => ⟨S64x64, .f32⟩
  | .local _ .vmem, ⟨30, _⟩ => ⟨S1x64, .f32⟩
  | .local _ .vmem, ⟨31, _⟩ => ⟨S1x64, .f32⟩
  | .local _ .vmem, ⟨32, _⟩ => ⟨S4000x1, .f32⟩
  | .local _ .vmem, ⟨33, _⟩ => ⟨S4000x1, .f32⟩
  | .local _ .vmem, ⟨34, _⟩ => ⟨S4000x64, .f32⟩
  | .local _ .vmem, ⟨35, _⟩ => ⟨S4000x64, .f32⟩
  | .local _ .vmem, ⟨36, _⟩ => ⟨S4000x64, .f32⟩
  | .local _ .vmem, ⟨37, _⟩ => ⟨S4000x64, .f32⟩
  | .local _ .vmem, ⟨38, _⟩ => ⟨S5000x16, .f32⟩
  | .local _ .vmem, ⟨39, _⟩ => ⟨S5000x16, .f32⟩
  | .local _ .vmem, ⟨40, _⟩ => ⟨S5000x64, .f32⟩
  | .local _ .vmem, ⟨41, _⟩ => ⟨S5000x64, .f32⟩
  | .local _ .vmem, ⟨42, _⟩ => ⟨S5000x1, .f32⟩
  | .local _ .vmem, ⟨43, _⟩ => ⟨S5000x1, .f32⟩
  | .local _ .vmem, ⟨44, _⟩ => ⟨S16x64, .f32⟩
  | .local _ .vmem, ⟨45, _⟩ => ⟨S1x64, .f32⟩
  | .local _ .vmem, ⟨46, _⟩ => ⟨S5000x64, .f32⟩
  | .local _ .vmem, ⟨47, _⟩ => ⟨S5000x64, .f32⟩
  | .local _ .vmem, ⟨48, _⟩ => ⟨S4000x64, .f32⟩
  | .local _ .vmem, ⟨49, _⟩ => ⟨S4000x64, .f32⟩
  | .local _ .vmem, ⟨50, _⟩ => ⟨S4000x64, .f32⟩
  | .local _ .vmem, ⟨51, _⟩ => ⟨S4000x64, .f32⟩
  | .local _ .vmem, ⟨52, _⟩ => ⟨S4000x64, .f32⟩
  | .local _ .vmem, ⟨53, _⟩ => ⟨S4000x64, .f32⟩
  | .local _ .vmem, ⟨54, _⟩ => ⟨S4000x64, .f32⟩
  | .local _ .vmem, ⟨55, _⟩ => ⟨S4000x64, .f32⟩
  | .local _ .vmem, ⟨56, _⟩ => ⟨S64x64, .f32⟩
  | .local _ .vmem, ⟨57, _⟩ => ⟨S1x64, .f32⟩
  | .local _ .vmem, ⟨58, _⟩ => ⟨S1x64, .f32⟩
  | .local _ .vmem, ⟨59, _⟩ => ⟨S4000x1, .f32⟩
  | .local _ .vmem, ⟨60, _⟩ => ⟨S4000x1, .f32⟩
  | .local _ .vmem, ⟨61, _⟩ => ⟨S4000x64, .f32⟩
  | .local _ .vmem, ⟨62, _⟩ => ⟨S4000x64, .f32⟩
  | .local _ .vmem, ⟨63, _⟩ => ⟨S4000x64, .f32⟩
  | .local _ .vmem, ⟨64, _⟩ => ⟨S4000x64, .f32⟩
  | .local _ .vmem, ⟨65, _⟩ => ⟨S5000x16, .f32⟩
  | .local _ .vmem, ⟨66, _⟩ => ⟨S5000x16, .f32⟩
  | .local _ .vmem, ⟨67, _⟩ => ⟨S5000x64, .f32⟩
  | .local _ .vmem, ⟨68, _⟩ => ⟨S5000x64, .f32⟩
  | .local _ .vmem, ⟨69, _⟩ => ⟨S5000x1, .f32⟩
  | .local _ .vmem, ⟨70, _⟩ => ⟨S5000x1, .f32⟩
  | .local _ .vmem, ⟨71, _⟩ => ⟨S16x64, .f32⟩
  | .local _ .vmem, ⟨72, _⟩ => ⟨S1x64, .f32⟩
  | .local _ .vmem, ⟨73, _⟩ => ⟨S5000x64, .f32⟩
  | .local _ .vmem, ⟨74, _⟩ => ⟨S5000x64, .f32⟩
  | .local _ .vmem, ⟨75, _⟩ => ⟨S4000x64, .f32⟩
  | .local _ .vmem, ⟨76, _⟩ => ⟨S4000x64, .f32⟩
  | .local _ .vmem, ⟨77, _⟩ => ⟨S4000x64, .f32⟩
  | .local _ .vmem, ⟨78, _⟩ => ⟨S4000x64, .f32⟩
  | .local _ .vmem, ⟨79, _⟩ => ⟨S4000x64, .f32⟩
  | .local _ .vmem, ⟨80, _⟩ => ⟨S4000x64, .f32⟩
  | .local _ .vmem, ⟨81, _⟩ => ⟨S4000x256, .f32⟩
  | .local _ .vmem, ⟨82, _⟩ => ⟨S4000x256, .f32⟩
  | .local _ .vmem, ⟨83, _⟩ => ⟨S1x256, .f32⟩
  | .local _ .vmem, ⟨84, _⟩ => ⟨S1x256, .f32⟩
  | .local _ .vmem, ⟨85, _⟩ => ⟨S1x256, .f32⟩
  | .local _ .vmem, ⟨86, _⟩ => ⟨S1x256, .f32⟩
  | .local _ .vmem, ⟨87, _⟩ => ⟨S4000x256, .f32⟩
  | .local _ .vmem, ⟨88, _⟩ => ⟨S4000x256, .f32⟩
  | .local _ .vmem, ⟨89, _⟩ => ⟨S1x256, .f32⟩
  | .local _ .vmem, ⟨90, _⟩ => ⟨S1x256, .f32⟩
  | .local _ .vmem, ⟨91, _⟩ => ⟨S1x256, .f32⟩
  | .local _ .vmem, ⟨92, _⟩ => ⟨S1x256, .f32⟩
  | .local _ .vmem, ⟨93, _⟩ => ⟨S256x64, .f32⟩
  | .local _ .vmem, ⟨94, _⟩ => ⟨S1x64, .f32⟩
  | .local _ .vmem, ⟨95, _⟩ => ⟨S4000x64, .f32⟩
  | .local _ .vmem, ⟨96, _⟩ => ⟨S4000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | _, _ => false

abbrev semScoped : Fin 0 → Bool
  | ⟨_, h⟩ => absurd h (Nat.not_lt_zero _)

abbrev dmaSemScoped : Fin 95 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | _ => false

abbrev sig : RefSig :=
  ofTc nBuf bufTy 0 95 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_cst_3 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_5 : Ref sig .tc := ⟨.hbm, 41, rfl⟩
abbrev main_v22 : Ref sig .tc := ⟨.hbm, 42, rfl⟩
abbrev main_v23 : Ref sig .tc := ⟨.hbm, 43, rfl⟩
abbrev main_c_6 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39_0 : Ref sig .tc := ⟨.hbm, 60, rfl⟩
abbrev main_v39_1 : Ref sig .tc := ⟨.hbm, 61, rfl⟩
abbrev main_c_7 : Ref sig .tc := ⟨.hbm, 62, rfl⟩
abbrev main_v40 : Ref sig .tc := ⟨.hbm, 63, rfl⟩
abbrev main_v41 : Ref sig .tc := ⟨.hbm, 64, rfl⟩
abbrev main_c_8 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_9 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65_0 : Ref sig .tc := ⟨.hbm, 90, rfl⟩
abbrev main_v65_1 : Ref sig .tc := ⟨.hbm, 91, rfl⟩
abbrev main_c_10 : Ref sig .tc := ⟨.hbm, 92, rfl⟩
abbrev main_v66 : Ref sig .tc := ⟨.hbm, 93, rfl⟩
abbrev main_v67 : Ref sig .tc := ⟨.hbm, 94, rfl⟩
abbrev main_c_11 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_12 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91_0 : Ref sig .tc := ⟨.hbm, 120, rfl⟩
abbrev main_v91_1 : Ref sig .tc := ⟨.hbm, 121, rfl⟩
abbrev main_c_13 : Ref sig .tc := ⟨.hbm, 122, rfl⟩
abbrev main_v92 : Ref sig .tc := ⟨.hbm, 123, rfl⟩
abbrev main_v93 : Ref sig .tc := ⟨.hbm, 124, rfl⟩
abbrev main_c_14 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_cst_15 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110_0 : Ref sig .tc := ⟨.hbm, 143, rfl⟩
abbrev main_v110_1 : Ref sig .tc := ⟨.hbm, 144, rfl⟩
abbrev main_cst_16 : Ref sig .tc := ⟨.hbm, 145, rfl⟩
abbrev main_v111 : Ref sig .tc := ⟨.hbm, 146, rfl⟩
abbrev main_v112 : Ref sig .tc := ⟨.hbm, 147, rfl⟩
abbrev main_cst_17 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg4_1 : Ref sig .tc := ⟨.vmem, 33, rfl⟩
abbrev cc3_stg5_0 : Ref sig .tc := ⟨.vmem, 34, rfl⟩
abbrev cc3_stg5_1 : Ref sig .tc := ⟨.vmem, 35, rfl⟩
abbrev cc3_stg6_0 : Ref sig .tc := ⟨.vmem, 36, rfl⟩
abbrev cc3_stg6_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg2_1 : Ref sig .tc := ⟨.vmem, 43, rfl⟩
abbrev cc4_stg3_0 : Ref sig .tc := ⟨.vmem, 44, rfl⟩
abbrev cc4_stg4_0 : Ref sig .tc := ⟨.vmem, 45, rfl⟩
abbrev cc4_stg5_0 : Ref sig .tc := ⟨.vmem, 46, rfl⟩
abbrev cc4_stg5_1 : Ref sig .tc := ⟨.vmem, 47, rfl⟩
abbrev cc5_stg0_0 : Ref sig .tc := ⟨.vmem, 48, rfl⟩
abbrev cc5_stg0_1 : Ref sig .tc := ⟨.vmem, 49, rfl⟩
abbrev cc5_stg1_0 : Ref sig .tc := ⟨.vmem, 50, rfl⟩
abbrev cc5_stg1_1 : Ref sig .tc := ⟨.vmem, 51, rfl⟩
abbrev cc5_stg2_0 : Ref sig .tc := ⟨.vmem, 52, rfl⟩
abbrev cc5_stg2_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg2_0 : Ref sig .tc := ⟨.vmem, 57, rfl⟩
abbrev cc6_stg3_0 : Ref sig .tc := ⟨.vmem, 58, rfl⟩
abbrev cc6_stg4_0 : Ref sig .tc := ⟨.vmem, 59, rfl⟩
abbrev cc6_stg4_1 : Ref sig .tc := ⟨.vmem, 60, rfl⟩
abbrev cc6_stg5_0 : Ref sig .tc := ⟨.vmem, 61, rfl⟩
abbrev cc6_stg5_1 : Ref sig .tc := ⟨.vmem, 62, rfl⟩
abbrev cc6_stg6_0 : Ref sig .tc := ⟨.vmem, 63, rfl⟩
abbrev cc6_stg6_1 : Ref sig .tc := ⟨.vmem, 64, rfl⟩
abbrev cc7_stg0_0 : Ref sig .tc := ⟨.vmem, 65, rfl⟩
abbrev cc7_stg0_1 : Ref sig .tc := ⟨.vmem, 66, rfl⟩
abbrev cc7_stg1_0 : Ref sig .tc := ⟨.vmem, 67, rfl⟩
abbrev cc7_stg1_1 : Ref sig .tc := ⟨.vmem, 68, rfl⟩
abbrev cc7_stg2_0 : Ref sig .tc := ⟨.vmem, 69, rfl⟩
abbrev cc7_stg2_1 : Ref sig .tc := ⟨.vmem, 70, rfl⟩
abbrev cc7_stg3_0 : Ref sig .tc := ⟨.vmem, 71, rfl⟩
abbrev cc7_stg4_0 : Ref sig .tc := ⟨.vmem, 72, rfl⟩
abbrev cc7_stg5_0 : Ref sig .tc := ⟨.vmem, 73, rfl⟩
abbrev cc7_stg5_1 : Ref sig .tc := ⟨.vmem, 74, rfl⟩
abbrev cc8_stg0_0 : Ref sig .tc := ⟨.vmem, 75, rfl⟩
abbrev cc8_stg0_1 : Ref sig .tc := ⟨.vmem, 76, rfl⟩
abbrev cc8_stg1_0 : Ref sig .tc := ⟨.vmem, 77, rfl⟩
abbrev cc8_stg1_1 : Ref sig .tc := ⟨.vmem, 78, rfl⟩
abbrev cc8_stg2_0 : Ref sig .tc := ⟨.vmem, 79, rfl⟩
abbrev cc8_stg2_1 : Ref sig .tc := ⟨.vmem, 80, rfl⟩
abbrev cc9_stg0_0 : Ref sig .tc := ⟨.vmem, 81, rfl⟩
abbrev cc9_stg0_1 : Ref sig .tc := ⟨.vmem, 82, rfl⟩
abbrev cc9_stg1_0 : Ref sig .tc := ⟨.vmem, 83, rfl⟩
abbrev cc9_stg2_0 : Ref sig .tc := ⟨.vmem, 84, rfl⟩
abbrev cc9_scratch0 : Ref sig .tc := ⟨.vmem, 85, rfl⟩
abbrev cc9_scratch1 : Ref sig .tc := ⟨.vmem, 86, rfl⟩
abbrev cc10_stg0_0 : Ref sig .tc := ⟨.vmem, 87, rfl⟩
abbrev cc10_stg0_1 : Ref sig .tc := ⟨.vmem, 88, rfl⟩
abbrev cc10_stg1_0 : Ref sig .tc := ⟨.vmem, 89, rfl⟩
abbrev cc10_stg2_0 : Ref sig .tc := ⟨.vmem, 90, rfl⟩
abbrev cc10_stg3_0 : Ref sig .tc := ⟨.vmem, 91, rfl⟩
abbrev cc10_stg4_0 : Ref sig .tc := ⟨.vmem, 92, rfl⟩
abbrev cc10_stg5_0 : Ref sig .tc := ⟨.vmem, 93, rfl⟩
abbrev cc10_stg6_0 : Ref sig .tc := ⟨.vmem, 94, rfl⟩
abbrev cc10_stg7_0 : Ref sig .tc := ⟨.vmem, 95, rfl⟩
abbrev cc10_stg7_1 : Ref sig .tc := ⟨.vmem, 96, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem5_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem4_0 : DmaSem sig := 32
abbrev cc3_sem4_1 : DmaSem sig := 33
abbrev cc3_sem5_0 : DmaSem sig := 34
abbrev cc3_sem5_1 : DmaSem sig := 35
abbrev cc3_sem6_0 : DmaSem sig := 36
abbrev cc3_sem6_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem2_1 : DmaSem sig := 43
abbrev cc4_sem3_0 : DmaSem sig := 44
abbrev cc4_sem4_0 : DmaSem sig := 45
abbrev cc4_sem5_0 : DmaSem sig := 46
abbrev cc4_sem5_1 : DmaSem sig := 47
abbrev cc5_sem0_0 : DmaSem sig := 48
abbrev cc5_sem0_1 : DmaSem sig := 49
abbrev cc5_sem1_0 : DmaSem sig := 50
abbrev cc5_sem1_1 : DmaSem sig := 51
abbrev cc5_sem2_0 : DmaSem sig := 52
abbrev cc5_sem2_1 : DmaSem sig := 53
abbrev cc6_sem0_0 : DmaSem sig := 54
abbrev cc6_sem0_1 : DmaSem sig := 55
abbrev cc6_sem1_0 : DmaSem sig := 56
abbrev cc6_sem2_0 : DmaSem sig := 57
abbrev cc6_sem3_0 : DmaSem sig := 58
abbrev cc6_sem4_0 : DmaSem sig := 59
abbrev cc6_sem4_1 : DmaSem sig := 60
abbrev cc6_sem5_0 : DmaSem sig := 61
abbrev cc6_sem5_1 : DmaSem sig := 62
abbrev cc6_sem6_0 : DmaSem sig := 63
abbrev cc6_sem6_1 : DmaSem sig := 64
abbrev cc7_sem0_0 : DmaSem sig := 65
abbrev cc7_sem0_1 : DmaSem sig := 66
abbrev cc7_sem1_0 : DmaSem sig := 67
abbrev cc7_sem1_1 : DmaSem sig := 68
abbrev cc7_sem2_0 : DmaSem sig := 69
abbrev cc7_sem2_1 : DmaSem sig := 70
abbrev cc7_sem3_0 : DmaSem sig := 71
abbrev cc7_sem4_0 : DmaSem sig := 72
abbrev cc7_sem5_0 : DmaSem sig := 73
abbrev cc7_sem5_1 : DmaSem sig := 74
abbrev cc8_sem0_0 : DmaSem sig := 75
abbrev cc8_sem0_1 : DmaSem sig := 76
abbrev cc8_sem1_0 : DmaSem sig := 77
abbrev cc8_sem1_1 : DmaSem sig := 78
abbrev cc8_sem2_0 : DmaSem sig := 79
abbrev cc8_sem2_1 : DmaSem sig := 80
abbrev cc9_sem0_0 : DmaSem sig := 81
abbrev cc9_sem0_1 : DmaSem sig := 82
abbrev cc9_sem1_0 : DmaSem sig := 83
abbrev cc9_sem2_0 : DmaSem sig := 84
abbrev cc10_sem0_0 : DmaSem sig := 85
abbrev cc10_sem0_1 : DmaSem sig := 86
abbrev cc10_sem1_0 : DmaSem sig := 87
abbrev cc10_sem2_0 : DmaSem sig := 88
abbrev cc10_sem3_0 : DmaSem sig := 89
abbrev cc10_sem4_0 : DmaSem sig := 90
abbrev cc10_sem5_0 : DmaSem sig := 91
abbrev cc10_sem6_0 : DmaSem sig := 92
abbrev cc10_sem7_0 : DmaSem sig := 93
abbrev cc10_sem7_1 : DmaSem sig := 94

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S16x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S4000x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S4000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S4000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![250], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S16x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S4000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S4000x1 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S4000x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S4000x64 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![250], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x16 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S16x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x64 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S4000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S4000x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S4000x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![25], ![false]⟩

def k9_cond2 (i : grid9.Coords) : BitVec 1 :=
  let arg0 : BitVec 32 := BitVec.ofNat 32 (i 0).val
  let c24_i32 : BitVec 32 := 24#32
  let v20 : BitVec 1 := Scalar.cmpi .eq arg0 c24_i32
  let v21 : BitVec 32 := Scalar.extui v20
  let c0_i32_11 : BitVec 32 := 0#32
  let v22 : BitVec 1 := Scalar.cmpi .ne v21 c0_i32_11
  v22

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S4000x256 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x256 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x256 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev grid10 : Pipeline.Grid := ⟨1, ![25], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_7 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S4000x256 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x256 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x256 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x256 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x256 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S256x64 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S1x64 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev stage10_7 : Fin 2 → Memref sig .tc .vmem S4000x64 .f32 := fun | 0 => Memref.whole cc10_stg7_0 | 1 => Memref.whole cc10_stg7_1 | ⟨_ + 2, h⟩ => absurd h (Nat.not_lt.2 (Nat.le_add_left _ _))
abbrev sem10_7 : Fin 2 → DmaSem sig := fun | 0 => cc10_sem7_0 | 1 => cc10_sem7_1 | ⟨_ + 2, h⟩ => absurd h (Nat.not_lt.2 (Nat.le_add_left _ _))
abbrev reads10_7 : Fin grid10.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S_S100000 : S_.BroadcastsInDim S100000 (![] : Fin 0 → Fin S100000.rank)
  bcast_S1250000_S1250000x1_0 : S1250000.BroadcastsInDim S1250000x1 (![0] : Fin 1 → Fin S1250000x1.rank)
  shapeCasts_S100000_S100000x1 : S100000.ShapeCasts S100000x1
  shapeCasts_S1250000_S1250000x1 : S1250000.ShapeCasts S1250000x1
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  shapeCasts_S64_S1x64 : S64.ShapeCasts S1x64
  inb_S4000x64_S4000x64_0_0 : ∀ a, (![0, 0] : Fin 2 → Nat) a + S4000x64.size a ≤ S4000x64.size a
  h_S4000x64 : 0 < S4000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  slices_S3x16x64_S1x16x64_0_0_0 : S3x16x64.Slices ![0, 0, 0] S1x16x64
  shapeCasts_S1x16x64_S16x64 : S1x16x64.ShapeCasts S16x64
  inb_S5000x16_S5000x16_0_0 : ∀ a, (![0, 0] : Fin 2 → Nat) a + S5000x16.size a ≤ S5000x16.size a
  h_S5000x16 : 0 < S5000x16.numel
  inb_S16x64_S16x64_0_0 : ∀ a, (![0, 0] : Fin 2 → Nat) a + S16x64.size a ≤ S16x64.size a
  h_S16x64 : 0 < S16x64.numel
  shapeCasts_S16x64_S16x64 : S16x64.ShapeCasts S16x64
  broadcasts_S1x64_S5000x64 : S1x64.Broadcasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S5000x1_S5000x64 : S5000x1.Broadcasts S5000x64
  bcast_S_S100000x64 : S_.BroadcastsInDim S100000x64 (![] : Fin 0 → Fin S100000x64.rank)
  shapeCasts_S4000x64_S4000x64 : S4000x64.ShapeCasts S4000x64
  slices_S3x64x64_S1x64x64_1_0_0 : S3x64x64.Slices ![1, 0, 0] S1x64x64
  slices_S3x64_S1x64_1_0 : S3x64.Slices ![1, 0] S1x64
  slices_S3x16x64_S1x16x64_1_0_0 : S3x16x64.Slices ![1, 0, 0] S1x16x64
  slices_S3x64x64_S1x64x64_2_0_0 : S3x64x64.Slices ![2, 0, 0] S1x64x64
  slices_S3x64_S1x64_2_0 : S3x64.Slices ![2, 0] S1x64
  slices_S3x16x64_S1x16x64_2_0_0 : S3x16x64.Slices ![2, 0, 0] S1x16x64
  concatenates_S100000x64_S100000x64_S100000x64_S100000x64_S100000x256_d1 : Shape.Concatenates [S100000x64, S100000x64, S100000x64, S100000x64] S100000x256 1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  reduces_S4000x256_S256 : S4000x256.Reduces [0] S256
  shapeCasts_S256_S1x256 : S256.ShapeCasts S1x256
  bcast_S_S1x256 : S_.BroadcastsInDim S1x256 (![] : Fin 0 → Fin S1x256.rank)
  broadcasts_S1x256_S4000x256 : S1x256.Broadcasts S4000x256
  inb_S256x64_S256x64_0_0 : ∀ a, (![0, 0] : Fin 2 → Nat) a + S256x64.size a ≤ S256x64.size a
  h_S256x64 : 0 < S256x64.numel
  scatter_S100000_S1250000x1_S1250000_n_0_0_1_wf : ScatterDims.WF S100000 S1250000x1 S1250000 [] [0] [0] 1
  gather_S100000_S1250000x1_S1250000_n_0_n_n_0_1_1_wf : GatherDims.WF S100000 S1250000x1 S1250000 [] [0] [] [0] [] 1 ![1]
  dot_S4000x64_S64x64_S4000x64_1_0_0_1_n_n_wf : DotDims.WF S4000x64 S64x64 S4000x64 [1] [0] [0] [1] [] []
  gather_S100000x64_S1250000x1_S1250000x64_1_0_n_n_0_1_164_wf : GatherDims.WF S100000x64 S1250000x1 S1250000x64 [1] [0] [] [0] [] 1 ![1, 64]
  dot_S5000x16_S16x64_S5000x64_1_0_0_1_n_n_wf : DotDims.WF S5000x16 S16x64 S5000x64 [1] [0] [0] [1] [] []
  scatter_S100000x64_S1250000x1_S1250000x64_1_0_0_1_wf : ScatterDims.WF S100000x64 S1250000x1 S1250000x64 [1] [0] [0] 1
  dot_S4000x256_S256x64_S4000x64_1_0_0_1_n_n_wf : DotDims.WF S4000x256 S256x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x1.size a ≤ S100000x1.size a
  hwx0_4 : ∀ i : grid0.Coords, EltTy.bits .f32 = 32 ∨ (Rect.block (s := S100000x1) S4000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x64.size a ≤ S100000x64.size a
  hwx0_5 : ∀ i : grid0.Coords, EltTy.bits .f32 = 32 ∨ (Rect.block (s := S100000x64) S4000x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x64.size a ≤ S100000x64.size a
  hwx0_6 : ∀ i : grid0.Coords, EltTy.bits .f32 = 32 ∨ (Rect.block (s := S100000x64) S4000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S1250000x16.size a
  hwx1_0 : ∀ i : grid1.Coords, EltTy.bits .f32 = 32 ∨ (Rect.block (s := S1250000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S1250000x64.size a
  hwx1_1 : ∀ i : grid1.Coords, EltTy.bits .f32 = 32 ∨ (Rect.block (s := S1250000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S1250000x1.size a
  hwx1_2 : ∀ i : grid1.Coords, EltTy.bits .f32 = 32 ∨ (Rect.block (s := S1250000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x64.size a ≤ S16x64.size a
  hwx1_3 : ∀ i : grid1.Coords, EltTy.bits .f32 = 32 ∨ (Rect.block (s := S16x64) S16x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S1250000x64.size a
  hwx1_5 : ∀ i : grid1.Coords, EltTy.bits .f32 = 32 ∨ (Rect.block (s := S1250000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x64.size a ≤ S100000x64.size a
  hwx2_1 : ∀ i : grid2.Coords, EltTy.bits .f32 = 32 ∨ (Rect.block (s := S100000x64) S4000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x64.size a ≤ S100000x64.size a
  hwx2_2 : ∀ i : grid2.Coords, EltTy.bits .f32 = 32 ∨ (Rect.block (s := S100000x64) S4000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S100000x64.size a
  hwx3_0 : ∀ i : grid3.Coords, EltTy.bits .f32 = 32 ∨ (Rect.block (s := S100000x64) S4000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4000x1.size a ≤ S100000x1.size a
  hwx3_4 : ∀ i : grid3.Coords, EltTy.bits .f32 = 32 ∨ (Rect.block (s := S100000x1) S4000x1.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4000x64.size a ≤ S100000x64.size a
  hwx3_5 : ∀ i : grid3.Coords, EltTy.bits .f32 = 32 ∨ (Rect.block (s := S100000x64) S4000x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S4000x64.size a ≤ S100000x64.size a
  hwx3_6 : ∀ i : grid3.Coords, EltTy.bits .f32 = 32 ∨ (Rect.block (s := S100000x64) S4000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x16.size a ≤ S1250000x16.size a
  hwx4_0 : ∀ i : grid4.Coords, EltTy.bits .f32 = 32 ∨ (Rect.block (s := S1250000x16) S5000x16.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S1250000x64.size a
  hwx4_1 : ∀ i : grid4.Coords, EltTy.bits .f32 = 32 ∨ (Rect.block (s := S1250000x64) S5000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S1250000x1.size a
  hwx4_2 : ∀ i : grid4.Coords, EltTy.bits .f32 = 32 ∨ (Rect.block (s := S1250000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S16x64.size a ≤ S16x64.size a
  hwx4_3 : ∀ i : grid4.Coords, EltTy.bits .f32 = 32 ∨ (Rect.block (s := S16x64) S16x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x64.size a ≤ S1250000x64.size a
  hwx4_5 : ∀ i : grid4.Coords, EltTy.bits .f32 = 32 ∨ (Rect.block (s := S1250000x64) S5000x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x64.size a ≤ S100000x64.size a
  hwx5_0 : ∀ i : grid5.Coords, EltTy.bits .f32 = 32 ∨ (Rect.block (s := S100000x64) S4000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4000x64.size a ≤ S100000x64.size a
  hwx5_1 : ∀ i : grid5.Coords, EltTy.bits .f32 = 32 ∨ (Rect.block (s := S100000x64) S4000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4000x64.size a ≤ S100000x64.size a
  hwx5_2 : ∀ i : grid5.Coords, EltTy.bits .f32 = 32 ∨ (Rect.block (s := S100000x64) S4000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x64.size a ≤ S100000x64.size a
  hwx6_0 : ∀ i : grid6.Coords, EltTy.bits .f32 = 32 ∨ (Rect.block (s := S100000x64) S4000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S4000x1.size a ≤ S100000x1.size a
  hwx6_4 : ∀ i : grid6.Coords, EltTy.bits .f32 = 32 ∨ (Rect.block (s := S100000x1) S4000x1.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S4000x64.size a ≤ S100000x64.size a
  hwx6_5 : ∀ i : grid6.Coords, EltTy.bits .f32 = 32 ∨ (Rect.block (s := S100000x64) S4000x64.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S4000x64.size a ≤ S100000x64.size a
  hwx6_6 : ∀ i : grid6.Coords, EltTy.bits .f32 = 32 ∨ (Rect.block (s := S100000x64) S4000x64.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x16.size a ≤ S1250000x16.size a
  hwx7_0 : ∀ i : grid7.Coords, EltTy.bits .f32 = 32 ∨ (Rect.block (s := S1250000x16) S5000x16.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x64.size a ≤ S1250000x64.size a
  hwx7_1 : ∀ i : grid7.Coords, EltTy.bits .f32 = 32 ∨ (Rect.block (s := S1250000x64) S5000x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x1.size a ≤ S1250000x1.size a
  hwx7_2 : ∀ i : grid7.Coords, EltTy.bits .f32 = 32 ∨ (Rect.block (s := S1250000x1) S5000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S16x64.size a ≤ S16x64.size a
  hwx7_3 : ∀ i : grid7.Coords, EltTy.bits .f32 = 32 ∨ (Rect.block (s := S16x64) S16x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x64.size a ≤ S1250000x64.size a
  hwx7_5 : ∀ i : grid7.Coords, EltTy.bits .f32 = 32 ∨ (Rect.block (s := S1250000x64) S5000x64.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S4000x64.size a ≤ S100000x64.size a
  hwx8_0 : ∀ i : grid8.Coords, EltTy.bits .f32 = 32 ∨ (Rect.block (s := S100000x64) S4000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S4000x64.size a ≤ S100000x64.size a
  hwx8_1 : ∀ i : grid8.Coords, EltTy.bits .f32 = 32 ∨ (Rect.block (s := S100000x64) S4000x64.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S4000x64.size a ≤ S100000x64.size a
  hwx8_2 : ∀ i : grid8.Coords, EltTy.bits .f32 = 32 ∨ (Rect.block (s := S100000x64) S4000x64.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S4000x256.size a ≤ S100000x256.size a
  hwx9_0 : ∀ i : grid9.Coords, EltTy.bits .f32 = 32 ∨ (Rect.block (s := S100000x256) S4000x256.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x256.size a ≤ S1x256.size a
  hwx9_1 : ∀ i : grid9.Coords, EltTy.bits .f32 = 32 ∨ (Rect.block (s := S1x256) S1x256.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x256.size a ≤ S1x256.size a
  hwx9_2 : ∀ i : grid9.Coords, EltTy.bits .f32 = 32 ∨ (Rect.block (s := S1x256) S1x256.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S4000x256.size a ≤ S100000x256.size a
  hwx10_0 : ∀ i : grid10.Coords, EltTy.bits .f32 = 32 ∨ (Rect.block (s := S100000x256) S4000x256.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x256.size a ≤ S1x256.size a
  hwx10_1 : ∀ i : grid10.Coords, EltTy.bits .f32 = 32 ∨ (Rect.block (s := S1x256) S1x256.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x256.size a ≤ S1x256.size a
  hwx10_2 : ∀ i : grid10.Coords, EltTy.bits .f32 = 32 ∨ (Rect.block (s := S1x256) S1x256.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x256.size a ≤ S1x256.size a
  hwx10_3 : ∀ i : grid10.Coords, EltTy.bits .f32 = 32 ∨ (Rect.block (s := S1x256) S1x256.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x256.size a ≤ S1x256.size a
  hwx10_4 : ∀ i : grid10.Coords, EltTy.bits .f32 = 32 ∨ (Rect.block (s := S1x256) S1x256.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S256x64.size a ≤ S256x64.size a
  hwx10_5 : ∀ i : grid10.Coords, EltTy.bits .f32 = 32 ∨ (Rect.block (s := S256x64) S256x64.size (cc10_transform_5 i) (hinb10_5 i)).WholeWords (EltTy.packing .f32)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S1x64.size a ≤ S1x64.size a
  hwx10_6 : ∀ i : grid10.Coords, EltTy.bits .f32 = 32 ∨ (Rect.block (s := S1x64) S1x64.size (cc10_transform_6 i) (hinb10_6 i)).WholeWords (EltTy.packing .f32)
  hstage10_7 : ∀ j, (stage10_7 j).IsWhole
  nbuf10_7 : grid10.bufCount reads10_7 false = 2
  hreads10_7 : ∀ i i' : grid10.Coords, (∀ a, reads10_7 a = true → i a = i' a) → cc10_transform_7 i = cc10_transform_7 i'
  hinb10_7 : ∀ (i : grid10.Coords) a, (cc10_transform_7 i a + 1) * S4000x64.size a ≤ S100000x64.size a
  hwx10_7 : ∀ i : grid10.Coords, EltTy.bits .f32 = 32 ∨ (Rect.block (s := S100000x64) S4000x64.size (cc10_transform_7 i) (hinb10_7 i)).WholeWords (EltTy.packing .f32)

variable [Facts₀]

def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def gather_S100000_S1250000x1_S1250000_n_0_n_n_0_1_1 : GatherDims S100000 S1250000x1 S1250000 where
  offsetDims := []
  collapsedSliceDims := [0]
  operandBatchingDims := []
  startIndicesBatchingDims := []
  startIndexMap := [0]
  indexVectorDim := 1
  sliceSizes := ![1]
  wf := gather_S100000_S1250000x1_S1250000_n_0_n_n_0_1_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def dot_S5000x16_S16x64_S5000x64_1_0_0_1_n_n : DotDims S5000x16 S16x64 S5000x64 where
  lhsContracting := [1]
  rhsContracting := [0]
  lhsNonContracting := [0]
  rhsNonContracting := [1]
  lhsBatch := []
  rhsBatch := []
  wf := dot_S5000x16_S16x64_S5000x64_1_0_0_1_n_n_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S4000x256_S256x64_S4000x64_1_0_0_1_n_n : DotDims S4000x256 S256x64 S4000x64 where
  lhsContracting := [1]
  rhsContracting := [0]
  lhsNonContracting := [0]
  rhsNonContracting := [1]
  lhsBatch := []
  rhsBatch := []
  wf := dot_S4000x256_S256x64_S4000x64_1_0_0_1_n_n_wf

abbrev win0_0 : Pipeline.Window sig grid0 :=
  Pipeline.Window.ofSpec (Memref.whole main_arg0) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v37) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v38) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S4000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v39_0) S4000x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v39_1) S4000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg2) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v48) S16x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v51) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v52) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v55) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39_1) S4000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v56) S4000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v58) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v64) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v14) S4000x1.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v65_0) S4000x64.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v65_1) S4000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_arg2) S5000x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v72) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v30) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v74) S16x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v77) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v78) S5000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v81) S4000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v65_1) S4000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v82) S4000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v82) S4000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v84) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v89) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v90) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v14) S4000x1.size cc6_transform_4 reads6_4 false false 2 stage6_4 sem6_4
    hrank6 hreads6_4 hinb6_4 nbuf6_4 (Memref.isWhole_whole _) hwx6_4 hstage6_4

abbrev win6_5 : Pipeline.Window sig grid6 :=
  Pipeline.Window.ofSpec (Memref.whole main_v91_0) S4000x64.size cc6_transform_5 reads6_5 true false 2 stage6_5 sem6_5
    hrank6 hreads6_5 hinb6_5 nbuf6_5 (Memref.isWhole_whole _) hwx6_5 hstage6_5

abbrev win6_6 : Pipeline.Window sig grid6 :=
  Pipeline.Window.ofSpec (Memref.whole main_v91_1) S4000x64.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_arg2) S5000x16.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v98) S5000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v30) S5000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v100) S16x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v103) S1x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v104) S5000x64.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v107) S4000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v91_1) S4000x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v108) S4000x64.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v109) S4000x256.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v110_0) S1x256.size cc9_transform_1 reads9_1 true true 1 stage9_1 sem9_1
    hrank9 hreads9_1 hinb9_1 nbuf9_1 (Memref.isWhole_whole _) hwx9_1 hstage9_1

abbrev win9_2 : Pipeline.Window sig grid9 :=
  Pipeline.Window.ofSpec (Memref.whole main_v110_1) S1x256.size cc9_transform_2 reads9_2 true true 1 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev idle9 : Fin 3 → grid9.Coords → Bool := fun | 0 => fun _ => false | 1 => fun i => !(k9_cond2 i == 1#1) | 2 => fun i => !(k9_cond2 i == 1#1) | ⟨_ + 3, h⟩ => absurd h (Nat.not_lt.2 (Nat.le_add_left _ _))

abbrev win10_0 : Pipeline.Window sig grid10 :=
  Pipeline.Window.ofSpec (Memref.whole main_v109) S4000x256.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v112) S1x256.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v116) S1x256.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v117) S1x256.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v118) S1x256.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_arg10) S256x64.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v119) S1x64.size cc10_transform_6 reads10_6 false true 1 stage10_6 sem10_6
    hrank10 hreads10_6 hinb10_6 nbuf10_6 (Memref.isWhole_whole _) hwx10_6 hstage10_6

abbrev win10_7 : Pipeline.Window sig grid10 :=
  Pipeline.Window.ofSpec (Memref.whole main_v120) S4000x64.size cc10_transform_7 reads10_7 true false 2 stage10_7 sem10_7
    hrank10 hreads10_7 hinb10_7 nbuf10_7 (Memref.isWhole_whole _) hwx10_7 hstage10_7

abbrev win10 : Fin 8 → Pipeline.Window sig grid10 := fun | 0 => win10_0 | 1 => win10_1 | 2 => win10_2 | 3 => win10_3 | 4 => win10_4 | 5 => win10_5 | 6 => win10_6 | 7 => win10_7 | ⟨_ + 8, h⟩ => absurd h (Nat.not_lt.2 (Nat.le_add_left _ _))
abbrev spec10 : Fin 8 → Pipeline.WinSpec sig grid10.rank := fun w => (win10 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S1250000x16 : Shape := ⟨2, ![1250000, 16]⟩
abbrev S3x64x64 : Shape := ⟨3, ![3, 64, 64]⟩
abbrev S3x64 : Shape := ⟨2, ![3, 64]⟩
abbrev S3x16x64 : Shape := ⟨3, ![3, 16, 64]⟩
abbrev S256 : Shape := ⟨1, ![256]⟩
abbrev S256x64 : Shape := ⟨2, ![256, 64]⟩
abbrev S64 : Shape := ⟨1, ![64]⟩
abbrev S1x1250000 : Shape := ⟨2, ![1, 1250000]⟩
abbrev S1250000 : Shape := ⟨1, ![1250000]⟩
abbrev S_ : Shape := ⟨0, ![]⟩
abbrev S100000 : Shape := ⟨1, ![100000]⟩
abbrev S1250000x1 : Shape := ⟨2, ![1250000, 1]⟩
abbrev S1x64x64 : Shape := ⟨3, ![1, 64, 64]⟩
abbrev S64x64 : Shape := ⟨2, ![64, 64]⟩
abbrev S1x64 : Shape := ⟨2, ![1, 64]⟩
abbrev S1x16x64 : Shape := ⟨3, ![1, 16, 64]⟩
abbrev S16x64 : Shape := ⟨2, ![16, 64]⟩
abbrev S1250000x64 : Shape := ⟨2, ![1250000, 64]⟩
abbrev S100000x1 : Shape := ⟨2, ![100000, 1]⟩
abbrev S100000x256 : Shape := ⟨2, ![100000, 256]⟩
abbrev S1x256 : Shape := ⟨2, ![1, 256]⟩

abbrev nBuf : Space → Nat
  | .hbm => 233
  | .vmem => 0
  | .smem => 0
  | _ => 0

abbrev hbmTy0_0 (i : Nat) : BufTy := match i % 128 with
  | 0 => ⟨S100000x64, .f32⟩
  | 1 => ⟨S2x1250000, .i32⟩
  | 2 => ⟨S1250000x16, .f32⟩
  | 3 => ⟨S3x64x64, .f32⟩
  | 4 => ⟨S3x64, .f32⟩
  | 5 => ⟨S3x64, .f32⟩
  | 6 => ⟨S3x16x64, .f32⟩
  | 7 => ⟨S3x64, .f32⟩
  | 8 => ⟨S256, .f32⟩
  | 9 => ⟨S256, .f32⟩
  | 10 => ⟨S256x64, .f32⟩
  | 11 => ⟨S64, .f32⟩
  | 12 => ⟨S1x1250000, .i32⟩
  | 13 => ⟨S1250000, .i32⟩
  | 14 => ⟨S1x1250000, .i32⟩
  | 15 => ⟨S1250000, .i32⟩
  | 16 => ⟨S_, .f32⟩
  | 17 => ⟨S1250000, .f32⟩
  | 18 => ⟨S_, .f32⟩
  | 19 => ⟨S100000, .f32⟩
  | 20 => ⟨S1250000x1, .i32⟩
  | 21 => ⟨S100000, .f32⟩
  | 22 => ⟨S_, .f32⟩
  | 23 => ⟨S100000, .f32⟩
  | 24 => ⟨S100000, .f32⟩
  | 25 => ⟨S_, .f32⟩
  | 26 => ⟨S100000, .f32⟩
  | 27 => ⟨S100000, .f32⟩
  | 28 => ⟨S_, .i32⟩
  | 29 => ⟨S1250000, .i32⟩
  | 30 => ⟨S1250000, .i1⟩
  | 31 => ⟨S_, .i32⟩
  | 32 => ⟨S1250000, .i32⟩
  | 33 => ⟨S1250000, .i32⟩
  | 34 => ⟨S1250000, .i32⟩
  | 35 => ⟨S1250000x1, .i32⟩
  | 36 => ⟨S1250000, .f32⟩
  | 37 => ⟨S_, .i32⟩
  | 38 => ⟨S1250000, .i32⟩
  | 39 => ⟨S1250000, .i1⟩
  | 40 => ⟨S_, .i32⟩
  | 41 => ⟨S1250000, .i32⟩
  | 42 => ⟨S1250000, .i32⟩
  | 43 => ⟨S1250000, .i32⟩
  | 44 => ⟨S1250000x1, .i32⟩
  | 45 => ⟨S1250000, .f32⟩
  | 46 => ⟨S1250000, .f32⟩
  | 47 => ⟨S1250000x1, .f32⟩
  | 48 => ⟨S1x64x64, .f32⟩
  | 49 => ⟨S64x64, .f32⟩
  | 50 => ⟨S100000x64, .f32⟩
  | 51 => ⟨S1x64, .f32⟩
  | 52 => ⟨S64, .f32⟩
  | 53 => ⟨S1x64, .f32⟩
  | 54 => ⟨S100000x64, .f32⟩
  | 55 => ⟨S100000x64, .f32⟩
  | 56 => ⟨S1x16x64, .f32⟩
  | 57 => ⟨S16x64, .f32⟩
  | 58 => ⟨S1250000x64, .f32⟩
  | 59 => ⟨S1x64, .f32⟩
  | 60 => ⟨S64, .f32⟩
  | 61 => ⟨S1x64, .f32⟩
  | 62 => ⟨S1250000x64, .f32⟩
  | 63 => ⟨S1250000x64, .f32⟩
  | 64 => ⟨S_, .i32⟩
  | 65 => ⟨S1250000, .i32⟩
  | 66 => ⟨S1250000, .i1⟩
  | 67 => ⟨S_, .i32⟩
  | 68 => ⟨S1250000, .i32⟩
  | 69 => ⟨S1250000, .i32⟩
  | 70 => ⟨S1250000, .i32⟩
  | 71 => ⟨S1250000x1, .i32⟩
  | 72 => ⟨S1250000x64, .f32⟩
  | 73 => ⟨S1250000x64, .f32⟩
  | 74 => ⟨S_, .f32⟩
  | 75 => ⟨S1250000x64, .f32⟩
  | 76 => ⟨S1250000x64, .f32⟩
  | 77 => ⟨S1250000x64, .f32⟩
  | 78 => ⟨S1250000x64, .f32⟩
  | 79 => ⟨S_, .f32⟩
  | 80 => ⟨S100000x64, .f32⟩
  | 81 => ⟨S1250000x1, .i32⟩
  | 82 => ⟨S100000x64, .f32⟩
  | 83 => ⟨S1x64, .f32⟩
  | 84 => ⟨S64, .f32⟩
  | 85 => ⟨S1x64, .f32⟩
  | 86 => ⟨S100000x64, .f32⟩
  | 87 => ⟨S100000x64, .f32⟩
  | 88 => ⟨S_, .f32⟩
  | 89 => ⟨S100000x64, .f32⟩
  | 90 => ⟨S100000x64, .f32⟩
  | 91 => ⟨S100000x1, .f32⟩
  | 92 => ⟨S100000x64, .f32⟩
  | 93 => ⟨S100000x64, .f32⟩
  | 94 => ⟨S100000x64, .f32⟩
  | 95 => ⟨S_, .f32⟩
  | 96 => ⟨S100000x64, .f32⟩
  | 97 => ⟨S100000x64, .f32⟩
  | 98 => ⟨S1x64x64, .f32⟩
  | 99 => ⟨S64x64, .f32⟩
  | 100 => ⟨S100000x64, .f32⟩
  | 101 => ⟨S1x64, .f32⟩
  | 102 => ⟨S64, .f32⟩
  | 103 => ⟨S1x64, .f32⟩
  | 104 => ⟨S100000x64, .f32⟩
  | 105 => ⟨S100000x64, .f32⟩
  | 106 => ⟨S1x16x64, .f32⟩
  | 107 => ⟨S16x64, .f32⟩
  | 108 => ⟨S1250000x64, .f32⟩
  | 109 => ⟨S1x64, .f32⟩
  | 110 => ⟨S64, .f32⟩
  | 111 => ⟨S1x64, .f32⟩
  | 112 => ⟨S1250000x64, .f32⟩
  | 113 => ⟨S1250000x64, .f32⟩
  | 114 => ⟨S_, .i32⟩
  | 115 => ⟨S1250000, .i32⟩
  | 116 => ⟨S1250000, .i1⟩
  | 117 => ⟨S_, .i32⟩
  | 118 => ⟨S1250000, .i32⟩
  | 119 => ⟨S1250000, .i32⟩
  | 120 => ⟨S1250000, .i32⟩
  | 121 => ⟨S1250000x1, .i32⟩
  | 122 => ⟨S1250000x64, .f32⟩
  | 123 => ⟨S1250000x64, .f32⟩
  | 124 => ⟨S_, .f32⟩
  | 125 => ⟨S1250000x64, .f32⟩
  | 126 => ⟨S1250000x64, .f32⟩
  | 127 => ⟨S1250000x64, .f32⟩
  | _ => ⟨S100000x64, .f32⟩

abbrev hbmTy0_1 (i : Nat) : BufTy := match i % 128 with
  | 0 => ⟨S1250000x64, .f32⟩
  | 1 => ⟨S_, .f32⟩
  | 2 => ⟨S100000x64, .f32⟩
  | 3 => ⟨S1250000x1, .i32⟩
  | 4 => ⟨S100000x64, .f32⟩
  | 5 => ⟨S1x64, .f32⟩
  | 6 => ⟨S64, .f32⟩
  | 7 => ⟨S1x64, .f32⟩
  | 8 => ⟨S100000x64, .f32⟩
  | 9 => ⟨S100000x64, .f32⟩
  | 10 => ⟨S_, .f32⟩
  | 11 => ⟨S100000x64, .f32⟩
  | 12 => ⟨S100000x64, .f32⟩
  | 13 => ⟨S100000x1, .f32⟩
  | 14 => ⟨S100000x64, .f32⟩
  | 15 => ⟨S100000x64, .f32⟩
  | 16 => ⟨S100000x64, .f32⟩
  | 17 => ⟨S_, .f32⟩
  | 18 => ⟨S100000x64, .f32⟩
  | 19 => ⟨S100000x64, .f32⟩
  | 20 => ⟨S1x64x64, .f32⟩
  | 21 => ⟨S64x64, .f32⟩
  | 22 => ⟨S100000x64, .f32⟩
  | 23 => ⟨S1x64, .f32⟩
  | 24 => ⟨S64, .f32⟩
  | 25 => ⟨S1x64, .f32⟩
  | 26 => ⟨S100000x64, .f32⟩
  | 27 => ⟨S100000x64, .f32⟩
  | 28 => ⟨S1x16x64, .f32⟩
  | 29 => ⟨S16x64, .f32⟩
  | 30 => ⟨S1250000x64, .f32⟩
  | 31 => ⟨S1x64, .f32⟩
  | 32 => ⟨S64, .f32⟩
  | 33 => ⟨S1x64, .f32⟩
  | 34 => ⟨S1250000x64, .f32⟩
  | 35 => ⟨S1250000x64, .f32⟩
  | 36 => ⟨S_, .i32⟩
  | 37 => ⟨S1250000, .i32⟩
  | 38 => ⟨S1250000, .i1⟩
  | 39 => ⟨S_, .i32⟩
  | 40 => ⟨S1250000, .i32⟩
  | 41 => ⟨S1250000, .i32⟩
  | 42 => ⟨S1250000, .i32⟩
  | 43 => ⟨S1250000x1, .i32⟩
  | 44 => ⟨S1250000x64, .f32⟩
  | 45 => ⟨S1250000x64, .f32⟩
  | 46 => ⟨S_, .f32⟩
  | 47 => ⟨S1250000x64, .f32⟩
  | 48 => ⟨S1250000x64, .f32⟩
  | 49 => ⟨S1250000x64, .f32⟩
  | 50 => ⟨S1250000x64, .f32⟩
  | 51 => ⟨S_, .f32⟩
  | 52 => ⟨S100000x64, .f32⟩
  | 53 => ⟨S1250000x1, .i32⟩
  | 54 => ⟨S100000x64, .f32⟩
  | 55 => ⟨S1x64, .f32⟩
  | 56 => ⟨S64, .f32⟩
  | 57 => ⟨S1x64, .f32⟩
  | 58 => ⟨S100000x64, .f32⟩
  | 59 => ⟨S100000x64, .f32⟩
  | 60 => ⟨S_, .f32⟩
  | 61 => ⟨S100000x64, .f32⟩
  | 62 => ⟨S100000x64, .f32⟩
  | 63 => ⟨S100000x1, .f32⟩
  | 64 => ⟨S100000x64, .f32⟩
  | 65 => ⟨S100000x64, .f32⟩
  | 66 => ⟨S100000x64, .f32⟩
  | 67 => ⟨S_, .f32⟩
  | 68 => ⟨S100000x64, .f32⟩
  | 69 => ⟨S100000x64, .f32⟩
  | 70 => ⟨S100000x256, .f32⟩
  | 71 => ⟨S_, .f32⟩
  | 72 => ⟨S256, .f32⟩
  | 73 => ⟨S_, .f32⟩
  | 74 => ⟨S256, .f32⟩
  | 75 => ⟨S256, .f32⟩
  | 76 => ⟨S1x256, .f32⟩
  | 77 => ⟨S100000x256, .f32⟩
  | 78 => ⟨S100000x256, .f32⟩
  | 79 => ⟨S100000x256, .f32⟩
  | 80 => ⟨S_, .f32⟩
  | 81 => ⟨S256, .f32⟩
  | 82 => ⟨S_, .f32⟩
  | 83 => ⟨S256, .f32⟩
  | 84 => ⟨S256, .f32⟩
  | 85 => ⟨S1x256, .f32⟩
  | 86 => ⟨S100000x256, .f32⟩
  | 87 => ⟨S100000x256, .f32⟩
  | 88 => ⟨S_, .f32⟩
  | 89 => ⟨S256, .f32⟩
  | 90 => ⟨S256, .f32⟩
  | 91 => ⟨S256, .f32⟩
  | 92 => ⟨S1x256, .f32⟩
  | 93 => ⟨S100000x256, .f32⟩
  | 94 => ⟨S100000x256, .f32⟩
  | 95 => ⟨S1x256, .f32⟩
  | 96 => ⟨S100000x256, .f32⟩
  | 97 => ⟨S100000x256, .f32⟩
  | 98 => ⟨S1x256, .f32⟩
  | 99 => ⟨S100000x256, .f32⟩
  | 100 => ⟨S100000x256, .f32⟩
  | 101 => ⟨S100000x64, .f32⟩
  | 102 => ⟨S1x64, .f32⟩
  | 103 => ⟨S100000x64, .f32⟩
  | 104 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_c_5 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_6 : Ref sig .tc := ⟨.hbm, 64, rfl⟩
abbrev main_v44 : Ref sig .tc := ⟨.hbm, 65, rfl⟩
abbrev main_v45 : Ref sig .tc := ⟨.hbm, 66, rfl⟩
abbrev main_c_7 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_call0_cst : Ref sig .tc := ⟨.hbm, 74, rfl⟩
abbrev main_call0_v0 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_8 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_call1_cst : Ref sig .tc := ⟨.hbm, 88, rfl⟩
abbrev main_call1_v0 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_call2_cst : Ref sig .tc := ⟨.hbm, 95, rfl⟩
abbrev main_call2_v0 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_c_9 : Ref sig .tc := ⟨.hbm, 114, rfl⟩
abbrev main_v85 : Ref sig .tc := ⟨.hbm, 115, rfl⟩
abbrev main_v86 : Ref sig .tc := ⟨.hbm, 116, rfl⟩
abbrev main_c_10 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_call3_cst : Ref sig .tc := ⟨.hbm, 124, rfl⟩
abbrev main_call3_v0 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_cst_11 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_call4_cst : Ref sig .tc := ⟨.hbm, 138, rfl⟩
abbrev main_call4_v0 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_call5_cst : Ref sig .tc := ⟨.hbm, 145, rfl⟩
abbrev main_call5_v0 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_c_12 : Ref sig .tc := ⟨.hbm, 164, rfl⟩
abbrev main_v126 : Ref sig .tc := ⟨.hbm, 165, rfl⟩
abbrev main_v127 : Ref sig .tc := ⟨.hbm, 166, rfl⟩
abbrev main_c_13 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_call6_cst : Ref sig .tc := ⟨.hbm, 174, rfl⟩
abbrev main_call6_v0 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_cst_14 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_call7_cst : Ref sig .tc := ⟨.hbm, 188, rfl⟩
abbrev main_call7_v0 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_call8_cst : Ref sig .tc := ⟨.hbm, 195, rfl⟩
abbrev main_call8_v0 : Ref sig .tc := ⟨.hbm, 196, rfl⟩
abbrev main_v150 : Ref sig .tc := ⟨.hbm, 197, rfl⟩
abbrev main_v151 : Ref sig .tc := ⟨.hbm, 198, rfl⟩
abbrev main_cst_15 : Ref sig .tc := ⟨.hbm, 199, rfl⟩
abbrev main_v152 : Ref sig .tc := ⟨.hbm, 200, rfl⟩
abbrev main_cst_16 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_cst_17 : Ref sig .tc := ⟨.hbm, 208, rfl⟩
abbrev main_v159 : Ref sig .tc := ⟨.hbm, 209, rfl⟩
abbrev main_cst_18 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_cst_19 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev main_v180 : Ref sig .tc := ⟨.hbm, 232, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S_S100000 : S_.BroadcastsInDim S100000 (![] : Fin 0 → Fin S100000.rank)
  bcast_S1250000_S1250000x1_0 : S1250000.BroadcastsInDim S1250000x1 (![0] : Fin 1 → Fin S1250000x1.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S3x16x64_S1x16x64_0_0_0 : S3x16x64.Slices ![0, 0, 0] S1x16x64
  shapeCasts_S1x16x64_S16x64 : S1x16x64.ShapeCasts S16x64
  bcast_S1x64_S1250000x64_0_1 : S1x64.BroadcastsInDim S1250000x64 (![0, 1] : Fin 2 → Fin S1250000x64.rank)
  bcast_S_S1250000x64 : S_.BroadcastsInDim S1250000x64 (![] : Fin 0 → Fin S1250000x64.rank)
  bcast_S1250000x1_S1250000x64_0_1 : S1250000x1.BroadcastsInDim S1250000x64 (![0, 1] : Fin 2 → Fin S1250000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  slices_S3x64x64_S1x64x64_1_0_0 : S3x64x64.Slices ![1, 0, 0] S1x64x64
  slices_S3x64_S1x64_1_0 : S3x64.Slices ![1, 0] S1x64
  slices_S3x16x64_S1x16x64_1_0_0 : S3x16x64.Slices ![1, 0, 0] S1x16x64
  slices_S3x64x64_S1x64x64_2_0_0 : S3x64x64.Slices ![2, 0, 0] S1x64x64
  slices_S3x64_S1x64_2_0 : S3x64.Slices ![2, 0] S1x64
  slices_S3x16x64_S1x16x64_2_0_0 : S3x16x64.Slices ![2, 0, 0] S1x16x64
  concatenates_S100000x64_S100000x64_S100000x64_S100000x64_S100000x256_d1 : Shape.Concatenates [S100000x64, S100000x64, S100000x64, S100000x64] S100000x256 1
  reducesTo_S100000x256_S256_d0 : S100000x256.ReducesTo [0] S256
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  scatter_S100000_S1250000x1_S1250000_n_0_0_1_wf : ScatterDims.WF S100000 S1250000x1 S1250000 [] [0] [0] 1
  gather_S100000_S1250000x1_S1250000_n_0_n_n_0_1_1_wf : GatherDims.WF S100000 S1250000x1 S1250000 [] [0] [] [0] [] 1 ![1]
  dot_S100000x64_S64x64_S100000x64_1_0_0_1_n_n_wf : DotDims.WF S100000x64 S64x64 S100000x64 [1] [0] [0] [1] [] []
  dot_S1250000x16_S16x64_S1250000x64_1_0_0_1_n_n_wf : DotDims.WF S1250000x16 S16x64 S1250000x64 [1] [0] [0] [1] [] []
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S100000x256_S256x64_S100000x64_1_0_0_1_n_n_wf : DotDims.WF S100000x256 S256x64 S100000x64 [1] [0] [0] [1] [] []

variable [Facts₀]

def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def gather_S100000_S1250000x1_S1250000_n_0_n_n_0_1_1 : GatherDims S100000 S1250000x1 S1250000 where
  offsetDims := []
  collapsedSliceDims := [0]
  operandBatchingDims := []
  startIndicesBatchingDims := []
  startIndexMap := [0]
  indexVectorDim := 1
  sliceSizes := ![1]
  wf := gather_S100000_S1250000x1_S1250000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S1250000x16_S16x64_S1250000x64_1_0_0_1_n_n : DotDims S1250000x16 S16x64 S1250000x64 where
  lhsContracting := [1]
  rhsContracting := [0]
  lhsNonContracting := [0]
  rhsNonContracting := [1]
  lhsBatch := []
  rhsBatch := []
  wf := dot_S1250000x16_S16x64_S1250000x64_1_0_0_1_n_n_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf

class Facts : Prop extends Facts₀ where

variable [Facts]
-- ==== Proof.KReg0.lean ====
/-
  Region 0 of @main, layer 1's node update: on each block of 4000 nodes, h = x·W + b (one matrix product into a zero accumulator) goes to the first output and max(h + root_emb, 0)·inv_deg to the second. Here: what the body leaves in its buffers, its run, and the pipeline's proof data with the body obligation at every grid point.
-/
import proofs.«161825_j7842610283390_1_alg».proof.Proof.Gen.Kernel.Launch
import proofs.«161825_j7842610283390_1_alg».proof.Proof.Gen.Kernel.Skeleton
import proofs.«161825_j7842610283390_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` that grid point `t` works on, read off the window's array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether the point fetched it or an earlier one
    did and the block index has not moved since. -/
theorem held0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- An input window's staging buffer holds its block at every point, whether the point fetched it or an earlier one
    did and the block index has not moved since. -/
theorem held0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- An input window's staging buffer holds its block at every point, whether the point fetched it or an earlier one
    did and the block index has not moved since. -/
theorem held0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-- An input window's staging buffer holds its block at every point, whether the point fetched it or an earlier one
    did and the block index has not moved since. -/
theorem held0_3_of {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)

/-- An input window's staging buffer holds its block at every point, whether the point fetched it or an earlier one
    did and the block index has not moved since. -/
theorem held0_4_of {c : Dev nD} (dat : Dat τ (Elt F) Unit ℕ (UR sig nD τ) ℕ cfg0 c) (hA : dat.A 4 = V c (Pipeline.arrRef spec0 4))
    (hafter : ∀ t, dat.after 4 t = blk0 V c 4 t) (t : Fin cfg0.N) (d) : dat.before 4 t d = blk0 V c 4 t :=
  (dat.before_in_eq_fetched 4 rfl (fun _ => rfl) (fun _ _ _ => rfl) (fun t => by rw [hafter]; unfold Dat.blockOf blk0; rw [hA]; try rfl) t d).trans
    (by unfold Dat.fetched Dat.blockOf blk0; rw [hA]; try rfl)

/-- The whole rectangle of a `S4000x64` buffer: every load and store of the body is of this form. -/
abbrev whole0_S4000x64 : Rect S4000x64 := Rect.unit (s := S4000x64) ![0, 0] S4000x64.size inb_S4000x64_S4000x64_0_0

/-- The whole rectangle of a `S64x64` buffer: every load and store of the body is of this form. -/
abbrev whole0_S64x64 : Rect S64x64 := Rect.unit (s := S64x64) ![0, 0] S64x64.size inb_S64x64_S64x64_0_0

/-- The whole rectangle of a `S1x64` buffer: every load and store of the body is of this form. -/
abbrev whole0_S1x64 : Rect S1x64 := Rect.unit (s := S1x64) ![0, 0] S1x64.size inb_S1x64_S1x64_0_0

/-- The whole rectangle of a `S4000x1` buffer: every load and store of the body is of this form. -/
abbrev whole0_S4000x1 : Rect S4000x1 := Rect.unit (s := S4000x1) ![0, 0] S4000x1.size inb_S4000x1_S4000x1_0_0

/-- What the body leaves in output window 5's staging buffer, from the input blocks: its one whole-buffer store. -/
def res0_5 (x0 : Vec F S4000x64 .f32) (x1 : Vec F S64x64 .f32) (x2 : Vec F S1x64 .f32) (x3 : Vec F S1x64 .f32) (x4 : Vec F S4000x1 .f32) : Vec F S4000x64 .f32 :=
  View.canon [⟨whole0_S4000x64, k0_pay1 (View.ld x0 whole0_S4000x64) (View.ld x1 whole0_S64x64) (View.ld x2 whole0_S1x64)⟩]

/-- That store covers the buffer. -/
theorem tiles0_5 (p0 : Vec F S4000x64 .f32) (y : S4000x64.Idx) :
    ∃ pc ∈ ([⟨whole0_S4000x64, p0⟩] : List (View.Piece (Elt F) S4000x64 .f32)), y ∈ pc.1.set :=
  View.cover_of_tiled [⟨whole0_S4000x64, p0⟩] S4000x64.size (by rfl) y

/-- What the body leaves in output window 6's staging buffer, from the input blocks: its one whole-buffer store. -/
def res0_6 (x0 : Vec F S4000x64 .f32) (x1 : Vec F S64x64 .f32) (x2 : Vec F S1x64 .f32) (x3 : Vec F S1x64 .f32) (x4 : Vec F S4000x1 .f32) : Vec F S4000x64 .f32 :=
  View.canon [⟨whole0_S4000x64, k0_pay2 (View.ld x0 whole0_S4000x64) (View.ld x1 whole0_S64x64) (View.ld x2 whole0_S1x64) (View.ld x3 whole0_S1x64) (View.ld x4 whole0_S4000x1)⟩]

/-- That store covers the buffer. -/
theorem tiles0_6 (p0 : Vec F S4000x64 .f32) (y : S4000x64.Idx) :
    ∃ pc ∈ ([⟨whole0_S4000x64, p0⟩] : List (View.Piece (Elt F) S4000x64 .f32)), y ∈ pc.1.set :=
  View.cover_of_tiled [⟨whole0_S4000x64, p0⟩] S4000x64.size (by rfl) y

set_option maxHeartbeats 1000000 in
/-- The body on whole staging buffers — the inputs' holding `xW`, the outputs' holding anything — runs to the end,
    leaves the inputs' as they were and each output's at its one store's payload of the inputs. -/
theorem bodyRun0 (c : Dev nD) (E : Set ℕ) (i : grid0.Coords) (a0 : Memref sig .tc .vmem S4000x64 .f32) (ha0 : a0.IsWhole) (a1 : Memref sig .tc .vmem S64x64 .f32) (ha1 : a1.IsWhole) (a2 : Memref sig .tc .vmem S1x64 .f32) (ha2 : a2.IsWhole) (a3 : Memref sig .tc .vmem S1x64 .f32) (ha3 : a3.IsWhole) (a4 : Memref sig .tc .vmem S4000x1 .f32) (ha4 : a4.IsWhole) (a5 : Memref sig .tc .vmem S4000x64 .f32) (ha5 : a5.IsWhole) (a6 : Memref sig .tc .vmem S4000x64 .f32) (ha6 : a6.IsWhole)
    (x0 : Vec F S4000x64 .f32) (x1 : Vec F S64x64 .f32) (x2 : Vec F S1x64 .f32) (x3 : Vec F S1x64 .f32) (x4 : Vec F S4000x1 .f32) (Q : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d) ∗ (∃ d, owns (c : Thread nD τ) a6 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare (res0_5 x0 x1 x2 x3 x4) ∗ owns (c : Thread nD τ) a6 fullShare (res0_6 x0 x1 x2 x3 x4)) -∗ Q ⟨⟩))
      ⊢ wp frame (wpE (defs₀ (F := F)) Variants.none c none) E (cc0__node_update_kernel i a0 ha0 a1 ha1 a2 ha2 a3 ha3 a4 ha4 a5 ha5 a6 ha6) Q := by
  simp only [cc0__node_update_kernel_eq_skeleton]; unfold cc0__node_update_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (tiles0_5 _)
  iexists _; isplitr
  swap; · iexact H6
  ipureintro
  exact View.read_writes_eq_canon _ _ _ (tiles0_6 _)

/-- The pipeline's proof data on core `c`: the arrays as the region finds them; after the body at point `t` each input
    buffer holds its block and each output buffer the body's result on the input blocks; the invariant is the plain one
    (the scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => res0_5 (blk0 V c 0 t) (blk0 V c 1 t) (blk0 V c 2 t) (blk0 V c 3 t) (blk0 V c 4 t)
    | ⟨6, _⟩ => res0_6 (blk0 V c 0 t) (blk0 V c 1 t) (blk0 V c 2 t) (blk0 V c 3 t) (blk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) : (dat0 V c).after 5 t = res0_5 (blk0 V c 0 t) (blk0 V c 1 t) (blk0 V c 2 t) (blk0 V c 3 t) (blk0 V c 4 t) := by dsimp only [dat0]
theorem after0_6 (c : Dev nD) (t : Fin cfg0.N) : (dat0 V c).after 6 t = res0_6 (blk0 V c 0 t) (blk0 V c 1 t) (blk0 V c 2 t) (blk0 V c 3 t) (blk0 V c 4 t) := by dsimp only [dat0]

theorem held0_0 (c : Dev nD) (t : Fin cfg0.N) (d) : (dat0 V c).before 0 t d = blk0 V c 0 t :=
  held0_0_of V (dat0 V c) (A_eq0 V c 0) (after0_0 V c) t d
theorem held0_1 (c : Dev nD) (t : Fin cfg0.N) (d) : (dat0 V c).before 1 t d = blk0 V c 1 t :=
  held0_1_of V (dat0 V c) (A_eq0 V c 1) (after0_1 V c) t d
theorem held0_2 (c : Dev nD) (t : Fin cfg0.N) (d) : (dat0 V c).before 2 t d = blk0 V c 2 t :=
  held0_2_of V (dat0 V c) (A_eq0 V c 2) (after0_2 V c) t d
theorem held0_3 (c : Dev nD) (t : Fin cfg0.N) (d) : (dat0 V c).before 3 t d = blk0 V c 3 t :=
  held0_3_of V (dat0 V c) (A_eq0 V c 3) (after0_3 V c) t d
theorem held0_4 (c : Dev nD) (t : Fin cfg0.N) (d) : (dat0 V c).before 4 t d = blk0 V c 4 t :=
  held0_4_of V (dat0 V c) (A_eq0 V c 4) (after0_4 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so `bodyRun0` applies; the invariant and what the
    core owes pass through unread. -/
theorem bodyStep0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [held0_0, held0_1, held0_2, held0_3, held0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (bodyRun0 c Set.univ _ _ _ _ _ _ _ _ _ _ _ _ _ _ _ (blk0 V c 0 t) (blk0 V c 1 t) (blk0 V c 2 t) (blk0 V c 3 t) (blk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact bodyStep0 V c t

end Cert.Kernel.Hand

end
-- ==== Proof.KReg1.lean ====
/-
  Region 1 of @main, layer 1's edge messages: on each block of 5000 edges, msg = norm·max(h_row + (edge_attr·W_e + b_e), 0). Here: what the body leaves in its buffers, its run, and the pipeline's proof data with the body obligation at every grid point.
-/
import proofs.«161825_j7842610283390_1_alg».proof.Proof.Gen.Kernel.Launch
import proofs.«161825_j7842610283390_1_alg».proof.Proof.Gen.Kernel.Skeleton
import proofs.«161825_j7842610283390_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` that grid point `t` works on, read off the window's array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether the point fetched it or an earlier one
    did and the block index has not moved since. -/
theorem held1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- An input window's staging buffer holds its block at every point, whether the point fetched it or an earlier one
    did and the block index has not moved since. -/
theorem held1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- An input window's staging buffer holds its block at every point, whether the point fetched it or an earlier one
    did and the block index has not moved since. -/
theorem held1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-- An input window's staging buffer holds its block at every point, whether the point fetched it or an earlier one
    did and the block index has not moved since. -/
theorem held1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

/-- An input window's staging buffer holds its block at every point, whether the point fetched it or an earlier one
    did and the block index has not moved since. -/
theorem held1_4_of {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)

/-- The whole rectangle of a `S5000x16` buffer: every load and store of the body is of this form. -/
abbrev whole1_S5000x16 : Rect S5000x16 := Rect.unit (s := S5000x16) ![0, 0] S5000x16.size inb_S5000x16_S5000x16_0_0

/-- The whole rectangle of a `S5000x64` buffer: every load and store of the body is of this form. -/
abbrev whole1_S5000x64 : Rect S5000x64 := Rect.unit (s := S5000x64) ![0, 0] S5000x64.size inb_S5000x64_S5000x64_0_0

/-- The whole rectangle of a `S5000x1` buffer: every load and store of the body is of this form. -/
abbrev whole1_S5000x1 : Rect S5000x1 := Rect.unit (s := S5000x1) ![0, 0] S5000x1.size inb_S5000x1_S5000x1_0_0

/-- The whole rectangle of a `S16x64` buffer: every load and store of the body is of this form. -/
abbrev whole1_S16x64 : Rect S16x64 := Rect.unit (s := S16x64) ![0, 0] S16x64.size inb_S16x64_S16x64_0_0

/-- The whole rectangle of a `S1x64` buffer: every load and store of the body is of this form. -/
abbrev whole1_S1x64 : Rect S1x64 := Rect.unit (s := S1x64) ![0, 0] S1x64.size inb_S1x64_S1x64_0_0

/-- What the body leaves in output window 5's staging buffer, from the input blocks: its one whole-buffer store. -/
def res1_5 (x0 : Vec F S5000x16 .f32) (x1 : Vec F S5000x64 .f32) (x2 : Vec F S5000x1 .f32) (x3 : Vec F S16x64 .f32) (x4 : Vec F S1x64 .f32) : Vec F S5000x64 .f32 :=
  View.canon [⟨whole1_S5000x64, k1_pay1 (View.ld x0 whole1_S5000x16) (View.ld x3 whole1_S16x64) (View.ld x4 whole1_S1x64) (View.ld x2 whole1_S5000x1) (View.ld x1 whole1_S5000x64)⟩]

/-- That store covers the buffer. -/
theorem tiles1_5 (p0 : Vec F S5000x64 .f32) (y : S5000x64.Idx) :
    ∃ pc ∈ ([⟨whole1_S5000x64, p0⟩] : List (View.Piece (Elt F) S5000x64 .f32)), y ∈ pc.1.set :=
  View.cover_of_tiled [⟨whole1_S5000x64, p0⟩] S5000x64.size (by rfl) y

set_option maxHeartbeats 1000000 in
/-- The body on whole staging buffers — the inputs' holding `xW`, the outputs' holding anything — runs to the end,
    leaves the inputs' as they were and each output's at its one store's payload of the inputs. -/
theorem bodyRun1 (c : Dev nD) (E : Set ℕ) (i : grid1.Coords) (a0 : Memref sig .tc .vmem S5000x16 .f32) (ha0 : a0.IsWhole) (a1 : Memref sig .tc .vmem S5000x64 .f32) (ha1 : a1.IsWhole) (a2 : Memref sig .tc .vmem S5000x1 .f32) (ha2 : a2.IsWhole) (a3 : Memref sig .tc .vmem S16x64 .f32) (ha3 : a3.IsWhole) (a4 : Memref sig .tc .vmem S1x64 .f32) (ha4 : a4.IsWhole) (a5 : Memref sig .tc .vmem S5000x64 .f32) (ha5 : a5.IsWhole)
    (x0 : Vec F S5000x16 .f32) (x1 : Vec F S5000x64 .f32) (x2 : Vec F S5000x1 .f32) (x3 : Vec F S16x64 .f32) (x4 : Vec F S1x64 .f32) (Q : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare (res1_5 x0 x1 x2 x3 x4)) -∗ Q ⟨⟩))
      ⊢ wp frame (wpE (defs₀ (F := F)) Variants.none c none) E (cc1__msg_kernel i a0 ha0 a1 ha1 a2 ha2 a3 ha3 a4 ha4 a5 ha5) Q := by
  simp only [cc1__msg_kernel_eq_skeleton]; unfold cc1__msg_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (tiles1_5 _)

/-- The pipeline's proof data on core `c`: the arrays as the region finds them; after the body at point `t` each input
    buffer holds its block and each output buffer the body's result on the input blocks; the invariant is the plain one
    (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => res1_5 (blk1 V c 0 t) (blk1 V c 1 t) (blk1 V c 2 t) (blk1 V c 3 t) (blk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = res1_5 (blk1 V c 0 t) (blk1 V c 1 t) (blk1 V c 2 t) (blk1 V c 3 t) (blk1 V c 4 t) := by dsimp only [dat1]

theorem held1_0 (c : Dev nD) (t : Fin cfg1.N) (d) : (dat1 V c).before 0 t d = blk1 V c 0 t :=
  held1_0_of V (dat1 V c) (A_eq1 V c 0) (after1_0 V c) t d
theorem held1_1 (c : Dev nD) (t : Fin cfg1.N) (d) : (dat1 V c).before 1 t d = blk1 V c 1 t :=
  held1_1_of V (dat1 V c) (A_eq1 V c 1) (after1_1 V c) t d
theorem held1_2 (c : Dev nD) (t : Fin cfg1.N) (d) : (dat1 V c).before 2 t d = blk1 V c 2 t :=
  held1_2_of V (dat1 V c) (A_eq1 V c 2) (after1_2 V c) t d
theorem held1_3 (c : Dev nD) (t : Fin cfg1.N) (d) : (dat1 V c).before 3 t d = blk1 V c 3 t :=
  held1_3_of V (dat1 V c) (A_eq1 V c 3) (after1_3 V c) t d
theorem held1_4 (c : Dev nD) (t : Fin cfg1.N) (d) : (dat1 V c).before 4 t d = blk1 V c 4 t :=
  held1_4_of V (dat1 V c) (A_eq1 V c 4) (after1_4 V c) t d

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so `bodyRun1` applies; the invariant and what the
    core owes pass through unread. -/
theorem bodyStep1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [held1_0, held1_1, held1_2, held1_3, held1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (bodyRun1 c Set.univ _ _ _ _ _ _ _ _ _ _ _ _ _ (blk1 V c 0 t) (blk1 V c 1 t) (blk1 V c 2 t) (blk1 V c 3 t) (blk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact bodyStep1 V c t

end Cert.Kernel.Hand

end
-- ==== Proof.KReg2.lean ====
/-
  Region 2 of @main, layer 1's closing step: on each block of 4000 nodes the new features are max(aggr + root, 0). Here: what the body leaves in its buffers, its run, and the pipeline's proof data with the body obligation at every grid point.
-/
import proofs.«161825_j7842610283390_1_alg».proof.Proof.Gen.Kernel.Launch
import proofs.«161825_j7842610283390_1_alg».proof.Proof.Gen.Kernel.Skeleton
import proofs.«161825_j7842610283390_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` that grid point `t` works on, read off the window's array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, whether the point fetched it or an earlier one
    did and the block index has not moved since. -/
theorem held2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-- An input window's staging buffer holds its block at every point, whether the point fetched it or an earlier one
    did and the block index has not moved since. -/
theorem held2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-- The whole rectangle of a `S4000x64` buffer: every load and store of the body is of this form. -/
abbrev whole2_S4000x64 : Rect S4000x64 := Rect.unit (s := S4000x64) ![0, 0] S4000x64.size inb_S4000x64_S4000x64_0_0

/-- What the body leaves in output window 2's staging buffer, from the input blocks: its one whole-buffer store. -/
def res2_2 (x0 : Vec F S4000x64 .f32) (x1 : Vec F S4000x64 .f32) : Vec F S4000x64 .f32 :=
  View.canon [⟨whole2_S4000x64, k2_pay1 (View.ld x0 whole2_S4000x64) (View.ld x1 whole2_S4000x64)⟩]

/-- That store covers the buffer. -/
theorem tiles2_2 (p0 : Vec F S4000x64 .f32) (y : S4000x64.Idx) :
    ∃ pc ∈ ([⟨whole2_S4000x64, p0⟩] : List (View.Piece (Elt F) S4000x64 .f32)), y ∈ pc.1.set :=
  View.cover_of_tiled [⟨whole2_S4000x64, p0⟩] S4000x64.size (by rfl) y

set_option maxHeartbeats 1000000 in
/-- The body on whole staging buffers — the inputs' holding `xW`, the outputs' holding anything — runs to the end,
    leaves the inputs' as they were and each output's at its one store's payload of the inputs. -/
theorem bodyRun2 (c : Dev nD) (E : Set ℕ) (i : grid2.Coords) (a0 : Memref sig .tc .vmem S4000x64 .f32) (ha0 : a0.IsWhole) (a1 : Memref sig .tc .vmem S4000x64 .f32) (ha1 : a1.IsWhole) (a2 : Memref sig .tc .vmem S4000x64 .f32) (ha2 : a2.IsWhole)
    (x0 : Vec F S4000x64 .f32) (x1 : Vec F S4000x64 .f32) (Q : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (res2_2 x0 x1)) -∗ Q ⟨⟩))
      ⊢ wp frame (wpE (defs₀ (F := F)) Variants.none c none) E (cc2__finalize_kernel i a0 ha0 a1 ha1 a2 ha2) Q := by
  simp only [cc2__finalize_kernel_eq_skeleton]; unfold cc2__finalize_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tiles2_2 _)

/-- The pipeline's proof data on core `c`: the arrays as the region finds them; after the body at point `t` each input
    buffer holds its block and each output buffer the body's result on the input blocks; the invariant is the plain one
    (the scoped rest and the generator register, untouched); nothing owed; full shares. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => res2_2 (blk2 V c 0 t) (blk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = res2_2 (blk2 V c 0 t) (blk2 V c 1 t) := by dsimp only [dat2]

theorem held2_0 (c : Dev nD) (t : Fin cfg2.N) (d) : (dat2 V c).before 0 t d = blk2 V c 0 t :=
  held2_0_of V (dat2 V c) (A_eq2 V c 0) (after2_0 V c) t d
theorem held2_1 (c : Dev nD) (t : Fin cfg2.N) (d) : (dat2 V c).before 1 t d = blk2 V c 1 t :=
  held2_1_of V (dat2 V c) (A_eq2 V c 1) (after2_1 V c) t d

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so `bodyRun2` applies; the invariant and what the
    core owes pass through unread. -/
theorem bodyStep2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [held2_0, held2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (bodyRun2 c Set.univ _ _ _ _ _ _ _ (blk2 V c 0 t) (blk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact bodyStep2 V c t

end Cert.Kernel.Hand

end
-- ==== Proof.KReg3.lean ====
/-
  Region 3 of @main, layer 2's node update: on each block of 4000 nodes, h = x·W + b (one matrix product into a zero accumulator) goes to the first output and max(h + root_emb, 0)·inv_deg to the second. Here: what the body leaves in its buffers, its run, and the pipeline's proof data with the body obligation at every grid point.
-/
import proofs.«161825_j7842610283390_1_alg».proof.Proof.Gen.Kernel.Launch
import proofs.«161825_j7842610283390_1_alg».proof.Proof.Gen.Kernel.Skeleton
import proofs.«161825_j7842610283390_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` that grid point `t` works on, read off the window's array as the region finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, whether the point fetched it or an earlier one
    did and the block index has not moved since. -/
theorem held3_0_of {c : Dev nD} (dat : Dat τ (Elt F) Unit ℕ (UR sig nD τ) ℕ cfg3 c) (hA : dat.A 0 = V c (Pipeline.arrRef spec3 0))
    (hafter : ∀ t, dat.after 0 t = blk3 V c 0 t) (t : Fin cfg3.N) (d) : dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)

/-- An input window's staging buffer holds its block at every point, whether the point fetched it or an earlier one
    did and the block index has not moved since. -/
theorem held3_1_of {c : Dev nD} (dat : Dat τ (Elt F) Unit ℕ (UR sig nD τ) ℕ cfg3 c) (hA : dat.A 1 = V c (Pipeline.arrRef spec3 1))
    (hafter : ∀ t, dat.after 1 t = blk3 V c 1 t) (t : Fin cfg3.N) (d) : dat.before 1 t d = blk3 V c 1 t :=
  (dat.before_in_eq_fetched 1 rfl (fun _ => rfl) (fun _ _ _ => rfl) (fun t => by rw [hafter]; unfold Dat.blockOf blk3; rw [hA]; try rfl) t d).trans
    (by unfold Dat.fetched Dat.blockOf blk3; rw [hA]; try rfl)

/-- An input window's staging buffer holds its block at every point, whether the point fetched it or an earlier one
    did and the block index has not moved since. -/
theorem held3_2_of {c : Dev nD} (dat : Dat τ (Elt F) Unit ℕ (UR sig nD τ) ℕ cfg3 c) (hA : dat.A 2 = V c (Pipeline.arrRef spec3 2))
    (hafter : ∀ t, dat.after 2 t = blk3 V c 2 t) (t : Fin cfg3.N) (d) : dat.before 2 t d = blk3 V c 2 t :=
  (dat.before_in_eq_fetched 2 rfl (fun _ => rfl) (fun _ _ _ => rfl) (fun t => by rw [hafter]; unfold Dat.blockOf blk3; rw [hA]; try rfl) t d).trans
    (by unfold Dat.fetched Dat.blockOf blk3; rw [hA]; try rfl)

/-- An input window's staging buffer holds its block at every point, whether the point fetched it or an earlier one
    did and the block index has not moved since. -/
theorem held3_3_of {c : Dev nD} (dat : Dat τ (Elt F) Unit ℕ (UR sig nD τ) ℕ cfg3 c) (hA : dat.A 3 = V c (Pipeline.arrRef spec3 3))
    (hafter : ∀ t, dat.after 3 t = blk3 V c 3 t) (t : Fin cfg3.N) (d) : dat.before 3 t d = blk3 V c 3 t :=
  (dat.before_in_eq_fetched 3 rfl (fun _ => rfl) (fun _ _ _ => rfl) (fun t => by rw [hafter]; unfold Dat.blockOf blk3; rw [hA]; try rfl) t d).trans
    (by unfold Dat.fetched Dat.blockOf blk3; rw [hA]; try rfl)

/-- An input window's staging buffer holds its block at every point, whether the point fetched it or an earlier one
    did and the block index has not moved since. -/
theorem held3_4_of {c : Dev nD} (dat : Dat τ (Elt F) Unit ℕ (UR sig nD τ) ℕ cfg3 c) (hA : dat.A 4 = V c (Pipeline.arrRef spec3 4))
    (hafter : ∀ t, dat.after 4 t = blk3 V c 4 t) (t : Fin cfg3.N) (d) : dat.before 4 t d = blk3 V c 4 t :=
  (dat.before_in_eq_fetched 4 rfl (fun _ => rfl) (fun _ _ _ => rfl) (fun t => by rw [hafter]; unfold Dat.blockOf blk3; rw [hA]; try rfl) t d).trans
    (by unfold Dat.fetched Dat.blockOf blk3; rw [hA]; try rfl)

/-- The whole rectangle of a `S4000x64` buffer: every load and store of the body is of this form. -/
abbrev whole3_S4000x64 : Rect S4000x64 := Rect.unit (s := S4000x64) ![0, 0] S4000x64.size inb_S4000x64_S4000x64_0_0

/-- The whole rectangle of a `S64x64` buffer: every load and store of the body is of this form. -/
abbrev whole3_S64x64 : Rect S64x64 := Rect.unit (s := S64x64) ![0, 0] S64x64.size inb_S64x64_S64x64_0_0

/-- The whole rectangle of a `S1x64` buffer: every load and store of the body is of this form. -/
abbrev whole3_S1x64 : Rect S1x64 := Rect.unit (s := S1x64) ![0, 0] S1x64.size inb_S1x64_S1x64_0_0

/-- The whole rectangle of a `S4000x1` buffer: every load and store of the body is of this form. -/
abbrev whole3_S4000x1 : Rect S4000x1 := Rect.unit (s := S4000x1) ![0, 0] S4000x1.size inb_S4000x1_S4000x1_0_0

/-- What the body leaves in output window 5's staging buffer, from the input blocks: its one whole-buffer store. -/
def res3_5 (x0 : Vec F S4000x64 .f32) (x1 : Vec F S64x64 .f32) (x2 : Vec F S1x64 .f32) (x3 : Vec F S1x64 .f32) (x4 : Vec F S4000x1 .f32) : Vec F S4000x64 .f32 :=
  View.canon [⟨whole3_S4000x64, k3_pay1 (View.ld x0 whole3_S4000x64) (View.ld x1 whole3_S64x64) (View.ld x2 whole3_S1x64)⟩]

/-- That store covers the buffer. -/
theorem tiles3_5 (p0 : Vec F S4000x64 .f32) (y : S4000x64.Idx) :
    ∃ pc ∈ ([⟨whole3_S4000x64, p0⟩] : List (View.Piece (Elt F) S4000x64 .f32)), y ∈ pc.1.set :=
  View.cover_of_tiled [⟨whole3_S4000x64, p0⟩] S4000x64.size (by rfl) y

/-- What the body leaves in output window 6's staging buffer, from the input blocks: its one whole-buffer store. -/
def res3_6 (x0 : Vec F S4000x64 .f32) (x1 : Vec F S64x64 .f32) (x2 : Vec F S1x64 .f32) (x3 : Vec F S1x64 .f32) (x4 : Vec F S4000x1 .f32) : Vec F S4000x64 .f32 :=
  View.canon [⟨whole3_S4000x64, k3_pay2 (View.ld x0 whole3_S4000x64) (View.ld x1 whole3_S64x64) (View.ld x2 whole3_S1x64) (View.ld x3 whole3_S1x64) (View.ld x4 whole3_S4000x1)⟩]

/-- That store covers the buffer. -/
theorem tiles3_6 (p0 : Vec F S4000x64 .f32) (y : S4000x64.Idx) :
    ∃ pc ∈ ([⟨whole3_S4000x64, p0⟩] : List (View.Piece (Elt F) S4000x64 .f32)), y ∈ pc.1.set :=
  View.cover_of_tiled [⟨whole3_S4000x64, p0⟩] S4000x64.size (by rfl) y

set_option maxHeartbeats 1000000 in
/-- The body on whole staging buffers — the inputs' holding `xW`, the outputs' holding anything — runs to the end,
    leaves the inputs' as they were and each output's at its one store's payload of the inputs. -/
theorem bodyRun3 (c : Dev nD) (E : Set ℕ) (i : grid3.Coords) (a0 : Memref sig .tc .vmem S4000x64 .f32) (ha0 : a0.IsWhole) (a1 : Memref sig .tc .vmem S64x64 .f32) (ha1 : a1.IsWhole) (a2 : Memref sig .tc .vmem S1x64 .f32) (ha2 : a2.IsWhole) (a3 : Memref sig .tc .vmem S1x64 .f32) (ha3 : a3.IsWhole) (a4 : Memref sig .tc .vmem S4000x1 .f32) (ha4 : a4.IsWhole) (a5 : Memref sig .tc .vmem S4000x64 .f32) (ha5 : a5.IsWhole) (a6 : Memref sig .tc .vmem S4000x64 .f32) (ha6 : a6.IsWhole)
    (x0 : Vec F S4000x64 .f32) (x1 : Vec F S64x64 .f32) (x2 : Vec F S1x64 .f32) (x3 : Vec F S1x64 .f32) (x4 : Vec F S4000x1 .f32) (Q : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d) ∗ (∃ d, owns (c : Thread nD τ) a6 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare (res3_5 x0 x1 x2 x3 x4) ∗ owns (c : Thread nD τ) a6 fullShare (res3_6 x0 x1 x2 x3 x4)) -∗ Q ⟨⟩))
      ⊢ wp frame (wpE (defs₀ (F := F)) Variants.none c none) E (cc3__node_update_kernel i a0 ha0 a1 ha1 a2 ha2 a3 ha3 a4 ha4 a5 ha5 a6 ha6) Q := by
  simp only [cc3__node_update_kernel_eq_skeleton]; unfold cc3__node_update_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (tiles3_5 _)
  iexists _; isplitr
  swap; · iexact H6
  ipureintro
  exact View.read_writes_eq_canon _ _ _ (tiles3_6 _)

/-- The pipeline's proof data on core `c`: the arrays as the region finds them; after the body at point `t` each input
    buffer holds its block and each output buffer the body's result on the input blocks; the invariant is the plain one
    (the scoped rest and the generator register, untouched); nothing owed; full shares. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => blk3 V c 3 t
    | ⟨4, _⟩ => blk3 V c 4 t
    | ⟨5, _⟩ => res3_5 (blk3 V c 0 t) (blk3 V c 1 t) (blk3 V c 2 t) (blk3 V c 3 t) (blk3 V c 4 t)
    | ⟨6, _⟩ => res3_6 (blk3 V c 0 t) (blk3 V c 1 t) (blk3 V c 2 t) (blk3 V c 3 t) (blk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = blk3 V c 0 t := by dsimp only [dat3]
theorem after3_1 (c : Dev nD) (t : Fin cfg3.N) : (dat3 V c).after 1 t = blk3 V c 1 t := by dsimp only [dat3]
theorem after3_2 (c : Dev nD) (t : Fin cfg3.N) : (dat3 V c).after 2 t = blk3 V c 2 t := by dsimp only [dat3]
theorem after3_3 (c : Dev nD) (t : Fin cfg3.N) : (dat3 V c).after 3 t = blk3 V c 3 t := by dsimp only [dat3]
theorem after3_4 (c : Dev nD) (t : Fin cfg3.N) : (dat3 V c).after 4 t = blk3 V c 4 t := by dsimp only [dat3]
theorem after3_5 (c : Dev nD) (t : Fin cfg3.N) : (dat3 V c).after 5 t = res3_5 (blk3 V c 0 t) (blk3 V c 1 t) (blk3 V c 2 t) (blk3 V c 3 t) (blk3 V c 4 t) := by dsimp only [dat3]
theorem after3_6 (c : Dev nD) (t : Fin cfg3.N) : (dat3 V c).after 6 t = res3_6 (blk3 V c 0 t) (blk3 V c 1 t) (blk3 V c 2 t) (blk3 V c 3 t) (blk3 V c 4 t) := by dsimp only [dat3]

theorem held3_0 (c : Dev nD) (t : Fin cfg3.N) (d) : (dat3 V c).before 0 t d = blk3 V c 0 t :=
  held3_0_of V (dat3 V c) (A_eq3 V c 0) (after3_0 V c) t d
theorem held3_1 (c : Dev nD) (t : Fin cfg3.N) (d) : (dat3 V c).before 1 t d = blk3 V c 1 t :=
  held3_1_of V (dat3 V c) (A_eq3 V c 1) (after3_1 V c) t d
theorem held3_2 (c : Dev nD) (t : Fin cfg3.N) (d) : (dat3 V c).before 2 t d = blk3 V c 2 t :=
  held3_2_of V (dat3 V c) (A_eq3 V c 2) (after3_2 V c) t d
theorem held3_3 (c : Dev nD) (t : Fin cfg3.N) (d) : (dat3 V c).before 3 t d = blk3 V c 3 t :=
  held3_3_of V (dat3 V c) (A_eq3 V c 3) (after3_3 V c) t d
theorem held3_4 (c : Dev nD) (t : Fin cfg3.N) (d) : (dat3 V c).before 4 t d = blk3 V c 4 t :=
  held3_4_of V (dat3 V c) (A_eq3 V c 4) (after3_4 V c) t d

/-- What the body is called with at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: the inputs' buffers hold their blocks, so `bodyRun3` applies; the invariant and what the
    core owes pass through unread. -/
theorem bodyStep3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [held3_0, held3_1, held3_2, held3_3, held3_4]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (bodyRun3 c Set.univ _ _ _ _ _ _ _ _ _ _ _ _ _ _ _ (blk3 V c 0 t) (blk3 V c 1 t) (blk3 V c 2 t) (blk3 V c 3 t) (blk3 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation3 (c : Dev nD) : BodyObligation (dat3 (F := F) V c) (defs₀ (F := F)) Variants.none () Set.univ := fun t => by
  rw [bigSep_W3, bigSep_W3]
  exact bodyStep3 V c t

end Cert.Kernel.Hand

end
-- ==== Proof.KReg4.lean ====
/-
  Region 4 of @main, layer 2's edge messages: on each block of 5000 edges, msg = norm·max(h_row + (edge_attr·W_e + b_e), 0). Here: what the body leaves in its buffers, its run, and the pipeline's proof data with the body obligation at every grid point.
-/
import proofs.«161825_j7842610283390_1_alg».proof.Proof.Gen.Kernel.Launch
import proofs.«161825_j7842610283390_1_alg».proof.Proof.Gen.Kernel.Skeleton
import proofs.«161825_j7842610283390_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` that grid point `t` works on, read off the window's array as the region finds it. -/
def blk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's staging buffer holds its block at every point, whether the point fetched it or an earlier one
    did and the block index has not moved since. -/
theorem held4_0_of {c : Dev nD} (dat : Dat τ (Elt F) Unit ℕ (UR sig nD τ) ℕ cfg4 c) (hA : dat.A 0 = V c (Pipeline.arrRef spec4 0))
    (hafter : ∀ t, dat.after 0 t = blk4 V c 0 t) (t : Fin cfg4.N) (d) : dat.before 0 t d = blk4 V c 0 t :=
  (dat.before_in_eq_fetched 0 rfl (fun _ => rfl) (fun _ _ _ => rfl) (fun t => by rw [hafter]; unfold Dat.blockOf blk4; rw [hA]; try rfl) t d).trans
    (by unfold Dat.fetched Dat.blockOf blk4; rw [hA]; try rfl)

/-- An input window's staging buffer holds its block at every point, whether the point fetched it or an earlier one
    did and the block index has not moved since. -/
theorem held4_1_of {c : Dev nD} (dat : Dat τ (Elt F) Unit ℕ (UR sig nD τ) ℕ cfg4 c) (hA : dat.A 1 = V c (Pipeline.arrRef spec4 1))
    (hafter : ∀ t, dat.after 1 t = blk4 V c 1 t) (t : Fin cfg4.N) (d) : dat.before 1 t d = blk4 V c 1 t :=
  (dat.before_in_eq_fetched 1 rfl (fun _ => rfl) (fun _ _ _ => rfl) (fun t => by rw [hafter]; unfold Dat.blockOf blk4; rw [hA]; try rfl) t d).trans
    (by unfold Dat.fetched Dat.blockOf blk4; rw [hA]; try rfl)

/-- An input window's staging buffer holds its block at every point, whether the point fetched it or an earlier one
    did and the block index has not moved since. -/
theorem held4_2_of {c : Dev nD} (dat : Dat τ (Elt F) Unit ℕ (UR sig nD τ) ℕ cfg4 c) (hA : dat.A 2 = V c (Pipeline.arrRef spec4 2))
    (hafter : ∀ t, dat.after 2 t = blk4 V c 2 t) (t : Fin cfg4.N) (d) : dat.before 2 t d = blk4 V c 2 t :=
  (dat.before_in_eq_fetched 2 rfl (fun _ => rfl) (fun _ _ _ => rfl) (fun t => by rw [hafter]; unfold Dat.blockOf blk4; rw [hA]; try rfl) t d).trans
    (by unfold Dat.fetched Dat.blockOf blk4; rw [hA]; try rfl)

/-- An input window's staging buffer holds its block at every point, whether the point fetched it or an earlier one
    did and the block index has not moved since. -/
theorem held4_3_of {c : Dev nD} (dat : Dat τ (Elt F) Unit ℕ (UR sig nD τ) ℕ cfg4 c) (hA : dat.A 3 = V c (Pipeline.arrRef spec4 3))
    (hafter : ∀ t, dat.after 3 t = blk4 V c 3 t) (t : Fin cfg4.N) (d) : dat.before 3 t d = blk4 V c 3 t :=
  (dat.before_in_eq_fetched 3 rfl (fun _ => rfl) (fun _ _ _ => rfl) (fun t => by rw [hafter]; unfold Dat.blockOf blk4; rw [hA]; try rfl) t d).trans
    (by unfold Dat.fetched Dat.blockOf blk4; rw [hA]; try rfl)

/-- An input window's staging buffer holds its block at every point, whether the point fetched it or an earlier one
    did and the block index has not moved since. -/
theorem held4_4_of {c : Dev nD} (dat : Dat τ (Elt F) Unit ℕ (UR sig nD τ) ℕ cfg4 c) (hA : dat.A 4 = V c (Pipeline.arrRef spec4 4))
    (hafter : ∀ t, dat.after 4 t = blk4 V c 4 t) (t : Fin cfg4.N) (d) : dat.before 4 t d = blk4 V c 4 t :=
  (dat.before_in_eq_fetched 4 rfl (fun _ => rfl) (fun _ _ _ => rfl) (fun t => by rw [hafter]; unfold Dat.blockOf blk4; rw [hA]; try rfl) t d).trans
    (by unfold Dat.fetched Dat.blockOf blk4; rw [hA]; try rfl)

/-- The whole rectangle of a `S5000x16` buffer: every load and store of the body is of this form. -/
abbrev whole4_S5000x16 : Rect S5000x16 := Rect.unit (s := S5000x16) ![0, 0] S5000x16.size inb_S5000x16_S5000x16_0_0

/-- The whole rectangle of a `S5000x64` buffer: every load and store of the body is of this form. -/
abbrev whole4_S5000x64 : Rect S5000x64 := Rect.unit (s := S5000x64) ![0, 0] S5000x64.size inb_S5000x64_S5000x64_0_0

/-- The whole rectangle of a `S5000x1` buffer: every load and store of the body is of this form. -/
abbrev whole4_S5000x1 : Rect S5000x1 := Rect.unit (s := S5000x1) ![0, 0] S5000x1.size inb_S5000x1_S5000x1_0_0

/-- The whole rectangle of a `S16x64` buffer: every load and store of the body is of this form. -/
abbrev whole4_S16x64 : Rect S16x64 := Rect.unit (s := S16x64) ![0, 0] S16x64.size inb_S16x64_S16x64_0_0

/-- The whole rectangle of a `S1x64` buffer: every load and store of the body is of this form. -/
abbrev whole4_S1x64 : Rect S1x64 := Rect.unit (s := S1x64) ![0, 0] S1x64.size inb_S1x64_S1x64_0_0

/-- What the body leaves in output window 5's staging buffer, from the input blocks: its one whole-buffer store. -/
def res4_5 (x0 : Vec F S5000x16 .f32) (x1 : Vec F S5000x64 .f32) (x2 : Vec F S5000x1 .f32) (x3 : Vec F S16x64 .f32) (x4 : Vec F S1x64 .f32) : Vec F S5000x64 .f32 :=
  View.canon [⟨whole4_S5000x64, k4_pay1 (View.ld x0 whole4_S5000x16) (View.ld x3 whole4_S16x64) (View.ld x4 whole4_S1x64) (View.ld x2 whole4_S5000x1) (View.ld x1 whole4_S5000x64)⟩]

/-- That store covers the buffer. -/
theorem tiles4_5 (p0 : Vec F S5000x64 .f32) (y : S5000x64.Idx) :
    ∃ pc ∈ ([⟨whole4_S5000x64, p0⟩] : List (View.Piece (Elt F) S5000x64 .f32)), y ∈ pc.1.set :=
  View.cover_of_tiled [⟨whole4_S5000x64, p0⟩] S5000x64.size (by rfl) y

set_option maxHeartbeats 1000000 in
/-- The body on whole staging buffers — the inputs' holding `xW`, the outputs' holding anything — runs to the end,
    leaves the inputs' as they were and each output's at its one store's payload of the inputs. -/
theorem bodyRun4 (c : Dev nD) (E : Set ℕ) (i : grid4.Coords) (a0 : Memref sig .tc .vmem S5000x16 .f32) (ha0 : a0.IsWhole) (a1 : Memref sig .tc .vmem S5000x64 .f32) (ha1 : a1.IsWhole) (a2 : Memref sig .tc .vmem S5000x1 .f32) (ha2 : a2.IsWhole) (a3 : Memref sig .tc .vmem S16x64 .f32) (ha3 : a3.IsWhole) (a4 : Memref sig .tc .vmem S1x64 .f32) (ha4 : a4.IsWhole) (a5 : Memref sig .tc .vmem S5000x64 .f32) (ha5 : a5.IsWhole)
    (x0 : Vec F S5000x16 .f32) (x1 : Vec F S5000x64 .f32) (x2 : Vec F S5000x1 .f32) (x3 : Vec F S16x64 .f32) (x4 : Vec F S1x64 .f32) (Q : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare (res4_5 x0 x1 x2 x3 x4)) -∗ Q ⟨⟩))
      ⊢ wp frame (wpE (defs₀ (F := F)) Variants.none c none) E (cc4__msg_kernel i a0 ha0 a1 ha1 a2 ha2 a3 ha3 a4 ha4 a5 ha5) Q := by
  simp only [cc4__msg_kernel_eq_skeleton]; unfold cc4__msg_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (tiles4_5 _)

/-- The pipeline's proof data on core `c`: the arrays as the region finds them; after the body at point `t` each input
    buffer holds its block and each output buffer the body's result on the input blocks; the invariant is the plain one
    (the scoped rest and the generator register, untouched); nothing owed; full shares. -/
def dat4 (c : Dev nD) : Dat τ (Elt F) Unit ℕ (UR sig nD τ) ℕ cfg4 c where
  A w := V c (Pipeline.arrRef spec4 w)
  after w t := match w with
    | ⟨0, _⟩ => blk4 V c 0 t
    | ⟨1, _⟩ => blk4 V c 1 t
    | ⟨2, _⟩ => blk4 V c 2 t
    | ⟨3, _⟩ => blk4 V c 3 t
    | ⟨4, _⟩ => blk4 V c 4 t
    | ⟨5, _⟩ => res4_5 (blk4 V c 0 t) (blk4 V c 1 t) (blk4 V c 2 t) (blk4 V c 3 t) (blk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = blk4 V c 0 t := by dsimp only [dat4]
theorem after4_1 (c : Dev nD) (t : Fin cfg4.N) : (dat4 V c).after 1 t = blk4 V c 1 t := by dsimp only [dat4]
theorem after4_2 (c : Dev nD) (t : Fin cfg4.N) : (dat4 V c).after 2 t = blk4 V c 2 t := by dsimp only [dat4]
theorem after4_3 (c : Dev nD) (t : Fin cfg4.N) : (dat4 V c).after 3 t = blk4 V c 3 t := by dsimp only [dat4]
theorem after4_4 (c : Dev nD) (t : Fin cfg4.N) : (dat4 V c).after 4 t = blk4 V c 4 t := by dsimp only [dat4]
theorem after4_5 (c : Dev nD) (t : Fin cfg4.N) : (dat4 V c).after 5 t = res4_5 (blk4 V c 0 t) (blk4 V c 1 t) (blk4 V c 2 t) (blk4 V c 3 t) (blk4 V c 4 t) := by dsimp only [dat4]

theorem held4_0 (c : Dev nD) (t : Fin cfg4.N) (d) : (dat4 V c).before 0 t d = blk4 V c 0 t :=
  held4_0_of V (dat4 V c) (A_eq4 V c 0) (after4_0 V c) t d
theorem held4_1 (c : Dev nD) (t : Fin cfg4.N) (d) : (dat4 V c).before 1 t d = blk4 V c 1 t :=
  held4_1_of V (dat4 V c) (A_eq4 V c 1) (after4_1 V c) t d
theorem held4_2 (c : Dev nD) (t : Fin cfg4.N) (d) : (dat4 V c).before 2 t d = blk4 V c 2 t :=
  held4_2_of V (dat4 V c) (A_eq4 V c 2) (after4_2 V c) t d
theorem held4_3 (c : Dev nD) (t : Fin cfg4.N) (d) : (dat4 V c).before 3 t d = blk4 V c 3 t :=
  held4_3_of V (dat4 V c) (A_eq4 V c 3) (after4_3 V c) t d
theorem held4_4 (c : Dev nD) (t : Fin cfg4.N) (d) : (dat4 V c).before 4 t d = blk4 V c 4 t :=
  held4_4_of V (dat4 V c) (A_eq4 V c 4) (after4_4 V c) t d

/-- What the body is called with at point `t`, window by window, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the inputs' buffers hold their blocks, so `bodyRun4` applies; the invariant and what the
    core owes pass through unread. -/
theorem bodyStep4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [held4_0, held4_1, held4_2, held4_3, held4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (bodyRun4 c Set.univ _ _ _ _ _ _ _ _ _ _ _ _ _ (blk4 V c 0 t) (blk4 V c 1 t) (blk4 V c 2 t) (blk4 V c 3 t) (blk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation4 (c : Dev nD) : BodyObligation (dat4 (F := F) V c) (defs₀ (F := F)) Variants.none () Set.univ := fun t => by
  rw [bigSep_W4, bigSep_W4]
  exact bodyStep4 V c t

end Cert.Kernel.Hand

end
-- ==== Proof.KReg5.lean ====
/-
  Region 5 of @main, layer 2's closing step: on each block of 4000 nodes the new features are max(aggr + root, 0). Here: what the body leaves in its buffers, its run, and the pipeline's proof data with the body obligation at every grid point.
-/
import proofs.«161825_j7842610283390_1_alg».proof.Proof.Gen.Kernel.Launch
import proofs.«161825_j7842610283390_1_alg».proof.Proof.Gen.Kernel.Skeleton
import proofs.«161825_j7842610283390_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` that grid point `t` works on, read off the window's array as the region finds it. -/
def blk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's staging buffer holds its block at every point, whether the point fetched it or an earlier one
    did and the block index has not moved since. -/
theorem held5_0_of {c : Dev nD} (dat : Dat τ (Elt F) Unit ℕ (UR sig nD τ) ℕ cfg5 c) (hA : dat.A 0 = V c (Pipeline.arrRef spec5 0))
    (hafter : ∀ t, dat.after 0 t = blk5 V c 0 t) (t : Fin cfg5.N) (d) : dat.before 0 t d = blk5 V c 0 t :=
  (dat.before_in_eq_fetched 0 rfl (fun _ => rfl) (fun _ _ _ => rfl) (fun t => by rw [hafter]; unfold Dat.blockOf blk5; rw [hA]; try rfl) t d).trans
    (by unfold Dat.fetched Dat.blockOf blk5; rw [hA]; try rfl)

/-- An input window's staging buffer holds its block at every point, whether the point fetched it or an earlier one
    did and the block index has not moved since. -/
theorem held5_1_of {c : Dev nD} (dat : Dat τ (Elt F) Unit ℕ (UR sig nD τ) ℕ cfg5 c) (hA : dat.A 1 = V c (Pipeline.arrRef spec5 1))
    (hafter : ∀ t, dat.after 1 t = blk5 V c 1 t) (t : Fin cfg5.N) (d) : dat.before 1 t d = blk5 V c 1 t :=
  (dat.before_in_eq_fetched 1 rfl (fun _ => rfl) (fun _ _ _ => rfl) (fun t => by rw [hafter]; unfold Dat.blockOf blk5; rw [hA]; try rfl) t d).trans
    (by unfold Dat.fetched Dat.blockOf blk5; rw [hA]; try rfl)

/-- The whole rectangle of a `S4000x64` buffer: every load and store of the body is of this form. -/
abbrev whole5_S4000x64 : Rect S4000x64 := Rect.unit (s := S4000x64) ![0, 0] S4000x64.size inb_S4000x64_S4000x64_0_0

/-- What the body leaves in output window 2's staging buffer, from the input blocks: its one whole-buffer store. -/
def res5_2 (x0 : Vec F S4000x64 .f32) (x1 : Vec F S4000x64 .f32) : Vec F S4000x64 .f32 :=
  View.canon [⟨whole5_S4000x64, k5_pay1 (View.ld x0 whole5_S4000x64) (View.ld x1 whole5_S4000x64)⟩]

/-- That store covers the buffer. -/
theorem tiles5_2 (p0 : Vec F S4000x64 .f32) (y : S4000x64.Idx) :
    ∃ pc ∈ ([⟨whole5_S4000x64, p0⟩] : List (View.Piece (Elt F) S4000x64 .f32)), y ∈ pc.1.set :=
  View.cover_of_tiled [⟨whole5_S4000x64, p0⟩] S4000x64.size (by rfl) y

set_option maxHeartbeats 1000000 in
/-- The body on whole staging buffers — the inputs' holding `xW`, the outputs' holding anything — runs to the end,
    leaves the inputs' as they were and each output's at its one store's payload of the inputs. -/
theorem bodyRun5 (c : Dev nD) (E : Set ℕ) (i : grid5.Coords) (a0 : Memref sig .tc .vmem S4000x64 .f32) (ha0 : a0.IsWhole) (a1 : Memref sig .tc .vmem S4000x64 .f32) (ha1 : a1.IsWhole) (a2 : Memref sig .tc .vmem S4000x64 .f32) (ha2 : a2.IsWhole)
    (x0 : Vec F S4000x64 .f32) (x1 : Vec F S4000x64 .f32) (Q : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (res5_2 x0 x1)) -∗ Q ⟨⟩))
      ⊢ wp frame (wpE (defs₀ (F := F)) Variants.none c none) E (cc5__finalize_kernel i a0 ha0 a1 ha1 a2 ha2) Q := by
  simp only [cc5__finalize_kernel_eq_skeleton]; unfold cc5__finalize_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tiles5_2 _)

/-- The pipeline's proof data on core `c`: the arrays as the region finds them; after the body at point `t` each input
    buffer holds its block and each output buffer the body's result on the input blocks; the invariant is the plain one
    (the scoped rest and the generator register, untouched); nothing owed; full shares. -/
def dat5 (c : Dev nD) : Dat τ (Elt F) Unit ℕ (UR sig nD τ) ℕ cfg5 c where
  A w := V c (Pipeline.arrRef spec5 w)
  after w t := match w with
    | ⟨0, _⟩ => blk5 V c 0 t
    | ⟨1, _⟩ => blk5 V c 1 t
    | ⟨2, _⟩ => res5_2 (blk5 V c 0 t) (blk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = blk5 V c 0 t := by dsimp only [dat5]
theorem after5_1 (c : Dev nD) (t : Fin cfg5.N) : (dat5 V c).after 1 t = blk5 V c 1 t := by dsimp only [dat5]
theorem after5_2 (c : Dev nD) (t : Fin cfg5.N) : (dat5 V c).after 2 t = res5_2 (blk5 V c 0 t) (blk5 V c 1 t) := by dsimp only [dat5]

theorem held5_0 (c : Dev nD) (t : Fin cfg5.N) (d) : (dat5 V c).before 0 t d = blk5 V c 0 t :=
  held5_0_of V (dat5 V c) (A_eq5 V c 0) (after5_0 V c) t d
theorem held5_1 (c : Dev nD) (t : Fin cfg5.N) (d) : (dat5 V c).before 1 t d = blk5 V c 1 t :=
  held5_1_of V (dat5 V c) (A_eq5 V c 1) (after5_1 V c) t d

/-- What the body is called with at point `t`, window by window, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' buffers hold their blocks, so `bodyRun5` applies; the invariant and what the
    core owes pass through unread. -/
theorem bodyStep5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [held5_0, held5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (bodyRun5 c Set.univ _ _ _ _ _ _ _ (blk5 V c 0 t) (blk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation5 (c : Dev nD) : BodyObligation (dat5 (F := F) V c) (defs₀ (F := F)) Variants.none () Set.univ := fun t => by
  rw [bigSep_W5, bigSep_W5]
  exact bodyStep5 V c t

end Cert.Kernel.Hand

end
-- ==== Proof.KReg6.lean ====
/-
  Region 6 of @main, layer 3's node update: on each block of 4000 nodes, h = x·W + b (one matrix product into a zero accumulator) goes to the first output and max(h + root_emb, 0)·inv_deg to the second. Here: what the body leaves in its buffers, its run, and the pipeline's proof data with the body obligation at every grid point.
-/
import proofs.«161825_j7842610283390_1_alg».proof.Proof.Gen.Kernel.Launch
import proofs.«161825_j7842610283390_1_alg».proof.Proof.Gen.Kernel.Skeleton
import proofs.«161825_j7842610283390_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` that grid point `t` works on, read off the window's array as the region finds it. -/
def blk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's staging buffer holds its block at every point, whether the point fetched it or an earlier one
    did and the block index has not moved since. -/
theorem held6_0_of {c : Dev nD} (dat : Dat τ (Elt F) Unit ℕ (UR sig nD τ) ℕ cfg6 c) (hA : dat.A 0 = V c (Pipeline.arrRef spec6 0))
    (hafter : ∀ t, dat.after 0 t = blk6 V c 0 t) (t : Fin cfg6.N) (d) : dat.before 0 t d = blk6 V c 0 t :=
  (dat.before_in_eq_fetched 0 rfl (fun _ => rfl) (fun _ _ _ => rfl) (fun t => by rw [hafter]; unfold Dat.blockOf blk6; rw [hA]; try rfl) t d).trans
    (by unfold Dat.fetched Dat.blockOf blk6; rw [hA]; try rfl)

/-- An input window's staging buffer holds its block at every point, whether the point fetched it or an earlier one
    did and the block index has not moved since. -/
theorem held6_1_of {c : Dev nD} (dat : Dat τ (Elt F) Unit ℕ (UR sig nD τ) ℕ cfg6 c) (hA : dat.A 1 = V c (Pipeline.arrRef spec6 1))
    (hafter : ∀ t, dat.after 1 t = blk6 V c 1 t) (t : Fin cfg6.N) (d) : dat.before 1 t d = blk6 V c 1 t :=
  (dat.before_in_eq_fetched 1 rfl (fun _ => rfl) (fun _ _ _ => rfl) (fun t => by rw [hafter]; unfold Dat.blockOf blk6; rw [hA]; try rfl) t d).trans
    (by unfold Dat.fetched Dat.blockOf blk6; rw [hA]; try rfl)

/-- An input window's staging buffer holds its block at every point, whether the point fetched it or an earlier one
    did and the block index has not moved since. -/
theorem held6_2_of {c : Dev nD} (dat : Dat τ (Elt F) Unit ℕ (UR sig nD τ) ℕ cfg6 c) (hA : dat.A 2 = V c (Pipeline.arrRef spec6 2))
    (hafter : ∀ t, dat.after 2 t = blk6 V c 2 t) (t : Fin cfg6.N) (d) : dat.before 2 t d = blk6 V c 2 t :=
  (dat.before_in_eq_fetched 2 rfl (fun _ => rfl) (fun _ _ _ => rfl) (fun t => by rw [hafter]; unfold Dat.blockOf blk6; rw [hA]; try rfl) t d).trans
    (by unfold Dat.fetched Dat.blockOf blk6; rw [hA]; try rfl)

/-- An input window's staging buffer holds its block at every point, whether the point fetched it or an earlier one
    did and the block index has not moved since. -/
theorem held6_3_of {c : Dev nD} (dat : Dat τ (Elt F) Unit ℕ (UR sig nD τ) ℕ cfg6 c) (hA : dat.A 3 = V c (Pipeline.arrRef spec6 3))
    (hafter : ∀ t, dat.after 3 t = blk6 V c 3 t) (t : Fin cfg6.N) (d) : dat.before 3 t d = blk6 V c 3 t :=
  (dat.before_in_eq_fetched 3 rfl (fun _ => rfl) (fun _ _ _ => rfl) (fun t => by rw [hafter]; unfold Dat.blockOf blk6; rw [hA]; try rfl) t d).trans
    (by unfold Dat.fetched Dat.blockOf blk6; rw [hA]; try rfl)

/-- An input window's staging buffer holds its block at every point, whether the point fetched it or an earlier one
    did and the block index has not moved since. -/
theorem held6_4_of {c : Dev nD} (dat : Dat τ (Elt F) Unit ℕ (UR sig nD τ) ℕ cfg6 c) (hA : dat.A 4 = V c (Pipeline.arrRef spec6 4))
    (hafter : ∀ t, dat.after 4 t = blk6 V c 4 t) (t : Fin cfg6.N) (d) : dat.before 4 t d = blk6 V c 4 t :=
  (dat.before_in_eq_fetched 4 rfl (fun _ => rfl) (fun _ _ _ => rfl) (fun t => by rw [hafter]; unfold Dat.blockOf blk6; rw [hA]; try rfl) t d).trans
    (by unfold Dat.fetched Dat.blockOf blk6; rw [hA]; try rfl)

/-- The whole rectangle of a `S4000x64` buffer: every load and store of the body is of this form. -/
abbrev whole6_S4000x64 : Rect S4000x64 := Rect.unit (s := S4000x64) ![0, 0] S4000x64.size inb_S4000x64_S4000x64_0_0

/-- The whole rectangle of a `S64x64` buffer: every load and store of the body is of this form. -/
abbrev whole6_S64x64 : Rect S64x64 := Rect.unit (s := S64x64) ![0, 0] S64x64.size inb_S64x64_S64x64_0_0

/-- The whole rectangle of a `S1x64` buffer: every load and store of the body is of this form. -/
abbrev whole6_S1x64 : Rect S1x64 := Rect.unit (s := S1x64) ![0, 0] S1x64.size inb_S1x64_S1x64_0_0

/-- The whole rectangle of a `S4000x1` buffer: every load and store of the body is of this form. -/
abbrev whole6_S4000x1 : Rect S4000x1 := Rect.unit (s := S4000x1) ![0, 0] S4000x1.size inb_S4000x1_S4000x1_0_0

/-- What the body leaves in output window 5's staging buffer, from the input blocks: its one whole-buffer store. -/
def res6_5 (x0 : Vec F S4000x64 .f32) (x1 : Vec F S64x64 .f32) (x2 : Vec F S1x64 .f32) (x3 : Vec F S1x64 .f32) (x4 : Vec F S4000x1 .f32) : Vec F S4000x64 .f32 :=
  View.canon [⟨whole6_S4000x64, k6_pay1 (View.ld x0 whole6_S4000x64) (View.ld x1 whole6_S64x64) (View.ld x2 whole6_S1x64)⟩]

/-- That store covers the buffer. -/
theorem tiles6_5 (p0 : Vec F S4000x64 .f32) (y : S4000x64.Idx) :
    ∃ pc ∈ ([⟨whole6_S4000x64, p0⟩] : List (View.Piece (Elt F) S4000x64 .f32)), y ∈ pc.1.set :=
  View.cover_of_tiled [⟨whole6_S4000x64, p0⟩] S4000x64.size (by rfl) y

/-- What the body leaves in output window 6's staging buffer, from the input blocks: its one whole-buffer store. -/
def res6_6 (x0 : Vec F S4000x64 .f32) (x1 : Vec F S64x64 .f32) (x2 : Vec F S1x64 .f32) (x3 : Vec F S1x64 .f32) (x4 : Vec F S4000x1 .f32) : Vec F S4000x64 .f32 :=
  View.canon [⟨whole6_S4000x64, k6_pay2 (View.ld x0 whole6_S4000x64) (View.ld x1 whole6_S64x64) (View.ld x2 whole6_S1x64) (View.ld x3 whole6_S1x64) (View.ld x4 whole6_S4000x1)⟩]

/-- That store covers the buffer. -/
theorem tiles6_6 (p0 : Vec F S4000x64 .f32) (y : S4000x64.Idx) :
    ∃ pc ∈ ([⟨whole6_S4000x64, p0⟩] : List (View.Piece (Elt F) S4000x64 .f32)), y ∈ pc.1.set :=
  View.cover_of_tiled [⟨whole6_S4000x64, p0⟩] S4000x64.size (by rfl) y

set_option maxHeartbeats 1000000 in
/-- The body on whole staging buffers — the inputs' holding `xW`, the outputs' holding anything — runs to the end,
    leaves the inputs' as they were and each output's at its one store's payload of the inputs. -/
theorem bodyRun6 (c : Dev nD) (E : Set ℕ) (i : grid6.Coords) (a0 : Memref sig .tc .vmem S4000x64 .f32) (ha0 : a0.IsWhole) (a1 : Memref sig .tc .vmem S64x64 .f32) (ha1 : a1.IsWhole) (a2 : Memref sig .tc .vmem S1x64 .f32) (ha2 : a2.IsWhole) (a3 : Memref sig .tc .vmem S1x64 .f32) (ha3 : a3.IsWhole) (a4 : Memref sig .tc .vmem S4000x1 .f32) (ha4 : a4.IsWhole) (a5 : Memref sig .tc .vmem S4000x64 .f32) (ha5 : a5.IsWhole) (a6 : Memref sig .tc .vmem S4000x64 .f32) (ha6 : a6.IsWhole)
    (x0 : Vec F S4000x64 .f32) (x1 : Vec F S64x64 .f32) (x2 : Vec F S1x64 .f32) (x3 : Vec F S1x64 .f32) (x4 : Vec F S4000x1 .f32) (Q : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d) ∗ (∃ d, owns (c : Thread nD τ) a6 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare (res6_5 x0 x1 x2 x3 x4) ∗ owns (c : Thread nD τ) a6 fullShare (res6_6 x0 x1 x2 x3 x4)) -∗ Q ⟨⟩))
      ⊢ wp frame (wpE (defs₀ (F := F)) Variants.none c none) E (cc6__node_update_kernel i a0 ha0 a1 ha1 a2 ha2 a3 ha3 a4 ha4 a5 ha5 a6 ha6) Q := by
  simp only [cc6__node_update_kernel_eq_skeleton]; unfold cc6__node_update_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (tiles6_5 _)
  iexists _; isplitr
  swap; · iexact H6
  ipureintro
  exact View.read_writes_eq_canon _ _ _ (tiles6_6 _)

/-- The pipeline's proof data on core `c`: the arrays as the region finds them; after the body at point `t` each input
    buffer holds its block and each output buffer the body's result on the input blocks; the invariant is the plain one
    (the scoped rest and the generator register, untouched); nothing owed; full shares. -/
def dat6 (c : Dev nD) : Dat τ (Elt F) Unit ℕ (UR sig nD τ) ℕ cfg6 c where
  A w := V c (Pipeline.arrRef spec6 w)
  after w t := match w with
    | ⟨0, _⟩ => blk6 V c 0 t
    | ⟨1, _⟩ => blk6 V c 1 t
    | ⟨2, _⟩ => blk6 V c 2 t
    | ⟨3, _⟩ => blk6 V c 3 t
    | ⟨4, _⟩ => blk6 V c 4 t
    | ⟨5, _⟩ => res6_5 (blk6 V c 0 t) (blk6 V c 1 t) (blk6 V c 2 t) (blk6 V c 3 t) (blk6 V c 4 t)
    | ⟨6, _⟩ => res6_6 (blk6 V c 0 t) (blk6 V c 1 t) (blk6 V c 2 t) (blk6 V c 3 t) (blk6 V c 4 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = blk6 V c 0 t := by dsimp only [dat6]
theorem after6_1 (c : Dev nD) (t : Fin cfg6.N) : (dat6 V c).after 1 t = blk6 V c 1 t := by dsimp only [dat6]
theorem after6_2 (c : Dev nD) (t : Fin cfg6.N) : (dat6 V c).after 2 t = blk6 V c 2 t := by dsimp only [dat6]
theorem after6_3 (c : Dev nD) (t : Fin cfg6.N) : (dat6 V c).after 3 t = blk6 V c 3 t := by dsimp only [dat6]
theorem after6_4 (c : Dev nD) (t : Fin cfg6.N) : (dat6 V c).after 4 t = blk6 V c 4 t := by dsimp only [dat6]
theorem after6_5 (c : Dev nD) (t : Fin cfg6.N) : (dat6 V c).after 5 t = res6_5 (blk6 V c 0 t) (blk6 V c 1 t) (blk6 V c 2 t) (blk6 V c 3 t) (blk6 V c 4 t) := by dsimp only [dat6]
theorem after6_6 (c : Dev nD) (t : Fin cfg6.N) : (dat6 V c).after 6 t = res6_6 (blk6 V c 0 t) (blk6 V c 1 t) (blk6 V c 2 t) (blk6 V c 3 t) (blk6 V c 4 t) := by dsimp only [dat6]

theorem held6_0 (c : Dev nD) (t : Fin cfg6.N) (d) : (dat6 V c).before 0 t d = blk6 V c 0 t :=
  held6_0_of V (dat6 V c) (A_eq6 V c 0) (after6_0 V c) t d
theorem held6_1 (c : Dev nD) (t : Fin cfg6.N) (d) : (dat6 V c).before 1 t d = blk6 V c 1 t :=
  held6_1_of V (dat6 V c) (A_eq6 V c 1) (after6_1 V c) t d
theorem held6_2 (c : Dev nD) (t : Fin cfg6.N) (d) : (dat6 V c).before 2 t d = blk6 V c 2 t :=
  held6_2_of V (dat6 V c) (A_eq6 V c 2) (after6_2 V c) t d
theorem held6_3 (c : Dev nD) (t : Fin cfg6.N) (d) : (dat6 V c).before 3 t d = blk6 V c 3 t :=
  held6_3_of V (dat6 V c) (A_eq6 V c 3) (after6_3 V c) t d
theorem held6_4 (c : Dev nD) (t : Fin cfg6.N) (d) : (dat6 V c).before 4 t d = blk6 V c 4 t :=
  held6_4_of V (dat6 V c) (A_eq6 V c 4) (after6_4 V c) t d

/-- What the body is called with at point `t`, window by window, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t))

/-- The body at any point: the inputs' buffers hold their blocks, so `bodyRun6` applies; the invariant and what the
    core owes pass through unread. -/
theorem bodyStep6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [held6_0, held6_1, held6_2, held6_3, held6_4]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (bodyRun6 c Set.univ _ _ _ _ _ _ _ _ _ _ _ _ _ _ _ (blk6 V c 0 t) (blk6 V c 1 t) (blk6 V c 2 t) (blk6 V c 3 t) (blk6 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation6 (c : Dev nD) : BodyObligation (dat6 (F := F) V c) (defs₀ (F := F)) Variants.none () Set.univ := fun t => by
  rw [bigSep_W6, bigSep_W6]
  exact bodyStep6 V c t

end Cert.Kernel.Hand

end
-- ==== Proof.KReg7.lean ====
/-
  Region 7 of @main, layer 3's edge messages: on each block of 5000 edges, msg = norm·max(h_row + (edge_attr·W_e + b_e), 0). Here: what the body leaves in its buffers, its run, and the pipeline's proof data with the body obligation at every grid point.
-/
import proofs.«161825_j7842610283390_1_alg».proof.Proof.Gen.Kernel.Launch
import proofs.«161825_j7842610283390_1_alg».proof.Proof.Gen.Kernel.Skeleton
import proofs.«161825_j7842610283390_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` that grid point `t` works on, read off the window's array as the region finds it. -/
def blk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's staging buffer holds its block at every point, whether the point fetched it or an earlier one
    did and the block index has not moved since. -/
theorem held7_0_of {c : Dev nD} (dat : Dat τ (Elt F) Unit ℕ (UR sig nD τ) ℕ cfg7 c) (hA : dat.A 0 = V c (Pipeline.arrRef spec7 0))
    (hafter : ∀ t, dat.after 0 t = blk7 V c 0 t) (t : Fin cfg7.N) (d) : dat.before 0 t d = blk7 V c 0 t :=
  (dat.before_in_eq_fetched 0 rfl (fun _ => rfl) (fun _ _ _ => rfl) (fun t => by rw [hafter]; unfold Dat.blockOf blk7; rw [hA]; try rfl) t d).trans
    (by unfold Dat.fetched Dat.blockOf blk7; rw [hA]; try rfl)

/-- An input window's staging buffer holds its block at every point, whether the point fetched it or an earlier one
    did and the block index has not moved since. -/
theorem held7_1_of {c : Dev nD} (dat : Dat τ (Elt F) Unit ℕ (UR sig nD τ) ℕ cfg7 c) (hA : dat.A 1 = V c (Pipeline.arrRef spec7 1))
    (hafter : ∀ t, dat.after 1 t = blk7 V c 1 t) (t : Fin cfg7.N) (d) : dat.before 1 t d = blk7 V c 1 t :=
  (dat.before_in_eq_fetched 1 rfl (fun _ => rfl) (fun _ _ _ => rfl) (fun t => by rw [hafter]; unfold Dat.blockOf blk7; rw [hA]; try rfl) t d).trans
    (by unfold Dat.fetched Dat.blockOf blk7; rw [hA]; try rfl)

/-- An input window's staging buffer holds its block at every point, whether the point fetched it or an earlier one
    did and the block index has not moved since. -/
theorem held7_2_of {c : Dev nD} (dat : Dat τ (Elt F) Unit ℕ (UR sig nD τ) ℕ cfg7 c) (hA : dat.A 2 = V c (Pipeline.arrRef spec7 2))
    (hafter : ∀ t, dat.after 2 t = blk7 V c 2 t) (t : Fin cfg7.N) (d) : dat.before 2 t d = blk7 V c 2 t :=
  (dat.before_in_eq_fetched 2 rfl (fun _ => rfl) (fun _ _ _ => rfl) (fun t => by rw [hafter]; unfold Dat.blockOf blk7; rw [hA]; try rfl) t d).trans
    (by unfold Dat.fetched Dat.blockOf blk7; rw [hA]; try rfl)

/-- An input window's staging buffer holds its block at every point, whether the point fetched it or an earlier one
    did and the block index has not moved since. -/
theorem held7_3_of {c : Dev nD} (dat : Dat τ (Elt F) Unit ℕ (UR sig nD τ) ℕ cfg7 c) (hA : dat.A 3 = V c (Pipeline.arrRef spec7 3))
    (hafter : ∀ t, dat.after 3 t = blk7 V c 3 t) (t : Fin cfg7.N) (d) : dat.before 3 t d = blk7 V c 3 t :=
  (dat.before_in_eq_fetched 3 rfl (fun _ => rfl) (fun _ _ _ => rfl) (fun t => by rw [hafter]; unfold Dat.blockOf blk7; rw [hA]; try rfl) t d).trans
    (by unfold Dat.fetched Dat.blockOf blk7; rw [hA]; try rfl)

/-- An input window's staging buffer holds its block at every point, whether the point fetched it or an earlier one
    did and the block index has not moved since. -/
theorem held7_4_of {c : Dev nD} (dat : Dat τ (Elt F) Unit ℕ (UR sig nD τ) ℕ cfg7 c) (hA : dat.A 4 = V c (Pipeline.arrRef spec7 4))
    (hafter : ∀ t, dat.after 4 t = blk7 V c 4 t) (t : Fin cfg7.N) (d) : dat.before 4 t d = blk7 V c 4 t :=
  (dat.before_in_eq_fetched 4 rfl (fun _ => rfl) (fun _ _ _ => rfl) (fun t => by rw [hafter]; unfold Dat.blockOf blk7; rw [hA]; try rfl) t d).trans
    (by unfold Dat.fetched Dat.blockOf blk7; rw [hA]; try rfl)

/-- The whole rectangle of a `S5000x16` buffer: every load and store of the body is of this form. -/
abbrev whole7_S5000x16 : Rect S5000x16 := Rect.unit (s := S5000x16) ![0, 0] S5000x16.size inb_S5000x16_S5000x16_0_0

/-- The whole rectangle of a `S5000x64` buffer: every load and store of the body is of this form. -/
abbrev whole7_S5000x64 : Rect S5000x64 := Rect.unit (s := S5000x64) ![0, 0] S5000x64.size inb_S5000x64_S5000x64_0_0

/-- The whole rectangle of a `S5000x1` buffer: every load and store of the body is of this form. -/
abbrev whole7_S5000x1 : Rect S5000x1 := Rect.unit (s := S5000x1) ![0, 0] S5000x1.size inb_S5000x1_S5000x1_0_0

/-- The whole rectangle of a `S16x64` buffer: every load and store of the body is of this form. -/
abbrev whole7_S16x64 : Rect S16x64 := Rect.unit (s := S16x64) ![0, 0] S16x64.size inb_S16x64_S16x64_0_0

/-- The whole rectangle of a `S1x64` buffer: every load and store of the body is of this form. -/
abbrev whole7_S1x64 : Rect S1x64 := Rect.unit (s := S1x64) ![0, 0] S1x64.size inb_S1x64_S1x64_0_0

/-- What the body leaves in output window 5's staging buffer, from the input blocks: its one whole-buffer store. -/
def res7_5 (x0 : Vec F S5000x16 .f32) (x1 : Vec F S5000x64 .f32) (x2 : Vec F S5000x1 .f32) (x3 : Vec F S16x64 .f32) (x4 : Vec F S1x64 .f32) : Vec F S5000x64 .f32 :=
  View.canon [⟨whole7_S5000x64, k7_pay1 (View.ld x0 whole7_S5000x16) (View.ld x3 whole7_S16x64) (View.ld x4 whole7_S1x64) (View.ld x2 whole7_S5000x1) (View.ld x1 whole7_S5000x64)⟩]

/-- That store covers the buffer. -/
theorem tiles7_5 (p0 : Vec F S5000x64 .f32) (y : S5000x64.Idx) :
    ∃ pc ∈ ([⟨whole7_S5000x64, p0⟩] : List (View.Piece (Elt F) S5000x64 .f32)), y ∈ pc.1.set :=
  View.cover_of_tiled [⟨whole7_S5000x64, p0⟩] S5000x64.size (by rfl) y

set_option maxHeartbeats 1000000 in
/-- The body on whole staging buffers — the inputs' holding `xW`, the outputs' holding anything — runs to the end,
    leaves the inputs' as they were and each output's at its one store's payload of the inputs. -/
theorem bodyRun7 (c : Dev nD) (E : Set ℕ) (i : grid7.Coords) (a0 : Memref sig .tc .vmem S5000x16 .f32) (ha0 : a0.IsWhole) (a1 : Memref sig .tc .vmem S5000x64 .f32) (ha1 : a1.IsWhole) (a2 : Memref sig .tc .vmem S5000x1 .f32) (ha2 : a2.IsWhole) (a3 : Memref sig .tc .vmem S16x64 .f32) (ha3 : a3.IsWhole) (a4 : Memref sig .tc .vmem S1x64 .f32) (ha4 : a4.IsWhole) (a5 : Memref sig .tc .vmem S5000x64 .f32) (ha5 : a5.IsWhole)
    (x0 : Vec F S5000x16 .f32) (x1 : Vec F S5000x64 .f32) (x2 : Vec F S5000x1 .f32) (x3 : Vec F S16x64 .f32) (x4 : Vec F S1x64 .f32) (Q : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare (res7_5 x0 x1 x2 x3 x4)) -∗ Q ⟨⟩))
      ⊢ wp frame (wpE (defs₀ (F := F)) Variants.none c none) E (cc7__msg_kernel i a0 ha0 a1 ha1 a2 ha2 a3 ha3 a4 ha4 a5 ha5) Q := by
  simp only [cc7__msg_kernel_eq_skeleton]; unfold cc7__msg_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (tiles7_5 _)

/-- The pipeline's proof data on core `c`: the arrays as the region finds them; after the body at point `t` each input
    buffer holds its block and each output buffer the body's result on the input blocks; the invariant is the plain one
    (the scoped rest and the generator register, untouched); nothing owed; full shares. -/
def dat7 (c : Dev nD) : Dat τ (Elt F) Unit ℕ (UR sig nD τ) ℕ cfg7 c where
  A w := V c (Pipeline.arrRef spec7 w)
  after w t := match w with
    | ⟨0, _⟩ => blk7 V c 0 t
    | ⟨1, _⟩ => blk7 V c 1 t
    | ⟨2, _⟩ => blk7 V c 2 t
    | ⟨3, _⟩ => blk7 V c 3 t
    | ⟨4, _⟩ => blk7 V c 4 t
    | ⟨5, _⟩ => res7_5 (blk7 V c 0 t) (blk7 V c 1 t) (blk7 V c 2 t) (blk7 V c 3 t) (blk7 V c 4 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = blk7 V c 0 t := by dsimp only [dat7]
theorem after7_1 (c : Dev nD) (t : Fin cfg7.N) : (dat7 V c).after 1 t = blk7 V c 1 t := by dsimp only [dat7]
theorem after7_2 (c : Dev nD) (t : Fin cfg7.N) : (dat7 V c).after 2 t = blk7 V c 2 t := by dsimp only [dat7]
theorem after7_3 (c : Dev nD) (t : Fin cfg7.N) : (dat7 V c).after 3 t = blk7 V c 3 t := by dsimp only [dat7]
theorem after7_4 (c : Dev nD) (t : Fin cfg7.N) : (dat7 V c).after 4 t = blk7 V c 4 t := by dsimp only [dat7]
theorem after7_5 (c : Dev nD) (t : Fin cfg7.N) : (dat7 V c).after 5 t = res7_5 (blk7 V c 0 t) (blk7 V c 1 t) (blk7 V c 2 t) (blk7 V c 3 t) (blk7 V c 4 t) := by dsimp only [dat7]

theorem held7_0 (c : Dev nD) (t : Fin cfg7.N) (d) : (dat7 V c).before 0 t d = blk7 V c 0 t :=
  held7_0_of V (dat7 V c) (A_eq7 V c 0) (after7_0 V c) t d
theorem held7_1 (c : Dev nD) (t : Fin cfg7.N) (d) : (dat7 V c).before 1 t d = blk7 V c 1 t :=
  held7_1_of V (dat7 V c) (A_eq7 V c 1) (after7_1 V c) t d
theorem held7_2 (c : Dev nD) (t : Fin cfg7.N) (d) : (dat7 V c).before 2 t d = blk7 V c 2 t :=
  held7_2_of V (dat7 V c) (A_eq7 V c 2) (after7_2 V c) t d
theorem held7_3 (c : Dev nD) (t : Fin cfg7.N) (d) : (dat7 V c).before 3 t d = blk7 V c 3 t :=
  held7_3_of V (dat7 V c) (A_eq7 V c 3) (after7_3 V c) t d
theorem held7_4 (c : Dev nD) (t : Fin cfg7.N) (d) : (dat7 V c).before 4 t d = blk7 V c 4 t :=
  held7_4_of V (dat7 V c) (A_eq7 V c 4) (after7_4 V c) t d

/-- What the body is called with at point `t`, window by window, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

/-- The body at any point: the inputs' buffers hold their blocks, so `bodyRun7` applies; the invariant and what the
    core owes pass through unread. -/
theorem bodyStep7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [held7_0, held7_1, held7_2, held7_3, held7_4]
  rw [show (dat7 V c).Φ t.succ = (dat7 V c).Φ t.castSucc from rfl,
    show (dat7 V c).owesAt () t.succ = (dat7 V c).owesAt () t.castSucc from rfl,
    after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  iapply (bodyRun7 c Set.univ _ _ _ _ _ _ _ _ _ _ _ _ _ (blk7 V c 0 t) (blk7 V c 1 t) (blk7 V c 2 t) (blk7 V c 3 t) (blk7 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation7 (c : Dev nD) : BodyObligation (dat7 (F := F) V c) (defs₀ (F := F)) Variants.none () Set.univ := fun t => by
  rw [bigSep_W7, bigSep_W7]
  exact bodyStep7 V c t

end Cert.Kernel.Hand

end
-- ==== Proof.KReg8.lean ====
/-
  Region 8 of @main, layer 3's closing step: on each block of 4000 nodes the new features are max(aggr + root, 0). Here: what the body leaves in its buffers, its run, and the pipeline's proof data with the body obligation at every grid point.
-/
import proofs.«161825_j7842610283390_1_alg».proof.Proof.Gen.Kernel.Launch
import proofs.«161825_j7842610283390_1_alg».proof.Proof.Gen.Kernel.Skeleton
import proofs.«161825_j7842610283390_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` that grid point `t` works on, read off the window's array as the region finds it. -/
def blk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's staging buffer holds its block at every point, whether the point fetched it or an earlier one
    did and the block index has not moved since. -/
theorem held8_0_of {c : Dev nD} (dat : Dat τ (Elt F) Unit ℕ (UR sig nD τ) ℕ cfg8 c) (hA : dat.A 0 = V c (Pipeline.arrRef spec8 0))
    (hafter : ∀ t, dat.after 0 t = blk8 V c 0 t) (t : Fin cfg8.N) (d) : dat.before 0 t d = blk8 V c 0 t :=
  (dat.before_in_eq_fetched 0 rfl (fun _ => rfl) (fun _ _ _ => rfl) (fun t => by rw [hafter]; unfold Dat.blockOf blk8; rw [hA]; try rfl) t d).trans
    (by unfold Dat.fetched Dat.blockOf blk8; rw [hA]; try rfl)

/-- An input window's staging buffer holds its block at every point, whether the point fetched it or an earlier one
    did and the block index has not moved since. -/
theorem held8_1_of {c : Dev nD} (dat : Dat τ (Elt F) Unit ℕ (UR sig nD τ) ℕ cfg8 c) (hA : dat.A 1 = V c (Pipeline.arrRef spec8 1))
    (hafter : ∀ t, dat.after 1 t = blk8 V c 1 t) (t : Fin cfg8.N) (d) : dat.before 1 t d = blk8 V c 1 t :=
  (dat.before_in_eq_fetched 1 rfl (fun _ => rfl) (fun _ _ _ => rfl) (fun t => by rw [hafter]; unfold Dat.blockOf blk8; rw [hA]; try rfl) t d).trans
    (by unfold Dat.fetched Dat.blockOf blk8; rw [hA]; try rfl)

/-- The whole rectangle of a `S4000x64` buffer: every load and store of the body is of this form. -/
abbrev whole8_S4000x64 : Rect S4000x64 := Rect.unit (s := S4000x64) ![0, 0] S4000x64.size inb_S4000x64_S4000x64_0_0

/-- What the body leaves in output window 2's staging buffer, from the input blocks: its one whole-buffer store. -/
def res8_2 (x0 : Vec F S4000x64 .f32) (x1 : Vec F S4000x64 .f32) : Vec F S4000x64 .f32 :=
  View.canon [⟨whole8_S4000x64, k8_pay1 (View.ld x0 whole8_S4000x64) (View.ld x1 whole8_S4000x64)⟩]

/-- That store covers the buffer. -/
theorem tiles8_2 (p0 : Vec F S4000x64 .f32) (y : S4000x64.Idx) :
    ∃ pc ∈ ([⟨whole8_S4000x64, p0⟩] : List (View.Piece (Elt F) S4000x64 .f32)), y ∈ pc.1.set :=
  View.cover_of_tiled [⟨whole8_S4000x64, p0⟩] S4000x64.size (by rfl) y

set_option maxHeartbeats 1000000 in
/-- The body on whole staging buffers — the inputs' holding `xW`, the outputs' holding anything — runs to the end,
    leaves the inputs' as they were and each output's at its one store's payload of the inputs. -/
theorem bodyRun8 (c : Dev nD) (E : Set ℕ) (i : grid8.Coords) (a0 : Memref sig .tc .vmem S4000x64 .f32) (ha0 : a0.IsWhole) (a1 : Memref sig .tc .vmem S4000x64 .f32) (ha1 : a1.IsWhole) (a2 : Memref sig .tc .vmem S4000x64 .f32) (ha2 : a2.IsWhole)
    (x0 : Vec F S4000x64 .f32) (x1 : Vec F S4000x64 .f32) (Q : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (res8_2 x0 x1)) -∗ Q ⟨⟩))
      ⊢ wp frame (wpE (defs₀ (F := F)) Variants.none c none) E (cc8__finalize_kernel i a0 ha0 a1 ha1 a2 ha2) Q := by
  simp only [cc8__finalize_kernel_eq_skeleton]; unfold cc8__finalize_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tiles8_2 _)

/-- The pipeline's proof data on core `c`: the arrays as the region finds them; after the body at point `t` each input
    buffer holds its block and each output buffer the body's result on the input blocks; the invariant is the plain one
    (the scoped rest and the generator register, untouched); nothing owed; full shares. -/
def dat8 (c : Dev nD) : Dat τ (Elt F) Unit ℕ (UR sig nD τ) ℕ cfg8 c where
  A w := V c (Pipeline.arrRef spec8 w)
  after w t := match w with
    | ⟨0, _⟩ => blk8 V c 0 t
    | ⟨1, _⟩ => blk8 V c 1 t
    | ⟨2, _⟩ => res8_2 (blk8 V c 0 t) (blk8 V c 1 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = blk8 V c 0 t := by dsimp only [dat8]
theorem after8_1 (c : Dev nD) (t : Fin cfg8.N) : (dat8 V c).after 1 t = blk8 V c 1 t := by dsimp only [dat8]
theorem after8_2 (c : Dev nD) (t : Fin cfg8.N) : (dat8 V c).after 2 t = res8_2 (blk8 V c 0 t) (blk8 V c 1 t) := by dsimp only [dat8]

theorem held8_0 (c : Dev nD) (t : Fin cfg8.N) (d) : (dat8 V c).before 0 t d = blk8 V c 0 t :=
  held8_0_of V (dat8 V c) (A_eq8 V c 0) (after8_0 V c) t d
theorem held8_1 (c : Dev nD) (t : Fin cfg8.N) (d) : (dat8 V c).before 1 t d = blk8 V c 1 t :=
  held8_1_of V (dat8 V c) (A_eq8 V c 1) (after8_1 V c) t d

/-- What the body is called with at point `t`, window by window, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t))

/-- The body at any point: the inputs' buffers hold their blocks, so `bodyRun8` applies; the invariant and what the
    core owes pass through unread. -/
theorem bodyStep8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [held8_0, held8_1]
  rw [show (dat8 V c).Φ t.succ = (dat8 V c).Φ t.castSucc from rfl,
    show (dat8 V c).owesAt () t.succ = (dat8 V c).owesAt () t.castSucc from rfl,
    after8_0, after8_1, after8_2]
  iintro ⟨HΦ, Ho, ⟨%d0, H0⟩, ⟨%d1, H1⟩, ⟨%d2, H2⟩⟩
  iapply (bodyRun8 c Set.univ _ _ _ _ _ _ _ (blk8 V c 0 t) (blk8 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation8 (c : Dev nD) : BodyObligation (dat8 (F := F) V c) (defs₀ (F := F)) Variants.none () Set.univ := fun t => by
  rw [bigSep_W8, bigSep_W8]
  exact bodyStep8 V c t

end Cert.Kernel.Hand

end
-- ==== Proof.KReg9a.lean ====
/-
  Region 9 of the kernel program (the batch-norm statistics kernel): what its three control cases share.
  The kernel visits the 25 row blocks of a [100000,256] array in order; two [1,256] accumulators (column sums and
  column sums of squares) are zeroed at the first block, updated at every block and copied to the two outputs at
  the last block.  Here: the two branch conditions in closed form, where the output windows are idle, and the one
  fact about stores used throughout — a store through a whole buffer, made last, is what the buffer then reads.
-/
import proofs.«161825_j7842610283390_1_alg».proof.Proof.Gen.Kernel.Launch
import proofs.«161825_j7842610283390_1_alg».proof.Proof.Gen.Kernel.Skeleton
import proofs.«161825_j7842610283390_1_alg».proof.Proof.Gen.Kernel.Points
import Idealize.ShloMosaic.Lib.Pipeline.FrameBody
import Idealize.ShloMosaic.Lib.Ring
import Idealize.ShloMosaic.Lib.Tactic
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The offsets of a whole-buffer rectangle are zero. -/
theorem hz2 : (![0, 0] : Fin 2 → ℕ) = fun _ => 0 := by
  funext a; match a with | ⟨0, _⟩ => rfl | ⟨1, _⟩ => rfl

/-- A store through the whole buffer, made last, is what the buffer then reads: whatever it held and whatever was
    stored before. -/
theorem read_writes_cons_whole {S : Shape} {e : EltTy} {sg : RefSig} {κ : Kind} {sp : Space} (v : View sg κ sp S e)
    (f : v.ty.Contents (Elt F)) {off : Fin S.rank → ℕ} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons.mpr (Or.inl rfl), View.mem_set_unit_zero h inb y⟩),
    View.canon_cons_unit_zero h]

/-- The body's first conditional: the grid coordinate is 0 (the accumulators are zeroed). -/
abbrev condFirst (i : grid9.Coords) : Prop :=
  (Scalar.cmpi .ne (Scalar.extui (Scalar.cmpi .eq (BitVec.ofNat 32 (i 0).val) 0#32)) 0#32) = 1#1
/-- The body's second conditional: the grid coordinate is 24 (the accumulators are copied out). -/
abbrev condLast (i : grid9.Coords) : Prop := k9_cond2 i = 1#1

theorem hcondFirst : ∀ t : Fin cfg9.N, condFirst (grid9.coords t) ↔ t.val = 0 :=
  (by decide +kernel : ∀ t : Fin grid9.N, condFirst (grid9.coords t) ↔ t.val = 0)
theorem hcondLast : ∀ t : Fin cfg9.N, condLast (grid9.coords t) ↔ t.val = 24 :=
  (by decide +kernel : ∀ t : Fin grid9.N, condLast (grid9.coords t) ↔ t.val = 24)

/-- The input window is live at every point. -/
theorem live9_0 : ∀ t : Fin cfg9.N, cfg9.idle 0 (grid9.coords t) = false := by decide +kernel
/-- Before the last point the body stores nothing into the outputs: the windows are idle there and not written back. -/
theorem idle9_1 : ∀ t : Fin cfg9.N, ¬condLast (grid9.coords t) → cfg9.idle 1 (grid9.coords t) = true := by decide +kernel
theorem idle9_2 : ∀ t : Fin cfg9.N, ¬condLast (grid9.coords t) → cfg9.idle 2 (grid9.coords t) = true := by decide +kernel
theorem noFlush9_1 : ∀ t : Fin cfg9.N, ¬condLast (grid9.coords t) → (cfg9.win 1).flush t = false := by decide +kernel
theorem noFlush9_2 : ∀ t : Fin cfg9.N, ¬condLast (grid9.coords t) → (cfg9.win 2).flush t = false := by decide +kernel
/-- At the last point the body stores into both outputs. -/
theorem live9_1 : ∀ t : Fin cfg9.N, condLast (grid9.coords t) → cfg9.idle 1 (grid9.coords t) = false := by decide +kernel
theorem live9_2 : ∀ t : Fin cfg9.N, condLast (grid9.coords t) → cfg9.idle 2 (grid9.coords t) = false := by decide +kernel

end Cert.Kernel.Hand

end
-- ==== Proof.KReg9b.lean ====
/-
  Region 9, the first block: the accumulators are zeroed, then the block's column sums (of x and of x*x) are added.
-/
import proofs.«161825_j7842610283390_1_alg».proof.Proof.KReg9a

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- At the first point (the first conditional taken, the second not), on whole memrefs — the input block at `x0`, the
    two outputs at anything, handed back untouched, the two accumulators at anything —, the body runs and leaves the
    accumulators at the block's column sums over zero (`k9_pay4`, `k9_pay5` of the zero rows `k9_pay1`, `k9_pay2`). -/
theorem run9_first (c : Dev nD) (i : grid9.Coords)
    (arg1 : Memref sig .tc .vmem S4000x256 .f32) (harg1 : arg1.IsWhole)
    (arg2 : Memref sig .tc .vmem S1x256 .f32) (harg2 : arg2.IsWhole)
    (arg3 : Memref sig .tc .vmem S1x256 .f32) (harg3 : arg3.IsWhole)
    (arg4 : Memref sig .tc .vmem S1x256 .f32) (harg4 : arg4.IsWhole)
    (arg5 : Memref sig .tc .vmem S1x256 .f32) (harg5 : arg5.IsWhole)
    (hc0 : condFirst i) (hc1 : ¬condLast i)
    (x0 : Vec F S4000x256 .f32) (xi2 xi3 : Vec F S1x256 .f32) (E : Set ℕ) (K : PUnit → sProp 𝕄) :
    iprop(owns (c : Thread nD τ) arg1 fullShare x0 ∗ owns (c : Thread nD τ) arg2 fullShare xi2 ∗ owns (c : Thread nD τ) arg3 fullShare xi3
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare xi2 ∗ owns (c : Thread nD τ) arg3 fullShare xi3
            ∗ owns (c : Thread nD τ) arg4 fullShare (k9_pay4 x0 (k9_pay1 (F := F))) ∗ owns (c : Thread nD τ) arg5 fullShare (k9_pay5 x0 (k9_pay2 (F := F)))) -∗ K ⟨⟩))
      ⊢ wp frame (wpE (defs₀ (F := F)) Variants.none c none) E (cc9__bn_stats_kernel i arg1 harg1 arg2 harg2 arg3 harg3 arg4 harg4 arg5 harg5) K := by
  simp only [cc9__bn_stats_kernel_eq_skeleton]; unfold cc9__bn_stats_kernel_skel
  unfold owns
  iintro ⟨⟨%f0, %hf0, H0⟩, ⟨%f2, %hf2, H2⟩, ⟨%f3, %hf3, H3⟩, ⟨%d4, %f4, -, H4⟩, ⟨%d5, %f5, -, H5⟩, Hk⟩
  obtain rfl := harg1.eq_unread hf0; obtain rfl := harg2.eq_unread hf2; obtain rfl := harg3.eq_unread hf3
  sl_exec (disch := first | exact hc0 | exact hc1)
  sl_step
  iapply Hk
  isplitl [H0]
  · iexists _; isplitr; · ipureintro; exact harg1.read_unread _
    iexact H0
  isplitl [H2]
  · iexists _; isplitr; · ipureintro; exact harg2.read_unread _
    iexact H2
  isplitl [H3]
  · iexists _; isplitr; · ipureintro; exact harg3.read_unread _
    iexact H3
  isplitl [H4]
  · iexists _; isplitr; swap; · iexact H4
    ipureintro
    sl_unfold_words
    rw [read_writes_cons_whole (S := S1x256) _ _ hz2]
    simp only [View.readAt_eq_ld, read_writes_cons_whole (S := S1x256) _ _ hz2, View.readCov_cons_toLoadRect, harg1.read_unread, harg4.read_unread, harg5.read_unread,
      View.ld_unit_zero (S := S4000x256) hz2, View.ld_unit_zero (S := S1x256) hz2]
  · iexists _; isplitr; swap; · iexact H5
    ipureintro
    sl_unfold_words
    rw [read_writes_cons_whole (S := S1x256) _ _ hz2]
    simp only [View.readAt_eq_ld, read_writes_cons_whole (S := S1x256) _ _ hz2, View.readCov_cons_toLoadRect, harg1.read_unread, harg4.read_unread, harg5.read_unread,
      View.ld_unit_zero (S := S4000x256) hz2, View.ld_unit_zero (S := S1x256) hz2]

end Cert.Kernel.Hand

end
-- ==== Proof.KReg9c.lean ====
/-
  Region 9, a block that is neither the first nor the last: the block's column sums are added to the accumulators.
-/
import proofs.«161825_j7842610283390_1_alg».proof.Proof.KReg9a

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- At a middle point (neither conditional taken), on whole memrefs — the input block at `x0`, the two outputs at
    anything, handed back untouched, the accumulators at `s1`, `s2` —, the body runs and leaves the accumulators at
    `s1` plus the block's column sums and `s2` plus its column sums of squares. -/
theorem run9_mid (c : Dev nD) (i : grid9.Coords)
    (arg1 : Memref sig .tc .vmem S4000x256 .f32) (harg1 : arg1.IsWhole)
    (arg2 : Memref sig .tc .vmem S1x256 .f32) (harg2 : arg2.IsWhole)
    (arg3 : Memref sig .tc .vmem S1x256 .f32) (harg3 : arg3.IsWhole)
    (arg4 : Memref sig .tc .vmem S1x256 .f32) (harg4 : arg4.IsWhole)
    (arg5 : Memref sig .tc .vmem S1x256 .f32) (harg5 : arg5.IsWhole)
    (hc0 : ¬condFirst i) (hc1 : ¬condLast i)
    (x0 : Vec F S4000x256 .f32) (xi2 xi3 s1 s2 : Vec F S1x256 .f32) (E : Set ℕ) (K : PUnit → sProp 𝕄) :
    iprop(owns (c : Thread nD τ) arg1 fullShare x0 ∗ owns (c : Thread nD τ) arg2 fullShare xi2 ∗ owns (c : Thread nD τ) arg3 fullShare xi3
        ∗ owns (c : Thread nD τ) arg4 fullShare s1 ∗ owns (c : Thread nD τ) arg5 fullShare s2
        ∗ (iprop(owns (c : Thread nD τ) arg1 fullShare x0 ∗ owns (c : Thread nD τ) arg2 fullShare xi2 ∗ owns (c : Thread nD τ) arg3 fullShare xi3
            ∗ owns (c : Thread nD τ) arg4 fullShare (k9_pay4 x0 s1) ∗ owns (c : Thread nD τ) arg5 fullShare (k9_pay5 x0 s2)) -∗ K ⟨⟩))
      ⊢ wp frame (wpE (defs₀ (F := F)) Variants.none c none) E (cc9__bn_stats_kernel i arg1 harg1 arg2 harg2 arg3 harg3 arg4 harg4 arg5 harg5) K := by
  simp only [cc9__bn_stats_kernel_eq_skeleton]; unfold cc9__bn_stats_kernel_skel
  unfold owns
  iintro ⟨⟨%f0, %hf0, H0⟩, ⟨%f2, %hf2, H2⟩, ⟨%f3, %hf3, H3⟩, ⟨%f4, %hf4, H4⟩, ⟨%f5, %hf5, H5⟩, Hk⟩
  obtain rfl := harg1.eq_unread hf0; obtain rfl := harg2.eq_unread hf2; obtain rfl := harg3.eq_unread hf3
  obtain rfl := harg4.eq_unread hf4; obtain rfl := harg5.eq_unread hf5
  sl_exec (disch := first | exact hc0 | exact hc1)
  sl_step
  iapply Hk
  isplitl [H0]
  · iexists _; isplitr; · ipureintro; exact harg1.read_unread _
    iexact H0
  isplitl [H2]
  · iexists _; isplitr; · ipureintro; exact harg2.read_unread _
    iexact H2
  isplitl [H3]
  · iexists _; isplitr; · ipureintro; exact harg3.read_unread _
    iexact H3
  isplitl [H4]
  · iexists _; isplitr; swap; · iexact H4
    ipureintro
    sl_unfold_words
    rw [read_writes_cons_whole (S := S1x256) _ _ hz2]
    simp only [View.readAt_eq_ld, read_writes_cons_whole (S := S1x256) _ _ hz2, View.readCov_cons_toLoadRect, harg1.read_unread, harg4.read_unread, harg5.read_unread,
      View.ld_unit_zero (S := S4000x256) hz2, View.ld_unit_zero (S := S1x256) hz2]
  · iexists _; isplitr; swap; · iexact H5
    ipureintro
    sl_unfold_words
    rw [read_writes_cons_whole (S := S1x256) _ _ hz2]
    simp only [View.readAt_eq_ld, read_writes_cons_whole (S := S1x256) _ _ hz2, View.readCov_cons_toLoadRect, harg1.read_unread, harg4.read_unread, harg5.read_unread,
      View.ld_unit_zero (S := S4000x256) hz2, View.ld_unit_zero (S := S1x256) hz2]

end Cert.Kernel.Hand

end
-- ==== Proof.KReg9d.lean ====
/-
  Region 9, the last block: the block's column sums are added to the accumulators, and the accumulators are copied to
  the two outputs.
-/
import proofs.«161825_j7842610283390_1_alg».proof.Proof.KReg9a

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- At the last point (the first conditional not taken, the second taken), on whole memrefs — the input block at `x0`,
    the two outputs at anything, the accumulators at `s1`, `s2` —, the body runs and leaves the accumulators, and the
    outputs, at `s1` plus the block's column sums and `s2` plus its column sums of squares. -/
theorem run9_last (c : Dev nD) (i : grid9.Coords)
    (arg1 : Memref sig .tc .vmem S4000x256 .f32) (harg1 : arg1.IsWhole)
    (arg2 : Memref sig .tc .vmem S1x256 .f32) (harg2 : arg2.IsWhole)
    (arg3 : Memref sig .tc .vmem S1x256 .f32) (harg3 : arg3.IsWhole)
    (arg4 : Memref sig .tc .vmem S1x256 .f32) (harg4 : arg4.IsWhole)
    (arg5 : Memref sig .tc .vmem S1x256 .f32) (harg5 : arg5.IsWhole)
    (hc0 : ¬condFirst i) (hc1 : condLast i)
    (x0 : Vec F S4000x256 .f32) (s1 s2 : Vec F S1x256 .f32) (E : Set ℕ) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare s1 ∗ owns (c : Thread nD τ) arg5 fullShare s2
        ∗ (iprop(owns (c : Thread nD τ) arg1 fullShare x0 ∗ owns (c : Thread nD τ) arg2 fullShare (k9_pay4 x0 s1) ∗ owns (c : Thread nD τ) arg3 fullShare (k9_pay5 x0 s2)
            ∗ owns (c : Thread nD τ) arg4 fullShare (k9_pay4 x0 s1) ∗ owns (c : Thread nD τ) arg5 fullShare (k9_pay5 x0 s2)) -∗ K ⟨⟩))
      ⊢ wp frame (wpE (defs₀ (F := F)) Variants.none c none) E (cc9__bn_stats_kernel i arg1 harg1 arg2 harg2 arg3 harg3 arg4 harg4 arg5 harg5) K := by
  simp only [cc9__bn_stats_kernel_eq_skeleton]; unfold cc9__bn_stats_kernel_skel
  unfold owns
  iintro ⟨⟨%f0, %hf0, H0⟩, ⟨%d2, %f2, -, H2⟩, ⟨%d3, %f3, -, H3⟩, ⟨%f4, %hf4, H4⟩, ⟨%f5, %hf5, H5⟩, Hk⟩
  obtain rfl := harg1.eq_unread hf0
  obtain rfl := harg4.eq_unread hf4; obtain rfl := harg5.eq_unread hf5
  sl_exec (disch := first | exact hc0 | exact hc1)
  sl_step
  iapply Hk
  isplitl [H0]
  · iexists _; isplitr; · ipureintro; exact harg1.read_unread _
    iexact H0
  isplitl [H2]
  · iexists _; isplitr; swap; · iexact H2
    ipureintro
    sl_unfold_words
    rw [read_writes_cons_whole (S := S1x256) _ _ hz2]
    simp only [View.readAt_eq_ld, read_writes_cons_whole (S := S1x256) _ _ hz2, View.readCov_cons_toLoadRect, harg1.read_unread, harg4.read_unread, harg5.read_unread,
      View.ld_unit_zero (S := S4000x256) hz2, View.ld_unit_zero (S := S1x256) hz2]
  isplitl [H3]
  · iexists _; isplitr; swap; · iexact H3
    ipureintro
    sl_unfold_words
    rw [read_writes_cons_whole (S := S1x256) _ _ hz2]
    simp only [View.readAt_eq_ld, read_writes_cons_whole (S := S1x256) _ _ hz2, View.readCov_cons_toLoadRect, harg1.read_unread, harg4.read_unread, harg5.read_unread,
      View.ld_unit_zero (S := S4000x256) hz2, View.ld_unit_zero (S := S1x256) hz2]
  isplitl [H4]
  · iexists _; isplitr; swap; · iexact H4
    ipureintro
    sl_unfold_words
    rw [read_writes_cons_whole (S := S1x256) _ _ hz2]
    simp only [View.readAt_eq_ld, read_writes_cons_whole (S := S1x256) _ _ hz2, View.readCov_cons_toLoadRect, harg1.read_unread, harg4.read_unread, harg5.read_unread,
      View.ld_unit_zero (S := S4000x256) hz2, View.ld_unit_zero (S := S1x256) hz2]
  · iexists _; isplitr; swap; · iexact H5
    ipureintro
    sl_unfold_words
    rw [read_writes_cons_whole (S := S1x256) _ _ hz2]
    simp only [View.readAt_eq_ld, read_writes_cons_whole (S := S1x256) _ _ hz2, View.readCov_cons_toLoadRect, harg1.read_unread, harg4.read_unread, harg5.read_unread,
      View.ld_unit_zero (S := S4000x256) hz2, View.ld_unit_zero (S := S1x256) hz2]

end Cert.Kernel.Hand

end
-- ==== Proof.KReg9.lean ====
/-
  Region 9 of the kernel program (the batch-norm statistics kernel), as one pipeline region.

  The region walks the 25 row blocks (4000 rows each) of a [100000,256] array.  Two [1,256] accumulators live in
  scratch memory across the grid points: at the first point they are zeroed; at every point the block's column sums
  are added to the first and the column sums of the squared entries to the second; at the last point both are copied
  into the two [1,256] outputs, whose one block is written back once, after the last point.

  `acc9` is the pair of accumulators after each point, by recursion on the point over the body's two store payloads.
  The region invariant `Phi9` carries the accumulators at `acc9` of the point before (before the first point: at
  anything).  The proof data `dat9` names, per window, what the body leaves in the staging buffer; the body obligation
  is proved from the three control cases' runs; the invariant at entry and exit is the plain region invariant with
  the accumulators' contents forgotten.
-/
import proofs.«161825_j7842610283390_1_alg».proof.Proof.KReg9b
import proofs.«161825_j7842610283390_1_alg».proof.Proof.KReg9c
import proofs.«161825_j7842610283390_1_alg».proof.Proof.KReg9d

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The memrefs the body is called on -/

/-- Each window's current staging memref at point `t`, as the pipeline passes it to the body, and its wholeness. -/
abbrev ms9_0 (t : Fin cfg9.N) : Memref sig .tc .vmem S4000x256 .f32 := win9_0.stage (cfg9.slots t 0)
abbrev hs9_0 (t : Fin cfg9.N) : (ms9_0 t).IsWhole := hstage9_0 ((cfg9.slots t 0).cast nbuf9_0)
abbrev ms9_1 (t : Fin cfg9.N) : Memref sig .tc .vmem S1x256 .f32 := win9_1.stage (cfg9.slots t 1)
abbrev hs9_1 (t : Fin cfg9.N) : (ms9_1 t).IsWhole := hstage9_1 ((cfg9.slots t 1).cast nbuf9_1)
abbrev ms9_2 (t : Fin cfg9.N) : Memref sig .tc .vmem S1x256 .f32 := win9_2.stage (cfg9.slots t 2)
abbrev hs9_2 (t : Fin cfg9.N) : (ms9_2 t).IsWhole := hstage9_2 ((cfg9.slots t 2).cast nbuf9_2)
/-- The two accumulators: whole scoped buffers of the kernel's own. -/
abbrev scM9_0 : Memref sig .tc .vmem S1x256 .f32 := Memref.whole cc9_scratch0
abbrev scM9_1 : Memref sig .tc .vmem S1x256 .f32 := Memref.whole cc9_scratch1

/-! ## The blocks and the accumulators -/

/-- The input window's block at point `t`: rows `4000 t … 4000 t + 3999` of the array as the region finds it. -/
def iblk9 (c : Dev nD) (t : Fin cfg9.N) : ((cfg9.win 0).xblock (cfg9.grid.coords t)).Idx → Elt F (cfg9.win 0).elt :=
  ((cfg9.win 0).blk t).view.read (Elt F) (V c (Pipeline.arrRef spec9 0))

/-- The two accumulators after the body at point `n`: after the first point the first block's column sums (of the
    entries, of their squares) over the zero row; after a later point the block's column sums over what the point before
    left. -/
def acc9 (c : Dev nD) : (n : ℕ) → n < cfg9.N → Vec F S1x256 .f32 × Vec F S1x256 .f32
  | 0, hn => (k9_pay4 (iblk9 V c ⟨0, hn⟩) (k9_pay1 (F := F)), k9_pay5 (iblk9 V c ⟨0, hn⟩) (k9_pay2 (F := F)))
  | n + 1, hn => (k9_pay4 (iblk9 V c ⟨n + 1, hn⟩) (acc9 c n (Nat.lt_of_succ_lt hn)).1,
      k9_pay5 (iblk9 V c ⟨n + 1, hn⟩) (acc9 c n (Nat.lt_of_succ_lt hn)).2)

theorem acc9_zero (c : Dev nD) (t : Fin cfg9.N) (h : t.val = 0) :
    acc9 V c t.val t.isLt = (k9_pay4 (iblk9 V c t) (k9_pay1 (F := F)), k9_pay5 (iblk9 V c t) (k9_pay2 (F := F))) := by
  obtain ⟨n, hn⟩ := t
  cases n with
  | zero => rfl
  | succ n => exact absurd h (Nat.succ_ne_zero n)

theorem acc9_pos (c : Dev nD) (t : Fin cfg9.N) (h : t.val ≠ 0) :
    acc9 V c t.val t.isLt = (k9_pay4 (iblk9 V c t) (acc9 V c (t.val - 1) (Nat.lt_of_le_of_lt (Nat.sub_le _ _) t.isLt)).1,
      k9_pay5 (iblk9 V c t) (acc9 V c (t.val - 1) (Nat.lt_of_le_of_lt (Nat.sub_le _ _) t.isLt)).2) := by
  obtain ⟨n, hn⟩ := t
  cases n with
  | zero => exact absurd rfl h
  | succ n => rfl

/-! ## The region invariant -/

/-- The plain region invariant with the two accumulators as memrefs owned at some contents, the other scoped buffers
    unopened, and the generator register at some state. -/
theorem PhiA9_eq (c : Dev nD) :
    (Pipeline.ΦA spec9 c : sProp 𝕄)
      = iprop(iprop(iprop((∃ d, owns (c : Thread nD τ) scM9_0 fullShare d) ∗ (∃ d, owns (c : Thread nD τ) scM9_1 fullShare d))
          ∗ Pipeline.scopedRestBut (Ix := Unit) (Name := ℕ) (U := UR sig nD τ) (Lvl := ℕ) (Val := Elt F) spec9 c [cc9_scratch0, cc9_scratch1]) ∗ (∃ r, prngReg c r)) := by
  unfold Pipeline.ΦA; rw [scopedRest9_split]; simp only [owns_whole]; try rfl

/-- The region invariant before position `n`: before the first point the plain one (the accumulators at anything);
    afterwards the accumulators at what the point before left (`acc9`), the other scoped buffers unopened, the generator
    register at some state. -/
def Phi9 (c : Dev nD) : (n : ℕ) → n ≤ cfg9.N → sProp 𝕄
  | 0, _ => Pipeline.ΦA spec9 c
  | n + 1, hn => iprop(iprop(iprop(owns (c : Thread nD τ) scM9_0 fullShare (acc9 V c n hn).1 ∗ owns (c : Thread nD τ) scM9_1 fullShare (acc9 V c n hn).2)
      ∗ Pipeline.scopedRestBut (Ix := Unit) (Name := ℕ) (U := UR sig nD τ) (Lvl := ℕ) (Val := Elt F) spec9 c [cc9_scratch0, cc9_scratch1]) ∗ (∃ r, prngReg c r))

theorem Phi9_zero (c : Dev nD) (n : ℕ) (h : n ≤ cfg9.N) (hz : n = 0) : Phi9 V c n h = Pipeline.ΦA spec9 c := by
  subst hz; rfl

theorem Phi9_succ (c : Dev nD) (n : ℕ) (hn : n < cfg9.N) :
    Phi9 V c (n + 1) hn = iprop(iprop(iprop(owns (c : Thread nD τ) scM9_0 fullShare (acc9 V c n hn).1 ∗ owns (c : Thread nD τ) scM9_1 fullShare (acc9 V c n hn).2)
      ∗ Pipeline.scopedRestBut (Ix := Unit) (Name := ℕ) (U := UR sig nD τ) (Lvl := ℕ) (Val := Elt F) spec9 c [cc9_scratch0, cc9_scratch1]) ∗ (∃ r, prngReg c r)) := rfl

theorem Phi9_pos (c : Dev nD) (n : ℕ) (h : n ≤ cfg9.N) (hz : n ≠ 0) :
    Phi9 V c n h = iprop(iprop(iprop(owns (c : Thread nD τ) scM9_0 fullShare (acc9 V c (n - 1) (by omega)).1 ∗ owns (c : Thread nD τ) scM9_1 fullShare (acc9 V c (n - 1) (by omega)).2)
      ∗ Pipeline.scopedRestBut (Ix := Unit) (Name := ℕ) (U := UR sig nD τ) (Lvl := ℕ) (Val := Elt F) spec9 c [cc9_scratch0, cc9_scratch1]) ∗ (∃ r, prngReg c r)) := by
  cases n with
  | zero => exact absurd rfl hz
  | succ n => rfl

/-! ## The proof data -/

/-- The proof data of region 9 on core `c`: the arrays as the region finds them (`V`); after the body at point `t` the
    input's buffer at its block, the outputs' at the accumulators after that point (consulted at the last point only:
    before it the outputs are idle); the invariant `Phi9`; nothing owed; full shares. -/
def dat9 (c : Dev nD) : Dat τ (Elt F) Unit ℕ (UR sig nD τ) ℕ cfg9 c where
  A w := V c (Pipeline.arrRef spec9 w)
  after w t := match w with
    | ⟨0, _⟩ => iblk9 V c t
    | ⟨1, _⟩ => (acc9 V c t.val t.isLt).1
    | ⟨2, _⟩ => (acc9 V c t.val t.isLt).2
  Φ t := Phi9 V c t.val (Nat.le_of_lt_succ t.isLt)
  q _ := fullShare
  owed _ := 0

/-- The proof data's arrays are the region-entry contents. -/
theorem A_eq9 (c : Dev nD) (w : Fin cfg9.W) : (dat9 V c).A w = V c (Pipeline.arrRef spec9 w) := by
  dsimp only [dat9]

theorem Phi9_castSucc (c : Dev nD) (t : Fin cfg9.N) :
    (dat9 V c).Φ t.castSucc = Phi9 V c t.val (Nat.le_of_lt t.isLt) := by
  dsimp only [dat9]; simp only [Fin.coe_castSucc]

theorem after9_0 (c : Dev nD) (t : Fin cfg9.N) : (dat9 V c).after 0 t = iblk9 V c t := by dsimp only [dat9]
theorem after9_1 (c : Dev nD) (t : Fin cfg9.N) : (dat9 V c).after 1 t = (acc9 V c t.val t.isLt).1 := by dsimp only [dat9]
theorem after9_2 (c : Dev nD) (t : Fin cfg9.N) : (dat9 V c).after 2 t = (acc9 V c t.val t.isLt).2 := by dsimp only [dat9]

/-- The input's current staging buffer holds its block at every point. -/
theorem before9_0 (c : Dev nD) (t : Fin cfg9.N) (d) : (dat9 V c).before 0 t d = iblk9 V c t :=
  ((dat9 V c).before_in_eq_fetched 0 rfl (fun _ => rfl) (fun _ _ _ => rfl)
      (fun t => by rw [after9_0]; unfold Dat.blockOf iblk9; rw [A_eq9]; try rfl) t d).trans
    (by unfold Dat.fetched Dat.blockOf iblk9; rw [A_eq9]; try rfl)

/-! ## The body obligation -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (ms9_0 t) fullShare ((dat9 V c).before 0 t d))
    ∗ (∃ d, owns (c : Thread nD τ) (ms9_1 t) fullShare ((dat9 V c).before 1 t d))
    ∗ (∃ d, owns (c : Thread nD τ) (ms9_2 t) fullShare ((dat9 V c).before 2 t d)))

/-- and what it returns. -/
def bodyPost9 (c : Dev nD) (t : Fin cfg9.N) : sProp 𝕄 :=
  iprop((dat9 V c).Φ t.succ ∗ (dat9 V c).owesAt () t.succ
    ∗ (dat9 V c).leavesExact 0 t
    ∗ (dat9 V c).leavesExact 1 t
    ∗ (dat9 V c).leavesExact 2 t)

set_option maxHeartbeats 4000000 in
/-- The body at any point.  The input's memref holds its block; the point is the first, a middle one or the last; the
    invariant hands the body the accumulators (at anything at the first point, else at what the point before left) and
    takes them back at this point's contents; before the last point the outputs' buffers go through untouched, at the
    last point they receive the accumulators; the core owes nothing throughout. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0]
  rw [show (dat9 V c).owesAt () t.succ = (dat9 V c).owesAt () t.castSucc from rfl]
  rw [show (dat9 V c).Φ t.succ = Phi9 V c (t.val + 1) t.isLt from rfl, Phi9_succ]
  have hN : t.val < 25 := lt_of_lt_of_eq t.isLt (show cfg9.N = 25 from N_9)
  rw [show (dat9 V c).leavesExact 0 t = owns (c : Thread nD τ) (ms9_0 t) fullShare ((dat9 V c).after 0 t) from by
    unfold Dat.leavesExact; rw [live9_0 t], after9_0]
  by_cases hz : t.val = 0
  · have hc0 : condFirst (grid9.coords t) := (hcondFirst t).mpr hz
    have hc1 : ¬condLast (grid9.coords t) := fun h => by have := (hcondLast t).mp h; omega
    rw [Dat.leavesExact_idle (dat9 V c) 1 t (idle9_1 t hc1) (noFlush9_1 t hc1),
      Dat.leavesExact_idle (dat9 V c) 2 t (idle9_2 t hc1) (noFlush9_2 t hc1)]
    rw [acc9_zero V c t hz]; dsimp only
    rw [Phi9_castSucc V c t, Phi9_zero V c _ _ hz, PhiA9_eq]
    iintro ⟨⟨⟨⟨HS0, HS1⟩, Hrest⟩, Hg⟩, Ho, ⟨%d0, H0⟩, ⟨%d1, H1⟩, ⟨%d2, H2⟩⟩
    iapply (run9_first c (grid9.coords t) (ms9_0 t) (hs9_0 t) (ms9_1 t) (hs9_1 t) (ms9_2 t) (hs9_2 t) scM9_0 (Memref.isWhole_whole _) scM9_1 (Memref.isWhole_whole _) hc0 hc1 (iblk9 V c t)
      ((dat9 V c).before 1 t d1) ((dat9 V c).before 2 t d2) Set.univ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexists _; iexact H1
    iexists _; iexact H2
  · have hc0 : ¬condFirst (grid9.coords t) := fun h => hz ((hcondFirst t).mp h)
    rw [acc9_pos V c t hz]; dsimp only
    rw [Phi9_castSucc V c t, Phi9_pos V c _ _ hz]
    by_cases hl : t.val = 24
    · have hc1 : condLast (grid9.coords t) := (hcondLast t).mpr hl
      rw [show (dat9 V c).leavesExact 1 t = owns (c : Thread nD τ) (ms9_1 t) fullShare ((dat9 V c).after 1 t) from by
        unfold Dat.leavesExact; rw [live9_1 t hc1], after9_1]
      rw [show (dat9 V c).leavesExact 2 t = owns (c : Thread nD τ) (ms9_2 t) fullShare ((dat9 V c).after 2 t) from by
        unfold Dat.leavesExact; rw [live9_2 t hc1], after9_2]
      rw [acc9_pos V c t hz]; dsimp only
      iintro ⟨⟨⟨⟨HS0, HS1⟩, Hrest⟩, Hg⟩, Ho, ⟨%d0, H0⟩, ⟨%d1, H1⟩, ⟨%d2, H2⟩⟩
      iapply (run9_last c (grid9.coords t) (ms9_0 t) (hs9_0 t) (ms9_1 t) (hs9_1 t) (ms9_2 t) (hs9_2 t) scM9_0 (Memref.isWhole_whole _) scM9_1 (Memref.isWhole_whole _) hc0 hc1 (iblk9 V c t)
        (acc9 V c (t.val - 1) (Nat.lt_of_le_of_lt (Nat.sub_le _ _) t.isLt)).1 (acc9 V c (t.val - 1) (Nat.lt_of_le_of_lt (Nat.sub_le _ _) t.isLt)).2 Set.univ _)
      isplitl [H0]; · iexact H0
      isplitl [H1]; · iexists _; iexact H1
      isplitl [H2]; · iexists _; iexact H2
      isplitl [HS0]; · iexact HS0
      isplitl [HS1]; · iexact HS1
      iintro ⟨H0, H1, H2, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      iexact H2
    · have hc1 : ¬condLast (grid9.coords t) := fun h => hl ((hcondLast t).mp h)
      rw [Dat.leavesExact_idle (dat9 V c) 1 t (idle9_1 t hc1) (noFlush9_1 t hc1),
        Dat.leavesExact_idle (dat9 V c) 2 t (idle9_2 t hc1) (noFlush9_2 t hc1)]
      iintro ⟨⟨⟨⟨HS0, HS1⟩, Hrest⟩, Hg⟩, Ho, ⟨%d0, H0⟩, ⟨%d1, H1⟩, ⟨%d2, H2⟩⟩
      iapply (run9_mid c (grid9.coords t) (ms9_0 t) (hs9_0 t) (ms9_1 t) (hs9_1 t) (ms9_2 t) (hs9_2 t) scM9_0 (Memref.isWhole_whole _) scM9_1 (Memref.isWhole_whole _) hc0 hc1 (iblk9 V c t)
        ((dat9 V c).before 1 t d1) ((dat9 V c).before 2 t d2) (acc9 V c (t.val - 1) (Nat.lt_of_le_of_lt (Nat.sub_le _ _) t.isLt)).1 (acc9 V c (t.val - 1) (Nat.lt_of_le_of_lt (Nat.sub_le _ _) t.isLt)).2 Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexists _; iexact H1
      iexists _; iexact H2

/-- The library's body obligation, at every point. -/
theorem body_obligation9 (c : Dev nD) : BodyObligation (dat9 (F := F) V c) (defs₀ (F := F)) Variants.none () Set.univ := fun t => by
  rw [bigSep_W9, bigSep_W9]
  exact sound_body9 V c t

/-! ## The invariant at entry and exit -/

/-- Before the first point the invariant is the plain region invariant. -/
theorem Phi9_first (c : Dev nD) : (dat9 V c).Φ 0 = Pipeline.ΦA spec9 c := rfl

/-- What the launch hands the region is the invariant before the first point. -/
theorem hin9 (c : Dev nD) : Pipeline.ΦA spec9 c ⊢ (dat9 V c).Φ 0 := by
  rw [Phi9_first]
  try exact Idealize.SL.BI.Entails.refl _

/-- After the last point the invariant gives the plain region invariant back: the accumulators' contents are forgotten. -/
theorem hout9 (c : Dev nD) : (dat9 V c).Φ (Fin.last cfg9.N) ⊢ Pipeline.ΦA spec9 c := by
  rw [show (dat9 V c).Φ (Fin.last cfg9.N) = Phi9 V c (Fin.last cfg9.N).val (Nat.le_of_lt_succ (Fin.last cfg9.N).isLt) from rfl,
    Phi9_pos V c _ _ (by rw [Fin.val_last]; have : cfg9.N = 25 := N_9; omega), PhiA9_eq]
  iintro ⟨⟨⟨HS0, HS1⟩, Hrest⟩, Hg⟩
  isplitl [HS0 HS1 Hrest]
  · isplitl [HS0 HS1]
    · isplitl [HS0]; · iexists _; iexact HS0
      iexists _; iexact HS1
    iexact Hrest
  iexact Hg

end Cert.Kernel.Hand

end
-- ==== Proof.KReg10.lean ====
/-
  Region 10 of @main, the normalisation and output projection: on each block of 4000 nodes, ((xc − mean)·rsqrt(var + eps)·gamma + beta)·W_out + b_out. Here: what the body leaves in its buffers, its run, and the pipeline's proof data with the body obligation at every grid point.
-/
import proofs.«161825_j7842610283390_1_alg».proof.Proof.Gen.Kernel.Launch
import proofs.«161825_j7842610283390_1_alg».proof.Proof.Gen.Kernel.Skeleton
import proofs.«161825_j7842610283390_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` that grid point `t` works on, read off the window's array as the region finds it. -/
def blk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- An input window's staging buffer holds its block at every point, whether the point fetched it or an earlier one
    did and the block index has not moved since. -/
theorem held10_0_of {c : Dev nD} (dat : Dat τ (Elt F) Unit ℕ (UR sig nD τ) ℕ cfg10 c) (hA : dat.A 0 = V c (Pipeline.arrRef spec10 0))
    (hafter : ∀ t, dat.after 0 t = blk10 V c 0 t) (t : Fin cfg10.N) (d) : dat.before 0 t d = blk10 V c 0 t :=
  (dat.before_in_eq_fetched 0 rfl (fun _ => rfl) (fun _ _ _ => rfl) (fun t => by rw [hafter]; unfold Dat.blockOf blk10; rw [hA]; try rfl) t d).trans
    (by unfold Dat.fetched Dat.blockOf blk10; rw [hA]; try rfl)

/-- An input window's staging buffer holds its block at every point, whether the point fetched it or an earlier one
    did and the block index has not moved since. -/
theorem held10_1_of {c : Dev nD} (dat : Dat τ (Elt F) Unit ℕ (UR sig nD τ) ℕ cfg10 c) (hA : dat.A 1 = V c (Pipeline.arrRef spec10 1))
    (hafter : ∀ t, dat.after 1 t = blk10 V c 1 t) (t : Fin cfg10.N) (d) : dat.before 1 t d = blk10 V c 1 t :=
  (dat.before_in_eq_fetched 1 rfl (fun _ => rfl) (fun _ _ _ => rfl) (fun t => by rw [hafter]; unfold Dat.blockOf blk10; rw [hA]; try rfl) t d).trans
    (by unfold Dat.fetched Dat.blockOf blk10; rw [hA]; try rfl)

/-- An input window's staging buffer holds its block at every point, whether the point fetched it or an earlier one
    did and the block index has not moved since. -/
theorem held10_2_of {c : Dev nD} (dat : Dat τ (Elt F) Unit ℕ (UR sig nD τ) ℕ cfg10 c) (hA : dat.A 2 = V c (Pipeline.arrRef spec10 2))
    (hafter : ∀ t, dat.after 2 t = blk10 V c 2 t) (t : Fin cfg10.N) (d) : dat.before 2 t d = blk10 V c 2 t :=
  (dat.before_in_eq_fetched 2 rfl (fun _ => rfl) (fun _ _ _ => rfl) (fun t => by rw [hafter]; unfold Dat.blockOf blk10; rw [hA]; try rfl) t d).trans
    (by unfold Dat.fetched Dat.blockOf blk10; rw [hA]; try rfl)

/-- An input window's staging buffer holds its block at every point, whether the point fetched it or an earlier one
    did and the block index has not moved since. -/
theorem held10_3_of {c : Dev nD} (dat : Dat τ (Elt F) Unit ℕ (UR sig nD τ) ℕ cfg10 c) (hA : dat.A 3 = V c (Pipeline.arrRef spec10 3))
    (hafter : ∀ t, dat.after 3 t = blk10 V c 3 t) (t : Fin cfg10.N) (d) : dat.before 3 t d = blk10 V c 3 t :=
  (dat.before_in_eq_fetched 3 rfl (fun _ => rfl) (fun _ _ _ => rfl) (fun t => by rw [hafter]; unfold Dat.blockOf blk10; rw [hA]; try rfl) t d).trans
    (by unfold Dat.fetched Dat.blockOf blk10; rw [hA]; try rfl)

/-- An input window's staging buffer holds its block at every point, whether the point fetched it or an earlier one
    did and the block index has not moved since. -/
theorem held10_4_of {c : Dev nD} (dat : Dat τ (Elt F) Unit ℕ (UR sig nD τ) ℕ cfg10 c) (hA : dat.A 4 = V c (Pipeline.arrRef spec10 4))
    (hafter : ∀ t, dat.after 4 t = blk10 V c 4 t) (t : Fin cfg10.N) (d) : dat.before 4 t d = blk10 V c 4 t :=
  (dat.before_in_eq_fetched 4 rfl (fun _ => rfl) (fun _ _ _ => rfl) (fun t => by rw [hafter]; unfold Dat.blockOf blk10; rw [hA]; try rfl) t d).trans
    (by unfold Dat.fetched Dat.blockOf blk10; rw [hA]; try rfl)

/-- An input window's staging buffer holds its block at every point, whether the point fetched it or an earlier one
    did and the block index has not moved since. -/
theorem held10_5_of {c : Dev nD} (dat : Dat τ (Elt F) Unit ℕ (UR sig nD τ) ℕ cfg10 c) (hA : dat.A 5 = V c (Pipeline.arrRef spec10 5))
    (hafter : ∀ t, dat.after 5 t = blk10 V c 5 t) (t : Fin cfg10.N) (d) : dat.before 5 t d = blk10 V c 5 t :=
  (dat.before_in_eq_fetched 5 rfl (fun _ => rfl) (fun _ _ _ => rfl) (fun t => by rw [hafter]; unfold Dat.blockOf blk10; rw [hA]; try rfl) t d).trans
    (by unfold Dat.fetched Dat.blockOf blk10; rw [hA]; try rfl)

/-- An input window's staging buffer holds its block at every point, whether the point fetched it or an earlier one
    did and the block index has not moved since. -/
theorem held10_6_of {c : Dev nD} (dat : Dat τ (Elt F) Unit ℕ (UR sig nD τ) ℕ cfg10 c) (hA : dat.A 6 = V c (Pipeline.arrRef spec10 6))
    (hafter : ∀ t, dat.after 6 t = blk10 V c 6 t) (t : Fin cfg10.N) (d) : dat.before 6 t d = blk10 V c 6 t :=
  (dat.before_in_eq_fetched 6 rfl (fun _ => rfl) (fun _ _ _ => rfl) (fun t => by rw [hafter]; unfold Dat.blockOf blk10; rw [hA]; try rfl) t d).trans
    (by unfold Dat.fetched Dat.blockOf blk10; rw [hA]; try rfl)

/-- The whole rectangle of a `S4000x256` buffer: every load and store of the body is of this form. -/
abbrev whole10_S4000x256 : Rect S4000x256 := Rect.unit (s := S4000x256) ![0, 0] S4000x256.size inb_S4000x256_S4000x256_0_0

/-- The whole rectangle of a `S1x256` buffer: every load and store of the body is of this form. -/
abbrev whole10_S1x256 : Rect S1x256 := Rect.unit (s := S1x256) ![0, 0] S1x256.size inb_S1x256_S1x256_0_0

/-- The whole rectangle of a `S256x64` buffer: every load and store of the body is of this form. -/
abbrev whole10_S256x64 : Rect S256x64 := Rect.unit (s := S256x64) ![0, 0] S256x64.size inb_S256x64_S256x64_0_0

/-- The whole rectangle of a `S1x64` buffer: every load and store of the body is of this form. -/
abbrev whole10_S1x64 : Rect S1x64 := Rect.unit (s := S1x64) ![0, 0] S1x64.size inb_S1x64_S1x64_0_0

/-- The whole rectangle of a `S4000x64` buffer: every load and store of the body is of this form. -/
abbrev whole10_S4000x64 : Rect S4000x64 := Rect.unit (s := S4000x64) ![0, 0] S4000x64.size inb_S4000x64_S4000x64_0_0

/-- What the body leaves in output window 7's staging buffer, from the input blocks: its one whole-buffer store. -/
def res10_7 (x0 : Vec F S4000x256 .f32) (x1 : Vec F S1x256 .f32) (x2 : Vec F S1x256 .f32) (x3 : Vec F S1x256 .f32) (x4 : Vec F S1x256 .f32) (x5 : Vec F S256x64 .f32) (x6 : Vec F S1x64 .f32) : Vec F S4000x64 .f32 :=
  View.canon [⟨whole10_S4000x64, k10_pay1 (View.ld x0 whole10_S4000x256) (View.ld x1 whole10_S1x256) (View.ld x2 whole10_S1x256) (View.ld x3 whole10_S1x256) (View.ld x4 whole10_S1x256) (View.ld x5 whole10_S256x64) (View.ld x6 whole10_S1x64)⟩]

/-- That store covers the buffer. -/
theorem tiles10_7 (p0 : Vec F S4000x64 .f32) (y : S4000x64.Idx) :
    ∃ pc ∈ ([⟨whole10_S4000x64, p0⟩] : List (View.Piece (Elt F) S4000x64 .f32)), y ∈ pc.1.set :=
  View.cover_of_tiled [⟨whole10_S4000x64, p0⟩] S4000x64.size (by rfl) y

set_option maxHeartbeats 1000000 in
/-- The body on whole staging buffers — the inputs' holding `xW`, the outputs' holding anything — runs to the end,
    leaves the inputs' as they were and each output's at its one store's payload of the inputs. -/
theorem bodyRun10 (c : Dev nD) (E : Set ℕ) (i : grid10.Coords) (a0 : Memref sig .tc .vmem S4000x256 .f32) (ha0 : a0.IsWhole) (a1 : Memref sig .tc .vmem S1x256 .f32) (ha1 : a1.IsWhole) (a2 : Memref sig .tc .vmem S1x256 .f32) (ha2 : a2.IsWhole) (a3 : Memref sig .tc .vmem S1x256 .f32) (ha3 : a3.IsWhole) (a4 : Memref sig .tc .vmem S1x256 .f32) (ha4 : a4.IsWhole) (a5 : Memref sig .tc .vmem S256x64 .f32) (ha5 : a5.IsWhole) (a6 : Memref sig .tc .vmem S1x64 .f32) (ha6 : a6.IsWhole) (a7 : Memref sig .tc .vmem S4000x64 .f32) (ha7 : a7.IsWhole)
    (x0 : Vec F S4000x256 .f32) (x1 : Vec F S1x256 .f32) (x2 : Vec F S1x256 .f32) (x3 : Vec F S1x256 .f32) (x4 : Vec F S1x256 .f32) (x5 : Vec F S256x64 .f32) (x6 : Vec F S1x64 .f32) (Q : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ d, owns (c : Thread nD τ) a7 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare (res10_7 x0 x1 x2 x3 x4 x5 x6)) -∗ Q ⟨⟩))
      ⊢ wp frame (wpE (defs₀ (F := F)) Variants.none c none) E (cc10__bn_out_kernel i a0 ha0 a1 ha1 a2 ha2 a3 ha3 a4 ha4 a5 ha5 a6 ha6 a7 ha7) Q := by
  simp only [cc10__bn_out_kernel_eq_skeleton]; unfold cc10__bn_out_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0
  subst hf1
  subst hf2
  subst hf3
  subst hf4
  subst hf5
  subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (tiles10_7 _)

/-- The pipeline's proof data on core `c`: the arrays as the region finds them; after the body at point `t` each input
    buffer holds its block and each output buffer the body's result on the input blocks; the invariant is the plain one
    (the scoped rest and the generator register, untouched); nothing owed; full shares. -/
def dat10 (c : Dev nD) : Dat τ (Elt F) Unit ℕ (UR sig nD τ) ℕ cfg10 c where
  A w := V c (Pipeline.arrRef spec10 w)
  after w t := match w with
    | ⟨0, _⟩ => blk10 V c 0 t
    | ⟨1, _⟩ => blk10 V c 1 t
    | ⟨2, _⟩ => blk10 V c 2 t
    | ⟨3, _⟩ => blk10 V c 3 t
    | ⟨4, _⟩ => blk10 V c 4 t
    | ⟨5, _⟩ => blk10 V c 5 t
    | ⟨6, _⟩ => blk10 V c 6 t
    | ⟨7, _⟩ => res10_7 (blk10 V c 0 t) (blk10 V c 1 t) (blk10 V c 2 t) (blk10 V c 3 t) (blk10 V c 4 t) (blk10 V c 5 t) (blk10 V c 6 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = blk10 V c 0 t := by dsimp only [dat10]
theorem after10_1 (c : Dev nD) (t : Fin cfg10.N) : (dat10 V c).after 1 t = blk10 V c 1 t := by dsimp only [dat10]
theorem after10_2 (c : Dev nD) (t : Fin cfg10.N) : (dat10 V c).after 2 t = blk10 V c 2 t := by dsimp only [dat10]
theorem after10_3 (c : Dev nD) (t : Fin cfg10.N) : (dat10 V c).after 3 t = blk10 V c 3 t := by dsimp only [dat10]
theorem after10_4 (c : Dev nD) (t : Fin cfg10.N) : (dat10 V c).after 4 t = blk10 V c 4 t := by dsimp only [dat10]
theorem after10_5 (c : Dev nD) (t : Fin cfg10.N) : (dat10 V c).after 5 t = blk10 V c 5 t := by dsimp only [dat10]
theorem after10_6 (c : Dev nD) (t : Fin cfg10.N) : (dat10 V c).after 6 t = blk10 V c 6 t := by dsimp only [dat10]
theorem after10_7 (c : Dev nD) (t : Fin cfg10.N) : (dat10 V c).after 7 t = res10_7 (blk10 V c 0 t) (blk10 V c 1 t) (blk10 V c 2 t) (blk10 V c 3 t) (blk10 V c 4 t) (blk10 V c 5 t) (blk10 V c 6 t) := by dsimp only [dat10]

theorem held10_0 (c : Dev nD) (t : Fin cfg10.N) (d) : (dat10 V c).before 0 t d = blk10 V c 0 t :=
  held10_0_of V (dat10 V c) (A_eq10 V c 0) (after10_0 V c) t d
theorem held10_1 (c : Dev nD) (t : Fin cfg10.N) (d) : (dat10 V c).before 1 t d = blk10 V c 1 t :=
  held10_1_of V (dat10 V c) (A_eq10 V c 1) (after10_1 V c) t d
theorem held10_2 (c : Dev nD) (t : Fin cfg10.N) (d) : (dat10 V c).before 2 t d = blk10 V c 2 t :=
  held10_2_of V (dat10 V c) (A_eq10 V c 2) (after10_2 V c) t d
theorem held10_3 (c : Dev nD) (t : Fin cfg10.N) (d) : (dat10 V c).before 3 t d = blk10 V c 3 t :=
  held10_3_of V (dat10 V c) (A_eq10 V c 3) (after10_3 V c) t d
theorem held10_4 (c : Dev nD) (t : Fin cfg10.N) (d) : (dat10 V c).before 4 t d = blk10 V c 4 t :=
  held10_4_of V (dat10 V c) (A_eq10 V c 4) (after10_4 V c) t d
theorem held10_5 (c : Dev nD) (t : Fin cfg10.N) (d) : (dat10 V c).before 5 t d = blk10 V c 5 t :=
  held10_5_of V (dat10 V c) (A_eq10 V c 5) (after10_5 V c) t d
theorem held10_6 (c : Dev nD) (t : Fin cfg10.N) (d) : (dat10 V c).before 6 t d = blk10 V c 6 t :=
  held10_6_of V (dat10 V c) (A_eq10 V c 6) (after10_6 V c) t d

/-- What the body is called with at point `t`, window by window, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d))
    ∗ (∃ d, owns (c : Thread nD τ) (st10_6 t) fullShare ((dat10 V c).before 6 t d))
    ∗ (∃ d, owns (c : Thread nD τ) (st10_7 t) fullShare ((dat10 V c).before 7 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t)
    ∗ owns (c : Thread nD τ) (st10_6 t) fullShare ((dat10 V c).after 6 t)
    ∗ owns (c : Thread nD τ) (st10_7 t) fullShare ((dat10 V c).after 7 t))

/-- The body at any point: the inputs' buffers hold their blocks, so `bodyRun10` applies; the invariant and what the
    core owes pass through unread. -/
theorem bodyStep10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [held10_0, held10_1, held10_2, held10_3, held10_4, held10_5, held10_6]
  rw [show (dat10 V c).Φ t.succ = (dat10 V c).Φ t.castSucc from rfl,
    show (dat10 V c).owesAt () t.succ = (dat10 V c).owesAt () t.castSucc from rfl,
    after10_0, after10_1, after10_2, after10_3, after10_4, after10_5, after10_6, after10_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (bodyRun10 c Set.univ _ _ _ _ _ _ _ _ _ _ _ _ _ _ _ _ _ (blk10 V c 0 t) (blk10 V c 1 t) (blk10 V c 2 t) (blk10 V c 3 t) (blk10 V c 4 t) (blk10 V c 5 t) (blk10 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation10 (c : Dev nD) : BodyObligation (dat10 (F := F) V c) (defs₀ (F := F)) Variants.none () Set.univ := fun t => by
  rw [bigSep_W10, bigSep_W10]
  exact bodyStep10 V c t

end Cert.Kernel.Hand

end
-- ==== Proof.KRun.lean ====
/-
  The whole run of @main: 11 kernel regions among 11 stretches of host operations. The contents of every unscoped buffer at
  each boundary are a fold from the launch memory: a host stretch applies its operations, a region leaves its arrays at what
  its write-backs make of them and every other buffer as it was. Each region is a segment entered from one boundary's contents
  and left at the next; the run ends with every unscoped buffer at the last boundary's contents. The frame (the argument arrays
  end as launched) and the value of the result buffer are both read off that.
-/
import proofs.«161825_j7842610283390_1_alg».proof.Proof.KReg0
import proofs.«161825_j7842610283390_1_alg».proof.Proof.KReg1
import proofs.«161825_j7842610283390_1_alg».proof.Proof.KReg2
import proofs.«161825_j7842610283390_1_alg».proof.Proof.KReg3
import proofs.«161825_j7842610283390_1_alg».proof.Proof.KReg4
import proofs.«161825_j7842610283390_1_alg».proof.Proof.KReg5
import proofs.«161825_j7842610283390_1_alg».proof.Proof.KReg6
import proofs.«161825_j7842610283390_1_alg».proof.Proof.KReg7
import proofs.«161825_j7842610283390_1_alg».proof.Proof.KReg8
import proofs.«161825_j7842610283390_1_alg».proof.Proof.KReg9
import proofs.«161825_j7842610283390_1_alg».proof.Proof.KReg10
import proofs.«161825_j7842610283390_1_alg».proof.Proof.Gen.Kernel.Regions
import Idealize.ShloMosaic.Lib.Pipeline.Frame
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- The buffers of a core at launch. -/
abbrev W0 : Dev nD → Valuation τ sig (Elt F) := fun c b => m (c, b)
/-- After host stretch 0: the entry of region 0. -/
abbrev W1 : Dev nD → Valuation τ sig (Elt F) := fun c => StableHlo.after hostOps0 (W0 m c)
/-- The same read at the references of the TensorCore. -/
abbrev VW1 : (c : Dev nD) → (b : Ref sig .tc) → Buf (Elt F) ((c : Thread nD τ).loc b) := fun c b => W1 m c b
/-- At the exit of region 0: its arrays at what the pipeline leaves, every other buffer as entered. -/
def W2 (c : Dev nD) : Valuation τ sig (Elt F) :=
  Pipeline.withArrays spec0 c (W1 m c) fun w => (dat0 (VW1 m) c).arrAt w cfg0.N
theorem W2_arr (c : Dev nD) (w : Fin cfg0.W) :
    W2 m c (Proc.devRef .tc (Pipeline.arrRef spec0 w)) = (dat0 (VW1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev VW2 : (c : Dev nD) → (b : Ref sig .tc) → Buf (Elt F) ((c : Thread nD τ).loc b) := fun c b => W2 m c b
theorem arrs0 (c : Dev nD) (w : Fin cfg0.W) : (dat0 (VW1 m) c).arrAt w cfg0.N = VW2 m c (Pipeline.arrRef spec0 w) :=
  (W2_arr m c w).symm
theorem others0 (c : Dev nD) : ∀ b, b ∉ Finset.univ.image (Pipeline.arrRef spec0) → VW2 m c b = VW1 m c b :=
  fun b hb => W2_of_ne m c b fun w e => hb (Finset.mem_image.mpr ⟨w, Finset.mem_univ _, e⟩)

/-- After host stretch 1: the entry of region 1. -/
abbrev W3 : Dev nD → Valuation τ sig (Elt F) := fun c => StableHlo.after hostOps1 (W2 m c)
/-- The same read at the references of the TensorCore. -/
abbrev VW3 : (c : Dev nD) → (b : Ref sig .tc) → Buf (Elt F) ((c : Thread nD τ).loc b) := fun c b => W3 m c b
/-- At the exit of region 1: its arrays at what the pipeline leaves, every other buffer as entered. -/
def W4 (c : Dev nD) : Valuation τ sig (Elt F) :=
  Pipeline.withArrays spec1 c (W3 m c) fun w => (dat1 (VW3 m) c).arrAt w cfg1.N
theorem W4_arr (c : Dev nD) (w : Fin cfg1.W) :
    W4 m c (Proc.devRef .tc (Pipeline.arrRef spec1 w)) = (dat1 (VW3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev VW4 : (c : Dev nD) → (b : Ref sig .tc) → Buf (Elt F) ((c : Thread nD τ).loc b) := fun c b => W4 m c b
theorem arrs1 (c : Dev nD) (w : Fin cfg1.W) : (dat1 (VW3 m) c).arrAt w cfg1.N = VW4 m c (Pipeline.arrRef spec1 w) :=
  (W4_arr m c w).symm
theorem others1 (c : Dev nD) : ∀ b, b ∉ Finset.univ.image (Pipeline.arrRef spec1) → VW4 m c b = VW3 m c b :=
  fun b hb => W4_of_ne m c b fun w e => hb (Finset.mem_image.mpr ⟨w, Finset.mem_univ _, e⟩)

/-- After host stretch 2: the entry of region 2. -/
abbrev W5 : Dev nD → Valuation τ sig (Elt F) := fun c => StableHlo.after hostOps2 (W4 m c)
/-- The same read at the references of the TensorCore. -/
abbrev VW5 : (c : Dev nD) → (b : Ref sig .tc) → Buf (Elt F) ((c : Thread nD τ).loc b) := fun c b => W5 m c b
/-- At the exit of region 2: its arrays at what the pipeline leaves, every other buffer as entered. -/
def W6 (c : Dev nD) : Valuation τ sig (Elt F) :=
  Pipeline.withArrays spec2 c (W5 m c) fun w => (dat2 (VW5 m) c).arrAt w cfg2.N
theorem W6_arr (c : Dev nD) (w : Fin cfg2.W) :
    W6 m c (Proc.devRef .tc (Pipeline.arrRef spec2 w)) = (dat2 (VW5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev VW6 : (c : Dev nD) → (b : Ref sig .tc) → Buf (Elt F) ((c : Thread nD τ).loc b) := fun c b => W6 m c b
theorem arrs2 (c : Dev nD) (w : Fin cfg2.W) : (dat2 (VW5 m) c).arrAt w cfg2.N = VW6 m c (Pipeline.arrRef spec2 w) :=
  (W6_arr m c w).symm
theorem others2 (c : Dev nD) : ∀ b, b ∉ Finset.univ.image (Pipeline.arrRef spec2) → VW6 m c b = VW5 m c b :=
  fun b hb => W6_of_ne m c b fun w e => hb (Finset.mem_image.mpr ⟨w, Finset.mem_univ _, e⟩)

/-- After host stretch 3: the entry of region 3. -/
abbrev W7 : Dev nD → Valuation τ sig (Elt F) := fun c => StableHlo.after hostOps3 (W6 m c)
/-- The same read at the references of the TensorCore. -/
abbrev VW7 : (c : Dev nD) → (b : Ref sig .tc) → Buf (Elt F) ((c : Thread nD τ).loc b) := fun c b => W7 m c b
/-- At the exit of region 3: its arrays at what the pipeline leaves, every other buffer as entered. -/
def W8 (c : Dev nD) : Valuation τ sig (Elt F) :=
  Pipeline.withArrays spec3 c (W7 m c) fun w => (dat3 (VW7 m) c).arrAt w cfg3.N
theorem W8_arr (c : Dev nD) (w : Fin cfg3.W) :
    W8 m c (Proc.devRef .tc (Pipeline.arrRef spec3 w)) = (dat3 (VW7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev VW8 : (c : Dev nD) → (b : Ref sig .tc) → Buf (Elt F) ((c : Thread nD τ).loc b) := fun c b => W8 m c b
theorem arrs3 (c : Dev nD) (w : Fin cfg3.W) : (dat3 (VW7 m) c).arrAt w cfg3.N = VW8 m c (Pipeline.arrRef spec3 w) :=
  (W8_arr m c w).symm
theorem others3 (c : Dev nD) : ∀ b, b ∉ Finset.univ.image (Pipeline.arrRef spec3) → VW8 m c b = VW7 m c b :=
  fun b hb => W8_of_ne m c b fun w e => hb (Finset.mem_image.mpr ⟨w, Finset.mem_univ _, e⟩)

/-- After host stretch 4: the entry of region 4. -/
abbrev W9 : Dev nD → Valuation τ sig (Elt F) := fun c => StableHlo.after hostOps4 (W8 m c)
/-- The same read at the references of the TensorCore. -/
abbrev VW9 : (c : Dev nD) → (b : Ref sig .tc) → Buf (Elt F) ((c : Thread nD τ).loc b) := fun c b => W9 m c b
/-- At the exit of region 4: its arrays at what the pipeline leaves, every other buffer as entered. -/
def W10 (c : Dev nD) : Valuation τ sig (Elt F) :=
  Pipeline.withArrays spec4 c (W9 m c) fun w => (dat4 (VW9 m) c).arrAt w cfg4.N
theorem W10_arr (c : Dev nD) (w : Fin cfg4.W) :
    W10 m c (Proc.devRef .tc (Pipeline.arrRef spec4 w)) = (dat4 (VW9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
abbrev VW10 : (c : Dev nD) → (b : Ref sig .tc) → Buf (Elt F) ((c : Thread nD τ).loc b) := fun c b => W10 m c b
theorem arrs4 (c : Dev nD) (w : Fin cfg4.W) : (dat4 (VW9 m) c).arrAt w cfg4.N = VW10 m c (Pipeline.arrRef spec4 w) :=
  (W10_arr m c w).symm
theorem others4 (c : Dev nD) : ∀ b, b ∉ Finset.univ.image (Pipeline.arrRef spec4) → VW10 m c b = VW9 m c b :=
  fun b hb => W10_of_ne m c b fun w e => hb (Finset.mem_image.mpr ⟨w, Finset.mem_univ _, e⟩)

/-- After host stretch 5: the entry of region 5. -/
abbrev W11 : Dev nD → Valuation τ sig (Elt F) := fun c => StableHlo.after hostOps5 (W10 m c)
/-- The same read at the references of the TensorCore. -/
abbrev VW11 : (c : Dev nD) → (b : Ref sig .tc) → Buf (Elt F) ((c : Thread nD τ).loc b) := fun c b => W11 m c b
/-- At the exit of region 5: its arrays at what the pipeline leaves, every other buffer as entered. -/
def W12 (c : Dev nD) : Valuation τ sig (Elt F) :=
  Pipeline.withArrays spec5 c (W11 m c) fun w => (dat5 (VW11 m) c).arrAt w cfg5.N
theorem W12_arr (c : Dev nD) (w : Fin cfg5.W) :
    W12 m c (Proc.devRef .tc (Pipeline.arrRef spec5 w)) = (dat5 (VW11 m) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m c (Proc.devRef .tc b) = W11 m c (Proc.devRef .tc b) := by
  unfold W12; exact Pipeline.withArrays_of_ne spec5 c _ _ b hb
abbrev VW12 : (c : Dev nD) → (b : Ref sig .tc) → Buf (Elt F) ((c : Thread nD τ).loc b) := fun c b => W12 m c b
theorem arrs5 (c : Dev nD) (w : Fin cfg5.W) : (dat5 (VW11 m) c).arrAt w cfg5.N = VW12 m c (Pipeline.arrRef spec5 w) :=
  (W12_arr m c w).symm
theorem others5 (c : Dev nD) : ∀ b, b ∉ Finset.univ.image (Pipeline.arrRef spec5) → VW12 m c b = VW11 m c b :=
  fun b hb => W12_of_ne m c b fun w e => hb (Finset.mem_image.mpr ⟨w, Finset.mem_univ _, e⟩)

/-- After host stretch 6: the entry of region 6. -/
abbrev W13 : Dev nD → Valuation τ sig (Elt F) := fun c => StableHlo.after hostOps6 (W12 m c)
/-- The same read at the references of the TensorCore. -/
abbrev VW13 : (c : Dev nD) → (b : Ref sig .tc) → Buf (Elt F) ((c : Thread nD τ).loc b) := fun c b => W13 m c b
/-- At the exit of region 6: its arrays at what the pipeline leaves, every other buffer as entered. -/
def W14 (c : Dev nD) : Valuation τ sig (Elt F) :=
  Pipeline.withArrays spec6 c (W13 m c) fun w => (dat6 (VW13 m) c).arrAt w cfg6.N
theorem W14_arr (c : Dev nD) (w : Fin cfg6.W) :
    W14 m c (Proc.devRef .tc (Pipeline.arrRef spec6 w)) = (dat6 (VW13 m) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m c (Proc.devRef .tc b) = W13 m c (Proc.devRef .tc b) := by
  unfold W14; exact Pipeline.withArrays_of_ne spec6 c _ _ b hb
abbrev VW14 : (c : Dev nD) → (b : Ref sig .tc) → Buf (Elt F) ((c : Thread nD τ).loc b) := fun c b => W14 m c b
theorem arrs6 (c : Dev nD) (w : Fin cfg6.W) : (dat6 (VW13 m) c).arrAt w cfg6.N = VW14 m c (Pipeline.arrRef spec6 w) :=
  (W14_arr m c w).symm
theorem others6 (c : Dev nD) : ∀ b, b ∉ Finset.univ.image (Pipeline.arrRef spec6) → VW14 m c b = VW13 m c b :=
  fun b hb => W14_of_ne m c b fun w e => hb (Finset.mem_image.mpr ⟨w, Finset.mem_univ _, e⟩)

/-- After host stretch 7: the entry of region 7. -/
abbrev W15 : Dev nD → Valuation τ sig (Elt F) := fun c => StableHlo.after hostOps7 (W14 m c)
/-- The same read at the references of the TensorCore. -/
abbrev VW15 : (c : Dev nD) → (b : Ref sig .tc) → Buf (Elt F) ((c : Thread nD τ).loc b) := fun c b => W15 m c b
/-- At the exit of region 7: its arrays at what the pipeline leaves, every other buffer as entered. -/
def W16 (c : Dev nD) : Valuation τ sig (Elt F) :=
  Pipeline.withArrays spec7 c (W15 m c) fun w => (dat7 (VW15 m) c).arrAt w cfg7.N
theorem W16_arr (c : Dev nD) (w : Fin cfg7.W) :
    W16 m c (Proc.devRef .tc (Pipeline.arrRef spec7 w)) = (dat7 (VW15 m) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m c (Proc.devRef .tc b) = W15 m c (Proc.devRef .tc b) := by
  unfold W16; exact Pipeline.withArrays_of_ne spec7 c _ _ b hb
abbrev VW16 : (c : Dev nD) → (b : Ref sig .tc) → Buf (Elt F) ((c : Thread nD τ).loc b) := fun c b => W16 m c b
theorem arrs7 (c : Dev nD) (w : Fin cfg7.W) : (dat7 (VW15 m) c).arrAt w cfg7.N = VW16 m c (Pipeline.arrRef spec7 w) :=
  (W16_arr m c w).symm
theorem others7 (c : Dev nD) : ∀ b, b ∉ Finset.univ.image (Pipeline.arrRef spec7) → VW16 m c b = VW15 m c b :=
  fun b hb => W16_of_ne m c b fun w e => hb (Finset.mem_image.mpr ⟨w, Finset.mem_univ _, e⟩)

/-- After host stretch 8: the entry of region 8. -/
abbrev W17 : Dev nD → Valuation τ sig (Elt F) := fun c => StableHlo.after hostOps8 (W16 m c)
/-- The same read at the references of the TensorCore. -/
abbrev VW17 : (c : Dev nD) → (b : Ref sig .tc) → Buf (Elt F) ((c : Thread nD τ).loc b) := fun c b => W17 m c b
/-- At the exit of region 8: its arrays at what the pipeline leaves, every other buffer as entered. -/
def W18 (c : Dev nD) : Valuation τ sig (Elt F) :=
  Pipeline.withArrays spec8 c (W17 m c) fun w => (dat8 (VW17 m) c).arrAt w cfg8.N
theorem W18_arr (c : Dev nD) (w : Fin cfg8.W) :
    W18 m c (Proc.devRef .tc (Pipeline.arrRef spec8 w)) = (dat8 (VW17 m) c).arrAt w cfg8.N := by
  unfold W18; exact Pipeline.withArrays_arr spec8 launch8.win.arr_inj c _ _ w
theorem W18_of_ne (c : Dev nD) (b : Ref sig .tc) (hb : ∀ w, Pipeline.arrRef spec8 w ≠ b) :
    W18 m c (Proc.devRef .tc b) = W17 m c (Proc.devRef .tc b) := by
  unfold W18; exact Pipeline.withArrays_of_ne spec8 c _ _ b hb
abbrev VW18 : (c : Dev nD) → (b : Ref sig .tc) → Buf (Elt F) ((c : Thread nD τ).loc b) := fun c b => W18 m c b
theorem arrs8 (c : Dev nD) (w : Fin cfg8.W) : (dat8 (VW17 m) c).arrAt w cfg8.N = VW18 m c (Pipeline.arrRef spec8 w) :=
  (W18_arr m c w).symm
theorem others8 (c : Dev nD) : ∀ b, b ∉ Finset.univ.image (Pipeline.arrRef spec8) → VW18 m c b = VW17 m c b :=
  fun b hb => W18_of_ne m c b fun w e => hb (Finset.mem_image.mpr ⟨w, Finset.mem_univ _, e⟩)

/-- After host stretch 9: the entry of region 9. -/
abbrev W19 : Dev nD → Valuation τ sig (Elt F) := fun c => StableHlo.after hostOps9 (W18 m c)
/-- The same read at the references of the TensorCore. -/
abbrev VW19 : (c : Dev nD) → (b : Ref sig .tc) → Buf (Elt F) ((c : Thread nD τ).loc b) := fun c b => W19 m c b
/-- At the exit of region 9: its arrays at what the pipeline leaves, every other buffer as entered. -/
def W20 (c : Dev nD) : Valuation τ sig (Elt F) :=
  Pipeline.withArrays spec9 c (W19 m c) fun w => (dat9 (VW19 m) c).arrAt w cfg9.N
theorem W20_arr (c : Dev nD) (w : Fin cfg9.W) :
    W20 m c (Proc.devRef .tc (Pipeline.arrRef spec9 w)) = (dat9 (VW19 m) c).arrAt w cfg9.N := by
  unfold W20; exact Pipeline.withArrays_arr spec9 launch9.win.arr_inj c _ _ w
theorem W20_of_ne (c : Dev nD) (b : Ref sig .tc) (hb : ∀ w, Pipeline.arrRef spec9 w ≠ b) :
    W20 m c (Proc.devRef .tc b) = W19 m c (Proc.devRef .tc b) := by
  unfold W20; exact Pipeline.withArrays_of_ne spec9 c _ _ b hb
abbrev VW20 : (c : Dev nD) → (b : Ref sig .tc) → Buf (Elt F) ((c : Thread nD τ).loc b) := fun c b => W20 m c b
theorem arrs9 (c : Dev nD) (w : Fin cfg9.W) : (dat9 (VW19 m) c).arrAt w cfg9.N = VW20 m c (Pipeline.arrRef spec9 w) :=
  (W20_arr m c w).symm
theorem others9 (c : Dev nD) : ∀ b, b ∉ Finset.univ.image (Pipeline.arrRef spec9) → VW20 m c b = VW19 m c b :=
  fun b hb => W20_of_ne m c b fun w e => hb (Finset.mem_image.mpr ⟨w, Finset.mem_univ _, e⟩)

/-- After host stretch 10: the entry of region 10. -/
abbrev W21 : Dev nD → Valuation τ sig (Elt F) := fun c => StableHlo.after hostOps10 (W20 m c)
/-- The same read at the references of the TensorCore. -/
abbrev VW21 : (c : Dev nD) → (b : Ref sig .tc) → Buf (Elt F) ((c : Thread nD τ).loc b) := fun c b => W21 m c b
/-- At the exit of region 10: its arrays at what the pipeline leaves, every other buffer as entered. -/
def W22 (c : Dev nD) : Valuation τ sig (Elt F) :=
  Pipeline.withArrays spec10 c (W21 m c) fun w => (dat10 (VW21 m) c).arrAt w cfg10.N
theorem W22_arr (c : Dev nD) (w : Fin cfg10.W) :
    W22 m c (Proc.devRef .tc (Pipeline.arrRef spec10 w)) = (dat10 (VW21 m) c).arrAt w cfg10.N := by
  unfold W22; exact Pipeline.withArrays_arr spec10 launch10.win.arr_inj c _ _ w
theorem W22_of_ne (c : Dev nD) (b : Ref sig .tc) (hb : ∀ w, Pipeline.arrRef spec10 w ≠ b) :
    W22 m c (Proc.devRef .tc b) = W21 m c (Proc.devRef .tc b) := by
  unfold W22; exact Pipeline.withArrays_of_ne spec10 c _ _ b hb
abbrev VW22 : (c : Dev nD) → (b : Ref sig .tc) → Buf (Elt F) ((c : Thread nD τ).loc b) := fun c b => W22 m c b
theorem arrs10 (c : Dev nD) (w : Fin cfg10.W) : (dat10 (VW21 m) c).arrAt w cfg10.N = VW22 m c (Pipeline.arrRef spec10 w) :=
  (W22_arr m c w).symm
theorem others10 (c : Dev nD) : ∀ b, b ∉ Finset.univ.image (Pipeline.arrRef spec10) → VW22 m c b = VW21 m c b :=
  fun b hb => W22_of_ne m c b fun w e => hb (Finset.mem_image.mpr ⟨w, Finset.mem_univ _, e⟩)

/-! ## The proof data family and what rides beside the buffers -/

/-- The proof data of every pipeline, each at the entry contents of its region. -/
def pdats : (p : Fin 11) → (c : Dev nD) → Dat τ (Elt F) Unit ℕ (UR sig nD τ) ℕ (Pipeline.pin (pcfgs (F := F)) adm p) c
  | ⟨0, _⟩ => fun c => dat0 (VW1 m) c
  | ⟨1, _⟩ => fun c => dat1 (VW3 m) c
  | ⟨2, _⟩ => fun c => dat2 (VW5 m) c
  | ⟨3, _⟩ => fun c => dat3 (VW7 m) c
  | ⟨4, _⟩ => fun c => dat4 (VW9 m) c
  | ⟨5, _⟩ => fun c => dat5 (VW11 m) c
  | ⟨6, _⟩ => fun c => dat6 (VW13 m) c
  | ⟨7, _⟩ => fun c => dat7 (VW15 m) c
  | ⟨8, _⟩ => fun c => dat8 (VW17 m) c
  | ⟨9, _⟩ => fun c => dat9 (VW19 m) c
  | ⟨10, _⟩ => fun c => dat10 (VW21 m) c
/-- No core owes another anything: no level is assigned. -/
abbrev noLev : GSem nD τ sig → Finset Unit := fun _ => ∅
abbrev lev0 : GSem nD τ sig → Unit → ℕ := fun _ _ => 0
/-- What rides beside the buffers through every segment: the generator register of the core at some state and its dues, at nothing. -/
abbrev rest (c : Dev nD) : sProp 𝕄 := iprop((∃ r, prngReg c r) ∗ ∃ W, owes (c : Thread nD τ) (0 : CellTallies nD τ sig Unit) W)
/-- A host stretch as a segment over the unscoped references from given contents, the rest riding along. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noLev lev0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rest
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev lastState (c : Dev nD) : sProp 𝕄 := iprop(StableHlo.held (c : Thread nD τ) (Pipeline.ucRefs τ sig) (W22 m c) ∗ ∃ r, prngReg c r)

/-! ## The regions as segments -/

set_option backward.isDefEq.respectTransparency.types false in
/-- Region 0 over the thread state: entered from every unscoped buffer at boundary 1, left at boundary 2. Its arrays are split out of the
    unscoped buffers and put back at the exit contents; the generator register goes into the invariant and comes out; nothing owed. -/
def reg0 : Pipeline.RegionSeg (pcfgs (F := F)) adm (pdats m) () defs₀ Variants.none noLev lev0 0 where
  win := launch0.win.to₀
  block_pos := launch0.block_pos
  stage_whole := launch0.stage_whole
  K := PEmpty
  osem k := k.elim
  ho := Pipeline.OwnSemFacts.none _
  hbody c := (body_obligation0 (VW1 m) c).loose
  hwaits := Pipeline.hwaits_of_owed_zero _ _ _ _ noLev lev0 0 fun _ _ => rfl
  pre c := iprop(StableHlo.held (c : Thread nD τ) (Pipeline.ucRefs τ sig) (W1 m c) ∗ rest c)
  post c := iprop(StableHlo.held (c : Thread nD τ) (Pipeline.ucRefs τ sig) (W2 m c) ∗ rest c)
  X c := iprop(∃ r, prngReg c r)
  Y c := iprop(∃ r, prngReg c r)
  Z c := Pipeline.unscopedRest (Ix := Unit) (Name := ℕ) (U := UR sig nD τ) (Lvl := ℕ) spec0 c (VW1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VW1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VW1 m c) (VW2 m c) ((pdats m 0 c).arrAt · cfg0.N) (arrs0 m c) (others0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at boundary 3, left at boundary 4. Its arrays are split out of the
    unscoped buffers and put back at the exit contents; the generator register goes into the invariant and comes out; nothing owed. -/
def reg1 : Pipeline.RegionSeg (pcfgs (F := F)) adm (pdats m) () defs₀ Variants.none noLev lev0 1 where
  win := launch1.win.to₀
  block_pos := launch1.block_pos
  stage_whole := launch1.stage_whole
  K := PEmpty
  osem k := k.elim
  ho := Pipeline.OwnSemFacts.none _
  hbody c := (body_obligation1 (VW3 m) c).loose
  hwaits := Pipeline.hwaits_of_owed_zero _ _ _ _ noLev lev0 1 fun _ _ => rfl
  pre c := iprop(StableHlo.held (c : Thread nD τ) (Pipeline.ucRefs τ sig) (W3 m c) ∗ rest c)
  post c := iprop(StableHlo.held (c : Thread nD τ) (Pipeline.ucRefs τ sig) (W4 m c) ∗ rest c)
  X c := iprop(∃ r, prngReg c r)
  Y c := iprop(∃ r, prngReg c r)
  Z c := Pipeline.unscopedRest (Ix := Unit) (Name := ℕ) (U := UR sig nD τ) (Lvl := ℕ) spec1 c (VW3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VW3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VW3 m c) (VW4 m c) ((pdats m 1 c).arrAt · cfg1.N) (arrs1 m c) (others1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at boundary 5, left at boundary 6. Its arrays are split out of the
    unscoped buffers and put back at the exit contents; the generator register goes into the invariant and comes out; nothing owed. -/
def reg2 : Pipeline.RegionSeg (pcfgs (F := F)) adm (pdats m) () defs₀ Variants.none noLev lev0 2 where
  win := launch2.win.to₀
  block_pos := launch2.block_pos
  stage_whole := launch2.stage_whole
  K := PEmpty
  osem k := k.elim
  ho := Pipeline.OwnSemFacts.none _
  hbody c := (body_obligation2 (VW5 m) c).loose
  hwaits := Pipeline.hwaits_of_owed_zero _ _ _ _ noLev lev0 2 fun _ _ => rfl
  pre c := iprop(StableHlo.held (c : Thread nD τ) (Pipeline.ucRefs τ sig) (W5 m c) ∗ rest c)
  post c := iprop(StableHlo.held (c : Thread nD τ) (Pipeline.ucRefs τ sig) (W6 m c) ∗ rest c)
  X c := iprop(∃ r, prngReg c r)
  Y c := iprop(∃ r, prngReg c r)
  Z c := Pipeline.unscopedRest (Ix := Unit) (Name := ℕ) (U := UR sig nD τ) (Lvl := ℕ) spec2 c (VW5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (VW5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (VW5 m c) (VW6 m c) ((pdats m 2 c).arrAt · cfg2.N) (arrs2 m c) (others2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at boundary 7, left at boundary 8. Its arrays are split out of the
    unscoped buffers and put back at the exit contents; the generator register goes into the invariant and comes out; nothing owed. -/
def reg3 : Pipeline.RegionSeg (pcfgs (F := F)) adm (pdats m) () defs₀ Variants.none noLev lev0 3 where
  win := launch3.win.to₀
  block_pos := launch3.block_pos
  stage_whole := launch3.stage_whole
  K := PEmpty
  osem k := k.elim
  ho := Pipeline.OwnSemFacts.none _
  hbody c := (body_obligation3 (VW7 m) c).loose
  hwaits := Pipeline.hwaits_of_owed_zero _ _ _ _ noLev lev0 3 fun _ _ => rfl
  pre c := iprop(StableHlo.held (c : Thread nD τ) (Pipeline.ucRefs τ sig) (W7 m c) ∗ rest c)
  post c := iprop(StableHlo.held (c : Thread nD τ) (Pipeline.ucRefs τ sig) (W8 m c) ∗ rest c)
  X c := iprop(∃ r, prngReg c r)
  Y c := iprop(∃ r, prngReg c r)
  Z c := Pipeline.unscopedRest (Ix := Unit) (Name := ℕ) (U := UR sig nD τ) (Lvl := ℕ) spec3 c (VW7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (VW7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (VW7 m c) (VW8 m c) ((pdats m 3 c).arrAt · cfg3.N) (arrs3 m c) (others3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at boundary 9, left at boundary 10. Its arrays are split out of the
    unscoped buffers and put back at the exit contents; the generator register goes into the invariant and comes out; nothing owed. -/
def reg4 : Pipeline.RegionSeg (pcfgs (F := F)) adm (pdats m) () defs₀ Variants.none noLev lev0 4 where
  win := launch4.win.to₀
  block_pos := launch4.block_pos
  stage_whole := launch4.stage_whole
  K := PEmpty
  osem k := k.elim
  ho := Pipeline.OwnSemFacts.none _
  hbody c := (body_obligation4 (VW9 m) c).loose
  hwaits := Pipeline.hwaits_of_owed_zero _ _ _ _ noLev lev0 4 fun _ _ => rfl
  pre c := iprop(StableHlo.held (c : Thread nD τ) (Pipeline.ucRefs τ sig) (W9 m c) ∗ rest c)
  post c := iprop(StableHlo.held (c : Thread nD τ) (Pipeline.ucRefs τ sig) (W10 m c) ∗ rest c)
  X c := iprop(∃ r, prngReg c r)
  Y c := iprop(∃ r, prngReg c r)
  Z c := Pipeline.unscopedRest (Ix := Unit) (Name := ℕ) (U := UR sig nD τ) (Lvl := ℕ) spec4 c (VW9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (VW9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (VW9 m c) (VW10 m c) ((pdats m 4 c).arrAt · cfg4.N) (arrs4 m c) (others4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at boundary 11, left at boundary 12. Its arrays are split out of the
    unscoped buffers and put back at the exit contents; the generator register goes into the invariant and comes out; nothing owed. -/
def reg5 : Pipeline.RegionSeg (pcfgs (F := F)) adm (pdats m) () defs₀ Variants.none noLev lev0 5 where
  win := launch5.win.to₀
  block_pos := launch5.block_pos
  stage_whole := launch5.stage_whole
  K := PEmpty
  osem k := k.elim
  ho := Pipeline.OwnSemFacts.none _
  hbody c := (body_obligation5 (VW11 m) c).loose
  hwaits := Pipeline.hwaits_of_owed_zero _ _ _ _ noLev lev0 5 fun _ _ => rfl
  pre c := iprop(StableHlo.held (c : Thread nD τ) (Pipeline.ucRefs τ sig) (W11 m c) ∗ rest c)
  post c := iprop(StableHlo.held (c : Thread nD τ) (Pipeline.ucRefs τ sig) (W12 m c) ∗ rest c)
  X c := iprop(∃ r, prngReg c r)
  Y c := iprop(∃ r, prngReg c r)
  Z c := Pipeline.unscopedRest (Ix := Unit) (Name := ℕ) (U := UR sig nD τ) (Lvl := ℕ) spec5 c (VW11 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (VW11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (VW11 m c) (VW12 m c) ((pdats m 5 c).arrAt · cfg5.N) (arrs5 m c) (others5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at boundary 13, left at boundary 14. Its arrays are split out of the
    unscoped buffers and put back at the exit contents; the generator register goes into the invariant and comes out; nothing owed. -/
def reg6 : Pipeline.RegionSeg (pcfgs (F := F)) adm (pdats m) () defs₀ Variants.none noLev lev0 6 where
  win := launch6.win.to₀
  block_pos := launch6.block_pos
  stage_whole := launch6.stage_whole
  K := PEmpty
  osem k := k.elim
  ho := Pipeline.OwnSemFacts.none _
  hbody c := (body_obligation6 (VW13 m) c).loose
  hwaits := Pipeline.hwaits_of_owed_zero _ _ _ _ noLev lev0 6 fun _ _ => rfl
  pre c := iprop(StableHlo.held (c : Thread nD τ) (Pipeline.ucRefs τ sig) (W13 m c) ∗ rest c)
  post c := iprop(StableHlo.held (c : Thread nD τ) (Pipeline.ucRefs τ sig) (W14 m c) ∗ rest c)
  X c := iprop(∃ r, prngReg c r)
  Y c := iprop(∃ r, prngReg c r)
  Z c := Pipeline.unscopedRest (Ix := Unit) (Name := ℕ) (U := UR sig nD τ) (Lvl := ℕ) spec6 c (VW13 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (VW13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (VW13 m c) (VW14 m c) ((pdats m 6 c).arrAt · cfg6.N) (arrs6 m c) (others6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered from every unscoped buffer at boundary 15, left at boundary 16. Its arrays are split out of the
    unscoped buffers and put back at the exit contents; the generator register goes into the invariant and comes out; nothing owed. -/
def reg7 : Pipeline.RegionSeg (pcfgs (F := F)) adm (pdats m) () defs₀ Variants.none noLev lev0 7 where
  win := launch7.win.to₀
  block_pos := launch7.block_pos
  stage_whole := launch7.stage_whole
  K := PEmpty
  osem k := k.elim
  ho := Pipeline.OwnSemFacts.none _
  hbody c := (body_obligation7 (VW15 m) c).loose
  hwaits := Pipeline.hwaits_of_owed_zero _ _ _ _ noLev lev0 7 fun _ _ => rfl
  pre c := iprop(StableHlo.held (c : Thread nD τ) (Pipeline.ucRefs τ sig) (W15 m c) ∗ rest c)
  post c := iprop(StableHlo.held (c : Thread nD τ) (Pipeline.ucRefs τ sig) (W16 m c) ∗ rest c)
  X c := iprop(∃ r, prngReg c r)
  Y c := iprop(∃ r, prngReg c r)
  Z c := Pipeline.unscopedRest (Ix := Unit) (Name := ℕ) (U := UR sig nD τ) (Lvl := ℕ) spec7 c (VW15 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (VW15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (VW15 m c) (VW16 m c) ((pdats m 7 c).arrAt · cfg7.N) (arrs7 m c) (others7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8 over the thread state: entered from every unscoped buffer at boundary 17, left at boundary 18. Its arrays are split out of the
    unscoped buffers and put back at the exit contents; the generator register goes into the invariant and comes out; nothing owed. -/
def reg8 : Pipeline.RegionSeg (pcfgs (F := F)) adm (pdats m) () defs₀ Variants.none noLev lev0 8 where
  win := launch8.win.to₀
  block_pos := launch8.block_pos
  stage_whole := launch8.stage_whole
  K := PEmpty
  osem k := k.elim
  ho := Pipeline.OwnSemFacts.none _
  hbody c := (body_obligation8 (VW17 m) c).loose
  hwaits := Pipeline.hwaits_of_owed_zero _ _ _ _ noLev lev0 8 fun _ _ => rfl
  pre c := iprop(StableHlo.held (c : Thread nD τ) (Pipeline.ucRefs τ sig) (W17 m c) ∗ rest c)
  post c := iprop(StableHlo.held (c : Thread nD τ) (Pipeline.ucRefs τ sig) (W18 m c) ∗ rest c)
  X c := iprop(∃ r, prngReg c r)
  Y c := iprop(∃ r, prngReg c r)
  Z c := Pipeline.unscopedRest (Ix := Unit) (Name := ℕ) (U := UR sig nD τ) (Lvl := ℕ) spec8 c (VW17 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (VW17 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (VW17 m c) (VW18 m c) ((pdats m 8 c).arrAt · cfg8.N) (arrs8 m c) (others8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9 over the thread state: entered from every unscoped buffer at boundary 19, left at boundary 20. Its arrays are split out of the
    unscoped buffers and put back at the exit contents; the generator register goes into the invariant and comes out; nothing owed. -/
def reg9 : Pipeline.RegionSeg (pcfgs (F := F)) adm (pdats m) () defs₀ Variants.none noLev lev0 9 where
  win := launch9.win.to₀
  block_pos := launch9.block_pos
  stage_whole := launch9.stage_whole
  K := PEmpty
  osem k := k.elim
  ho := Pipeline.OwnSemFacts.none _
  hbody c := (body_obligation9 (VW19 m) c).loose
  hwaits := Pipeline.hwaits_of_owed_zero _ _ _ _ noLev lev0 9 fun _ _ => rfl
  pre c := iprop(StableHlo.held (c : Thread nD τ) (Pipeline.ucRefs τ sig) (W19 m c) ∗ rest c)
  post c := iprop(StableHlo.held (c : Thread nD τ) (Pipeline.ucRefs τ sig) (W20 m c) ∗ rest c)
  X c := iprop(∃ r, prngReg c r)
  Y c := iprop(∃ r, prngReg c r)
  Z c := Pipeline.unscopedRest (Ix := Unit) (Name := ℕ) (U := UR sig nD τ) (Lvl := ℕ) spec9 c (VW19 m c)
  hentry c := by
    rw [Pipeline.ownSems0_none]
    have hsplit := Pipeline.arrays_of_unscopedBufs (p := 9) (pcfgs (F := F)) adm (pdats m) launch9.win launch9.arr_whole c
      ((pdats m 9 c).share_full fun _ => rfl) (VW19 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none]
    refine (hout9 (VW19 m) c).trans ?_
    unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (VW19 m c) (VW20 m c) ((pdats m 9 c).arrAt · cfg9.N) (arrs9 m c) (others9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 10 over the thread state: entered from every unscoped buffer at boundary 21, left at boundary 22. Its arrays are split out of the
    unscoped buffers and put back at the exit contents; the generator register goes into the invariant and comes out; nothing owed. -/
def reg10 : Pipeline.RegionSeg (pcfgs (F := F)) adm (pdats m) () defs₀ Variants.none noLev lev0 10 where
  win := launch10.win.to₀
  block_pos := launch10.block_pos
  stage_whole := launch10.stage_whole
  K := PEmpty
  osem k := k.elim
  ho := Pipeline.OwnSemFacts.none _
  hbody c := (body_obligation10 (VW21 m) c).loose
  hwaits := Pipeline.hwaits_of_owed_zero _ _ _ _ noLev lev0 10 fun _ _ => rfl
  pre c := iprop(StableHlo.held (c : Thread nD τ) (Pipeline.ucRefs τ sig) (W21 m c) ∗ rest c)
  post c := iprop(lastState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec10 c (VW21 m c)
  hentry c := by
    rw [Pipeline.ownSems0_none]
    have hsplit := Pipeline.arrays_of_unscopedBufs (p := 10) (pcfgs (F := F)) adm (pdats m) launch10.win launch10.arr_whole c
      ((pdats m 10 c).share_full fun _ => rfl) (VW21 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (VW21 m c) (VW22 m c) ((pdats m 10 c).arrAt · cfg10.N) (arrs10 m c) (others10 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev allSegs : List (Pipeline.Seg (pcfgs (F := F)) adm (pdats m) () defs₀ Variants.none noLev lev0) :=
  [ .host (hostSeg hostOps0 hostOps0_sub hostOps0_fresh (W0 m)),
    .region (reg0 m),
    .host (hostSeg hostOps1 hostOps1_sub hostOps1_fresh (W2 m)),
    .region (reg1 m),
    .host (hostSeg hostOps2 hostOps2_sub hostOps2_fresh (W4 m)),
    .region (reg2 m),
    .host (hostSeg hostOps3 hostOps3_sub hostOps3_fresh (W6 m)),
    .region (reg3 m),
    .host (hostSeg hostOps4 hostOps4_sub hostOps4_fresh (W8 m)),
    .region (reg4 m),
    .host (hostSeg hostOps5 hostOps5_sub hostOps5_fresh (W10 m)),
    .region (reg5 m),
    .host (hostSeg hostOps6 hostOps6_sub hostOps6_fresh (W12 m)),
    .region (reg6 m),
    .host (hostSeg hostOps7 hostOps7_sub hostOps7_fresh (W14 m)),
    .region (reg7 m),
    .host (hostSeg hostOps8 hostOps8_sub hostOps8_fresh (W16 m)),
    .region (reg8 m),
    .host (hostSeg hostOps9 hostOps9_sub hostOps9_fresh (W18 m)),
    .region (reg9 m),
    .host (hostSeg hostOps10 hostOps10_sub hostOps10_fresh (W20 m)),
    .region (reg10 m) ]

theorem main_run (c : Dev nD) : main (F := F) c = Pipeline.Seg.run (allSegs m) := by
  rewrite [main_chain c, Pipeline.Seg.run_eq_chain,
    show (allSegs m).map Pipeline.Seg.prog = [
      StableHlo.seq hostOps0,
      Prog.lift (.customCall (Pipeline.entry 0) ()),
      StableHlo.seq hostOps1,
      Prog.lift (.customCall (Pipeline.entry 1) ()),
      StableHlo.seq hostOps2,
      Prog.lift (.customCall (Pipeline.entry 2) ()),
      StableHlo.seq hostOps3,
      Prog.lift (.customCall (Pipeline.entry 3) ()),
      StableHlo.seq hostOps4,
      Prog.lift (.customCall (Pipeline.entry 4) ()),
      StableHlo.seq hostOps5,
      Prog.lift (.customCall (Pipeline.entry 5) ()),
      StableHlo.seq hostOps6,
      Prog.lift (.customCall (Pipeline.entry 6) ()),
      StableHlo.seq hostOps7,
      Prog.lift (.customCall (Pipeline.entry 7) ()),
      StableHlo.seq hostOps8,
      Prog.lift (.customCall (Pipeline.entry 8) ()),
      StableHlo.seq hostOps9,
      Prog.lift (.customCall (Pipeline.entry 9) ()),
      StableHlo.seq hostOps10,
      Prog.lift (.customCall (Pipeline.entry 10) ()) ] from rfl]
  rfl

set_option backward.isDefEq.respectTransparency.types false in
/-- THE RUN: from any memory with zero counters every weakly fair execution of @main terminates, nothing faulting, and every final
    state has every unscoped buffer of every core at the contents of the last boundary. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W22 m c b) :=
  Pipeline.θ_run_regions_kit (pcfgs (F := F)) adm (pdats m) () cellOf_inj emb₁ defs₀ Variants.none noLev lev0 m ρ main (allSegs m)
    (fun c Q => by rw [main_run m c])
    (by simp only [allSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ rest c)) (Tₙ := lastState m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach noLev lev0 fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m c b)
    (hfin := fun c s' => by
      iintro ⟨⟨Hh, -⟩, HSI⟩
      unfold StableHlo.held
      imodintro
      iapply (pointsTo_read_all (Pipeline.ucRefs τ sig) (fun b => (((c : Thread nD τ)).1, b)) (W22 m c) s')
      isplitl [Hh] <;> iassumption)
    (hQ := fun s h c => h c)

/-! ## The argument arrays end as launched -/

theorem W22_main_arg0 (c : Dev nD) : W22 m c (Proc.devRef .tc main_arg0) = m ((c : Thread nD τ).loc main_arg0) :=
  calc W22 m c (Proc.devRef .tc main_arg0)
    _ = W21 m c (Proc.devRef .tc main_arg0) := W22_of_ne m c main_arg0 (by decide)
    _ = W20 m c (Proc.devRef .tc main_arg0) := StableHlo.after_of_writes_sub hostOps10 _ hostOps10_writes (by decide)
    _ = W19 m c (Proc.devRef .tc main_arg0) := W20_of_ne m c main_arg0 (by decide)
    _ = W18 m c (Proc.devRef .tc main_arg0) := StableHlo.after_of_writes_sub hostOps9 _ hostOps9_writes (by decide)
    _ = W17 m c (Proc.devRef .tc main_arg0) := W18_of_ne m c main_arg0 (by decide)
    _ = W16 m c (Proc.devRef .tc main_arg0) := StableHlo.after_of_writes_sub hostOps8 _ hostOps8_writes (by decide)
    _ = W15 m c (Proc.devRef .tc main_arg0) := W16_of_ne m c main_arg0 (by decide)
    _ = W14 m c (Proc.devRef .tc main_arg0) := StableHlo.after_of_writes_sub hostOps7 _ hostOps7_writes (by decide)
    _ = W13 m c (Proc.devRef .tc main_arg0) := W14_of_ne m c main_arg0 (by decide)
    _ = W12 m c (Proc.devRef .tc main_arg0) := StableHlo.after_of_writes_sub hostOps6 _ hostOps6_writes (by decide)
    _ = W11 m c (Proc.devRef .tc main_arg0) := W12_of_ne m c main_arg0 (by decide)
    _ = W10 m c (Proc.devRef .tc main_arg0) := StableHlo.after_of_writes_sub hostOps5 _ hostOps5_writes (by decide)
    _ = W9 m c (Proc.devRef .tc main_arg0) := W10_of_ne m c main_arg0 (by decide)
    _ = W8 m c (Proc.devRef .tc main_arg0) := StableHlo.after_of_writes_sub hostOps4 _ hostOps4_writes (by decide)
    _ = W7 m c (Proc.devRef .tc main_arg0) := W8_of_ne m c main_arg0 (by decide)
    _ = W6 m c (Proc.devRef .tc main_arg0) := StableHlo.after_of_writes_sub hostOps3 _ hostOps3_writes (by decide)
    _ = W5 m c (Proc.devRef .tc main_arg0) := W6_of_ne m c main_arg0 (by decide)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := (W2_arr m c 0).trans (((dat0 (VW1 m) c).arrAt_in 0 rfl _).trans (A_eq0 (VW1 m) c 0))
    _ = W0 m c (Proc.devRef .tc main_arg0) := StableHlo.after_of_writes_sub hostOps0 _ hostOps0_writes (by decide)
    _ = m ((c : Thread nD τ).loc main_arg0) := rfl

theorem W22_main_arg1 (c : Dev nD) : W22 m c (Proc.devRef .tc main_arg1) = m ((c : Thread nD τ).loc main_arg1) :=
  calc W22 m c (Proc.devRef .tc main_arg1)
    _ = W21 m c (Proc.devRef .tc main_arg1) := W22_of_ne m c main_arg1 (by decide)
    _ = W20 m c (Proc.devRef .tc main_arg1) := StableHlo.after_of_writes_sub hostOps10 _ hostOps10_writes (by decide)
    _ = W19 m c (Proc.devRef .tc main_arg1) := W20_of_ne m c main_arg1 (by decide)
    _ = W18 m c (Proc.devRef .tc main_arg1) := StableHlo.after_of_writes_sub hostOps9 _ hostOps9_writes (by decide)
    _ = W17 m c (Proc.devRef .tc main_arg1) := W18_of_ne m c main_arg1 (by decide)
    _ = W16 m c (Proc.devRef .tc main_arg1) := StableHlo.after_of_writes_sub hostOps8 _ hostOps8_writes (by decide)
    _ = W15 m c (Proc.devRef .tc main_arg1) := W16_of_ne m c main_arg1 (by decide)
    _ = W14 m c (Proc.devRef .tc main_arg1) := StableHlo.after_of_writes_sub hostOps7 _ hostOps7_writes (by decide)
    _ = W13 m c (Proc.devRef .tc main_arg1) := W14_of_ne m c main_arg1 (by decide)
    _ = W12 m c (Proc.devRef .tc main_arg1) := StableHlo.after_of_writes_sub hostOps6 _ hostOps6_writes (by decide)
    _ = W11 m c (Proc.devRef .tc main_arg1) := W12_of_ne m c main_arg1 (by decide)
    _ = W10 m c (Proc.devRef .tc main_arg1) := StableHlo.after_of_writes_sub hostOps5 _ hostOps5_writes (by decide)
    _ = W9 m c (Proc.devRef .tc main_arg1) := W10_of_ne m c main_arg1 (by decide)
    _ = W8 m c (Proc.devRef .tc main_arg1) := StableHlo.after_of_writes_sub hostOps4 _ hostOps4_writes (by decide)
    _ = W7 m c (Proc.devRef .tc main_arg1) := W8_of_ne m c main_arg1 (by decide)
    _ = W6 m c (Proc.devRef .tc main_arg1) := StableHlo.after_of_writes_sub hostOps3 _ hostOps3_writes (by decide)
    _ = W5 m c (Proc.devRef .tc main_arg1) := W6_of_ne m c main_arg1 (by decide)
    _ = W4 m c (Proc.devRef .tc main_arg1) := StableHlo.after_of_writes_sub hostOps2 _ hostOps2_writes (by decide)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

theorem W22_main_arg2 (c : Dev nD) : W22 m c (Proc.devRef .tc main_arg2) = m ((c : Thread nD τ).loc main_arg2) :=
  calc W22 m c (Proc.devRef .tc main_arg2)
    _ = W21 m c (Proc.devRef .tc main_arg2) := W22_of_ne m c main_arg2 (by decide)
    _ = W20 m c (Proc.devRef .tc main_arg2) := StableHlo.after_of_writes_sub hostOps10 _ hostOps10_writes (by decide)
    _ = W19 m c (Proc.devRef .tc main_arg2) := W20_of_ne m c main_arg2 (by decide)
    _ = W18 m c (Proc.devRef .tc main_arg2) := StableHlo.after_of_writes_sub hostOps9 _ hostOps9_writes (by decide)
    _ = W17 m c (Proc.devRef .tc main_arg2) := W18_of_ne m c main_arg2 (by decide)
    _ = W16 m c (Proc.devRef .tc main_arg2) := StableHlo.after_of_writes_sub hostOps8 _ hostOps8_writes (by decide)
    _ = W15 m c (Proc.devRef .tc main_arg2) := (W16_arr m c 0).trans (((dat7 (VW15 m) c).arrAt_in 0 rfl _).trans (A_eq7 (VW15 m) c 0))
    _ = W14 m c (Proc.devRef .tc main_arg2) := StableHlo.after_of_writes_sub hostOps7 _ hostOps7_writes (by decide)
    _ = W13 m c (Proc.devRef .tc main_arg2) := W14_of_ne m c main_arg2 (by decide)
    _ = W12 m c (Proc.devRef .tc main_arg2) := StableHlo.after_of_writes_sub hostOps6 _ hostOps6_writes (by decide)
    _ = W11 m c (Proc.devRef .tc main_arg2) := W12_of_ne m c main_arg2 (by decide)
    _ = W10 m c (Proc.devRef .tc main_arg2) := StableHlo.after_of_writes_sub hostOps5 _ hostOps5_writes (by decide)
    _ = W9 m c (Proc.devRef .tc main_arg2) := (W10_arr m c 0).trans (((dat4 (VW9 m) c).arrAt_in 0 rfl _).trans (A_eq4 (VW9 m) c 0))
    _ = W8 m c (Proc.devRef .tc main_arg2) := StableHlo.after_of_writes_sub hostOps4 _ hostOps4_writes (by decide)
    _ = W7 m c (Proc.devRef .tc main_arg2) := W8_of_ne m c main_arg2 (by decide)
    _ = W6 m c (Proc.devRef .tc main_arg2) := StableHlo.after_of_writes_sub hostOps3 _ hostOps3_writes (by decide)
    _ = W5 m c (Proc.devRef .tc main_arg2) := W6_of_ne m c main_arg2 (by decide)
    _ = W4 m c (Proc.devRef .tc main_arg2) := StableHlo.after_of_writes_sub hostOps2 _ hostOps2_writes (by decide)
    _ = W3 m c (Proc.devRef .tc main_arg2) := (W4_arr m c 0).trans (((dat1 (VW3 m) c).arrAt_in 0 rfl _).trans (A_eq1 (VW3 m) c 0))
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

theorem W22_main_arg3 (c : Dev nD) : W22 m c (Proc.devRef .tc main_arg3) = m ((c : Thread nD τ).loc main_arg3) :=
  calc W22 m c (Proc.devRef .tc main_arg3)
    _ = W21 m c (Proc.devRef .tc main_arg3) := W22_of_ne m c main_arg3 (by decide)
    _ = W20 m c (Proc.devRef .tc main_arg3) := StableHlo.after_of_writes_sub hostOps10 _ hostOps10_writes (by decide)
    _ = W19 m c (Proc.devRef .tc main_arg3) := W20_of_ne m c main_arg3 (by decide)
    _ = W18 m c (Proc.devRef .tc main_arg3) := StableHlo.after_of_writes_sub hostOps9 _ hostOps9_writes (by decide)
    _ = W17 m c (Proc.devRef .tc main_arg3) := W18_of_ne m c main_arg3 (by decide)
    _ = W16 m c (Proc.devRef .tc main_arg3) := StableHlo.after_of_writes_sub hostOps8 _ hostOps8_writes (by decide)
    _ = W15 m c (Proc.devRef .tc main_arg3) := W16_of_ne m c main_arg3 (by decide)
    _ = W14 m c (Proc.devRef .tc main_arg3) := StableHlo.after_of_writes_sub hostOps7 _ hostOps7_writes (by decide)
    _ = W13 m c (Proc.devRef .tc main_arg3) := W14_of_ne m c main_arg3 (by decide)
    _ = W12 m c (Proc.devRef .tc main_arg3) := StableHlo.after_of_writes_sub hostOps6 _ hostOps6_writes (by decide)
    _ = W11 m c (Proc.devRef .tc main_arg3) := W12_of_ne m c main_arg3 (by decide)
    _ = W10 m c (Proc.devRef .tc main_arg3) := StableHlo.after_of_writes_sub hostOps5 _ hostOps5_writes (by decide)
    _ = W9 m c (Proc.devRef .tc main_arg3) := W10_of_ne m c main_arg3 (by decide)
    _ = W8 m c (Proc.devRef .tc main_arg3) := StableHlo.after_of_writes_sub hostOps4 _ hostOps4_writes (by decide)
    _ = W7 m c (Proc.devRef .tc main_arg3) := W8_of_ne m c main_arg3 (by decide)
    _ = W6 m c (Proc.devRef .tc main_arg3) := StableHlo.after_of_writes_sub hostOps3 _ hostOps3_writes (by decide)
    _ = W5 m c (Proc.devRef .tc main_arg3) := W6_of_ne m c main_arg3 (by decide)
    _ = W4 m c (Proc.devRef .tc main_arg3) := StableHlo.after_of_writes_sub hostOps2 _ hostOps2_writes (by decide)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

theorem W22_main_arg4 (c : Dev nD) : W22 m c (Proc.devRef .tc main_arg4) = m ((c : Thread nD τ).loc main_arg4) :=
  calc W22 m c (Proc.devRef .tc main_arg4)
    _ = W21 m c (Proc.devRef .tc main_arg4) := W22_of_ne m c main_arg4 (by decide)
    _ = W20 m c (Proc.devRef .tc main_arg4) := StableHlo.after_of_writes_sub hostOps10 _ hostOps10_writes (by decide)
    _ = W19 m c (Proc.devRef .tc main_arg4) := W20_of_ne m c main_arg4 (by decide)
    _ = W18 m c (Proc.devRef .tc main_arg4) := StableHlo.after_of_writes_sub hostOps9 _ hostOps9_writes (by decide)
    _ = W17 m c (Proc.devRef .tc main_arg4) := W18_of_ne m c main_arg4 (by decide)
    _ = W16 m c (Proc.devRef .tc main_arg4) := StableHlo.after_of_writes_sub hostOps8 _ hostOps8_writes (by decide)
    _ = W15 m c (Proc.devRef .tc main_arg4) := W16_of_ne m c main_arg4 (by decide)
    _ = W14 m c (Proc.devRef .tc main_arg4) := StableHlo.after_of_writes_sub hostOps7 _ hostOps7_writes (by decide)
    _ = W13 m c (Proc.devRef .tc main_arg4) := W14_of_ne m c main_arg4 (by decide)
    _ = W12 m c (Proc.devRef .tc main_arg4) := StableHlo.after_of_writes_sub hostOps6 _ hostOps6_writes (by decide)
    _ = W11 m c (Proc.devRef .tc main_arg4) := W12_of_ne m c main_arg4 (by decide)
    _ = W10 m c (Proc.devRef .tc main_arg4) := StableHlo.after_of_writes_sub hostOps5 _ hostOps5_writes (by decide)
    _ = W9 m c (Proc.devRef .tc main_arg4) := W10_of_ne m c main_arg4 (by decide)
    _ = W8 m c (Proc.devRef .tc main_arg4) := StableHlo.after_of_writes_sub hostOps4 _ hostOps4_writes (by decide)
    _ = W7 m c (Proc.devRef .tc main_arg4) := W8_of_ne m c main_arg4 (by decide)
    _ = W6 m c (Proc.devRef .tc main_arg4) := StableHlo.after_of_writes_sub hostOps3 _ hostOps3_writes (by decide)
    _ = W5 m c (Proc.devRef .tc main_arg4) := W6_of_ne m c main_arg4 (by decide)
    _ = W4 m c (Proc.devRef .tc main_arg4) := StableHlo.after_of_writes_sub hostOps2 _ hostOps2_writes (by decide)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl

theorem W22_main_arg5 (c : Dev nD) : W22 m c (Proc.devRef .tc main_arg5) = m ((c : Thread nD τ).loc main_arg5) :=
  calc W22 m c (Proc.devRef .tc main_arg5)
    _ = W21 m c (Proc.devRef .tc main_arg5) := W22_of_ne m c main_arg5 (by decide)
    _ = W20 m c (Proc.devRef .tc main_arg5) := StableHlo.after_of_writes_sub hostOps10 _ hostOps10_writes (by decide)
    _ = W19 m c (Proc.devRef .tc main_arg5) := W20_of_ne m c main_arg5 (by decide)
    _ = W18 m c (Proc.devRef .tc main_arg5) := StableHlo.after_of_writes_sub hostOps9 _ hostOps9_writes (by decide)
    _ = W17 m c (Proc.devRef .tc main_arg5) := W18_of_ne m c main_arg5 (by decide)
    _ = W16 m c (Proc.devRef .tc main_arg5) := StableHlo.after_of_writes_sub hostOps8 _ hostOps8_writes (by decide)
    _ = W15 m c (Proc.devRef .tc main_arg5) := W16_of_ne m c main_arg5 (by decide)
    _ = W14 m c (Proc.devRef .tc main_arg5) := StableHlo.after_of_writes_sub hostOps7 _ hostOps7_writes (by decide)
    _ = W13 m c (Proc.devRef .tc main_arg5) := W14_of_ne m c main_arg5 (by decide)
    _ = W12 m c (Proc.devRef .tc main_arg5) := StableHlo.after_of_writes_sub hostOps6 _ hostOps6_writes (by decide)
    _ = W11 m c (Proc.devRef .tc main_arg5) := W12_of_ne m c main_arg5 (by decide)
    _ = W10 m c (Proc.devRef .tc main_arg5) := StableHlo.after_of_writes_sub hostOps5 _ hostOps5_writes (by decide)
    _ = W9 m c (Proc.devRef .tc main_arg5) := W10_of_ne m c main_arg5 (by decide)
    _ = W8 m c (Proc.devRef .tc main_arg5) := StableHlo.after_of_writes_sub hostOps4 _ hostOps4_writes (by decide)
    _ = W7 m c (Proc.devRef .tc main_arg5) := W8_of_ne m c main_arg5 (by decide)
    _ = W6 m c (Proc.devRef .tc main_arg5) := StableHlo.after_of_writes_sub hostOps3 _ hostOps3_writes (by decide)
    _ = W5 m c (Proc.devRef .tc main_arg5) := W6_of_ne m c main_arg5 (by decide)
    _ = W4 m c (Proc.devRef .tc main_arg5) := StableHlo.after_of_writes_sub hostOps2 _ hostOps2_writes (by decide)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl

theorem W22_main_arg6 (c : Dev nD) : W22 m c (Proc.devRef .tc main_arg6) = m ((c : Thread nD τ).loc main_arg6) :=
  calc W22 m c (Proc.devRef .tc main_arg6)
    _ = W21 m c (Proc.devRef .tc main_arg6) := W22_of_ne m c main_arg6 (by decide)
    _ = W20 m c (Proc.devRef .tc main_arg6) := StableHlo.after_of_writes_sub hostOps10 _ hostOps10_writes (by decide)
    _ = W19 m c (Proc.devRef .tc main_arg6) := W20_of_ne m c main_arg6 (by decide)
    _ = W18 m c (Proc.devRef .tc main_arg6) := StableHlo.after_of_writes_sub hostOps9 _ hostOps9_writes (by decide)
    _ = W17 m c (Proc.devRef .tc main_arg6) := W18_of_ne m c main_arg6 (by decide)
    _ = W16 m c (Proc.devRef .tc main_arg6) := StableHlo.after_of_writes_sub hostOps8 _ hostOps8_writes (by decide)
    _ = W15 m c (Proc.devRef .tc main_arg6) := W16_of_ne m c main_arg6 (by decide)
    _ = W14 m c (Proc.devRef .tc main_arg6) := StableHlo.after_of_writes_sub hostOps7 _ hostOps7_writes (by decide)
    _ = W13 m c (Proc.devRef .tc main_arg6) := W14_of_ne m c main_arg6 (by decide)
    _ = W12 m c (Proc.devRef .tc main_arg6) := StableHlo.after_of_writes_sub hostOps6 _ hostOps6_writes (by decide)
    _ = W11 m c (Proc.devRef .tc main_arg6) := W12_of_ne m c main_arg6 (by decide)
    _ = W10 m c (Proc.devRef .tc main_arg6) := StableHlo.after_of_writes_sub hostOps5 _ hostOps5_writes (by decide)
    _ = W9 m c (Proc.devRef .tc main_arg6) := W10_of_ne m c main_arg6 (by decide)
    _ = W8 m c (Proc.devRef .tc main_arg6) := StableHlo.after_of_writes_sub hostOps4 _ hostOps4_writes (by decide)
    _ = W7 m c (Proc.devRef .tc main_arg6) := W8_of_ne m c main_arg6 (by decide)
    _ = W6 m c (Proc.devRef .tc main_arg6) := StableHlo.after_of_writes_sub hostOps3 _ hostOps3_writes (by decide)
    _ = W5 m c (Proc.devRef .tc main_arg6) := W6_of_ne m c main_arg6 (by decide)
    _ = W4 m c (Proc.devRef .tc main_arg6) := StableHlo.after_of_writes_sub hostOps2 _ hostOps2_writes (by decide)
    _ = W3 m c (Proc.devRef .tc main_arg6) := W4_of_ne m c main_arg6 (by decide)
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl

theorem W22_main_arg7 (c : Dev nD) : W22 m c (Proc.devRef .tc main_arg7) = m ((c : Thread nD τ).loc main_arg7) :=
  calc W22 m c (Proc.devRef .tc main_arg7)
    _ = W21 m c (Proc.devRef .tc main_arg7) := W22_of_ne m c main_arg7 (by decide)
    _ = W20 m c (Proc.devRef .tc main_arg7) := StableHlo.after_of_writes_sub hostOps10 _ hostOps10_writes (by decide)
    _ = W19 m c (Proc.devRef .tc main_arg7) := W20_of_ne m c main_arg7 (by decide)
    _ = W18 m c (Proc.devRef .tc main_arg7) := StableHlo.after_of_writes_sub hostOps9 _ hostOps9_writes (by decide)
    _ = W17 m c (Proc.devRef .tc main_arg7) := W18_of_ne m c main_arg7 (by decide)
    _ = W16 m c (Proc.devRef .tc main_arg7) := StableHlo.after_of_writes_sub hostOps8 _ hostOps8_writes (by decide)
    _ = W15 m c (Proc.devRef .tc main_arg7) := W16_of_ne m c main_arg7 (by decide)
    _ = W14 m c (Proc.devRef .tc main_arg7) := StableHlo.after_of_writes_sub hostOps7 _ hostOps7_writes (by decide)
    _ = W13 m c (Proc.devRef .tc main_arg7) := W14_of_ne m c main_arg7 (by decide)
    _ = W12 m c (Proc.devRef .tc main_arg7) := StableHlo.after_of_writes_sub hostOps6 _ hostOps6_writes (by decide)
    _ = W11 m c (Proc.devRef .tc main_arg7) := W12_of_ne m c main_arg7 (by decide)
    _ = W10 m c (Proc.devRef .tc main_arg7) := StableHlo.after_of_writes_sub hostOps5 _ hostOps5_writes (by decide)
    _ = W9 m c (Proc.devRef .tc main_arg7) := W10_of_ne m c main_arg7 (by decide)
    _ = W8 m c (Proc.devRef .tc main_arg7) := StableHlo.after_of_writes_sub hostOps4 _ hostOps4_writes (by decide)
    _ = W7 m c (Proc.devRef .tc main_arg7) := W8_of_ne m c main_arg7 (by decide)
    _ = W6 m c (Proc.devRef .tc main_arg7) := StableHlo.after_of_writes_sub hostOps3 _ hostOps3_writes (by decide)
    _ = W5 m c (Proc.devRef .tc main_arg7) := W6_of_ne m c main_arg7 (by decide)
    _ = W4 m c (Proc.devRef .tc main_arg7) := StableHlo.after_of_writes_sub hostOps2 _ hostOps2_writes (by decide)
    _ = W3 m c (Proc.devRef .tc main_arg7) := W4_of_ne m c main_arg7 (by decide)
    _ = W2 m c (Proc.devRef .tc main_arg7) := StableHlo.after_of_writes_sub hostOps1 _ hostOps1_writes (by decide)
    _ = W1 m c (Proc.devRef .tc main_arg7) := W2_of_ne m c main_arg7 (by decide)
    _ = W0 m c (Proc.devRef .tc main_arg7) := StableHlo.after_of_writes_sub hostOps0 _ hostOps0_writes (by decide)
    _ = m ((c : Thread nD τ).loc main_arg7) := rfl

theorem W22_main_arg8 (c : Dev nD) : W22 m c (Proc.devRef .tc main_arg8) = m ((c : Thread nD τ).loc main_arg8) :=
  calc W22 m c (Proc.devRef .tc main_arg8)
    _ = W21 m c (Proc.devRef .tc main_arg8) := W22_of_ne m c main_arg8 (by decide)
    _ = W20 m c (Proc.devRef .tc main_arg8) := StableHlo.after_of_writes_sub hostOps10 _ hostOps10_writes (by decide)
    _ = W19 m c (Proc.devRef .tc main_arg8) := W20_of_ne m c main_arg8 (by decide)
    _ = W18 m c (Proc.devRef .tc main_arg8) := StableHlo.after_of_writes_sub hostOps9 _ hostOps9_writes (by decide)
    _ = W17 m c (Proc.devRef .tc main_arg8) := W18_of_ne m c main_arg8 (by decide)
    _ = W16 m c (Proc.devRef .tc main_arg8) := StableHlo.after_of_writes_sub hostOps8 _ hostOps8_writes (by decide)
    _ = W15 m c (Proc.devRef .tc main_arg8) := W16_of_ne m c main_arg8 (by decide)
    _ = W14 m c (Proc.devRef .tc main_arg8) := StableHlo.after_of_writes_sub hostOps7 _ hostOps7_writes (by decide)
    _ = W13 m c (Proc.devRef .tc main_arg8) := W14_of_ne m c main_arg8 (by decide)
    _ = W12 m c (Proc.devRef .tc main_arg8) := StableHlo.after_of_writes_sub hostOps6 _ hostOps6_writes (by decide)
    _ = W11 m c (Proc.devRef .tc main_arg8) := W12_of_ne m c main_arg8 (by decide)
    _ = W10 m c (Proc.devRef .tc main_arg8) := StableHlo.after_of_writes_sub hostOps5 _ hostOps5_writes (by decide)
    _ = W9 m c (Proc.devRef .tc main_arg8) := W10_of_ne m c main_arg8 (by decide)
    _ = W8 m c (Proc.devRef .tc main_arg8) := StableHlo.after_of_writes_sub hostOps4 _ hostOps4_writes (by decide)
    _ = W7 m c (Proc.devRef .tc main_arg8) := W8_of_ne m c main_arg8 (by decide)
    _ = W6 m c (Proc.devRef .tc main_arg8) := StableHlo.after_of_writes_sub hostOps3 _ hostOps3_writes (by decide)
    _ = W5 m c (Proc.devRef .tc main_arg8) := W6_of_ne m c main_arg8 (by decide)
    _ = W4 m c (Proc.devRef .tc main_arg8) := StableHlo.after_of_writes_sub hostOps2 _ hostOps2_writes (by decide)
    _ = W3 m c (Proc.devRef .tc main_arg8) := W4_of_ne m c main_arg8 (by decide)
    _ = W2 m c (Proc.devRef .tc main_arg8) := StableHlo.after_of_writes_sub hostOps1 _ hostOps1_writes (by decide)
    _ = W1 m c (Proc.devRef .tc main_arg8) := W2_of_ne m c main_arg8 (by decide)
    _ = W0 m c (Proc.devRef .tc main_arg8) := StableHlo.after_of_writes_sub hostOps0 _ hostOps0_writes (by decide)
    _ = m ((c : Thread nD τ).loc main_arg8) := rfl

theorem W22_main_arg9 (c : Dev nD) : W22 m c (Proc.devRef .tc main_arg9) = m ((c : Thread nD τ).loc main_arg9) :=
  calc W22 m c (Proc.devRef .tc main_arg9)
    _ = W21 m c (Proc.devRef .tc main_arg9) := W22_of_ne m c main_arg9 (by decide)
    _ = W20 m c (Proc.devRef .tc main_arg9) := StableHlo.after_of_writes_sub hostOps10 _ hostOps10_writes (by decide)
    _ = W19 m c (Proc.devRef .tc main_arg9) := W20_of_ne m c main_arg9 (by decide)
    _ = W18 m c (Proc.devRef .tc main_arg9) := StableHlo.after_of_writes_sub hostOps9 _ hostOps9_writes (by decide)
    _ = W17 m c (Proc.devRef .tc main_arg9) := W18_of_ne m c main_arg9 (by decide)
    _ = W16 m c (Proc.devRef .tc main_arg9) := StableHlo.after_of_writes_sub hostOps8 _ hostOps8_writes (by decide)
    _ = W15 m c (Proc.devRef .tc main_arg9) := W16_of_ne m c main_arg9 (by decide)
    _ = W14 m c (Proc.devRef .tc main_arg9) := StableHlo.after_of_writes_sub hostOps7 _ hostOps7_writes (by decide)
    _ = W13 m c (Proc.devRef .tc main_arg9) := W14_of_ne m c main_arg9 (by decide)
    _ = W12 m c (Proc.devRef .tc main_arg9) := StableHlo.after_of_writes_sub hostOps6 _ hostOps6_writes (by decide)
    _ = W11 m c (Proc.devRef .tc main_arg9) := W12_of_ne m c main_arg9 (by decide)
    _ = W10 m c (Proc.devRef .tc main_arg9) := StableHlo.after_of_writes_sub hostOps5 _ hostOps5_writes (by decide)
    _ = W9 m c (Proc.devRef .tc main_arg9) := W10_of_ne m c main_arg9 (by decide)
    _ = W8 m c (Proc.devRef .tc main_arg9) := StableHlo.after_of_writes_sub hostOps4 _ hostOps4_writes (by decide)
    _ = W7 m c (Proc.devRef .tc main_arg9) := W8_of_ne m c main_arg9 (by decide)
    _ = W6 m c (Proc.devRef .tc main_arg9) := StableHlo.after_of_writes_sub hostOps3 _ hostOps3_writes (by decide)
    _ = W5 m c (Proc.devRef .tc main_arg9) := W6_of_ne m c main_arg9 (by decide)
    _ = W4 m c (Proc.devRef .tc main_arg9) := StableHlo.after_of_writes_sub hostOps2 _ hostOps2_writes (by decide)
    _ = W3 m c (Proc.devRef .tc main_arg9) := W4_of_ne m c main_arg9 (by decide)
    _ = W2 m c (Proc.devRef .tc main_arg9) := StableHlo.after_of_writes_sub hostOps1 _ hostOps1_writes (by decide)
    _ = W1 m c (Proc.devRef .tc main_arg9) := W2_of_ne m c main_arg9 (by decide)
    _ = W0 m c (Proc.devRef .tc main_arg9) := StableHlo.after_of_writes_sub hostOps0 _ hostOps0_writes (by decide)
    _ = m ((c : Thread nD τ).loc main_arg9) := rfl

theorem W22_main_arg10 (c : Dev nD) : W22 m c (Proc.devRef .tc main_arg10) = m ((c : Thread nD τ).loc main_arg10) :=
  calc W22 m c (Proc.devRef .tc main_arg10)
    _ = W21 m c (Proc.devRef .tc main_arg10) := (W22_arr m c 5).trans (((dat10 (VW21 m) c).arrAt_in 5 rfl _).trans (A_eq10 (VW21 m) c 5))
    _ = W20 m c (Proc.devRef .tc main_arg10) := StableHlo.after_of_writes_sub hostOps10 _ hostOps10_writes (by decide)
    _ = W19 m c (Proc.devRef .tc main_arg10) := W20_of_ne m c main_arg10 (by decide)
    _ = W18 m c (Proc.devRef .tc main_arg10) := StableHlo.after_of_writes_sub hostOps9 _ hostOps9_writes (by decide)
    _ = W17 m c (Proc.devRef .tc main_arg10) := W18_of_ne m c main_arg10 (by decide)
    _ = W16 m c (Proc.devRef .tc main_arg10) := StableHlo.after_of_writes_sub hostOps8 _ hostOps8_writes (by decide)
    _ = W15 m c (Proc.devRef .tc main_arg10) := W16_of_ne m c main_arg10 (by decide)
    _ = W14 m c (Proc.devRef .tc main_arg10) := StableHlo.after_of_writes_sub hostOps7 _ hostOps7_writes (by decide)
    _ = W13 m c (Proc.devRef .tc main_arg10) := W14_of_ne m c main_arg10 (by decide)
    _ = W12 m c (Proc.devRef .tc main_arg10) := StableHlo.after_of_writes_sub hostOps6 _ hostOps6_writes (by decide)
    _ = W11 m c (Proc.devRef .tc main_arg10) := W12_of_ne m c main_arg10 (by decide)
    _ = W10 m c (Proc.devRef .tc main_arg10) := StableHlo.after_of_writes_sub hostOps5 _ hostOps5_writes (by decide)
    _ = W9 m c (Proc.devRef .tc main_arg10) := W10_of_ne m c main_arg10 (by decide)
    _ = W8 m c (Proc.devRef .tc main_arg10) := StableHlo.after_of_writes_sub hostOps4 _ hostOps4_writes (by decide)
    _ = W7 m c (Proc.devRef .tc main_arg10) := W8_of_ne m c main_arg10 (by decide)
    _ = W6 m c (Proc.devRef .tc main_arg10) := StableHlo.after_of_writes_sub hostOps3 _ hostOps3_writes (by decide)
    _ = W5 m c (Proc.devRef .tc main_arg10) := W6_of_ne m c main_arg10 (by decide)
    _ = W4 m c (Proc.devRef .tc main_arg10) := StableHlo.after_of_writes_sub hostOps2 _ hostOps2_writes (by decide)
    _ = W3 m c (Proc.devRef .tc main_arg10) := W4_of_ne m c main_arg10 (by decide)
    _ = W2 m c (Proc.devRef .tc main_arg10) := StableHlo.after_of_writes_sub hostOps1 _ hostOps1_writes (by decide)
    _ = W1 m c (Proc.devRef .tc main_arg10) := W2_of_ne m c main_arg10 (by decide)
    _ = W0 m c (Proc.devRef .tc main_arg10) := StableHlo.after_of_writes_sub hostOps0 _ hostOps0_writes (by decide)
    _ = m ((c : Thread nD τ).loc main_arg10) := rfl

theorem W22_main_arg11 (c : Dev nD) : W22 m c (Proc.devRef .tc main_arg11) = m ((c : Thread nD τ).loc main_arg11) :=
  calc W22 m c (Proc.devRef .tc main_arg11)
    _ = W21 m c (Proc.devRef .tc main_arg11) := W22_of_ne m c main_arg11 (by decide)
    _ = W20 m c (Proc.devRef .tc main_arg11) := StableHlo.after_of_writes_sub hostOps10 _ hostOps10_writes (by decide)
    _ = W19 m c (Proc.devRef .tc main_arg11) := W20_of_ne m c main_arg11 (by decide)
    _ = W18 m c (Proc.devRef .tc main_arg11) := StableHlo.after_of_writes_sub hostOps9 _ hostOps9_writes (by decide)
    _ = W17 m c (Proc.devRef .tc main_arg11) := W18_of_ne m c main_arg11 (by decide)
    _ = W16 m c (Proc.devRef .tc main_arg11) := StableHlo.after_of_writes_sub hostOps8 _ hostOps8_writes (by decide)
    _ = W15 m c (Proc.devRef .tc main_arg11) := W16_of_ne m c main_arg11 (by decide)
    _ = W14 m c (Proc.devRef .tc main_arg11) := StableHlo.after_of_writes_sub hostOps7 _ hostOps7_writes (by decide)
    _ = W13 m c (Proc.devRef .tc main_arg11) := W14_of_ne m c main_arg11 (by decide)
    _ = W12 m c (Proc.devRef .tc main_arg11) := StableHlo.after_of_writes_sub hostOps6 _ hostOps6_writes (by decide)
    _ = W11 m c (Proc.devRef .tc main_arg11) := W12_of_ne m c main_arg11 (by decide)
    _ = W10 m c (Proc.devRef .tc main_arg11) := StableHlo.after_of_writes_sub hostOps5 _ hostOps5_writes (by decide)
    _ = W9 m c (Proc.devRef .tc main_arg11) := W10_of_ne m c main_arg11 (by decide)
    _ = W8 m c (Proc.devRef .tc main_arg11) := StableHlo.after_of_writes_sub hostOps4 _ hostOps4_writes (by decide)
    _ = W7 m c (Proc.devRef .tc main_arg11) := W8_of_ne m c main_arg11 (by decide)
    _ = W6 m c (Proc.devRef .tc main_arg11) := StableHlo.after_of_writes_sub hostOps3 _ hostOps3_writes (by decide)
    _ = W5 m c (Proc.devRef .tc main_arg11) := W6_of_ne m c main_arg11 (by decide)
    _ = W4 m c (Proc.devRef .tc main_arg11) := StableHlo.after_of_writes_sub hostOps2 _ hostOps2_writes (by decide)
    _ = W3 m c (Proc.devRef .tc main_arg11) := W4_of_ne m c main_arg11 (by decide)
    _ = W2 m c (Proc.devRef .tc main_arg11) := StableHlo.after_of_writes_sub hostOps1 _ hostOps1_writes (by decide)
    _ = W1 m c (Proc.devRef .tc main_arg11) := W2_of_ne m c main_arg11 (by decide)
    _ = W0 m c (Proc.devRef .tc main_arg11) := StableHlo.after_of_writes_sub hostOps0 _ hostOps0_writes (by decide)
    _ = m ((c : Thread nD τ).loc main_arg11) := rfl

end Cert.Kernel.Hand

end
-- ==== Proof.KIReg0.lean ====
/-
  Region 0 of @main, layer 1's node update: on each block of 4000 nodes, h = x·W + b (one matrix product into a zero accumulator) goes to the first output and max(h + root_emb, 0)·inv_deg to the second. Here: what the body leaves in its buffers, its run, and the pipeline's proof data with the body obligation at every grid point.
-/
import proofs.«161825_j7842610283390_1_alg».proof.Proof.Gen.KernelIdeal.Launch
import proofs.«161825_j7842610283390_1_alg».proof.Proof.Gen.KernelIdeal.Skeleton
import proofs.«161825_j7842610283390_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` that grid point `t` works on, read off the window's array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether the point fetched it or an earlier one
    did and the block index has not moved since. -/
theorem held0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- An input window's staging buffer holds its block at every point, whether the point fetched it or an earlier one
    did and the block index has not moved since. -/
theorem held0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- An input window's staging buffer holds its block at every point, whether the point fetched it or an earlier one
    did and the block index has not moved since. -/
theorem held0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-- An input window's staging buffer holds its block at every point, whether the point fetched it or an earlier one
    did and the block index has not moved since. -/
theorem held0_3_of {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)

/-- An input window's staging buffer holds its block at every point, whether the point fetched it or an earlier one
    did and the block index has not moved since. -/
theorem held0_4_of {c : Dev nD} (dat : Dat τ (Elt F) Unit ℕ (UR sig nD τ) ℕ cfg0 c) (hA : dat.A 4 = V c (Pipeline.arrRef spec0 4))
    (hafter : ∀ t, dat.after 4 t = blk0 V c 4 t) (t : Fin cfg0.N) (d) : dat.before 4 t d = blk0 V c 4 t :=
  (dat.before_in_eq_fetched 4 rfl (fun _ => rfl) (fun _ _ _ => rfl) (fun t => by rw [hafter]; unfold Dat.blockOf blk0; rw [hA]; try rfl) t d).trans
    (by unfold Dat.fetched Dat.blockOf blk0; rw [hA]; try rfl)

/-- The whole rectangle of a `S4000x64` buffer: every load and store of the body is of this form. -/
abbrev whole0_S4000x64 : Rect S4000x64 := Rect.unit (s := S4000x64) ![0, 0] S4000x64.size inb_S4000x64_S4000x64_0_0

/-- The whole rectangle of a `S64x64` buffer: every load and store of the body is of this form. -/
abbrev whole0_S64x64 : Rect S64x64 := Rect.unit (s := S64x64) ![0, 0] S64x64.size inb_S64x64_S64x64_0_0

/-- The whole rectangle of a `S1x64` buffer: every load and store of the body is of this form. -/
abbrev whole0_S1x64 : Rect S1x64 := Rect.unit (s := S1x64) ![0, 0] S1x64.size inb_S1x64_S1x64_0_0

/-- The whole rectangle of a `S4000x1` buffer: every load and store of the body is of this form. -/
abbrev whole0_S4000x1 : Rect S4000x1 := Rect.unit (s := S4000x1) ![0, 0] S4000x1.size inb_S4000x1_S4000x1_0_0

/-- What the body leaves in output window 5's staging buffer, from the input blocks: its one whole-buffer store. -/
def res0_5 (x0 : Vec F S4000x64 .f32) (x1 : Vec F S64x64 .f32) (x2 : Vec F S1x64 .f32) (x3 : Vec F S1x64 .f32) (x4 : Vec F S4000x1 .f32) : Vec F S4000x64 .f32 :=
  View.canon [⟨whole0_S4000x64, k0_pay1 (View.ld x0 whole0_S4000x64) (View.ld x1 whole0_S64x64) (View.ld x2 whole0_S1x64)⟩]

/-- That store covers the buffer. -/
theorem tiles0_5 (p0 : Vec F S4000x64 .f32) (y : S4000x64.Idx) :
    ∃ pc ∈ ([⟨whole0_S4000x64, p0⟩] : List (View.Piece (Elt F) S4000x64 .f32)), y ∈ pc.1.set :=
  View.cover_of_tiled [⟨whole0_S4000x64, p0⟩] S4000x64.size (by rfl) y

/-- What the body leaves in output window 6's staging buffer, from the input blocks: its one whole-buffer store. -/
def res0_6 (x0 : Vec F S4000x64 .f32) (x1 : Vec F S64x64 .f32) (x2 : Vec F S1x64 .f32) (x3 : Vec F S1x64 .f32) (x4 : Vec F S4000x1 .f32) : Vec F S4000x64 .f32 :=
  View.canon [⟨whole0_S4000x64, k0_pay2 (View.ld x0 whole0_S4000x64) (View.ld x1 whole0_S64x64) (View.ld x2 whole0_S1x64) (View.ld x3 whole0_S1x64) (View.ld x4 whole0_S4000x1)⟩]

/-- That store covers the buffer. -/
theorem tiles0_6 (p0 : Vec F S4000x64 .f32) (y : S4000x64.Idx) :
    ∃ pc ∈ ([⟨whole0_S4000x64, p0⟩] : List (View.Piece (Elt F) S4000x64 .f32)), y ∈ pc.1.set :=
  View.cover_of_tiled [⟨whole0_S4000x64, p0⟩] S4000x64.size (by rfl) y

set_option maxHeartbeats 1000000 in
/-- The body on whole staging buffers — the inputs' holding `xW`, the outputs' holding anything — runs to the end,
    leaves the inputs' as they were and each output's at its one store's payload of the inputs. -/
theorem bodyRun0 (c : Dev nD) (E : Set ℕ) (i : grid0.Coords) (a0 : Memref sig .tc .vmem S4000x64 .f32) (ha0 : a0.IsWhole) (a1 : Memref sig .tc .vmem S64x64 .f32) (ha1 : a1.IsWhole) (a2 : Memref sig .tc .vmem S1x64 .f32) (ha2 : a2.IsWhole) (a3 : Memref sig .tc .vmem S1x64 .f32) (ha3 : a3.IsWhole) (a4 : Memref sig .tc .vmem S4000x1 .f32) (ha4 : a4.IsWhole) (a5 : Memref sig .tc .vmem S4000x64 .f32) (ha5 : a5.IsWhole) (a6 : Memref sig .tc .vmem S4000x64 .f32) (ha6 : a6.IsWhole)
    (x0 : Vec F S4000x64 .f32) (x1 : Vec F S64x64 .f32) (x2 : Vec F S1x64 .f32) (x3 : Vec F S1x64 .f32) (x4 : Vec F S4000x1 .f32) (Q : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d) ∗ (∃ d, owns (c : Thread nD τ) a6 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare (res0_5 x0 x1 x2 x3 x4) ∗ owns (c : Thread nD τ) a6 fullShare (res0_6 x0 x1 x2 x3 x4)) -∗ Q ⟨⟩))
      ⊢ wp frame (wpE (defs₀ (F := F)) Variants.none c none) E (cc0__node_update_kernel i a0 ha0 a1 ha1 a2 ha2 a3 ha3 a4 ha4 a5 ha5 a6 ha6) Q := by
  simp only [cc0__node_update_kernel_eq_skeleton]; unfold cc0__node_update_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (tiles0_5 _)
  iexists _; isplitr
  swap; · iexact H6
  ipureintro
  exact View.read_writes_eq_canon _ _ _ (tiles0_6 _)

/-- The pipeline's proof data on core `c`: the arrays as the region finds them; after the body at point `t` each input
    buffer holds its block and each output buffer the body's result on the input blocks; the invariant is the plain one
    (the scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => res0_5 (blk0 V c 0 t) (blk0 V c 1 t) (blk0 V c 2 t) (blk0 V c 3 t) (blk0 V c 4 t)
    | ⟨6, _⟩ => res0_6 (blk0 V c 0 t) (blk0 V c 1 t) (blk0 V c 2 t) (blk0 V c 3 t) (blk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) : (dat0 V c).after 5 t = res0_5 (blk0 V c 0 t) (blk0 V c 1 t) (blk0 V c 2 t) (blk0 V c 3 t) (blk0 V c 4 t) := by dsimp only [dat0]
theorem after0_6 (c : Dev nD) (t : Fin cfg0.N) : (dat0 V c).after 6 t = res0_6 (blk0 V c 0 t) (blk0 V c 1 t) (blk0 V c 2 t) (blk0 V c 3 t) (blk0 V c 4 t) := by dsimp only [dat0]

theorem held0_0 (c : Dev nD) (t : Fin cfg0.N) (d) : (dat0 V c).before 0 t d = blk0 V c 0 t :=
  held0_0_of V (dat0 V c) (A_eq0 V c 0) (after0_0 V c) t d
theorem held0_1 (c : Dev nD) (t : Fin cfg0.N) (d) : (dat0 V c).before 1 t d = blk0 V c 1 t :=
  held0_1_of V (dat0 V c) (A_eq0 V c 1) (after0_1 V c) t d
theorem held0_2 (c : Dev nD) (t : Fin cfg0.N) (d) : (dat0 V c).before 2 t d = blk0 V c 2 t :=
  held0_2_of V (dat0 V c) (A_eq0 V c 2) (after0_2 V c) t d
theorem held0_3 (c : Dev nD) (t : Fin cfg0.N) (d) : (dat0 V c).before 3 t d = blk0 V c 3 t :=
  held0_3_of V (dat0 V c) (A_eq0 V c 3) (after0_3 V c) t d
theorem held0_4 (c : Dev nD) (t : Fin cfg0.N) (d) : (dat0 V c).before 4 t d = blk0 V c 4 t :=
  held0_4_of V (dat0 V c) (A_eq0 V c 4) (after0_4 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so `bodyRun0` applies; the invariant and what the
    core owes pass through unread. -/
theorem bodyStep0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [held0_0, held0_1, held0_2, held0_3, held0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (bodyRun0 c Set.univ _ _ _ _ _ _ _ _ _ _ _ _ _ _ _ (blk0 V c 0 t) (blk0 V c 1 t) (blk0 V c 2 t) (blk0 V c 3 t) (blk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact bodyStep0 V c t

end Cert.KernelIdeal.Hand

end
-- ==== Proof.KIReg1.lean ====
/-
  Region 1 of @main, layer 1's edge messages: on each block of 5000 edges, msg = norm·max(h_row + (edge_attr·W_e + b_e), 0). Here: what the body leaves in its buffers, its run, and the pipeline's proof data with the body obligation at every grid point.
-/
import proofs.«161825_j7842610283390_1_alg».proof.Proof.Gen.KernelIdeal.Launch
import proofs.«161825_j7842610283390_1_alg».proof.Proof.Gen.KernelIdeal.Skeleton
import proofs.«161825_j7842610283390_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` that grid point `t` works on, read off the window's array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether the point fetched it or an earlier one
    did and the block index has not moved since. -/
theorem held1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- An input window's staging buffer holds its block at every point, whether the point fetched it or an earlier one
    did and the block index has not moved since. -/
theorem held1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- An input window's staging buffer holds its block at every point, whether the point fetched it or an earlier one
    did and the block index has not moved since. -/
theorem held1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-- An input window's staging buffer holds its block at every point, whether the point fetched it or an earlier one
    did and the block index has not moved since. -/
theorem held1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

/-- An input window's staging buffer holds its block at every point, whether the point fetched it or an earlier one
    did and the block index has not moved since. -/
theorem held1_4_of {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)

/-- The whole rectangle of a `S5000x16` buffer: every load and store of the body is of this form. -/
abbrev whole1_S5000x16 : Rect S5000x16 := Rect.unit (s := S5000x16) ![0, 0] S5000x16.size inb_S5000x16_S5000x16_0_0

/-- The whole rectangle of a `S5000x64` buffer: every load and store of the body is of this form. -/
abbrev whole1_S5000x64 : Rect S5000x64 := Rect.unit (s := S5000x64) ![0, 0] S5000x64.size inb_S5000x64_S5000x64_0_0

/-- The whole rectangle of a `S5000x1` buffer: every load and store of the body is of this form. -/
abbrev whole1_S5000x1 : Rect S5000x1 := Rect.unit (s := S5000x1) ![0, 0] S5000x1.size inb_S5000x1_S5000x1_0_0

/-- The whole rectangle of a `S16x64` buffer: every load and store of the body is of this form. -/
abbrev whole1_S16x64 : Rect S16x64 := Rect.unit (s := S16x64) ![0, 0] S16x64.size inb_S16x64_S16x64_0_0

/-- The whole rectangle of a `S1x64` buffer: every load and store of the body is of this form. -/
abbrev whole1_S1x64 : Rect S1x64 := Rect.unit (s := S1x64) ![0, 0] S1x64.size inb_S1x64_S1x64_0_0

/-- What the body leaves in output window 5's staging buffer, from the input blocks: its one whole-buffer store. -/
def res1_5 (x0 : Vec F S5000x16 .f32) (x1 : Vec F S5000x64 .f32) (x2 : Vec F S5000x1 .f32) (x3 : Vec F S16x64 .f32) (x4 : Vec F S1x64 .f32) : Vec F S5000x64 .f32 :=
  View.canon [⟨whole1_S5000x64, k1_pay1 (View.ld x0 whole1_S5000x16) (View.ld x3 whole1_S16x64) (View.ld x4 whole1_S1x64) (View.ld x2 whole1_S5000x1) (View.ld x1 whole1_S5000x64)⟩]

/-- That store covers the buffer. -/
theorem tiles1_5 (p0 : Vec F S5000x64 .f32) (y : S5000x64.Idx) :
    ∃ pc ∈ ([⟨whole1_S5000x64, p0⟩] : List (View.Piece (Elt F) S5000x64 .f32)), y ∈ pc.1.set :=
  View.cover_of_tiled [⟨whole1_S5000x64, p0⟩] S5000x64.size (by rfl) y

set_option maxHeartbeats 1000000 in
/-- The body on whole staging buffers — the inputs' holding `xW`, the outputs' holding anything — runs to the end,
    leaves the inputs' as they were and each output's at its one store's payload of the inputs. -/
theorem bodyRun1 (c : Dev nD) (E : Set ℕ) (i : grid1.Coords) (a0 : Memref sig .tc .vmem S5000x16 .f32) (ha0 : a0.IsWhole) (a1 : Memref sig .tc .vmem S5000x64 .f32) (ha1 : a1.IsWhole) (a2 : Memref sig .tc .vmem S5000x1 .f32) (ha2 : a2.IsWhole) (a3 : Memref sig .tc .vmem S16x64 .f32) (ha3 : a3.IsWhole) (a4 : Memref sig .tc .vmem S1x64 .f32) (ha4 : a4.IsWhole) (a5 : Memref sig .tc .vmem S5000x64 .f32) (ha5 : a5.IsWhole)
    (x0 : Vec F S5000x16 .f32) (x1 : Vec F S5000x64 .f32) (x2 : Vec F S5000x1 .f32) (x3 : Vec F S16x64 .f32) (x4 : Vec F S1x64 .f32) (Q : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare (res1_5 x0 x1 x2 x3 x4)) -∗ Q ⟨⟩))
      ⊢ wp frame (wpE (defs₀ (F := F)) Variants.none c none) E (cc1__msg_kernel i a0 ha0 a1 ha1 a2 ha2 a3 ha3 a4 ha4 a5 ha5) Q := by
  simp only [cc1__msg_kernel_eq_skeleton]; unfold cc1__msg_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (tiles1_5 _)

/-- The pipeline's proof data on core `c`: the arrays as the region finds them; after the body at point `t` each input
    buffer holds its block and each output buffer the body's result on the input blocks; the invariant is the plain one
    (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => res1_5 (blk1 V c 0 t) (blk1 V c 1 t) (blk1 V c 2 t) (blk1 V c 3 t) (blk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = res1_5 (blk1 V c 0 t) (blk1 V c 1 t) (blk1 V c 2 t) (blk1 V c 3 t) (blk1 V c 4 t) := by dsimp only [dat1]

theorem held1_0 (c : Dev nD) (t : Fin cfg1.N) (d) : (dat1 V c).before 0 t d = blk1 V c 0 t :=
  held1_0_of V (dat1 V c) (A_eq1 V c 0) (after1_0 V c) t d
theorem held1_1 (c : Dev nD) (t : Fin cfg1.N) (d) : (dat1 V c).before 1 t d = blk1 V c 1 t :=
  held1_1_of V (dat1 V c) (A_eq1 V c 1) (after1_1 V c) t d
theorem held1_2 (c : Dev nD) (t : Fin cfg1.N) (d) : (dat1 V c).before 2 t d = blk1 V c 2 t :=
  held1_2_of V (dat1 V c) (A_eq1 V c 2) (after1_2 V c) t d
theorem held1_3 (c : Dev nD) (t : Fin cfg1.N) (d) : (dat1 V c).before 3 t d = blk1 V c 3 t :=
  held1_3_of V (dat1 V c) (A_eq1 V c 3) (after1_3 V c) t d
theorem held1_4 (c : Dev nD) (t : Fin cfg1.N) (d) : (dat1 V c).before 4 t d = blk1 V c 4 t :=
  held1_4_of V (dat1 V c) (A_eq1 V c 4) (after1_4 V c) t d

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so `bodyRun1` applies; the invariant and what the
    core owes pass through unread. -/
theorem bodyStep1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [held1_0, held1_1, held1_2, held1_3, held1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (bodyRun1 c Set.univ _ _ _ _ _ _ _ _ _ _ _ _ _ (blk1 V c 0 t) (blk1 V c 1 t) (blk1 V c 2 t) (blk1 V c 3 t) (blk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact bodyStep1 V c t

end Cert.KernelIdeal.Hand

end
-- ==== Proof.KIReg2.lean ====
/-
  Region 2 of @main, layer 1's closing step: on each block of 4000 nodes the new features are max(aggr + root, 0). Here: what the body leaves in its buffers, its run, and the pipeline's proof data with the body obligation at every grid point.
-/
import proofs.«161825_j7842610283390_1_alg».proof.Proof.Gen.KernelIdeal.Launch
import proofs.«161825_j7842610283390_1_alg».proof.Proof.Gen.KernelIdeal.Skeleton
import proofs.«161825_j7842610283390_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` that grid point `t` works on, read off the window's array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, whether the point fetched it or an earlier one
    did and the block index has not moved since. -/
theorem held2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-- An input window's staging buffer holds its block at every point, whether the point fetched it or an earlier one
    did and the block index has not moved since. -/
theorem held2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-- The whole rectangle of a `S4000x64` buffer: every load and store of the body is of this form. -/
abbrev whole2_S4000x64 : Rect S4000x64 := Rect.unit (s := S4000x64) ![0, 0] S4000x64.size inb_S4000x64_S4000x64_0_0

/-- What the body leaves in output window 2's staging buffer, from the input blocks: its one whole-buffer store. -/
def res2_2 (x0 : Vec F S4000x64 .f32) (x1 : Vec F S4000x64 .f32) : Vec F S4000x64 .f32 :=
  View.canon [⟨whole2_S4000x64, k2_pay1 (View.ld x0 whole2_S4000x64) (View.ld x1 whole2_S4000x64)⟩]

/-- That store covers the buffer. -/
theorem tiles2_2 (p0 : Vec F S4000x64 .f32) (y : S4000x64.Idx) :
    ∃ pc ∈ ([⟨whole2_S4000x64, p0⟩] : List (View.Piece (Elt F) S4000x64 .f32)), y ∈ pc.1.set :=
  View.cover_of_tiled [⟨whole2_S4000x64, p0⟩] S4000x64.size (by rfl) y

set_option maxHeartbeats 1000000 in
/-- The body on whole staging buffers — the inputs' holding `xW`, the outputs' holding anything — runs to the end,
    leaves the inputs' as they were and each output's at its one store's payload of the inputs. -/
theorem bodyRun2 (c : Dev nD) (E : Set ℕ) (i : grid2.Coords) (a0 : Memref sig .tc .vmem S4000x64 .f32) (ha0 : a0.IsWhole) (a1 : Memref sig .tc .vmem S4000x64 .f32) (ha1 : a1.IsWhole) (a2 : Memref sig .tc .vmem S4000x64 .f32) (ha2 : a2.IsWhole)
    (x0 : Vec F S4000x64 .f32) (x1 : Vec F S4000x64 .f32) (Q : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (res2_2 x0 x1)) -∗ Q ⟨⟩))
      ⊢ wp frame (wpE (defs₀ (F := F)) Variants.none c none) E (cc2__finalize_kernel i a0 ha0 a1 ha1 a2 ha2) Q := by
  simp only [cc2__finalize_kernel_eq_skeleton]; unfold cc2__finalize_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tiles2_2 _)

/-- The pipeline's proof data on core `c`: the arrays as the region finds them; after the body at point `t` each input
    buffer holds its block and each output buffer the body's result on the input blocks; the invariant is the plain one
    (the scoped rest and the generator register, untouched); nothing owed; full shares. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => res2_2 (blk2 V c 0 t) (blk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = res2_2 (blk2 V c 0 t) (blk2 V c 1 t) := by dsimp only [dat2]

theorem held2_0 (c : Dev nD) (t : Fin cfg2.N) (d) : (dat2 V c).before 0 t d = blk2 V c 0 t :=
  held2_0_of V (dat2 V c) (A_eq2 V c 0) (after2_0 V c) t d
theorem held2_1 (c : Dev nD) (t : Fin cfg2.N) (d) : (dat2 V c).before 1 t d = blk2 V c 1 t :=
  held2_1_of V (dat2 V c) (A_eq2 V c 1) (after2_1 V c) t d

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so `bodyRun2` applies; the invariant and what the
    core owes pass through unread. -/
theorem bodyStep2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [held2_0, held2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (bodyRun2 c Set.univ _ _ _ _ _ _ _ (blk2 V c 0 t) (blk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact bodyStep2 V c t

end Cert.KernelIdeal.Hand

end
-- ==== Proof.KIReg3.lean ====
/-
  Region 3 of @main, layer 2's node update: on each block of 4000 nodes, h = x·W + b (one matrix product into a zero accumulator) goes to the first output and max(h + root_emb, 0)·inv_deg to the second. Here: what the body leaves in its buffers, its run, and the pipeline's proof data with the body obligation at every grid point.
-/
import proofs.«161825_j7842610283390_1_alg».proof.Proof.Gen.KernelIdeal.Launch
import proofs.«161825_j7842610283390_1_alg».proof.Proof.Gen.KernelIdeal.Skeleton
import proofs.«161825_j7842610283390_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` that grid point `t` works on, read off the window's array as the region finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, whether the point fetched it or an earlier one
    did and the block index has not moved since. -/
theorem held3_0_of {c : Dev nD} (dat : Dat τ (Elt F) Unit ℕ (UR sig nD τ) ℕ cfg3 c) (hA : dat.A 0 = V c (Pipeline.arrRef spec3 0))
    (hafter : ∀ t, dat.after 0 t = blk3 V c 0 t) (t : Fin cfg3.N) (d) : dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)

/-- An input window's staging buffer holds its block at every point, whether the point fetched it or an earlier one
    did and the block index has not moved since. -/
theorem held3_1_of {c : Dev nD} (dat : Dat τ (Elt F) Unit ℕ (UR sig nD τ) ℕ cfg3 c) (hA : dat.A 1 = V c (Pipeline.arrRef spec3 1))
    (hafter : ∀ t, dat.after 1 t = blk3 V c 1 t) (t : Fin cfg3.N) (d) : dat.before 1 t d = blk3 V c 1 t :=
  (dat.before_in_eq_fetched 1 rfl (fun _ => rfl) (fun _ _ _ => rfl) (fun t => by rw [hafter]; unfold Dat.blockOf blk3; rw [hA]; try rfl) t d).trans
    (by unfold Dat.fetched Dat.blockOf blk3; rw [hA]; try rfl)

/-- An input window's staging buffer holds its block at every point, whether the point fetched it or an earlier one
    did and the block index has not moved since. -/
theorem held3_2_of {c : Dev nD} (dat : Dat τ (Elt F) Unit ℕ (UR sig nD τ) ℕ cfg3 c) (hA : dat.A 2 = V c (Pipeline.arrRef spec3 2))
    (hafter : ∀ t, dat.after 2 t = blk3 V c 2 t) (t : Fin cfg3.N) (d) : dat.before 2 t d = blk3 V c 2 t :=
  (dat.before_in_eq_fetched 2 rfl (fun _ => rfl) (fun _ _ _ => rfl) (fun t => by rw [hafter]; unfold Dat.blockOf blk3; rw [hA]; try rfl) t d).trans
    (by unfold Dat.fetched Dat.blockOf blk3; rw [hA]; try rfl)

/-- An input window's staging buffer holds its block at every point, whether the point fetched it or an earlier one
    did and the block index has not moved since. -/
theorem held3_3_of {c : Dev nD} (dat : Dat τ (Elt F) Unit ℕ (UR sig nD τ) ℕ cfg3 c) (hA : dat.A 3 = V c (Pipeline.arrRef spec3 3))
    (hafter : ∀ t, dat.after 3 t = blk3 V c 3 t) (t : Fin cfg3.N) (d) : dat.before 3 t d = blk3 V c 3 t :=
  (dat.before_in_eq_fetched 3 rfl (fun _ => rfl) (fun _ _ _ => rfl) (fun t => by rw [hafter]; unfold Dat.blockOf blk3; rw [hA]; try rfl) t d).trans
    (by unfold Dat.fetched Dat.blockOf blk3; rw [hA]; try rfl)

/-- An input window's staging buffer holds its block at every point, whether the point fetched it or an earlier one
    did and the block index has not moved since. -/
theorem held3_4_of {c : Dev nD} (dat : Dat τ (Elt F) Unit ℕ (UR sig nD τ) ℕ cfg3 c) (hA : dat.A 4 = V c (Pipeline.arrRef spec3 4))
    (hafter : ∀ t, dat.after 4 t = blk3 V c 4 t) (t : Fin cfg3.N) (d) : dat.before 4 t d = blk3 V c 4 t :=
  (dat.before_in_eq_fetched 4 rfl (fun _ => rfl) (fun _ _ _ => rfl) (fun t => by rw [hafter]; unfold Dat.blockOf blk3; rw [hA]; try rfl) t d).trans
    (by unfold Dat.fetched Dat.blockOf blk3; rw [hA]; try rfl)

/-- The whole rectangle of a `S4000x64` buffer: every load and store of the body is of this form. -/
abbrev whole3_S4000x64 : Rect S4000x64 := Rect.unit (s := S4000x64) ![0, 0] S4000x64.size inb_S4000x64_S4000x64_0_0

/-- The whole rectangle of a `S64x64` buffer: every load and store of the body is of this form. -/
abbrev whole3_S64x64 : Rect S64x64 := Rect.unit (s := S64x64) ![0, 0] S64x64.size inb_S64x64_S64x64_0_0

/-- The whole rectangle of a `S1x64` buffer: every load and store of the body is of this form. -/
abbrev whole3_S1x64 : Rect S1x64 := Rect.unit (s := S1x64) ![0, 0] S1x64.size inb_S1x64_S1x64_0_0

/-- The whole rectangle of a `S4000x1` buffer: every load and store of the body is of this form. -/
abbrev whole3_S4000x1 : Rect S4000x1 := Rect.unit (s := S4000x1) ![0, 0] S4000x1.size inb_S4000x1_S4000x1_0_0

/-- What the body leaves in output window 5's staging buffer, from the input blocks: its one whole-buffer store. -/
def res3_5 (x0 : Vec F S4000x64 .f32) (x1 : Vec F S64x64 .f32) (x2 : Vec F S1x64 .f32) (x3 : Vec F S1x64 .f32) (x4 : Vec F S4000x1 .f32) : Vec F S4000x64 .f32 :=
  View.canon [⟨whole3_S4000x64, k3_pay1 (View.ld x0 whole3_S4000x64) (View.ld x1 whole3_S64x64) (View.ld x2 whole3_S1x64)⟩]

/-- That store covers the buffer. -/
theorem tiles3_5 (p0 : Vec F S4000x64 .f32) (y : S4000x64.Idx) :
    ∃ pc ∈ ([⟨whole3_S4000x64, p0⟩] : List (View.Piece (Elt F) S4000x64 .f32)), y ∈ pc.1.set :=
  View.cover_of_tiled [⟨whole3_S4000x64, p0⟩] S4000x64.size (by rfl) y

/-- What the body leaves in output window 6's staging buffer, from the input blocks: its one whole-buffer store. -/
def res3_6 (x0 : Vec F S4000x64 .f32) (x1 : Vec F S64x64 .f32) (x2 : Vec F S1x64 .f32) (x3 : Vec F S1x64 .f32) (x4 : Vec F S4000x1 .f32) : Vec F S4000x64 .f32 :=
  View.canon [⟨whole3_S4000x64, k3_pay2 (View.ld x0 whole3_S4000x64) (View.ld x1 whole3_S64x64) (View.ld x2 whole3_S1x64) (View.ld x3 whole3_S1x64) (View.ld x4 whole3_S4000x1)⟩]

/-- That store covers the buffer. -/
theorem tiles3_6 (p0 : Vec F S4000x64 .f32) (y : S4000x64.Idx) :
    ∃ pc ∈ ([⟨whole3_S4000x64, p0⟩] : List (View.Piece (Elt F) S4000x64 .f32)), y ∈ pc.1.set :=
  View.cover_of_tiled [⟨whole3_S4000x64, p0⟩] S4000x64.size (by rfl) y

set_option maxHeartbeats 1000000 in
/-- The body on whole staging buffers — the inputs' holding `xW`, the outputs' holding anything — runs to the end,
    leaves the inputs' as they were and each output's at its one store's payload of the inputs. -/
theorem bodyRun3 (c : Dev nD) (E : Set ℕ) (i : grid3.Coords) (a0 : Memref sig .tc .vmem S4000x64 .f32) (ha0 : a0.IsWhole) (a1 : Memref sig .tc .vmem S64x64 .f32) (ha1 : a1.IsWhole) (a2 : Memref sig .tc .vmem S1x64 .f32) (ha2 : a2.IsWhole) (a3 : Memref sig .tc .vmem S1x64 .f32) (ha3 : a3.IsWhole) (a4 : Memref sig .tc .vmem S4000x1 .f32) (ha4 : a4.IsWhole) (a5 : Memref sig .tc .vmem S4000x64 .f32) (ha5 : a5.IsWhole) (a6 : Memref sig .tc .vmem S4000x64 .f32) (ha6 : a6.IsWhole)
    (x0 : Vec F S4000x64 .f32) (x1 : Vec F S64x64 .f32) (x2 : Vec F S1x64 .f32) (x3 : Vec F S1x64 .f32) (x4 : Vec F S4000x1 .f32) (Q : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d) ∗ (∃ d, owns (c : Thread nD τ) a6 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare (res3_5 x0 x1 x2 x3 x4) ∗ owns (c : Thread nD τ) a6 fullShare (res3_6 x0 x1 x2 x3 x4)) -∗ Q ⟨⟩))
      ⊢ wp frame (wpE (defs₀ (F := F)) Variants.none c none) E (cc3__node_update_kernel i a0 ha0 a1 ha1 a2 ha2 a3 ha3 a4 ha4 a5 ha5 a6 ha6) Q := by
  simp only [cc3__node_update_kernel_eq_skeleton]; unfold cc3__node_update_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (tiles3_5 _)
  iexists _; isplitr
  swap; · iexact H6
  ipureintro
  exact View.read_writes_eq_canon _ _ _ (tiles3_6 _)

/-- The pipeline's proof data on core `c`: the arrays as the region finds them; after the body at point `t` each input
    buffer holds its block and each output buffer the body's result on the input blocks; the invariant is the plain one
    (the scoped rest and the generator register, untouched); nothing owed; full shares. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => blk3 V c 3 t
    | ⟨4, _⟩ => blk3 V c 4 t
    | ⟨5, _⟩ => res3_5 (blk3 V c 0 t) (blk3 V c 1 t) (blk3 V c 2 t) (blk3 V c 3 t) (blk3 V c 4 t)
    | ⟨6, _⟩ => res3_6 (blk3 V c 0 t) (blk3 V c 1 t) (blk3 V c 2 t) (blk3 V c 3 t) (blk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = blk3 V c 0 t := by dsimp only [dat3]
theorem after3_1 (c : Dev nD) (t : Fin cfg3.N) : (dat3 V c).after 1 t = blk3 V c 1 t := by dsimp only [dat3]
theorem after3_2 (c : Dev nD) (t : Fin cfg3.N) : (dat3 V c).after 2 t = blk3 V c 2 t := by dsimp only [dat3]
theorem after3_3 (c : Dev nD) (t : Fin cfg3.N) : (dat3 V c).after 3 t = blk3 V c 3 t := by dsimp only [dat3]
theorem after3_4 (c : Dev nD) (t : Fin cfg3.N) : (dat3 V c).after 4 t = blk3 V c 4 t := by dsimp only [dat3]
theorem after3_5 (c : Dev nD) (t : Fin cfg3.N) : (dat3 V c).after 5 t = res3_5 (blk3 V c 0 t) (blk3 V c 1 t) (blk3 V c 2 t) (blk3 V c 3 t) (blk3 V c 4 t) := by dsimp only [dat3]
theorem after3_6 (c : Dev nD) (t : Fin cfg3.N) : (dat3 V c).after 6 t = res3_6 (blk3 V c 0 t) (blk3 V c 1 t) (blk3 V c 2 t) (blk3 V c 3 t) (blk3 V c 4 t) := by dsimp only [dat3]

theorem held3_0 (c : Dev nD) (t : Fin cfg3.N) (d) : (dat3 V c).before 0 t d = blk3 V c 0 t :=
  held3_0_of V (dat3 V c) (A_eq3 V c 0) (after3_0 V c) t d
theorem held3_1 (c : Dev nD) (t : Fin cfg3.N) (d) : (dat3 V c).before 1 t d = blk3 V c 1 t :=
  held3_1_of V (dat3 V c) (A_eq3 V c 1) (after3_1 V c) t d
theorem held3_2 (c : Dev nD) (t : Fin cfg3.N) (d) : (dat3 V c).before 2 t d = blk3 V c 2 t :=
  held3_2_of V (dat3 V c) (A_eq3 V c 2) (after3_2 V c) t d
theorem held3_3 (c : Dev nD) (t : Fin cfg3.N) (d) : (dat3 V c).before 3 t d = blk3 V c 3 t :=
  held3_3_of V (dat3 V c) (A_eq3 V c 3) (after3_3 V c) t d
theorem held3_4 (c : Dev nD) (t : Fin cfg3.N) (d) : (dat3 V c).before 4 t d = blk3 V c 4 t :=
  held3_4_of V (dat3 V c) (A_eq3 V c 4) (after3_4 V c) t d

/-- What the body is called with at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: the inputs' buffers hold their blocks, so `bodyRun3` applies; the invariant and what the
    core owes pass through unread. -/
theorem bodyStep3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [held3_0, held3_1, held3_2, held3_3, held3_4]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (bodyRun3 c Set.univ _ _ _ _ _ _ _ _ _ _ _ _ _ _ _ (blk3 V c 0 t) (blk3 V c 1 t) (blk3 V c 2 t) (blk3 V c 3 t) (blk3 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation3 (c : Dev nD) : BodyObligation (dat3 (F := F) V c) (defs₀ (F := F)) Variants.none () Set.univ := fun t => by
  rw [bigSep_W3, bigSep_W3]
  exact bodyStep3 V c t

end Cert.KernelIdeal.Hand

end
-- ==== Proof.KIReg4.lean ====
/-
  Region 4 of @main, layer 2's edge messages: on each block of 5000 edges, msg = norm·max(h_row + (edge_attr·W_e + b_e), 0). Here: what the body leaves in its buffers, its run, and the pipeline's proof data with the body obligation at every grid point.
-/
import proofs.«161825_j7842610283390_1_alg».proof.Proof.Gen.KernelIdeal.Launch
import proofs.«161825_j7842610283390_1_alg».proof.Proof.Gen.KernelIdeal.Skeleton
import proofs.«161825_j7842610283390_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` that grid point `t` works on, read off the window's array as the region finds it. -/
def blk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's staging buffer holds its block at every point, whether the point fetched it or an earlier one
    did and the block index has not moved since. -/
theorem held4_0_of {c : Dev nD} (dat : Dat τ (Elt F) Unit ℕ (UR sig nD τ) ℕ cfg4 c) (hA : dat.A 0 = V c (Pipeline.arrRef spec4 0))
    (hafter : ∀ t, dat.after 0 t = blk4 V c 0 t) (t : Fin cfg4.N) (d) : dat.before 0 t d = blk4 V c 0 t :=
  (dat.before_in_eq_fetched 0 rfl (fun _ => rfl) (fun _ _ _ => rfl) (fun t => by rw [hafter]; unfold Dat.blockOf blk4; rw [hA]; try rfl) t d).trans
    (by unfold Dat.fetched Dat.blockOf blk4; rw [hA]; try rfl)

/-- An input window's staging buffer holds its block at every point, whether the point fetched it or an earlier one
    did and the block index has not moved since. -/
theorem held4_1_of {c : Dev nD} (dat : Dat τ (Elt F) Unit ℕ (UR sig nD τ) ℕ cfg4 c) (hA : dat.A 1 = V c (Pipeline.arrRef spec4 1))
    (hafter : ∀ t, dat.after 1 t = blk4 V c 1 t) (t : Fin cfg4.N) (d) : dat.before 1 t d = blk4 V c 1 t :=
  (dat.before_in_eq_fetched 1 rfl (fun _ => rfl) (fun _ _ _ => rfl) (fun t => by rw [hafter]; unfold Dat.blockOf blk4; rw [hA]; try rfl) t d).trans
    (by unfold Dat.fetched Dat.blockOf blk4; rw [hA]; try rfl)

/-- An input window's staging buffer holds its block at every point, whether the point fetched it or an earlier one
    did and the block index has not moved since. -/
theorem held4_2_of {c : Dev nD} (dat : Dat τ (Elt F) Unit ℕ (UR sig nD τ) ℕ cfg4 c) (hA : dat.A 2 = V c (Pipeline.arrRef spec4 2))
    (hafter : ∀ t, dat.after 2 t = blk4 V c 2 t) (t : Fin cfg4.N) (d) : dat.before 2 t d = blk4 V c 2 t :=
  (dat.before_in_eq_fetched 2 rfl (fun _ => rfl) (fun _ _ _ => rfl) (fun t => by rw [hafter]; unfold Dat.blockOf blk4; rw [hA]; try rfl) t d).trans
    (by unfold Dat.fetched Dat.blockOf blk4; rw [hA]; try rfl)

/-- An input window's staging buffer holds its block at every point, whether the point fetched it or an earlier one
    did and the block index has not moved since. -/
theorem held4_3_of {c : Dev nD} (dat : Dat τ (Elt F) Unit ℕ (UR sig nD τ) ℕ cfg4 c) (hA : dat.A 3 = V c (Pipeline.arrRef spec4 3))
    (hafter : ∀ t, dat.after 3 t = blk4 V c 3 t) (t : Fin cfg4.N) (d) : dat.before 3 t d = blk4 V c 3 t :=
  (dat.before_in_eq_fetched 3 rfl (fun _ => rfl) (fun _ _ _ => rfl) (fun t => by rw [hafter]; unfold Dat.blockOf blk4; rw [hA]; try rfl) t d).trans
    (by unfold Dat.fetched Dat.blockOf blk4; rw [hA]; try rfl)

/-- An input window's staging buffer holds its block at every point, whether the point fetched it or an earlier one
    did and the block index has not moved since. -/
theorem held4_4_of {c : Dev nD} (dat : Dat τ (Elt F) Unit ℕ (UR sig nD τ) ℕ cfg4 c) (hA : dat.A 4 = V c (Pipeline.arrRef spec4 4))
    (hafter : ∀ t, dat.after 4 t = blk4 V c 4 t) (t : Fin cfg4.N) (d) : dat.before 4 t d = blk4 V c 4 t :=
  (dat.before_in_eq_fetched 4 rfl (fun _ => rfl) (fun _ _ _ => rfl) (fun t => by rw [hafter]; unfold Dat.blockOf blk4; rw [hA]; try rfl) t d).trans
    (by unfold Dat.fetched Dat.blockOf blk4; rw [hA]; try rfl)

/-- The whole rectangle of a `S5000x16` buffer: every load and store of the body is of this form. -/
abbrev whole4_S5000x16 : Rect S5000x16 := Rect.unit (s := S5000x16) ![0, 0] S5000x16.size inb_S5000x16_S5000x16_0_0

/-- The whole rectangle of a `S5000x64` buffer: every load and store of the body is of this form. -/
abbrev whole4_S5000x64 : Rect S5000x64 := Rect.unit (s := S5000x64) ![0, 0] S5000x64.size inb_S5000x64_S5000x64_0_0

/-- The whole rectangle of a `S5000x1` buffer: every load and store of the body is of this form. -/
abbrev whole4_S5000x1 : Rect S5000x1 := Rect.unit (s := S5000x1) ![0, 0] S5000x1.size inb_S5000x1_S5000x1_0_0

/-- The whole rectangle of a `S16x64` buffer: every load and store of the body is of this form. -/
abbrev whole4_S16x64 : Rect S16x64 := Rect.unit (s := S16x64) ![0, 0] S16x64.size inb_S16x64_S16x64_0_0

/-- The whole rectangle of a `S1x64` buffer: every load and store of the body is of this form. -/
abbrev whole4_S1x64 : Rect S1x64 := Rect.unit (s := S1x64) ![0, 0] S1x64.size inb_S1x64_S1x64_0_0

/-- What the body leaves in output window 5's staging buffer, from the input blocks: its one whole-buffer store. -/
def res4_5 (x0 : Vec F S5000x16 .f32) (x1 : Vec F S5000x64 .f32) (x2 : Vec F S5000x1 .f32) (x3 : Vec F S16x64 .f32) (x4 : Vec F S1x64 .f32) : Vec F S5000x64 .f32 :=
  View.canon [⟨whole4_S5000x64, k4_pay1 (View.ld x0 whole4_S5000x16) (View.ld x3 whole4_S16x64) (View.ld x4 whole4_S1x64) (View.ld x2 whole4_S5000x1) (View.ld x1 whole4_S5000x64)⟩]

/-- That store covers the buffer. -/
theorem tiles4_5 (p0 : Vec F S5000x64 .f32) (y : S5000x64.Idx) :
    ∃ pc ∈ ([⟨whole4_S5000x64, p0⟩] : List (View.Piece (Elt F) S5000x64 .f32)), y ∈ pc.1.set :=
  View.cover_of_tiled [⟨whole4_S5000x64, p0⟩] S5000x64.size (by rfl) y

set_option maxHeartbeats 1000000 in
/-- The body on whole staging buffers — the inputs' holding `xW`, the outputs' holding anything — runs to the end,
    leaves the inputs' as they were and each output's at its one store's payload of the inputs. -/
theorem bodyRun4 (c : Dev nD) (E : Set ℕ) (i : grid4.Coords) (a0 : Memref sig .tc .vmem S5000x16 .f32) (ha0 : a0.IsWhole) (a1 : Memref sig .tc .vmem S5000x64 .f32) (ha1 : a1.IsWhole) (a2 : Memref sig .tc .vmem S5000x1 .f32) (ha2 : a2.IsWhole) (a3 : Memref sig .tc .vmem S16x64 .f32) (ha3 : a3.IsWhole) (a4 : Memref sig .tc .vmem S1x64 .f32) (ha4 : a4.IsWhole) (a5 : Memref sig .tc .vmem S5000x64 .f32) (ha5 : a5.IsWhole)
    (x0 : Vec F S5000x16 .f32) (x1 : Vec F S5000x64 .f32) (x2 : Vec F S5000x1 .f32) (x3 : Vec F S16x64 .f32) (x4 : Vec F S1x64 .f32) (Q : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare (res4_5 x0 x1 x2 x3 x4)) -∗ Q ⟨⟩))
      ⊢ wp frame (wpE (defs₀ (F := F)) Variants.none c none) E (cc4__msg_kernel i a0 ha0 a1 ha1 a2 ha2 a3 ha3 a4 ha4 a5 ha5) Q := by
  simp only [cc4__msg_kernel_eq_skeleton]; unfold cc4__msg_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (tiles4_5 _)

/-- The pipeline's proof data on core `c`: the arrays as the region finds them; after the body at point `t` each input
    buffer holds its block and each output buffer the body's result on the input blocks; the invariant is the plain one
    (the scoped rest and the generator register, untouched); nothing owed; full shares. -/
def dat4 (c : Dev nD) : Dat τ (Elt F) Unit ℕ (UR sig nD τ) ℕ cfg4 c where
  A w := V c (Pipeline.arrRef spec4 w)
  after w t := match w with
    | ⟨0, _⟩ => blk4 V c 0 t
    | ⟨1, _⟩ => blk4 V c 1 t
    | ⟨2, _⟩ => blk4 V c 2 t
    | ⟨3, _⟩ => blk4 V c 3 t
    | ⟨4, _⟩ => blk4 V c 4 t
    | ⟨5, _⟩ => res4_5 (blk4 V c 0 t) (blk4 V c 1 t) (blk4 V c 2 t) (blk4 V c 3 t) (blk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = blk4 V c 0 t := by dsimp only [dat4]
theorem after4_1 (c : Dev nD) (t : Fin cfg4.N) : (dat4 V c).after 1 t = blk4 V c 1 t := by dsimp only [dat4]
theorem after4_2 (c : Dev nD) (t : Fin cfg4.N) : (dat4 V c).after 2 t = blk4 V c 2 t := by dsimp only [dat4]
theorem after4_3 (c : Dev nD) (t : Fin cfg4.N) : (dat4 V c).after 3 t = blk4 V c 3 t := by dsimp only [dat4]
theorem after4_4 (c : Dev nD) (t : Fin cfg4.N) : (dat4 V c).after 4 t = blk4 V c 4 t := by dsimp only [dat4]
theorem after4_5 (c : Dev nD) (t : Fin cfg4.N) : (dat4 V c).after 5 t = res4_5 (blk4 V c 0 t) (blk4 V c 1 t) (blk4 V c 2 t) (blk4 V c 3 t) (blk4 V c 4 t) := by dsimp only [dat4]

theorem held4_0 (c : Dev nD) (t : Fin cfg4.N) (d) : (dat4 V c).before 0 t d = blk4 V c 0 t :=
  held4_0_of V (dat4 V c) (A_eq4 V c 0) (after4_0 V c) t d
theorem held4_1 (c : Dev nD) (t : Fin cfg4.N) (d) : (dat4 V c).before 1 t d = blk4 V c 1 t :=
  held4_1_of V (dat4 V c) (A_eq4 V c 1) (after4_1 V c) t d
theorem held4_2 (c : Dev nD) (t : Fin cfg4.N) (d) : (dat4 V c).before 2 t d = blk4 V c 2 t :=
  held4_2_of V (dat4 V c) (A_eq4 V c 2) (after4_2 V c) t d
theorem held4_3 (c : Dev nD) (t : Fin cfg4.N) (d) : (dat4 V c).before 3 t d = blk4 V c 3 t :=
  held4_3_of V (dat4 V c) (A_eq4 V c 3) (after4_3 V c) t d
theorem held4_4 (c : Dev nD) (t : Fin cfg4.N) (d) : (dat4 V c).before 4 t d = blk4 V c 4 t :=
  held4_4_of V (dat4 V c) (A_eq4 V c 4) (after4_4 V c) t d

/-- What the body is called with at point `t`, window by window, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the inputs' buffers hold their blocks, so `bodyRun4` applies; the invariant and what the
    core owes pass through unread. -/
theorem bodyStep4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [held4_0, held4_1, held4_2, held4_3, held4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (bodyRun4 c Set.univ _ _ _ _ _ _ _ _ _ _ _ _ _ (blk4 V c 0 t) (blk4 V c 1 t) (blk4 V c 2 t) (blk4 V c 3 t) (blk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation4 (c : Dev nD) : BodyObligation (dat4 (F := F) V c) (defs₀ (F := F)) Variants.none () Set.univ := fun t => by
  rw [bigSep_W4, bigSep_W4]
  exact bodyStep4 V c t

end Cert.KernelIdeal.Hand

end
-- ==== Proof.KIReg5.lean ====
/-
  Region 5 of @main, layer 2's closing step: on each block of 4000 nodes the new features are max(aggr + root, 0). Here: what the body leaves in its buffers, its run, and the pipeline's proof data with the body obligation at every grid point.
-/
import proofs.«161825_j7842610283390_1_alg».proof.Proof.Gen.KernelIdeal.Launch
import proofs.«161825_j7842610283390_1_alg».proof.Proof.Gen.KernelIdeal.Skeleton
import proofs.«161825_j7842610283390_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` that grid point `t` works on, read off the window's array as the region finds it. -/
def blk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's staging buffer holds its block at every point, whether the point fetched it or an earlier one
    did and the block index has not moved since. -/
theorem held5_0_of {c : Dev nD} (dat : Dat τ (Elt F) Unit ℕ (UR sig nD τ) ℕ cfg5 c) (hA : dat.A 0 = V c (Pipeline.arrRef spec5 0))
    (hafter : ∀ t, dat.after 0 t = blk5 V c 0 t) (t : Fin cfg5.N) (d) : dat.before 0 t d = blk5 V c 0 t :=
  (dat.before_in_eq_fetched 0 rfl (fun _ => rfl) (fun _ _ _ => rfl) (fun t => by rw [hafter]; unfold Dat.blockOf blk5; rw [hA]; try rfl) t d).trans
    (by unfold Dat.fetched Dat.blockOf blk5; rw [hA]; try rfl)

/-- An input window's staging buffer holds its block at every point, whether the point fetched it or an earlier one
    did and the block index has not moved since. -/
theorem held5_1_of {c : Dev nD} (dat : Dat τ (Elt F) Unit ℕ (UR sig nD τ) ℕ cfg5 c) (hA : dat.A 1 = V c (Pipeline.arrRef spec5 1))
    (hafter : ∀ t, dat.after 1 t = blk5 V c 1 t) (t : Fin cfg5.N) (d) : dat.before 1 t d = blk5 V c 1 t :=
  (dat.before_in_eq_fetched 1 rfl (fun _ => rfl) (fun _ _ _ => rfl) (fun t => by rw [hafter]; unfold Dat.blockOf blk5; rw [hA]; try rfl) t d).trans
    (by unfold Dat.fetched Dat.blockOf blk5; rw [hA]; try rfl)

/-- The whole rectangle of a `S4000x64` buffer: every load and store of the body is of this form. -/
abbrev whole5_S4000x64 : Rect S4000x64 := Rect.unit (s := S4000x64) ![0, 0] S4000x64.size inb_S4000x64_S4000x64_0_0

/-- What the body leaves in output window 2's staging buffer, from the input blocks: its one whole-buffer store. -/
def res5_2 (x0 : Vec F S4000x64 .f32) (x1 : Vec F S4000x64 .f32) : Vec F S4000x64 .f32 :=
  View.canon [⟨whole5_S4000x64, k5_pay1 (View.ld x0 whole5_S4000x64) (View.ld x1 whole5_S4000x64)⟩]

/-- That store covers the buffer. -/
theorem tiles5_2 (p0 : Vec F S4000x64 .f32) (y : S4000x64.Idx) :
    ∃ pc ∈ ([⟨whole5_S4000x64, p0⟩] : List (View.Piece (Elt F) S4000x64 .f32)), y ∈ pc.1.set :=
  View.cover_of_tiled [⟨whole5_S4000x64, p0⟩] S4000x64.size (by rfl) y

set_option maxHeartbeats 1000000 in
/-- The body on whole staging buffers — the inputs' holding `xW`, the outputs' holding anything — runs to the end,
    leaves the inputs' as they were and each output's at its one store's payload of the inputs. -/
theorem bodyRun5 (c : Dev nD) (E : Set ℕ) (i : grid5.Coords) (a0 : Memref sig .tc .vmem S4000x64 .f32) (ha0 : a0.IsWhole) (a1 : Memref sig .tc .vmem S4000x64 .f32) (ha1 : a1.IsWhole) (a2 : Memref sig .tc .vmem S4000x64 .f32) (ha2 : a2.IsWhole)
    (x0 : Vec F S4000x64 .f32) (x1 : Vec F S4000x64 .f32) (Q : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (res5_2 x0 x1)) -∗ Q ⟨⟩))
      ⊢ wp frame (wpE (defs₀ (F := F)) Variants.none c none) E (cc5__finalize_kernel i a0 ha0 a1 ha1 a2 ha2) Q := by
  simp only [cc5__finalize_kernel_eq_skeleton]; unfold cc5__finalize_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tiles5_2 _)

/-- The pipeline's proof data on core `c`: the arrays as the region finds them; after the body at point `t` each input
    buffer holds its block and each output buffer the body's result on the input blocks; the invariant is the plain one
    (the scoped rest and the generator register, untouched); nothing owed; full shares. -/
def dat5 (c : Dev nD) : Dat τ (Elt F) Unit ℕ (UR sig nD τ) ℕ cfg5 c where
  A w := V c (Pipeline.arrRef spec5 w)
  after w t := match w with
    | ⟨0, _⟩ => blk5 V c 0 t
    | ⟨1, _⟩ => blk5 V c 1 t
    | ⟨2, _⟩ => res5_2 (blk5 V c 0 t) (blk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = blk5 V c 0 t := by dsimp only [dat5]
theorem after5_1 (c : Dev nD) (t : Fin cfg5.N) : (dat5 V c).after 1 t = blk5 V c 1 t := by dsimp only [dat5]
theorem after5_2 (c : Dev nD) (t : Fin cfg5.N) : (dat5 V c).after 2 t = res5_2 (blk5 V c 0 t) (blk5 V c 1 t) := by dsimp only [dat5]

theorem held5_0 (c : Dev nD) (t : Fin cfg5.N) (d) : (dat5 V c).before 0 t d = blk5 V c 0 t :=
  held5_0_of V (dat5 V c) (A_eq5 V c 0) (after5_0 V c) t d
theorem held5_1 (c : Dev nD) (t : Fin cfg5.N) (d) : (dat5 V c).before 1 t d = blk5 V c 1 t :=
  held5_1_of V (dat5 V c) (A_eq5 V c 1) (after5_1 V c) t d

/-- What the body is called with at point `t`, window by window, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' buffers hold their blocks, so `bodyRun5` applies; the invariant and what the
    core owes pass through unread. -/
theorem bodyStep5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [held5_0, held5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (bodyRun5 c Set.univ _ _ _ _ _ _ _ (blk5 V c 0 t) (blk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation5 (c : Dev nD) : BodyObligation (dat5 (F := F) V c) (defs₀ (F := F)) Variants.none () Set.univ := fun t => by
  rw [bigSep_W5, bigSep_W5]
  exact bodyStep5 V c t

end Cert.KernelIdeal.Hand

end
-- ==== Proof.KIReg6.lean ====
/-
  Region 6 of @main, layer 3's node update: on each block of 4000 nodes, h = x·W + b (one matrix product into a zero accumulator) goes to the first output and max(h + root_emb, 0)·inv_deg to the second. Here: what the body leaves in its buffers, its run, and the pipeline's proof data with the body obligation at every grid point.
-/
import proofs.«161825_j7842610283390_1_alg».proof.Proof.Gen.KernelIdeal.Launch
import proofs.«161825_j7842610283390_1_alg».proof.Proof.Gen.KernelIdeal.Skeleton
import proofs.«161825_j7842610283390_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` that grid point `t` works on, read off the window's array as the region finds it. -/
def blk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's staging buffer holds its block at every point, whether the point fetched it or an earlier one
    did and the block index has not moved since. -/
theorem held6_0_of {c : Dev nD} (dat : Dat τ (Elt F) Unit ℕ (UR sig nD τ) ℕ cfg6 c) (hA : dat.A 0 = V c (Pipeline.arrRef spec6 0))
    (hafter : ∀ t, dat.after 0 t = blk6 V c 0 t) (t : Fin cfg6.N) (d) : dat.before 0 t d = blk6 V c 0 t :=
  (dat.before_in_eq_fetched 0 rfl (fun _ => rfl) (fun _ _ _ => rfl) (fun t => by rw [hafter]; unfold Dat.blockOf blk6; rw [hA]; try rfl) t d).trans
    (by unfold Dat.fetched Dat.blockOf blk6; rw [hA]; try rfl)

/-- An input window's staging buffer holds its block at every point, whether the point fetched it or an earlier one
    did and the block index has not moved since. -/
theorem held6_1_of {c : Dev nD} (dat : Dat τ (Elt F) Unit ℕ (UR sig nD τ) ℕ cfg6 c) (hA : dat.A 1 = V c (Pipeline.arrRef spec6 1))
    (hafter : ∀ t, dat.after 1 t = blk6 V c 1 t) (t : Fin cfg6.N) (d) : dat.before 1 t d = blk6 V c 1 t :=
  (dat.before_in_eq_fetched 1 rfl (fun _ => rfl) (fun _ _ _ => rfl) (fun t => by rw [hafter]; unfold Dat.blockOf blk6; rw [hA]; try rfl) t d).trans
    (by unfold Dat.fetched Dat.blockOf blk6; rw [hA]; try rfl)

/-- An input window's staging buffer holds its block at every point, whether the point fetched it or an earlier one
    did and the block index has not moved since. -/
theorem held6_2_of {c : Dev nD} (dat : Dat τ (Elt F) Unit ℕ (UR sig nD τ) ℕ cfg6 c) (hA : dat.A 2 = V c (Pipeline.arrRef spec6 2))
    (hafter : ∀ t, dat.after 2 t = blk6 V c 2 t) (t : Fin cfg6.N) (d) : dat.before 2 t d = blk6 V c 2 t :=
  (dat.before_in_eq_fetched 2 rfl (fun _ => rfl) (fun _ _ _ => rfl) (fun t => by rw [hafter]; unfold Dat.blockOf blk6; rw [hA]; try rfl) t d).trans
    (by unfold Dat.fetched Dat.blockOf blk6; rw [hA]; try rfl)

/-- An input window's staging buffer holds its block at every point, whether the point fetched it or an earlier one
    did and the block index has not moved since. -/
theorem held6_3_of {c : Dev nD} (dat : Dat τ (Elt F) Unit ℕ (UR sig nD τ) ℕ cfg6 c) (hA : dat.A 3 = V c (Pipeline.arrRef spec6 3))
    (hafter : ∀ t, dat.after 3 t = blk6 V c 3 t) (t : Fin cfg6.N) (d) : dat.before 3 t d = blk6 V c 3 t :=
  (dat.before_in_eq_fetched 3 rfl (fun _ => rfl) (fun _ _ _ => rfl) (fun t => by rw [hafter]; unfold Dat.blockOf blk6; rw [hA]; try rfl) t d).trans
    (by unfold Dat.fetched Dat.blockOf blk6; rw [hA]; try rfl)

/-- An input window's staging buffer holds its block at every point, whether the point fetched it or an earlier one
    did and the block index has not moved since. -/
theorem held6_4_of {c : Dev nD} (dat : Dat τ (Elt F) Unit ℕ (UR sig nD τ) ℕ cfg6 c) (hA : dat.A 4 = V c (Pipeline.arrRef spec6 4))
    (hafter : ∀ t, dat.after 4 t = blk6 V c 4 t) (t : Fin cfg6.N) (d) : dat.before 4 t d = blk6 V c 4 t :=
  (dat.before_in_eq_fetched 4 rfl (fun _ => rfl) (fun _ _ _ => rfl) (fun t => by rw [hafter]; unfold Dat.blockOf blk6; rw [hA]; try rfl) t d).trans
    (by unfold Dat.fetched Dat.blockOf blk6; rw [hA]; try rfl)

/-- The whole rectangle of a `S4000x64` buffer: every load and store of the body is of this form. -/
abbrev whole6_S4000x64 : Rect S4000x64 := Rect.unit (s := S4000x64) ![0, 0] S4000x64.size inb_S4000x64_S4000x64_0_0

/-- The whole rectangle of a `S64x64` buffer: every load and store of the body is of this form. -/
abbrev whole6_S64x64 : Rect S64x64 := Rect.unit (s := S64x64) ![0, 0] S64x64.size inb_S64x64_S64x64_0_0

/-- The whole rectangle of a `S1x64` buffer: every load and store of the body is of this form. -/
abbrev whole6_S1x64 : Rect S1x64 := Rect.unit (s := S1x64) ![0, 0] S1x64.size inb_S1x64_S1x64_0_0

/-- The whole rectangle of a `S4000x1` buffer: every load and store of the body is of this form. -/
abbrev whole6_S4000x1 : Rect S4000x1 := Rect.unit (s := S4000x1) ![0, 0] S4000x1.size inb_S4000x1_S4000x1_0_0

/-- What the body leaves in output window 5's staging buffer, from the input blocks: its one whole-buffer store. -/
def res6_5 (x0 : Vec F S4000x64 .f32) (x1 : Vec F S64x64 .f32) (x2 : Vec F S1x64 .f32) (x3 : Vec F S1x64 .f32) (x4 : Vec F S4000x1 .f32) : Vec F S4000x64 .f32 :=
  View.canon [⟨whole6_S4000x64, k6_pay1 (View.ld x0 whole6_S4000x64) (View.ld x1 whole6_S64x64) (View.ld x2 whole6_S1x64)⟩]

/-- That store covers the buffer. -/
theorem tiles6_5 (p0 : Vec F S4000x64 .f32) (y : S4000x64.Idx) :
    ∃ pc ∈ ([⟨whole6_S4000x64, p0⟩] : List (View.Piece (Elt F) S4000x64 .f32)), y ∈ pc.1.set :=
  View.cover_of_tiled [⟨whole6_S4000x64, p0⟩] S4000x64.size (by rfl) y

/-- What the body leaves in output window 6's staging buffer, from the input blocks: its one whole-buffer store. -/
def res6_6 (x0 : Vec F S4000x64 .f32) (x1 : Vec F S64x64 .f32) (x2 : Vec F S1x64 .f32) (x3 : Vec F S1x64 .f32) (x4 : Vec F S4000x1 .f32) : Vec F S4000x64 .f32 :=
  View.canon [⟨whole6_S4000x64, k6_pay2 (View.ld x0 whole6_S4000x64) (View.ld x1 whole6_S64x64) (View.ld x2 whole6_S1x64) (View.ld x3 whole6_S1x64) (View.ld x4 whole6_S4000x1)⟩]

/-- That store covers the buffer. -/
theorem tiles6_6 (p0 : Vec F S4000x64 .f32) (y : S4000x64.Idx) :
    ∃ pc ∈ ([⟨whole6_S4000x64, p0⟩] : List (View.Piece (Elt F) S4000x64 .f32)), y ∈ pc.1.set :=
  View.cover_of_tiled [⟨whole6_S4000x64, p0⟩] S4000x64.size (by rfl) y

set_option maxHeartbeats 1000000 in
/-- The body on whole staging buffers — the inputs' holding `xW`, the outputs' holding anything — runs to the end,
    leaves the inputs' as they were and each output's at its one store's payload of the inputs. -/
theorem bodyRun6 (c : Dev nD) (E : Set ℕ) (i : grid6.Coords) (a0 : Memref sig .tc .vmem S4000x64 .f32) (ha0 : a0.IsWhole) (a1 : Memref sig .tc .vmem S64x64 .f32) (ha1 : a1.IsWhole) (a2 : Memref sig .tc .vmem S1x64 .f32) (ha2 : a2.IsWhole) (a3 : Memref sig .tc .vmem S1x64 .f32) (ha3 : a3.IsWhole) (a4 : Memref sig .tc .vmem S4000x1 .f32) (ha4 : a4.IsWhole) (a5 : Memref sig .tc .vmem S4000x64 .f32) (ha5 : a5.IsWhole) (a6 : Memref sig .tc .vmem S4000x64 .f32) (ha6 : a6.IsWhole)
    (x0 : Vec F S4000x64 .f32) (x1 : Vec F S64x64 .f32) (x2 : Vec F S1x64 .f32) (x3 : Vec F S1x64 .f32) (x4 : Vec F S4000x1 .f32) (Q : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d) ∗ (∃ d, owns (c : Thread nD τ) a6 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare (res6_5 x0 x1 x2 x3 x4) ∗ owns (c : Thread nD τ) a6 fullShare (res6_6 x0 x1 x2 x3 x4)) -∗ Q ⟨⟩))
      ⊢ wp frame (wpE (defs₀ (F := F)) Variants.none c none) E (cc6__node_update_kernel i a0 ha0 a1 ha1 a2 ha2 a3 ha3 a4 ha4 a5 ha5 a6 ha6) Q := by
  simp only [cc6__node_update_kernel_eq_skeleton]; unfold cc6__node_update_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (tiles6_5 _)
  iexists _; isplitr
  swap; · iexact H6
  ipureintro
  exact View.read_writes_eq_canon _ _ _ (tiles6_6 _)

/-- The pipeline's proof data on core `c`: the arrays as the region finds them; after the body at point `t` each input
    buffer holds its block and each output buffer the body's result on the input blocks; the invariant is the plain one
    (the scoped rest and the generator register, untouched); nothing owed; full shares. -/
def dat6 (c : Dev nD) : Dat τ (Elt F) Unit ℕ (UR sig nD τ) ℕ cfg6 c where
  A w := V c (Pipeline.arrRef spec6 w)
  after w t := match w with
    | ⟨0, _⟩ => blk6 V c 0 t
    | ⟨1, _⟩ => blk6 V c 1 t
    | ⟨2, _⟩ => blk6 V c 2 t
    | ⟨3, _⟩ => blk6 V c 3 t
    | ⟨4, _⟩ => blk6 V c 4 t
    | ⟨5, _⟩ => res6_5 (blk6 V c 0 t) (blk6 V c 1 t) (blk6 V c 2 t) (blk6 V c 3 t) (blk6 V c 4 t)
    | ⟨6, _⟩ => res6_6 (blk6 V c 0 t) (blk6 V c 1 t) (blk6 V c 2 t) (blk6 V c 3 t) (blk6 V c 4 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = blk6 V c 0 t := by dsimp only [dat6]
theorem after6_1 (c : Dev nD) (t : Fin cfg6.N) : (dat6 V c).after 1 t = blk6 V c 1 t := by dsimp only [dat6]
theorem after6_2 (c : Dev nD) (t : Fin cfg6.N) : (dat6 V c).after 2 t = blk6 V c 2 t := by dsimp only [dat6]
theorem after6_3 (c : Dev nD) (t : Fin cfg6.N) : (dat6 V c).after 3 t = blk6 V c 3 t := by dsimp only [dat6]
theorem after6_4 (c : Dev nD) (t : Fin cfg6.N) : (dat6 V c).after 4 t = blk6 V c 4 t := by dsimp only [dat6]
theorem after6_5 (c : Dev nD) (t : Fin cfg6.N) : (dat6 V c).after 5 t = res6_5 (blk6 V c 0 t) (blk6 V c 1 t) (blk6 V c 2 t) (blk6 V c 3 t) (blk6 V c 4 t) := by dsimp only [dat6]
theorem after6_6 (c : Dev nD) (t : Fin cfg6.N) : (dat6 V c).after 6 t = res6_6 (blk6 V c 0 t) (blk6 V c 1 t) (blk6 V c 2 t) (blk6 V c 3 t) (blk6 V c 4 t) := by dsimp only [dat6]

theorem held6_0 (c : Dev nD) (t : Fin cfg6.N) (d) : (dat6 V c).before 0 t d = blk6 V c 0 t :=
  held6_0_of V (dat6 V c) (A_eq6 V c 0) (after6_0 V c) t d
theorem held6_1 (c : Dev nD) (t : Fin cfg6.N) (d) : (dat6 V c).before 1 t d = blk6 V c 1 t :=
  held6_1_of V (dat6 V c) (A_eq6 V c 1) (after6_1 V c) t d
theorem held6_2 (c : Dev nD) (t : Fin cfg6.N) (d) : (dat6 V c).before 2 t d = blk6 V c 2 t :=
  held6_2_of V (dat6 V c) (A_eq6 V c 2) (after6_2 V c) t d
theorem held6_3 (c : Dev nD) (t : Fin cfg6.N) (d) : (dat6 V c).before 3 t d = blk6 V c 3 t :=
  held6_3_of V (dat6 V c) (A_eq6 V c 3) (after6_3 V c) t d
theorem held6_4 (c : Dev nD) (t : Fin cfg6.N) (d) : (dat6 V c).before 4 t d = blk6 V c 4 t :=
  held6_4_of V (dat6 V c) (A_eq6 V c 4) (after6_4 V c) t d

/-- What the body is called with at point `t`, window by window, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t))

/-- The body at any point: the inputs' buffers hold their blocks, so `bodyRun6` applies; the invariant and what the
    core owes pass through unread. -/
theorem bodyStep6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [held6_0, held6_1, held6_2, held6_3, held6_4]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (bodyRun6 c Set.univ _ _ _ _ _ _ _ _ _ _ _ _ _ _ _ (blk6 V c 0 t) (blk6 V c 1 t) (blk6 V c 2 t) (blk6 V c 3 t) (blk6 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation6 (c : Dev nD) : BodyObligation (dat6 (F := F) V c) (defs₀ (F := F)) Variants.none () Set.univ := fun t => by
  rw [bigSep_W6, bigSep_W6]
  exact bodyStep6 V c t

end Cert.KernelIdeal.Hand

end
-- ==== Proof.KIReg7.lean ====
/-
  Region 7 of @main, layer 3's edge messages: on each block of 5000 edges, msg = norm·max(h_row + (edge_attr·W_e + b_e), 0). Here: what the body leaves in its buffers, its run, and the pipeline's proof data with the body obligation at every grid point.
-/
import proofs.«161825_j7842610283390_1_alg».proof.Proof.Gen.KernelIdeal.Launch
import proofs.«161825_j7842610283390_1_alg».proof.Proof.Gen.KernelIdeal.Skeleton
import proofs.«161825_j7842610283390_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` that grid point `t` works on, read off the window's array as the region finds it. -/
def blk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's staging buffer holds its block at every point, whether the point fetched it or an earlier one
    did and the block index has not moved since. -/
theorem held7_0_of {c : Dev nD} (dat : Dat τ (Elt F) Unit ℕ (UR sig nD τ) ℕ cfg7 c) (hA : dat.A 0 = V c (Pipeline.arrRef spec7 0))
    (hafter : ∀ t, dat.after 0 t = blk7 V c 0 t) (t : Fin cfg7.N) (d) : dat.before 0 t d = blk7 V c 0 t :=
  (dat.before_in_eq_fetched 0 rfl (fun _ => rfl) (fun _ _ _ => rfl) (fun t => by rw [hafter]; unfold Dat.blockOf blk7; rw [hA]; try rfl) t d).trans
    (by unfold Dat.fetched Dat.blockOf blk7; rw [hA]; try rfl)

/-- An input window's staging buffer holds its block at every point, whether the point fetched it or an earlier one
    did and the block index has not moved since. -/
theorem held7_1_of {c : Dev nD} (dat : Dat τ (Elt F) Unit ℕ (UR sig nD τ) ℕ cfg7 c) (hA : dat.A 1 = V c (Pipeline.arrRef spec7 1))
    (hafter : ∀ t, dat.after 1 t = blk7 V c 1 t) (t : Fin cfg7.N) (d) : dat.before 1 t d = blk7 V c 1 t :=
  (dat.before_in_eq_fetched 1 rfl (fun _ => rfl) (fun _ _ _ => rfl) (fun t => by rw [hafter]; unfold Dat.blockOf blk7; rw [hA]; try rfl) t d).trans
    (by unfold Dat.fetched Dat.blockOf blk7; rw [hA]; try rfl)

/-- An input window's staging buffer holds its block at every point, whether the point fetched it or an earlier one
    did and the block index has not moved since. -/
theorem held7_2_of {c : Dev nD} (dat : Dat τ (Elt F) Unit ℕ (UR sig nD τ) ℕ cfg7 c) (hA : dat.A 2 = V c (Pipeline.arrRef spec7 2))
    (hafter : ∀ t, dat.after 2 t = blk7 V c 2 t) (t : Fin cfg7.N) (d) : dat.before 2 t d = blk7 V c 2 t :=
  (dat.before_in_eq_fetched 2 rfl (fun _ => rfl) (fun _ _ _ => rfl) (fun t => by rw [hafter]; unfold Dat.blockOf blk7; rw [hA]; try rfl) t d).trans
    (by unfold Dat.fetched Dat.blockOf blk7; rw [hA]; try rfl)

/-- An input window's staging buffer holds its block at every point, whether the point fetched it or an earlier one
    did and the block index has not moved since. -/
theorem held7_3_of {c : Dev nD} (dat : Dat τ (Elt F) Unit ℕ (UR sig nD τ) ℕ cfg7 c) (hA : dat.A 3 = V c (Pipeline.arrRef spec7 3))
    (hafter : ∀ t, dat.after 3 t = blk7 V c 3 t) (t : Fin cfg7.N) (d) : dat.before 3 t d = blk7 V c 3 t :=
  (dat.before_in_eq_fetched 3 rfl (fun _ => rfl) (fun _ _ _ => rfl) (fun t => by rw [hafter]; unfold Dat.blockOf blk7; rw [hA]; try rfl) t d).trans
    (by unfold Dat.fetched Dat.blockOf blk7; rw [hA]; try rfl)

/-- An input window's staging buffer holds its block at every point, whether the point fetched it or an earlier one
    did and the block index has not moved since. -/
theorem held7_4_of {c : Dev nD} (dat : Dat τ (Elt F) Unit ℕ (UR sig nD τ) ℕ cfg7 c) (hA : dat.A 4 = V c (Pipeline.arrRef spec7 4))
    (hafter : ∀ t, dat.after 4 t = blk7 V c 4 t) (t : Fin cfg7.N) (d) : dat.before 4 t d = blk7 V c 4 t :=
  (dat.before_in_eq_fetched 4 rfl (fun _ => rfl) (fun _ _ _ => rfl) (fun t => by rw [hafter]; unfold Dat.blockOf blk7; rw [hA]; try rfl) t d).trans
    (by unfold Dat.fetched Dat.blockOf blk7; rw [hA]; try rfl)

/-- The whole rectangle of a `S5000x16` buffer: every load and store of the body is of this form. -/
abbrev whole7_S5000x16 : Rect S5000x16 := Rect.unit (s := S5000x16) ![0, 0] S5000x16.size inb_S5000x16_S5000x16_0_0

/-- The whole rectangle of a `S5000x64` buffer: every load and store of the body is of this form. -/
abbrev whole7_S5000x64 : Rect S5000x64 := Rect.unit (s := S5000x64) ![0, 0] S5000x64.size inb_S5000x64_S5000x64_0_0

/-- The whole rectangle of a `S5000x1` buffer: every load and store of the body is of this form. -/
abbrev whole7_S5000x1 : Rect S5000x1 := Rect.unit (s := S5000x1) ![0, 0] S5000x1.size inb_S5000x1_S5000x1_0_0

/-- The whole rectangle of a `S16x64` buffer: every load and store of the body is of this form. -/
abbrev whole7_S16x64 : Rect S16x64 := Rect.unit (s := S16x64) ![0, 0] S16x64.size inb_S16x64_S16x64_0_0

/-- The whole rectangle of a `S1x64` buffer: every load and store of the body is of this form. -/
abbrev whole7_S1x64 : Rect S1x64 := Rect.unit (s := S1x64) ![0, 0] S1x64.size inb_S1x64_S1x64_0_0

/-- What the body leaves in output window 5's staging buffer, from the input blocks: its one whole-buffer store. -/
def res7_5 (x0 : Vec F S5000x16 .f32) (x1 : Vec F S5000x64 .f32) (x2 : Vec F S5000x1 .f32) (x3 : Vec F S16x64 .f32) (x4 : Vec F S1x64 .f32) : Vec F S5000x64 .f32 :=
  View.canon [⟨whole7_S5000x64, k7_pay1 (View.ld x0 whole7_S5000x16) (View.ld x3 whole7_S16x64) (View.ld x4 whole7_S1x64) (View.ld x2 whole7_S5000x1) (View.ld x1 whole7_S5000x64)⟩]

/-- That store covers the buffer. -/
theorem tiles7_5 (p0 : Vec F S5000x64 .f32) (y : S5000x64.Idx) :
    ∃ pc ∈ ([⟨whole7_S5000x64, p0⟩] : List (View.Piece (Elt F) S5000x64 .f32)), y ∈ pc.1.set :=
  View.cover_of_tiled [⟨whole7_S5000x64, p0⟩] S5000x64.size (by rfl) y

set_option maxHeartbeats 1000000 in
/-- The body on whole staging buffers — the inputs' holding `xW`, the outputs' holding anything — runs to the end,
    leaves the inputs' as they were and each output's at its one store's payload of the inputs. -/
theorem bodyRun7 (c : Dev nD) (E : Set ℕ) (i : grid7.Coords) (a0 : Memref sig .tc .vmem S5000x16 .f32) (ha0 : a0.IsWhole) (a1 : Memref sig .tc .vmem S5000x64 .f32) (ha1 : a1.IsWhole) (a2 : Memref sig .tc .vmem S5000x1 .f32) (ha2 : a2.IsWhole) (a3 : Memref sig .tc .vmem S16x64 .f32) (ha3 : a3.IsWhole) (a4 : Memref sig .tc .vmem S1x64 .f32) (ha4 : a4.IsWhole) (a5 : Memref sig .tc .vmem S5000x64 .f32) (ha5 : a5.IsWhole)
    (x0 : Vec F S5000x16 .f32) (x1 : Vec F S5000x64 .f32) (x2 : Vec F S5000x1 .f32) (x3 : Vec F S16x64 .f32) (x4 : Vec F S1x64 .f32) (Q : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare (res7_5 x0 x1 x2 x3 x4)) -∗ Q ⟨⟩))
      ⊢ wp frame (wpE (defs₀ (F := F)) Variants.none c none) E (cc7__msg_kernel i a0 ha0 a1 ha1 a2 ha2 a3 ha3 a4 ha4 a5 ha5) Q := by
  simp only [cc7__msg_kernel_eq_skeleton]; unfold cc7__msg_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (tiles7_5 _)

/-- The pipeline's proof data on core `c`: the arrays as the region finds them; after the body at point `t` each input
    buffer holds its block and each output buffer the body's result on the input blocks; the invariant is the plain one
    (the scoped rest and the generator register, untouched); nothing owed; full shares. -/
def dat7 (c : Dev nD) : Dat τ (Elt F) Unit ℕ (UR sig nD τ) ℕ cfg7 c where
  A w := V c (Pipeline.arrRef spec7 w)
  after w t := match w with
    | ⟨0, _⟩ => blk7 V c 0 t
    | ⟨1, _⟩ => blk7 V c 1 t
    | ⟨2, _⟩ => blk7 V c 2 t
    | ⟨3, _⟩ => blk7 V c 3 t
    | ⟨4, _⟩ => blk7 V c 4 t
    | ⟨5, _⟩ => res7_5 (blk7 V c 0 t) (blk7 V c 1 t) (blk7 V c 2 t) (blk7 V c 3 t) (blk7 V c 4 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = blk7 V c 0 t := by dsimp only [dat7]
theorem after7_1 (c : Dev nD) (t : Fin cfg7.N) : (dat7 V c).after 1 t = blk7 V c 1 t := by dsimp only [dat7]
theorem after7_2 (c : Dev nD) (t : Fin cfg7.N) : (dat7 V c).after 2 t = blk7 V c 2 t := by dsimp only [dat7]
theorem after7_3 (c : Dev nD) (t : Fin cfg7.N) : (dat7 V c).after 3 t = blk7 V c 3 t := by dsimp only [dat7]
theorem after7_4 (c : Dev nD) (t : Fin cfg7.N) : (dat7 V c).after 4 t = blk7 V c 4 t := by dsimp only [dat7]
theorem after7_5 (c : Dev nD) (t : Fin cfg7.N) : (dat7 V c).after 5 t = res7_5 (blk7 V c 0 t) (blk7 V c 1 t) (blk7 V c 2 t) (blk7 V c 3 t) (blk7 V c 4 t) := by dsimp only [dat7]

theorem held7_0 (c : Dev nD) (t : Fin cfg7.N) (d) : (dat7 V c).before 0 t d = blk7 V c 0 t :=
  held7_0_of V (dat7 V c) (A_eq7 V c 0) (after7_0 V c) t d
theorem held7_1 (c : Dev nD) (t : Fin cfg7.N) (d) : (dat7 V c).before 1 t d = blk7 V c 1 t :=
  held7_1_of V (dat7 V c) (A_eq7 V c 1) (after7_1 V c) t d
theorem held7_2 (c : Dev nD) (t : Fin cfg7.N) (d) : (dat7 V c).before 2 t d = blk7 V c 2 t :=
  held7_2_of V (dat7 V c) (A_eq7 V c 2) (after7_2 V c) t d
theorem held7_3 (c : Dev nD) (t : Fin cfg7.N) (d) : (dat7 V c).before 3 t d = blk7 V c 3 t :=
  held7_3_of V (dat7 V c) (A_eq7 V c 3) (after7_3 V c) t d
theorem held7_4 (c : Dev nD) (t : Fin cfg7.N) (d) : (dat7 V c).before 4 t d = blk7 V c 4 t :=
  held7_4_of V (dat7 V c) (A_eq7 V c 4) (after7_4 V c) t d

/-- What the body is called with at point `t`, window by window, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

/-- The body at any point: the inputs' buffers hold their blocks, so `bodyRun7` applies; the invariant and what the
    core owes pass through unread. -/
theorem bodyStep7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [held7_0, held7_1, held7_2, held7_3, held7_4]
  rw [show (dat7 V c).Φ t.succ = (dat7 V c).Φ t.castSucc from rfl,
    show (dat7 V c).owesAt () t.succ = (dat7 V c).owesAt () t.castSucc from rfl,
    after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  iapply (bodyRun7 c Set.univ _ _ _ _ _ _ _ _ _ _ _ _ _ (blk7 V c 0 t) (blk7 V c 1 t) (blk7 V c 2 t) (blk7 V c 3 t) (blk7 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation7 (c : Dev nD) : BodyObligation (dat7 (F := F) V c) (defs₀ (F := F)) Variants.none () Set.univ := fun t => by
  rw [bigSep_W7, bigSep_W7]
  exact bodyStep7 V c t

end Cert.KernelIdeal.Hand

end
-- ==== Proof.KIReg8.lean ====
/-
  Region 8 of @main, layer 3's closing step: on each block of 4000 nodes the new features are max(aggr + root, 0). Here: what the body leaves in its buffers, its run, and the pipeline's proof data with the body obligation at every grid point.
-/
import proofs.«161825_j7842610283390_1_alg».proof.Proof.Gen.KernelIdeal.Launch
import proofs.«161825_j7842610283390_1_alg».proof.Proof.Gen.KernelIdeal.Skeleton
import proofs.«161825_j7842610283390_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` that grid point `t` works on, read off the window's array as the region finds it. -/
def blk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's staging buffer holds its block at every point, whether the point fetched it or an earlier one
    did and the block index has not moved since. -/
theorem held8_0_of {c : Dev nD} (dat : Dat τ (Elt F) Unit ℕ (UR sig nD τ) ℕ cfg8 c) (hA : dat.A 0 = V c (Pipeline.arrRef spec8 0))
    (hafter : ∀ t, dat.after 0 t = blk8 V c 0 t) (t : Fin cfg8.N) (d) : dat.before 0 t d = blk8 V c 0 t :=
  (dat.before_in_eq_fetched 0 rfl (fun _ => rfl) (fun _ _ _ => rfl) (fun t => by rw [hafter]; unfold Dat.blockOf blk8; rw [hA]; try rfl) t d).trans
    (by unfold Dat.fetched Dat.blockOf blk8; rw [hA]; try rfl)

/-- An input window's staging buffer holds its block at every point, whether the point fetched it or an earlier one
    did and the block index has not moved since. -/
theorem held8_1_of {c : Dev nD} (dat : Dat τ (Elt F) Unit ℕ (UR sig nD τ) ℕ cfg8 c) (hA : dat.A 1 = V c (Pipeline.arrRef spec8 1))
    (hafter : ∀ t, dat.after 1 t = blk8 V c 1 t) (t : Fin cfg8.N) (d) : dat.before 1 t d = blk8 V c 1 t :=
  (dat.before_in_eq_fetched 1 rfl (fun _ => rfl) (fun _ _ _ => rfl) (fun t => by rw [hafter]; unfold Dat.blockOf blk8; rw [hA]; try rfl) t d).trans
    (by unfold Dat.fetched Dat.blockOf blk8; rw [hA]; try rfl)

/-- The whole rectangle of a `S4000x64` buffer: every load and store of the body is of this form. -/
abbrev whole8_S4000x64 : Rect S4000x64 := Rect.unit (s := S4000x64) ![0, 0] S4000x64.size inb_S4000x64_S4000x64_0_0

/-- What the body leaves in output window 2's staging buffer, from the input blocks: its one whole-buffer store. -/
def res8_2 (x0 : Vec F S4000x64 .f32) (x1 : Vec F S4000x64 .f32) : Vec F S4000x64 .f32 :=
  View.canon [⟨whole8_S4000x64, k8_pay1 (View.ld x0 whole8_S4000x64) (View.ld x1 whole8_S4000x64)⟩]

/-- That store covers the buffer. -/
theorem tiles8_2 (p0 : Vec F S4000x64 .f32) (y : S4000x64.Idx) :
    ∃ pc ∈ ([⟨whole8_S4000x64, p0⟩] : List (View.Piece (Elt F) S4000x64 .f32)), y ∈ pc.1.set :=
  View.cover_of_tiled [⟨whole8_S4000x64, p0⟩] S4000x64.size (by rfl) y

set_option maxHeartbeats 1000000 in
/-- The body on whole staging buffers — the inputs' holding `xW`, the outputs' holding anything — runs to the end,
    leaves the inputs' as they were and each output's at its one store's payload of the inputs. -/
theorem bodyRun8 (c : Dev nD) (E : Set ℕ) (i : grid8.Coords) (a0 : Memref sig .tc .vmem S4000x64 .f32) (ha0 : a0.IsWhole) (a1 : Memref sig .tc .vmem S4000x64 .f32) (ha1 : a1.IsWhole) (a2 : Memref sig .tc .vmem S4000x64 .f32) (ha2 : a2.IsWhole)
    (x0 : Vec F S4000x64 .f32) (x1 : Vec F S4000x64 .f32) (Q : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (res8_2 x0 x1)) -∗ Q ⟨⟩))
      ⊢ wp frame (wpE (defs₀ (F := F)) Variants.none c none) E (cc8__finalize_kernel i a0 ha0 a1 ha1 a2 ha2) Q := by
  simp only [cc8__finalize_kernel_eq_skeleton]; unfold cc8__finalize_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tiles8_2 _)

/-- The pipeline's proof data on core `c`: the arrays as the region finds them; after the body at point `t` each input
    buffer holds its block and each output buffer the body's result on the input blocks; the invariant is the plain one
    (the scoped rest and the generator register, untouched); nothing owed; full shares. -/
def dat8 (c : Dev nD) : Dat τ (Elt F) Unit ℕ (UR sig nD τ) ℕ cfg8 c where
  A w := V c (Pipeline.arrRef spec8 w)
  after w t := match w with
    | ⟨0, _⟩ => blk8 V c 0 t
    | ⟨1, _⟩ => blk8 V c 1 t
    | ⟨2, _⟩ => res8_2 (blk8 V c 0 t) (blk8 V c 1 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = blk8 V c 0 t := by dsimp only [dat8]
theorem after8_1 (c : Dev nD) (t : Fin cfg8.N) : (dat8 V c).after 1 t = blk8 V c 1 t := by dsimp only [dat8]
theorem after8_2 (c : Dev nD) (t : Fin cfg8.N) : (dat8 V c).after 2 t = res8_2 (blk8 V c 0 t) (blk8 V c 1 t) := by dsimp only [dat8]

theorem held8_0 (c : Dev nD) (t : Fin cfg8.N) (d) : (dat8 V c).before 0 t d = blk8 V c 0 t :=
  held8_0_of V (dat8 V c) (A_eq8 V c 0) (after8_0 V c) t d
theorem held8_1 (c : Dev nD) (t : Fin cfg8.N) (d) : (dat8 V c).before 1 t d = blk8 V c 1 t :=
  held8_1_of V (dat8 V c) (A_eq8 V c 1) (after8_1 V c) t d

/-- What the body is called with at point `t`, window by window, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t))

/-- The body at any point: the inputs' buffers hold their blocks, so `bodyRun8` applies; the invariant and what the
    core owes pass through unread. -/
theorem bodyStep8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [held8_0, held8_1]
  rw [show (dat8 V c).Φ t.succ = (dat8 V c).Φ t.castSucc from rfl,
    show (dat8 V c).owesAt () t.succ = (dat8 V c).owesAt () t.castSucc from rfl,
    after8_0, after8_1, after8_2]
  iintro ⟨HΦ, Ho, ⟨%d0, H0⟩, ⟨%d1, H1⟩, ⟨%d2, H2⟩⟩
  iapply (bodyRun8 c Set.univ _ _ _ _ _ _ _ (blk8 V c 0 t) (blk8 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation8 (c : Dev nD) : BodyObligation (dat8 (F := F) V c) (defs₀ (F := F)) Variants.none () Set.univ := fun t => by
  rw [bigSep_W8, bigSep_W8]
  exact bodyStep8 V c t

end Cert.KernelIdeal.Hand

end
-- ==== Proof.KIReg9a.lean ====
/-
  Region 9 of the kernel program (the batch-norm statistics kernel): what its three control cases share.
  The kernel visits the 25 row blocks of a [100000,256] array in order; two [1,256] accumulators (column sums and
  column sums of squares) are zeroed at the first block, updated at every block and copied to the two outputs at
  the last block.  Here: the two branch conditions in closed form, where the output windows are idle, and the one
  fact about stores used throughout — a store through a whole buffer, made last, is what the buffer then reads.
-/
import proofs.«161825_j7842610283390_1_alg».proof.Proof.Gen.KernelIdeal.Launch
import proofs.«161825_j7842610283390_1_alg».proof.Proof.Gen.KernelIdeal.Skeleton
import proofs.«161825_j7842610283390_1_alg».proof.Proof.Gen.KernelIdeal.Points
import Idealize.ShloMosaic.Lib.Pipeline.FrameBody
import Idealize.ShloMosaic.Lib.Ring
import Idealize.ShloMosaic.Lib.Tactic
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The offsets of a whole-buffer rectangle are zero. -/
theorem hz2 : (![0, 0] : Fin 2 → ℕ) = fun _ => 0 := by
  funext a; match a with | ⟨0, _⟩ => rfl | ⟨1, _⟩ => rfl

/-- A store through the whole buffer, made last, is what the buffer then reads: whatever it held and whatever was
    stored before. -/
theorem read_writes_cons_whole {S : Shape} {e : EltTy} {sg : RefSig} {κ : Kind} {sp : Space} (v : View sg κ sp S e)
    (f : v.ty.Contents (Elt F)) {off : Fin S.rank → ℕ} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons.mpr (Or.inl rfl), View.mem_set_unit_zero h inb y⟩),
    View.canon_cons_unit_zero h]

/-- The body's first conditional: the grid coordinate is 0 (the accumulators are zeroed). -/
abbrev condFirst (i : grid9.Coords) : Prop :=
  (Scalar.cmpi .ne (Scalar.extui (Scalar.cmpi .eq (BitVec.ofNat 32 (i 0).val) 0#32)) 0#32) = 1#1
/-- The body's second conditional: the grid coordinate is 24 (the accumulators are copied out). -/
abbrev condLast (i : grid9.Coords) : Prop := k9_cond2 i = 1#1

theorem hcondFirst : ∀ t : Fin cfg9.N, condFirst (grid9.coords t) ↔ t.val = 0 :=
  (by decide +kernel : ∀ t : Fin grid9.N, condFirst (grid9.coords t) ↔ t.val = 0)
theorem hcondLast : ∀ t : Fin cfg9.N, condLast (grid9.coords t) ↔ t.val = 24 :=
  (by decide +kernel : ∀ t : Fin grid9.N, condLast (grid9.coords t) ↔ t.val = 24)

/-- The input window is live at every point. -/
theorem live9_0 : ∀ t : Fin cfg9.N, cfg9.idle 0 (grid9.coords t) = false := by decide +kernel
/-- Before the last point the body stores nothing into the outputs: the windows are idle there and not written back. -/
theorem idle9_1 : ∀ t : Fin cfg9.N, ¬condLast (grid9.coords t) → cfg9.idle 1 (grid9.coords t) = true := by decide +kernel
theorem idle9_2 : ∀ t : Fin cfg9.N, ¬condLast (grid9.coords t) → cfg9.idle 2 (grid9.coords t) = true := by decide +kernel
theorem noFlush9_1 : ∀ t : Fin cfg9.N, ¬condLast (grid9.coords t) → (cfg9.win 1).flush t = false := by decide +kernel
theorem noFlush9_2 : ∀ t : Fin cfg9.N, ¬condLast (grid9.coords t) → (cfg9.win 2).flush t = false := by decide +kernel
/-- At the last point the body stores into both outputs. -/
theorem live9_1 : ∀ t : Fin cfg9.N, condLast (grid9.coords t) → cfg9.idle 1 (grid9.coords t) = false := by decide +kernel
theorem live9_2 : ∀ t : Fin cfg9.N, condLast (grid9.coords t) → cfg9.idle 2 (grid9.coords t) = false := by decide +kernel

end Cert.KernelIdeal.Hand

end
-- ==== Proof.KIReg9b.lean ====
/-
  Region 9, the first block: the accumulators are zeroed, then the block's column sums (of x and of x*x) are added.
-/
import proofs.«161825_j7842610283390_1_alg».proof.Proof.KIReg9a

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At the first point (the first conditional taken, the second not), on whole memrefs — the input block at `x0`, the
    two outputs at anything, handed back untouched, the two accumulators at anything —, the body runs and leaves the
    accumulators at the block's column sums over zero (`k9_pay4`, `k9_pay5` of the zero rows `k9_pay1`, `k9_pay2`). -/
theorem run9_first (c : Dev nD) (i : grid9.Coords)
    (arg1 : Memref sig .tc .vmem S4000x256 .f32) (harg1 : arg1.IsWhole)
    (arg2 : Memref sig .tc .vmem S1x256 .f32) (harg2 : arg2.IsWhole)
    (arg3 : Memref sig .tc .vmem S1x256 .f32) (harg3 : arg3.IsWhole)
    (arg4 : Memref sig .tc .vmem S1x256 .f32) (harg4 : arg4.IsWhole)
    (arg5 : Memref sig .tc .vmem S1x256 .f32) (harg5 : arg5.IsWhole)
    (hc0 : condFirst i) (hc1 : ¬condLast i)
    (x0 : Vec F S4000x256 .f32) (xi2 xi3 : Vec F S1x256 .f32) (E : Set ℕ) (K : PUnit → sProp 𝕄) :
    iprop(owns (c : Thread nD τ) arg1 fullShare x0 ∗ owns (c : Thread nD τ) arg2 fullShare xi2 ∗ owns (c : Thread nD τ) arg3 fullShare xi3
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare xi2 ∗ owns (c : Thread nD τ) arg3 fullShare xi3
            ∗ owns (c : Thread nD τ) arg4 fullShare (k9_pay4 x0 (k9_pay1 (F := F))) ∗ owns (c : Thread nD τ) arg5 fullShare (k9_pay5 x0 (k9_pay2 (F := F)))) -∗ K ⟨⟩))
      ⊢ wp frame (wpE (defs₀ (F := F)) Variants.none c none) E (cc9__bn_stats_kernel i arg1 harg1 arg2 harg2 arg3 harg3 arg4 harg4 arg5 harg5) K := by
  simp only [cc9__bn_stats_kernel_eq_skeleton]; unfold cc9__bn_stats_kernel_skel
  unfold owns
  iintro ⟨⟨%f0, %hf0, H0⟩, ⟨%f2, %hf2, H2⟩, ⟨%f3, %hf3, H3⟩, ⟨%d4, %f4, -, H4⟩, ⟨%d5, %f5, -, H5⟩, Hk⟩
  obtain rfl := harg1.eq_unread hf0; obtain rfl := harg2.eq_unread hf2; obtain rfl := harg3.eq_unread hf3
  sl_exec (disch := first | exact hc0 | exact hc1)
  sl_step
  iapply Hk
  isplitl [H0]
  · iexists _; isplitr; · ipureintro; exact harg1.read_unread _
    iexact H0
  isplitl [H2]
  · iexists _; isplitr; · ipureintro; exact harg2.read_unread _
    iexact H2
  isplitl [H3]
  · iexists _; isplitr; · ipureintro; exact harg3.read_unread _
    iexact H3
  isplitl [H4]
  · iexists _; isplitr; swap; · iexact H4
    ipureintro
    sl_unfold_words
    rw [read_writes_cons_whole (S := S1x256) _ _ hz2]
    simp only [View.readAt_eq_ld, read_writes_cons_whole (S := S1x256) _ _ hz2, View.readCov_cons_toLoadRect, harg1.read_unread, harg4.read_unread, harg5.read_unread,
      View.ld_unit_zero (S := S4000x256) hz2, View.ld_unit_zero (S := S1x256) hz2]
  · iexists _; isplitr; swap; · iexact H5
    ipureintro
    sl_unfold_words
    rw [read_writes_cons_whole (S := S1x256) _ _ hz2]
    simp only [View.readAt_eq_ld, read_writes_cons_whole (S := S1x256) _ _ hz2, View.readCov_cons_toLoadRect, harg1.read_unread, harg4.read_unread, harg5.read_unread,
      View.ld_unit_zero (S := S4000x256) hz2, View.ld_unit_zero (S := S1x256) hz2]

end Cert.KernelIdeal.Hand

end
-- ==== Proof.KIReg9c.lean ====
/-
  Region 9, a block that is neither the first nor the last: the block's column sums are added to the accumulators.
-/
import proofs.«161825_j7842610283390_1_alg».proof.Proof.KIReg9a

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At a middle point (neither conditional taken), on whole memrefs — the input block at `x0`, the two outputs at
    anything, handed back untouched, the accumulators at `s1`, `s2` —, the body runs and leaves the accumulators at
    `s1` plus the block's column sums and `s2` plus its column sums of squares. -/
theorem run9_mid (c : Dev nD) (i : grid9.Coords)
    (arg1 : Memref sig .tc .vmem S4000x256 .f32) (harg1 : arg1.IsWhole)
    (arg2 : Memref sig .tc .vmem S1x256 .f32) (harg2 : arg2.IsWhole)
    (arg3 : Memref sig .tc .vmem S1x256 .f32) (harg3 : arg3.IsWhole)
    (arg4 : Memref sig .tc .vmem S1x256 .f32) (harg4 : arg4.IsWhole)
    (arg5 : Memref sig .tc .vmem S1x256 .f32) (harg5 : arg5.IsWhole)
    (hc0 : ¬condFirst i) (hc1 : ¬condLast i)
    (x0 : Vec F S4000x256 .f32) (xi2 xi3 s1 s2 : Vec F S1x256 .f32) (E : Set ℕ) (K : PUnit → sProp 𝕄) :
    iprop(owns (c : Thread nD τ) arg1 fullShare x0 ∗ owns (c : Thread nD τ) arg2 fullShare xi2 ∗ owns (c : Thread nD τ) arg3 fullShare xi3
        ∗ owns (c : Thread nD τ) arg4 fullShare s1 ∗ owns (c : Thread nD τ) arg5 fullShare s2
        ∗ (iprop(owns (c : Thread nD τ) arg1 fullShare x0 ∗ owns (c : Thread nD τ) arg2 fullShare xi2 ∗ owns (c : Thread nD τ) arg3 fullShare xi3
            ∗ owns (c : Thread nD τ) arg4 fullShare (k9_pay4 x0 s1) ∗ owns (c : Thread nD τ) arg5 fullShare (k9_pay5 x0 s2)) -∗ K ⟨⟩))
      ⊢ wp frame (wpE (defs₀ (F := F)) Variants.none c none) E (cc9__bn_stats_kernel i arg1 harg1 arg2 harg2 arg3 harg3 arg4 harg4 arg5 harg5) K := by
  simp only [cc9__bn_stats_kernel_eq_skeleton]; unfold cc9__bn_stats_kernel_skel
  unfold owns
  iintro ⟨⟨%f0, %hf0, H0⟩, ⟨%f2, %hf2, H2⟩, ⟨%f3, %hf3, H3⟩, ⟨%f4, %hf4, H4⟩, ⟨%f5, %hf5, H5⟩, Hk⟩
  obtain rfl := harg1.eq_unread hf0; obtain rfl := harg2.eq_unread hf2; obtain rfl := harg3.eq_unread hf3
  obtain rfl := harg4.eq_unread hf4; obtain rfl := harg5.eq_unread hf5
  sl_exec (disch := first | exact hc0 | exact hc1)
  sl_step
  iapply Hk
  isplitl [H0]
  · iexists _; isplitr; · ipureintro; exact harg1.read_unread _
    iexact H0
  isplitl [H2]
  · iexists _; isplitr; · ipureintro; exact harg2.read_unread _
    iexact H2
  isplitl [H3]
  · iexists _; isplitr; · ipureintro; exact harg3.read_unread _
    iexact H3
  isplitl [H4]
  · iexists _; isplitr; swap; · iexact H4
    ipureintro
    sl_unfold_words
    rw [read_writes_cons_whole (S := S1x256) _ _ hz2]
    simp only [View.readAt_eq_ld, read_writes_cons_whole (S := S1x256) _ _ hz2, View.readCov_cons_toLoadRect, harg1.read_unread, harg4.read_unread, harg5.read_unread,
      View.ld_unit_zero (S := S4000x256) hz2, View.ld_unit_zero (S := S1x256) hz2]
  · iexists _; isplitr; swap; · iexact H5
    ipureintro
    sl_unfold_words
    rw [read_writes_cons_whole (S := S1x256) _ _ hz2]
    simp only [View.readAt_eq_ld, read_writes_cons_whole (S := S1x256) _ _ hz2, View.readCov_cons_toLoadRect, harg1.read_unread, harg4.read_unread, harg5.read_unread,
      View.ld_unit_zero (S := S4000x256) hz2, View.ld_unit_zero (S := S1x256) hz2]

end Cert.KernelIdeal.Hand

end
-- ==== Proof.KIReg9d.lean ====
/-
  Region 9, the last block: the block's column sums are added to the accumulators, and the accumulators are copied to
  the two outputs.
-/
import proofs.«161825_j7842610283390_1_alg».proof.Proof.KIReg9a

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At the last point (the first conditional not taken, the second taken), on whole memrefs — the input block at `x0`,
    the two outputs at anything, the accumulators at `s1`, `s2` —, the body runs and leaves the accumulators, and the
    outputs, at `s1` plus the block's column sums and `s2` plus its column sums of squares. -/
theorem run9_last (c : Dev nD) (i : grid9.Coords)
    (arg1 : Memref sig .tc .vmem S4000x256 .f32) (harg1 : arg1.IsWhole)
    (arg2 : Memref sig .tc .vmem S1x256 .f32) (harg2 : arg2.IsWhole)
    (arg3 : Memref sig .tc .vmem S1x256 .f32) (harg3 : arg3.IsWhole)
    (arg4 : Memref sig .tc .vmem S1x256 .f32) (harg4 : arg4.IsWhole)
    (arg5 : Memref sig .tc .vmem S1x256 .f32) (harg5 : arg5.IsWhole)
    (hc0 : ¬condFirst i) (hc1 : condLast i)
    (x0 : Vec F S4000x256 .f32) (s1 s2 : Vec F S1x256 .f32) (E : Set ℕ) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare s1 ∗ owns (c : Thread nD τ) arg5 fullShare s2
        ∗ (iprop(owns (c : Thread nD τ) arg1 fullShare x0 ∗ owns (c : Thread nD τ) arg2 fullShare (k9_pay4 x0 s1) ∗ owns (c : Thread nD τ) arg3 fullShare (k9_pay5 x0 s2)
            ∗ owns (c : Thread nD τ) arg4 fullShare (k9_pay4 x0 s1) ∗ owns (c : Thread nD τ) arg5 fullShare (k9_pay5 x0 s2)) -∗ K ⟨⟩))
      ⊢ wp frame (wpE (defs₀ (F := F)) Variants.none c none) E (cc9__bn_stats_kernel i arg1 harg1 arg2 harg2 arg3 harg3 arg4 harg4 arg5 harg5) K := by
  simp only [cc9__bn_stats_kernel_eq_skeleton]; unfold cc9__bn_stats_kernel_skel
  unfold owns
  iintro ⟨⟨%f0, %hf0, H0⟩, ⟨%d2, %f2, -, H2⟩, ⟨%d3, %f3, -, H3⟩, ⟨%f4, %hf4, H4⟩, ⟨%f5, %hf5, H5⟩, Hk⟩
  obtain rfl := harg1.eq_unread hf0
  obtain rfl := harg4.eq_unread hf4; obtain rfl := harg5.eq_unread hf5
  sl_exec (disch := first | exact hc0 | exact hc1)
  sl_step
  iapply Hk
  isplitl [H0]
  · iexists _; isplitr; · ipureintro; exact harg1.read_unread _
    iexact H0
  isplitl [H2]
  · iexists _; isplitr; swap; · iexact H2
    ipureintro
    sl_unfold_words
    rw [read_writes_cons_whole (S := S1x256) _ _ hz2]
    simp only [View.readAt_eq_ld, read_writes_cons_whole (S := S1x256) _ _ hz2, View.readCov_cons_toLoadRect, harg1.read_unread, harg4.read_unread, harg5.read_unread,
      View.ld_unit_zero (S := S4000x256) hz2, View.ld_unit_zero (S := S1x256) hz2]
  isplitl [H3]
  · iexists _; isplitr; swap; · iexact H3
    ipureintro
    sl_unfold_words
    rw [read_writes_cons_whole (S := S1x256) _ _ hz2]
    simp only [View.readAt_eq_ld, read_writes_cons_whole (S := S1x256) _ _ hz2, View.readCov_cons_toLoadRect, harg1.read_unread, harg4.read_unread, harg5.read_unread,
      View.ld_unit_zero (S := S4000x256) hz2, View.ld_unit_zero (S := S1x256) hz2]
  isplitl [H4]
  · iexists _; isplitr; swap; · iexact H4
    ipureintro
    sl_unfold_words
    rw [read_writes_cons_whole (S := S1x256) _ _ hz2]
    simp only [View.readAt_eq_ld, read_writes_cons_whole (S := S1x256) _ _ hz2, View.readCov_cons_toLoadRect, harg1.read_unread, harg4.read_unread, harg5.read_unread,
      View.ld_unit_zero (S := S4000x256) hz2, View.ld_unit_zero (S := S1x256) hz2]
  · iexists _; isplitr; swap; · iexact H5
    ipureintro
    sl_unfold_words
    rw [read_writes_cons_whole (S := S1x256) _ _ hz2]
    simp only [View.readAt_eq_ld, read_writes_cons_whole (S := S1x256) _ _ hz2, View.readCov_cons_toLoadRect, harg1.read_unread, harg4.read_unread, harg5.read_unread,
      View.ld_unit_zero (S := S4000x256) hz2, View.ld_unit_zero (S := S1x256) hz2]

end Cert.KernelIdeal.Hand

end
-- ==== Proof.KIReg9.lean ====
/-
  Region 9 of the kernel program (the batch-norm statistics kernel), as one pipeline region.

  The region walks the 25 row blocks (4000 rows each) of a [100000,256] array.  Two [1,256] accumulators live in
  scratch memory across the grid points: at the first point they are zeroed; at every point the block's column sums
  are added to the first and the column sums of the squared entries to the second; at the last point both are copied
  into the two [1,256] outputs, whose one block is written back once, after the last point.

  `acc9` is the pair of accumulators after each point, by recursion on the point over the body's two store payloads.
  The region invariant `Phi9` carries the accumulators at `acc9` of the point before (before the first point: at
  anything).  The proof data `dat9` names, per window, what the body leaves in the staging buffer; the body obligation
  is proved from the three control cases' runs; the invariant at entry and exit is the plain region invariant with
  the accumulators' contents forgotten.
-/
import proofs.«161825_j7842610283390_1_alg».proof.Proof.KIReg9b
import proofs.«161825_j7842610283390_1_alg».proof.Proof.KIReg9c
import proofs.«161825_j7842610283390_1_alg».proof.Proof.KIReg9d

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The memrefs the body is called on -/

/-- Each window's current staging memref at point `t`, as the pipeline passes it to the body, and its wholeness. -/
abbrev ms9_0 (t : Fin cfg9.N) : Memref sig .tc .vmem S4000x256 .f32 := win9_0.stage (cfg9.slots t 0)
abbrev hs9_0 (t : Fin cfg9.N) : (ms9_0 t).IsWhole := hstage9_0 ((cfg9.slots t 0).cast nbuf9_0)
abbrev ms9_1 (t : Fin cfg9.N) : Memref sig .tc .vmem S1x256 .f32 := win9_1.stage (cfg9.slots t 1)
abbrev hs9_1 (t : Fin cfg9.N) : (ms9_1 t).IsWhole := hstage9_1 ((cfg9.slots t 1).cast nbuf9_1)
abbrev ms9_2 (t : Fin cfg9.N) : Memref sig .tc .vmem S1x256 .f32 := win9_2.stage (cfg9.slots t 2)
abbrev hs9_2 (t : Fin cfg9.N) : (ms9_2 t).IsWhole := hstage9_2 ((cfg9.slots t 2).cast nbuf9_2)
/-- The two accumulators: whole scoped buffers of the kernel's own. -/
abbrev scM9_0 : Memref sig .tc .vmem S1x256 .f32 := Memref.whole cc9_scratch0
abbrev scM9_1 : Memref sig .tc .vmem S1x256 .f32 := Memref.whole cc9_scratch1

/-! ## The blocks and the accumulators -/

/-- The input window's block at point `t`: rows `4000 t … 4000 t + 3999` of the array as the region finds it. -/
def iblk9 (c : Dev nD) (t : Fin cfg9.N) : ((cfg9.win 0).xblock (cfg9.grid.coords t)).Idx → Elt F (cfg9.win 0).elt :=
  ((cfg9.win 0).blk t).view.read (Elt F) (V c (Pipeline.arrRef spec9 0))

/-- The two accumulators after the body at point `n`: after the first point the first block's column sums (of the
    entries, of their squares) over the zero row; after a later point the block's column sums over what the point before
    left. -/
def acc9 (c : Dev nD) : (n : ℕ) → n < cfg9.N → Vec F S1x256 .f32 × Vec F S1x256 .f32
  | 0, hn => (k9_pay4 (iblk9 V c ⟨0, hn⟩) (k9_pay1 (F := F)), k9_pay5 (iblk9 V c ⟨0, hn⟩) (k9_pay2 (F := F)))
  | n + 1, hn => (k9_pay4 (iblk9 V c ⟨n + 1, hn⟩) (acc9 c n (Nat.lt_of_succ_lt hn)).1,
      k9_pay5 (iblk9 V c ⟨n + 1, hn⟩) (acc9 c n (Nat.lt_of_succ_lt hn)).2)

theorem acc9_zero (c : Dev nD) (t : Fin cfg9.N) (h : t.val = 0) :
    acc9 V c t.val t.isLt = (k9_pay4 (iblk9 V c t) (k9_pay1 (F := F)), k9_pay5 (iblk9 V c t) (k9_pay2 (F := F))) := by
  obtain ⟨n, hn⟩ := t
  cases n with
  | zero => rfl
  | succ n => exact absurd h (Nat.succ_ne_zero n)

theorem acc9_pos (c : Dev nD) (t : Fin cfg9.N) (h : t.val ≠ 0) :
    acc9 V c t.val t.isLt = (k9_pay4 (iblk9 V c t) (acc9 V c (t.val - 1) (Nat.lt_of_le_of_lt (Nat.sub_le _ _) t.isLt)).1,
      k9_pay5 (iblk9 V c t) (acc9 V c (t.val - 1) (Nat.lt_of_le_of_lt (Nat.sub_le _ _) t.isLt)).2) := by
  obtain ⟨n, hn⟩ := t
  cases n with
  | zero => exact absurd rfl h
  | succ n => rfl

/-! ## The region invariant -/

/-- The plain region invariant with the two accumulators as memrefs owned at some contents, the other scoped buffers
    unopened, and the generator register at some state. -/
theorem PhiA9_eq (c : Dev nD) :
    (Pipeline.ΦA spec9 c : sProp 𝕄)
      = iprop(iprop(iprop((∃ d, owns (c : Thread nD τ) scM9_0 fullShare d) ∗ (∃ d, owns (c : Thread nD τ) scM9_1 fullShare d))
          ∗ Pipeline.scopedRestBut (Ix := Unit) (Name := ℕ) (U := UR sig nD τ) (Lvl := ℕ) (Val := Elt F) spec9 c [cc9_scratch0, cc9_scratch1]) ∗ (∃ r, prngReg c r)) := by
  unfold Pipeline.ΦA; rw [scopedRest9_split]; simp only [owns_whole]; try rfl

/-- The region invariant before position `n`: before the first point the plain one (the accumulators at anything);
    afterwards the accumulators at what the point before left (`acc9`), the other scoped buffers unopened, the generator
    register at some state. -/
def Phi9 (c : Dev nD) : (n : ℕ) → n ≤ cfg9.N → sProp 𝕄
  | 0, _ => Pipeline.ΦA spec9 c
  | n + 1, hn => iprop(iprop(iprop(owns (c : Thread nD τ) scM9_0 fullShare (acc9 V c n hn).1 ∗ owns (c : Thread nD τ) scM9_1 fullShare (acc9 V c n hn).2)
      ∗ Pipeline.scopedRestBut (Ix := Unit) (Name := ℕ) (U := UR sig nD τ) (Lvl := ℕ) (Val := Elt F) spec9 c [cc9_scratch0, cc9_scratch1]) ∗ (∃ r, prngReg c r))

theorem Phi9_zero (c : Dev nD) (n : ℕ) (h : n ≤ cfg9.N) (hz : n = 0) : Phi9 V c n h = Pipeline.ΦA spec9 c := by
  subst hz; rfl

theorem Phi9_succ (c : Dev nD) (n : ℕ) (hn : n < cfg9.N) :
    Phi9 V c (n + 1) hn = iprop(iprop(iprop(owns (c : Thread nD τ) scM9_0 fullShare (acc9 V c n hn).1 ∗ owns (c : Thread nD τ) scM9_1 fullShare (acc9 V c n hn).2)
      ∗ Pipeline.scopedRestBut (Ix := Unit) (Name := ℕ) (U := UR sig nD τ) (Lvl := ℕ) (Val := Elt F) spec9 c [cc9_scratch0, cc9_scratch1]) ∗ (∃ r, prngReg c r)) := rfl

theorem Phi9_pos (c : Dev nD) (n : ℕ) (h : n ≤ cfg9.N) (hz : n ≠ 0) :
    Phi9 V c n h = iprop(iprop(iprop(owns (c : Thread nD τ) scM9_0 fullShare (acc9 V c (n - 1) (by omega)).1 ∗ owns (c : Thread nD τ) scM9_1 fullShare (acc9 V c (n - 1) (by omega)).2)
      ∗ Pipeline.scopedRestBut (Ix := Unit) (Name := ℕ) (U := UR sig nD τ) (Lvl := ℕ) (Val := Elt F) spec9 c [cc9_scratch0, cc9_scratch1]) ∗ (∃ r, prngReg c r)) := by
  cases n with
  | zero => exact absurd rfl hz
  | succ n => rfl

/-! ## The proof data -/

/-- The proof data of region 9 on core `c`: the arrays as the region finds them (`V`); after the body at point `t` the
    input's buffer at its block, the outputs' at the accumulators after that point (consulted at the last point only:
    before it the outputs are idle); the invariant `Phi9`; nothing owed; full shares. -/
def dat9 (c : Dev nD) : Dat τ (Elt F) Unit ℕ (UR sig nD τ) ℕ cfg9 c where
  A w := V c (Pipeline.arrRef spec9 w)
  after w t := match w with
    | ⟨0, _⟩ => iblk9 V c t
    | ⟨1, _⟩ => (acc9 V c t.val t.isLt).1
    | ⟨2, _⟩ => (acc9 V c t.val t.isLt).2
  Φ t := Phi9 V c t.val (Nat.le_of_lt_succ t.isLt)
  q _ := fullShare
  owed _ := 0

/-- The proof data's arrays are the region-entry contents. -/
theorem A_eq9 (c : Dev nD) (w : Fin cfg9.W) : (dat9 V c).A w = V c (Pipeline.arrRef spec9 w) := by
  dsimp only [dat9]

theorem Phi9_castSucc (c : Dev nD) (t : Fin cfg9.N) :
    (dat9 V c).Φ t.castSucc = Phi9 V c t.val (Nat.le_of_lt t.isLt) := by
  dsimp only [dat9]; simp only [Fin.coe_castSucc]

theorem after9_0 (c : Dev nD) (t : Fin cfg9.N) : (dat9 V c).after 0 t = iblk9 V c t := by dsimp only [dat9]
theorem after9_1 (c : Dev nD) (t : Fin cfg9.N) : (dat9 V c).after 1 t = (acc9 V c t.val t.isLt).1 := by dsimp only [dat9]
theorem after9_2 (c : Dev nD) (t : Fin cfg9.N) : (dat9 V c).after 2 t = (acc9 V c t.val t.isLt).2 := by dsimp only [dat9]

/-- The input's current staging buffer holds its block at every point. -/
theorem before9_0 (c : Dev nD) (t : Fin cfg9.N) (d) : (dat9 V c).before 0 t d = iblk9 V c t :=
  ((dat9 V c).before_in_eq_fetched 0 rfl (fun _ => rfl) (fun _ _ _ => rfl)
      (fun t => by rw [after9_0]; unfold Dat.blockOf iblk9; rw [A_eq9]; try rfl) t d).trans
    (by unfold Dat.fetched Dat.blockOf iblk9; rw [A_eq9]; try rfl)

/-! ## The body obligation -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (ms9_0 t) fullShare ((dat9 V c).before 0 t d))
    ∗ (∃ d, owns (c : Thread nD τ) (ms9_1 t) fullShare ((dat9 V c).before 1 t d))
    ∗ (∃ d, owns (c : Thread nD τ) (ms9_2 t) fullShare ((dat9 V c).before 2 t d)))

/-- and what it returns. -/
def bodyPost9 (c : Dev nD) (t : Fin cfg9.N) : sProp 𝕄 :=
  iprop((dat9 V c).Φ t.succ ∗ (dat9 V c).owesAt () t.succ
    ∗ (dat9 V c).leavesExact 0 t
    ∗ (dat9 V c).leavesExact 1 t
    ∗ (dat9 V c).leavesExact 2 t)

set_option maxHeartbeats 4000000 in
/-- The body at any point.  The input's memref holds its block; the point is the first, a middle one or the last; the
    invariant hands the body the accumulators (at anything at the first point, else at what the point before left) and
    takes them back at this point's contents; before the last point the outputs' buffers go through untouched, at the
    last point they receive the accumulators; the core owes nothing throughout. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0]
  rw [show (dat9 V c).owesAt () t.succ = (dat9 V c).owesAt () t.castSucc from rfl]
  rw [show (dat9 V c).Φ t.succ = Phi9 V c (t.val + 1) t.isLt from rfl, Phi9_succ]
  have hN : t.val < 25 := lt_of_lt_of_eq t.isLt (show cfg9.N = 25 from N_9)
  rw [show (dat9 V c).leavesExact 0 t = owns (c : Thread nD τ) (ms9_0 t) fullShare ((dat9 V c).after 0 t) from by
    unfold Dat.leavesExact; rw [live9_0 t], after9_0]
  by_cases hz : t.val = 0
  · have hc0 : condFirst (grid9.coords t) := (hcondFirst t).mpr hz
    have hc1 : ¬condLast (grid9.coords t) := fun h => by have := (hcondLast t).mp h; omega
    rw [Dat.leavesExact_idle (dat9 V c) 1 t (idle9_1 t hc1) (noFlush9_1 t hc1),
      Dat.leavesExact_idle (dat9 V c) 2 t (idle9_2 t hc1) (noFlush9_2 t hc1)]
    rw [acc9_zero V c t hz]; dsimp only
    rw [Phi9_castSucc V c t, Phi9_zero V c _ _ hz, PhiA9_eq]
    iintro ⟨⟨⟨⟨HS0, HS1⟩, Hrest⟩, Hg⟩, Ho, ⟨%d0, H0⟩, ⟨%d1, H1⟩, ⟨%d2, H2⟩⟩
    iapply (run9_first c (grid9.coords t) (ms9_0 t) (hs9_0 t) (ms9_1 t) (hs9_1 t) (ms9_2 t) (hs9_2 t) scM9_0 (Memref.isWhole_whole _) scM9_1 (Memref.isWhole_whole _) hc0 hc1 (iblk9 V c t)
      ((dat9 V c).before 1 t d1) ((dat9 V c).before 2 t d2) Set.univ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexists _; iexact H1
    iexists _; iexact H2
  · have hc0 : ¬condFirst (grid9.coords t) := fun h => hz ((hcondFirst t).mp h)
    rw [acc9_pos V c t hz]; dsimp only
    rw [Phi9_castSucc V c t, Phi9_pos V c _ _ hz]
    by_cases hl : t.val = 24
    · have hc1 : condLast (grid9.coords t) := (hcondLast t).mpr hl
      rw [show (dat9 V c).leavesExact 1 t = owns (c : Thread nD τ) (ms9_1 t) fullShare ((dat9 V c).after 1 t) from by
        unfold Dat.leavesExact; rw [live9_1 t hc1], after9_1]
      rw [show (dat9 V c).leavesExact 2 t = owns (c : Thread nD τ) (ms9_2 t) fullShare ((dat9 V c).after 2 t) from by
        unfold Dat.leavesExact; rw [live9_2 t hc1], after9_2]
      rw [acc9_pos V c t hz]; dsimp only
      iintro ⟨⟨⟨⟨HS0, HS1⟩, Hrest⟩, Hg⟩, Ho, ⟨%d0, H0⟩, ⟨%d1, H1⟩, ⟨%d2, H2⟩⟩
      iapply (run9_last c (grid9.coords t) (ms9_0 t) (hs9_0 t) (ms9_1 t) (hs9_1 t) (ms9_2 t) (hs9_2 t) scM9_0 (Memref.isWhole_whole _) scM9_1 (Memref.isWhole_whole _) hc0 hc1 (iblk9 V c t)
        (acc9 V c (t.val - 1) (Nat.lt_of_le_of_lt (Nat.sub_le _ _) t.isLt)).1 (acc9 V c (t.val - 1) (Nat.lt_of_le_of_lt (Nat.sub_le _ _) t.isLt)).2 Set.univ _)
      isplitl [H0]; · iexact H0
      isplitl [H1]; · iexists _; iexact H1
      isplitl [H2]; · iexists _; iexact H2
      isplitl [HS0]; · iexact HS0
      isplitl [HS1]; · iexact HS1
      iintro ⟨H0, H1, H2, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      iexact H2
    · have hc1 : ¬condLast (grid9.coords t) := fun h => hl ((hcondLast t).mp h)
      rw [Dat.leavesExact_idle (dat9 V c) 1 t (idle9_1 t hc1) (noFlush9_1 t hc1),
        Dat.leavesExact_idle (dat9 V c) 2 t (idle9_2 t hc1) (noFlush9_2 t hc1)]
      iintro ⟨⟨⟨⟨HS0, HS1⟩, Hrest⟩, Hg⟩, Ho, ⟨%d0, H0⟩, ⟨%d1, H1⟩, ⟨%d2, H2⟩⟩
      iapply (run9_mid c (grid9.coords t) (ms9_0 t) (hs9_0 t) (ms9_1 t) (hs9_1 t) (ms9_2 t) (hs9_2 t) scM9_0 (Memref.isWhole_whole _) scM9_1 (Memref.isWhole_whole _) hc0 hc1 (iblk9 V c t)
        ((dat9 V c).before 1 t d1) ((dat9 V c).before 2 t d2) (acc9 V c (t.val - 1) (Nat.lt_of_le_of_lt (Nat.sub_le _ _) t.isLt)).1 (acc9 V c (t.val - 1) (Nat.lt_of_le_of_lt (Nat.sub_le _ _) t.isLt)).2 Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexists _; iexact H1
      iexists _; iexact H2

/-- The library's body obligation, at every point. -/
theorem body_obligation9 (c : Dev nD) : BodyObligation (dat9 (F := F) V c) (defs₀ (F := F)) Variants.none () Set.univ := fun t => by
  rw [bigSep_W9, bigSep_W9]
  exact sound_body9 V c t

/-! ## The invariant at entry and exit -/

/-- Before the first point the invariant is the plain region invariant. -/
theorem Phi9_first (c : Dev nD) : (dat9 V c).Φ 0 = Pipeline.ΦA spec9 c := rfl

/-- What the launch hands the region is the invariant before the first point. -/
theorem hin9 (c : Dev nD) : Pipeline.ΦA spec9 c ⊢ (dat9 V c).Φ 0 := by
  rw [Phi9_first]
  try exact Idealize.SL.BI.Entails.refl _

/-- After the last point the invariant gives the plain region invariant back: the accumulators' contents are forgotten. -/
theorem hout9 (c : Dev nD) : (dat9 V c).Φ (Fin.last cfg9.N) ⊢ Pipeline.ΦA spec9 c := by
  rw [show (dat9 V c).Φ (Fin.last cfg9.N) = Phi9 V c (Fin.last cfg9.N).val (Nat.le_of_lt_succ (Fin.last cfg9.N).isLt) from rfl,
    Phi9_pos V c _ _ (by rw [Fin.val_last]; have : cfg9.N = 25 := N_9; omega), PhiA9_eq]
  iintro ⟨⟨⟨HS0, HS1⟩, Hrest⟩, Hg⟩
  isplitl [HS0 HS1 Hrest]
  · isplitl [HS0 HS1]
    · isplitl [HS0]; · iexists _; iexact HS0
      iexists _; iexact HS1
    iexact Hrest
  iexact Hg

end Cert.KernelIdeal.Hand

end
-- ==== Proof.KIReg10.lean ====
/-
  Region 10 of @main, the normalisation and output projection: on each block of 4000 nodes, ((xc − mean)·rsqrt(var + eps)·gamma + beta)·W_out + b_out. Here: what the body leaves in its buffers, its run, and the pipeline's proof data with the body obligation at every grid point.
-/
import proofs.«161825_j7842610283390_1_alg».proof.Proof.Gen.KernelIdeal.Launch
import proofs.«161825_j7842610283390_1_alg».proof.Proof.Gen.KernelIdeal.Skeleton
import proofs.«161825_j7842610283390_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` that grid point `t` works on, read off the window's array as the region finds it. -/
def blk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- An input window's staging buffer holds its block at every point, whether the point fetched it or an earlier one
    did and the block index has not moved since. -/
theorem held10_0_of {c : Dev nD} (dat : Dat τ (Elt F) Unit ℕ (UR sig nD τ) ℕ cfg10 c) (hA : dat.A 0 = V c (Pipeline.arrRef spec10 0))
    (hafter : ∀ t, dat.after 0 t = blk10 V c 0 t) (t : Fin cfg10.N) (d) : dat.before 0 t d = blk10 V c 0 t :=
  (dat.before_in_eq_fetched 0 rfl (fun _ => rfl) (fun _ _ _ => rfl) (fun t => by rw [hafter]; unfold Dat.blockOf blk10; rw [hA]; try rfl) t d).trans
    (by unfold Dat.fetched Dat.blockOf blk10; rw [hA]; try rfl)

/-- An input window's staging buffer holds its block at every point, whether the point fetched it or an earlier one
    did and the block index has not moved since. -/
theorem held10_1_of {c : Dev nD} (dat : Dat τ (Elt F) Unit ℕ (UR sig nD τ) ℕ cfg10 c) (hA : dat.A 1 = V c (Pipeline.arrRef spec10 1))
    (hafter : ∀ t, dat.after 1 t = blk10 V c 1 t) (t : Fin cfg10.N) (d) : dat.before 1 t d = blk10 V c 1 t :=
  (dat.before_in_eq_fetched 1 rfl (fun _ => rfl) (fun _ _ _ => rfl) (fun t => by rw [hafter]; unfold Dat.blockOf blk10; rw [hA]; try rfl) t d).trans
    (by unfold Dat.fetched Dat.blockOf blk10; rw [hA]; try rfl)

/-- An input window's staging buffer holds its block at every point, whether the point fetched it or an earlier one
    did and the block index has not moved since. -/
theorem held10_2_of {c : Dev nD} (dat : Dat τ (Elt F) Unit ℕ (UR sig nD τ) ℕ cfg10 c) (hA : dat.A 2 = V c (Pipeline.arrRef spec10 2))
    (hafter : ∀ t, dat.after 2 t = blk10 V c 2 t) (t : Fin cfg10.N) (d) : dat.before 2 t d = blk10 V c 2 t :=
  (dat.before_in_eq_fetched 2 rfl (fun _ => rfl) (fun _ _ _ => rfl) (fun t => by rw [hafter]; unfold Dat.blockOf blk10; rw [hA]; try rfl) t d).trans
    (by unfold Dat.fetched Dat.blockOf blk10; rw [hA]; try rfl)

/-- An input window's staging buffer holds its block at every point, whether the point fetched it or an earlier one
    did and the block index has not moved since. -/
theorem held10_3_of {c : Dev nD} (dat : Dat τ (Elt F) Unit ℕ (UR sig nD τ) ℕ cfg10 c) (hA : dat.A 3 = V c (Pipeline.arrRef spec10 3))
    (hafter : ∀ t, dat.after 3 t = blk10 V c 3 t) (t : Fin cfg10.N) (d) : dat.before 3 t d = blk10 V c 3 t :=
  (dat.before_in_eq_fetched 3 rfl (fun _ => rfl) (fun _ _ _ => rfl) (fun t => by rw [hafter]; unfold Dat.blockOf blk10; rw [hA]; try rfl) t d).trans
    (by unfold Dat.fetched Dat.blockOf blk10; rw [hA]; try rfl)

/-- An input window's staging buffer holds its block at every point, whether the point fetched it or an earlier one
    did and the block index has not moved since. -/
theorem held10_4_of {c : Dev nD} (dat : Dat τ (Elt F) Unit ℕ (UR sig nD τ) ℕ cfg10 c) (hA : dat.A 4 = V c (Pipeline.arrRef spec10 4))
    (hafter : ∀ t, dat.after 4 t = blk10 V c 4 t) (t : Fin cfg10.N) (d) : dat.before 4 t d = blk10 V c 4 t :=
  (dat.before_in_eq_fetched 4 rfl (fun _ => rfl) (fun _ _ _ => rfl) (fun t => by rw [hafter]; unfold Dat.blockOf blk10; rw [hA]; try rfl) t d).trans
    (by unfold Dat.fetched Dat.blockOf blk10; rw [hA]; try rfl)

/-- An input window's staging buffer holds its block at every point, whether the point fetched it or an earlier one
    did and the block index has not moved since. -/
theorem held10_5_of {c : Dev nD} (dat : Dat τ (Elt F) Unit ℕ (UR sig nD τ) ℕ cfg10 c) (hA : dat.A 5 = V c (Pipeline.arrRef spec10 5))
    (hafter : ∀ t, dat.after 5 t = blk10 V c 5 t) (t : Fin cfg10.N) (d) : dat.before 5 t d = blk10 V c 5 t :=
  (dat.before_in_eq_fetched 5 rfl (fun _ => rfl) (fun _ _ _ => rfl) (fun t => by rw [hafter]; unfold Dat.blockOf blk10; rw [hA]; try rfl) t d).trans
    (by unfold Dat.fetched Dat.blockOf blk10; rw [hA]; try rfl)

/-- An input window's staging buffer holds its block at every point, whether the point fetched it or an earlier one
    did and the block index has not moved since. -/
theorem held10_6_of {c : Dev nD} (dat : Dat τ (Elt F) Unit ℕ (UR sig nD τ) ℕ cfg10 c) (hA : dat.A 6 = V c (Pipeline.arrRef spec10 6))
    (hafter : ∀ t, dat.after 6 t = blk10 V c 6 t) (t : Fin cfg10.N) (d) : dat.before 6 t d = blk10 V c 6 t :=
  (dat.before_in_eq_fetched 6 rfl (fun _ => rfl) (fun _ _ _ => rfl) (fun t => by rw [hafter]; unfold Dat.blockOf blk10; rw [hA]; try rfl) t d).trans
    (by unfold Dat.fetched Dat.blockOf blk10; rw [hA]; try rfl)

/-- The whole rectangle of a `S4000x256` buffer: every load and store of the body is of this form. -/
abbrev whole10_S4000x256 : Rect S4000x256 := Rect.unit (s := S4000x256) ![0, 0] S4000x256.size inb_S4000x256_S4000x256_0_0

/-- The whole rectangle of a `S1x256` buffer: every load and store of the body is of this form. -/
abbrev whole10_S1x256 : Rect S1x256 := Rect.unit (s := S1x256) ![0, 0] S1x256.size inb_S1x256_S1x256_0_0

/-- The whole rectangle of a `S256x64` buffer: every load and store of the body is of this form. -/
abbrev whole10_S256x64 : Rect S256x64 := Rect.unit (s := S256x64) ![0, 0] S256x64.size inb_S256x64_S256x64_0_0

/-- The whole rectangle of a `S1x64` buffer: every load and store of the body is of this form. -/
abbrev whole10_S1x64 : Rect S1x64 := Rect.unit (s := S1x64) ![0, 0] S1x64.size inb_S1x64_S1x64_0_0

/-- The whole rectangle of a `S4000x64` buffer: every load and store of the body is of this form. -/
abbrev whole10_S4000x64 : Rect S4000x64 := Rect.unit (s := S4000x64) ![0, 0] S4000x64.size inb_S4000x64_S4000x64_0_0

/-- What the body leaves in output window 7's staging buffer, from the input blocks: its one whole-buffer store. -/
def res10_7 (x0 : Vec F S4000x256 .f32) (x1 : Vec F S1x256 .f32) (x2 : Vec F S1x256 .f32) (x3 : Vec F S1x256 .f32) (x4 : Vec F S1x256 .f32) (x5 : Vec F S256x64 .f32) (x6 : Vec F S1x64 .f32) : Vec F S4000x64 .f32 :=
  View.canon [⟨whole10_S4000x64, k10_pay1 (View.ld x0 whole10_S4000x256) (View.ld x1 whole10_S1x256) (View.ld x2 whole10_S1x256) (View.ld x3 whole10_S1x256) (View.ld x4 whole10_S1x256) (View.ld x5 whole10_S256x64) (View.ld x6 whole10_S1x64)⟩]

/-- That store covers the buffer. -/
theorem tiles10_7 (p0 : Vec F S4000x64 .f32) (y : S4000x64.Idx) :
    ∃ pc ∈ ([⟨whole10_S4000x64, p0⟩] : List (View.Piece (Elt F) S4000x64 .f32)), y ∈ pc.1.set :=
  View.cover_of_tiled [⟨whole10_S4000x64, p0⟩] S4000x64.size (by rfl) y

set_option maxHeartbeats 1000000 in
/-- The body on whole staging buffers — the inputs' holding `xW`, the outputs' holding anything — runs to the end,
    leaves the inputs' as they were and each output's at its one store's payload of the inputs. -/
theorem bodyRun10 (c : Dev nD) (E : Set ℕ) (i : grid10.Coords) (a0 : Memref sig .tc .vmem S4000x256 .f32) (ha0 : a0.IsWhole) (a1 : Memref sig .tc .vmem S1x256 .f32) (ha1 : a1.IsWhole) (a2 : Memref sig .tc .vmem S1x256 .f32) (ha2 : a2.IsWhole) (a3 : Memref sig .tc .vmem S1x256 .f32) (ha3 : a3.IsWhole) (a4 : Memref sig .tc .vmem S1x256 .f32) (ha4 : a4.IsWhole) (a5 : Memref sig .tc .vmem S256x64 .f32) (ha5 : a5.IsWhole) (a6 : Memref sig .tc .vmem S1x64 .f32) (ha6 : a6.IsWhole) (a7 : Memref sig .tc .vmem S4000x64 .f32) (ha7 : a7.IsWhole)
    (x0 : Vec F S4000x256 .f32) (x1 : Vec F S1x256 .f32) (x2 : Vec F S1x256 .f32) (x3 : Vec F S1x256 .f32) (x4 : Vec F S1x256 .f32) (x5 : Vec F S256x64 .f32) (x6 : Vec F S1x64 .f32) (Q : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ d, owns (c : Thread nD τ) a7 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare (res10_7 x0 x1 x2 x3 x4 x5 x6)) -∗ Q ⟨⟩))
      ⊢ wp frame (wpE (defs₀ (F := F)) Variants.none c none) E (cc10__bn_out_kernel i a0 ha0 a1 ha1 a2 ha2 a3 ha3 a4 ha4 a5 ha5 a6 ha6 a7 ha7) Q := by
  simp only [cc10__bn_out_kernel_eq_skeleton]; unfold cc10__bn_out_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0
  subst hf1
  subst hf2
  subst hf3
  subst hf4
  subst hf5
  subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (tiles10_7 _)

/-- The pipeline's proof data on core `c`: the arrays as the region finds them; after the body at point `t` each input
    buffer holds its block and each output buffer the body's result on the input blocks; the invariant is the plain one
    (the scoped rest and the generator register, untouched); nothing owed; full shares. -/
def dat10 (c : Dev nD) : Dat τ (Elt F) Unit ℕ (UR sig nD τ) ℕ cfg10 c where
  A w := V c (Pipeline.arrRef spec10 w)
  after w t := match w with
    | ⟨0, _⟩ => blk10 V c 0 t
    | ⟨1, _⟩ => blk10 V c 1 t
    | ⟨2, _⟩ => blk10 V c 2 t
    | ⟨3, _⟩ => blk10 V c 3 t
    | ⟨4, _⟩ => blk10 V c 4 t
    | ⟨5, _⟩ => blk10 V c 5 t
    | ⟨6, _⟩ => blk10 V c 6 t
    | ⟨7, _⟩ => res10_7 (blk10 V c 0 t) (blk10 V c 1 t) (blk10 V c 2 t) (blk10 V c 3 t) (blk10 V c 4 t) (blk10 V c 5 t) (blk10 V c 6 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = blk10 V c 0 t := by dsimp only [dat10]
theorem after10_1 (c : Dev nD) (t : Fin cfg10.N) : (dat10 V c).after 1 t = blk10 V c 1 t := by dsimp only [dat10]
theorem after10_2 (c : Dev nD) (t : Fin cfg10.N) : (dat10 V c).after 2 t = blk10 V c 2 t := by dsimp only [dat10]
theorem after10_3 (c : Dev nD) (t : Fin cfg10.N) : (dat10 V c).after 3 t = blk10 V c 3 t := by dsimp only [dat10]
theorem after10_4 (c : Dev nD) (t : Fin cfg10.N) : (dat10 V c).after 4 t = blk10 V c 4 t := by dsimp only [dat10]
theorem after10_5 (c : Dev nD) (t : Fin cfg10.N) : (dat10 V c).after 5 t = blk10 V c 5 t := by dsimp only [dat10]
theorem after10_6 (c : Dev nD) (t : Fin cfg10.N) : (dat10 V c).after 6 t = blk10 V c 6 t := by dsimp only [dat10]
theorem after10_7 (c : Dev nD) (t : Fin cfg10.N) : (dat10 V c).after 7 t = res10_7 (blk10 V c 0 t) (blk10 V c 1 t) (blk10 V c 2 t) (blk10 V c 3 t) (blk10 V c 4 t) (blk10 V c 5 t) (blk10 V c 6 t) := by dsimp only [dat10]

theorem held10_0 (c : Dev nD) (t : Fin cfg10.N) (d) : (dat10 V c).before 0 t d = blk10 V c 0 t :=
  held10_0_of V (dat10 V c) (A_eq10 V c 0) (after10_0 V c) t d
theorem held10_1 (c : Dev nD) (t : Fin cfg10.N) (d) : (dat10 V c).before 1 t d = blk10 V c 1 t :=
  held10_1_of V (dat10 V c) (A_eq10 V c 1) (after10_1 V c) t d
theorem held10_2 (c : Dev nD) (t : Fin cfg10.N) (d) : (dat10 V c).before 2 t d = blk10 V c 2 t :=
  held10_2_of V (dat10 V c) (A_eq10 V c 2) (after10_2 V c) t d
theorem held10_3 (c : Dev nD) (t : Fin cfg10.N) (d) : (dat10 V c).before 3 t d = blk10 V c 3 t :=
  held10_3_of V (dat10 V c) (A_eq10 V c 3) (after10_3 V c) t d
theorem held10_4 (c : Dev nD) (t : Fin cfg10.N) (d) : (dat10 V c).before 4 t d = blk10 V c 4 t :=
  held10_4_of V (dat10 V c) (A_eq10 V c 4) (after10_4 V c) t d
theorem held10_5 (c : Dev nD) (t : Fin cfg10.N) (d) : (dat10 V c).before 5 t d = blk10 V c 5 t :=
  held10_5_of V (dat10 V c) (A_eq10 V c 5) (after10_5 V c) t d
theorem held10_6 (c : Dev nD) (t : Fin cfg10.N) (d) : (dat10 V c).before 6 t d = blk10 V c 6 t :=
  held10_6_of V (dat10 V c) (A_eq10 V c 6) (after10_6 V c) t d

/-- What the body is called with at point `t`, window by window, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d))
    ∗ (∃ d, owns (c : Thread nD τ) (st10_6 t) fullShare ((dat10 V c).before 6 t d))
    ∗ (∃ d, owns (c : Thread nD τ) (st10_7 t) fullShare ((dat10 V c).before 7 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t)
    ∗ owns (c : Thread nD τ) (st10_6 t) fullShare ((dat10 V c).after 6 t)
    ∗ owns (c : Thread nD τ) (st10_7 t) fullShare ((dat10 V c).after 7 t))

/-- The body at any point: the inputs' buffers hold their blocks, so `bodyRun10` applies; the invariant and what the
    core owes pass through unread. -/
theorem bodyStep10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [held10_0, held10_1, held10_2, held10_3, held10_4, held10_5, held10_6]
  rw [show (dat10 V c).Φ t.succ = (dat10 V c).Φ t.castSucc from rfl,
    show (dat10 V c).owesAt () t.succ = (dat10 V c).owesAt () t.castSucc from rfl,
    after10_0, after10_1, after10_2, after10_3, after10_4, after10_5, after10_6, after10_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (bodyRun10 c Set.univ _ _ _ _ _ _ _ _ _ _ _ _ _ _ _ _ _ (blk10 V c 0 t) (blk10 V c 1 t) (blk10 V c 2 t) (blk10 V c 3 t) (blk10 V c 4 t) (blk10 V c 5 t) (blk10 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation10 (c : Dev nD) : BodyObligation (dat10 (F := F) V c) (defs₀ (F := F)) Variants.none () Set.univ := fun t => by
  rw [bigSep_W10, bigSep_W10]
  exact bodyStep10 V c t

end Cert.KernelIdeal.Hand

end
-- ==== Proof.KIRun.lean ====
/-
  The whole run of @main: 11 kernel regions among 11 stretches of host operations. The contents of every unscoped buffer at
  each boundary are a fold from the launch memory: a host stretch applies its operations, a region leaves its arrays at what
  its write-backs make of them and every other buffer as it was. Each region is a segment entered from one boundary's contents
  and left at the next; the run ends with every unscoped buffer at the last boundary's contents. The frame (the argument arrays
  end as launched) and the value of the result buffer are both read off that.
-/
import proofs.«161825_j7842610283390_1_alg».proof.Proof.KIReg0
import proofs.«161825_j7842610283390_1_alg».proof.Proof.KIReg1
import proofs.«161825_j7842610283390_1_alg».proof.Proof.KIReg2
import proofs.«161825_j7842610283390_1_alg».proof.Proof.KIReg3
import proofs.«161825_j7842610283390_1_alg».proof.Proof.KIReg4
import proofs.«161825_j7842610283390_1_alg».proof.Proof.KIReg5
import proofs.«161825_j7842610283390_1_alg».proof.Proof.KIReg6
import proofs.«161825_j7842610283390_1_alg».proof.Proof.KIReg7
import proofs.«161825_j7842610283390_1_alg».proof.Proof.KIReg8
import proofs.«161825_j7842610283390_1_alg».proof.Proof.KIReg9
import proofs.«161825_j7842610283390_1_alg».proof.Proof.KIReg10
import proofs.«161825_j7842610283390_1_alg».proof.Proof.Gen.KernelIdeal.Regions
import Idealize.ShloMosaic.Lib.Pipeline.Frame
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- The buffers of a core at launch. -/
abbrev W0 : Dev nD → Valuation τ sig (Elt F) := fun c b => m (c, b)
/-- After host stretch 0: the entry of region 0. -/
abbrev W1 : Dev nD → Valuation τ sig (Elt F) := fun c => StableHlo.after hostOps0 (W0 m c)
/-- The same read at the references of the TensorCore. -/
abbrev VW1 : (c : Dev nD) → (b : Ref sig .tc) → Buf (Elt F) ((c : Thread nD τ).loc b) := fun c b => W1 m c b
/-- At the exit of region 0: its arrays at what the pipeline leaves, every other buffer as entered. -/
def W2 (c : Dev nD) : Valuation τ sig (Elt F) :=
  Pipeline.withArrays spec0 c (W1 m c) fun w => (dat0 (VW1 m) c).arrAt w cfg0.N
theorem W2_arr (c : Dev nD) (w : Fin cfg0.W) :
    W2 m c (Proc.devRef .tc (Pipeline.arrRef spec0 w)) = (dat0 (VW1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev VW2 : (c : Dev nD) → (b : Ref sig .tc) → Buf (Elt F) ((c : Thread nD τ).loc b) := fun c b => W2 m c b
theorem arrs0 (c : Dev nD) (w : Fin cfg0.W) : (dat0 (VW1 m) c).arrAt w cfg0.N = VW2 m c (Pipeline.arrRef spec0 w) :=
  (W2_arr m c w).symm
theorem others0 (c : Dev nD) : ∀ b, b ∉ Finset.univ.image (Pipeline.arrRef spec0) → VW2 m c b = VW1 m c b :=
  fun b hb => W2_of_ne m c b fun w e => hb (Finset.mem_image.mpr ⟨w, Finset.mem_univ _, e⟩)

/-- After host stretch 1: the entry of region 1. -/
abbrev W3 : Dev nD → Valuation τ sig (Elt F) := fun c => StableHlo.after hostOps1 (W2 m c)
/-- The same read at the references of the TensorCore. -/
abbrev VW3 : (c : Dev nD) → (b : Ref sig .tc) → Buf (Elt F) ((c : Thread nD τ).loc b) := fun c b => W3 m c b
/-- At the exit of region 1: its arrays at what the pipeline leaves, every other buffer as entered. -/
def W4 (c : Dev nD) : Valuation τ sig (Elt F) :=
  Pipeline.withArrays spec1 c (W3 m c) fun w => (dat1 (VW3 m) c).arrAt w cfg1.N
theorem W4_arr (c : Dev nD) (w : Fin cfg1.W) :
    W4 m c (Proc.devRef .tc (Pipeline.arrRef spec1 w)) = (dat1 (VW3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev VW4 : (c : Dev nD) → (b : Ref sig .tc) → Buf (Elt F) ((c : Thread nD τ).loc b) := fun c b => W4 m c b
theorem arrs1 (c : Dev nD) (w : Fin cfg1.W) : (dat1 (VW3 m) c).arrAt w cfg1.N = VW4 m c (Pipeline.arrRef spec1 w) :=
  (W4_arr m c w).symm
theorem others1 (c : Dev nD) : ∀ b, b ∉ Finset.univ.image (Pipeline.arrRef spec1) → VW4 m c b = VW3 m c b :=
  fun b hb => W4_of_ne m c b fun w e => hb (Finset.mem_image.mpr ⟨w, Finset.mem_univ _, e⟩)

/-- After host stretch 2: the entry of region 2. -/
abbrev W5 : Dev nD → Valuation τ sig (Elt F) := fun c => StableHlo.after hostOps2 (W4 m c)
/-- The same read at the references of the TensorCore. -/
abbrev VW5 : (c : Dev nD) → (b : Ref sig .tc) → Buf (Elt F) ((c : Thread nD τ).loc b) := fun c b => W5 m c b
/-- At the exit of region 2: its arrays at what the pipeline leaves, every other buffer as entered. -/
def W6 (c : Dev nD) : Valuation τ sig (Elt F) :=
  Pipeline.withArrays spec2 c (W5 m c) fun w => (dat2 (VW5 m) c).arrAt w cfg2.N
theorem W6_arr (c : Dev nD) (w : Fin cfg2.W) :
    W6 m c (Proc.devRef .tc (Pipeline.arrRef spec2 w)) = (dat2 (VW5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev VW6 : (c : Dev nD) → (b : Ref sig .tc) → Buf (Elt F) ((c : Thread nD τ).loc b) := fun c b => W6 m c b
theorem arrs2 (c : Dev nD) (w : Fin cfg2.W) : (dat2 (VW5 m) c).arrAt w cfg2.N = VW6 m c (Pipeline.arrRef spec2 w) :=
  (W6_arr m c w).symm
theorem others2 (c : Dev nD) : ∀ b, b ∉ Finset.univ.image (Pipeline.arrRef spec2) → VW6 m c b = VW5 m c b :=
  fun b hb => W6_of_ne m c b fun w e => hb (Finset.mem_image.mpr ⟨w, Finset.mem_univ _, e⟩)

/-- After host stretch 3: the entry of region 3. -/
abbrev W7 : Dev nD → Valuation τ sig (Elt F) := fun c => StableHlo.after hostOps3 (W6 m c)
/-- The same read at the references of the TensorCore. -/
abbrev VW7 : (c : Dev nD) → (b : Ref sig .tc) → Buf (Elt F) ((c : Thread nD τ).loc b) := fun c b => W7 m c b
/-- At the exit of region 3: its arrays at what the pipeline leaves, every other buffer as entered. -/
def W8 (c : Dev nD) : Valuation τ sig (Elt F) :=
  Pipeline.withArrays spec3 c (W7 m c) fun w => (dat3 (VW7 m) c).arrAt w cfg3.N
theorem W8_arr (c : Dev nD) (w : Fin cfg3.W) :
    W8 m c (Proc.devRef .tc (Pipeline.arrRef spec3 w)) = (dat3 (VW7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev VW8 : (c : Dev nD) → (b : Ref sig .tc) → Buf (Elt F) ((c : Thread nD τ).loc b) := fun c b => W8 m c b
theorem arrs3 (c : Dev nD) (w : Fin cfg3.W) : (dat3 (VW7 m) c).arrAt w cfg3.N = VW8 m c (Pipeline.arrRef spec3 w) :=
  (W8_arr m c w).symm
theorem others3 (c : Dev nD) : ∀ b, b ∉ Finset.univ.image (Pipeline.arrRef spec3) → VW8 m c b = VW7 m c b :=
  fun b hb => W8_of_ne m c b fun w e => hb (Finset.mem_image.mpr ⟨w, Finset.mem_univ _, e⟩)

/-- After host stretch 4: the entry of region 4. -/
abbrev W9 : Dev nD → Valuation τ sig (Elt F) := fun c => StableHlo.after hostOps4 (W8 m c)
/-- The same read at the references of the TensorCore. -/
abbrev VW9 : (c : Dev nD) → (b : Ref sig .tc) → Buf (Elt F) ((c : Thread nD τ).loc b) := fun c b => W9 m c b
/-- At the exit of region 4: its arrays at what the pipeline leaves, every other buffer as entered. -/
def W10 (c : Dev nD) : Valuation τ sig (Elt F) :=
  Pipeline.withArrays spec4 c (W9 m c) fun w => (dat4 (VW9 m) c).arrAt w cfg4.N
theorem W10_arr (c : Dev nD) (w : Fin cfg4.W) :
    W10 m c (Proc.devRef .tc (Pipeline.arrRef spec4 w)) = (dat4 (VW9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
abbrev VW10 : (c : Dev nD) → (b : Ref sig .tc) → Buf (Elt F) ((c : Thread nD τ).loc b) := fun c b => W10 m c b
theorem arrs4 (c : Dev nD) (w : Fin cfg4.W) : (dat4 (VW9 m) c).arrAt w cfg4.N = VW10 m c (Pipeline.arrRef spec4 w) :=
  (W10_arr m c w).symm
theorem others4 (c : Dev nD) : ∀ b, b ∉ Finset.univ.image (Pipeline.arrRef spec4) → VW10 m c b = VW9 m c b :=
  fun b hb => W10_of_ne m c b fun w e => hb (Finset.mem_image.mpr ⟨w, Finset.mem_univ _, e⟩)

/-- After host stretch 5: the entry of region 5. -/
abbrev W11 : Dev nD → Valuation τ sig (Elt F) := fun c => StableHlo.after hostOps5 (W10 m c)
/-- The same read at the references of the TensorCore. -/
abbrev VW11 : (c : Dev nD) → (b : Ref sig .tc) → Buf (Elt F) ((c : Thread nD τ).loc b) := fun c b => W11 m c b
/-- At the exit of region 5: its arrays at what the pipeline leaves, every other buffer as entered. -/
def W12 (c : Dev nD) : Valuation τ sig (Elt F) :=
  Pipeline.withArrays spec5 c (W11 m c) fun w => (dat5 (VW11 m) c).arrAt w cfg5.N
theorem W12_arr (c : Dev nD) (w : Fin cfg5.W) :
    W12 m c (Proc.devRef .tc (Pipeline.arrRef spec5 w)) = (dat5 (VW11 m) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m c (Proc.devRef .tc b) = W11 m c (Proc.devRef .tc b) := by
  unfold W12; exact Pipeline.withArrays_of_ne spec5 c _ _ b hb
abbrev VW12 : (c : Dev nD) → (b : Ref sig .tc) → Buf (Elt F) ((c : Thread nD τ).loc b) := fun c b => W12 m c b
theorem arrs5 (c : Dev nD) (w : Fin cfg5.W) : (dat5 (VW11 m) c).arrAt w cfg5.N = VW12 m c (Pipeline.arrRef spec5 w) :=
  (W12_arr m c w).symm
theorem others5 (c : Dev nD) : ∀ b, b ∉ Finset.univ.image (Pipeline.arrRef spec5) → VW12 m c b = VW11 m c b :=
  fun b hb => W12_of_ne m c b fun w e => hb (Finset.mem_image.mpr ⟨w, Finset.mem_univ _, e⟩)

/-- After host stretch 6: the entry of region 6. -/
abbrev W13 : Dev nD → Valuation τ sig (Elt F) := fun c => StableHlo.after hostOps6 (W12 m c)
/-- The same read at the references of the TensorCore. -/
abbrev VW13 : (c : Dev nD) → (b : Ref sig .tc) → Buf (Elt F) ((c : Thread nD τ).loc b) := fun c b => W13 m c b
/-- At the exit of region 6: its arrays at what the pipeline leaves, every other buffer as entered. -/
def W14 (c : Dev nD) : Valuation τ sig (Elt F) :=
  Pipeline.withArrays spec6 c (W13 m c) fun w => (dat6 (VW13 m) c).arrAt w cfg6.N
theorem W14_arr (c : Dev nD) (w : Fin cfg6.W) :
    W14 m c (Proc.devRef .tc (Pipeline.arrRef spec6 w)) = (dat6 (VW13 m) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m c (Proc.devRef .tc b) = W13 m c (Proc.devRef .tc b) := by
  unfold W14; exact Pipeline.withArrays_of_ne spec6 c _ _ b hb
abbrev VW14 : (c : Dev nD) → (b : Ref sig .tc) → Buf (Elt F) ((c : Thread nD τ).loc b) := fun c b => W14 m c b
theorem arrs6 (c : Dev nD) (w : Fin cfg6.W) : (dat6 (VW13 m) c).arrAt w cfg6.N = VW14 m c (Pipeline.arrRef spec6 w) :=
  (W14_arr m c w).symm
theorem others6 (c : Dev nD) : ∀ b, b ∉ Finset.univ.image (Pipeline.arrRef spec6) → VW14 m c b = VW13 m c b :=
  fun b hb => W14_of_ne m c b fun w e => hb (Finset.mem_image.mpr ⟨w, Finset.mem_univ _, e⟩)

/-- After host stretch 7: the entry of region 7. -/
abbrev W15 : Dev nD → Valuation τ sig (Elt F) := fun c => StableHlo.after hostOps7 (W14 m c)
/-- The same read at the references of the TensorCore. -/
abbrev VW15 : (c : Dev nD) → (b : Ref sig .tc) → Buf (Elt F) ((c : Thread nD τ).loc b) := fun c b => W15 m c b
/-- At the exit of region 7: its arrays at what the pipeline leaves, every other buffer as entered. -/
def W16 (c : Dev nD) : Valuation τ sig (Elt F) :=
  Pipeline.withArrays spec7 c (W15 m c) fun w => (dat7 (VW15 m) c).arrAt w cfg7.N
theorem W16_arr (c : Dev nD) (w : Fin cfg7.W) :
    W16 m c (Proc.devRef .tc (Pipeline.arrRef spec7 w)) = (dat7 (VW15 m) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m c (Proc.devRef .tc b) = W15 m c (Proc.devRef .tc b) := by
  unfold W16; exact Pipeline.withArrays_of_ne spec7 c _ _ b hb
abbrev VW16 : (c : Dev nD) → (b : Ref sig .tc) → Buf (Elt F) ((c : Thread nD τ).loc b) := fun c b => W16 m c b
theorem arrs7 (c : Dev nD) (w : Fin cfg7.W) : (dat7 (VW15 m) c).arrAt w cfg7.N = VW16 m c (Pipeline.arrRef spec7 w) :=
  (W16_arr m c w).symm
theorem others7 (c : Dev nD) : ∀ b, b ∉ Finset.univ.image (Pipeline.arrRef spec7) → VW16 m c b = VW15 m c b :=
  fun b hb => W16_of_ne m c b fun w e => hb (Finset.mem_image.mpr ⟨w, Finset.mem_univ _, e⟩)

/-- After host stretch 8: the entry of region 8. -/
abbrev W17 : Dev nD → Valuation τ sig (Elt F) := fun c => StableHlo.after hostOps8 (W16 m c)
/-- The same read at the references of the TensorCore. -/
abbrev VW17 : (c : Dev nD) → (b : Ref sig .tc) → Buf (Elt F) ((c : Thread nD τ).loc b) := fun c b => W17 m c b
/-- At the exit of region 8: its arrays at what the pipeline leaves, every other buffer as entered. -/
def W18 (c : Dev nD) : Valuation τ sig (Elt F) :=
  Pipeline.withArrays spec8 c (W17 m c) fun w => (dat8 (VW17 m) c).arrAt w cfg8.N
theorem W18_arr (c : Dev nD) (w : Fin cfg8.W) :
    W18 m c (Proc.devRef .tc (Pipeline.arrRef spec8 w)) = (dat8 (VW17 m) c).arrAt w cfg8.N := by
  unfold W18; exact Pipeline.withArrays_arr spec8 launch8.win.arr_inj c _ _ w
theorem W18_of_ne (c : Dev nD) (b : Ref sig .tc) (hb : ∀ w, Pipeline.arrRef spec8 w ≠ b) :
    W18 m c (Proc.devRef .tc b) = W17 m c (Proc.devRef .tc b) := by
  unfold W18; exact Pipeline.withArrays_of_ne spec8 c _ _ b hb
abbrev VW18 : (c : Dev nD) → (b : Ref sig .tc) → Buf (Elt F) ((c : Thread nD τ).loc b) := fun c b => W18 m c b
theorem arrs8 (c : Dev nD) (w : Fin cfg8.W) : (dat8 (VW17 m) c).arrAt w cfg8.N = VW18 m c (Pipeline.arrRef spec8 w) :=
  (W18_arr m c w).symm
theorem others8 (c : Dev nD) : ∀ b, b ∉ Finset.univ.image (Pipeline.arrRef spec8) → VW18 m c b = VW17 m c b :=
  fun b hb => W18_of_ne m c b fun w e => hb (Finset.mem_image.mpr ⟨w, Finset.mem_univ _, e⟩)

/-- After host stretch 9: the entry of region 9. -/
abbrev W19 : Dev nD → Valuation τ sig (Elt F) := fun c => StableHlo.after hostOps9 (W18 m c)
/-- The same read at the references of the TensorCore. -/
abbrev VW19 : (c : Dev nD) → (b : Ref sig .tc) → Buf (Elt F) ((c : Thread nD τ).loc b) := fun c b => W19 m c b
/-- At the exit of region 9: its arrays at what the pipeline leaves, every other buffer as entered. -/
def W20 (c : Dev nD) : Valuation τ sig (Elt F) :=
  Pipeline.withArrays spec9 c (W19 m c) fun w => (dat9 (VW19 m) c).arrAt w cfg9.N
theorem W20_arr (c : Dev nD) (w : Fin cfg9.W) :
    W20 m c (Proc.devRef .tc (Pipeline.arrRef spec9 w)) = (dat9 (VW19 m) c).arrAt w cfg9.N := by
  unfold W20; exact Pipeline.withArrays_arr spec9 launch9.win.arr_inj c _ _ w
theorem W20_of_ne (c : Dev nD) (b : Ref sig .tc) (hb : ∀ w, Pipeline.arrRef spec9 w ≠ b) :
    W20 m c (Proc.devRef .tc b) = W19 m c (Proc.devRef .tc b) := by
  unfold W20; exact Pipeline.withArrays_of_ne spec9 c _ _ b hb
abbrev VW20 : (c : Dev nD) → (b : Ref sig .tc) → Buf (Elt F) ((c : Thread nD τ).loc b) := fun c b => W20 m c b
theorem arrs9 (c : Dev nD) (w : Fin cfg9.W) : (dat9 (VW19 m) c).arrAt w cfg9.N = VW20 m c (Pipeline.arrRef spec9 w) :=
  (W20_arr m c w).symm
theorem others9 (c : Dev nD) : ∀ b, b ∉ Finset.univ.image (Pipeline.arrRef spec9) → VW20 m c b = VW19 m c b :=
  fun b hb => W20_of_ne m c b fun w e => hb (Finset.mem_image.mpr ⟨w, Finset.mem_univ _, e⟩)

/-- After host stretch 10: the entry of region 10. -/
abbrev W21 : Dev nD → Valuation τ sig (Elt F) := fun c => StableHlo.after hostOps10 (W20 m c)
/-- The same read at the references of the TensorCore. -/
abbrev VW21 : (c : Dev nD) → (b : Ref sig .tc) → Buf (Elt F) ((c : Thread nD τ).loc b) := fun c b => W21 m c b
/-- At the exit of region 10: its arrays at what the pipeline leaves, every other buffer as entered. -/
def W22 (c : Dev nD) : Valuation τ sig (Elt F) :=
  Pipeline.withArrays spec10 c (W21 m c) fun w => (dat10 (VW21 m) c).arrAt w cfg10.N
theorem W22_arr (c : Dev nD) (w : Fin cfg10.W) :
    W22 m c (Proc.devRef .tc (Pipeline.arrRef spec10 w)) = (dat10 (VW21 m) c).arrAt w cfg10.N := by
  unfold W22; exact Pipeline.withArrays_arr spec10 launch10.win.arr_inj c _ _ w
theorem W22_of_ne (c : Dev nD) (b : Ref sig .tc) (hb : ∀ w, Pipeline.arrRef spec10 w ≠ b) :
    W22 m c (Proc.devRef .tc b) = W21 m c (Proc.devRef .tc b) := by
  unfold W22; exact Pipeline.withArrays_of_ne spec10 c _ _ b hb
abbrev VW22 : (c : Dev nD) → (b : Ref sig .tc) → Buf (Elt F) ((c : Thread nD τ).loc b) := fun c b => W22 m c b
theorem arrs10 (c : Dev nD) (w : Fin cfg10.W) : (dat10 (VW21 m) c).arrAt w cfg10.N = VW22 m c (Pipeline.arrRef spec10 w) :=
  (W22_arr m c w).symm
theorem others10 (c : Dev nD) : ∀ b, b ∉ Finset.univ.image (Pipeline.arrRef spec10) → VW22 m c b = VW21 m c b :=
  fun b hb => W22_of_ne m c b fun w e => hb (Finset.mem_image.mpr ⟨w, Finset.mem_univ _, e⟩)

/-! ## The proof data family and what rides beside the buffers -/

/-- The proof data of every pipeline, each at the entry contents of its region. -/
def pdats : (p : Fin 11) → (c : Dev nD) → Dat τ (Elt F) Unit ℕ (UR sig nD τ) ℕ (Pipeline.pin (pcfgs (F := F)) adm p) c
  | ⟨0, _⟩ => fun c => dat0 (VW1 m) c
  | ⟨1, _⟩ => fun c => dat1 (VW3 m) c
  | ⟨2, _⟩ => fun c => dat2 (VW5 m) c
  | ⟨3, _⟩ => fun c => dat3 (VW7 m) c
  | ⟨4, _⟩ => fun c => dat4 (VW9 m) c
  | ⟨5, _⟩ => fun c => dat5 (VW11 m) c
  | ⟨6, _⟩ => fun c => dat6 (VW13 m) c
  | ⟨7, _⟩ => fun c => dat7 (VW15 m) c
  | ⟨8, _⟩ => fun c => dat8 (VW17 m) c
  | ⟨9, _⟩ => fun c => dat9 (VW19 m) c
  | ⟨10, _⟩ => fun c => dat10 (VW21 m) c
/-- No core owes another anything: no level is assigned. -/
abbrev noLev : GSem nD τ sig → Finset Unit := fun _ => ∅
abbrev lev0 : GSem nD τ sig → Unit → ℕ := fun _ _ => 0
/-- What rides beside the buffers through every segment: the generator register of the core at some state and its dues, at nothing. -/
abbrev rest (c : Dev nD) : sProp 𝕄 := iprop((∃ r, prngReg c r) ∗ ∃ W, owes (c : Thread nD τ) (0 : CellTallies nD τ sig Unit) W)
/-- A host stretch as a segment over the unscoped references from given contents, the rest riding along. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noLev lev0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rest
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev lastState (c : Dev nD) : sProp 𝕄 := iprop(StableHlo.held (c : Thread nD τ) (Pipeline.ucRefs τ sig) (W22 m c) ∗ ∃ r, prngReg c r)

/-! ## The regions as segments -/

set_option backward.isDefEq.respectTransparency.types false in
/-- Region 0 over the thread state: entered from every unscoped buffer at boundary 1, left at boundary 2. Its arrays are split out of the
    unscoped buffers and put back at the exit contents; the generator register goes into the invariant and comes out; nothing owed. -/
def reg0 : Pipeline.RegionSeg (pcfgs (F := F)) adm (pdats m) () defs₀ Variants.none noLev lev0 0 where
  win := launch0.win.to₀
  block_pos := launch0.block_pos
  stage_whole := launch0.stage_whole
  K := PEmpty
  osem k := k.elim
  ho := Pipeline.OwnSemFacts.none _
  hbody c := (body_obligation0 (VW1 m) c).loose
  hwaits := Pipeline.hwaits_of_owed_zero _ _ _ _ noLev lev0 0 fun _ _ => rfl
  pre c := iprop(StableHlo.held (c : Thread nD τ) (Pipeline.ucRefs τ sig) (W1 m c) ∗ rest c)
  post c := iprop(StableHlo.held (c : Thread nD τ) (Pipeline.ucRefs τ sig) (W2 m c) ∗ rest c)
  X c := iprop(∃ r, prngReg c r)
  Y c := iprop(∃ r, prngReg c r)
  Z c := Pipeline.unscopedRest (Ix := Unit) (Name := ℕ) (U := UR sig nD τ) (Lvl := ℕ) spec0 c (VW1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VW1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VW1 m c) (VW2 m c) ((pdats m 0 c).arrAt · cfg0.N) (arrs0 m c) (others0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at boundary 3, left at boundary 4. Its arrays are split out of the
    unscoped buffers and put back at the exit contents; the generator register goes into the invariant and comes out; nothing owed. -/
def reg1 : Pipeline.RegionSeg (pcfgs (F := F)) adm (pdats m) () defs₀ Variants.none noLev lev0 1 where
  win := launch1.win.to₀
  block_pos := launch1.block_pos
  stage_whole := launch1.stage_whole
  K := PEmpty
  osem k := k.elim
  ho := Pipeline.OwnSemFacts.none _
  hbody c := (body_obligation1 (VW3 m) c).loose
  hwaits := Pipeline.hwaits_of_owed_zero _ _ _ _ noLev lev0 1 fun _ _ => rfl
  pre c := iprop(StableHlo.held (c : Thread nD τ) (Pipeline.ucRefs τ sig) (W3 m c) ∗ rest c)
  post c := iprop(StableHlo.held (c : Thread nD τ) (Pipeline.ucRefs τ sig) (W4 m c) ∗ rest c)
  X c := iprop(∃ r, prngReg c r)
  Y c := iprop(∃ r, prngReg c r)
  Z c := Pipeline.unscopedRest (Ix := Unit) (Name := ℕ) (U := UR sig nD τ) (Lvl := ℕ) spec1 c (VW3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VW3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VW3 m c) (VW4 m c) ((pdats m 1 c).arrAt · cfg1.N) (arrs1 m c) (others1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at boundary 5, left at boundary 6. Its arrays are split out of the
    unscoped buffers and put back at the exit contents; the generator register goes into the invariant and comes out; nothing owed. -/
def reg2 : Pipeline.RegionSeg (pcfgs (F := F)) adm (pdats m) () defs₀ Variants.none noLev lev0 2 where
  win := launch2.win.to₀
  block_pos := launch2.block_pos
  stage_whole := launch2.stage_whole
  K := PEmpty
  osem k := k.elim
  ho := Pipeline.OwnSemFacts.none _
  hbody c := (body_obligation2 (VW5 m) c).loose
  hwaits := Pipeline.hwaits_of_owed_zero _ _ _ _ noLev lev0 2 fun _ _ => rfl
  pre c := iprop(StableHlo.held (c : Thread nD τ) (Pipeline.ucRefs τ sig) (W5 m c) ∗ rest c)
  post c := iprop(StableHlo.held (c : Thread nD τ) (Pipeline.ucRefs τ sig) (W6 m c) ∗ rest c)
  X c := iprop(∃ r, prngReg c r)
  Y c := iprop(∃ r, prngReg c r)
  Z c := Pipeline.unscopedRest (Ix := Unit) (Name := ℕ) (U := UR sig nD τ) (Lvl := ℕ) spec2 c (VW5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (VW5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (VW5 m c) (VW6 m c) ((pdats m 2 c).arrAt · cfg2.N) (arrs2 m c) (others2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at boundary 7, left at boundary 8. Its arrays are split out of the
    unscoped buffers and put back at the exit contents; the generator register goes into the invariant and comes out; nothing owed. -/
def reg3 : Pipeline.RegionSeg (pcfgs (F := F)) adm (pdats m) () defs₀ Variants.none noLev lev0 3 where
  win := launch3.win.to₀
  block_pos := launch3.block_pos
  stage_whole := launch3.stage_whole
  K := PEmpty
  osem k := k.elim
  ho := Pipeline.OwnSemFacts.none _
  hbody c := (body_obligation3 (VW7 m) c).loose
  hwaits := Pipeline.hwaits_of_owed_zero _ _ _ _ noLev lev0 3 fun _ _ => rfl
  pre c := iprop(StableHlo.held (c : Thread nD τ) (Pipeline.ucRefs τ sig) (W7 m c) ∗ rest c)
  post c := iprop(StableHlo.held (c : Thread nD τ) (Pipeline.ucRefs τ sig) (W8 m c) ∗ rest c)
  X c := iprop(∃ r, prngReg c r)
  Y c := iprop(∃ r, prngReg c r)
  Z c := Pipeline.unscopedRest (Ix := Unit) (Name := ℕ) (U := UR sig nD τ) (Lvl := ℕ) spec3 c (VW7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (VW7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (VW7 m c) (VW8 m c) ((pdats m 3 c).arrAt · cfg3.N) (arrs3 m c) (others3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at boundary 9, left at boundary 10. Its arrays are split out of the
    unscoped buffers and put back at the exit contents; the generator register goes into the invariant and comes out; nothing owed. -/
def reg4 : Pipeline.RegionSeg (pcfgs (F := F)) adm (pdats m) () defs₀ Variants.none noLev lev0 4 where
  win := launch4.win.to₀
  block_pos := launch4.block_pos
  stage_whole := launch4.stage_whole
  K := PEmpty
  osem k := k.elim
  ho := Pipeline.OwnSemFacts.none _
  hbody c := (body_obligation4 (VW9 m) c).loose
  hwaits := Pipeline.hwaits_of_owed_zero _ _ _ _ noLev lev0 4 fun _ _ => rfl
  pre c := iprop(StableHlo.held (c : Thread nD τ) (Pipeline.ucRefs τ sig) (W9 m c) ∗ rest c)
  post c := iprop(StableHlo.held (c : Thread nD τ) (Pipeline.ucRefs τ sig) (W10 m c) ∗ rest c)
  X c := iprop(∃ r, prngReg c r)
  Y c := iprop(∃ r, prngReg c r)
  Z c := Pipeline.unscopedRest (Ix := Unit) (Name := ℕ) (U := UR sig nD τ) (Lvl := ℕ) spec4 c (VW9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (VW9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (VW9 m c) (VW10 m c) ((pdats m 4 c).arrAt · cfg4.N) (arrs4 m c) (others4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at boundary 11, left at boundary 12. Its arrays are split out of the
    unscoped buffers and put back at the exit contents; the generator register goes into the invariant and comes out; nothing owed. -/
def reg5 : Pipeline.RegionSeg (pcfgs (F := F)) adm (pdats m) () defs₀ Variants.none noLev lev0 5 where
  win := launch5.win.to₀
  block_pos := launch5.block_pos
  stage_whole := launch5.stage_whole
  K := PEmpty
  osem k := k.elim
  ho := Pipeline.OwnSemFacts.none _
  hbody c := (body_obligation5 (VW11 m) c).loose
  hwaits := Pipeline.hwaits_of_owed_zero _ _ _ _ noLev lev0 5 fun _ _ => rfl
  pre c := iprop(StableHlo.held (c : Thread nD τ) (Pipeline.ucRefs τ sig) (W11 m c) ∗ rest c)
  post c := iprop(StableHlo.held (c : Thread nD τ) (Pipeline.ucRefs τ sig) (W12 m c) ∗ rest c)
  X c := iprop(∃ r, prngReg c r)
  Y c := iprop(∃ r, prngReg c r)
  Z c := Pipeline.unscopedRest (Ix := Unit) (Name := ℕ) (U := UR sig nD τ) (Lvl := ℕ) spec5 c (VW11 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (VW11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (VW11 m c) (VW12 m c) ((pdats m 5 c).arrAt · cfg5.N) (arrs5 m c) (others5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at boundary 13, left at boundary 14. Its arrays are split out of the
    unscoped buffers and put back at the exit contents; the generator register goes into the invariant and comes out; nothing owed. -/
def reg6 : Pipeline.RegionSeg (pcfgs (F := F)) adm (pdats m) () defs₀ Variants.none noLev lev0 6 where
  win := launch6.win.to₀
  block_pos := launch6.block_pos
  stage_whole := launch6.stage_whole
  K := PEmpty
  osem k := k.elim
  ho := Pipeline.OwnSemFacts.none _
  hbody c := (body_obligation6 (VW13 m) c).loose
  hwaits := Pipeline.hwaits_of_owed_zero _ _ _ _ noLev lev0 6 fun _ _ => rfl
  pre c := iprop(StableHlo.held (c : Thread nD τ) (Pipeline.ucRefs τ sig) (W13 m c) ∗ rest c)
  post c := iprop(StableHlo.held (c : Thread nD τ) (Pipeline.ucRefs τ sig) (W14 m c) ∗ rest c)
  X c := iprop(∃ r, prngReg c r)
  Y c := iprop(∃ r, prngReg c r)
  Z c := Pipeline.unscopedRest (Ix := Unit) (Name := ℕ) (U := UR sig nD τ) (Lvl := ℕ) spec6 c (VW13 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (VW13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (VW13 m c) (VW14 m c) ((pdats m 6 c).arrAt · cfg6.N) (arrs6 m c) (others6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered from every unscoped buffer at boundary 15, left at boundary 16. Its arrays are split out of the
    unscoped buffers and put back at the exit contents; the generator register goes into the invariant and comes out; nothing owed. -/
def reg7 : Pipeline.RegionSeg (pcfgs (F := F)) adm (pdats m) () defs₀ Variants.none noLev lev0 7 where
  win := launch7.win.to₀
  block_pos := launch7.block_pos
  stage_whole := launch7.stage_whole
  K := PEmpty
  osem k := k.elim
  ho := Pipeline.OwnSemFacts.none _
  hbody c := (body_obligation7 (VW15 m) c).loose
  hwaits := Pipeline.hwaits_of_owed_zero _ _ _ _ noLev lev0 7 fun _ _ => rfl
  pre c := iprop(StableHlo.held (c : Thread nD τ) (Pipeline.ucRefs τ sig) (W15 m c) ∗ rest c)
  post c := iprop(StableHlo.held (c : Thread nD τ) (Pipeline.ucRefs τ sig) (W16 m c) ∗ rest c)
  X c := iprop(∃ r, prngReg c r)
  Y c := iprop(∃ r, prngReg c r)
  Z c := Pipeline.unscopedRest (Ix := Unit) (Name := ℕ) (U := UR sig nD τ) (Lvl := ℕ) spec7 c (VW15 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (VW15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (VW15 m c) (VW16 m c) ((pdats m 7 c).arrAt · cfg7.N) (arrs7 m c) (others7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8 over the thread state: entered from every unscoped buffer at boundary 17, left at boundary 18. Its arrays are split out of the
    unscoped buffers and put back at the exit contents; the generator register goes into the invariant and comes out; nothing owed. -/
def reg8 : Pipeline.RegionSeg (pcfgs (F := F)) adm (pdats m) () defs₀ Variants.none noLev lev0 8 where
  win := launch8.win.to₀
  block_pos := launch8.block_pos
  stage_whole := launch8.stage_whole
  K := PEmpty
  osem k := k.elim
  ho := Pipeline.OwnSemFacts.none _
  hbody c := (body_obligation8 (VW17 m) c).loose
  hwaits := Pipeline.hwaits_of_owed_zero _ _ _ _ noLev lev0 8 fun _ _ => rfl
  pre c := iprop(StableHlo.held (c : Thread nD τ) (Pipeline.ucRefs τ sig) (W17 m c) ∗ rest c)
  post c := iprop(StableHlo.held (c : Thread nD τ) (Pipeline.ucRefs τ sig) (W18 m c) ∗ rest c)
  X c := iprop(∃ r, prngReg c r)
  Y c := iprop(∃ r, prngReg c r)
  Z c := Pipeline.unscopedRest (Ix := Unit) (Name := ℕ) (U := UR sig nD τ) (Lvl := ℕ) spec8 c (VW17 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (VW17 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (VW17 m c) (VW18 m c) ((pdats m 8 c).arrAt · cfg8.N) (arrs8 m c) (others8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9 over the thread state: entered from every unscoped buffer at boundary 19, left at boundary 20. Its arrays are split out of the
    unscoped buffers and put back at the exit contents; the generator register goes into the invariant and comes out; nothing owed. -/
def reg9 : Pipeline.RegionSeg (pcfgs (F := F)) adm (pdats m) () defs₀ Variants.none noLev lev0 9 where
  win := launch9.win.to₀
  block_pos := launch9.block_pos
  stage_whole := launch9.stage_whole
  K := PEmpty
  osem k := k.elim
  ho := Pipeline.OwnSemFacts.none _
  hbody c := (body_obligation9 (VW19 m) c).loose
  hwaits := Pipeline.hwaits_of_owed_zero _ _ _ _ noLev lev0 9 fun _ _ => rfl
  pre c := iprop(StableHlo.held (c : Thread nD τ) (Pipeline.ucRefs τ sig) (W19 m c) ∗ rest c)
  post c := iprop(StableHlo.held (c : Thread nD τ) (Pipeline.ucRefs τ sig) (W20 m c) ∗ rest c)
  X c := iprop(∃ r, prngReg c r)
  Y c := iprop(∃ r, prngReg c r)
  Z c := Pipeline.unscopedRest (Ix := Unit) (Name := ℕ) (U := UR sig nD τ) (Lvl := ℕ) spec9 c (VW19 m c)
  hentry c := by
    rw [Pipeline.ownSems0_none]
    have hsplit := Pipeline.arrays_of_unscopedBufs (p := 9) (pcfgs (F := F)) adm (pdats m) launch9.win launch9.arr_whole c
      ((pdats m 9 c).share_full fun _ => rfl) (VW19 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none]
    refine (hout9 (VW19 m) c).trans ?_
    unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (VW19 m c) (VW20 m c) ((pdats m 9 c).arrAt · cfg9.N) (arrs9 m c) (others9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 10 over the thread state: entered from every unscoped buffer at boundary 21, left at boundary 22. Its arrays are split out of the
    unscoped buffers and put back at the exit contents; the generator register goes into the invariant and comes out; nothing owed. -/
def reg10 : Pipeline.RegionSeg (pcfgs (F := F)) adm (pdats m) () defs₀ Variants.none noLev lev0 10 where
  win := launch10.win.to₀
  block_pos := launch10.block_pos
  stage_whole := launch10.stage_whole
  K := PEmpty
  osem k := k.elim
  ho := Pipeline.OwnSemFacts.none _
  hbody c := (body_obligation10 (VW21 m) c).loose
  hwaits := Pipeline.hwaits_of_owed_zero _ _ _ _ noLev lev0 10 fun _ _ => rfl
  pre c := iprop(StableHlo.held (c : Thread nD τ) (Pipeline.ucRefs τ sig) (W21 m c) ∗ rest c)
  post c := iprop(lastState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec10 c (VW21 m c)
  hentry c := by
    rw [Pipeline.ownSems0_none]
    have hsplit := Pipeline.arrays_of_unscopedBufs (p := 10) (pcfgs (F := F)) adm (pdats m) launch10.win launch10.arr_whole c
      ((pdats m 10 c).share_full fun _ => rfl) (VW21 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (VW21 m c) (VW22 m c) ((pdats m 10 c).arrAt · cfg10.N) (arrs10 m c) (others10 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev allSegs : List (Pipeline.Seg (pcfgs (F := F)) adm (pdats m) () defs₀ Variants.none noLev lev0) :=
  [ .host (hostSeg hostOps0 hostOps0_sub hostOps0_fresh (W0 m)),
    .region (reg0 m),
    .host (hostSeg hostOps1 hostOps1_sub hostOps1_fresh (W2 m)),
    .region (reg1 m),
    .host (hostSeg hostOps2 hostOps2_sub hostOps2_fresh (W4 m)),
    .region (reg2 m),
    .host (hostSeg hostOps3 hostOps3_sub hostOps3_fresh (W6 m)),
    .region (reg3 m),
    .host (hostSeg hostOps4 hostOps4_sub hostOps4_fresh (W8 m)),
    .region (reg4 m),
    .host (hostSeg hostOps5 hostOps5_sub hostOps5_fresh (W10 m)),
    .region (reg5 m),
    .host (hostSeg hostOps6 hostOps6_sub hostOps6_fresh (W12 m)),
    .region (reg6 m),
    .host (hostSeg hostOps7 hostOps7_sub hostOps7_fresh (W14 m)),
    .region (reg7 m),
    .host (hostSeg hostOps8 hostOps8_sub hostOps8_fresh (W16 m)),
    .region (reg8 m),
    .host (hostSeg hostOps9 hostOps9_sub hostOps9_fresh (W18 m)),
    .region (reg9 m),
    .host (hostSeg hostOps10 hostOps10_sub hostOps10_fresh (W20 m)),
    .region (reg10 m) ]

theorem main_run (c : Dev nD) : main (F := F) c = Pipeline.Seg.run (allSegs m) := by
  rewrite [main_chain c, Pipeline.Seg.run_eq_chain,
    show (allSegs m).map Pipeline.Seg.prog = [
      StableHlo.seq hostOps0,
      Prog.lift (.customCall (Pipeline.entry 0) ()),
      StableHlo.seq hostOps1,
      Prog.lift (.customCall (Pipeline.entry 1) ()),
      StableHlo.seq hostOps2,
      Prog.lift (.customCall (Pipeline.entry 2) ()),
      StableHlo.seq hostOps3,
      Prog.lift (.customCall (Pipeline.entry 3) ()),
      StableHlo.seq hostOps4,
      Prog.lift (.customCall (Pipeline.entry 4) ()),
      StableHlo.seq hostOps5,
      Prog.lift (.customCall (Pipeline.entry 5) ()),
      StableHlo.seq hostOps6,
      Prog.lift (.customCall (Pipeline.entry 6) ()),
      StableHlo.seq hostOps7,
      Prog.lift (.customCall (Pipeline.entry 7) ()),
      StableHlo.seq hostOps8,
      Prog.lift (.customCall (Pipeline.entry 8) ()),
      StableHlo.seq hostOps9,
      Prog.lift (.customCall (Pipeline.entry 9) ()),
      StableHlo.seq hostOps10,
      Prog.lift (.customCall (Pipeline.entry 10) ()) ] from rfl]
  rfl

set_option backward.isDefEq.respectTransparency.types false in
/-- THE RUN: from any memory with zero counters every weakly fair execution of @main terminates, nothing faulting, and every final
    state has every unscoped buffer of every core at the contents of the last boundary. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W22 m c b) :=
  Pipeline.θ_run_regions_kit (pcfgs (F := F)) adm (pdats m) () cellOf_inj emb₁ defs₀ Variants.none noLev lev0 m ρ main (allSegs m)
    (fun c Q => by rw [main_run m c])
    (by simp only [allSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ rest c)) (Tₙ := lastState m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach noLev lev0 fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m c b)
    (hfin := fun c s' => by
      iintro ⟨⟨Hh, -⟩, HSI⟩
      unfold StableHlo.held
      imodintro
      iapply (pointsTo_read_all (Pipeline.ucRefs τ sig) (fun b => (((c : Thread nD τ)).1, b)) (W22 m c) s')
      isplitl [Hh] <;> iassumption)
    (hQ := fun s h c => h c)

/-! ## The argument arrays end as launched -/

theorem W22_main_arg0 (c : Dev nD) : W22 m c (Proc.devRef .tc main_arg0) = m ((c : Thread nD τ).loc main_arg0) :=
  calc W22 m c (Proc.devRef .tc main_arg0)
    _ = W21 m c (Proc.devRef .tc main_arg0) := W22_of_ne m c main_arg0 (by decide)
    _ = W20 m c (Proc.devRef .tc main_arg0) := StableHlo.after_of_writes_sub hostOps10 _ hostOps10_writes (by decide)
    _ = W19 m c (Proc.devRef .tc main_arg0) := W20_of_ne m c main_arg0 (by decide)
    _ = W18 m c (Proc.devRef .tc main_arg0) := StableHlo.after_of_writes_sub hostOps9 _ hostOps9_writes (by decide)
    _ = W17 m c (Proc.devRef .tc main_arg0) := W18_of_ne m c main_arg0 (by decide)
    _ = W16 m c (Proc.devRef .tc main_arg0) := StableHlo.after_of_writes_sub hostOps8 _ hostOps8_writes (by decide)
    _ = W15 m c (Proc.devRef .tc main_arg0) := W16_of_ne m c main_arg0 (by decide)
    _ = W14 m c (Proc.devRef .tc main_arg0) := StableHlo.after_of_writes_sub hostOps7 _ hostOps7_writes (by decide)
    _ = W13 m c (Proc.devRef .tc main_arg0) := W14_of_ne m c main_arg0 (by decide)
    _ = W12 m c (Proc.devRef .tc main_arg0) := StableHlo.after_of_writes_sub hostOps6 _ hostOps6_writes (by decide)
    _ = W11 m c (Proc.devRef .tc main_arg0) := W12_of_ne m c main_arg0 (by decide)
    _ = W10 m c (Proc.devRef .tc main_arg0) := StableHlo.after_of_writes_sub hostOps5 _ hostOps5_writes (by decide)
    _ = W9 m c (Proc.devRef .tc main_arg0) := W10_of_ne m c main_arg0 (by decide)
    _ = W8 m c (Proc.devRef .tc main_arg0) := StableHlo.after_of_writes_sub hostOps4 _ hostOps4_writes (by decide)
    _ = W7 m c (Proc.devRef .tc main_arg0) := W8_of_ne m c main_arg0 (by decide)
    _ = W6 m c (Proc.devRef .tc main_arg0) := StableHlo.after_of_writes_sub hostOps3 _ hostOps3_writes (by decide)
    _ = W5 m c (Proc.devRef .tc main_arg0) := W6_of_ne m c main_arg0 (by decide)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := (W2_arr m c 0).trans (((dat0 (VW1 m) c).arrAt_in 0 rfl _).trans (A_eq0 (VW1 m) c 0))
    _ = W0 m c (Proc.devRef .tc main_arg0) := StableHlo.after_of_writes_sub hostOps0 _ hostOps0_writes (by decide)
    _ = m ((c : Thread nD τ).loc main_arg0) := rfl

theorem W22_main_arg1 (c : Dev nD) : W22 m c (Proc.devRef .tc main_arg1) = m ((c : Thread nD τ).loc main_arg1) :=
  calc W22 m c (Proc.devRef .tc main_arg1)
    _ = W21 m c (Proc.devRef .tc main_arg1) := W22_of_ne m c main_arg1 (by decide)
    _ = W20 m c (Proc.devRef .tc main_arg1) := StableHlo.after_of_writes_sub hostOps10 _ hostOps10_writes (by decide)
    _ = W19 m c (Proc.devRef .tc main_arg1) := W20_of_ne m c main_arg1 (by decide)
    _ = W18 m c (Proc.devRef .tc main_arg1) := StableHlo.after_of_writes_sub hostOps9 _ hostOps9_writes (by decide)
    _ = W17 m c (Proc.devRef .tc main_arg1) := W18_of_ne m c main_arg1 (by decide)
    _ = W16 m c (Proc.devRef .tc main_arg1) := StableHlo.after_of_writes_sub hostOps8 _ hostOps8_writes (by decide)
    _ = W15 m c (Proc.devRef .tc main_arg1) := W16_of_ne m c main_arg1 (by decide)
    _ = W14 m c (Proc.devRef .tc main_arg1) := StableHlo.after_of_writes_sub hostOps7 _ hostOps7_writes (by decide)
    _ = W13 m c (Proc.devRef .tc main_arg1) := W14_of_ne m c main_arg1 (by decide)
    _ = W12 m c (Proc.devRef .tc main_arg1) := StableHlo.after_of_writes_sub hostOps6 _ hostOps6_writes (by decide)
    _ = W11 m c (Proc.devRef .tc main_arg1) := W12_of_ne m c main_arg1 (by decide)
    _ = W10 m c (Proc.devRef .tc main_arg1) := StableHlo.after_of_writes_sub hostOps5 _ hostOps5_writes (by decide)
    _ = W9 m c (Proc.devRef .tc main_arg1) := W10_of_ne m c main_arg1 (by decide)
    _ = W8 m c (Proc.devRef .tc main_arg1) := StableHlo.after_of_writes_sub hostOps4 _ hostOps4_writes (by decide)
    _ = W7 m c (Proc.devRef .tc main_arg1) := W8_of_ne m c main_arg1 (by decide)
    _ = W6 m c (Proc.devRef .tc main_arg1) := StableHlo.after_of_writes_sub hostOps3 _ hostOps3_writes (by decide)
    _ = W5 m c (Proc.devRef .tc main_arg1) := W6_of_ne m c main_arg1 (by decide)
    _ = W4 m c (Proc.devRef .tc main_arg1) := StableHlo.after_of_writes_sub hostOps2 _ hostOps2_writes (by decide)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

theorem W22_main_arg2 (c : Dev nD) : W22 m c (Proc.devRef .tc main_arg2) = m ((c : Thread nD τ).loc main_arg2) :=
  calc W22 m c (Proc.devRef .tc main_arg2)
    _ = W21 m c (Proc.devRef .tc main_arg2) := W22_of_ne m c main_arg2 (by decide)
    _ = W20 m c (Proc.devRef .tc main_arg2) := StableHlo.after_of_writes_sub hostOps10 _ hostOps10_writes (by decide)
    _ = W19 m c (Proc.devRef .tc main_arg2) := W20_of_ne m c main_arg2 (by decide)
    _ = W18 m c (Proc.devRef .tc main_arg2) := StableHlo.after_of_writes_sub hostOps9 _ hostOps9_writes (by decide)
    _ = W17 m c (Proc.devRef .tc main_arg2) := W18_of_ne m c main_arg2 (by decide)
    _ = W16 m c (Proc.devRef .tc main_arg2) := StableHlo.after_of_writes_sub hostOps8 _ hostOps8_writes (by decide)
    _ = W15 m c (Proc.devRef .tc main_arg2) := (W16_arr m c 0).trans (((dat7 (VW15 m) c).arrAt_in 0 rfl _).trans (A_eq7 (VW15 m) c 0))
    _ = W14 m c (Proc.devRef .tc main_arg2) := StableHlo.after_of_writes_sub hostOps7 _ hostOps7_writes (by decide)
    _ = W13 m c (Proc.devRef .tc main_arg2) := W14_of_ne m c main_arg2 (by decide)
    _ = W12 m c (Proc.devRef .tc main_arg2) := StableHlo.after_of_writes_sub hostOps6 _ hostOps6_writes (by decide)
    _ = W11 m c (Proc.devRef .tc main_arg2) := W12_of_ne m c main_arg2 (by decide)
    _ = W10 m c (Proc.devRef .tc main_arg2) := StableHlo.after_of_writes_sub hostOps5 _ hostOps5_writes (by decide)
    _ = W9 m c (Proc.devRef .tc main_arg2) := (W10_arr m c 0).trans (((dat4 (VW9 m) c).arrAt_in 0 rfl _).trans (A_eq4 (VW9 m) c 0))
    _ = W8 m c (Proc.devRef .tc main_arg2) := StableHlo.after_of_writes_sub hostOps4 _ hostOps4_writes (by decide)
    _ = W7 m c (Proc.devRef .tc main_arg2) := W8_of_ne m c main_arg2 (by decide)
    _ = W6 m c (Proc.devRef .tc main_arg2) := StableHlo.after_of_writes_sub hostOps3 _ hostOps3_writes (by decide)
    _ = W5 m c (Proc.devRef .tc main_arg2) := W6_of_ne m c main_arg2 (by decide)
    _ = W4 m c (Proc.devRef .tc main_arg2) := StableHlo.after_of_writes_sub hostOps2 _ hostOps2_writes (by decide)
    _ = W3 m c (Proc.devRef .tc main_arg2) := (W4_arr m c 0).trans (((dat1 (VW3 m) c).arrAt_in 0 rfl _).trans (A_eq1 (VW3 m) c 0))
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

theorem W22_main_arg3 (c : Dev nD) : W22 m c (Proc.devRef .tc main_arg3) = m ((c : Thread nD τ).loc main_arg3) :=
  calc W22 m c (Proc.devRef .tc main_arg3)
    _ = W21 m c (Proc.devRef .tc main_arg3) := W22_of_ne m c main_arg3 (by decide)
    _ = W20 m c (Proc.devRef .tc main_arg3) := StableHlo.after_of_writes_sub hostOps10 _ hostOps10_writes (by decide)
    _ = W19 m c (Proc.devRef .tc main_arg3) := W20_of_ne m c main_arg3 (by decide)
    _ = W18 m c (Proc.devRef .tc main_arg3) := StableHlo.after_of_writes_sub hostOps9 _ hostOps9_writes (by decide)
    _ = W17 m c (Proc.devRef .tc main_arg3) := W18_of_ne m c main_arg3 (by decide)
    _ = W16 m c (Proc.devRef .tc main_arg3) := StableHlo.after_of_writes_sub hostOps8 _ hostOps8_writes (by decide)
    _ = W15 m c (Proc.devRef .tc main_arg3) := W16_of_ne m c main_arg3 (by decide)
    _ = W14 m c (Proc.devRef .tc main_arg3) := StableHlo.after_of_writes_sub hostOps7 _ hostOps7_writes (by decide)
    _ = W13 m c (Proc.devRef .tc main_arg3) := W14_of_ne m c main_arg3 (by decide)
    _ = W12 m c (Proc.devRef .tc main_arg3) := StableHlo.after_of_writes_sub hostOps6 _ hostOps6_writes (by decide)
    _ = W11 m c (Proc.devRef .tc main_arg3) := W12_of_ne m c main_arg3 (by decide)
    _ = W10 m c (Proc.devRef .tc main_arg3) := StableHlo.after_of_writes_sub hostOps5 _ hostOps5_writes (by decide)
    _ = W9 m c (Proc.devRef .tc main_arg3) := W10_of_ne m c main_arg3 (by decide)
    _ = W8 m c (Proc.devRef .tc main_arg3) := StableHlo.after_of_writes_sub hostOps4 _ hostOps4_writes (by decide)
    _ = W7 m c (Proc.devRef .tc main_arg3) := W8_of_ne m c main_arg3 (by decide)
    _ = W6 m c (Proc.devRef .tc main_arg3) := StableHlo.after_of_writes_sub hostOps3 _ hostOps3_writes (by decide)
    _ = W5 m c (Proc.devRef .tc main_arg3) := W6_of_ne m c main_arg3 (by decide)
    _ = W4 m c (Proc.devRef .tc main_arg3) := StableHlo.after_of_writes_sub hostOps2 _ hostOps2_writes (by decide)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

theorem W22_main_arg4 (c : Dev nD) : W22 m c (Proc.devRef .tc main_arg4) = m ((c : Thread nD τ).loc main_arg4) :=
  calc W22 m c (Proc.devRef .tc main_arg4)
    _ = W21 m c (Proc.devRef .tc main_arg4) := W22_of_ne m c main_arg4 (by decide)
    _ = W20 m c (Proc.devRef .tc main_arg4) := StableHlo.after_of_writes_sub hostOps10 _ hostOps10_writes (by decide)
    _ = W19 m c (Proc.devRef .tc main_arg4) := W20_of_ne m c main_arg4 (by decide)
    _ = W18 m c (Proc.devRef .tc main_arg4) := StableHlo.after_of_writes_sub hostOps9 _ hostOps9_writes (by decide)
    _ = W17 m c (Proc.devRef .tc main_arg4) := W18_of_ne m c main_arg4 (by decide)
    _ = W16 m c (Proc.devRef .tc main_arg4) := StableHlo.after_of_writes_sub hostOps8 _ hostOps8_writes (by decide)
    _ = W15 m c (Proc.devRef .tc main_arg4) := W16_of_ne m c main_arg4 (by decide)
    _ = W14 m c (Proc.devRef .tc main_arg4) := StableHlo.after_of_writes_sub hostOps7 _ hostOps7_writes (by decide)
    _ = W13 m c (Proc.devRef .tc main_arg4) := W14_of_ne m c main_arg4 (by decide)
    _ = W12 m c (Proc.devRef .tc main_arg4) := StableHlo.after_of_writes_sub hostOps6 _ hostOps6_writes (by decide)
    _ = W11 m c (Proc.devRef .tc main_arg4) := W12_of_ne m c main_arg4 (by decide)
    _ = W10 m c (Proc.devRef .tc main_arg4) := StableHlo.after_of_writes_sub hostOps5 _ hostOps5_writes (by decide)
    _ = W9 m c (Proc.devRef .tc main_arg4) := W10_of_ne m c main_arg4 (by decide)
    _ = W8 m c (Proc.devRef .tc main_arg4) := StableHlo.after_of_writes_sub hostOps4 _ hostOps4_writes (by decide)
    _ = W7 m c (Proc.devRef .tc main_arg4) := W8_of_ne m c main_arg4 (by decide)
    _ = W6 m c (Proc.devRef .tc main_arg4) := StableHlo.after_of_writes_sub hostOps3 _ hostOps3_writes (by decide)
    _ = W5 m c (Proc.devRef .tc main_arg4) := W6_of_ne m c main_arg4 (by decide)
    _ = W4 m c (Proc.devRef .tc main_arg4) := StableHlo.after_of_writes_sub hostOps2 _ hostOps2_writes (by decide)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl

theorem W22_main_arg5 (c : Dev nD) : W22 m c (Proc.devRef .tc main_arg5) = m ((c : Thread nD τ).loc main_arg5) :=
  calc W22 m c (Proc.devRef .tc main_arg5)
    _ = W21 m c (Proc.devRef .tc main_arg5) := W22_of_ne m c main_arg5 (by decide)
    _ = W20 m c (Proc.devRef .tc main_arg5) := StableHlo.after_of_writes_sub hostOps10 _ hostOps10_writes (by decide)
    _ = W19 m c (Proc.devRef .tc main_arg5) := W20_of_ne m c main_arg5 (by decide)
    _ = W18 m c (Proc.devRef .tc main_arg5) := StableHlo.after_of_writes_sub hostOps9 _ hostOps9_writes (by decide)
    _ = W17 m c (Proc.devRef .tc main_arg5) := W18_of_ne m c main_arg5 (by decide)
    _ = W16 m c (Proc.devRef .tc main_arg5) := StableHlo.after_of_writes_sub hostOps8 _ hostOps8_writes (by decide)
    _ = W15 m c (Proc.devRef .tc main_arg5) := W16_of_ne m c main_arg5 (by decide)
    _ = W14 m c (Proc.devRef .tc main_arg5) := StableHlo.after_of_writes_sub hostOps7 _ hostOps7_writes (by decide)
    _ = W13 m c (Proc.devRef .tc main_arg5) := W14_of_ne m c main_arg5 (by decide)
    _ = W12 m c (Proc.devRef .tc main_arg5) := StableHlo.after_of_writes_sub hostOps6 _ hostOps6_writes (by decide)
    _ = W11 m c (Proc.devRef .tc main_arg5) := W12_of_ne m c main_arg5 (by decide)
    _ = W10 m c (Proc.devRef .tc main_arg5) := StableHlo.after_of_writes_sub hostOps5 _ hostOps5_writes (by decide)
    _ = W9 m c (Proc.devRef .tc main_arg5) := W10_of_ne m c main_arg5 (by decide)
    _ = W8 m c (Proc.devRef .tc main_arg5) := StableHlo.after_of_writes_sub hostOps4 _ hostOps4_writes (by decide)
    _ = W7 m c (Proc.devRef .tc main_arg5) := W8_of_ne m c main_arg5 (by decide)
    _ = W6 m c (Proc.devRef .tc main_arg5) := StableHlo.after_of_writes_sub hostOps3 _ hostOps3_writes (by decide)
    _ = W5 m c (Proc.devRef .tc main_arg5) := W6_of_ne m c main_arg5 (by decide)
    _ = W4 m c (Proc.devRef .tc main_arg5) := StableHlo.after_of_writes_sub hostOps2 _ hostOps2_writes (by decide)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl

theorem W22_main_arg6 (c : Dev nD) : W22 m c (Proc.devRef .tc main_arg6) = m ((c : Thread nD τ).loc main_arg6) :=
  calc W22 m c (Proc.devRef .tc main_arg6)
    _ = W21 m c (Proc.devRef .tc main_arg6) := W22_of_ne m c main_arg6 (by decide)
    _ = W20 m c (Proc.devRef .tc main_arg6) := StableHlo.after_of_writes_sub hostOps10 _ hostOps10_writes (by decide)
    _ = W19 m c (Proc.devRef .tc main_arg6) := W20_of_ne m c main_arg6 (by decide)
    _ = W18 m c (Proc.devRef .tc main_arg6) := StableHlo.after_of_writes_sub hostOps9 _ hostOps9_writes (by decide)
    _ = W17 m c (Proc.devRef .tc main_arg6) := W18_of_ne m c main_arg6 (by decide)
    _ = W16 m c (Proc.devRef .tc main_arg6) := StableHlo.after_of_writes_sub hostOps8 _ hostOps8_writes (by decide)
    _ = W15 m c (Proc.devRef .tc main_arg6) := W16_of_ne m c main_arg6 (by decide)
    _ = W14 m c (Proc.devRef .tc main_arg6) := StableHlo.after_of_writes_sub hostOps7 _ hostOps7_writes (by decide)
    _ = W13 m c (Proc.devRef .tc main_arg6) := W14_of_ne m c main_arg6 (by decide)
    _ = W12 m c (Proc.devRef .tc main_arg6) := StableHlo.after_of_writes_sub hostOps6 _ hostOps6_writes (by decide)
    _ = W11 m c (Proc.devRef .tc main_arg6) := W12_of_ne m c main_arg6 (by decide)
    _ = W10 m c (Proc.devRef .tc main_arg6) := StableHlo.after_of_writes_sub hostOps5 _ hostOps5_writes (by decide)
    _ = W9 m c (Proc.devRef .tc main_arg6) := W10_of_ne m c main_arg6 (by decide)
    _ = W8 m c (Proc.devRef .tc main_arg6) := StableHlo.after_of_writes_sub hostOps4 _ hostOps4_writes (by decide)
    _ = W7 m c (Proc.devRef .tc main_arg6) := W8_of_ne m c main_arg6 (by decide)
    _ = W6 m c (Proc.devRef .tc main_arg6) := StableHlo.after_of_writes_sub hostOps3 _ hostOps3_writes (by decide)
    _ = W5 m c (Proc.devRef .tc main_arg6) := W6_of_ne m c main_arg6 (by decide)
    _ = W4 m c (Proc.devRef .tc main_arg6) := StableHlo.after_of_writes_sub hostOps2 _ hostOps2_writes (by decide)
    _ = W3 m c (Proc.devRef .tc main_arg6) := W4_of_ne m c main_arg6 (by decide)
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl

theorem W22_main_arg7 (c : Dev nD) : W22 m c (Proc.devRef .tc main_arg7) = m ((c : Thread nD τ).loc main_arg7) :=
  calc W22 m c (Proc.devRef .tc main_arg7)
    _ = W21 m c (Proc.devRef .tc main_arg7) := W22_of_ne m c main_arg7 (by decide)
    _ = W20 m c (Proc.devRef .tc main_arg7) := StableHlo.after_of_writes_sub hostOps10 _ hostOps10_writes (by decide)
    _ = W19 m c (Proc.devRef .tc main_arg7) := W20_of_ne m c main_arg7 (by decide)
    _ = W18 m c (Proc.devRef .tc main_arg7) := StableHlo.after_of_writes_sub hostOps9 _ hostOps9_writes (by decide)
    _ = W17 m c (Proc.devRef .tc main_arg7) := W18_of_ne m c main_arg7 (by decide)
    _ = W16 m c (Proc.devRef .tc main_arg7) := StableHlo.after_of_writes_sub hostOps8 _ hostOps8_writes (by decide)
    _ = W15 m c (Proc.devRef .tc main_arg7) := W16_of_ne m c main_arg7 (by decide)
    _ = W14 m c (Proc.devRef .tc main_arg7) := StableHlo.after_of_writes_sub hostOps7 _ hostOps7_writes (by decide)
    _ = W13 m c (Proc.devRef .tc main_arg7) := W14_of_ne m c main_arg7 (by decide)
    _ = W12 m c (Proc.devRef .tc main_arg7) := StableHlo.after_of_writes_sub hostOps6 _ hostOps6_writes (by decide)
    _ = W11 m c (Proc.devRef .tc main_arg7) := W12_of_ne m c main_arg7 (by decide)
    _ = W10 m c (Proc.devRef .tc main_arg7) := StableHlo.after_of_writes_sub hostOps5 _ hostOps5_writes (by decide)
    _ = W9 m c (Proc.devRef .tc main_arg7) := W10_of_ne m c main_arg7 (by decide)
    _ = W8 m c (Proc.devRef .tc main_arg7) := StableHlo.after_of_writes_sub hostOps4 _ hostOps4_writes (by decide)
    _ = W7 m c (Proc.devRef .tc main_arg7) := W8_of_ne m c main_arg7 (by decide)
    _ = W6 m c (Proc.devRef .tc main_arg7) := StableHlo.after_of_writes_sub hostOps3 _ hostOps3_writes (by decide)
    _ = W5 m c (Proc.devRef .tc main_arg7) := W6_of_ne m c main_arg7 (by decide)
    _ = W4 m c (Proc.devRef .tc main_arg7) := StableHlo.after_of_writes_sub hostOps2 _ hostOps2_writes (by decide)
    _ = W3 m c (Proc.devRef .tc main_arg7) := W4_of_ne m c main_arg7 (by decide)
    _ = W2 m c (Proc.devRef .tc main_arg7) := StableHlo.after_of_writes_sub hostOps1 _ hostOps1_writes (by decide)
    _ = W1 m c (Proc.devRef .tc main_arg7) := W2_of_ne m c main_arg7 (by decide)
    _ = W0 m c (Proc.devRef .tc main_arg7) := StableHlo.after_of_writes_sub hostOps0 _ hostOps0_writes (by decide)
    _ = m ((c : Thread nD τ).loc main_arg7) := rfl

theorem W22_main_arg8 (c : Dev nD) : W22 m c (Proc.devRef .tc main_arg8) = m ((c : Thread nD τ).loc main_arg8) :=
  calc W22 m c (Proc.devRef .tc main_arg8)
    _ = W21 m c (Proc.devRef .tc main_arg8) := W22_of_ne m c main_arg8 (by decide)
    _ = W20 m c (Proc.devRef .tc main_arg8) := StableHlo.after_of_writes_sub hostOps10 _ hostOps10_writes (by decide)
    _ = W19 m c (Proc.devRef .tc main_arg8) := W20_of_ne m c main_arg8 (by decide)
    _ = W18 m c (Proc.devRef .tc main_arg8) := StableHlo.after_of_writes_sub hostOps9 _ hostOps9_writes (by decide)
    _ = W17 m c (Proc.devRef .tc main_arg8) := W18_of_ne m c main_arg8 (by decide)
    _ = W16 m c (Proc.devRef .tc main_arg8) := StableHlo.after_of_writes_sub hostOps8 _ hostOps8_writes (by decide)
    _ = W15 m c (Proc.devRef .tc main_arg8) := W16_of_ne m c main_arg8 (by decide)
    _ = W14 m c (Proc.devRef .tc main_arg8) := StableHlo.after_of_writes_sub hostOps7 _ hostOps7_writes (by decide)
    _ = W13 m c (Proc.devRef .tc main_arg8) := W14_of_ne m c main_arg8 (by decide)
    _ = W12 m c (Proc.devRef .tc main_arg8) := StableHlo.after_of_writes_sub hostOps6 _ hostOps6_writes (by decide)
    _ = W11 m c (Proc.devRef .tc main_arg8) := W12_of_ne m c main_arg8 (by decide)
    _ = W10 m c (Proc.devRef .tc main_arg8) := StableHlo.after_of_writes_sub hostOps5 _ hostOps5_writes (by decide)
    _ = W9 m c (Proc.devRef .tc main_arg8) := W10_of_ne m c main_arg8 (by decide)
    _ = W8 m c (Proc.devRef .tc main_arg8) := StableHlo.after_of_writes_sub hostOps4 _ hostOps4_writes (by decide)
    _ = W7 m c (Proc.devRef .tc main_arg8) := W8_of_ne m c main_arg8 (by decide)
    _ = W6 m c (Proc.devRef .tc main_arg8) := StableHlo.after_of_writes_sub hostOps3 _ hostOps3_writes (by decide)
    _ = W5 m c (Proc.devRef .tc main_arg8) := W6_of_ne m c main_arg8 (by decide)
    _ = W4 m c (Proc.devRef .tc main_arg8) := StableHlo.after_of_writes_sub hostOps2 _ hostOps2_writes (by decide)
    _ = W3 m c (Proc.devRef .tc main_arg8) := W4_of_ne m c main_arg8 (by decide)
    _ = W2 m c (Proc.devRef .tc main_arg8) := StableHlo.after_of_writes_sub hostOps1 _ hostOps1_writes (by decide)
    _ = W1 m c (Proc.devRef .tc main_arg8) := W2_of_ne m c main_arg8 (by decide)
    _ = W0 m c (Proc.devRef .tc main_arg8) := StableHlo.after_of_writes_sub hostOps0 _ hostOps0_writes (by decide)
    _ = m ((c : Thread nD τ).loc main_arg8) := rfl

theorem W22_main_arg9 (c : Dev nD) : W22 m c (Proc.devRef .tc main_arg9) = m ((c : Thread nD τ).loc main_arg9) :=
  calc W22 m c (Proc.devRef .tc main_arg9)
    _ = W21 m c (Proc.devRef .tc main_arg9) := W22_of_ne m c main_arg9 (by decide)
    _ = W20 m c (Proc.devRef .tc main_arg9) := StableHlo.after_of_writes_sub hostOps10 _ hostOps10_writes (by decide)
    _ = W19 m c (Proc.devRef .tc main_arg9) := W20_of_ne m c main_arg9 (by decide)
    _ = W18 m c (Proc.devRef .tc main_arg9) := StableHlo.after_of_writes_sub hostOps9 _ hostOps9_writes (by decide)
    _ = W17 m c (Proc.devRef .tc main_arg9) := W18_of_ne m c main_arg9 (by decide)
    _ = W16 m c (Proc.devRef .tc main_arg9) := StableHlo.after_of_writes_sub hostOps8 _ hostOps8_writes (by decide)
    _ = W15 m c (Proc.devRef .tc main_arg9) := W16_of_ne m c main_arg9 (by decide)
    _ = W14 m c (Proc.devRef .tc main_arg9) := StableHlo.after_of_writes_sub hostOps7 _ hostOps7_writes (by decide)
    _ = W13 m c (Proc.devRef .tc main_arg9) := W14_of_ne m c main_arg9 (by decide)
    _ = W12 m c (Proc.devRef .tc main_arg9) := StableHlo.after_of_writes_sub hostOps6 _ hostOps6_writes (by decide)
    _ = W11 m c (Proc.devRef .tc main_arg9) := W12_of_ne m c main_arg9 (by decide)
    _ = W10 m c (Proc.devRef .tc main_arg9) := StableHlo.after_of_writes_sub hostOps5 _ hostOps5_writes (by decide)
    _ = W9 m c (Proc.devRef .tc main_arg9) := W10_of_ne m c main_arg9 (by decide)
    _ = W8 m c (Proc.devRef .tc main_arg9) := StableHlo.after_of_writes_sub hostOps4 _ hostOps4_writes (by decide)
    _ = W7 m c (Proc.devRef .tc main_arg9) := W8_of_ne m c main_arg9 (by decide)
    _ = W6 m c (Proc.devRef .tc main_arg9) := StableHlo.after_of_writes_sub hostOps3 _ hostOps3_writes (by decide)
    _ = W5 m c (Proc.devRef .tc main_arg9) := W6_of_ne m c main_arg9 (by decide)
    _ = W4 m c (Proc.devRef .tc main_arg9) := StableHlo.after_of_writes_sub hostOps2 _ hostOps2_writes (by decide)
    _ = W3 m c (Proc.devRef .tc main_arg9) := W4_of_ne m c main_arg9 (by decide)
    _ = W2 m c (Proc.devRef .tc main_arg9) := StableHlo.after_of_writes_sub hostOps1 _ hostOps1_writes (by decide)
    _ = W1 m c (Proc.devRef .tc main_arg9) := W2_of_ne m c main_arg9 (by decide)
    _ = W0 m c (Proc.devRef .tc main_arg9) := StableHlo.after_of_writes_sub hostOps0 _ hostOps0_writes (by decide)
    _ = m ((c : Thread nD τ).loc main_arg9) := rfl

theorem W22_main_arg10 (c : Dev nD) : W22 m c (Proc.devRef .tc main_arg10) = m ((c : Thread nD τ).loc main_arg10) :=
  calc W22 m c (Proc.devRef .tc main_arg10)
    _ = W21 m c (Proc.devRef .tc main_arg10) := (W22_arr m c 5).trans (((dat10 (VW21 m) c).arrAt_in 5 rfl _).trans (A_eq10 (VW21 m) c 5))
    _ = W20 m c (Proc.devRef .tc main_arg10) := StableHlo.after_of_writes_sub hostOps10 _ hostOps10_writes (by decide)
    _ = W19 m c (Proc.devRef .tc main_arg10) := W20_of_ne m c main_arg10 (by decide)
    _ = W18 m c (Proc.devRef .tc main_arg10) := StableHlo.after_of_writes_sub hostOps9 _ hostOps9_writes (by decide)
    _ = W17 m c (Proc.devRef .tc main_arg10) := W18_of_ne m c main_arg10 (by decide)
    _ = W16 m c (Proc.devRef .tc main_arg10) := StableHlo.after_of_writes_sub hostOps8 _ hostOps8_writes (by decide)
    _ = W15 m c (Proc.devRef .tc main_arg10) := W16_of_ne m c main_arg10 (by decide)
    _ = W14 m c (Proc.devRef .tc main_arg10) := StableHlo.after_of_writes_sub hostOps7 _ hostOps7_writes (by decide)
    _ = W13 m c (Proc.devRef .tc main_arg10) := W14_of_ne m c main_arg10 (by decide)
    _ = W12 m c (Proc.devRef .tc main_arg10) := StableHlo.after_of_writes_sub hostOps6 _ hostOps6_writes (by decide)
    _ = W11 m c (Proc.devRef .tc main_arg10) := W12_of_ne m c main_arg10 (by decide)
    _ = W10 m c (Proc.devRef .tc main_arg10) := StableHlo.after_of_writes_sub hostOps5 _ hostOps5_writes (by decide)
    _ = W9 m c (Proc.devRef .tc main_arg10) := W10_of_ne m c main_arg10 (by decide)
    _ = W8 m c (Proc.devRef .tc main_arg10) := StableHlo.after_of_writes_sub hostOps4 _ hostOps4_writes (by decide)
    _ = W7 m c (Proc.devRef .tc main_arg10) := W8_of_ne m c main_arg10 (by decide)
    _ = W6 m c (Proc.devRef .tc main_arg10) := StableHlo.after_of_writes_sub hostOps3 _ hostOps3_writes (by decide)
    _ = W5 m c (Proc.devRef .tc main_arg10) := W6_of_ne m c main_arg10 (by decide)
    _ = W4 m c (Proc.devRef .tc main_arg10) := StableHlo.after_of_writes_sub hostOps2 _ hostOps2_writes (by decide)
    _ = W3 m c (Proc.devRef .tc main_arg10) := W4_of_ne m c main_arg10 (by decide)
    _ = W2 m c (Proc.devRef .tc main_arg10) := StableHlo.after_of_writes_sub hostOps1 _ hostOps1_writes (by decide)
    _ = W1 m c (Proc.devRef .tc main_arg10) := W2_of_ne m c main_arg10 (by decide)
    _ = W0 m c (Proc.devRef .tc main_arg10) := StableHlo.after_of_writes_sub hostOps0 _ hostOps0_writes (by decide)
    _ = m ((c : Thread nD τ).loc main_arg10) := rfl

theorem W22_main_arg11 (c : Dev nD) : W22 m c (Proc.devRef .tc main_arg11) = m ((c : Thread nD τ).loc main_arg11) :=
  calc W22 m c (Proc.devRef .tc main_arg11)
    _ = W21 m c (Proc.devRef .tc main_arg11) := W22_of_ne m c main_arg11 (by decide)
    _ = W20 m c (Proc.devRef .tc main_arg11) := StableHlo.after_of_writes_sub hostOps10 _ hostOps10_writes (by decide)
    _ = W19 m c (Proc.devRef .tc main_arg11) := W20_of_ne m c main_arg11 (by decide)
    _ = W18 m c (Proc.devRef .tc main_arg11) := StableHlo.after_of_writes_sub hostOps9 _ hostOps9_writes (by decide)
    _ = W17 m c (Proc.devRef .tc main_arg11) := W18_of_ne m c main_arg11 (by decide)
    _ = W16 m c (Proc.devRef .tc main_arg11) := StableHlo.after_of_writes_sub hostOps8 _ hostOps8_writes (by decide)
    _ = W15 m c (Proc.devRef .tc main_arg11) := W16_of_ne m c main_arg11 (by decide)
    _ = W14 m c (Proc.devRef .tc main_arg11) := StableHlo.after_of_writes_sub hostOps7 _ hostOps7_writes (by decide)
    _ = W13 m c (Proc.devRef .tc main_arg11) := W14_of_ne m c main_arg11 (by decide)
    _ = W12 m c (Proc.devRef .tc main_arg11) := StableHlo.after_of_writes_sub hostOps6 _ hostOps6_writes (by decide)
    _ = W11 m c (Proc.devRef .tc main_arg11) := W12_of_ne m c main_arg11 (by decide)
    _ = W10 m c (Proc.devRef .tc main_arg11) := StableHlo.after_of_writes_sub hostOps5 _ hostOps5_writes (by decide)
    _ = W9 m c (Proc.devRef .tc main_arg11) := W10_of_ne m c main_arg11 (by decide)
    _ = W8 m c (Proc.devRef .tc main_arg11) := StableHlo.after_of_writes_sub hostOps4 _ hostOps4_writes (by decide)
    _ = W7 m c (Proc.devRef .tc main_arg11) := W8_of_ne m c main_arg11 (by decide)
    _ = W6 m c (Proc.devRef .tc main_arg11) := StableHlo.after_of_writes_sub hostOps3 _ hostOps3_writes (by decide)
    _ = W5 m c (Proc.devRef .tc main_arg11) := W6_of_ne m c main_arg11 (by decide)
    _ = W4 m c (Proc.devRef .tc main_arg11) := StableHlo.after_of_writes_sub hostOps2 _ hostOps2_writes (by decide)
    _ = W3 m c (Proc.devRef .tc main_arg11) := W4_of_ne m c main_arg11 (by decide)
    _ = W2 m c (Proc.devRef .tc main_arg11) := StableHlo.after_of_writes_sub hostOps1 _ hostOps1_writes (by decide)
    _ = W1 m c (Proc.devRef .tc main_arg11) := W2_of_ne m c main_arg11 (by decide)
    _ = W0 m c (Proc.devRef .tc main_arg11) := StableHlo.after_of_writes_sub hostOps0 _ hostOps0_writes (by decide)
    _ = m ((c : Thread nD τ).loc main_arg11) := rfl

end Cert.KernelIdeal.Hand

end
-- ==== Proof.Frames.lean ====
/-
  The three frame conjuncts: each program runs to the end from any memory satisfying the precondition, faults nowhere, and leaves
  its argument arrays as launched. For the two kernel programs this is the run of @main's 22 segments (11 host stretches, 11 kernel
  regions); for the reference, a straight line of host operations, it is its run with the result dropped.
-/
import proofs.«161825_j7842610283390_1_alg».proof.Defs
import proofs.«161825_j7842610283390_1_alg».proof.Proof.Gen.Kernel
import proofs.«161825_j7842610283390_1_alg».proof.Proof.Gen.KernelIdeal
import proofs.«161825_j7842610283390_1_alg».proof.Proof.Gen.ReferenceIdeal
import proofs.«161825_j7842610283390_1_alg».proof.Proof.Gen.Pre_finite_inputs
import proofs.«161825_j7842610283390_1_alg».proof.Proof.KRun
import proofs.«161825_j7842610283390_1_alg».proof.Proof.KIRun
import proofs.«161825_j7842610283390_1_alg».proof.Proof.RefRun

set_option maxRecDepth 16384

noncomputable section

namespace Cert.Proof.Frames

open Idealize.ShloMosaic Idealize.ShloMosaic.TcCoe Idealize.SL.Sem

attribute [local instance] Cert.Kernel.Gen.facts Cert.KernelIdeal.Gen.facts Cert.ReferenceIdeal.Gen.facts Cert.Pre_finite_inputs.Gen.facts

/-- The word-level program: every weakly fair execution of @main terminates, nothing faults, and the twelve argument arrays end as
    launched — read off the run, whose last boundary's contents hold each argument as no step wrote it. -/
theorem frame_Kernel : Cert.frame_Kernel := fun m ρ _ =>
  (θ_run Cert.Kernel.defs _ _).mono (fun r h c =>
    ⟨(h c _ (Cert.Kernel.Hand.mem_uc Cert.Kernel.main_arg0 (by decide))).trans (Cert.Kernel.Hand.W22_main_arg0 m c),
     (h c _ (Cert.Kernel.Hand.mem_uc Cert.Kernel.main_arg1 (by decide))).trans (Cert.Kernel.Hand.W22_main_arg1 m c),
     (h c _ (Cert.Kernel.Hand.mem_uc Cert.Kernel.main_arg2 (by decide))).trans (Cert.Kernel.Hand.W22_main_arg2 m c),
     (h c _ (Cert.Kernel.Hand.mem_uc Cert.Kernel.main_arg3 (by decide))).trans (Cert.Kernel.Hand.W22_main_arg3 m c),
     (h c _ (Cert.Kernel.Hand.mem_uc Cert.Kernel.main_arg4 (by decide))).trans (Cert.Kernel.Hand.W22_main_arg4 m c),
     (h c _ (Cert.Kernel.Hand.mem_uc Cert.Kernel.main_arg5 (by decide))).trans (Cert.Kernel.Hand.W22_main_arg5 m c),
     (h c _ (Cert.Kernel.Hand.mem_uc Cert.Kernel.main_arg6 (by decide))).trans (Cert.Kernel.Hand.W22_main_arg6 m c),
     (h c _ (Cert.Kernel.Hand.mem_uc Cert.Kernel.main_arg7 (by decide))).trans (Cert.Kernel.Hand.W22_main_arg7 m c),
     (h c _ (Cert.Kernel.Hand.mem_uc Cert.Kernel.main_arg8 (by decide))).trans (Cert.Kernel.Hand.W22_main_arg8 m c),
     (h c _ (Cert.Kernel.Hand.mem_uc Cert.Kernel.main_arg9 (by decide))).trans (Cert.Kernel.Hand.W22_main_arg9 m c),
     (h c _ (Cert.Kernel.Hand.mem_uc Cert.Kernel.main_arg10 (by decide))).trans (Cert.Kernel.Hand.W22_main_arg10 m c),
     (h c _ (Cert.Kernel.Hand.mem_uc Cert.Kernel.main_arg11 (by decide))).trans (Cert.Kernel.Hand.W22_main_arg11 m c)⟩)
    (Cert.Kernel.Hand.run_all (F := Bits) m ρ)

/-- The idealized program: every weakly fair execution of @main terminates, nothing faults, and the twelve argument arrays end as
    launched — read off the run, whose last boundary's contents hold each argument as no step wrote it. -/
theorem frame_KernelIdeal : Cert.frame_KernelIdeal := fun m ρ _ =>
  (θ_run Cert.KernelIdeal.defs _ _).mono (fun r h c =>
    ⟨(h c _ (Cert.KernelIdeal.Hand.mem_uc Cert.KernelIdeal.main_arg0 (by decide))).trans (Cert.KernelIdeal.Hand.W22_main_arg0 m c),
     (h c _ (Cert.KernelIdeal.Hand.mem_uc Cert.KernelIdeal.main_arg1 (by decide))).trans (Cert.KernelIdeal.Hand.W22_main_arg1 m c),
     (h c _ (Cert.KernelIdeal.Hand.mem_uc Cert.KernelIdeal.main_arg2 (by decide))).trans (Cert.KernelIdeal.Hand.W22_main_arg2 m c),
     (h c _ (Cert.KernelIdeal.Hand.mem_uc Cert.KernelIdeal.main_arg3 (by decide))).trans (Cert.KernelIdeal.Hand.W22_main_arg3 m c),
     (h c _ (Cert.KernelIdeal.Hand.mem_uc Cert.KernelIdeal.main_arg4 (by decide))).trans (Cert.KernelIdeal.Hand.W22_main_arg4 m c),
     (h c _ (Cert.KernelIdeal.Hand.mem_uc Cert.KernelIdeal.main_arg5 (by decide))).trans (Cert.KernelIdeal.Hand.W22_main_arg5 m c),
     (h c _ (Cert.KernelIdeal.Hand.mem_uc Cert.KernelIdeal.main_arg6 (by decide))).trans (Cert.KernelIdeal.Hand.W22_main_arg6 m c),
     (h c _ (Cert.KernelIdeal.Hand.mem_uc Cert.KernelIdeal.main_arg7 (by decide))).trans (Cert.KernelIdeal.Hand.W22_main_arg7 m c),
     (h c _ (Cert.KernelIdeal.Hand.mem_uc Cert.KernelIdeal.main_arg8 (by decide))).trans (Cert.KernelIdeal.Hand.W22_main_arg8 m c),
     (h c _ (Cert.KernelIdeal.Hand.mem_uc Cert.KernelIdeal.main_arg9 (by decide))).trans (Cert.KernelIdeal.Hand.W22_main_arg9 m c),
     (h c _ (Cert.KernelIdeal.Hand.mem_uc Cert.KernelIdeal.main_arg10 (by decide))).trans (Cert.KernelIdeal.Hand.W22_main_arg10 m c),
     (h c _ (Cert.KernelIdeal.Hand.mem_uc Cert.KernelIdeal.main_arg11 (by decide))).trans (Cert.KernelIdeal.Hand.W22_main_arg11 m c)⟩)
    (Cert.KernelIdeal.Hand.run_all (F := Ideal) m ρ)

/-- The reference: its run, the result dropped. -/
theorem frame_ReferenceIdeal : Cert.frame_ReferenceIdeal := fun m ρ _ =>
  (θ_run Cert.ReferenceIdeal.defs _ _).mono (fun _ h c => (h c).2) (Cert.ReferenceIdeal.Value.run (F := Ideal) m ρ)

end Cert.Proof.Frames

end
-- ==== Proof.KICarry.lean ====
/-
  A buffer written before boundary i and read at boundary j > i still holds there what it held at i: no host stretch in between
  writes it, and a region in between either does not touch it or reads it through an input window, whose array the pipeline leaves
  as entered.
-/
import proofs.«161825_j7842610283390_1_alg».proof.Proof.KIRun

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (c : Dev nD)

theorem carry_main_v1_1_2 : W2 m c (Proc.devRef .tc main_v1) = W1 m c (Proc.devRef .tc main_v1) :=
  calc W2 m c (Proc.devRef .tc main_v1)
    _ = W1 m c (Proc.devRef .tc main_v1) := W2_of_ne m c main_v1 (by decide)

theorem carry_main_v1_1_8 : W8 m c (Proc.devRef .tc main_v1) = W1 m c (Proc.devRef .tc main_v1) :=
  calc W8 m c (Proc.devRef .tc main_v1)
    _ = W7 m c (Proc.devRef .tc main_v1) := W8_of_ne m c main_v1 (by decide)
    _ = W6 m c (Proc.devRef .tc main_v1) := StableHlo.after_of_writes_sub hostOps3 _ hostOps3_writes (by decide)
    _ = W5 m c (Proc.devRef .tc main_v1) := W6_of_ne m c main_v1 (by decide)
    _ = W4 m c (Proc.devRef .tc main_v1) := StableHlo.after_of_writes_sub hostOps2 _ hostOps2_writes (by decide)
    _ = W3 m c (Proc.devRef .tc main_v1) := W4_of_ne m c main_v1 (by decide)
    _ = W2 m c (Proc.devRef .tc main_v1) := StableHlo.after_of_writes_sub hostOps1 _ hostOps1_writes (by decide)
    _ = W1 m c (Proc.devRef .tc main_v1) := W2_of_ne m c main_v1 (by decide)

theorem carry_main_v1_1_14 : W14 m c (Proc.devRef .tc main_v1) = W1 m c (Proc.devRef .tc main_v1) :=
  calc W14 m c (Proc.devRef .tc main_v1)
    _ = W13 m c (Proc.devRef .tc main_v1) := W14_of_ne m c main_v1 (by decide)
    _ = W12 m c (Proc.devRef .tc main_v1) := StableHlo.after_of_writes_sub hostOps6 _ hostOps6_writes (by decide)
    _ = W11 m c (Proc.devRef .tc main_v1) := W12_of_ne m c main_v1 (by decide)
    _ = W10 m c (Proc.devRef .tc main_v1) := StableHlo.after_of_writes_sub hostOps5 _ hostOps5_writes (by decide)
    _ = W9 m c (Proc.devRef .tc main_v1) := W10_of_ne m c main_v1 (by decide)
    _ = W8 m c (Proc.devRef .tc main_v1) := StableHlo.after_of_writes_sub hostOps4 _ hostOps4_writes (by decide)
    _ = W7 m c (Proc.devRef .tc main_v1) := W8_of_ne m c main_v1 (by decide)
    _ = W6 m c (Proc.devRef .tc main_v1) := StableHlo.after_of_writes_sub hostOps3 _ hostOps3_writes (by decide)
    _ = W5 m c (Proc.devRef .tc main_v1) := W6_of_ne m c main_v1 (by decide)
    _ = W4 m c (Proc.devRef .tc main_v1) := StableHlo.after_of_writes_sub hostOps2 _ hostOps2_writes (by decide)
    _ = W3 m c (Proc.devRef .tc main_v1) := W4_of_ne m c main_v1 (by decide)
    _ = W2 m c (Proc.devRef .tc main_v1) := StableHlo.after_of_writes_sub hostOps1 _ hostOps1_writes (by decide)
    _ = W1 m c (Proc.devRef .tc main_v1) := W2_of_ne m c main_v1 (by decide)

theorem carry_main_v3_1_4 : W4 m c (Proc.devRef .tc main_v3) = W1 m c (Proc.devRef .tc main_v3) :=
  calc W4 m c (Proc.devRef .tc main_v3)
    _ = W3 m c (Proc.devRef .tc main_v3) := W4_of_ne m c main_v3 (by decide)
    _ = W2 m c (Proc.devRef .tc main_v3) := StableHlo.after_of_writes_sub hostOps1 _ hostOps1_writes (by decide)
    _ = W1 m c (Proc.devRef .tc main_v3) := W2_of_ne m c main_v3 (by decide)

theorem carry_main_v3_1_10 : W10 m c (Proc.devRef .tc main_v3) = W1 m c (Proc.devRef .tc main_v3) :=
  calc W10 m c (Proc.devRef .tc main_v3)
    _ = W9 m c (Proc.devRef .tc main_v3) := W10_of_ne m c main_v3 (by decide)
    _ = W8 m c (Proc.devRef .tc main_v3) := StableHlo.after_of_writes_sub hostOps4 _ hostOps4_writes (by decide)
    _ = W7 m c (Proc.devRef .tc main_v3) := W8_of_ne m c main_v3 (by decide)
    _ = W6 m c (Proc.devRef .tc main_v3) := StableHlo.after_of_writes_sub hostOps3 _ hostOps3_writes (by decide)
    _ = W5 m c (Proc.devRef .tc main_v3) := W6_of_ne m c main_v3 (by decide)
    _ = W4 m c (Proc.devRef .tc main_v3) := StableHlo.after_of_writes_sub hostOps2 _ hostOps2_writes (by decide)
    _ = W3 m c (Proc.devRef .tc main_v3) := W4_of_ne m c main_v3 (by decide)
    _ = W2 m c (Proc.devRef .tc main_v3) := StableHlo.after_of_writes_sub hostOps1 _ hostOps1_writes (by decide)
    _ = W1 m c (Proc.devRef .tc main_v3) := W2_of_ne m c main_v3 (by decide)

theorem carry_main_v3_1_16 : W16 m c (Proc.devRef .tc main_v3) = W1 m c (Proc.devRef .tc main_v3) :=
  calc W16 m c (Proc.devRef .tc main_v3)
    _ = W15 m c (Proc.devRef .tc main_v3) := W16_of_ne m c main_v3 (by decide)
    _ = W14 m c (Proc.devRef .tc main_v3) := StableHlo.after_of_writes_sub hostOps7 _ hostOps7_writes (by decide)
    _ = W13 m c (Proc.devRef .tc main_v3) := W14_of_ne m c main_v3 (by decide)
    _ = W12 m c (Proc.devRef .tc main_v3) := StableHlo.after_of_writes_sub hostOps6 _ hostOps6_writes (by decide)
    _ = W11 m c (Proc.devRef .tc main_v3) := W12_of_ne m c main_v3 (by decide)
    _ = W10 m c (Proc.devRef .tc main_v3) := StableHlo.after_of_writes_sub hostOps5 _ hostOps5_writes (by decide)
    _ = W9 m c (Proc.devRef .tc main_v3) := W10_of_ne m c main_v3 (by decide)
    _ = W8 m c (Proc.devRef .tc main_v3) := StableHlo.after_of_writes_sub hostOps4 _ hostOps4_writes (by decide)
    _ = W7 m c (Proc.devRef .tc main_v3) := W8_of_ne m c main_v3 (by decide)
    _ = W6 m c (Proc.devRef .tc main_v3) := StableHlo.after_of_writes_sub hostOps3 _ hostOps3_writes (by decide)
    _ = W5 m c (Proc.devRef .tc main_v3) := W6_of_ne m c main_v3 (by decide)
    _ = W4 m c (Proc.devRef .tc main_v3) := StableHlo.after_of_writes_sub hostOps2 _ hostOps2_writes (by decide)
    _ = W3 m c (Proc.devRef .tc main_v3) := W4_of_ne m c main_v3 (by decide)
    _ = W2 m c (Proc.devRef .tc main_v3) := StableHlo.after_of_writes_sub hostOps1 _ hostOps1_writes (by decide)
    _ = W1 m c (Proc.devRef .tc main_v3) := W2_of_ne m c main_v3 (by decide)

theorem carry_main_v14_1_7 : W7 m c (Proc.devRef .tc main_v14) = W1 m c (Proc.devRef .tc main_v14) :=
  calc W7 m c (Proc.devRef .tc main_v14)
    _ = W6 m c (Proc.devRef .tc main_v14) := StableHlo.after_of_writes_sub hostOps3 _ hostOps3_writes (by decide)
    _ = W5 m c (Proc.devRef .tc main_v14) := W6_of_ne m c main_v14 (by decide)
    _ = W4 m c (Proc.devRef .tc main_v14) := StableHlo.after_of_writes_sub hostOps2 _ hostOps2_writes (by decide)
    _ = W3 m c (Proc.devRef .tc main_v14) := W4_of_ne m c main_v14 (by decide)
    _ = W2 m c (Proc.devRef .tc main_v14) := StableHlo.after_of_writes_sub hostOps1 _ hostOps1_writes (by decide)
    _ = W1 m c (Proc.devRef .tc main_v14) := (W2_arr m c 4).trans (((dat0 (VW1 m) c).arrAt_in 4 rfl _).trans (A_eq0 (VW1 m) c 4))

theorem carry_main_v14_1_13 : W13 m c (Proc.devRef .tc main_v14) = W1 m c (Proc.devRef .tc main_v14) :=
  calc W13 m c (Proc.devRef .tc main_v14)
    _ = W12 m c (Proc.devRef .tc main_v14) := StableHlo.after_of_writes_sub hostOps6 _ hostOps6_writes (by decide)
    _ = W11 m c (Proc.devRef .tc main_v14) := W12_of_ne m c main_v14 (by decide)
    _ = W10 m c (Proc.devRef .tc main_v14) := StableHlo.after_of_writes_sub hostOps5 _ hostOps5_writes (by decide)
    _ = W9 m c (Proc.devRef .tc main_v14) := W10_of_ne m c main_v14 (by decide)
    _ = W8 m c (Proc.devRef .tc main_v14) := StableHlo.after_of_writes_sub hostOps4 _ hostOps4_writes (by decide)
    _ = W7 m c (Proc.devRef .tc main_v14) := (W8_arr m c 4).trans (((dat3 (VW7 m) c).arrAt_in 4 rfl _).trans (A_eq3 (VW7 m) c 4))
    _ = W6 m c (Proc.devRef .tc main_v14) := StableHlo.after_of_writes_sub hostOps3 _ hostOps3_writes (by decide)
    _ = W5 m c (Proc.devRef .tc main_v14) := W6_of_ne m c main_v14 (by decide)
    _ = W4 m c (Proc.devRef .tc main_v14) := StableHlo.after_of_writes_sub hostOps2 _ hostOps2_writes (by decide)
    _ = W3 m c (Proc.devRef .tc main_v14) := W4_of_ne m c main_v14 (by decide)
    _ = W2 m c (Proc.devRef .tc main_v14) := StableHlo.after_of_writes_sub hostOps1 _ hostOps1_writes (by decide)
    _ = W1 m c (Proc.devRef .tc main_v14) := (W2_arr m c 4).trans (((dat0 (VW1 m) c).arrAt_in 4 rfl _).trans (A_eq0 (VW1 m) c 4))

theorem carry_main_v30_1_3 : W3 m c (Proc.devRef .tc main_v30) = W1 m c (Proc.devRef .tc main_v30) :=
  calc W3 m c (Proc.devRef .tc main_v30)
    _ = W2 m c (Proc.devRef .tc main_v30) := StableHlo.after_of_writes_sub hostOps1 _ hostOps1_writes (by decide)
    _ = W1 m c (Proc.devRef .tc main_v30) := W2_of_ne m c main_v30 (by decide)

theorem carry_main_v30_1_9 : W9 m c (Proc.devRef .tc main_v30) = W1 m c (Proc.devRef .tc main_v30) :=
  calc W9 m c (Proc.devRef .tc main_v30)
    _ = W8 m c (Proc.devRef .tc main_v30) := StableHlo.after_of_writes_sub hostOps4 _ hostOps4_writes (by decide)
    _ = W7 m c (Proc.devRef .tc main_v30) := W8_of_ne m c main_v30 (by decide)
    _ = W6 m c (Proc.devRef .tc main_v30) := StableHlo.after_of_writes_sub hostOps3 _ hostOps3_writes (by decide)
    _ = W5 m c (Proc.devRef .tc main_v30) := W6_of_ne m c main_v30 (by decide)
    _ = W4 m c (Proc.devRef .tc main_v30) := StableHlo.after_of_writes_sub hostOps2 _ hostOps2_writes (by decide)
    _ = W3 m c (Proc.devRef .tc main_v30) := (W4_arr m c 2).trans (((dat1 (VW3 m) c).arrAt_in 2 rfl _).trans (A_eq1 (VW3 m) c 2))
    _ = W2 m c (Proc.devRef .tc main_v30) := StableHlo.after_of_writes_sub hostOps1 _ hostOps1_writes (by decide)
    _ = W1 m c (Proc.devRef .tc main_v30) := W2_of_ne m c main_v30 (by decide)

theorem carry_main_v30_1_15 : W15 m c (Proc.devRef .tc main_v30) = W1 m c (Proc.devRef .tc main_v30) :=
  calc W15 m c (Proc.devRef .tc main_v30)
    _ = W14 m c (Proc.devRef .tc main_v30) := StableHlo.after_of_writes_sub hostOps7 _ hostOps7_writes (by decide)
    _ = W13 m c (Proc.devRef .tc main_v30) := W14_of_ne m c main_v30 (by decide)
    _ = W12 m c (Proc.devRef .tc main_v30) := StableHlo.after_of_writes_sub hostOps6 _ hostOps6_writes (by decide)
    _ = W11 m c (Proc.devRef .tc main_v30) := W12_of_ne m c main_v30 (by decide)
    _ = W10 m c (Proc.devRef .tc main_v30) := StableHlo.after_of_writes_sub hostOps5 _ hostOps5_writes (by decide)
    _ = W9 m c (Proc.devRef .tc main_v30) := (W10_arr m c 2).trans (((dat4 (VW9 m) c).arrAt_in 2 rfl _).trans (A_eq4 (VW9 m) c 2))
    _ = W8 m c (Proc.devRef .tc main_v30) := StableHlo.after_of_writes_sub hostOps4 _ hostOps4_writes (by decide)
    _ = W7 m c (Proc.devRef .tc main_v30) := W8_of_ne m c main_v30 (by decide)
    _ = W6 m c (Proc.devRef .tc main_v30) := StableHlo.after_of_writes_sub hostOps3 _ hostOps3_writes (by decide)
    _ = W5 m c (Proc.devRef .tc main_v30) := W6_of_ne m c main_v30 (by decide)
    _ = W4 m c (Proc.devRef .tc main_v30) := StableHlo.after_of_writes_sub hostOps2 _ hostOps2_writes (by decide)
    _ = W3 m c (Proc.devRef .tc main_v30) := (W4_arr m c 2).trans (((dat1 (VW3 m) c).arrAt_in 2 rfl _).trans (A_eq1 (VW3 m) c 2))
    _ = W2 m c (Proc.devRef .tc main_v30) := StableHlo.after_of_writes_sub hostOps1 _ hostOps1_writes (by decide)
    _ = W1 m c (Proc.devRef .tc main_v30) := W2_of_ne m c main_v30 (by decide)

theorem carry_main_v39_1_2_5 : W5 m c (Proc.devRef .tc main_v39_1) = W2 m c (Proc.devRef .tc main_v39_1) :=
  calc W5 m c (Proc.devRef .tc main_v39_1)
    _ = W4 m c (Proc.devRef .tc main_v39_1) := StableHlo.after_of_writes_sub hostOps2 _ hostOps2_writes (by decide)
    _ = W3 m c (Proc.devRef .tc main_v39_1) := W4_of_ne m c main_v39_1 (by decide)
    _ = W2 m c (Proc.devRef .tc main_v39_1) := StableHlo.after_of_writes_sub hostOps1 _ hostOps1_writes (by decide)

theorem carry_main_v56_6_7 : W7 m c (Proc.devRef .tc main_v56) = W6 m c (Proc.devRef .tc main_v56) :=
  calc W7 m c (Proc.devRef .tc main_v56)
    _ = W6 m c (Proc.devRef .tc main_v56) := StableHlo.after_of_writes_sub hostOps3 _ hostOps3_writes (by decide)

theorem carry_main_v56_6_18 : W18 m c (Proc.devRef .tc main_v56) = W6 m c (Proc.devRef .tc main_v56) :=
  calc W18 m c (Proc.devRef .tc main_v56)
    _ = W17 m c (Proc.devRef .tc main_v56) := W18_of_ne m c main_v56 (by decide)
    _ = W16 m c (Proc.devRef .tc main_v56) := StableHlo.after_of_writes_sub hostOps8 _ hostOps8_writes (by decide)
    _ = W15 m c (Proc.devRef .tc main_v56) := W16_of_ne m c main_v56 (by decide)
    _ = W14 m c (Proc.devRef .tc main_v56) := StableHlo.after_of_writes_sub hostOps7 _ hostOps7_writes (by decide)
    _ = W13 m c (Proc.devRef .tc main_v56) := W14_of_ne m c main_v56 (by decide)
    _ = W12 m c (Proc.devRef .tc main_v56) := StableHlo.after_of_writes_sub hostOps6 _ hostOps6_writes (by decide)
    _ = W11 m c (Proc.devRef .tc main_v56) := W12_of_ne m c main_v56 (by decide)
    _ = W10 m c (Proc.devRef .tc main_v56) := StableHlo.after_of_writes_sub hostOps5 _ hostOps5_writes (by decide)
    _ = W9 m c (Proc.devRef .tc main_v56) := W10_of_ne m c main_v56 (by decide)
    _ = W8 m c (Proc.devRef .tc main_v56) := StableHlo.after_of_writes_sub hostOps4 _ hostOps4_writes (by decide)
    _ = W7 m c (Proc.devRef .tc main_v56) := (W8_arr m c 0).trans (((dat3 (VW7 m) c).arrAt_in 0 rfl _).trans (A_eq3 (VW7 m) c 0))
    _ = W6 m c (Proc.devRef .tc main_v56) := StableHlo.after_of_writes_sub hostOps3 _ hostOps3_writes (by decide)

theorem carry_main_v65_1_8_11 : W11 m c (Proc.devRef .tc main_v65_1) = W8 m c (Proc.devRef .tc main_v65_1) :=
  calc W11 m c (Proc.devRef .tc main_v65_1)
    _ = W10 m c (Proc.devRef .tc main_v65_1) := StableHlo.after_of_writes_sub hostOps5 _ hostOps5_writes (by decide)
    _ = W9 m c (Proc.devRef .tc main_v65_1) := W10_of_ne m c main_v65_1 (by decide)
    _ = W8 m c (Proc.devRef .tc main_v65_1) := StableHlo.after_of_writes_sub hostOps4 _ hostOps4_writes (by decide)

theorem carry_main_v82_12_13 : W13 m c (Proc.devRef .tc main_v82) = W12 m c (Proc.devRef .tc main_v82) :=
  calc W13 m c (Proc.devRef .tc main_v82)
    _ = W12 m c (Proc.devRef .tc main_v82) := StableHlo.after_of_writes_sub hostOps6 _ hostOps6_writes (by decide)

theorem carry_main_v82_12_18 : W18 m c (Proc.devRef .tc main_v82) = W12 m c (Proc.devRef .tc main_v82) :=
  calc W18 m c (Proc.devRef .tc main_v82)
    _ = W17 m c (Proc.devRef .tc main_v82) := W18_of_ne m c main_v82 (by decide)
    _ = W16 m c (Proc.devRef .tc main_v82) := StableHlo.after_of_writes_sub hostOps8 _ hostOps8_writes (by decide)
    _ = W15 m c (Proc.devRef .tc main_v82) := W16_of_ne m c main_v82 (by decide)
    _ = W14 m c (Proc.devRef .tc main_v82) := StableHlo.after_of_writes_sub hostOps7 _ hostOps7_writes (by decide)
    _ = W13 m c (Proc.devRef .tc main_v82) := (W14_arr m c 0).trans (((dat6 (VW13 m) c).arrAt_in 0 rfl _).trans (A_eq6 (VW13 m) c 0))
    _ = W12 m c (Proc.devRef .tc main_v82) := StableHlo.after_of_writes_sub hostOps6 _ hostOps6_writes (by decide)

theorem carry_main_v91_1_14_17 : W17 m c (Proc.devRef .tc main_v91_1) = W14 m c (Proc.devRef .tc main_v91_1) :=
  calc W17 m c (Proc.devRef .tc main_v91_1)
    _ = W16 m c (Proc.devRef .tc main_v91_1) := StableHlo.after_of_writes_sub hostOps8 _ hostOps8_writes (by decide)
    _ = W15 m c (Proc.devRef .tc main_v91_1) := W16_of_ne m c main_v91_1 (by decide)
    _ = W14 m c (Proc.devRef .tc main_v91_1) := StableHlo.after_of_writes_sub hostOps7 _ hostOps7_writes (by decide)

theorem carry_main_v109_19_21 : W21 m c (Proc.devRef .tc main_v109) = W19 m c (Proc.devRef .tc main_v109) :=
  calc W21 m c (Proc.devRef .tc main_v109)
    _ = W20 m c (Proc.devRef .tc main_v109) := StableHlo.after_of_writes_sub hostOps10 _ hostOps10_writes (by decide)
    _ = W19 m c (Proc.devRef .tc main_v109) := (W20_arr m c 0).trans (((dat9 (VW19 m) c).arrAt_in 0 rfl _).trans (A_eq9 (VW19 m) c 0))

theorem carry_main_arg0_0_1 : W1 m c (Proc.devRef .tc main_arg0) = W0 m c (Proc.devRef .tc main_arg0) :=
  calc W1 m c (Proc.devRef .tc main_arg0)
    _ = W0 m c (Proc.devRef .tc main_arg0) := StableHlo.after_of_writes_sub hostOps0 _ hostOps0_writes (by decide)

theorem carry_main_arg0_0_18 : W18 m c (Proc.devRef .tc main_arg0) = W0 m c (Proc.devRef .tc main_arg0) :=
  calc W18 m c (Proc.devRef .tc main_arg0)
    _ = W17 m c (Proc.devRef .tc main_arg0) := W18_of_ne m c main_arg0 (by decide)
    _ = W16 m c (Proc.devRef .tc main_arg0) := StableHlo.after_of_writes_sub hostOps8 _ hostOps8_writes (by decide)
    _ = W15 m c (Proc.devRef .tc main_arg0) := W16_of_ne m c main_arg0 (by decide)
    _ = W14 m c (Proc.devRef .tc main_arg0) := StableHlo.after_of_writes_sub hostOps7 _ hostOps7_writes (by decide)
    _ = W13 m c (Proc.devRef .tc main_arg0) := W14_of_ne m c main_arg0 (by decide)
    _ = W12 m c (Proc.devRef .tc main_arg0) := StableHlo.after_of_writes_sub hostOps6 _ hostOps6_writes (by decide)
    _ = W11 m c (Proc.devRef .tc main_arg0) := W12_of_ne m c main_arg0 (by decide)
    _ = W10 m c (Proc.devRef .tc main_arg0) := StableHlo.after_of_writes_sub hostOps5 _ hostOps5_writes (by decide)
    _ = W9 m c (Proc.devRef .tc main_arg0) := W10_of_ne m c main_arg0 (by decide)
    _ = W8 m c (Proc.devRef .tc main_arg0) := StableHlo.after_of_writes_sub hostOps4 _ hostOps4_writes (by decide)
    _ = W7 m c (Proc.devRef .tc main_arg0) := W8_of_ne m c main_arg0 (by decide)
    _ = W6 m c (Proc.devRef .tc main_arg0) := StableHlo.after_of_writes_sub hostOps3 _ hostOps3_writes (by decide)
    _ = W5 m c (Proc.devRef .tc main_arg0) := W6_of_ne m c main_arg0 (by decide)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := (W2_arr m c 0).trans (((dat0 (VW1 m) c).arrAt_in 0 rfl _).trans (A_eq0 (VW1 m) c 0))
    _ = W0 m c (Proc.devRef .tc main_arg0) := StableHlo.after_of_writes_sub hostOps0 _ hostOps0_writes (by decide)

theorem carry_main_arg2_0_3 : W3 m c (Proc.devRef .tc main_arg2) = W0 m c (Proc.devRef .tc main_arg2) :=
  calc W3 m c (Proc.devRef .tc main_arg2)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)

theorem carry_main_arg2_0_9 : W9 m c (Proc.devRef .tc main_arg2) = W0 m c (Proc.devRef .tc main_arg2) :=
  calc W9 m c (Proc.devRef .tc main_arg2)
    _ = W8 m c (Proc.devRef .tc main_arg2) := StableHlo.after_of_writes_sub hostOps4 _ hostOps4_writes (by decide)
    _ = W7 m c (Proc.devRef .tc main_arg2) := W8_of_ne m c main_arg2 (by decide)
    _ = W6 m c (Proc.devRef .tc main_arg2) := StableHlo.after_of_writes_sub hostOps3 _ hostOps3_writes (by decide)
    _ = W5 m c (Proc.devRef .tc main_arg2) := W6_of_ne m c main_arg2 (by decide)
    _ = W4 m c (Proc.devRef .tc main_arg2) := StableHlo.after_of_writes_sub hostOps2 _ hostOps2_writes (by decide)
    _ = W3 m c (Proc.devRef .tc main_arg2) := (W4_arr m c 0).trans (((dat1 (VW3 m) c).arrAt_in 0 rfl _).trans (A_eq1 (VW3 m) c 0))
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)

theorem carry_main_arg2_0_15 : W15 m c (Proc.devRef .tc main_arg2) = W0 m c (Proc.devRef .tc main_arg2) :=
  calc W15 m c (Proc.devRef .tc main_arg2)
    _ = W14 m c (Proc.devRef .tc main_arg2) := StableHlo.after_of_writes_sub hostOps7 _ hostOps7_writes (by decide)
    _ = W13 m c (Proc.devRef .tc main_arg2) := W14_of_ne m c main_arg2 (by decide)
    _ = W12 m c (Proc.devRef .tc main_arg2) := StableHlo.after_of_writes_sub hostOps6 _ hostOps6_writes (by decide)
    _ = W11 m c (Proc.devRef .tc main_arg2) := W12_of_ne m c main_arg2 (by decide)
    _ = W10 m c (Proc.devRef .tc main_arg2) := StableHlo.after_of_writes_sub hostOps5 _ hostOps5_writes (by decide)
    _ = W9 m c (Proc.devRef .tc main_arg2) := (W10_arr m c 0).trans (((dat4 (VW9 m) c).arrAt_in 0 rfl _).trans (A_eq4 (VW9 m) c 0))
    _ = W8 m c (Proc.devRef .tc main_arg2) := StableHlo.after_of_writes_sub hostOps4 _ hostOps4_writes (by decide)
    _ = W7 m c (Proc.devRef .tc main_arg2) := W8_of_ne m c main_arg2 (by decide)
    _ = W6 m c (Proc.devRef .tc main_arg2) := StableHlo.after_of_writes_sub hostOps3 _ hostOps3_writes (by decide)
    _ = W5 m c (Proc.devRef .tc main_arg2) := W6_of_ne m c main_arg2 (by decide)
    _ = W4 m c (Proc.devRef .tc main_arg2) := StableHlo.after_of_writes_sub hostOps2 _ hostOps2_writes (by decide)
    _ = W3 m c (Proc.devRef .tc main_arg2) := (W4_arr m c 0).trans (((dat1 (VW3 m) c).arrAt_in 0 rfl _).trans (A_eq1 (VW3 m) c 0))
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)

theorem carry_main_arg3_0_6 : W6 m c (Proc.devRef .tc main_arg3) = W0 m c (Proc.devRef .tc main_arg3) :=
  calc W6 m c (Proc.devRef .tc main_arg3)
    _ = W5 m c (Proc.devRef .tc main_arg3) := W6_of_ne m c main_arg3 (by decide)
    _ = W4 m c (Proc.devRef .tc main_arg3) := StableHlo.after_of_writes_sub hostOps2 _ hostOps2_writes (by decide)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)

theorem carry_main_arg3_0_12 : W12 m c (Proc.devRef .tc main_arg3) = W0 m c (Proc.devRef .tc main_arg3) :=
  calc W12 m c (Proc.devRef .tc main_arg3)
    _ = W11 m c (Proc.devRef .tc main_arg3) := W12_of_ne m c main_arg3 (by decide)
    _ = W10 m c (Proc.devRef .tc main_arg3) := StableHlo.after_of_writes_sub hostOps5 _ hostOps5_writes (by decide)
    _ = W9 m c (Proc.devRef .tc main_arg3) := W10_of_ne m c main_arg3 (by decide)
    _ = W8 m c (Proc.devRef .tc main_arg3) := StableHlo.after_of_writes_sub hostOps4 _ hostOps4_writes (by decide)
    _ = W7 m c (Proc.devRef .tc main_arg3) := W8_of_ne m c main_arg3 (by decide)
    _ = W6 m c (Proc.devRef .tc main_arg3) := StableHlo.after_of_writes_sub hostOps3 _ hostOps3_writes (by decide)
    _ = W5 m c (Proc.devRef .tc main_arg3) := W6_of_ne m c main_arg3 (by decide)
    _ = W4 m c (Proc.devRef .tc main_arg3) := StableHlo.after_of_writes_sub hostOps2 _ hostOps2_writes (by decide)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)

theorem carry_main_arg4_0_6 : W6 m c (Proc.devRef .tc main_arg4) = W0 m c (Proc.devRef .tc main_arg4) :=
  calc W6 m c (Proc.devRef .tc main_arg4)
    _ = W5 m c (Proc.devRef .tc main_arg4) := W6_of_ne m c main_arg4 (by decide)
    _ = W4 m c (Proc.devRef .tc main_arg4) := StableHlo.after_of_writes_sub hostOps2 _ hostOps2_writes (by decide)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)

theorem carry_main_arg4_0_12 : W12 m c (Proc.devRef .tc main_arg4) = W0 m c (Proc.devRef .tc main_arg4) :=
  calc W12 m c (Proc.devRef .tc main_arg4)
    _ = W11 m c (Proc.devRef .tc main_arg4) := W12_of_ne m c main_arg4 (by decide)
    _ = W10 m c (Proc.devRef .tc main_arg4) := StableHlo.after_of_writes_sub hostOps5 _ hostOps5_writes (by decide)
    _ = W9 m c (Proc.devRef .tc main_arg4) := W10_of_ne m c main_arg4 (by decide)
    _ = W8 m c (Proc.devRef .tc main_arg4) := StableHlo.after_of_writes_sub hostOps4 _ hostOps4_writes (by decide)
    _ = W7 m c (Proc.devRef .tc main_arg4) := W8_of_ne m c main_arg4 (by decide)
    _ = W6 m c (Proc.devRef .tc main_arg4) := StableHlo.after_of_writes_sub hostOps3 _ hostOps3_writes (by decide)
    _ = W5 m c (Proc.devRef .tc main_arg4) := W6_of_ne m c main_arg4 (by decide)
    _ = W4 m c (Proc.devRef .tc main_arg4) := StableHlo.after_of_writes_sub hostOps2 _ hostOps2_writes (by decide)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)

theorem carry_main_arg5_0_6 : W6 m c (Proc.devRef .tc main_arg5) = W0 m c (Proc.devRef .tc main_arg5) :=
  calc W6 m c (Proc.devRef .tc main_arg5)
    _ = W5 m c (Proc.devRef .tc main_arg5) := W6_of_ne m c main_arg5 (by decide)
    _ = W4 m c (Proc.devRef .tc main_arg5) := StableHlo.after_of_writes_sub hostOps2 _ hostOps2_writes (by decide)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)

theorem carry_main_arg5_0_12 : W12 m c (Proc.devRef .tc main_arg5) = W0 m c (Proc.devRef .tc main_arg5) :=
  calc W12 m c (Proc.devRef .tc main_arg5)
    _ = W11 m c (Proc.devRef .tc main_arg5) := W12_of_ne m c main_arg5 (by decide)
    _ = W10 m c (Proc.devRef .tc main_arg5) := StableHlo.after_of_writes_sub hostOps5 _ hostOps5_writes (by decide)
    _ = W9 m c (Proc.devRef .tc main_arg5) := W10_of_ne m c main_arg5 (by decide)
    _ = W8 m c (Proc.devRef .tc main_arg5) := StableHlo.after_of_writes_sub hostOps4 _ hostOps4_writes (by decide)
    _ = W7 m c (Proc.devRef .tc main_arg5) := W8_of_ne m c main_arg5 (by decide)
    _ = W6 m c (Proc.devRef .tc main_arg5) := StableHlo.after_of_writes_sub hostOps3 _ hostOps3_writes (by decide)
    _ = W5 m c (Proc.devRef .tc main_arg5) := W6_of_ne m c main_arg5 (by decide)
    _ = W4 m c (Proc.devRef .tc main_arg5) := StableHlo.after_of_writes_sub hostOps2 _ hostOps2_writes (by decide)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)

theorem carry_main_arg6_0_2 : W2 m c (Proc.devRef .tc main_arg6) = W0 m c (Proc.devRef .tc main_arg6) :=
  calc W2 m c (Proc.devRef .tc main_arg6)
    _ = W1 m c (Proc.devRef .tc main_arg6) := W2_of_ne m c main_arg6 (by decide)
    _ = W0 m c (Proc.devRef .tc main_arg6) := StableHlo.after_of_writes_sub hostOps0 _ hostOps0_writes (by decide)

theorem carry_main_arg6_0_8 : W8 m c (Proc.devRef .tc main_arg6) = W0 m c (Proc.devRef .tc main_arg6) :=
  calc W8 m c (Proc.devRef .tc main_arg6)
    _ = W7 m c (Proc.devRef .tc main_arg6) := W8_of_ne m c main_arg6 (by decide)
    _ = W6 m c (Proc.devRef .tc main_arg6) := StableHlo.after_of_writes_sub hostOps3 _ hostOps3_writes (by decide)
    _ = W5 m c (Proc.devRef .tc main_arg6) := W6_of_ne m c main_arg6 (by decide)
    _ = W4 m c (Proc.devRef .tc main_arg6) := StableHlo.after_of_writes_sub hostOps2 _ hostOps2_writes (by decide)
    _ = W3 m c (Proc.devRef .tc main_arg6) := W4_of_ne m c main_arg6 (by decide)
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)

theorem carry_main_arg6_0_14 : W14 m c (Proc.devRef .tc main_arg6) = W0 m c (Proc.devRef .tc main_arg6) :=
  calc W14 m c (Proc.devRef .tc main_arg6)
    _ = W13 m c (Proc.devRef .tc main_arg6) := W14_of_ne m c main_arg6 (by decide)
    _ = W12 m c (Proc.devRef .tc main_arg6) := StableHlo.after_of_writes_sub hostOps6 _ hostOps6_writes (by decide)
    _ = W11 m c (Proc.devRef .tc main_arg6) := W12_of_ne m c main_arg6 (by decide)
    _ = W10 m c (Proc.devRef .tc main_arg6) := StableHlo.after_of_writes_sub hostOps5 _ hostOps5_writes (by decide)
    _ = W9 m c (Proc.devRef .tc main_arg6) := W10_of_ne m c main_arg6 (by decide)
    _ = W8 m c (Proc.devRef .tc main_arg6) := StableHlo.after_of_writes_sub hostOps4 _ hostOps4_writes (by decide)
    _ = W7 m c (Proc.devRef .tc main_arg6) := W8_of_ne m c main_arg6 (by decide)
    _ = W6 m c (Proc.devRef .tc main_arg6) := StableHlo.after_of_writes_sub hostOps3 _ hostOps3_writes (by decide)
    _ = W5 m c (Proc.devRef .tc main_arg6) := W6_of_ne m c main_arg6 (by decide)
    _ = W4 m c (Proc.devRef .tc main_arg6) := StableHlo.after_of_writes_sub hostOps2 _ hostOps2_writes (by decide)
    _ = W3 m c (Proc.devRef .tc main_arg6) := W4_of_ne m c main_arg6 (by decide)
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)

theorem carry_main_arg7_0_2 : W2 m c (Proc.devRef .tc main_arg7) = W0 m c (Proc.devRef .tc main_arg7) :=
  calc W2 m c (Proc.devRef .tc main_arg7)
    _ = W1 m c (Proc.devRef .tc main_arg7) := W2_of_ne m c main_arg7 (by decide)
    _ = W0 m c (Proc.devRef .tc main_arg7) := StableHlo.after_of_writes_sub hostOps0 _ hostOps0_writes (by decide)

theorem carry_main_arg7_0_8 : W8 m c (Proc.devRef .tc main_arg7) = W0 m c (Proc.devRef .tc main_arg7) :=
  calc W8 m c (Proc.devRef .tc main_arg7)
    _ = W7 m c (Proc.devRef .tc main_arg7) := W8_of_ne m c main_arg7 (by decide)
    _ = W6 m c (Proc.devRef .tc main_arg7) := StableHlo.after_of_writes_sub hostOps3 _ hostOps3_writes (by decide)
    _ = W5 m c (Proc.devRef .tc main_arg7) := W6_of_ne m c main_arg7 (by decide)
    _ = W4 m c (Proc.devRef .tc main_arg7) := StableHlo.after_of_writes_sub hostOps2 _ hostOps2_writes (by decide)
    _ = W3 m c (Proc.devRef .tc main_arg7) := W4_of_ne m c main_arg7 (by decide)
    _ = W2 m c (Proc.devRef .tc main_arg7) := StableHlo.after_of_writes_sub hostOps1 _ hostOps1_writes (by decide)
    _ = W1 m c (Proc.devRef .tc main_arg7) := W2_of_ne m c main_arg7 (by decide)
    _ = W0 m c (Proc.devRef .tc main_arg7) := StableHlo.after_of_writes_sub hostOps0 _ hostOps0_writes (by decide)

theorem carry_main_arg7_0_14 : W14 m c (Proc.devRef .tc main_arg7) = W0 m c (Proc.devRef .tc main_arg7) :=
  calc W14 m c (Proc.devRef .tc main_arg7)
    _ = W13 m c (Proc.devRef .tc main_arg7) := W14_of_ne m c main_arg7 (by decide)
    _ = W12 m c (Proc.devRef .tc main_arg7) := StableHlo.after_of_writes_sub hostOps6 _ hostOps6_writes (by decide)
    _ = W11 m c (Proc.devRef .tc main_arg7) := W12_of_ne m c main_arg7 (by decide)
    _ = W10 m c (Proc.devRef .tc main_arg7) := StableHlo.after_of_writes_sub hostOps5 _ hostOps5_writes (by decide)
    _ = W9 m c (Proc.devRef .tc main_arg7) := W10_of_ne m c main_arg7 (by decide)
    _ = W8 m c (Proc.devRef .tc main_arg7) := StableHlo.after_of_writes_sub hostOps4 _ hostOps4_writes (by decide)
    _ = W7 m c (Proc.devRef .tc main_arg7) := W8_of_ne m c main_arg7 (by decide)
    _ = W6 m c (Proc.devRef .tc main_arg7) := StableHlo.after_of_writes_sub hostOps3 _ hostOps3_writes (by decide)
    _ = W5 m c (Proc.devRef .tc main_arg7) := W6_of_ne m c main_arg7 (by decide)
    _ = W4 m c (Proc.devRef .tc main_arg7) := StableHlo.after_of_writes_sub hostOps2 _ hostOps2_writes (by decide)
    _ = W3 m c (Proc.devRef .tc main_arg7) := W4_of_ne m c main_arg7 (by decide)
    _ = W2 m c (Proc.devRef .tc main_arg7) := StableHlo.after_of_writes_sub hostOps1 _ hostOps1_writes (by decide)
    _ = W1 m c (Proc.devRef .tc main_arg7) := W2_of_ne m c main_arg7 (by decide)
    _ = W0 m c (Proc.devRef .tc main_arg7) := StableHlo.after_of_writes_sub hostOps0 _ hostOps0_writes (by decide)

theorem carry_main_arg8_0_20 : W20 m c (Proc.devRef .tc main_arg8) = W0 m c (Proc.devRef .tc main_arg8) :=
  calc W20 m c (Proc.devRef .tc main_arg8)
    _ = W19 m c (Proc.devRef .tc main_arg8) := W20_of_ne m c main_arg8 (by decide)
    _ = W18 m c (Proc.devRef .tc main_arg8) := StableHlo.after_of_writes_sub hostOps9 _ hostOps9_writes (by decide)
    _ = W17 m c (Proc.devRef .tc main_arg8) := W18_of_ne m c main_arg8 (by decide)
    _ = W16 m c (Proc.devRef .tc main_arg8) := StableHlo.after_of_writes_sub hostOps8 _ hostOps8_writes (by decide)
    _ = W15 m c (Proc.devRef .tc main_arg8) := W16_of_ne m c main_arg8 (by decide)
    _ = W14 m c (Proc.devRef .tc main_arg8) := StableHlo.after_of_writes_sub hostOps7 _ hostOps7_writes (by decide)
    _ = W13 m c (Proc.devRef .tc main_arg8) := W14_of_ne m c main_arg8 (by decide)
    _ = W12 m c (Proc.devRef .tc main_arg8) := StableHlo.after_of_writes_sub hostOps6 _ hostOps6_writes (by decide)
    _ = W11 m c (Proc.devRef .tc main_arg8) := W12_of_ne m c main_arg8 (by decide)
    _ = W10 m c (Proc.devRef .tc main_arg8) := StableHlo.after_of_writes_sub hostOps5 _ hostOps5_writes (by decide)
    _ = W9 m c (Proc.devRef .tc main_arg8) := W10_of_ne m c main_arg8 (by decide)
    _ = W8 m c (Proc.devRef .tc main_arg8) := StableHlo.after_of_writes_sub hostOps4 _ hostOps4_writes (by decide)
    _ = W7 m c (Proc.devRef .tc main_arg8) := W8_of_ne m c main_arg8 (by decide)
    _ = W6 m c (Proc.devRef .tc main_arg8) := StableHlo.after_of_writes_sub hostOps3 _ hostOps3_writes (by decide)
    _ = W5 m c (Proc.devRef .tc main_arg8) := W6_of_ne m c main_arg8 (by decide)
    _ = W4 m c (Proc.devRef .tc main_arg8) := StableHlo.after_of_writes_sub hostOps2 _ hostOps2_writes (by decide)
    _ = W3 m c (Proc.devRef .tc main_arg8) := W4_of_ne m c main_arg8 (by decide)
    _ = W2 m c (Proc.devRef .tc main_arg8) := StableHlo.after_of_writes_sub hostOps1 _ hostOps1_writes (by decide)
    _ = W1 m c (Proc.devRef .tc main_arg8) := W2_of_ne m c main_arg8 (by decide)
    _ = W0 m c (Proc.devRef .tc main_arg8) := StableHlo.after_of_writes_sub hostOps0 _ hostOps0_writes (by decide)

theorem carry_main_arg9_0_20 : W20 m c (Proc.devRef .tc main_arg9) = W0 m c (Proc.devRef .tc main_arg9) :=
  calc W20 m c (Proc.devRef .tc main_arg9)
    _ = W19 m c (Proc.devRef .tc main_arg9) := W20_of_ne m c main_arg9 (by decide)
    _ = W18 m c (Proc.devRef .tc main_arg9) := StableHlo.after_of_writes_sub hostOps9 _ hostOps9_writes (by decide)
    _ = W17 m c (Proc.devRef .tc main_arg9) := W18_of_ne m c main_arg9 (by decide)
    _ = W16 m c (Proc.devRef .tc main_arg9) := StableHlo.after_of_writes_sub hostOps8 _ hostOps8_writes (by decide)
    _ = W15 m c (Proc.devRef .tc main_arg9) := W16_of_ne m c main_arg9 (by decide)
    _ = W14 m c (Proc.devRef .tc main_arg9) := StableHlo.after_of_writes_sub hostOps7 _ hostOps7_writes (by decide)
    _ = W13 m c (Proc.devRef .tc main_arg9) := W14_of_ne m c main_arg9 (by decide)
    _ = W12 m c (Proc.devRef .tc main_arg9) := StableHlo.after_of_writes_sub hostOps6 _ hostOps6_writes (by decide)
    _ = W11 m c (Proc.devRef .tc main_arg9) := W12_of_ne m c main_arg9 (by decide)
    _ = W10 m c (Proc.devRef .tc main_arg9) := StableHlo.after_of_writes_sub hostOps5 _ hostOps5_writes (by decide)
    _ = W9 m c (Proc.devRef .tc main_arg9) := W10_of_ne m c main_arg9 (by decide)
    _ = W8 m c (Proc.devRef .tc main_arg9) := StableHlo.after_of_writes_sub hostOps4 _ hostOps4_writes (by decide)
    _ = W7 m c (Proc.devRef .tc main_arg9) := W8_of_ne m c main_arg9 (by decide)
    _ = W6 m c (Proc.devRef .tc main_arg9) := StableHlo.after_of_writes_sub hostOps3 _ hostOps3_writes (by decide)
    _ = W5 m c (Proc.devRef .tc main_arg9) := W6_of_ne m c main_arg9 (by decide)
    _ = W4 m c (Proc.devRef .tc main_arg9) := StableHlo.after_of_writes_sub hostOps2 _ hostOps2_writes (by decide)
    _ = W3 m c (Proc.devRef .tc main_arg9) := W4_of_ne m c main_arg9 (by decide)
    _ = W2 m c (Proc.devRef .tc main_arg9) := StableHlo.after_of_writes_sub hostOps1 _ hostOps1_writes (by decide)
    _ = W1 m c (Proc.devRef .tc main_arg9) := W2_of_ne m c main_arg9 (by decide)
    _ = W0 m c (Proc.devRef .tc main_arg9) := StableHlo.after_of_writes_sub hostOps0 _ hostOps0_writes (by decide)

theorem carry_main_arg11_0_20 : W20 m c (Proc.devRef .tc main_arg11) = W0 m c (Proc.devRef .tc main_arg11) :=
  calc W20 m c (Proc.devRef .tc main_arg11)
    _ = W19 m c (Proc.devRef .tc main_arg11) := W20_of_ne m c main_arg11 (by decide)
    _ = W18 m c (Proc.devRef .tc main_arg11) := StableHlo.after_of_writes_sub hostOps9 _ hostOps9_writes (by decide)
    _ = W17 m c (Proc.devRef .tc main_arg11) := W18_of_ne m c main_arg11 (by decide)
    _ = W16 m c (Proc.devRef .tc main_arg11) := StableHlo.after_of_writes_sub hostOps8 _ hostOps8_writes (by decide)
    _ = W15 m c (Proc.devRef .tc main_arg11) := W16_of_ne m c main_arg11 (by decide)
    _ = W14 m c (Proc.devRef .tc main_arg11) := StableHlo.after_of_writes_sub hostOps7 _ hostOps7_writes (by decide)
    _ = W13 m c (Proc.devRef .tc main_arg11) := W14_of_ne m c main_arg11 (by decide)
    _ = W12 m c (Proc.devRef .tc main_arg11) := StableHlo.after_of_writes_sub hostOps6 _ hostOps6_writes (by decide)
    _ = W11 m c (Proc.devRef .tc main_arg11) := W12_of_ne m c main_arg11 (by decide)
    _ = W10 m c (Proc.devRef .tc main_arg11) := StableHlo.after_of_writes_sub hostOps5 _ hostOps5_writes (by decide)
    _ = W9 m c (Proc.devRef .tc main_arg11) := W10_of_ne m c main_arg11 (by decide)
    _ = W8 m c (Proc.devRef .tc main_arg11) := StableHlo.after_of_writes_sub hostOps4 _ hostOps4_writes (by decide)
    _ = W7 m c (Proc.devRef .tc main_arg11) := W8_of_ne m c main_arg11 (by decide)
    _ = W6 m c (Proc.devRef .tc main_arg11) := StableHlo.after_of_writes_sub hostOps3 _ hostOps3_writes (by decide)
    _ = W5 m c (Proc.devRef .tc main_arg11) := W6_of_ne m c main_arg11 (by decide)
    _ = W4 m c (Proc.devRef .tc main_arg11) := StableHlo.after_of_writes_sub hostOps2 _ hostOps2_writes (by decide)
    _ = W3 m c (Proc.devRef .tc main_arg11) := W4_of_ne m c main_arg11 (by decide)
    _ = W2 m c (Proc.devRef .tc main_arg11) := StableHlo.after_of_writes_sub hostOps1 _ hostOps1_writes (by decide)
    _ = W1 m c (Proc.devRef .tc main_arg11) := W2_of_ne m c main_arg11 (by decide)
    _ = W0 m c (Proc.devRef .tc main_arg11) := StableHlo.after_of_writes_sub hostOps0 _ hostOps0_writes (by decide)

theorem carry_main_arg10_0_21 : W21 m c (Proc.devRef .tc main_arg10) = W0 m c (Proc.devRef .tc main_arg10) :=
  calc W21 m c (Proc.devRef .tc main_arg10)
    _ = W20 m c (Proc.devRef .tc main_arg10) := StableHlo.after_of_writes_sub hostOps10 _ hostOps10_writes (by decide)
    _ = W19 m c (Proc.devRef .tc main_arg10) := W20_of_ne m c main_arg10 (by decide)
    _ = W18 m c (Proc.devRef .tc main_arg10) := StableHlo.after_of_writes_sub hostOps9 _ hostOps9_writes (by decide)
    _ = W17 m c (Proc.devRef .tc main_arg10) := W18_of_ne m c main_arg10 (by decide)
    _ = W16 m c (Proc.devRef .tc main_arg10) := StableHlo.after_of_writes_sub hostOps8 _ hostOps8_writes (by decide)
    _ = W15 m c (Proc.devRef .tc main_arg10) := W16_of_ne m c main_arg10 (by decide)
    _ = W14 m c (Proc.devRef .tc main_arg10) := StableHlo.after_of_writes_sub hostOps7 _ hostOps7_writes (by decide)
    _ = W13 m c (Proc.devRef .tc main_arg10) := W14_of_ne m c main_arg10 (by decide)
    _ = W12 m c (Proc.devRef .tc main_arg10) := StableHlo.after_of_writes_sub hostOps6 _ hostOps6_writes (by decide)
    _ = W11 m c (Proc.devRef .tc main_arg10) := W12_of_ne m c main_arg10 (by decide)
    _ = W10 m c (Proc.devRef .tc main_arg10) := StableHlo.after_of_writes_sub hostOps5 _ hostOps5_writes (by decide)
    _ = W9 m c (Proc.devRef .tc main_arg10) := W10_of_ne m c main_arg10 (by decide)
    _ = W8 m c (Proc.devRef .tc main_arg10) := StableHlo.after_of_writes_sub hostOps4 _ hostOps4_writes (by decide)
    _ = W7 m c (Proc.devRef .tc main_arg10) := W8_of_ne m c main_arg10 (by decide)
    _ = W6 m c (Proc.devRef .tc main_arg10) := StableHlo.after_of_writes_sub hostOps3 _ hostOps3_writes (by decide)
    _ = W5 m c (Proc.devRef .tc main_arg10) := W6_of_ne m c main_arg10 (by decide)
    _ = W4 m c (Proc.devRef .tc main_arg10) := StableHlo.after_of_writes_sub hostOps2 _ hostOps2_writes (by decide)
    _ = W3 m c (Proc.devRef .tc main_arg10) := W4_of_ne m c main_arg10 (by decide)
    _ = W2 m c (Proc.devRef .tc main_arg10) := StableHlo.after_of_writes_sub hostOps1 _ hostOps1_writes (by decide)
    _ = W1 m c (Proc.devRef .tc main_arg10) := W2_of_ne m c main_arg10 (by decide)
    _ = W0 m c (Proc.devRef .tc main_arg10) := StableHlo.after_of_writes_sub hostOps0 _ hostOps0_writes (by decide)

end Cert.KernelIdeal.Hand

end
-- ==== Proof.RealOps.lean ====
/-
  Real-valuedness on the extended reals, operation by operation.

  An extended real is REAL when it is the image of a real number (neither infinity). The idealised float operations
  keep reals real wherever the textbook operation is defined: sums, differences, products, maxima, finite sums, a
  quotient by a nonzero real, a real power, the reciprocal square root of a positive real. A gather reads its operand
  at an index clamped into range, so a gather of a real array is real whatever the index words hold; an accumulating
  scatter adds to each operand element the updates landing on it and drops the others, so a scatter of reals into
  reals is real whatever the index words hold; a concatenation reads one of its pieces.
  Also here: a count (a finite sum of ones, with zero in front and one added) is a real at least one.
-/
import Idealize.ShloMosaic.PureOps.Ideal
import Idealize.ShloMosaic.PureOps.Ideal.Laws
import Idealize.ShloMosaic.Lib.IdealHost
import Idealize.ShloMosaic.Lib.Pipeline.Value
import Idealize.ShloMosaic.Lib.ValueIdx

noncomputable section

namespace Cert.RealOps

open Idealize.ShloMosaic

/-- The extended real `x` is a real number. -/
abbrev IsReal (x : EReal) : Prop := ∃ r : ℝ, x = (r : EReal)

theorem isReal_coe (r : ℝ) : IsReal (r : EReal) := ⟨r, rfl⟩
theorem isReal_zero : IsReal (0 : EReal) := ⟨0, EReal.coe_zero.symm⟩
theorem isReal_one : IsReal (1 : EReal) := ⟨1, EReal.coe_one.symm⟩

theorem isReal_add {x y : EReal} (hx : IsReal x) (hy : IsReal y) : IsReal (x + y) := by
  obtain ⟨a, rfl⟩ := hx; obtain ⟨b, rfl⟩ := hy; exact ⟨a + b, (EReal.coe_add a b).symm⟩

theorem isReal_sub {x y : EReal} (hx : IsReal x) (hy : IsReal y) : IsReal (x - y) := by
  obtain ⟨a, rfl⟩ := hx; obtain ⟨b, rfl⟩ := hy; exact ⟨a - b, (EReal.coe_sub a b).symm⟩

theorem isReal_mul {x y : EReal} (hx : IsReal x) (hy : IsReal y) : IsReal (x * y) := by
  obtain ⟨a, rfl⟩ := hx; obtain ⟨b, rfl⟩ := hy; exact ⟨a * b, (EReal.coe_mul a b).symm⟩

theorem isReal_max {x y : EReal} (hx : IsReal x) (hy : IsReal y) : IsReal (max x y) := by
  rcases le_total x y with h | h
  · rw [max_eq_right h]; exact hy
  · rw [max_eq_left h]; exact hx

/-- A finite sum of reals is a real. -/
theorem isReal_sum {ι : Type*} (s : Finset ι) (f : ι → EReal) (hf : ∀ i ∈ s, IsReal (f i)) : IsReal (∑ i ∈ s, f i) := by
  classical
  induction s using Finset.induction_on with
  | empty => rw [Finset.sum_empty]; exact isReal_zero
  | insert a s ha ih =>
    rw [Finset.sum_insert ha]
    exact isReal_add (hf a (Finset.mem_insert_self a s)) (ih fun i hi => hf i (Finset.mem_insert_of_mem hi))

/-- The idealised quotient of a real by a nonzero real is a real. -/
theorem isReal_div {x y : EReal} (hx : IsReal x) {d : ℝ} (hy : y = (d : EReal)) (hd : d ≠ 0) : IsReal (Ideal.div x y) := by
  rw [hy, Ideal.div_coe hd]; exact isReal_mul hx (isReal_coe _)

/-- The idealised power of a real to a real exponent is a real. -/
theorem isReal_pow {x y : EReal} (hx : IsReal x) (hy : IsReal y) : IsReal (Ideal.pow x y) := by
  obtain ⟨a, rfl⟩ := hx; obtain ⟨b, rfl⟩ := hy; exact ⟨Real.rpow a b, rfl⟩

/-- The idealised reciprocal square root of a positive real is a real. -/
theorem isReal_rsqrt {x : EReal} {r : ℝ} (hx : x = (r : EReal)) (hr : 0 < r) : IsReal (Ideal.rsqrt x) := by
  rw [hx, Ideal.rsqrt_coe, if_neg (not_lt.mpr hr.le), if_neg hr.ne']; exact isReal_coe _

/-! ### The float literals of the program -/

theorem isReal_ofBits_zero : IsReal (Ideal.ofBits .f32 0x00000000#32) := by rw [Ideal.ofBits_zero_f32]; exact isReal_zero
theorem isReal_ofBits_one : IsReal (Ideal.ofBits .f32 0x3F800000#32) := by rw [Ideal.ofBits_one_f32]; exact isReal_one

/-- The f32 pattern `0xBF000000` is minus one half. -/
theorem ofBits_neg_half : Ideal.ofBits .f32 0xBF000000#32 = ((-(1 / 2) : ℝ) : EReal) := by
  simp [Ideal.ofBits, Ideal.ieee, -EReal.coe_mul, -EReal.coe_neg]; norm_num

theorem isReal_ofBits_neg_half : IsReal (Ideal.ofBits .f32 0xBF000000#32) := ⟨_, ofBits_neg_half⟩

/-! ### Counts -/

/-- A real that is not negative. -/
abbrev IsNonneg (x : EReal) : Prop := ∃ r : ℝ, 0 ≤ r ∧ x = (r : EReal)

theorem isNonneg_sum {ι : Type*} (s : Finset ι) (f : ι → EReal) (hf : ∀ i ∈ s, IsNonneg (f i)) : IsNonneg (∑ i ∈ s, f i) := by
  classical
  induction s using Finset.induction_on with
  | empty => rw [Finset.sum_empty]; exact ⟨0, le_rfl, EReal.coe_zero.symm⟩
  | insert a s ha ih =>
    rw [Finset.sum_insert ha]
    obtain ⟨p, hp, ep⟩ := hf a (Finset.mem_insert_self a s)
    obtain ⟨q, hq, eq⟩ := ih fun i hi => hf i (Finset.mem_insert_of_mem hi)
    exact ⟨p + q, add_nonneg hp hq, by rw [ep, eq, EReal.coe_add]⟩

/-- The float zero, plus a finite sum of float ones, plus the float one, is a real at least one. -/
theorem count_succ {ι : Type*} (s : Finset ι) :
    ∃ d : ℝ, 1 ≤ d ∧ (Ideal.ofBits .f32 0x00000000#32 + ∑ _j ∈ s, Ideal.ofBits .f32 0x3F800000#32)
        + Ideal.ofBits .f32 0x3F800000#32 = (d : EReal) := by
  obtain ⟨q, hq, eq⟩ := isNonneg_sum s (fun _ => Ideal.ofBits .f32 0x3F800000#32)
    (fun _ _ => ⟨1, zero_le_one, by rw [Ideal.ofBits_one_f32, EReal.coe_one]⟩)
  refine ⟨q + 1, by linarith, ?_⟩
  rw [eq, Ideal.ofBits_zero_f32, Ideal.ofBits_one_f32, zero_add, EReal.coe_add, EReal.coe_one]

/-! ### Gather, accumulating scatter, concatenation -/

/-- A gather reads its operand (at the clamped operand index). -/
theorem gather_apply {α : Type} {s si t : Shape} {w : Nat} (d : GatherDims s si t) (x : s.Idx → α) (idx : IVec si w) (j : t.Idx) :
    Host.gather d x idx j = x (d.operandIdx j idx) := rfl

/-- At the ideal instance an accumulating scatter is, at each element, the operand's element plus the sum of the
    updates whose result index is that element. -/
theorem scatterAdd_apply {s si u : Shape} {w : Nat} {φ : FTy} (d : ScatterDims s si u) (x : FVec Ideal s φ) (idx : IVec si w)
    (upd : FVec Ideal u φ) (i : s.Idx) :
    Host.scatterAdd d x idx upd i = Ideal.hostScatterAdd d x idx upd i := rfl

/-- An accumulating scatter of reals into reals is real, whatever the indices. -/
theorem isReal_scatterAdd {s si u : Shape} {w : Nat} {φ : FTy} (d : ScatterDims s si u) (x : FVec Ideal s φ) (idx : IVec si w)
    (upd : FVec Ideal u φ) (hx : ∀ i, IsReal (x i)) (hu : ∀ j, IsReal (upd j)) (i : s.Idx) :
    IsReal (Host.scatterAdd d x idx upd i) := by
  rw [scatterAdd_apply]; unfold Ideal.hostScatterAdd
  exact isReal_add (hx i) (isReal_sum _ _ fun j _ => hu j)

/-- Every element of a concatenation is an element of one of its pieces. -/
theorem concatenate_mem {α : Type} (P : α → Prop) (t : Shape) (a : Fin t.rank) (xs : List ((s : Shape) × (s.Idx → α)))
    (h : Shape.Concatenates (xs.map (·.1)) t a) (hP : ∀ p ∈ xs, ∀ i, P (p.2 i)) (j : t.Idx) :
    P (concatenate t a xs h j) := by
  unfold concatenate
  exact hP _ (List.getElem_mem _) _

end Cert.RealOps

end
-- ==== Proof.LibBatchNorm.lean ====
/-
  Column normalisation ("batch norm") on the extended reals, for data that are finite reals.

  For a finite family of reals `x i`, `n` their number, `m = (∑ x)/n` their mean:
  * the mean of the squares minus the square of the mean is the mean of the squared deviations
    (`var_forms`):  (∑ x²)/n − m·m = (∑ (x − m)²)/n ;
  * scaling by `γ·r` and shifting by `β − m·(γ·r)` is centring, scaling by `r`, then by `γ`, then shifting by `β`
    (`affine_forms`):  x·(γ·r) + (β − m·(γ·r)) = (x − m)·r·γ + β .
  Both are identities of real numbers; they are stated on the extended reals with the quotient `Ideal.div` the
  idealised float division, because that is where two programs that compute a variance or a normalised value in the two
  ways have to be compared. They need every datum to be a real: at an infinity `∞ − ∞` is not `0`.
  Also here: a finite sum of reals, and of products of reals, is a real (`sum_coe`, `sum_mul_coe`), the idealised quotient by a nonzero real is the real
  quotient (`div_coe_coe`), and the idealised reciprocal square root of a positive real is a real (`rsqrt_coe_pos`).
-/
import Idealize.ShloMosaic.PureOps.Ideal

noncomputable section

namespace Idealize.ShloMosaic.LibBatchNorm

open Idealize.ShloMosaic

/-- A finite sum of reals, formed on the extended reals, is the real sum. -/
theorem sum_coe {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A finite sum of products of reals (a dot product), formed on the extended reals, is the real one. -/
theorem sum_mul_coe {ι : Type*} (s : Finset ι) (a b : ι → ℝ) :
    (∑ i ∈ s, ((a i : ℝ) : EReal) * ((b i : ℝ) : EReal)) = ((∑ i ∈ s, a i * b i : ℝ) : EReal) := by
  simp only [← EReal.coe_mul, sum_coe]

/-- The idealised quotient of a real by a nonzero real is the real quotient. -/
theorem div_coe_coe (a : ℝ) {n : ℝ} (hn : n ≠ 0) : Ideal.div (a : EReal) (n : EReal) = ((a / n : ℝ) : EReal) := by
  rw [Ideal.div_coe hn, ← EReal.coe_mul]; congr 1; rw [mul_one_div]

/-- The idealised reciprocal square root of a positive real is the real `(√r)⁻¹`. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

/-- Over the reals: the mean of the squares minus the squared mean is the mean of the squared deviations. -/
theorem var_forms_real {ι : Type*} [Fintype ι] (x : ι → ℝ) {n : ℝ} (hn : n ≠ 0) (hcard : (Fintype.card ι : ℝ) = n) :
    (∑ i, x i * x i) / n - ((∑ i, x i) / n) * ((∑ i, x i) / n)
      = (∑ i, (x i - (∑ j, x j) / n) * (x i - (∑ j, x j) / n)) / n := by
  set S := ∑ j, x j with hS
  have h1 : ∑ i, (x i - S / n) * (x i - S / n) = ∑ i, x i * x i - 2 * (S / n) * S + n * ((S / n) * (S / n)) := by
    have : ∀ i, (x i - S / n) * (x i - S / n) = x i * x i - 2 * (S / n) * x i + (S / n) * (S / n) := fun i => by ring
    simp only [this, Finset.sum_add_distrib, Finset.sum_sub_distrib, ← Finset.mul_sum, Finset.sum_const, Finset.card_univ,
      nsmul_eq_mul, hcard, ← hS]
    ring
  rw [h1]; field_simp; ring

/-- On the extended reals, with the idealised quotient, for real data (`var_forms_real` carried over). -/
theorem var_forms {ι : Type*} [Fintype ι] (x : ι → ℝ) {n : ℝ} (hn : n ≠ 0) (hcard : (Fintype.card ι : ℝ) = n) :
    Ideal.div (∑ i, ((x i : ℝ) : EReal) * ((x i : ℝ) : EReal)) (n : EReal)
        - Ideal.div (∑ i, ((x i : ℝ) : EReal)) (n : EReal) * Ideal.div (∑ i, ((x i : ℝ) : EReal)) (n : EReal)
      = Ideal.div (∑ i, (((x i : ℝ) : EReal) - Ideal.div (∑ j, ((x j : ℝ) : EReal)) (n : EReal))
          * (((x i : ℝ) : EReal) - Ideal.div (∑ j, ((x j : ℝ) : EReal)) (n : EReal))) (n : EReal) := by
  simp only [← EReal.coe_mul, sum_coe, div_coe_coe _ hn, ← EReal.coe_sub]
  exact congrArg _ (var_forms_real x hn hcard)

/-- Scale-and-shift against centre-scale-shift, for reals read as extended reals. -/
theorem affine_forms (x m r g b : ℝ) :
    (x : EReal) * ((g : EReal) * (r : EReal)) + ((b : EReal) - (m : EReal) * ((g : EReal) * (r : EReal)))
      = ((x : EReal) - (m : EReal)) * (r : EReal) * (g : EReal) + (b : EReal) := by
  simp only [← EReal.coe_mul, ← EReal.coe_sub, ← EReal.coe_add]
  exact congrArg _ (by ring)

end Idealize.ShloMosaic.LibBatchNorm

end
-- ==== Proof.BnTail.lean ====
/-
  Column normalisation with training-mode statistics, read two ways, and a scaled rectifier read two ways.

  For a column of real data `x r` (`r` ranging over the 100000 rows), `N` the float 100000:
  * the two spellings of the variance agree (`var_col`):
      (∑ x²)/N − ((∑ x)/N)·((∑ x)/N) = (∑ (x − (∑ x)/N)²)/N ;
  * hence the normalised, scaled, shifted and projected rows agree (`tail_eq`), whichever spelling of the variance
    sits under the reciprocal square root. The small positive constant added to the variance is kept as its bit
    pattern on both sides and is never evaluated.
  * multiplying by the reciprocal of a nonzero divisor is dividing by it (`mul_recip`).
  The sums may start from the float zero (`zero_add_sum`), as a host reduction does.
-/
import Idealize.ShloMosaic.PureOps.Ideal
import Idealize.ShloMosaic.PureOps.Ideal.Laws
import Idealize.ShloMosaic.Lib.IdealHost
import proofs.«161825_j7842610283390_1_alg».proof.Proof.LibBatchNorm

noncomputable section

namespace Cert.BnTail

open Idealize.ShloMosaic

/-- The f32 pattern `0x47C35000` is the real 100000. -/
theorem ofBits_rows : Ideal.ofBits .f32 0x47C35000#32 = ((100000 : ℝ) : EReal) := by
  simp [Ideal.ofBits, Ideal.ieee, -EReal.coe_mul]; norm_num

/-- The float zero added in front of a sum changes nothing. -/
theorem zero_add_sum (s : EReal) : Ideal.ofBits .f32 0x00000000#32 + s = s := by
  rw [Ideal.ofBits_zero_f32, zero_add]

/-- One column: the mean of the squares minus the squared mean is the mean of the squared deviations, for real data,
    with the idealised quotient by the float 100000. -/
theorem var_col (x : Fin 100000 → EReal) (hx : ∀ r, ∃ a : ℝ, x r = (a : EReal)) :
    Ideal.div (∑ r, x r * x r) (Ideal.ofBits .f32 0x47C35000#32)
        - Ideal.div (∑ r, x r) (Ideal.ofBits .f32 0x47C35000#32) * Ideal.div (∑ r, x r) (Ideal.ofBits .f32 0x47C35000#32)
      = Ideal.div (∑ r, (x r - Ideal.div (∑ j, x j) (Ideal.ofBits .f32 0x47C35000#32))
          * (x r - Ideal.div (∑ j, x j) (Ideal.ofBits .f32 0x47C35000#32))) (Ideal.ofBits .f32 0x47C35000#32) := by
  choose a ha using hx
  obtain rfl : x = fun r => ((a r : ℝ) : EReal) := funext ha
  rw [ofBits_rows]
  exact LibBatchNorm.var_forms a (by norm_num) (by simp)

/-- The same with both of the right side's sums started from the float zero. -/
theorem var_col_init (x : Fin 100000 → EReal) (hx : ∀ r, ∃ a : ℝ, x r = (a : EReal)) :
    Ideal.div (∑ r, x r * x r) (Ideal.ofBits .f32 0x47C35000#32)
        - Ideal.div (∑ r, x r) (Ideal.ofBits .f32 0x47C35000#32) * Ideal.div (∑ r, x r) (Ideal.ofBits .f32 0x47C35000#32)
      = Ideal.div (Ideal.ofBits .f32 0x00000000#32 + ∑ r,
            (x r - Ideal.div (Ideal.ofBits .f32 0x00000000#32 + ∑ j, x j) (Ideal.ofBits .f32 0x47C35000#32))
          * (x r - Ideal.div (Ideal.ofBits .f32 0x00000000#32 + ∑ j, x j) (Ideal.ofBits .f32 0x47C35000#32)))
          (Ideal.ofBits .f32 0x47C35000#32) := by
  rw [zero_add_sum, zero_add_sum]; exact var_col x hx

/-- The mean and the variance of a real column are reals, and the variance is not negative. -/
theorem mean_real (x : Fin 100000 → EReal) (hx : ∀ r, ∃ a : ℝ, x r = (a : EReal)) :
    ∃ m : ℝ, Ideal.div (∑ r, x r) (Ideal.ofBits .f32 0x47C35000#32) = (m : EReal) := by
  choose a ha using hx
  obtain rfl : x = fun r => ((a r : ℝ) : EReal) := funext ha
  rw [ofBits_rows, LibBatchNorm.sum_coe, LibBatchNorm.div_coe_coe _ (by norm_num)]
  exact ⟨_, rfl⟩

theorem var_real_nonneg (x : Fin 100000 → EReal) (hx : ∀ r, ∃ a : ℝ, x r = (a : EReal)) :
    ∃ v : ℝ, 0 ≤ v ∧ Ideal.div (∑ r, (x r - Ideal.div (∑ j, x j) (Ideal.ofBits .f32 0x47C35000#32))
          * (x r - Ideal.div (∑ j, x j) (Ideal.ofBits .f32 0x47C35000#32))) (Ideal.ofBits .f32 0x47C35000#32) = (v : EReal) := by
  choose a ha using hx
  obtain rfl : x = fun r => ((a r : ℝ) : EReal) := funext ha
  rw [ofBits_rows, LibBatchNorm.sum_coe, LibBatchNorm.div_coe_coe _ (by norm_num)]
  simp only [← EReal.coe_sub, ← EReal.coe_mul, LibBatchNorm.sum_coe]
  rw [LibBatchNorm.div_coe_coe _ (by norm_num)]
  exact ⟨_, div_nonneg (Finset.sum_nonneg fun r _ => mul_self_nonneg _) (by norm_num), rfl⟩

/-- The small constant added to the variance is a positive real. -/
theorem eps_pos : ∃ e : ℝ, 0 < e ∧ Ideal.ofBits .f32 0x3727C5AC#32 = (e : EReal) := by
  refine ⟨_, ?_, by simp [Ideal.ofBits, Ideal.ieee, -EReal.coe_mul]; rfl⟩
  norm_num

/-- The normalised, scaled, shifted and projected row, with the variance spelled as the mean of the squares minus the
    squared mean over column sums `s`, `q` (left), and as the mean of the squared deviations, with the mean from a sum
    started at the float zero (right). The data are reals; nothing is asked of the other arrays. -/
theorem tail_eq (xc : Fin 100000 → Fin 256 → EReal) (hxc : ∀ r c, ∃ a : ℝ, xc r c = (a : EReal))
    (s q g b : Fin 256 → EReal) (ow : Fin 256 → Fin 64 → EReal) (ob : Fin 64 → EReal)
    (hs : ∀ c, s c = ∑ r, xc r c) (hq : ∀ c, q c = ∑ r, xc r c * xc r c) (r : Fin 100000) (d : Fin 64) :
    (∑ c, ((xc r c - Ideal.div (s c) (Ideal.ofBits .f32 0x47C35000#32))
            * Ideal.rsqrt (Ideal.div (q c) (Ideal.ofBits .f32 0x47C35000#32)
                - Ideal.div (s c) (Ideal.ofBits .f32 0x47C35000#32) * Ideal.div (s c) (Ideal.ofBits .f32 0x47C35000#32)
                + Ideal.ofBits .f32 0x3727C5AC#32) * g c + b c) * ow c d) + ob d
      = (∑ c, ((xc r c - Ideal.div (Ideal.ofBits .f32 0x00000000#32 + ∑ j, xc j c) (Ideal.ofBits .f32 0x47C35000#32))
            * Ideal.rsqrt (Ideal.div (Ideal.ofBits .f32 0x00000000#32 + ∑ i,
                  (xc i c - Ideal.div (Ideal.ofBits .f32 0x00000000#32 + ∑ j, xc j c) (Ideal.ofBits .f32 0x47C35000#32))
                * (xc i c - Ideal.div (Ideal.ofBits .f32 0x00000000#32 + ∑ j, xc j c) (Ideal.ofBits .f32 0x47C35000#32)))
                  (Ideal.ofBits .f32 0x47C35000#32)
                + Ideal.ofBits .f32 0x3727C5AC#32) * g c + b c) * ow c d) + ob d := by
  refine congrArg (· + ob d) (Finset.sum_congr rfl fun c _ => ?_)
  rw [hs c, hq c, var_col_init (fun i => xc i c) (fun i => hxc i c), zero_add_sum (∑ j, xc j c)]

/-- Multiplying by the reciprocal of a nonzero divisor is dividing by it; the one is the float one. -/
theorem mul_recip (x : EReal) {y : EReal} (hy : y ≠ 0) :
    x * Ideal.div (Ideal.ofBits .f32 0x3F800000#32) y = Ideal.div x y := by
  rw [Ideal.ofBits_one_f32]; exact Ideal.mul_one_div hy

/-- The same for a divisor that is a real at least one (a degree count plus one). -/
theorem mul_recip_of_one_le (x : EReal) {y : EReal} {d : ℝ} (hy : y = (d : EReal)) (hd : 1 ≤ d) :
    x * Ideal.div (Ideal.ofBits .f32 0x3F800000#32) y = Ideal.div x y := by
  refine mul_recip x ?_
  rw [hy]; exact_mod_cast (by linarith : d ≠ 0)

end Cert.BnTail

end
-- ==== Proof.RefFacts0.lean ====
/-
  Real-valuedness of the reference's stages, part 0: the degree (a real at least one), its power, the edge normaliser.
  Every float stage of the reference, read at the ideal instance under the hypothesis that every float argument entry
  is a real number, is a real number at every index; the integer index argument is unconstrained.
-/
import proofs.«161825_j7842610283390_1_alg».proof.Proof.RealOps
import proofs.«161825_j7842610283390_1_alg».proof.Proof.RefRead

noncomputable section

namespace Cert.RefFacts

open Cert.ReferenceIdeal Cert.ReferenceIdeal.Gen Cert.ReferenceIdeal.Read Idealize.ShloMosaic Idealize.ShloMosaic.TcCoe Idealize.SL.Sem Idealize.ShloMosaic.StableHlo Cert.RealOps

theorem real_cst (i : S_.Idx) :
    IsReal (val_main_cst (F := Ideal) i) := by
  rw [val_main_cst_apply]; exact isReal_ofBits_one

theorem real_v4 (i : S1250000.Idx) :
    IsReal (val_main_v4 (F := Ideal) i) := by
  rw [val_main_v4_apply]; exact (real_cst) _

theorem real_cst_0 (i : S_.Idx) :
    IsReal (val_main_cst_0 (F := Ideal) i) := by
  rw [val_main_cst_0_apply]; exact isReal_ofBits_zero

theorem real_v5 (i : S100000.Idx) :
    IsReal (val_main_v5 (F := Ideal) i) := by
  rw [val_main_v5_apply]; exact (real_cst_0) _

theorem real_v7 (x1 : (⟨S2x1250000, .i32⟩ : BufTy).Contents (Elt Ideal)) (i : S100000.Idx) :
    IsReal (val_main_v7 (F := Ideal) x1 i) := by
  unfold val_main_v7; exact isReal_scatterAdd _ _ _ _ (fun j => (real_v5) j) (fun j => (real_v4) j) i

theorem real_cst_1 (i : S_.Idx) :
    IsReal (val_main_cst_1 (F := Ideal) i) := by
  rw [val_main_cst_1_apply]; exact isReal_ofBits_one

theorem real_v8 (i : S100000.Idx) :
    IsReal (val_main_v8 (F := Ideal) i) := by
  rw [val_main_v8_apply]; exact (real_cst_1) _

theorem real_v9 (x1 : (⟨S2x1250000, .i32⟩ : BufTy).Contents (Elt Ideal)) (i : S100000.Idx) :
    IsReal (val_main_v9 (F := Ideal) x1 i) := by
  rw [val_main_v9_apply]; exact isReal_add ((real_v7 x1) i) ((real_v8) i)

/-- The degree plus one: the float zero, plus one float one per edge landing on the node, plus the float one. A real at
    least one, whatever the index words hold. -/
theorem ge_one_v9 (x1 : (⟨S2x1250000, .i32⟩ : BufTy).Contents (Elt Ideal)) (i : S100000.Idx) :
    ∃ d : ℝ, 1 ≤ d ∧ val_main_v9 (F := Ideal) x1 i = (d : EReal) := by
  have h4 : ∀ j, val_main_v4 (F := Ideal) j = Ideal.ofBits .f32 0x3F800000#32 := fun j => by
    rw [val_main_v4_apply, val_main_cst_apply]; rfl
  have h5 : ∀ j, val_main_v5 (F := Ideal) j = Ideal.ofBits .f32 0x00000000#32 := fun j => by
    rw [val_main_v5_apply, val_main_cst_0_apply]; rfl
  have h8 : ∀ j, val_main_v8 (F := Ideal) j = Ideal.ofBits .f32 0x3F800000#32 := fun j => by
    rw [val_main_v8_apply, val_main_cst_1_apply]; rfl
  rw [val_main_v9_apply, h8]
  unfold val_main_v7
  rw [scatterAdd_apply]; unfold Ideal.hostScatterAdd
  rw [h5, Finset.sum_congr rfl (fun j _ => h4 j)]
  exact count_succ _

theorem real_cst_2 (i : S_.Idx) :
    IsReal (val_main_cst_2 (F := Ideal) i) := by
  rw [val_main_cst_2_apply]; exact isReal_ofBits_neg_half

theorem real_v10 (i : S100000.Idx) :
    IsReal (val_main_v10 (F := Ideal) i) := by
  rw [val_main_v10_apply]; exact (real_cst_2) _

theorem real_v11 (x1 : (⟨S2x1250000, .i32⟩ : BufTy).Contents (Elt Ideal)) (i : S100000.Idx) :
    IsReal (val_main_v11 (F := Ideal) x1 i) := by
  rw [val_main_v11_apply]; exact isReal_pow ((real_v9 x1) i) ((real_v10) i)

theorem real_v18 (x1 : (⟨S2x1250000, .i32⟩ : BufTy).Contents (Elt Ideal)) (i : S1250000.Idx) :
    IsReal (val_main_v18 (F := Ideal) x1 i) := by
  unfold val_main_v18; rw [gather_apply]; exact (real_v11 x1) _

theorem real_v25 (x1 : (⟨S2x1250000, .i32⟩ : BufTy).Contents (Elt Ideal)) (i : S1250000.Idx) :
    IsReal (val_main_v25 (F := Ideal) x1 i) := by
  unfold val_main_v25; rw [gather_apply]; exact (real_v11 x1) _

theorem real_v26 (x1 : (⟨S2x1250000, .i32⟩ : BufTy).Contents (Elt Ideal)) (i : S1250000.Idx) :
    IsReal (val_main_v26 (F := Ideal) x1 i) := by
  rw [val_main_v26_apply]; exact isReal_mul ((real_v18 x1) i) ((real_v25 x1) i)

theorem real_v27 (x1 : (⟨S2x1250000, .i32⟩ : BufTy).Contents (Elt Ideal)) (i : S1250000x1.Idx) :
    IsReal (val_main_v27 (F := Ideal) x1 i) := by
  rw [val_main_v27_apply]; exact (real_v26 x1) _

end Cert.RefFacts

end
-- ==== Proof.RefFacts1.lean ====
/-
  Real-valuedness of the reference's stages, part 1: the first layer (node linear map, edge encoder, gathered message,
  accumulated messages, root branch divided by the degree, rectifier).
-/
import proofs.«161825_j7842610283390_1_alg».proof.Proof.RealOps
import proofs.«161825_j7842610283390_1_alg».proof.Proof.RefFacts0

noncomputable section

namespace Cert.RefFacts

open Cert.ReferenceIdeal Cert.ReferenceIdeal.Gen Cert.ReferenceIdeal.Read Idealize.ShloMosaic Idealize.ShloMosaic.TcCoe Idealize.SL.Sem Idealize.ShloMosaic.StableHlo Cert.RealOps

theorem real_v28 (x3 : (⟨S3x64x64, .f32⟩ : BufTy).Contents (Elt Ideal)) (h3 : ∀ i, IsReal (x3 i)) (i : S1x64x64.Idx) :
    IsReal (val_main_v28 (F := Ideal) x3 i) := by
  rw [val_main_v28_apply]; exact h3 _

theorem real_v29 (x3 : (⟨S3x64x64, .f32⟩ : BufTy).Contents (Elt Ideal)) (h3 : ∀ i, IsReal (x3 i)) (i : S64x64.Idx) :
    IsReal (val_main_v29 (F := Ideal) x3 i) := by
  rw [val_main_v29_apply]; exact (real_v28 x3 h3) _

theorem real_v30 (x0 : (⟨S100000x64, .f32⟩ : BufTy).Contents (Elt Ideal)) (x3 : (⟨S3x64x64, .f32⟩ : BufTy).Contents (Elt Ideal)) (h0 : ∀ i, IsReal (x0 i)) (h3 : ∀ i, IsReal (x3 i)) (i : S100000x64.Idx) :
    IsReal (val_main_v30 (F := Ideal) x0 x3 i) := by
  rw [val_main_v30_apply]; exact isReal_sum _ _ fun k _ => isReal_mul (h0 _) ((real_v29 x3 h3) _)

theorem real_v31 (x4 : (⟨S3x64, .f32⟩ : BufTy).Contents (Elt Ideal)) (h4 : ∀ i, IsReal (x4 i)) (i : S1x64.Idx) :
    IsReal (val_main_v31 (F := Ideal) x4 i) := by
  rw [val_main_v31_apply]; exact h4 _

theorem real_v32 (x4 : (⟨S3x64, .f32⟩ : BufTy).Contents (Elt Ideal)) (h4 : ∀ i, IsReal (x4 i)) (i : S64.Idx) :
    IsReal (val_main_v32 (F := Ideal) x4 i) := by
  rw [val_main_v32_apply]; exact (real_v31 x4 h4) _

theorem real_v33 (x4 : (⟨S3x64, .f32⟩ : BufTy).Contents (Elt Ideal)) (h4 : ∀ i, IsReal (x4 i)) (i : S1x64.Idx) :
    IsReal (val_main_v33 (F := Ideal) x4 i) := by
  rw [val_main_v33_apply]; exact (real_v32 x4 h4) _

theorem real_v34 (x4 : (⟨S3x64, .f32⟩ : BufTy).Contents (Elt Ideal)) (h4 : ∀ i, IsReal (x4 i)) (i : S100000x64.Idx) :
    IsReal (val_main_v34 (F := Ideal) x4 i) := by
  rw [val_main_v34_apply]; exact (real_v33 x4 h4) _

theorem real_v35 (x0 : (⟨S100000x64, .f32⟩ : BufTy).Contents (Elt Ideal)) (x3 : (⟨S3x64x64, .f32⟩ : BufTy).Contents (Elt Ideal)) (x4 : (⟨S3x64, .f32⟩ : BufTy).Contents (Elt Ideal)) (h0 : ∀ i, IsReal (x0 i)) (h3 : ∀ i, IsReal (x3 i)) (h4 : ∀ i, IsReal (x4 i)) (i : S100000x64.Idx) :
    IsReal (val_main_v35 (F := Ideal) x0 x3 x4 i) := by
  rw [val_main_v35_apply]; exact isReal_add ((real_v30 x0 x3 h0 h3) i) ((real_v34 x4 h4) i)

theorem real_v36 (x6 : (⟨S3x16x64, .f32⟩ : BufTy).Contents (Elt Ideal)) (h6 : ∀ i, IsReal (x6 i)) (i : S1x16x64.Idx) :
    IsReal (val_main_v36 (F := Ideal) x6 i) := by
  rw [val_main_v36_apply]; exact h6 _

theorem real_v37 (x6 : (⟨S3x16x64, .f32⟩ : BufTy).Contents (Elt Ideal)) (h6 : ∀ i, IsReal (x6 i)) (i : S16x64.Idx) :
    IsReal (val_main_v37 (F := Ideal) x6 i) := by
  rw [val_main_v37_apply]; exact (real_v36 x6 h6) _

theorem real_v38 (x2 : (⟨S1250000x16, .f32⟩ : BufTy).Contents (Elt Ideal)) (x6 : (⟨S3x16x64, .f32⟩ : BufTy).Contents (Elt Ideal)) (h2 : ∀ i, IsReal (x2 i)) (h6 : ∀ i, IsReal (x6 i)) (i : S1250000x64.Idx) :
    IsReal (val_main_v38 (F := Ideal) x2 x6 i) := by
  rw [val_main_v38_apply]; exact isReal_sum _ _ fun k _ => isReal_mul (h2 _) ((real_v37 x6 h6) _)

theorem real_v39 (x7 : (⟨S3x64, .f32⟩ : BufTy).Contents (Elt Ideal)) (h7 : ∀ i, IsReal (x7 i)) (i : S1x64.Idx) :
    IsReal (val_main_v39 (F := Ideal) x7 i) := by
  rw [val_main_v39_apply]; exact h7 _

theorem real_v40 (x7 : (⟨S3x64, .f32⟩ : BufTy).Contents (Elt Ideal)) (h7 : ∀ i, IsReal (x7 i)) (i : S64.Idx) :
    IsReal (val_main_v40 (F := Ideal) x7 i) := by
  rw [val_main_v40_apply]; exact (real_v39 x7 h7) _

theorem real_v41 (x7 : (⟨S3x64, .f32⟩ : BufTy).Contents (Elt Ideal)) (h7 : ∀ i, IsReal (x7 i)) (i : S1x64.Idx) :
    IsReal (val_main_v41 (F := Ideal) x7 i) := by
  rw [val_main_v41_apply]; exact (real_v40 x7 h7) _

theorem real_v42 (x7 : (⟨S3x64, .f32⟩ : BufTy).Contents (Elt Ideal)) (h7 : ∀ i, IsReal (x7 i)) (i : S1250000x64.Idx) :
    IsReal (val_main_v42 (F := Ideal) x7 i) := by
  rw [val_main_v42_apply]; exact (real_v41 x7 h7) _

theorem real_v43 (x2 : (⟨S1250000x16, .f32⟩ : BufTy).Contents (Elt Ideal)) (x6 : (⟨S3x16x64, .f32⟩ : BufTy).Contents (Elt Ideal)) (x7 : (⟨S3x64, .f32⟩ : BufTy).Contents (Elt Ideal)) (h2 : ∀ i, IsReal (x2 i)) (h6 : ∀ i, IsReal (x6 i)) (h7 : ∀ i, IsReal (x7 i)) (i : S1250000x64.Idx) :
    IsReal (val_main_v43 (F := Ideal) x2 x6 x7 i) := by
  rw [val_main_v43_apply]; exact isReal_add ((real_v38 x2 x6 h2 h6) i) ((real_v42 x7 h7) i)

theorem real_v50 (x0 : (⟨S100000x64, .f32⟩ : BufTy).Contents (Elt Ideal)) (x1 : (⟨S2x1250000, .i32⟩ : BufTy).Contents (Elt Ideal)) (x3 : (⟨S3x64x64, .f32⟩ : BufTy).Contents (Elt Ideal)) (x4 : (⟨S3x64, .f32⟩ : BufTy).Contents (Elt Ideal)) (h0 : ∀ i, IsReal (x0 i)) (h3 : ∀ i, IsReal (x3 i)) (h4 : ∀ i, IsReal (x4 i)) (i : S1250000x64.Idx) :
    IsReal (val_main_v50 (F := Ideal) x0 x1 x3 x4 i) := by
  unfold val_main_v50; rw [gather_apply]; exact (real_v35 x0 x3 x4 h0 h3 h4) _

theorem real_v51 (x0 : (⟨S100000x64, .f32⟩ : BufTy).Contents (Elt Ideal)) (x1 : (⟨S2x1250000, .i32⟩ : BufTy).Contents (Elt Ideal)) (x2 : (⟨S1250000x16, .f32⟩ : BufTy).Contents (Elt Ideal)) (x3 : (⟨S3x64x64, .f32⟩ : BufTy).Contents (Elt Ideal)) (x4 : (⟨S3x64, .f32⟩ : BufTy).Contents (Elt Ideal)) (x6 : (⟨S3x16x64, .f32⟩ : BufTy).Contents (Elt Ideal)) (x7 : (⟨S3x64, .f32⟩ : BufTy).Contents (Elt Ideal)) (h0 : ∀ i, IsReal (x0 i)) (h2 : ∀ i, IsReal (x2 i)) (h3 : ∀ i, IsReal (x3 i)) (h4 : ∀ i, IsReal (x4 i)) (h6 : ∀ i, IsReal (x6 i)) (h7 : ∀ i, IsReal (x7 i)) (i : S1250000x64.Idx) :
    IsReal (val_main_v51 (F := Ideal) x0 x1 x2 x3 x4 x6 x7 i) := by
  rw [val_main_v51_apply]; exact isReal_add ((real_v50 x0 x1 x3 x4 h0 h3 h4) i) ((real_v43 x2 x6 x7 h2 h6 h7) i)

theorem real_call0_cst (i : S_.Idx) :
    IsReal (val_main_call0_cst (F := Ideal) i) := by
  rw [val_main_call0_cst_apply]; exact isReal_ofBits_zero

theorem real_call0_v0 (i : S1250000x64.Idx) :
    IsReal (val_main_call0_v0 (F := Ideal) i) := by
  rw [val_main_call0_v0_apply]; exact (real_call0_cst) _

theorem real_v52 (x0 : (⟨S100000x64, .f32⟩ : BufTy).Contents (Elt Ideal)) (x1 : (⟨S2x1250000, .i32⟩ : BufTy).Contents (Elt Ideal)) (x2 : (⟨S1250000x16, .f32⟩ : BufTy).Contents (Elt Ideal)) (x3 : (⟨S3x64x64, .f32⟩ : BufTy).Contents (Elt Ideal)) (x4 : (⟨S3x64, .f32⟩ : BufTy).Contents (Elt Ideal)) (x6 : (⟨S3x16x64, .f32⟩ : BufTy).Contents (Elt Ideal)) (x7 : (⟨S3x64, .f32⟩ : BufTy).Contents (Elt Ideal)) (h0 : ∀ i, IsReal (x0 i)) (h2 : ∀ i, IsReal (x2 i)) (h3 : ∀ i, IsReal (x3 i)) (h4 : ∀ i, IsReal (x4 i)) (h6 : ∀ i, IsReal (x6 i)) (h7 : ∀ i, IsReal (x7 i)) (i : S1250000x64.Idx) :
    IsReal (val_main_v52 (F := Ideal) x0 x1 x2 x3 x4 x6 x7 i) := by
  rw [val_main_v52_apply]; exact isReal_max ((real_v51 x0 x1 x2 x3 x4 x6 x7 h0 h2 h3 h4 h6 h7) i) ((real_call0_v0) i)

theorem real_v53 (x1 : (⟨S2x1250000, .i32⟩ : BufTy).Contents (Elt Ideal)) (i : S1250000x64.Idx) :
    IsReal (val_main_v53 (F := Ideal) x1 i) := by
  rw [val_main_v53_apply]; exact (real_v27 x1) _

theorem real_v54 (x0 : (⟨S100000x64, .f32⟩ : BufTy).Contents (Elt Ideal)) (x1 : (⟨S2x1250000, .i32⟩ : BufTy).Contents (Elt Ideal)) (x2 : (⟨S1250000x16, .f32⟩ : BufTy).Contents (Elt Ideal)) (x3 : (⟨S3x64x64, .f32⟩ : BufTy).Contents (Elt Ideal)) (x4 : (⟨S3x64, .f32⟩ : BufTy).Contents (Elt Ideal)) (x6 : (⟨S3x16x64, .f32⟩ : BufTy).Contents (Elt Ideal)) (x7 : (⟨S3x64, .f32⟩ : BufTy).Contents (Elt Ideal)) (h0 : ∀ i, IsReal (x0 i)) (h2 : ∀ i, IsReal (x2 i)) (h3 : ∀ i, IsReal (x3 i)) (h4 : ∀ i, IsReal (x4 i)) (h6 : ∀ i, IsReal (x6 i)) (h7 : ∀ i, IsReal (x7 i)) (i : S1250000x64.Idx) :
    IsReal (val_main_v54 (F := Ideal) x0 x1 x2 x3 x4 x6 x7 i) := by
  rw [val_main_v54_apply]; exact isReal_mul ((real_v53 x1) i) ((real_v52 x0 x1 x2 x3 x4 x6 x7 h0 h2 h3 h4 h6 h7) i)

theorem real_cst_8 (i : S_.Idx) :
    IsReal (val_main_cst_8 (F := Ideal) i) := by
  rw [val_main_cst_8_apply]; exact isReal_ofBits_zero

theorem real_v55 (i : S100000x64.Idx) :
    IsReal (val_main_v55 (F := Ideal) i) := by
  rw [val_main_v55_apply]; exact (real_cst_8) _

theorem real_v57 (x0 : (⟨S100000x64, .f32⟩ : BufTy).Contents (Elt Ideal)) (x1 : (⟨S2x1250000, .i32⟩ : BufTy).Contents (Elt Ideal)) (x2 : (⟨S1250000x16, .f32⟩ : BufTy).Contents (Elt Ideal)) (x3 : (⟨S3x64x64, .f32⟩ : BufTy).Contents (Elt Ideal)) (x4 : (⟨S3x64, .f32⟩ : BufTy).Contents (Elt Ideal)) (x6 : (⟨S3x16x64, .f32⟩ : BufTy).Contents (Elt Ideal)) (x7 : (⟨S3x64, .f32⟩ : BufTy).Contents (Elt Ideal)) (h0 : ∀ i, IsReal (x0 i)) (h2 : ∀ i, IsReal (x2 i)) (h3 : ∀ i, IsReal (x3 i)) (h4 : ∀ i, IsReal (x4 i)) (h6 : ∀ i, IsReal (x6 i)) (h7 : ∀ i, IsReal (x7 i)) (i : S100000x64.Idx) :
    IsReal (val_main_v57 (F := Ideal) x0 x1 x2 x3 x4 x6 x7 i) := by
  unfold val_main_v57; exact isReal_scatterAdd _ _ _ _ (fun j => (real_v55) j) (fun j => (real_v54 x0 x1 x2 x3 x4 x6 x7 h0 h2 h3 h4 h6 h7) j) i

theorem real_v58 (x5 : (⟨S3x64, .f32⟩ : BufTy).Contents (Elt Ideal)) (h5 : ∀ i, IsReal (x5 i)) (i : S1x64.Idx) :
    IsReal (val_main_v58 (F := Ideal) x5 i) := by
  rw [val_main_v58_apply]; exact h5 _

theorem real_v59 (x5 : (⟨S3x64, .f32⟩ : BufTy).Contents (Elt Ideal)) (h5 : ∀ i, IsReal (x5 i)) (i : S64.Idx) :
    IsReal (val_main_v59 (F := Ideal) x5 i) := by
  rw [val_main_v59_apply]; exact (real_v58 x5 h5) _

theorem real_v60 (x5 : (⟨S3x64, .f32⟩ : BufTy).Contents (Elt Ideal)) (h5 : ∀ i, IsReal (x5 i)) (i : S1x64.Idx) :
    IsReal (val_main_v60 (F := Ideal) x5 i) := by
  rw [val_main_v60_apply]; exact (real_v59 x5 h5) _

theorem real_v61 (x5 : (⟨S3x64, .f32⟩ : BufTy).Contents (Elt Ideal)) (h5 : ∀ i, IsReal (x5 i)) (i : S100000x64.Idx) :
    IsReal (val_main_v61 (F := Ideal) x5 i) := by
  rw [val_main_v61_apply]; exact (real_v60 x5 h5) _

theorem real_v62 (x0 : (⟨S100000x64, .f32⟩ : BufTy).Contents (Elt Ideal)) (x3 : (⟨S3x64x64, .f32⟩ : BufTy).Contents (Elt Ideal)) (x4 x5 : (⟨S3x64, .f32⟩ : BufTy).Contents (Elt Ideal)) (h0 : ∀ i, IsReal (x0 i)) (h3 : ∀ i, IsReal (x3 i)) (h4 : ∀ i, IsReal (x4 i)) (h5 : ∀ i, IsReal (x5 i)) (i : S100000x64.Idx) :
    IsReal (val_main_v62 (F := Ideal) x0 x3 x4 x5 i) := by
  rw [val_main_v62_apply]; exact isReal_add ((real_v35 x0 x3 x4 h0 h3 h4) i) ((real_v61 x5 h5) i)

theorem real_call1_cst (i : S_.Idx) :
    IsReal (val_main_call1_cst (F := Ideal) i) := by
  rw [val_main_call1_cst_apply]; exact isReal_ofBits_zero

theorem real_call1_v0 (i : S100000x64.Idx) :
    IsReal (val_main_call1_v0 (F := Ideal) i) := by
  rw [val_main_call1_v0_apply]; exact (real_call1_cst) _

theorem real_v63 (x0 : (⟨S100000x64, .f32⟩ : BufTy).Contents (Elt Ideal)) (x3 : (⟨S3x64x64, .f32⟩ : BufTy).Contents (Elt Ideal)) (x4 x5 : (⟨S3x64, .f32⟩ : BufTy).Contents (Elt Ideal)) (h0 : ∀ i, IsReal (x0 i)) (h3 : ∀ i, IsReal (x3 i)) (h4 : ∀ i, IsReal (x4 i)) (h5 : ∀ i, IsReal (x5 i)) (i : S100000x64.Idx) :
    IsReal (val_main_v63 (F := Ideal) x0 x3 x4 x5 i) := by
  rw [val_main_v63_apply]; exact isReal_max ((real_v62 x0 x3 x4 x5 h0 h3 h4 h5) i) ((real_call1_v0) i)

theorem real_v64 (x1 : (⟨S2x1250000, .i32⟩ : BufTy).Contents (Elt Ideal)) (i : S100000x1.Idx) :
    IsReal (val_main_v64 (F := Ideal) x1 i) := by
  rw [val_main_v64_apply]; exact (real_v9 x1) _

theorem ge_one_v64 (x1 : (⟨S2x1250000, .i32⟩ : BufTy).Contents (Elt Ideal)) (i : S100000x1.Idx) :
    ∃ d : ℝ, 1 ≤ d ∧ val_main_v64 (F := Ideal) x1 i = (d : EReal) := by
  rw [val_main_v64_apply]; exact ge_one_v9 x1 _

theorem real_v65 (x1 : (⟨S2x1250000, .i32⟩ : BufTy).Contents (Elt Ideal)) (i : S100000x64.Idx) :
    IsReal (val_main_v65 (F := Ideal) x1 i) := by
  rw [val_main_v65_apply]; exact (real_v64 x1) _

theorem ge_one_v65 (x1 : (⟨S2x1250000, .i32⟩ : BufTy).Contents (Elt Ideal)) (i : S100000x64.Idx) :
    ∃ d : ℝ, 1 ≤ d ∧ val_main_v65 (F := Ideal) x1 i = (d : EReal) := by
  rw [val_main_v65_apply]; exact ge_one_v64 x1 _

theorem real_v66 (x0 : (⟨S100000x64, .f32⟩ : BufTy).Contents (Elt Ideal)) (x1 : (⟨S2x1250000, .i32⟩ : BufTy).Contents (Elt Ideal)) (x3 : (⟨S3x64x64, .f32⟩ : BufTy).Contents (Elt Ideal)) (x4 x5 : (⟨S3x64, .f32⟩ : BufTy).Contents (Elt Ideal)) (h0 : ∀ i, IsReal (x0 i)) (h3 : ∀ i, IsReal (x3 i)) (h4 : ∀ i, IsReal (x4 i)) (h5 : ∀ i, IsReal (x5 i)) (i : S100000x64.Idx) :
    IsReal (val_main_v66 (F := Ideal) x0 x1 x3 x4 x5 i) := by
  rw [val_main_v66_apply]
  obtain ⟨d, hd, e⟩ := ge_one_v65 x1 i
  exact isReal_div ((real_v63 x0 x3 x4 x5 h0 h3 h4 h5) i) e (lt_of_lt_of_le one_pos hd).ne'

theorem real_v67 (x0 : (⟨S100000x64, .f32⟩ : BufTy).Contents (Elt Ideal)) (x1 : (⟨S2x1250000, .i32⟩ : BufTy).Contents (Elt Ideal)) (x2 : (⟨S1250000x16, .f32⟩ : BufTy).Contents (Elt Ideal)) (x3 : (⟨S3x64x64, .f32⟩ : BufTy).Contents (Elt Ideal)) (x4 x5 : (⟨S3x64, .f32⟩ : BufTy).Contents (Elt Ideal)) (x6 : (⟨S3x16x64, .f32⟩ : BufTy).Contents (Elt Ideal)) (x7 : (⟨S3x64, .f32⟩ : BufTy).Contents (Elt Ideal)) (h0 : ∀ i, IsReal (x0 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (i : S100000x64.Idx) :
    IsReal (val_main_v67 (F := Ideal) x0 x1 x2 x3 x4 x5 x6 x7 i) := by
  rw [val_main_v67_apply]; exact isReal_add ((real_v57 x0 x1 x2 x3 x4 x6 x7 h0 h2 h3 h4 h6 h7) i) ((real_v66 x0 x1 x3 x4 x5 h0 h3 h4 h5) i)

theorem real_call2_cst (i : S_.Idx) :
    IsReal (val_main_call2_cst (F := Ideal) i) := by
  rw [val_main_call2_cst_apply]; exact isReal_ofBits_zero

theorem real_call2_v0 (i : S100000x64.Idx) :
    IsReal (val_main_call2_v0 (F := Ideal) i) := by
  rw [val_main_call2_v0_apply]; exact (real_call2_cst) _

theorem real_v68 (x0 : (⟨S100000x64, .f32⟩ : BufTy).Contents (Elt Ideal)) (x1 : (⟨S2x1250000, .i32⟩ : BufTy).Contents (Elt Ideal)) (x2 : (⟨S1250000x16, .f32⟩ : BufTy).Contents (Elt Ideal)) (x3 : (⟨S3x64x64, .f32⟩ : BufTy).Contents (Elt Ideal)) (x4 x5 : (⟨S3x64, .f32⟩ : BufTy).Contents (Elt Ideal)) (x6 : (⟨S3x16x64, .f32⟩ : BufTy).Contents (Elt Ideal)) (x7 : (⟨S3x64, .f32⟩ : BufTy).Contents (Elt Ideal)) (h0 : ∀ i, IsReal (x0 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (i : S100000x64.Idx) :
    IsReal (val_main_v68 (F := Ideal) x0 x1 x2 x3 x4 x5 x6 x7 i) := by
  rw [val_main_v68_apply]; exact isReal_max ((real_v67 x0 x1 x2 x3 x4 x5 x6 x7 h0 h2 h3 h4 h5 h6 h7) i) ((real_call2_v0) i)

end Cert.RefFacts

end
-- ==== Proof.RefFacts2.lean ====
/-
  Real-valuedness of the reference's stages, part 2: the second layer.
-/
import proofs.«161825_j7842610283390_1_alg».proof.Proof.RealOps
import proofs.«161825_j7842610283390_1_alg».proof.Proof.RefFacts1

noncomputable section

namespace Cert.RefFacts

open Cert.ReferenceIdeal Cert.ReferenceIdeal.Gen Cert.ReferenceIdeal.Read Idealize.ShloMosaic Idealize.ShloMosaic.TcCoe Idealize.SL.Sem Idealize.ShloMosaic.StableHlo Cert.RealOps

theorem real_v69 (x3 : (⟨S3x64x64, .f32⟩ : BufTy).Contents (Elt Ideal)) (h3 : ∀ i, IsReal (x3 i)) (i : S1x64x64.Idx) :
    IsReal (val_main_v69 (F := Ideal) x3 i) := by
  rw [val_main_v69_apply]; exact h3 _

theorem real_v70 (x3 : (⟨S3x64x64, .f32⟩ : BufTy).Contents (Elt Ideal)) (h3 : ∀ i, IsReal (x3 i)) (i : S64x64.Idx) :
    IsReal (val_main_v70 (F := Ideal) x3 i) := by
  rw [val_main_v70_apply]; exact (real_v69 x3 h3) _

theorem real_v71 (x0 : (⟨S100000x64, .f32⟩ : BufTy).Contents (Elt Ideal)) (x1 : (⟨S2x1250000, .i32⟩ : BufTy).Contents (Elt Ideal)) (x2 : (⟨S1250000x16, .f32⟩ : BufTy).Contents (Elt Ideal)) (x3 : (⟨S3x64x64, .f32⟩ : BufTy).Contents (Elt Ideal)) (x4 x5 : (⟨S3x64, .f32⟩ : BufTy).Contents (Elt Ideal)) (x6 : (⟨S3x16x64, .f32⟩ : BufTy).Contents (Elt Ideal)) (x7 : (⟨S3x64, .f32⟩ : BufTy).Contents (Elt Ideal)) (h0 : ∀ i, IsReal (x0 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (i : S100000x64.Idx) :
    IsReal (val_main_v71 (F := Ideal) x0 x1 x2 x3 x4 x5 x6 x7 i) := by
  rw [val_main_v71_apply]; exact isReal_sum _ _ fun k _ => isReal_mul ((real_v68 x0 x1 x2 x3 x4 x5 x6 x7 h0 h2 h3 h4 h5 h6 h7) _) ((real_v70 x3 h3) _)

theorem real_v72 (x4 : (⟨S3x64, .f32⟩ : BufTy).Contents (Elt Ideal)) (h4 : ∀ i, IsReal (x4 i)) (i : S1x64.Idx) :
    IsReal (val_main_v72 (F := Ideal) x4 i) := by
  rw [val_main_v72_apply]; exact h4 _

theorem real_v73 (x4 : (⟨S3x64, .f32⟩ : BufTy).Contents (Elt Ideal)) (h4 : ∀ i, IsReal (x4 i)) (i : S64.Idx) :
    IsReal (val_main_v73 (F := Ideal) x4 i) := by
  rw [val_main_v73_apply]; exact (real_v72 x4 h4) _

theorem real_v74 (x4 : (⟨S3x64, .f32⟩ : BufTy).Contents (Elt Ideal)) (h4 : ∀ i, IsReal (x4 i)) (i : S1x64.Idx) :
    IsReal (val_main_v74 (F := Ideal) x4 i) := by
  rw [val_main_v74_apply]; exact (real_v73 x4 h4) _

theorem real_v75 (x4 : (⟨S3x64, .f32⟩ : BufTy).Contents (Elt Ideal)) (h4 : ∀ i, IsReal (x4 i)) (i : S100000x64.Idx) :
    IsReal (val_main_v75 (F := Ideal) x4 i) := by
  rw [val_main_v75_apply]; exact (real_v74 x4 h4) _

theorem real_v76 (x0 : (⟨S100000x64, .f32⟩ : BufTy).Contents (Elt Ideal)) (x1 : (⟨S2x1250000, .i32⟩ : BufTy).Contents (Elt Ideal)) (x2 : (⟨S1250000x16, .f32⟩ : BufTy).Contents (Elt Ideal)) (x3 : (⟨S3x64x64, .f32⟩ : BufTy).Contents (Elt Ideal)) (x4 x5 : (⟨S3x64, .f32⟩ : BufTy).Contents (Elt Ideal)) (x6 : (⟨S3x16x64, .f32⟩ : BufTy).Contents (Elt Ideal)) (x7 : (⟨S3x64, .f32⟩ : BufTy).Contents (Elt Ideal)) (h0 : ∀ i, IsReal (x0 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (i : S100000x64.Idx) :
    IsReal (val_main_v76 (F := Ideal) x0 x1 x2 x3 x4 x5 x6 x7 i) := by
  rw [val_main_v76_apply]; exact isReal_add ((real_v71 x0 x1 x2 x3 x4 x5 x6 x7 h0 h2 h3 h4 h5 h6 h7) i) ((real_v75 x4 h4) i)

theorem real_v77 (x6 : (⟨S3x16x64, .f32⟩ : BufTy).Contents (Elt Ideal)) (h6 : ∀ i, IsReal (x6 i)) (i : S1x16x64.Idx) :
    IsReal (val_main_v77 (F := Ideal) x6 i) := by
  rw [val_main_v77_apply]; exact h6 _

theorem real_v78 (x6 : (⟨S3x16x64, .f32⟩ : BufTy).Contents (Elt Ideal)) (h6 : ∀ i, IsReal (x6 i)) (i : S16x64.Idx) :
    IsReal (val_main_v78 (F := Ideal) x6 i) := by
  rw [val_main_v78_apply]; exact (real_v77 x6 h6) _

theorem real_v79 (x2 : (⟨S1250000x16, .f32⟩ : BufTy).Contents (Elt Ideal)) (x6 : (⟨S3x16x64, .f32⟩ : BufTy).Contents (Elt Ideal)) (h2 : ∀ i, IsReal (x2 i)) (h6 : ∀ i, IsReal (x6 i)) (i : S1250000x64.Idx) :
    IsReal (val_main_v79 (F := Ideal) x2 x6 i) := by
  rw [val_main_v79_apply]; exact isReal_sum _ _ fun k _ => isReal_mul (h2 _) ((real_v78 x6 h6) _)

theorem real_v80 (x7 : (⟨S3x64, .f32⟩ : BufTy).Contents (Elt Ideal)) (h7 : ∀ i, IsReal (x7 i)) (i : S1x64.Idx) :
    IsReal (val_main_v80 (F := Ideal) x7 i) := by
  rw [val_main_v80_apply]; exact h7 _

theorem real_v81 (x7 : (⟨S3x64, .f32⟩ : BufTy).Contents (Elt Ideal)) (h7 : ∀ i, IsReal (x7 i)) (i : S64.Idx) :
    IsReal (val_main_v81 (F := Ideal) x7 i) := by
  rw [val_main_v81_apply]; exact (real_v80 x7 h7) _

theorem real_v82 (x7 : (⟨S3x64, .f32⟩ : BufTy).Contents (Elt Ideal)) (h7 : ∀ i, IsReal (x7 i)) (i : S1x64.Idx) :
    IsReal (val_main_v82 (F := Ideal) x7 i) := by
  rw [val_main_v82_apply]; exact (real_v81 x7 h7) _

theorem real_v83 (x7 : (⟨S3x64, .f32⟩ : BufTy).Contents (Elt Ideal)) (h7 : ∀ i, IsReal (x7 i)) (i : S1250000x64.Idx) :
    IsReal (val_main_v83 (F := Ideal) x7 i) := by
  rw [val_main_v83_apply]; exact (real_v82 x7 h7) _

theorem real_v84 (x2 : (⟨S1250000x16, .f32⟩ : BufTy).Contents (Elt Ideal)) (x6 : (⟨S3x16x64, .f32⟩ : BufTy).Contents (Elt Ideal)) (x7 : (⟨S3x64, .f32⟩ : BufTy).Contents (Elt Ideal)) (h2 : ∀ i, IsReal (x2 i)) (h6 : ∀ i, IsReal (x6 i)) (h7 : ∀ i, IsReal (x7 i)) (i : S1250000x64.Idx) :
    IsReal (val_main_v84 (F := Ideal) x2 x6 x7 i) := by
  rw [val_main_v84_apply]; exact isReal_add ((real_v79 x2 x6 h2 h6) i) ((real_v83 x7 h7) i)

theorem real_v91 (x0 : (⟨S100000x64, .f32⟩ : BufTy).Contents (Elt Ideal)) (x1 : (⟨S2x1250000, .i32⟩ : BufTy).Contents (Elt Ideal)) (x2 : (⟨S1250000x16, .f32⟩ : BufTy).Contents (Elt Ideal)) (x3 : (⟨S3x64x64, .f32⟩ : BufTy).Contents (Elt Ideal)) (x4 x5 : (⟨S3x64, .f32⟩ : BufTy).Contents (Elt Ideal)) (x6 : (⟨S3x16x64, .f32⟩ : BufTy).Contents (Elt Ideal)) (x7 : (⟨S3x64, .f32⟩ : BufTy).Contents (Elt Ideal)) (h0 : ∀ i, IsReal (x0 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (i : S1250000x64.Idx) :
    IsReal (val_main_v91 (F := Ideal) x0 x1 x2 x3 x4 x5 x6 x7 i) := by
  unfold val_main_v91; rw [gather_apply]; exact (real_v76 x0 x1 x2 x3 x4 x5 x6 x7 h0 h2 h3 h4 h5 h6 h7) _

theorem real_v92 (x0 : (⟨S100000x64, .f32⟩ : BufTy).Contents (Elt Ideal)) (x1 : (⟨S2x1250000, .i32⟩ : BufTy).Contents (Elt Ideal)) (x2 : (⟨S1250000x16, .f32⟩ : BufTy).Contents (Elt Ideal)) (x3 : (⟨S3x64x64, .f32⟩ : BufTy).Contents (Elt Ideal)) (x4 x5 : (⟨S3x64, .f32⟩ : BufTy).Contents (Elt Ideal)) (x6 : (⟨S3x16x64, .f32⟩ : BufTy).Contents (Elt Ideal)) (x7 : (⟨S3x64, .f32⟩ : BufTy).Contents (Elt Ideal)) (h0 : ∀ i, IsReal (x0 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (i : S1250000x64.Idx) :
    IsReal (val_main_v92 (F := Ideal) x0 x1 x2 x3 x4 x5 x6 x7 i) := by
  rw [val_main_v92_apply]; exact isReal_add ((real_v91 x0 x1 x2 x3 x4 x5 x6 x7 h0 h2 h3 h4 h5 h6 h7) i) ((real_v84 x2 x6 x7 h2 h6 h7) i)

theorem real_call3_cst (i : S_.Idx) :
    IsReal (val_main_call3_cst (F := Ideal) i) := by
  rw [val_main_call3_cst_apply]; exact isReal_ofBits_zero

theorem real_call3_v0 (i : S1250000x64.Idx) :
    IsReal (val_main_call3_v0 (F := Ideal) i) := by
  rw [val_main_call3_v0_apply]; exact (real_call3_cst) _

theorem real_v93 (x0 : (⟨S100000x64, .f32⟩ : BufTy).Contents (Elt Ideal)) (x1 : (⟨S2x1250000, .i32⟩ : BufTy).Contents (Elt Ideal)) (x2 : (⟨S1250000x16, .f32⟩ : BufTy).Contents (Elt Ideal)) (x3 : (⟨S3x64x64, .f32⟩ : BufTy).Contents (Elt Ideal)) (x4 x5 : (⟨S3x64, .f32⟩ : BufTy).Contents (Elt Ideal)) (x6 : (⟨S3x16x64, .f32⟩ : BufTy).Contents (Elt Ideal)) (x7 : (⟨S3x64, .f32⟩ : BufTy).Contents (Elt Ideal)) (h0 : ∀ i, IsReal (x0 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (i : S1250000x64.Idx) :
    IsReal (val_main_v93 (F := Ideal) x0 x1 x2 x3 x4 x5 x6 x7 i) := by
  rw [val_main_v93_apply]; exact isReal_max ((real_v92 x0 x1 x2 x3 x4 x5 x6 x7 h0 h2 h3 h4 h5 h6 h7) i) ((real_call3_v0) i)

theorem real_v94 (x1 : (⟨S2x1250000, .i32⟩ : BufTy).Contents (Elt Ideal)) (i : S1250000x64.Idx) :
    IsReal (val_main_v94 (F := Ideal) x1 i) := by
  rw [val_main_v94_apply]; exact (real_v27 x1) _

theorem real_v95 (x0 : (⟨S100000x64, .f32⟩ : BufTy).Contents (Elt Ideal)) (x1 : (⟨S2x1250000, .i32⟩ : BufTy).Contents (Elt Ideal)) (x2 : (⟨S1250000x16, .f32⟩ : BufTy).Contents (Elt Ideal)) (x3 : (⟨S3x64x64, .f32⟩ : BufTy).Contents (Elt Ideal)) (x4 x5 : (⟨S3x64, .f32⟩ : BufTy).Contents (Elt Ideal)) (x6 : (⟨S3x16x64, .f32⟩ : BufTy).Contents (Elt Ideal)) (x7 : (⟨S3x64, .f32⟩ : BufTy).Contents (Elt Ideal)) (h0 : ∀ i, IsReal (x0 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (i : S1250000x64.Idx) :
    IsReal (val_main_v95 (F := Ideal) x0 x1 x2 x3 x4 x5 x6 x7 i) := by
  rw [val_main_v95_apply]; exact isReal_mul ((real_v94 x1) i) ((real_v93 x0 x1 x2 x3 x4 x5 x6 x7 h0 h2 h3 h4 h5 h6 h7) i)

theorem real_cst_11 (i : S_.Idx) :
    IsReal (val_main_cst_11 (F := Ideal) i) := by
  rw [val_main_cst_11_apply]; exact isReal_ofBits_zero

theorem real_v96 (i : S100000x64.Idx) :
    IsReal (val_main_v96 (F := Ideal) i) := by
  rw [val_main_v96_apply]; exact (real_cst_11) _

theorem real_v98 (x0 : (⟨S100000x64, .f32⟩ : BufTy).Contents (Elt Ideal)) (x1 : (⟨S2x1250000, .i32⟩ : BufTy).Contents (Elt Ideal)) (x2 : (⟨S1250000x16, .f32⟩ : BufTy).Contents (Elt Ideal)) (x3 : (⟨S3x64x64, .f32⟩ : BufTy).Contents (Elt Ideal)) (x4 x5 : (⟨S3x64, .f32⟩ : BufTy).Contents (Elt Ideal)) (x6 : (⟨S3x16x64, .f32⟩ : BufTy).Contents (Elt Ideal)) (x7 : (⟨S3x64, .f32⟩ : BufTy).Contents (Elt Ideal)) (h0 : ∀ i, IsReal (x0 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (i : S100000x64.Idx) :
    IsReal (val_main_v98 (F := Ideal) x0 x1 x2 x3 x4 x5 x6 x7 i) := by
  unfold val_main_v98; exact isReal_scatterAdd _ _ _ _ (fun j => (real_v96) j) (fun j => (real_v95 x0 x1 x2 x3 x4 x5 x6 x7 h0 h2 h3 h4 h5 h6 h7) j) i

theorem real_v99 (x5 : (⟨S3x64, .f32⟩ : BufTy).Contents (Elt Ideal)) (h5 : ∀ i, IsReal (x5 i)) (i : S1x64.Idx) :
    IsReal (val_main_v99 (F := Ideal) x5 i) := by
  rw [val_main_v99_apply]; exact h5 _

theorem real_v100 (x5 : (⟨S3x64, .f32⟩ : BufTy).Contents (Elt Ideal)) (h5 : ∀ i, IsReal (x5 i)) (i : S64.Idx) :
    IsReal (val_main_v100 (F := Ideal) x5 i) := by
  rw [val_main_v100_apply]; exact (real_v99 x5 h5) _

theorem real_v101 (x5 : (⟨S3x64, .f32⟩ : BufTy).Contents (Elt Ideal)) (h5 : ∀ i, IsReal (x5 i)) (i : S1x64.Idx) :
    IsReal (val_main_v101 (F := Ideal) x5 i) := by
  rw [val_main_v101_apply]; exact (real_v100 x5 h5) _

theorem real_v102 (x5 : (⟨S3x64, .f32⟩ : BufTy).Contents (Elt Ideal)) (h5 : ∀ i, IsReal (x5 i)) (i : S100000x64.Idx) :
    IsReal (val_main_v102 (F := Ideal) x5 i) := by
  rw [val_main_v102_apply]; exact (real_v101 x5 h5) _

theorem real_v103 (x0 : (⟨S100000x64, .f32⟩ : BufTy).Contents (Elt Ideal)) (x1 : (⟨S2x1250000, .i32⟩ : BufTy).Contents (Elt Ideal)) (x2 : (⟨S1250000x16, .f32⟩ : BufTy).Contents (Elt Ideal)) (x3 : (⟨S3x64x64, .f32⟩ : BufTy).Contents (Elt Ideal)) (x4 x5 : (⟨S3x64, .f32⟩ : BufTy).Contents (Elt Ideal)) (x6 : (⟨S3x16x64, .f32⟩ : BufTy).Contents (Elt Ideal)) (x7 : (⟨S3x64, .f32⟩ : BufTy).Contents (Elt Ideal)) (h0 : ∀ i, IsReal (x0 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (i : S100000x64.Idx) :
    IsReal (val_main_v103 (F := Ideal) x0 x1 x2 x3 x4 x5 x6 x7 i) := by
  rw [val_main_v103_apply]; exact isReal_add ((real_v76 x0 x1 x2 x3 x4 x5 x6 x7 h0 h2 h3 h4 h5 h6 h7) i) ((real_v102 x5 h5) i)

theorem real_call4_cst (i : S_.Idx) :
    IsReal (val_main_call4_cst (F := Ideal) i) := by
  rw [val_main_call4_cst_apply]; exact isReal_ofBits_zero

theorem real_call4_v0 (i : S100000x64.Idx) :
    IsReal (val_main_call4_v0 (F := Ideal) i) := by
  rw [val_main_call4_v0_apply]; exact (real_call4_cst) _

theorem real_v104 (x0 : (⟨S100000x64, .f32⟩ : BufTy).Contents (Elt Ideal)) (x1 : (⟨S2x1250000, .i32⟩ : BufTy).Contents (Elt Ideal)) (x2 : (⟨S1250000x16, .f32⟩ : BufTy).Contents (Elt Ideal)) (x3 : (⟨S3x64x64, .f32⟩ : BufTy).Contents (Elt Ideal)) (x4 x5 : (⟨S3x64, .f32⟩ : BufTy).Contents (Elt Ideal)) (x6 : (⟨S3x16x64, .f32⟩ : BufTy).Contents (Elt Ideal)) (x7 : (⟨S3x64, .f32⟩ : BufTy).Contents (Elt Ideal)) (h0 : ∀ i, IsReal (x0 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (i : S100000x64.Idx) :
    IsReal (val_main_v104 (F := Ideal) x0 x1 x2 x3 x4 x5 x6 x7 i) := by
  rw [val_main_v104_apply]; exact isReal_max ((real_v103 x0 x1 x2 x3 x4 x5 x6 x7 h0 h2 h3 h4 h5 h6 h7) i) ((real_call4_v0) i)

theorem real_v105 (x1 : (⟨S2x1250000, .i32⟩ : BufTy).Contents (Elt Ideal)) (i : S100000x1.Idx) :
    IsReal (val_main_v105 (F := Ideal) x1 i) := by
  rw [val_main_v105_apply]; exact (real_v9 x1) _

theorem ge_one_v105 (x1 : (⟨S2x1250000, .i32⟩ : BufTy).Contents (Elt Ideal)) (i : S100000x1.Idx) :
    ∃ d : ℝ, 1 ≤ d ∧ val_main_v105 (F := Ideal) x1 i = (d : EReal) := by
  rw [val_main_v105_apply]; exact ge_one_v9 x1 _

theorem real_v106 (x1 : (⟨S2x1250000, .i32⟩ : BufTy).Contents (Elt Ideal)) (i : S100000x64.Idx) :
    IsReal (val_main_v106 (F := Ideal) x1 i) := by
  rw [val_main_v106_apply]; exact (real_v105 x1) _

theorem ge_one_v106 (x1 : (⟨S2x1250000, .i32⟩ : BufTy).Contents (Elt Ideal)) (i : S100000x64.Idx) :
    ∃ d : ℝ, 1 ≤ d ∧ val_main_v106 (F := Ideal) x1 i = (d : EReal) := by
  rw [val_main_v106_apply]; exact ge_one_v105 x1 _

theorem real_v107 (x0 : (⟨S100000x64, .f32⟩ : BufTy).Contents (Elt Ideal)) (x1 : (⟨S2x1250000, .i32⟩ : BufTy).Contents (Elt Ideal)) (x2 : (⟨S1250000x16, .f32⟩ : BufTy).Contents (Elt Ideal)) (x3 : (⟨S3x64x64, .f32⟩ : BufTy).Contents (Elt Ideal)) (x4 x5 : (⟨S3x64, .f32⟩ : BufTy).Contents (Elt Ideal)) (x6 : (⟨S3x16x64, .f32⟩ : BufTy).Contents (Elt Ideal)) (x7 : (⟨S3x64, .f32⟩ : BufTy).Contents (Elt Ideal)) (h0 : ∀ i, IsReal (x0 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (i : S100000x64.Idx) :
    IsReal (val_main_v107 (F := Ideal) x0 x1 x2 x3 x4 x5 x6 x7 i) := by
  rw [val_main_v107_apply]
  obtain ⟨d, hd, e⟩ := ge_one_v106 x1 i
  exact isReal_div ((real_v104 x0 x1 x2 x3 x4 x5 x6 x7 h0 h2 h3 h4 h5 h6 h7) i) e (lt_of_lt_of_le one_pos hd).ne'

theorem real_v108 (x0 : (⟨S100000x64, .f32⟩ : BufTy).Contents (Elt Ideal)) (x1 : (⟨S2x1250000, .i32⟩ : BufTy).Contents (Elt Ideal)) (x2 : (⟨S1250000x16, .f32⟩ : BufTy).Contents (Elt Ideal)) (x3 : (⟨S3x64x64, .f32⟩ : BufTy).Contents (Elt Ideal)) (x4 x5 : (⟨S3x64, .f32⟩ : BufTy).Contents (Elt Ideal)) (x6 : (⟨S3x16x64, .f32⟩ : BufTy).Contents (Elt Ideal)) (x7 : (⟨S3x64, .f32⟩ : BufTy).Contents (Elt Ideal)) (h0 : ∀ i, IsReal (x0 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (i : S100000x64.Idx) :
    IsReal (val_main_v108 (F := Ideal) x0 x1 x2 x3 x4 x5 x6 x7 i) := by
  rw [val_main_v108_apply]; exact isReal_add ((real_v98 x0 x1 x2 x3 x4 x5 x6 x7 h0 h2 h3 h4 h5 h6 h7) i) ((real_v107 x0 x1 x2 x3 x4 x5 x6 x7 h0 h2 h3 h4 h5 h6 h7) i)

theorem real_call5_cst (i : S_.Idx) :
    IsReal (val_main_call5_cst (F := Ideal) i) := by
  rw [val_main_call5_cst_apply]; exact isReal_ofBits_zero

theorem real_call5_v0 (i : S100000x64.Idx) :
    IsReal (val_main_call5_v0 (F := Ideal) i) := by
  rw [val_main_call5_v0_apply]; exact (real_call5_cst) _

theorem real_v109 (x0 : (⟨S100000x64, .f32⟩ : BufTy).Contents (Elt Ideal)) (x1 : (⟨S2x1250000, .i32⟩ : BufTy).Contents (Elt Ideal)) (x2 : (⟨S1250000x16, .f32⟩ : BufTy).Contents (Elt Ideal)) (x3 : (⟨S3x64x64, .f32⟩ : BufTy).Contents (Elt Ideal)) (x4 x5 : (⟨S3x64, .f32⟩ : BufTy).Contents (Elt Ideal)) (x6 : (⟨S3x16x64, .f32⟩ : BufTy).Contents (Elt Ideal)) (x7 : (⟨S3x64, .f32⟩ : BufTy).Contents (Elt Ideal)) (h0 : ∀ i, IsReal (x0 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (i : S100000x64.Idx) :
    IsReal (val_main_v109 (F := Ideal) x0 x1 x2 x3 x4 x5 x6 x7 i) := by
  rw [val_main_v109_apply]; exact isReal_max ((real_v108 x0 x1 x2 x3 x4 x5 x6 x7 h0 h2 h3 h4 h5 h6 h7) i) ((real_call5_v0) i)

end Cert.RefFacts

end
-- ==== Proof.RefFacts3.lean ====
/-
  Real-valuedness of the reference's stages, part 3: the third layer.
-/
import proofs.«161825_j7842610283390_1_alg».proof.Proof.RealOps
import proofs.«161825_j7842610283390_1_alg».proof.Proof.RefFacts2

noncomputable section

namespace Cert.RefFacts

open Cert.ReferenceIdeal Cert.ReferenceIdeal.Gen Cert.ReferenceIdeal.Read Idealize.ShloMosaic Idealize.ShloMosaic.TcCoe Idealize.SL.Sem Idealize.ShloMosaic.StableHlo Cert.RealOps

theorem real_v110 (x3 : (⟨S3x64x64, .f32⟩ : BufTy).Contents (Elt Ideal)) (h3 : ∀ i, IsReal (x3 i)) (i : S1x64x64.Idx) :
    IsReal (val_main_v110 (F := Ideal) x3 i) := by
  rw [val_main_v110_apply]; exact h3 _

theorem real_v111 (x3 : (⟨S3x64x64, .f32⟩ : BufTy).Contents (Elt Ideal)) (h3 : ∀ i, IsReal (x3 i)) (i : S64x64.Idx) :
    IsReal (val_main_v111 (F := Ideal) x3 i) := by
  rw [val_main_v111_apply]; exact (real_v110 x3 h3) _

theorem real_v112 (x0 : (⟨S100000x64, .f32⟩ : BufTy).Contents (Elt Ideal)) (x1 : (⟨S2x1250000, .i32⟩ : BufTy).Contents (Elt Ideal)) (x2 : (⟨S1250000x16, .f32⟩ : BufTy).Contents (Elt Ideal)) (x3 : (⟨S3x64x64, .f32⟩ : BufTy).Contents (Elt Ideal)) (x4 x5 : (⟨S3x64, .f32⟩ : BufTy).Contents (Elt Ideal)) (x6 : (⟨S3x16x64, .f32⟩ : BufTy).Contents (Elt Ideal)) (x7 : (⟨S3x64, .f32⟩ : BufTy).Contents (Elt Ideal)) (h0 : ∀ i, IsReal (x0 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (i : S100000x64.Idx) :
    IsReal (val_main_v112 (F := Ideal) x0 x1 x2 x3 x4 x5 x6 x7 i) := by
  rw [val_main_v112_apply]; exact isReal_sum _ _ fun k _ => isReal_mul ((real_v109 x0 x1 x2 x3 x4 x5 x6 x7 h0 h2 h3 h4 h5 h6 h7) _) ((real_v111 x3 h3) _)

theorem real_v113 (x4 : (⟨S3x64, .f32⟩ : BufTy).Contents (Elt Ideal)) (h4 : ∀ i, IsReal (x4 i)) (i : S1x64.Idx) :
    IsReal (val_main_v113 (F := Ideal) x4 i) := by
  rw [val_main_v113_apply]; exact h4 _

theorem real_v114 (x4 : (⟨S3x64, .f32⟩ : BufTy).Contents (Elt Ideal)) (h4 : ∀ i, IsReal (x4 i)) (i : S64.Idx) :
    IsReal (val_main_v114 (F := Ideal) x4 i) := by
  rw [val_main_v114_apply]; exact (real_v113 x4 h4) _

theorem real_v115 (x4 : (⟨S3x64, .f32⟩ : BufTy).Contents (Elt Ideal)) (h4 : ∀ i, IsReal (x4 i)) (i : S1x64.Idx) :
    IsReal (val_main_v115 (F := Ideal) x4 i) := by
  rw [val_main_v115_apply]; exact (real_v114 x4 h4) _

theorem real_v116 (x4 : (⟨S3x64, .f32⟩ : BufTy).Contents (Elt Ideal)) (h4 : ∀ i, IsReal (x4 i)) (i : S100000x64.Idx) :
    IsReal (val_main_v116 (F := Ideal) x4 i) := by
  rw [val_main_v116_apply]; exact (real_v115 x4 h4) _

theorem real_v117 (x0 : (⟨S100000x64, .f32⟩ : BufTy).Contents (Elt Ideal)) (x1 : (⟨S2x1250000, .i32⟩ : BufTy).Contents (Elt Ideal)) (x2 : (⟨S1250000x16, .f32⟩ : BufTy).Contents (Elt Ideal)) (x3 : (⟨S3x64x64, .f32⟩ : BufTy).Contents (Elt Ideal)) (x4 x5 : (⟨S3x64, .f32⟩ : BufTy).Contents (Elt Ideal)) (x6 : (⟨S3x16x64, .f32⟩ : BufTy).Contents (Elt Ideal)) (x7 : (⟨S3x64, .f32⟩ : BufTy).Contents (Elt Ideal)) (h0 : ∀ i, IsReal (x0 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (i : S100000x64.Idx) :
    IsReal (val_main_v117 (F := Ideal) x0 x1 x2 x3 x4 x5 x6 x7 i) := by
  rw [val_main_v117_apply]; exact isReal_add ((real_v112 x0 x1 x2 x3 x4 x5 x6 x7 h0 h2 h3 h4 h5 h6 h7) i) ((real_v116 x4 h4) i)

theorem real_v118 (x6 : (⟨S3x16x64, .f32⟩ : BufTy).Contents (Elt Ideal)) (h6 : ∀ i, IsReal (x6 i)) (i : S1x16x64.Idx) :
    IsReal (val_main_v118 (F := Ideal) x6 i) := by
  rw [val_main_v118_apply]; exact h6 _

theorem real_v119 (x6 : (⟨S3x16x64, .f32⟩ : BufTy).Contents (Elt Ideal)) (h6 : ∀ i, IsReal (x6 i)) (i : S16x64.Idx) :
    IsReal (val_main_v119 (F := Ideal) x6 i) := by
  rw [val_main_v119_apply]; exact (real_v118 x6 h6) _

theorem real_v120 (x2 : (⟨S1250000x16, .f32⟩ : BufTy).Contents (Elt Ideal)) (x6 : (⟨S3x16x64, .f32⟩ : BufTy).Contents (Elt Ideal)) (h2 : ∀ i, IsReal (x2 i)) (h6 : ∀ i, IsReal (x6 i)) (i : S1250000x64.Idx) :
    IsReal (val_main_v120 (F := Ideal) x2 x6 i) := by
  rw [val_main_v120_apply]; exact isReal_sum _ _ fun k _ => isReal_mul (h2 _) ((real_v119 x6 h6) _)

theorem real_v121 (x7 : (⟨S3x64, .f32⟩ : BufTy).Contents (Elt Ideal)) (h7 : ∀ i, IsReal (x7 i)) (i : S1x64.Idx) :
    IsReal (val_main_v121 (F := Ideal) x7 i) := by
  rw [val_main_v121_apply]; exact h7 _

theorem real_v122 (x7 : (⟨S3x64, .f32⟩ : BufTy).Contents (Elt Ideal)) (h7 : ∀ i, IsReal (x7 i)) (i : S64.Idx) :
    IsReal (val_main_v122 (F := Ideal) x7 i) := by
  rw [val_main_v122_apply]; exact (real_v121 x7 h7) _

theorem real_v123 (x7 : (⟨S3x64, .f32⟩ : BufTy).Contents (Elt Ideal)) (h7 : ∀ i, IsReal (x7 i)) (i : S1x64.Idx) :
    IsReal (val_main_v123 (F := Ideal) x7 i) := by
  rw [val_main_v123_apply]; exact (real_v122 x7 h7) _

theorem real_v124 (x7 : (⟨S3x64, .f32⟩ : BufTy).Contents (Elt Ideal)) (h7 : ∀ i, IsReal (x7 i)) (i : S1250000x64.Idx) :
    IsReal (val_main_v124 (F := Ideal) x7 i) := by
  rw [val_main_v124_apply]; exact (real_v123 x7 h7) _

theorem real_v125 (x2 : (⟨S1250000x16, .f32⟩ : BufTy).Contents (Elt Ideal)) (x6 : (⟨S3x16x64, .f32⟩ : BufTy).Contents (Elt Ideal)) (x7 : (⟨S3x64, .f32⟩ : BufTy).Contents (Elt Ideal)) (h2 : ∀ i, IsReal (x2 i)) (h6 : ∀ i, IsReal (x6 i)) (h7 : ∀ i, IsReal (x7 i)) (i : S1250000x64.Idx) :
    IsReal (val_main_v125 (F := Ideal) x2 x6 x7 i) := by
  rw [val_main_v125_apply]; exact isReal_add ((real_v120 x2 x6 h2 h6) i) ((real_v124 x7 h7) i)

theorem real_v132 (x0 : (⟨S100000x64, .f32⟩ : BufTy).Contents (Elt Ideal)) (x1 : (⟨S2x1250000, .i32⟩ : BufTy).Contents (Elt Ideal)) (x2 : (⟨S1250000x16, .f32⟩ : BufTy).Contents (Elt Ideal)) (x3 : (⟨S3x64x64, .f32⟩ : BufTy).Contents (Elt Ideal)) (x4 x5 : (⟨S3x64, .f32⟩ : BufTy).Contents (Elt Ideal)) (x6 : (⟨S3x16x64, .f32⟩ : BufTy).Contents (Elt Ideal)) (x7 : (⟨S3x64, .f32⟩ : BufTy).Contents (Elt Ideal)) (h0 : ∀ i, IsReal (x0 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (i : S1250000x64.Idx) :
    IsReal (val_main_v132 (F := Ideal) x0 x1 x2 x3 x4 x5 x6 x7 i) := by
  unfold val_main_v132; rw [gather_apply]; exact (real_v117 x0 x1 x2 x3 x4 x5 x6 x7 h0 h2 h3 h4 h5 h6 h7) _

theorem real_v133 (x0 : (⟨S100000x64, .f32⟩ : BufTy).Contents (Elt Ideal)) (x1 : (⟨S2x1250000, .i32⟩ : BufTy).Contents (Elt Ideal)) (x2 : (⟨S1250000x16, .f32⟩ : BufTy).Contents (Elt Ideal)) (x3 : (⟨S3x64x64, .f32⟩ : BufTy).Contents (Elt Ideal)) (x4 x5 : (⟨S3x64, .f32⟩ : BufTy).Contents (Elt Ideal)) (x6 : (⟨S3x16x64, .f32⟩ : BufTy).Contents (Elt Ideal)) (x7 : (⟨S3x64, .f32⟩ : BufTy).Contents (Elt Ideal)) (h0 : ∀ i, IsReal (x0 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (i : S1250000x64.Idx) :
    IsReal (val_main_v133 (F := Ideal) x0 x1 x2 x3 x4 x5 x6 x7 i) := by
  rw [val_main_v133_apply]; exact isReal_add ((real_v132 x0 x1 x2 x3 x4 x5 x6 x7 h0 h2 h3 h4 h5 h6 h7) i) ((real_v125 x2 x6 x7 h2 h6 h7) i)

theorem real_call6_cst (i : S_.Idx) :
    IsReal (val_main_call6_cst (F := Ideal) i) := by
  rw [val_main_call6_cst_apply]; exact isReal_ofBits_zero

theorem real_call6_v0 (i : S1250000x64.Idx) :
    IsReal (val_main_call6_v0 (F := Ideal) i) := by
  rw [val_main_call6_v0_apply]; exact (real_call6_cst) _

theorem real_v134 (x0 : (⟨S100000x64, .f32⟩ : BufTy).Contents (Elt Ideal)) (x1 : (⟨S2x1250000, .i32⟩ : BufTy).Contents (Elt Ideal)) (x2 : (⟨S1250000x16, .f32⟩ : BufTy).Contents (Elt Ideal)) (x3 : (⟨S3x64x64, .f32⟩ : BufTy).Contents (Elt Ideal)) (x4 x5 : (⟨S3x64, .f32⟩ : BufTy).Contents (Elt Ideal)) (x6 : (⟨S3x16x64, .f32⟩ : BufTy).Contents (Elt Ideal)) (x7 : (⟨S3x64, .f32⟩ : BufTy).Contents (Elt Ideal)) (h0 : ∀ i, IsReal (x0 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (i : S1250000x64.Idx) :
    IsReal (val_main_v134 (F := Ideal) x0 x1 x2 x3 x4 x5 x6 x7 i) := by
  rw [val_main_v134_apply]; exact isReal_max ((real_v133 x0 x1 x2 x3 x4 x5 x6 x7 h0 h2 h3 h4 h5 h6 h7) i) ((real_call6_v0) i)

theorem real_v135 (x1 : (⟨S2x1250000, .i32⟩ : BufTy).Contents (Elt Ideal)) (i : S1250000x64.Idx) :
    IsReal (val_main_v135 (F := Ideal) x1 i) := by
  rw [val_main_v135_apply]; exact (real_v27 x1) _

theorem real_v136 (x0 : (⟨S100000x64, .f32⟩ : BufTy).Contents (Elt Ideal)) (x1 : (⟨S2x1250000, .i32⟩ : BufTy).Contents (Elt Ideal)) (x2 : (⟨S1250000x16, .f32⟩ : BufTy).Contents (Elt Ideal)) (x3 : (⟨S3x64x64, .f32⟩ : BufTy).Contents (Elt Ideal)) (x4 x5 : (⟨S3x64, .f32⟩ : BufTy).Contents (Elt Ideal)) (x6 : (⟨S3x16x64, .f32⟩ : BufTy).Contents (Elt Ideal)) (x7 : (⟨S3x64, .f32⟩ : BufTy).Contents (Elt Ideal)) (h0 : ∀ i, IsReal (x0 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (i : S1250000x64.Idx) :
    IsReal (val_main_v136 (F := Ideal) x0 x1 x2 x3 x4 x5 x6 x7 i) := by
  rw [val_main_v136_apply]; exact isReal_mul ((real_v135 x1) i) ((real_v134 x0 x1 x2 x3 x4 x5 x6 x7 h0 h2 h3 h4 h5 h6 h7) i)

theorem real_cst_14 (i : S_.Idx) :
    IsReal (val_main_cst_14 (F := Ideal) i) := by
  rw [val_main_cst_14_apply]; exact isReal_ofBits_zero

theorem real_v137 (i : S100000x64.Idx) :
    IsReal (val_main_v137 (F := Ideal) i) := by
  rw [val_main_v137_apply]; exact (real_cst_14) _

theorem real_v139 (x0 : (⟨S100000x64, .f32⟩ : BufTy).Contents (Elt Ideal)) (x1 : (⟨S2x1250000, .i32⟩ : BufTy).Contents (Elt Ideal)) (x2 : (⟨S1250000x16, .f32⟩ : BufTy).Contents (Elt Ideal)) (x3 : (⟨S3x64x64, .f32⟩ : BufTy).Contents (Elt Ideal)) (x4 x5 : (⟨S3x64, .f32⟩ : BufTy).Contents (Elt Ideal)) (x6 : (⟨S3x16x64, .f32⟩ : BufTy).Contents (Elt Ideal)) (x7 : (⟨S3x64, .f32⟩ : BufTy).Contents (Elt Ideal)) (h0 : ∀ i, IsReal (x0 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (i : S100000x64.Idx) :
    IsReal (val_main_v139 (F := Ideal) x0 x1 x2 x3 x4 x5 x6 x7 i) := by
  unfold val_main_v139; exact isReal_scatterAdd _ _ _ _ (fun j => (real_v137) j) (fun j => (real_v136 x0 x1 x2 x3 x4 x5 x6 x7 h0 h2 h3 h4 h5 h6 h7) j) i

theorem real_v140 (x5 : (⟨S3x64, .f32⟩ : BufTy).Contents (Elt Ideal)) (h5 : ∀ i, IsReal (x5 i)) (i : S1x64.Idx) :
    IsReal (val_main_v140 (F := Ideal) x5 i) := by
  rw [val_main_v140_apply]; exact h5 _

theorem real_v141 (x5 : (⟨S3x64, .f32⟩ : BufTy).Contents (Elt Ideal)) (h5 : ∀ i, IsReal (x5 i)) (i : S64.Idx) :
    IsReal (val_main_v141 (F := Ideal) x5 i) := by
  rw [val_main_v141_apply]; exact (real_v140 x5 h5) _

theorem real_v142 (x5 : (⟨S3x64, .f32⟩ : BufTy).Contents (Elt Ideal)) (h5 : ∀ i, IsReal (x5 i)) (i : S1x64.Idx) :
    IsReal (val_main_v142 (F := Ideal) x5 i) := by
  rw [val_main_v142_apply]; exact (real_v141 x5 h5) _

theorem real_v143 (x5 : (⟨S3x64, .f32⟩ : BufTy).Contents (Elt Ideal)) (h5 : ∀ i, IsReal (x5 i)) (i : S100000x64.Idx) :
    IsReal (val_main_v143 (F := Ideal) x5 i) := by
  rw [val_main_v143_apply]; exact (real_v142 x5 h5) _

theorem real_v144 (x0 : (⟨S100000x64, .f32⟩ : BufTy).Contents (Elt Ideal)) (x1 : (⟨S2x1250000, .i32⟩ : BufTy).Contents (Elt Ideal)) (x2 : (⟨S1250000x16, .f32⟩ : BufTy).Contents (Elt Ideal)) (x3 : (⟨S3x64x64, .f32⟩ : BufTy).Contents (Elt Ideal)) (x4 x5 : (⟨S3x64, .f32⟩ : BufTy).Contents (Elt Ideal)) (x6 : (⟨S3x16x64, .f32⟩ : BufTy).Contents (Elt Ideal)) (x7 : (⟨S3x64, .f32⟩ : BufTy).Contents (Elt Ideal)) (h0 : ∀ i, IsReal (x0 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (i : S100000x64.Idx) :
    IsReal (val_main_v144 (F := Ideal) x0 x1 x2 x3 x4 x5 x6 x7 i) := by
  rw [val_main_v144_apply]; exact isReal_add ((real_v117 x0 x1 x2 x3 x4 x5 x6 x7 h0 h2 h3 h4 h5 h6 h7) i) ((real_v143 x5 h5) i)

theorem real_call7_cst (i : S_.Idx) :
    IsReal (val_main_call7_cst (F := Ideal) i) := by
  rw [val_main_call7_cst_apply]; exact isReal_ofBits_zero

theorem real_call7_v0 (i : S100000x64.Idx) :
    IsReal (val_main_call7_v0 (F := Ideal) i) := by
  rw [val_main_call7_v0_apply]; exact (real_call7_cst) _

theorem real_v145 (x0 : (⟨S100000x64, .f32⟩ : BufTy).Contents (Elt Ideal)) (x1 : (⟨S2x1250000, .i32⟩ : BufTy).Contents (Elt Ideal)) (x2 : (⟨S1250000x16, .f32⟩ : BufTy).Contents (Elt Ideal)) (x3 : (⟨S3x64x64, .f32⟩ : BufTy).Contents (Elt Ideal)) (x4 x5 : (⟨S3x64, .f32⟩ : BufTy).Contents (Elt Ideal)) (x6 : (⟨S3x16x64, .f32⟩ : BufTy).Contents (Elt Ideal)) (x7 : (⟨S3x64, .f32⟩ : BufTy).Contents (Elt Ideal)) (h0 : ∀ i, IsReal (x0 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (i : S100000x64.Idx) :
    IsReal (val_main_v145 (F := Ideal) x0 x1 x2 x3 x4 x5 x6 x7 i) := by
  rw [val_main_v145_apply]; exact isReal_max ((real_v144 x0 x1 x2 x3 x4 x5 x6 x7 h0 h2 h3 h4 h5 h6 h7) i) ((real_call7_v0) i)

theorem real_v146 (x1 : (⟨S2x1250000, .i32⟩ : BufTy).Contents (Elt Ideal)) (i : S100000x1.Idx) :
    IsReal (val_main_v146 (F := Ideal) x1 i) := by
  rw [val_main_v146_apply]; exact (real_v9 x1) _

theorem ge_one_v146 (x1 : (⟨S2x1250000, .i32⟩ : BufTy).Contents (Elt Ideal)) (i : S100000x1.Idx) :
    ∃ d : ℝ, 1 ≤ d ∧ val_main_v146 (F := Ideal) x1 i = (d : EReal) := by
  rw [val_main_v146_apply]; exact ge_one_v9 x1 _

theorem real_v147 (x1 : (⟨S2x1250000, .i32⟩ : BufTy).Contents (Elt Ideal)) (i : S100000x64.Idx) :
    IsReal (val_main_v147 (F := Ideal) x1 i) := by
  rw [val_main_v147_apply]; exact (real_v146 x1) _

theorem ge_one_v147 (x1 : (⟨S2x1250000, .i32⟩ : BufTy).Contents (Elt Ideal)) (i : S100000x64.Idx) :
    ∃ d : ℝ, 1 ≤ d ∧ val_main_v147 (F := Ideal) x1 i = (d : EReal) := by
  rw [val_main_v147_apply]; exact ge_one_v146 x1 _

theorem real_v148 (x0 : (⟨S100000x64, .f32⟩ : BufTy).Contents (Elt Ideal)) (x1 : (⟨S2x1250000, .i32⟩ : BufTy).Contents (Elt Ideal)) (x2 : (⟨S1250000x16, .f32⟩ : BufTy).Contents (Elt Ideal)) (x3 : (⟨S3x64x64, .f32⟩ : BufTy).Contents (Elt Ideal)) (x4 x5 : (⟨S3x64, .f32⟩ : BufTy).Contents (Elt Ideal)) (x6 : (⟨S3x16x64, .f32⟩ : BufTy).Contents (Elt Ideal)) (x7 : (⟨S3x64, .f32⟩ : BufTy).Contents (Elt Ideal)) (h0 : ∀ i, IsReal (x0 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (i : S100000x64.Idx) :
    IsReal (val_main_v148 (F := Ideal) x0 x1 x2 x3 x4 x5 x6 x7 i) := by
  rw [val_main_v148_apply]
  obtain ⟨d, hd, e⟩ := ge_one_v147 x1 i
  exact isReal_div ((real_v145 x0 x1 x2 x3 x4 x5 x6 x7 h0 h2 h3 h4 h5 h6 h7) i) e (lt_of_lt_of_le one_pos hd).ne'

theorem real_v149 (x0 : (⟨S100000x64, .f32⟩ : BufTy).Contents (Elt Ideal)) (x1 : (⟨S2x1250000, .i32⟩ : BufTy).Contents (Elt Ideal)) (x2 : (⟨S1250000x16, .f32⟩ : BufTy).Contents (Elt Ideal)) (x3 : (⟨S3x64x64, .f32⟩ : BufTy).Contents (Elt Ideal)) (x4 x5 : (⟨S3x64, .f32⟩ : BufTy).Contents (Elt Ideal)) (x6 : (⟨S3x16x64, .f32⟩ : BufTy).Contents (Elt Ideal)) (x7 : (⟨S3x64, .f32⟩ : BufTy).Contents (Elt Ideal)) (h0 : ∀ i, IsReal (x0 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (i : S100000x64.Idx) :
    IsReal (val_main_v149 (F := Ideal) x0 x1 x2 x3 x4 x5 x6 x7 i) := by
  rw [val_main_v149_apply]; exact isReal_add ((real_v139 x0 x1 x2 x3 x4 x5 x6 x7 h0 h2 h3 h4 h5 h6 h7) i) ((real_v148 x0 x1 x2 x3 x4 x5 x6 x7 h0 h2 h3 h4 h5 h6 h7) i)

theorem real_call8_cst (i : S_.Idx) :
    IsReal (val_main_call8_cst (F := Ideal) i) := by
  rw [val_main_call8_cst_apply]; exact isReal_ofBits_zero

theorem real_call8_v0 (i : S100000x64.Idx) :
    IsReal (val_main_call8_v0 (F := Ideal) i) := by
  rw [val_main_call8_v0_apply]; exact (real_call8_cst) _

theorem real_v150 (x0 : (⟨S100000x64, .f32⟩ : BufTy).Contents (Elt Ideal)) (x1 : (⟨S2x1250000, .i32⟩ : BufTy).Contents (Elt Ideal)) (x2 : (⟨S1250000x16, .f32⟩ : BufTy).Contents (Elt Ideal)) (x3 : (⟨S3x64x64, .f32⟩ : BufTy).Contents (Elt Ideal)) (x4 x5 : (⟨S3x64, .f32⟩ : BufTy).Contents (Elt Ideal)) (x6 : (⟨S3x16x64, .f32⟩ : BufTy).Contents (Elt Ideal)) (x7 : (⟨S3x64, .f32⟩ : BufTy).Contents (Elt Ideal)) (h0 : ∀ i, IsReal (x0 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (i : S100000x64.Idx) :
    IsReal (val_main_v150 (F := Ideal) x0 x1 x2 x3 x4 x5 x6 x7 i) := by
  rw [val_main_v150_apply]; exact isReal_max ((real_v149 x0 x1 x2 x3 x4 x5 x6 x7 h0 h2 h3 h4 h5 h6 h7) i) ((real_call8_v0) i)

end Cert.RefFacts

end
-- ==== Proof.RefFacts4.lean ====
/-
  Real-valuedness of the reference's stages, part 4: the concatenated features, the column mean, the column variance
  (a real that is not negative), the variance plus the small constant (a positive real) and its reciprocal square root.
-/
import proofs.«161825_j7842610283390_1_alg».proof.Proof.RealOps
import proofs.«161825_j7842610283390_1_alg».proof.Proof.BnTail
import proofs.«161825_j7842610283390_1_alg».proof.Proof.RefFacts3

noncomputable section

namespace Cert.RefFacts

open Cert.ReferenceIdeal Cert.ReferenceIdeal.Gen Cert.ReferenceIdeal.Read Idealize.ShloMosaic Idealize.ShloMosaic.TcCoe Idealize.SL.Sem Idealize.ShloMosaic.StableHlo Cert.RealOps

theorem isReal_ofBits_rows : IsReal (Ideal.ofBits .f32 0x47C35000#32) := ⟨_, BnTail.ofBits_rows⟩
theorem isReal_ofBits_eps : IsReal (Ideal.ofBits .f32 0x3727C5AC#32) := by
  obtain ⟨e, _, he⟩ := BnTail.eps_pos; exact ⟨e, he⟩

theorem real_v151 (x0 : (⟨S100000x64, .f32⟩ : BufTy).Contents (Elt Ideal)) (x1 : (⟨S2x1250000, .i32⟩ : BufTy).Contents (Elt Ideal)) (x2 : (⟨S1250000x16, .f32⟩ : BufTy).Contents (Elt Ideal)) (x3 : (⟨S3x64x64, .f32⟩ : BufTy).Contents (Elt Ideal)) (x4 x5 : (⟨S3x64, .f32⟩ : BufTy).Contents (Elt Ideal)) (x6 : (⟨S3x16x64, .f32⟩ : BufTy).Contents (Elt Ideal)) (x7 : (⟨S3x64, .f32⟩ : BufTy).Contents (Elt Ideal)) (h0 : ∀ i, IsReal (x0 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (i : S100000x256.Idx) :
    IsReal (val_main_v151 (F := Ideal) x0 x1 x2 x3 x4 x5 x6 x7 i) := by
  unfold val_main_v151
  refine concatenate_mem IsReal _ _ _ _ ?_ i
  intro p hp
  simp only [List.mem_cons, List.not_mem_nil, or_false] at hp
  rcases hp with rfl | rfl | rfl | rfl
  exacts [fun j => h0 j, fun j => (real_v68 x0 x1 x2 x3 x4 x5 x6 x7 h0 h2 h3 h4 h5 h6 h7) j, fun j => (real_v109 x0 x1 x2 x3 x4 x5 x6 x7 h0 h2 h3 h4 h5 h6 h7) j, fun j => (real_v150 x0 x1 x2 x3 x4 x5 x6 x7 h0 h2 h3 h4 h5 h6 h7) j]

theorem real_cst_15 (i : S_.Idx) :
    IsReal (val_main_cst_15 (F := Ideal) i) := by
  rw [val_main_cst_15_apply]; exact isReal_ofBits_zero

theorem real_v152 (x0 : (⟨S100000x64, .f32⟩ : BufTy).Contents (Elt Ideal)) (x1 : (⟨S2x1250000, .i32⟩ : BufTy).Contents (Elt Ideal)) (x2 : (⟨S1250000x16, .f32⟩ : BufTy).Contents (Elt Ideal)) (x3 : (⟨S3x64x64, .f32⟩ : BufTy).Contents (Elt Ideal)) (x4 x5 : (⟨S3x64, .f32⟩ : BufTy).Contents (Elt Ideal)) (x6 : (⟨S3x16x64, .f32⟩ : BufTy).Contents (Elt Ideal)) (x7 : (⟨S3x64, .f32⟩ : BufTy).Contents (Elt Ideal)) (h0 : ∀ i, IsReal (x0 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (i : S256.Idx) :
    IsReal (val_main_v152 (F := Ideal) x0 x1 x2 x3 x4 x5 x6 x7 i) := by
  rw [val_main_v152_apply]; exact isReal_add ((real_cst_15) _) (isReal_sum _ _ fun k _ => (real_v151 x0 x1 x2 x3 x4 x5 x6 x7 h0 h2 h3 h4 h5 h6 h7) _)

theorem real_cst_16 (i : S_.Idx) :
    IsReal (val_main_cst_16 (F := Ideal) i) := by
  rw [val_main_cst_16_apply]; exact isReal_ofBits_rows

theorem real_v153 (i : S256.Idx) :
    IsReal (val_main_v153 (F := Ideal) i) := by
  rw [val_main_v153_apply]; exact (real_cst_16) _

theorem real_v154 (x0 : (⟨S100000x64, .f32⟩ : BufTy).Contents (Elt Ideal)) (x1 : (⟨S2x1250000, .i32⟩ : BufTy).Contents (Elt Ideal)) (x2 : (⟨S1250000x16, .f32⟩ : BufTy).Contents (Elt Ideal)) (x3 : (⟨S3x64x64, .f32⟩ : BufTy).Contents (Elt Ideal)) (x4 x5 : (⟨S3x64, .f32⟩ : BufTy).Contents (Elt Ideal)) (x6 : (⟨S3x16x64, .f32⟩ : BufTy).Contents (Elt Ideal)) (x7 : (⟨S3x64, .f32⟩ : BufTy).Contents (Elt Ideal)) (h0 : ∀ i, IsReal (x0 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (i : S256.Idx) :
    IsReal (val_main_v154 (F := Ideal) x0 x1 x2 x3 x4 x5 x6 x7 i) := by
  rw [val_main_v154_apply, val_main_v153_apply, val_main_cst_16_apply]
  exact isReal_div ((real_v152 x0 x1 x2 x3 x4 x5 x6 x7 h0 h2 h3 h4 h5 h6 h7) i) BnTail.ofBits_rows (by norm_num)

theorem real_v155 (x0 : (⟨S100000x64, .f32⟩ : BufTy).Contents (Elt Ideal)) (x1 : (⟨S2x1250000, .i32⟩ : BufTy).Contents (Elt Ideal)) (x2 : (⟨S1250000x16, .f32⟩ : BufTy).Contents (Elt Ideal)) (x3 : (⟨S3x64x64, .f32⟩ : BufTy).Contents (Elt Ideal)) (x4 x5 : (⟨S3x64, .f32⟩ : BufTy).Contents (Elt Ideal)) (x6 : (⟨S3x16x64, .f32⟩ : BufTy).Contents (Elt Ideal)) (x7 : (⟨S3x64, .f32⟩ : BufTy).Contents (Elt Ideal)) (h0 : ∀ i, IsReal (x0 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (i : S1x256.Idx) :
    IsReal (val_main_v155 (F := Ideal) x0 x1 x2 x3 x4 x5 x6 x7 i) := by
  rw [val_main_v155_apply]; exact (real_v154 x0 x1 x2 x3 x4 x5 x6 x7 h0 h2 h3 h4 h5 h6 h7) _

theorem real_v156 (x0 : (⟨S100000x64, .f32⟩ : BufTy).Contents (Elt Ideal)) (x1 : (⟨S2x1250000, .i32⟩ : BufTy).Contents (Elt Ideal)) (x2 : (⟨S1250000x16, .f32⟩ : BufTy).Contents (Elt Ideal)) (x3 : (⟨S3x64x64, .f32⟩ : BufTy).Contents (Elt Ideal)) (x4 x5 : (⟨S3x64, .f32⟩ : BufTy).Contents (Elt Ideal)) (x6 : (⟨S3x16x64, .f32⟩ : BufTy).Contents (Elt Ideal)) (x7 : (⟨S3x64, .f32⟩ : BufTy).Contents (Elt Ideal)) (h0 : ∀ i, IsReal (x0 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (i : S100000x256.Idx) :
    IsReal (val_main_v156 (F := Ideal) x0 x1 x2 x3 x4 x5 x6 x7 i) := by
  rw [val_main_v156_apply]; exact (real_v155 x0 x1 x2 x3 x4 x5 x6 x7 h0 h2 h3 h4 h5 h6 h7) _

theorem real_v157 (x0 : (⟨S100000x64, .f32⟩ : BufTy).Contents (Elt Ideal)) (x1 : (⟨S2x1250000, .i32⟩ : BufTy).Contents (Elt Ideal)) (x2 : (⟨S1250000x16, .f32⟩ : BufTy).Contents (Elt Ideal)) (x3 : (⟨S3x64x64, .f32⟩ : BufTy).Contents (Elt Ideal)) (x4 x5 : (⟨S3x64, .f32⟩ : BufTy).Contents (Elt Ideal)) (x6 : (⟨S3x16x64, .f32⟩ : BufTy).Contents (Elt Ideal)) (x7 : (⟨S3x64, .f32⟩ : BufTy).Contents (Elt Ideal)) (h0 : ∀ i, IsReal (x0 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (i : S100000x256.Idx) :
    IsReal (val_main_v157 (F := Ideal) x0 x1 x2 x3 x4 x5 x6 x7 i) := by
  rw [val_main_v157_apply]; exact isReal_sub ((real_v151 x0 x1 x2 x3 x4 x5 x6 x7 h0 h2 h3 h4 h5 h6 h7) i) ((real_v156 x0 x1 x2 x3 x4 x5 x6 x7 h0 h2 h3 h4 h5 h6 h7) i)

theorem real_v158 (x0 : (⟨S100000x64, .f32⟩ : BufTy).Contents (Elt Ideal)) (x1 : (⟨S2x1250000, .i32⟩ : BufTy).Contents (Elt Ideal)) (x2 : (⟨S1250000x16, .f32⟩ : BufTy).Contents (Elt Ideal)) (x3 : (⟨S3x64x64, .f32⟩ : BufTy).Contents (Elt Ideal)) (x4 x5 : (⟨S3x64, .f32⟩ : BufTy).Contents (Elt Ideal)) (x6 : (⟨S3x16x64, .f32⟩ : BufTy).Contents (Elt Ideal)) (x7 : (⟨S3x64, .f32⟩ : BufTy).Contents (Elt Ideal)) (h0 : ∀ i, IsReal (x0 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (i : S100000x256.Idx) :
    IsReal (val_main_v158 (F := Ideal) x0 x1 x2 x3 x4 x5 x6 x7 i) := by
  rw [val_main_v158_apply]; exact isReal_mul ((real_v157 x0 x1 x2 x3 x4 x5 x6 x7 h0 h2 h3 h4 h5 h6 h7) i) ((real_v157 x0 x1 x2 x3 x4 x5 x6 x7 h0 h2 h3 h4 h5 h6 h7) i)

theorem real_cst_17 (i : S_.Idx) :
    IsReal (val_main_cst_17 (F := Ideal) i) := by
  rw [val_main_cst_17_apply]; exact isReal_ofBits_zero

theorem real_v159 (x0 : (⟨S100000x64, .f32⟩ : BufTy).Contents (Elt Ideal)) (x1 : (⟨S2x1250000, .i32⟩ : BufTy).Contents (Elt Ideal)) (x2 : (⟨S1250000x16, .f32⟩ : BufTy).Contents (Elt Ideal)) (x3 : (⟨S3x64x64, .f32⟩ : BufTy).Contents (Elt Ideal)) (x4 x5 : (⟨S3x64, .f32⟩ : BufTy).Contents (Elt Ideal)) (x6 : (⟨S3x16x64, .f32⟩ : BufTy).Contents (Elt Ideal)) (x7 : (⟨S3x64, .f32⟩ : BufTy).Contents (Elt Ideal)) (h0 : ∀ i, IsReal (x0 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (i : S256.Idx) :
    IsReal (val_main_v159 (F := Ideal) x0 x1 x2 x3 x4 x5 x6 x7 i) := by
  rw [val_main_v159_apply]; exact isReal_add ((real_cst_17) _) (isReal_sum _ _ fun k _ => (real_v158 x0 x1 x2 x3 x4 x5 x6 x7 h0 h2 h3 h4 h5 h6 h7) _)

theorem real_cst_18 (i : S_.Idx) :
    IsReal (val_main_cst_18 (F := Ideal) i) := by
  rw [val_main_cst_18_apply]; exact isReal_ofBits_rows

theorem real_v160 (i : S256.Idx) :
    IsReal (val_main_v160 (F := Ideal) i) := by
  rw [val_main_v160_apply]; exact (real_cst_18) _

theorem real_v161 (x0 : (⟨S100000x64, .f32⟩ : BufTy).Contents (Elt Ideal)) (x1 : (⟨S2x1250000, .i32⟩ : BufTy).Contents (Elt Ideal)) (x2 : (⟨S1250000x16, .f32⟩ : BufTy).Contents (Elt Ideal)) (x3 : (⟨S3x64x64, .f32⟩ : BufTy).Contents (Elt Ideal)) (x4 x5 : (⟨S3x64, .f32⟩ : BufTy).Contents (Elt Ideal)) (x6 : (⟨S3x16x64, .f32⟩ : BufTy).Contents (Elt Ideal)) (x7 : (⟨S3x64, .f32⟩ : BufTy).Contents (Elt Ideal)) (h0 : ∀ i, IsReal (x0 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (i : S256.Idx) :
    IsReal (val_main_v161 (F := Ideal) x0 x1 x2 x3 x4 x5 x6 x7 i) := by
  rw [val_main_v161_apply, val_main_v160_apply, val_main_cst_18_apply]
  exact isReal_div ((real_v159 x0 x1 x2 x3 x4 x5 x6 x7 h0 h2 h3 h4 h5 h6 h7) i) BnTail.ofBits_rows (by norm_num)

theorem real_v162 (x0 : (⟨S100000x64, .f32⟩ : BufTy).Contents (Elt Ideal)) (x1 : (⟨S2x1250000, .i32⟩ : BufTy).Contents (Elt Ideal)) (x2 : (⟨S1250000x16, .f32⟩ : BufTy).Contents (Elt Ideal)) (x3 : (⟨S3x64x64, .f32⟩ : BufTy).Contents (Elt Ideal)) (x4 x5 : (⟨S3x64, .f32⟩ : BufTy).Contents (Elt Ideal)) (x6 : (⟨S3x16x64, .f32⟩ : BufTy).Contents (Elt Ideal)) (x7 : (⟨S3x64, .f32⟩ : BufTy).Contents (Elt Ideal)) (h0 : ∀ i, IsReal (x0 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (i : S1x256.Idx) :
    IsReal (val_main_v162 (F := Ideal) x0 x1 x2 x3 x4 x5 x6 x7 i) := by
  rw [val_main_v162_apply]; exact (real_v154 x0 x1 x2 x3 x4 x5 x6 x7 h0 h2 h3 h4 h5 h6 h7) _

theorem real_v163 (x0 : (⟨S100000x64, .f32⟩ : BufTy).Contents (Elt Ideal)) (x1 : (⟨S2x1250000, .i32⟩ : BufTy).Contents (Elt Ideal)) (x2 : (⟨S1250000x16, .f32⟩ : BufTy).Contents (Elt Ideal)) (x3 : (⟨S3x64x64, .f32⟩ : BufTy).Contents (Elt Ideal)) (x4 x5 : (⟨S3x64, .f32⟩ : BufTy).Contents (Elt Ideal)) (x6 : (⟨S3x16x64, .f32⟩ : BufTy).Contents (Elt Ideal)) (x7 : (⟨S3x64, .f32⟩ : BufTy).Contents (Elt Ideal)) (h0 : ∀ i, IsReal (x0 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (i : S100000x256.Idx) :
    IsReal (val_main_v163 (F := Ideal) x0 x1 x2 x3 x4 x5 x6 x7 i) := by
  rw [val_main_v163_apply]; exact (real_v162 x0 x1 x2 x3 x4 x5 x6 x7 h0 h2 h3 h4 h5 h6 h7) _

theorem real_v164 (x0 : (⟨S100000x64, .f32⟩ : BufTy).Contents (Elt Ideal)) (x1 : (⟨S2x1250000, .i32⟩ : BufTy).Contents (Elt Ideal)) (x2 : (⟨S1250000x16, .f32⟩ : BufTy).Contents (Elt Ideal)) (x3 : (⟨S3x64x64, .f32⟩ : BufTy).Contents (Elt Ideal)) (x4 x5 : (⟨S3x64, .f32⟩ : BufTy).Contents (Elt Ideal)) (x6 : (⟨S3x16x64, .f32⟩ : BufTy).Contents (Elt Ideal)) (x7 : (⟨S3x64, .f32⟩ : BufTy).Contents (Elt Ideal)) (h0 : ∀ i, IsReal (x0 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (i : S100000x256.Idx) :
    IsReal (val_main_v164 (F := Ideal) x0 x1 x2 x3 x4 x5 x6 x7 i) := by
  rw [val_main_v164_apply]; exact isReal_sub ((real_v151 x0 x1 x2 x3 x4 x5 x6 x7 h0 h2 h3 h4 h5 h6 h7) i) ((real_v163 x0 x1 x2 x3 x4 x5 x6 x7 h0 h2 h3 h4 h5 h6 h7) i)

theorem real_cst_19 (i : S_.Idx) :
    IsReal (val_main_cst_19 (F := Ideal) i) := by
  rw [val_main_cst_19_apply]; exact isReal_ofBits_eps

theorem real_v165 (i : S256.Idx) :
    IsReal (val_main_v165 (F := Ideal) i) := by
  rw [val_main_v165_apply]; exact (real_cst_19) _

theorem real_v166 (x0 : (⟨S100000x64, .f32⟩ : BufTy).Contents (Elt Ideal)) (x1 : (⟨S2x1250000, .i32⟩ : BufTy).Contents (Elt Ideal)) (x2 : (⟨S1250000x16, .f32⟩ : BufTy).Contents (Elt Ideal)) (x3 : (⟨S3x64x64, .f32⟩ : BufTy).Contents (Elt Ideal)) (x4 x5 : (⟨S3x64, .f32⟩ : BufTy).Contents (Elt Ideal)) (x6 : (⟨S3x16x64, .f32⟩ : BufTy).Contents (Elt Ideal)) (x7 : (⟨S3x64, .f32⟩ : BufTy).Contents (Elt Ideal)) (h0 : ∀ i, IsReal (x0 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (i : S256.Idx) :
    IsReal (val_main_v166 (F := Ideal) x0 x1 x2 x3 x4 x5 x6 x7 i) := by
  rw [val_main_v166_apply]; exact isReal_add ((real_v161 x0 x1 x2 x3 x4 x5 x6 x7 h0 h2 h3 h4 h5 h6 h7) i) ((real_v165) i)

/-- A squared deviation is a real that is not negative. -/
theorem nonneg_v158 (x0 : (⟨S100000x64, .f32⟩ : BufTy).Contents (Elt Ideal)) (x1 : (⟨S2x1250000, .i32⟩ : BufTy).Contents (Elt Ideal)) (x2 : (⟨S1250000x16, .f32⟩ : BufTy).Contents (Elt Ideal)) (x3 : (⟨S3x64x64, .f32⟩ : BufTy).Contents (Elt Ideal)) (x4 x5 : (⟨S3x64, .f32⟩ : BufTy).Contents (Elt Ideal)) (x6 : (⟨S3x16x64, .f32⟩ : BufTy).Contents (Elt Ideal)) (x7 : (⟨S3x64, .f32⟩ : BufTy).Contents (Elt Ideal)) (h0 : ∀ i, IsReal (x0 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (i : S100000x256.Idx) :
    IsNonneg (val_main_v158 (F := Ideal) x0 x1 x2 x3 x4 x5 x6 x7 i) := by
  rw [val_main_v158_apply]
  obtain ⟨a, ha⟩ := real_v157 x0 x1 x2 x3 x4 x5 x6 x7 h0 h2 h3 h4 h5 h6 h7 i
  rw [ha]; exact ⟨a * a, mul_self_nonneg a, (EReal.coe_mul a a).symm⟩

theorem nonneg_v159 (x0 : (⟨S100000x64, .f32⟩ : BufTy).Contents (Elt Ideal)) (x1 : (⟨S2x1250000, .i32⟩ : BufTy).Contents (Elt Ideal)) (x2 : (⟨S1250000x16, .f32⟩ : BufTy).Contents (Elt Ideal)) (x3 : (⟨S3x64x64, .f32⟩ : BufTy).Contents (Elt Ideal)) (x4 x5 : (⟨S3x64, .f32⟩ : BufTy).Contents (Elt Ideal)) (x6 : (⟨S3x16x64, .f32⟩ : BufTy).Contents (Elt Ideal)) (x7 : (⟨S3x64, .f32⟩ : BufTy).Contents (Elt Ideal)) (h0 : ∀ i, IsReal (x0 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (i : S256.Idx) :
    IsNonneg (val_main_v159 (F := Ideal) x0 x1 x2 x3 x4 x5 x6 x7 i) := by
  rw [val_main_v159_apply, val_main_cst_17_apply]
  obtain ⟨q, hq, e⟩ := isNonneg_sum Finset.univ _ (fun k _ => nonneg_v158 x0 x1 x2 x3 x4 x5 x6 x7 h0 h2 h3 h4 h5 h6 h7 (idx_main_v159 i k))
  exact ⟨q, hq, by rw [e]; exact BnTail.zero_add_sum _⟩

/-- The column variance is a real that is not negative. -/
theorem nonneg_v161 (x0 : (⟨S100000x64, .f32⟩ : BufTy).Contents (Elt Ideal)) (x1 : (⟨S2x1250000, .i32⟩ : BufTy).Contents (Elt Ideal)) (x2 : (⟨S1250000x16, .f32⟩ : BufTy).Contents (Elt Ideal)) (x3 : (⟨S3x64x64, .f32⟩ : BufTy).Contents (Elt Ideal)) (x4 x5 : (⟨S3x64, .f32⟩ : BufTy).Contents (Elt Ideal)) (x6 : (⟨S3x16x64, .f32⟩ : BufTy).Contents (Elt Ideal)) (x7 : (⟨S3x64, .f32⟩ : BufTy).Contents (Elt Ideal)) (h0 : ∀ i, IsReal (x0 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (i : S256.Idx) :
    IsNonneg (val_main_v161 (F := Ideal) x0 x1 x2 x3 x4 x5 x6 x7 i) := by
  rw [val_main_v161_apply, val_main_v160_apply, val_main_cst_18_apply]
  obtain ⟨q, hq, e⟩ := nonneg_v159 x0 x1 x2 x3 x4 x5 x6 x7 h0 h2 h3 h4 h5 h6 h7 i
  rw [e]
  exact ⟨q / 100000, div_nonneg hq (by norm_num),
    (congrArg (Ideal.div (q : EReal)) BnTail.ofBits_rows).trans (LibBatchNorm.div_coe_coe q (by norm_num))⟩

/-- The column variance plus the small constant is a positive real. -/
theorem pos_v166 (x0 : (⟨S100000x64, .f32⟩ : BufTy).Contents (Elt Ideal)) (x1 : (⟨S2x1250000, .i32⟩ : BufTy).Contents (Elt Ideal)) (x2 : (⟨S1250000x16, .f32⟩ : BufTy).Contents (Elt Ideal)) (x3 : (⟨S3x64x64, .f32⟩ : BufTy).Contents (Elt Ideal)) (x4 x5 : (⟨S3x64, .f32⟩ : BufTy).Contents (Elt Ideal)) (x6 : (⟨S3x16x64, .f32⟩ : BufTy).Contents (Elt Ideal)) (x7 : (⟨S3x64, .f32⟩ : BufTy).Contents (Elt Ideal)) (h0 : ∀ i, IsReal (x0 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (i : S256.Idx) :
    ∃ r : ℝ, 0 < r ∧ val_main_v166 (F := Ideal) x0 x1 x2 x3 x4 x5 x6 x7 i = (r : EReal) := by
  rw [val_main_v166_apply, val_main_v165_apply, val_main_cst_19_apply]
  obtain ⟨q, hq, e⟩ := nonneg_v161 x0 x1 x2 x3 x4 x5 x6 x7 h0 h2 h3 h4 h5 h6 h7 i
  obtain ⟨ε, hε, eε⟩ := BnTail.eps_pos
  rw [e]
  exact ⟨q + ε, by linarith, (congrArg ((q : EReal) + ·) eε).trans (EReal.coe_add q ε).symm⟩

theorem real_v167 (x0 : (⟨S100000x64, .f32⟩ : BufTy).Contents (Elt Ideal)) (x1 : (⟨S2x1250000, .i32⟩ : BufTy).Contents (Elt Ideal)) (x2 : (⟨S1250000x16, .f32⟩ : BufTy).Contents (Elt Ideal)) (x3 : (⟨S3x64x64, .f32⟩ : BufTy).Contents (Elt Ideal)) (x4 x5 : (⟨S3x64, .f32⟩ : BufTy).Contents (Elt Ideal)) (x6 : (⟨S3x16x64, .f32⟩ : BufTy).Contents (Elt Ideal)) (x7 : (⟨S3x64, .f32⟩ : BufTy).Contents (Elt Ideal)) (h0 : ∀ i, IsReal (x0 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (i : S256.Idx) :
    IsReal (val_main_v167 (F := Ideal) x0 x1 x2 x3 x4 x5 x6 x7 i) := by
  rw [val_main_v167_apply]
  obtain ⟨r, hr, e⟩ := pos_v166 x0 x1 x2 x3 x4 x5 x6 x7 h0 h2 h3 h4 h5 h6 h7 i
  exact isReal_rsqrt e hr

end Cert.RefFacts

end
-- ==== Proof.RefTail.lean ====
/-
  The reference's normalisation tail read at an index, down to the concatenated features.

  With `xc r c` the concatenated features at row `r` and column `c`, `mu c` the column mean (the column sum, started from
  the float zero, divided by the float 100000) and `var c` the column mean of the squared deviations from `mu c`, the
  reference's result at row `r` and output column `d` is
      ∑ c, ((xc r c − mu c) · rsqrt (var c + ε) · γ c + β c) · W c d  +  b d ,
  ε the small constant kept as its bit pattern (`out_read`). Nothing is asked of the data for this: it is the stages
  composed. For real data the same result is reached from the column sums and the column sums of squares, with the
  variance spelled as the mean of the squares minus the squared mean (`out_of_sums`).
-/
import proofs.«161825_j7842610283390_1_alg».proof.Proof.RefFacts4

noncomputable section

namespace Cert.RefTail

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx Cert.RealOps

variable (x0 : (⟨S100000x64, .f32⟩ : BufTy).Contents (Elt Ideal)) (x1 : (⟨S2x1250000, .i32⟩ : BufTy).Contents (Elt Ideal))
  (x2 : (⟨S1250000x16, .f32⟩ : BufTy).Contents (Elt Ideal)) (x3 : (⟨S3x64x64, .f32⟩ : BufTy).Contents (Elt Ideal))
  (x4 x5 : (⟨S3x64, .f32⟩ : BufTy).Contents (Elt Ideal)) (x6 : (⟨S3x16x64, .f32⟩ : BufTy).Contents (Elt Ideal))
  (x7 : (⟨S3x64, .f32⟩ : BufTy).Contents (Elt Ideal)) (x8 x9 : (⟨S256, .f32⟩ : BufTy).Contents (Elt Ideal))
  (x10 : (⟨S256x64, .f32⟩ : BufTy).Contents (Elt Ideal)) (x11 : (⟨S64, .f32⟩ : BufTy).Contents (Elt Ideal))

/-- The concatenated features, by row and column. -/
def xc (r : Fin 100000) (c : Fin 256) : EReal := val_main_v151 (F := Ideal) x0 x1 x2 x3 x4 x5 x6 x7 (ix2 r c)

/-- The column mean: the column sum, started from the float zero, over the float 100000. -/
def mu (c : Fin 256) : EReal := Ideal.div (Ideal.ofBits .f32 0x00000000#32 + ∑ j : Fin 100000, xc x0 x1 x2 x3 x4 x5 x6 x7 j c) (Ideal.ofBits .f32 0x47C35000#32)

/-- The column variance: the mean of the squared deviations from the column mean. -/
def var (c : Fin 256) : EReal :=
  Ideal.div (Ideal.ofBits .f32 0x00000000#32 + ∑ i : Fin 100000, (xc x0 x1 x2 x3 x4 x5 x6 x7 i c - mu x0 x1 x2 x3 x4 x5 x6 x7 c) * (xc x0 x1 x2 x3 x4 x5 x6 x7 i c - mu x0 x1 x2 x3 x4 x5 x6 x7 c)) (Ideal.ofBits .f32 0x47C35000#32)

/-- The column sums stage. -/
theorem sum_read (c : Fin 256) :
    val_main_v152 (F := Ideal) x0 x1 x2 x3 x4 x5 x6 x7 (ix1 c) = Ideal.ofBits .f32 0x00000000#32 + ∑ j : Fin 100000, xc x0 x1 x2 x3 x4 x5 x6 x7 j c := by
  rw [val_main_v152_apply, val_main_cst_15_apply]
  have e : ∀ k : Fin 100000, idx_main_v152 (ix1 c) k = ix2 k c := fun k => funext fun a => Fin.ext (by match a with | ⟨0, _⟩ => rfl | ⟨1, _⟩ => rfl)
  rw [Finset.sum_congr rfl fun k _ => congrArg (val_main_v151 (F := Ideal) x0 x1 x2 x3 x4 x5 x6 x7) (e k)]
  rfl

/-- The column mean stage. -/
theorem mu_read (c : Fin 256) : val_main_v154 (F := Ideal) x0 x1 x2 x3 x4 x5 x6 x7 (ix1 c) = mu x0 x1 x2 x3 x4 x5 x6 x7 c := by
  rw [val_main_v154_apply, val_main_v153_apply, val_main_cst_16_apply, sum_read]
  rfl

/-- The deviation from the column mean (the stage that is squared). -/
theorem dev_read (r : Fin 100000) (c : Fin 256) :
    val_main_v157 (F := Ideal) x0 x1 x2 x3 x4 x5 x6 x7 (ix2 r c) = xc x0 x1 x2 x3 x4 x5 x6 x7 r c - mu x0 x1 x2 x3 x4 x5 x6 x7 c := by
  rw [val_main_v157_apply, val_main_v156_apply, val_main_v155_apply]
  have e : idx_main_v155 (idx_main_v156 (ix2 r c)) = ix1 c := funext fun a => Fin.ext (by match a with | ⟨0, _⟩ => rfl)
  rw [e, mu_read]
  rfl

/-- The deviation from the column mean (the stage that is normalised). -/
theorem center_read (r : Fin 100000) (c : Fin 256) :
    val_main_v164 (F := Ideal) x0 x1 x2 x3 x4 x5 x6 x7 (ix2 r c) = xc x0 x1 x2 x3 x4 x5 x6 x7 r c - mu x0 x1 x2 x3 x4 x5 x6 x7 c := by
  rw [val_main_v164_apply, val_main_v163_apply, val_main_v162_apply]
  have e : idx_main_v162 (idx_main_v163 (ix2 r c)) = ix1 c := funext fun a => Fin.ext (by match a with | ⟨0, _⟩ => rfl)
  rw [e, mu_read]
  rfl

/-- The column variance stage. -/
theorem var_read (c : Fin 256) : val_main_v161 (F := Ideal) x0 x1 x2 x3 x4 x5 x6 x7 (ix1 c) = var x0 x1 x2 x3 x4 x5 x6 x7 c := by
  rw [val_main_v161_apply, val_main_v160_apply, val_main_cst_18_apply, val_main_v159_apply, val_main_cst_17_apply]
  have e : ∀ k : Fin 100000, val_main_v158 (F := Ideal) x0 x1 x2 x3 x4 x5 x6 x7 (idx_main_v159 (ix1 c) k)
      = (xc x0 x1 x2 x3 x4 x5 x6 x7 k c - mu x0 x1 x2 x3 x4 x5 x6 x7 c) * (xc x0 x1 x2 x3 x4 x5 x6 x7 k c - mu x0 x1 x2 x3 x4 x5 x6 x7 c) := fun k => by
    have ek : idx_main_v159 (ix1 c) k = ix2 k c := funext fun a => Fin.ext (by match a with | ⟨0, _⟩ => rfl | ⟨1, _⟩ => rfl)
    rw [ek, val_main_v158_apply, dev_read]
    rfl
  rw [Finset.sum_congr rfl fun k _ => e k]
  rfl

/-- The reciprocal standard deviation, broadcast over the rows. -/
theorem rstd_read (r : Fin 100000) (c : Fin 256) :
    val_main_v169 (F := Ideal) x0 x1 x2 x3 x4 x5 x6 x7 (ix2 r c) = Ideal.rsqrt (var x0 x1 x2 x3 x4 x5 x6 x7 c + Ideal.ofBits .f32 0x3727C5AC#32) := by
  rw [val_main_v169_apply, val_main_v168_apply]
  have e : idx_main_v168 (idx_main_v169 (ix2 r c)) = ix1 c := funext fun a => Fin.ext (by match a with | ⟨0, _⟩ => rfl)
  rw [e, val_main_v167_apply, val_main_v166_apply, val_main_v165_apply, val_main_cst_19_apply, var_read]
  rfl

/-- The normalised, scaled and shifted features. -/
theorem norm_read (r : Fin 100000) (c : Fin 256) :
    val_main_v176 (F := Ideal) x0 x1 x2 x3 x4 x5 x6 x7 x8 x9 (ix2 r c)
      = (xc x0 x1 x2 x3 x4 x5 x6 x7 r c - mu x0 x1 x2 x3 x4 x5 x6 x7 c) * Ideal.rsqrt (var x0 x1 x2 x3 x4 x5 x6 x7 c + Ideal.ofBits .f32 0x3727C5AC#32) * x8 (ix1 c) + x9 (ix1 c) := by
  rw [val_main_v176_apply, val_main_v173_apply, val_main_v170_apply, center_read, rstd_read, val_main_v172_apply,
    val_main_v171_apply, val_main_v175_apply, val_main_v174_apply]
  have e1 : idx_main_v171 (idx_main_v172 (ix2 r c)) = ix1 c := funext fun a => Fin.ext (by match a with | ⟨0, _⟩ => rfl)
  have e2 : idx_main_v174 (idx_main_v175 (ix2 r c)) = ix1 c := funext fun a => Fin.ext (by match a with | ⟨0, _⟩ => rfl)
  rw [e1, e2]
  rfl

/-- The reference's result at row `r`, output column `d`. -/
theorem out_read (r : Fin 100000) (d : Fin 64) :
    val_main_v180 (F := Ideal) x0 x1 x2 x3 x4 x5 x6 x7 x8 x9 x10 x11 (ix2 r d)
      = (∑ c : Fin 256, ((xc x0 x1 x2 x3 x4 x5 x6 x7 r c - mu x0 x1 x2 x3 x4 x5 x6 x7 c) * Ideal.rsqrt (var x0 x1 x2 x3 x4 x5 x6 x7 c + Ideal.ofBits .f32 0x3727C5AC#32) * x8 (ix1 c) + x9 (ix1 c))
          * x10 (ix2 c d)) + x11 (ix1 d) := by
  rw [val_main_v180_apply, val_main_v177_apply, val_main_v179_apply, val_main_v178_apply]
  have e : ∀ k : Fin 256, val_main_v176 (F := Ideal) x0 x1 x2 x3 x4 x5 x6 x7 x8 x9 (lidx_main_v177 (ix2 r d) k) * x10 (ridx_main_v177 (ix2 r d) k)
      = ((xc x0 x1 x2 x3 x4 x5 x6 x7 r k - mu x0 x1 x2 x3 x4 x5 x6 x7 k) * Ideal.rsqrt (var x0 x1 x2 x3 x4 x5 x6 x7 k + Ideal.ofBits .f32 0x3727C5AC#32) * x8 (ix1 k) + x9 (ix1 k)) * x10 (ix2 k d) := fun k => by
    have el : lidx_main_v177 (ix2 r d) k = ix2 r k := funext fun a => Fin.ext (by match a with | ⟨0, _⟩ => rfl | ⟨1, _⟩ => rfl)
    have er : ridx_main_v177 (ix2 r d) k = ix2 k d := funext fun a => Fin.ext (by match a with | ⟨0, _⟩ => rfl | ⟨1, _⟩ => rfl)
    rw [el, er, norm_read]
  have eb : idx_main_v178 (idx_main_v179 (ix2 r d)) = ix1 d := funext fun a => Fin.ext (by match a with | ⟨0, _⟩ => rfl)
  rw [Finset.sum_congr rfl fun k _ => e k, eb]
  rfl

/-- For real features the reference's result is reached from the column sums `s` and the column sums of squares `q`,
    with the variance spelled as the mean of the squares minus the squared mean. -/
theorem out_of_sums (hxc : ∀ r c, ∃ a : ℝ, xc x0 x1 x2 x3 x4 x5 x6 x7 r c = (a : EReal)) (s q : Fin 256 → EReal)
    (hs : ∀ c, s c = ∑ r, xc x0 x1 x2 x3 x4 x5 x6 x7 r c) (hq : ∀ c, q c = ∑ r, xc x0 x1 x2 x3 x4 x5 x6 x7 r c * xc x0 x1 x2 x3 x4 x5 x6 x7 r c)
    (r : Fin 100000) (d : Fin 64) :
    (∑ c : Fin 256, ((xc x0 x1 x2 x3 x4 x5 x6 x7 r c - Ideal.div (s c) (Ideal.ofBits .f32 0x47C35000#32))
          * Ideal.rsqrt (Ideal.div (q c) (Ideal.ofBits .f32 0x47C35000#32) - Ideal.div (s c) (Ideal.ofBits .f32 0x47C35000#32) * Ideal.div (s c) (Ideal.ofBits .f32 0x47C35000#32) + Ideal.ofBits .f32 0x3727C5AC#32)
          * x8 (ix1 c) + x9 (ix1 c)) * x10 (ix2 c d)) + x11 (ix1 d)
      = val_main_v180 (F := Ideal) x0 x1 x2 x3 x4 x5 x6 x7 x8 x9 x10 x11 (ix2 r d) := by
  rw [out_read]
  exact BnTail.tail_eq (fun r c => xc x0 x1 x2 x3 x4 x5 x6 x7 r c) hxc s q (fun c => x8 (ix1 c)) (fun c => x9 (ix1 c))
    (fun c d => x10 (ix2 c d)) (fun d => x11 (ix1 d)) hs hq r d

/-- The concatenated features are reals when every float argument entry is. -/
theorem xc_real (h0 : ∀ i, IsReal (x0 i)) (h2 : ∀ i, IsReal (x2 i)) (h3 : ∀ i, IsReal (x3 i)) (h4 : ∀ i, IsReal (x4 i))
    (h5 : ∀ i, IsReal (x5 i)) (h6 : ∀ i, IsReal (x6 i)) (h7 : ∀ i, IsReal (x7 i)) (r : Fin 100000) (c : Fin 256) :
    ∃ a : ℝ, xc x0 x1 x2 x3 x4 x5 x6 x7 r c = (a : EReal) :=
  RefFacts.real_v151 x0 x1 x2 x3 x4 x5 x6 x7 h0 h2 h3 h4 h5 h6 h7 (ix2 r c)

end Cert.RefTail

end
-- ==== Proof.KITail1.lean ====
import proofs.«161825_j7842610283390_1_alg».proof.Proof.KIRun
import proofs.«161825_j7842610283390_1_alg».proof.Proof.KICarry
import proofs.«161825_j7842610283390_1_alg».proof.Proof.RefRead
import proofs.«161825_j7842610283390_1_alg».proof.Proof.RefTail
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem

variable (m : (ℓ : Loc nD τ sig) → Buf (Elt Ideal) ℓ) (c : Dev nD)

/-- Host stretch 9 joins the input features and the three layers' features into 256 columns. -/
theorem host9_xc : W19 m c (Proc.devRef .tc main_v109)
    = concatenate S100000x256 1 [⟨S100000x64, W18 m c (Proc.devRef .tc main_arg0)⟩, ⟨S100000x64, W18 m c (Proc.devRef .tc main_v56)⟩,
        ⟨S100000x64, W18 m c (Proc.devRef .tc main_v82)⟩, ⟨S100000x64, W18 m c (Proc.devRef .tc main_v108)⟩]
        concatenates_S100000x64_S100000x64_S100000x64_S100000x64_S100000x256_d1 := by
  show StableHlo.after hostOps9 (W18 m c) (Proc.devRef .tc main_v109) = _
  after_results_simp
  rfl

/-- Host stretch 10: the column means, -/
theorem host10_mean : W21 m c (Proc.devRef .tc main_v112)
    = Host.divf (W20 m c (Proc.devRef .tc main_v110_0)) (broadcastInDim S1x256 ![] bcast_S_S1x256 (constant (F := Ideal) S_ .f32 0x47C35000#32)) := by
  show StableHlo.after hostOps10 (W20 m c) (Proc.devRef .tc main_v112) = _
  after_results_simp

/-- the column variances as mean of squares minus squared mean, -/
theorem host10_var : W21 m c (Proc.devRef .tc main_v116)
    = subf (Host.divf (W20 m c (Proc.devRef .tc main_v110_1)) (broadcastInDim S1x256 ![] bcast_S_S1x256 (constant (F := Ideal) S_ .f32 0x47C35000#32)))
        (mulf (W21 m c (Proc.devRef .tc main_v112)) (W21 m c (Proc.devRef .tc main_v112))) := by
  rw [host10_mean]
  show StableHlo.after hostOps10 (W20 m c) (Proc.devRef .tc main_v116) = _
  after_results_simp

/-- and the scale, shift and output bias as rows. -/
theorem host10_gamma : W21 m c (Proc.devRef .tc main_v117) = shapeCast S1x256 (W20 m c (Proc.devRef .tc main_arg8)) shapeCasts_S256_S1x256 := by
  show StableHlo.after hostOps10 (W20 m c) (Proc.devRef .tc main_v117) = _
  after_results_simp
  rfl
theorem host10_beta : W21 m c (Proc.devRef .tc main_v118) = shapeCast S1x256 (W20 m c (Proc.devRef .tc main_arg9)) shapeCasts_S256_S1x256 := by
  show StableHlo.after hostOps10 (W20 m c) (Proc.devRef .tc main_v118) = _
  after_results_simp
  rfl
theorem host10_bias : W21 m c (Proc.devRef .tc main_v119) = shapeCast S1x64 (W20 m c (Proc.devRef .tc main_arg11)) shapeCasts_S64_S1x64 := by
  show StableHlo.after hostOps10 (W20 m c) (Proc.devRef .tc main_v119) = _
  after_results_simp
  rfl

/-! ## The tail at an index -/

/-- A buffer of floats read at an index, as an extended real. -/
def rd {s : Shape} (x : s.Idx → EReal) (i : s.Idx) : EReal := x i

/-- The features as the last region finds them are those joined at boundary 19. -/
theorem xc_at21 : W21 m c (Proc.devRef .tc main_v109) = W19 m c (Proc.devRef .tc main_v109) := carry_main_v109_19_21 m c

theorem mean_apply (k : Fin 256) : rd (s := S1x256) (W21 m c (Proc.devRef .tc main_v112)) (ValueIdx.ix2 (0 : Fin 1) k)
    = Ideal.div (rd (s := S1x256) (W20 m c (Proc.devRef .tc main_v110_0)) (ValueIdx.ix2 (0 : Fin 1) k)) (Ideal.ofBits .f32 0x47C35000#32) := by
  rw [host10_mean]; rfl

theorem var_apply (k : Fin 256) : rd (s := S1x256) (W21 m c (Proc.devRef .tc main_v116)) (ValueIdx.ix2 (0 : Fin 1) k)
    = Ideal.div (rd (s := S1x256) (W20 m c (Proc.devRef .tc main_v110_1)) (ValueIdx.ix2 (0 : Fin 1) k)) (Ideal.ofBits .f32 0x47C35000#32)
      - rd (s := S1x256) (W21 m c (Proc.devRef .tc main_v112)) (ValueIdx.ix2 (0 : Fin 1) k) * rd (s := S1x256) (W21 m c (Proc.devRef .tc main_v112)) (ValueIdx.ix2 (0 : Fin 1) k) := by
  rw [host10_var]; rfl

theorem gamma_apply (k : Fin 256) : rd (s := S1x256) (W21 m c (Proc.devRef .tc main_v117)) (ValueIdx.ix2 (0 : Fin 1) k) = rd (s := S256) (m ((c.tc : Thread nD τ).loc main_arg8)) (ValueIdx.ix1 k) := by
  rw [host10_gamma, carry_main_arg8_0_20 m c]
  exact ValueIdx.shapeCast_a_1a_apply _ _ 0 k

theorem beta_apply (k : Fin 256) : rd (s := S1x256) (W21 m c (Proc.devRef .tc main_v118)) (ValueIdx.ix2 (0 : Fin 1) k) = rd (s := S256) (m ((c.tc : Thread nD τ).loc main_arg9)) (ValueIdx.ix1 k) := by
  rw [host10_beta, carry_main_arg9_0_20 m c]
  exact ValueIdx.shapeCast_a_1a_apply _ _ 0 k

theorem bias_apply (d : Fin 64) : rd (s := S1x64) (W21 m c (Proc.devRef .tc main_v119)) (ValueIdx.ix2 (0 : Fin 1) d) = rd (s := S64) (m ((c.tc : Thread nD τ).loc main_arg11)) (ValueIdx.ix1 d) := by
  rw [host10_bias, carry_main_arg11_0_20 m c]
  exact ValueIdx.shapeCast_a_1a_apply _ _ 0 d

theorem outw_at21 : W21 m c (Proc.devRef .tc main_arg10) = (m ((c.tc : Thread nD τ).loc main_arg10)) := carry_main_arg10_0_21 m c

end Cert.KernelIdeal.HandVal

end
-- ==== Proof.KITail2.lean ====
import proofs.«161825_j7842610283390_1_alg».proof.Proof.KITail1
import proofs.«161825_j7842610283390_1_alg».proof.Proof.RefTail
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem

variable (m : (ℓ : Loc nD τ sig) → Buf (Elt Ideal) ℓ) (c : Dev nD)

open Cert.RealOps

/-- THE TAIL. Suppose the joined features at boundary 19 are the reference's (hxc), the two outputs of the statistics region are
    the column sums and the column sums of squares of those features (hs, hq), and the last region stores, at node r and
    column d, the normalised features' row times the output weights plus the bias (hout), all three read at the entry contents of
    the last region. Then the result buffer is the reference's last stage: the kernel's variance, mean of squares minus squared
    mean, is the reference's mean of squared deviations because every feature is a real number (hreal). -/
theorem tail_value
    (hxc : W19 m c (Proc.devRef .tc main_v109) = Cert.ReferenceIdeal.Read.val_main_v151 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
    (hs : ∀ k : Fin 256, rd (s := S1x256) (W20 m c (Proc.devRef .tc main_v110_0)) (ValueIdx.ix2 (0 : Fin 1) k) = ∑ r : Fin 100000, rd (s := S100000x256) (W19 m c (Proc.devRef .tc main_v109)) (ValueIdx.ix2 r k))
    (hq : ∀ k : Fin 256, rd (s := S1x256) (W20 m c (Proc.devRef .tc main_v110_1)) (ValueIdx.ix2 (0 : Fin 1) k) = ∑ r : Fin 100000, rd (s := S100000x256) (W19 m c (Proc.devRef .tc main_v109)) (ValueIdx.ix2 r k) * rd (s := S100000x256) (W19 m c (Proc.devRef .tc main_v109)) (ValueIdx.ix2 r k))
    (hout : ∀ (r : Fin 100000) (d : Fin 64), rd (s := S100000x64) (W22 m c (Proc.devRef .tc main_v120)) (ValueIdx.ix2 r d)
        = (∑ k : Fin 256, (((rd (s := S100000x256) (W21 m c (Proc.devRef .tc main_v109)) (ValueIdx.ix2 r k) - rd (s := S1x256) (W21 m c (Proc.devRef .tc main_v112)) (ValueIdx.ix2 (0 : Fin 1) k)) * Ideal.rsqrt (rd (s := S1x256) (W21 m c (Proc.devRef .tc main_v116)) (ValueIdx.ix2 (0 : Fin 1) k) + (Ideal.ofBits .f32 0x3727C5AC#32)))
              * rd (s := S1x256) (W21 m c (Proc.devRef .tc main_v117)) (ValueIdx.ix2 (0 : Fin 1) k) + rd (s := S1x256) (W21 m c (Proc.devRef .tc main_v118)) (ValueIdx.ix2 (0 : Fin 1) k)) * rd (s := S256x64) (W21 m c (Proc.devRef .tc main_arg10)) (ValueIdx.ix2 k d))
          + rd (s := S1x64) (W21 m c (Proc.devRef .tc main_v119)) (ValueIdx.ix2 (0 : Fin 1) d))
    (hreal : ∀ (r : Fin 100000) (k : Fin 256), ∃ a : ℝ, Cert.RefTail.xc (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) r k = (a : EReal)) :
    W22 m c (Proc.devRef .tc main_v120) = Cert.ReferenceIdeal.Read.val_main_v180 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  funext i
  obtain ⟨r, d, rfl⟩ : ∃ (r : Fin 100000) (d : Fin 64), i = ValueIdx.ix2 r d := ⟨i 0, i 1, ValueIdx.eq_ix2 i⟩
  refine (hout r d).trans ?_
  refine Eq.trans (congrArg₂ (· + ·) (Finset.sum_congr rfl fun k _ => ?_) (bias_apply m c d))
    (Cert.RefTail.out_of_sums (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) hreal
      (fun k => ∑ r : Fin 100000, Cert.RefTail.xc (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) r k)
      (fun k => ∑ r : Fin 100000, Cert.RefTail.xc (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) r k * Cert.RefTail.xc (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) r k)
      (fun _ => rfl) (fun _ => rfl) r d)
  rw [var_apply, mean_apply, gamma_apply, beta_apply, outw_at21, xc_at21, hs, hq, hxc]
  rfl

end Cert.KernelIdeal.HandVal

end
-- ==== Proof.KIReg9e.lean ====
/-
  Region 9 of the kernel program: what its two output arrays hold after the region.
  The outputs' one block is written back once, after the last point, from staging buffers into which the last point
  copied the two accumulators: so each output array ends at the accumulator after point 24 (`acc9`), for any float
  instance.
-/
import proofs.«161825_j7842610283390_1_alg».proof.Proof.KIReg9
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The last grid point. -/
def t9_24 : Fin grid9.N := ⟨24, by rw [N_9]; decide⟩

/-- The accumulators after the last point, as contents of the two output arrays (each array is its one block). -/
abbrev res9_1 (c : Dev nD) : Buf (Elt F) ((c : Thread nD τ).loc main_v110_0) :=
  (acc9 V c 24 (by rw [show cfg9.N = 25 from N_9]; decide)).1
abbrev res9_2 (c : Dev nD) : Buf (Elt F) ((c : Thread nD τ).loc main_v110_1) :=
  (acc9 V c 24 (by rw [show cfg9.N = 25 from N_9]; decide)).2

/-- The one write-back of output 1, after the last point, writes the first accumulator: block (0, 0) of the [1,256]
    array, read through zero offsets, is the array. -/
theorem flushed9_1 (c : Dev nD) (t : Fin cfg9.N) (hf : (cfg9.win 1).flush t = true) :
    (dat9 V c).flushed 1 t = ((cfg9.win 1).blk t).view.read (Elt F) (res9_1 V c) := by
  have hN : cfg9.N = 25 := N_9
  have h24 : t.val = 24 := by have := (flush9_1 t).mp hf; have := t.isLt; omega
  obtain rfl : t = t9_24 := Fin.ext h24
  show (cfg9.win 1).cut (grid9.coords t9_24) ((dat9 V c).after 1 t9_24) = _
  rw [after9_1]
  have hz' : (fun a => win9_1.index t9_24 a * main_v110_0.ty.shape.size a) = fun _ => 0 :=
    funext fun a => by fin_cases a <;> decide +kernel
  exact (Memref.read_access_unit_zero (Elt F) main_v110_0 hz' (fun a => by rw [congrFun hz' a]; simp) (res9_1 V c)).symm

/-- So output 1's array ends holding the first accumulator after the last point. -/
theorem final9_1 (c : Dev nD) : (dat9 V c).arrAt 1 cfg9.N = res9_1 V c :=
  (dat9 V c).arrAt_eq_of_cover 1 (res9_1 V c) (flushed9_1 V c) fun i =>
    ⟨t9_24, (flush9_1 t9_24).mpr rfl, by
      show i ∈ ((View.whole main_v110_0).slice (win9_1.rect t9_24)).set
      rw [View.set_slice_whole, Rect.mem_set_unit]
      intro a
      have h0 : (i 0 : Nat) < 1 := (i 0).isLt
      have h1 : (i 1 : Nat) < 256 := (i 1).isLt
      match a with
      | ⟨0, _⟩ =>
        show win9_1.index t9_24 0 * win9_1.size 0 ≤ (i 0 : Nat) ∧ (i 0 : Nat) < win9_1.index t9_24 0 * win9_1.size 0 + win9_1.xsize (grid9.coords t9_24) 0
        rw [show win9_1.index t9_24 0 * win9_1.size 0 = 0 from by decide +kernel, show win9_1.xsize (grid9.coords t9_24) 0 = 1 from by decide +kernel]; omega
      | ⟨1, _⟩ =>
        show win9_1.index t9_24 1 * win9_1.size 1 ≤ (i 1 : Nat) ∧ (i 1 : Nat) < win9_1.index t9_24 1 * win9_1.size 1 + win9_1.xsize (grid9.coords t9_24) 1
        rw [show win9_1.index t9_24 1 * win9_1.size 1 = 0 from by decide +kernel, show win9_1.xsize (grid9.coords t9_24) 1 = 256 from by decide +kernel]; omega⟩

/-- The one write-back of output 2, after the last point, writes the second accumulator: block (0, 0) of the [1,256]
    array, read through zero offsets, is the array. -/
theorem flushed9_2 (c : Dev nD) (t : Fin cfg9.N) (hf : (cfg9.win 2).flush t = true) :
    (dat9 V c).flushed 2 t = ((cfg9.win 2).blk t).view.read (Elt F) (res9_2 V c) := by
  have hN : cfg9.N = 25 := N_9
  have h24 : t.val = 24 := by have := (flush9_2 t).mp hf; have := t.isLt; omega
  obtain rfl : t = t9_24 := Fin.ext h24
  show (cfg9.win 2).cut (grid9.coords t9_24) ((dat9 V c).after 2 t9_24) = _
  rw [after9_2]
  have hz' : (fun a => win9_2.index t9_24 a * main_v110_1.ty.shape.size a) = fun _ => 0 :=
    funext fun a => by fin_cases a <;> decide +kernel
  exact (Memref.read_access_unit_zero (Elt F) main_v110_1 hz' (fun a => by rw [congrFun hz' a]; simp) (res9_2 V c)).symm

/-- So output 2's array ends holding the second accumulator after the last point. -/
theorem final9_2 (c : Dev nD) : (dat9 V c).arrAt 2 cfg9.N = res9_2 V c :=
  (dat9 V c).arrAt_eq_of_cover 2 (res9_2 V c) (flushed9_2 V c) fun i =>
    ⟨t9_24, (flush9_2 t9_24).mpr rfl, by
      show i ∈ ((View.whole main_v110_1).slice (win9_2.rect t9_24)).set
      rw [View.set_slice_whole, Rect.mem_set_unit]
      intro a
      have h0 : (i 0 : Nat) < 1 := (i 0).isLt
      have h1 : (i 1 : Nat) < 256 := (i 1).isLt
      match a with
      | ⟨0, _⟩ =>
        show win9_2.index t9_24 0 * win9_2.size 0 ≤ (i 0 : Nat) ∧ (i 0 : Nat) < win9_2.index t9_24 0 * win9_2.size 0 + win9_2.xsize (grid9.coords t9_24) 0
        rw [show win9_2.index t9_24 0 * win9_2.size 0 = 0 from by decide +kernel, show win9_2.xsize (grid9.coords t9_24) 0 = 1 from by decide +kernel]; omega
      | ⟨1, _⟩ =>
        show win9_2.index t9_24 1 * win9_2.size 1 ≤ (i 1 : Nat) ∧ (i 1 : Nat) < win9_2.index t9_24 1 * win9_2.size 1 + win9_2.xsize (grid9.coords t9_24) 1
        rw [show win9_2.index t9_24 1 * win9_2.size 1 = 0 from by decide +kernel, show win9_2.xsize (grid9.coords t9_24) 1 = 256 from by decide +kernel]; omega⟩

end Cert.KernelIdeal.Hand

end
-- ==== Proof.KIReg9f.lean ====
/-
  Region 9 of the kernel program, read at the extended reals: the two accumulators after point `n` are, column by
  column, the sums over the rows of blocks 0 … n of the entries and of their squares.

  A block's update adds to an accumulator the column sums of the block (a reduction over the row axis, a sum over
  the 4000 rows); the accumulator starts from the zero row; so by induction on the point the accumulator is the sum of
  the block sums, and a block's row `k` is row `4000 t + k` of the array.  Nothing here needs finiteness: only
  `0 + x = x` and the order in which the blocks are added, which is kept.
-/
import proofs.«161825_j7842610283390_1_alg».proof.Proof.KIReg9
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx
open scoped BigOperators

/-! ## The payloads at an index -/

/-- The zero row the first point stores into the first accumulator. -/
theorem pay1_apply (j : S1x256.Idx) : k9_pay1 (F := Ideal) j = 0 := by
  unfold k9_pay1
  refine (congrFun (shapeCast_self _ _) j).trans ?_
  exact Ideal.ofBits_zero_f32

/-- The zero row the first point stores into the second accumulator. -/
theorem pay2_apply (j : S1x256.Idx) : k9_pay2 (F := Ideal) j = 0 := by
  unfold k9_pay2
  refine (congrFun (shapeCast_self _ _) j).trans ?_
  exact Ideal.ofBits_zero_f32

/-- A reduction of a [4000,256] vector over its row axis, read at a column: the sum over the rows. -/
theorem colsum_apply (x : FVec Ideal S4000x256 .f32) (h : S4000x256.Reduces [0] S256) (hφ : FKind.Formats .f32)
    (hacc : (0x00000000#32 : BitVec 32) = FKind.add.neutral .f32 hφ) (j : S256.Idx) (q : Fin 256) (hj : j 0 = q) :
    multiReduction (F := Ideal) .add [0] S256 x 0x00000000#32 h hφ hacc j = ∑ k : Fin 4000, x (ix2 k q) := by
  refine (Ideal.multiReduction_add_single x 0x00000000#32 h hφ hacc j).trans ?_
  refine Finset.sum_congr rfl fun k _ => congrArg x ?_
  funext a
  match a with
  | ⟨0, _⟩ => rfl
  | ⟨1, _⟩ => exact hj

/-- The first accumulator's update: the accumulator plus the block's column sums. -/
theorem pay4_apply (x : Vec Ideal S4000x256 .f32) (s : Vec Ideal S1x256 .f32) (p : Fin 1) (q : Fin 256) :
    k9_pay4 (F := Ideal) x s (ix2 p q) = s (ix2 p q) + ∑ k : Fin 4000, x (ix2 k q) := by
  unfold k9_pay4 k9_pay3
  refine (congrFun (shapeCast_self _ _) (ix2 p q)).trans ?_
  refine (addf_apply _ _ (ix2 p q)).trans ?_
  refine congrArg (s (ix2 p q) + ·) ?_
  refine (shapeCast_addUnit_apply ![256] _ _ (ix2 p q)).trans ?_
  refine (colsum_apply _ _ _ _ _ q rfl).trans ?_
  exact Finset.sum_congr rfl fun k _ => congrFun (shapeCast_self x _) (ix2 k q)

/-- The second accumulator's update: the accumulator plus the column sums of the block's squared entries. -/
theorem pay5_apply (x : Vec Ideal S4000x256 .f32) (s : Vec Ideal S1x256 .f32) (p : Fin 1) (q : Fin 256) :
    k9_pay5 (F := Ideal) x s (ix2 p q) = s (ix2 p q) + ∑ k : Fin 4000, x (ix2 k q) * x (ix2 k q) := by
  unfold k9_pay5 k9_pay3
  refine (congrFun (shapeCast_self _ _) (ix2 p q)).trans ?_
  refine (addf_apply _ _ (ix2 p q)).trans ?_
  refine congrArg (s (ix2 p q) + ·) ?_
  refine (shapeCast_addUnit_apply ![256] _ _ (ix2 p q)).trans ?_
  refine (colsum_apply _ _ _ _ _ q rfl).trans ?_
  refine Finset.sum_congr rfl fun k _ => ?_
  refine (mulf_apply _ _ (ix2 k q)).trans ?_
  rw [congrFun (shapeCast_self x _) (ix2 k q)]

end Cert.KernelIdeal.Hand

end
-- ==== Proof.KIReg9g.lean ====
/-
  Region 9 of the kernel program at the extended reals: the accumulators after point `n` as sums over blocks, and the
  sum over the 25 blocks of 4000 rows as one sum over the 100000 rows of the array.
-/
import proofs.«161825_j7842610283390_1_alg».proof.Proof.KIReg9f

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx
open scoped BigOperators

variable (V : (c : Dev nD) → (b : Ref sig .tc) → Buf (Elt Ideal) ((c : Thread nD τ).loc b))

/-- The input array's entry at row `r`, column `q`, as an extended real. -/
abbrev in9 (c : Dev nD) (r : Fin 100000) (q : Fin 256) : EReal := V c main_v109 (ix2 r q)

/-- Block `t`'s entry at its row `k`, column `q`, as an extended real. -/
abbrev blk9 (c : Dev nD) (t : Fin cfg9.N) (k : Fin 4000) (q : Fin 256) : EReal := iblk9 (F := Ideal) V c t (ix2 k q)

/-! ## A block's rows are the array's -/

/-- The input window's block index at point `t` is `(t, 0)`: decided over the grid. -/
theorem idx9_0 : ∀ t : Fin cfg9.N, win9_0.index t (0 : Fin 2) = t.val ∧ win9_0.index t (1 : Fin 2) = 0 :=
  (by decide +kernel : ∀ t : Fin grid9.N, win9_0.index t (0 : Fin 2) = t.val ∧ win9_0.index t (1 : Fin 2) = 0)

/-- Row `k` of block `t` is row `4000 t + k` of the array as the region finds it. -/
theorem iblk9_apply (c : Dev nD) (t : Fin cfg9.N) (k : Fin 4000) (q : Fin 256) (r : Fin 100000)
    (hr : r.val = 4000 * t.val + k.val) :
    blk9 V c t k q = in9 V c r q := by
  obtain ⟨e0, e1⟩ := idx9_0 t
  unfold blk9 in9 iblk9
  show V c main_v109 (((cfg9.win 0).blk t).view.emb (ix2 k q)) = V c main_v109 (ix2 r q)
  refine congrArg (V c main_v109) ?_
  funext a; apply Fin.ext
  match a with
  | ⟨0, _⟩ => show win9_0.index t (0 : Fin 2) * 4000 + 1 * k.val = r.val; omega
  | ⟨1, _⟩ => show win9_0.index t (1 : Fin 2) * 256 + 1 * q.val = q.val; omega

/-! ## The accumulators as sums over blocks -/

/-- Column `q` of block `b` summed over the block's rows (zero for a block number past the grid). -/
def bsum1 (c : Dev nD) (b : ℕ) (q : Fin 256) : EReal :=
  if h : b < cfg9.N then ∑ k : Fin 4000, blk9 V c ⟨b, h⟩ k q else 0
/-- The same of the squared entries. -/
def bsum2 (c : Dev nD) (b : ℕ) (q : Fin 256) : EReal :=
  if h : b < cfg9.N then ∑ k : Fin 4000, blk9 V c ⟨b, h⟩ k q * blk9 V c ⟨b, h⟩ k q else 0

/-- The first accumulator after point `n`: the block sums of blocks `0 … n`, added in that order from zero. -/
theorem acc9_1_apply (c : Dev nD) : ∀ (n : ℕ) (h : n < cfg9.N) (p : Fin 1) (q : Fin 256),
    (acc9 (F := Ideal) V c n h).1 (ix2 p q) = ∑ b ∈ Finset.range (n + 1), bsum1 V c b q
  | 0, h, p, q => by
    show k9_pay4 (F := Ideal) (iblk9 V c ⟨0, h⟩) (k9_pay1 (F := Ideal)) (ix2 p q) = _
    refine (pay4_apply (iblk9 V c ⟨0, h⟩) (k9_pay1 (F := Ideal)) p q).trans ?_
    rw [pay1_apply, zero_add, Finset.sum_range_one]
    unfold bsum1; rw [dif_pos h]
  | n + 1, h, p, q => by
    show k9_pay4 (F := Ideal) (iblk9 V c ⟨n + 1, h⟩) (acc9 V c n (Nat.lt_of_succ_lt h)).1 (ix2 p q) = _
    refine (pay4_apply (iblk9 V c ⟨n + 1, h⟩) (acc9 V c n (Nat.lt_of_succ_lt h)).1 p q).trans ?_
    rw [acc9_1_apply c n (Nat.lt_of_succ_lt h) p q, Finset.sum_range_succ (fun b => bsum1 V c b q) (n + 1)]
    refine congrArg (_ + ·) ?_
    unfold bsum1; rw [dif_pos h]

/-- The second accumulator after point `n`: the block sums of squares of blocks `0 … n`. -/
theorem acc9_2_apply (c : Dev nD) : ∀ (n : ℕ) (h : n < cfg9.N) (p : Fin 1) (q : Fin 256),
    (acc9 (F := Ideal) V c n h).2 (ix2 p q) = ∑ b ∈ Finset.range (n + 1), bsum2 V c b q
  | 0, h, p, q => by
    show k9_pay5 (F := Ideal) (iblk9 V c ⟨0, h⟩) (k9_pay2 (F := Ideal)) (ix2 p q) = _
    refine (pay5_apply (iblk9 V c ⟨0, h⟩) (k9_pay2 (F := Ideal)) p q).trans ?_
    rw [pay2_apply, zero_add, Finset.sum_range_one]
    unfold bsum2; rw [dif_pos h]
  | n + 1, h, p, q => by
    show k9_pay5 (F := Ideal) (iblk9 V c ⟨n + 1, h⟩) (acc9 V c n (Nat.lt_of_succ_lt h)).2 (ix2 p q) = _
    refine (pay5_apply (iblk9 V c ⟨n + 1, h⟩) (acc9 V c n (Nat.lt_of_succ_lt h)).2 p q).trans ?_
    rw [acc9_2_apply c n (Nat.lt_of_succ_lt h) p q, Finset.sum_range_succ (fun b => bsum2 V c b q) (n + 1)]
    refine congrArg (_ + ·) ?_
    unfold bsum2; rw [dif_pos h]

/-! ## Twenty-five blocks of 4000 rows are the 100000 rows -/

/-- Block `b`, row `k` ↔ row `4000 b + k`. -/
def rowEquiv : Fin 25 × Fin 4000 ≃ Fin 100000 where
  toFun x := ⟨4000 * x.1.val + x.2.val, by have := x.1.isLt; have := x.2.isLt; omega⟩
  invFun r := (⟨r.val / 4000, by have := r.isLt; omega⟩, ⟨r.val % 4000, Nat.mod_lt _ (by norm_num)⟩)
  left_inv := fun ⟨b, k⟩ => by
    have hb := b.isLt; have hk := k.isLt
    refine Prod.ext (Fin.ext ?_) (Fin.ext ?_)
    · show (4000 * b.val + k.val) / 4000 = b.val; omega
    · show (4000 * b.val + k.val) % 4000 = k.val; omega
  right_inv := fun r => Fin.ext (by show 4000 * (r.val / 4000) + r.val % 4000 = r.val; omega)

/-- A sum over the grid's blocks of sums over a block's rows is the sum over all rows. -/
theorem sum_blocks_rows (f : Fin 100000 → EReal) :
    ∑ b : Fin 25, ∑ k : Fin 4000, f (rowEquiv (b, k)) = ∑ r : Fin 100000, f r :=
  (Fintype.sum_prod_type (fun x : Fin 25 × Fin 4000 => f (rowEquiv x))).symm.trans (Equiv.sum_comp rowEquiv f)

/-- The block sums of all 25 blocks, added up, are the column's sum over every row of the array. -/
theorem sum_bsum1 (c : Dev nD) (q : Fin 256) :
    ∑ b ∈ Finset.range 25, bsum1 V c b q = ∑ r : Fin 100000, in9 V c r q := by
  rw [Finset.sum_range, ← sum_blocks_rows (fun r => in9 V c r q)]
  refine Finset.sum_congr rfl fun b _ => ?_
  have hb : b.val < cfg9.N := lt_of_lt_of_eq b.isLt (show 25 = cfg9.N from N_9.symm)
  unfold bsum1; rw [dif_pos hb]
  exact Finset.sum_congr rfl fun k _ => iblk9_apply V c ⟨b.val, hb⟩ k q (rowEquiv (b, k)) rfl

theorem sum_bsum2 (c : Dev nD) (q : Fin 256) :
    ∑ b ∈ Finset.range 25, bsum2 V c b q = ∑ r : Fin 100000, in9 V c r q * in9 V c r q := by
  rw [Finset.sum_range, ← sum_blocks_rows (fun r => in9 V c r q * in9 V c r q)]
  refine Finset.sum_congr rfl fun b _ => ?_
  have hb : b.val < cfg9.N := lt_of_lt_of_eq b.isLt (show 25 = cfg9.N from N_9.symm)
  unfold bsum2; rw [dif_pos hb]
  exact Finset.sum_congr rfl fun k _ => by
    rw [iblk9_apply V c ⟨b.val, hb⟩ k q (rowEquiv (b, k)) rfl]

end Cert.KernelIdeal.Hand

end
-- ==== Proof.KIReg9v.lean ====
/-
  Region 9 of the kernel program, its value at the extended reals: after the region the first output array holds, in
  column `q`, the sum over all 100000 rows of the input array's column `q`, and the second the sum of the squares.
  (The array ends at the accumulator after the last point; the accumulator is the ordered sum of the 25 block sums;
  the blocks' rows are the array's rows.)
-/
import proofs.«161825_j7842610283390_1_alg».proof.Proof.KIReg9e
import proofs.«161825_j7842610283390_1_alg».proof.Proof.KIReg9g

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx
open scoped BigOperators

variable (V : (c : Dev nD) → (b : Ref sig .tc) → Buf (Elt Ideal) ((c : Thread nD τ).loc b))

/-- The array the input window stages is `main_v109`. -/
theorem arrRef9_0 : Pipeline.arrRef spec9 0 = main_v109 := rfl

/-- THE FIRST OUTPUT: column sums of the [100000,256] input array. -/
theorem arrAt9_1_apply (c : Dev nD) (p : Fin 1) (q : Fin 256) :
    (dat9 (F := Ideal) V c).arrAt 1 cfg9.N (ix2 p q) = ∑ r : Fin 100000, in9 V c r q :=
  (congrFun (final9_1 V c) (ix2 p q)).trans ((acc9_1_apply V c 24 _ p q).trans (sum_bsum1 V c q))

/-- THE SECOND OUTPUT: column sums of the squared entries. -/
theorem arrAt9_2_apply (c : Dev nD) (p : Fin 1) (q : Fin 256) :
    (dat9 (F := Ideal) V c).arrAt 2 cfg9.N (ix2 p q) = ∑ r : Fin 100000, in9 V c r q * in9 V c r q :=
  (congrFun (final9_2 V c) (ix2 p q)).trans ((acc9_2_apply V c 24 _ p q).trans (sum_bsum2 V c q))

/-- The same as whole arrays. -/
theorem arrAt9_1 (c : Dev nD) :
    (dat9 (F := Ideal) V c).arrAt 1 cfg9.N = fun j : S1x256.Idx => ∑ r : Fin 100000, in9 V c r (j 1) := by
  funext j
  obtain ⟨p, q, rfl⟩ : ∃ (p : Fin 1) (q : Fin 256), j = ix2 p q := ⟨j 0, j 1, eq_ix2 j⟩
  exact arrAt9_1_apply V c p q

theorem arrAt9_2 (c : Dev nD) :
    (dat9 (F := Ideal) V c).arrAt 2 cfg9.N = fun j : S1x256.Idx => ∑ r : Fin 100000, in9 V c r (j 1) * in9 V c r (j 1) := by
  funext j
  obtain ⟨p, q, rfl⟩ : ∃ (p : Fin 1) (q : Fin 256), j = ix2 p q := ⟨j 0, j 1, eq_ix2 j⟩
  exact arrAt9_2_apply V c p q

end Cert.KernelIdeal.Hand

end
-- ==== Proof.LibKeepdims.lean ====
/-
  Keepdims forms read at an index, for any element type and any extents: a vector cast to a column, a column
  broadcast along rows, the host's dimension-numbered broadcasts between a scalar, a vector, a row, a column and
  a matrix, and a sum along the rows of a matrix (the kernel's lane reduction and the host's reduce) as a finite
  sum over the row's entries.
-/
import Idealize.ShloMosaic.Lib.ValueIdx
import Idealize.ShloMosaic.Lib.Pipeline.Value
import Idealize.ShloMosaic.Lib.ValueLayout
import Idealize.ShloMosaic.PureOps.Ideal.Laws

noncomputable section

namespace Cert.Keepdims

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A scalar broadcast by dimension numbers to any shape reads the scalar everywhere. -/
theorem bcastInDim_scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun a => a.elim0

/-- A vector `[a]` placed on axis 0 of the column `[a, 1]`. -/
theorem bcastInDim_a_a1_apply {a : ℕ} (dims : Fin 1 → Fin 2) (hd : dims 0 = 0)
    (h : (⟨1, ![a]⟩ : Shape).BroadcastsInDim ⟨2, ![a, 1]⟩ dims) (x : (⟨1, ![a]⟩ : Shape).Idx → α) (p : Fin a) (u : Fin 1) :
    broadcastInDim ⟨2, ![a, 1]⟩ dims h x (ix2 p u) = x (ix1 p) := by
  refine broadcastInDim_apply dims h x (ix2 p u) (ix1 p) fun ax => ?_
  match ax with
  | ⟨0, _⟩ =>
    show p.val = if a = 1 then 0 else ((ix2 p u : (⟨2, ![a, 1]⟩ : Shape).Idx) (dims 0)).val
    rw [hd]
    split
    · have := p.isLt; omega
    · rfl

/-- A column `[a, 1]` broadcast by dimension numbers `[0, 1]` to `[a, b]`. -/
theorem bcastInDim_a1_ab_apply {a b : ℕ} (dims : Fin 2 → Fin 2) (hd0 : dims 0 = 0) (hd1 : dims 1 = 1)
    (h : (⟨2, ![a, 1]⟩ : Shape).BroadcastsInDim ⟨2, ![a, b]⟩ dims) (x : (⟨2, ![a, 1]⟩ : Shape).Idx → α) (p : Fin a) (c : Fin b) :
    broadcastInDim ⟨2, ![a, b]⟩ dims h x (ix2 p c) = x (ix2 p (0 : Fin 1)) := by
  refine broadcastInDim_apply dims h x (ix2 p c) (ix2 p (0 : Fin 1)) fun ax => ?_
  match ax with
  | ⟨0, _⟩ =>
    show p.val = if a = 1 then 0 else ((ix2 p c : (⟨2, ![a, b]⟩ : Shape).Idx) (dims 0)).val
    rw [hd0]
    split
    · have := p.isLt; omega
    · rfl
  | ⟨1, _⟩ => rfl

/-- A vector `[b]` placed on axis 1 of the row `[1, b]`. -/
theorem bcastInDim_b_1b_apply {b : ℕ} (dims : Fin 1 → Fin 2) (hd : dims 0 = 1)
    (h : (⟨1, ![b]⟩ : Shape).BroadcastsInDim ⟨2, ![1, b]⟩ dims) (x : (⟨1, ![b]⟩ : Shape).Idx → α) (u : Fin 1) (c : Fin b) :
    broadcastInDim ⟨2, ![1, b]⟩ dims h x (ix2 u c) = x (ix1 c) := by
  refine broadcastInDim_apply dims h x (ix2 u c) (ix1 c) fun ax => ?_
  match ax with
  | ⟨0, _⟩ =>
    show c.val = if b = 1 then 0 else ((ix2 u c : (⟨2, ![1, b]⟩ : Shape).Idx) (dims 0)).val
    rw [hd]
    split
    · have := c.isLt; omega
    · rfl

/-- A row `[1, b]` broadcast by dimension numbers `[0, 1]` to `[a, b]`. -/
theorem bcastInDim_1b_ab_apply {a b : ℕ} (dims : Fin 2 → Fin 2) (hd0 : dims 0 = 0) (hd1 : dims 1 = 1)
    (h : (⟨2, ![1, b]⟩ : Shape).BroadcastsInDim ⟨2, ![a, b]⟩ dims) (x : (⟨2, ![1, b]⟩ : Shape).Idx → α) (p : Fin a) (c : Fin b) :
    broadcastInDim ⟨2, ![a, b]⟩ dims h x (ix2 p c) = x (ix2 (0 : Fin 1) c) := by
  refine broadcastInDim_apply dims h x (ix2 p c) (ix2 (0 : Fin 1) c) fun ax => ?_
  match ax with
  | ⟨0, _⟩ => rfl
  | ⟨1, _⟩ =>
    show c.val = if b = 1 then 0 else ((ix2 p c : (⟨2, ![a, b]⟩ : Shape).Idx) (dims 1)).val
    rw [hd1]
    split
    · have := c.isLt; omega
    · rfl

/-- The lane reduction along the rows of a matrix, at the ideal values, is the sum of the row's entries. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (funext fun c => Fin.ext (by
    match c with
    | ⟨0, _⟩ => rfl
    | ⟨1, _⟩ => rfl))

/-- The host's sum along the rows of a matrix, at the ideal values, is the initial value plus the row's entries. -/
theorem hostRowSum_apply {a b : ℕ} (x : FVec Ideal ⟨2, ![a, b]⟩ .f32) (init : (⟨0, ![]⟩ : Shape).Idx → Ideal .f32)
    (h' : (⟨2, ![a, b]⟩ : Shape).ReducesTo [1] ⟨1, ![a]⟩) (hu : 0 < (⟨0, ![]⟩ : Shape).numel)
    (h : (⟨2, ![a, b]⟩ : Shape).Reduces [1] ⟨1, ![a]⟩) (p : Fin a) :
    Host.reduceAdd x init h' hu (ix1 p) = init ix0 + ∑ k : Fin b, x (ix2 p k) := by
  unfold Host.reduceAdd
  rw [Ideal.hostReduceAdd_def]
  refine (Ideal.hostReduceAdd_single h' h x _ (ix1 p)).trans ?_
  have e : init (Shape.Idx.first hu) = init ix0 := congrArg init (funext fun c => c.elim0)
  rw [e]
  refine congrArg (init ix0 + ·) ?_
  exact Finset.sum_congr rfl fun k _ => congrArg x (funext fun c => Fin.ext (by
    match c with
    | ⟨0, _⟩ => rfl
    | ⟨1, _⟩ => rfl))

end Cert.Keepdims

end
-- ==== Proof.KIValOutPay.lean ====
/-
  The normalisation-and-projection kernel's stored value read at one entry. On a block of 4000 nodes the body stores
  ((xc − mean) · rsqrt(var + eps) · gamma + beta) · W_out + b_out; at row p and column q this is
  Σ_k ((xc[p,k] − mean[k]) · rsqrt(var[k] + eps) · gamma[k] + beta[k]) · W_out[k,q] + b_out[q], eps the printed constant.
-/
import proofs.«161825_j7842610283390_1_alg».proof.Proof.Gen.KernelIdeal.Skeleton
import proofs.«161825_j7842610283390_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HandVal

open Cert.KernelIdeal Cert.KernelIdeal.Gen
open Idealize.ShloMosaic Idealize.ShloMosaic.ValueIdx

/-- The projection's left operand index at output entry j and contraction index κ: row j 0, … -/
theorem out_lhs_0 (j : S4000x64.Idx) (κ : dot_S4000x256_S256x64_S4000x64_1_0_0_1_n_n.contr.Idx) :
    (dot_S4000x256_S256x64_S4000x64_1_0_0_1_n_n.lhsIdx j κ 0).val = (j 0).val := by
  unfold DotDims.lhsIdx
  rw [dif_neg (show ¬(0 : Fin S4000x256.rank) ∈ dot_S4000x256_S256x64_S4000x64_1_0_0_1_n_n.lhsBatch by decide),
    dif_pos (show (0 : Fin S4000x256.rank) ∈ dot_S4000x256_S256x64_S4000x64_1_0_0_1_n_n.lhsNonContracting by decide)]
  rfl
/-- … column κ; -/
theorem out_lhs_1 (j : S4000x64.Idx) (κ : dot_S4000x256_S256x64_S4000x64_1_0_0_1_n_n.contr.Idx) :
    (dot_S4000x256_S256x64_S4000x64_1_0_0_1_n_n.lhsIdx j κ 1).val = (κ ⟨0, by decide⟩).val :=
  dot_S4000x256_S256x64_S4000x64_1_0_0_1_n_n.lhsIdx_val_of_single rfl j κ
/-- the right operand's: row κ, … -/
theorem out_rhs_0 (j : S4000x64.Idx) (κ : dot_S4000x256_S256x64_S4000x64_1_0_0_1_n_n.contr.Idx) :
    (dot_S4000x256_S256x64_S4000x64_1_0_0_1_n_n.rhsIdx j κ 0).val = (κ ⟨0, by decide⟩).val :=
  dot_S4000x256_S256x64_S4000x64_1_0_0_1_n_n.rhsIdx_val_of_single rfl j κ
/-- … column j 1. -/
theorem out_rhs_1 (j : S4000x64.Idx) (κ : dot_S4000x256_S256x64_S4000x64_1_0_0_1_n_n.contr.Idx) :
    (dot_S4000x256_S256x64_S4000x64_1_0_0_1_n_n.rhsIdx j κ 1).val = (j 1).val := by
  unfold DotDims.rhsIdx
  rw [dif_neg (show ¬(1 : Fin S256x64.rank) ∈ dot_S4000x256_S256x64_S4000x64_1_0_0_1_n_n.rhsBatch by decide),
    dif_pos (show (1 : Fin S256x64.rank) ∈ dot_S4000x256_S256x64_S4000x64_1_0_0_1_n_n.rhsNonContracting by decide)]
  rfl

/-- The projection into a zero accumulator, at entry (p, q): the sum over the 256 features. -/
theorem out_dot_apply (a : FVec Ideal S4000x256 .bf16) (b : FVec Ideal S256x64 .bf16) (p : Fin 4000) (q : Fin 64) :
    FloatOps.matmul dot_S4000x256_S256x64_S4000x64_1_0_0_1_n_n none a b (constant S4000x64 .f32 0x00000000#32) (ix2 p q)
      = ∑ k : Fin 256, a (ix2 p k) * b (ix2 k q) := by
  rw [Ideal.matmul_constant_zero_apply, ← Equiv.sum_comp (contrEquiv1 dot_S4000x256_S256x64_S4000x64_1_0_0_1_n_n 256 rfl rfl).symm]
  refine Finset.sum_congr rfl fun k _ => ?_
  have hk := contrEquiv1_symm_val dot_S4000x256_S256x64_S4000x64_1_0_0_1_n_n 256 rfl rfl k
  have el : dot_S4000x256_S256x64_S4000x64_1_0_0_1_n_n.lhsIdx (ix2 p q) ((contrEquiv1 dot_S4000x256_S256x64_S4000x64_1_0_0_1_n_n 256 rfl rfl).symm k) = ix2 p k := funext fun a => Fin.ext (by
    match a with
    | ⟨0, _⟩ => exact out_lhs_0 _ _
    | ⟨1, _⟩ => exact (out_lhs_1 _ _).trans hk)
  have er : dot_S4000x256_S256x64_S4000x64_1_0_0_1_n_n.rhsIdx (ix2 p q) ((contrEquiv1 dot_S4000x256_S256x64_S4000x64_1_0_0_1_n_n 256 rfl rfl).symm k) = ix2 k q := funext fun a => Fin.ext (by
    match a with
    | ⟨0, _⟩ => exact (out_rhs_0 _ _).trans hk
    | ⟨1, _⟩ => exact out_rhs_1 _ _)
  rw [el, er]

/-- The normalised, scaled and shifted feature at entry (p, k) of a block, from the block and the four rows. -/
theorem out_norm_apply (v0 : Vec Ideal S4000x256 .f32) (v2 v6 v13 v17 : Vec Ideal S1x256 .f32) (p : Fin 4000) (k : Fin 256) :
    addf (mulf (mulf (subf v0 (broadcastTo S4000x256 v2 broadcasts_S1x256_S4000x256))
          (broadcastTo S4000x256 (rsqrt (addf v6 (broadcast S1x256 (Scalar.ofBits (F := Ideal) .f32 0x3727C5AC#32)))) broadcasts_S1x256_S4000x256))
        (broadcastTo S4000x256 v13 broadcasts_S1x256_S4000x256))
      (broadcastTo S4000x256 v17 broadcasts_S1x256_S4000x256) (ix2 p k)
      = (((v0 (ix2 p k) : EReal) - (v2 (ix2 (0 : Fin 1) k) : EReal)) * Ideal.rsqrt ((v6 (ix2 (0 : Fin 1) k) : EReal) + Ideal.ofBits .f32 0x3727C5AC#32))
          * (v13 (ix2 (0 : Fin 1) k) : EReal) + (v17 (ix2 (0 : Fin 1) k) : EReal) := by
  rw [addf_apply, mulf_apply, mulf_apply, subf_apply]
  rw [broadcastTo_1b_ab_apply, broadcastTo_1b_ab_apply, broadcastTo_1b_ab_apply, broadcastTo_1b_ab_apply]
  rfl

/-- The kernel's stored value at entry (p, q) of its block. -/
theorem out_pay_apply (v0 : Vec Ideal S4000x256 .f32) (v2 v6 v13 v17 : Vec Ideal S1x256 .f32) (v22 : Vec Ideal S256x64 .f32)
    (v25 : Vec Ideal S1x64 .f32) (p : Fin 4000) (q : Fin 64) :
    k10_pay1 v0 v2 v6 v13 v17 v22 v25 (ix2 p q)
      = (∑ k : Fin 256, ((((v0 (ix2 p k) : EReal) - (v2 (ix2 (0 : Fin 1) k) : EReal)) * Ideal.rsqrt ((v6 (ix2 (0 : Fin 1) k) : EReal) + Ideal.ofBits .f32 0x3727C5AC#32))
            * (v13 (ix2 (0 : Fin 1) k) : EReal) + (v17 (ix2 (0 : Fin 1) k) : EReal)) * (v22 (ix2 k q) : EReal))
          + (v25 (ix2 (0 : Fin 1) q) : EReal) := by
  unfold k10_pay1
  simp only [shapeCast_self]
  rw [addf_apply, broadcastTo_1b_ab_apply]
  show FloatOps.matmul _ none _ _ _ _ + _ = _
  rw [out_dot_apply]
  refine congrArg (· + (v25 (ix2 (0 : Fin 1) q) : EReal)) (Finset.sum_congr rfl fun k _ => ?_)
  rw [truncf_apply, truncf_apply, out_norm_apply]

/-- The output as one function of the seven arrays the kernel reads: at node n and column q,
    Σ_k ((xc[n,k] − mean[k]) · rsqrt(var[k] + eps) · gamma[k] + beta[k]) · W_out[k,q] + b_out[q]. -/
def outVal (xc : S100000x256.Idx → EReal) (mean var gamma beta : S1x256.Idx → EReal) (W : S256x64.Idx → EReal)
    (b : S1x64.Idx → EReal) : S100000x64.Idx → EReal :=
  fun i => (∑ k : Fin 256, (((xc (ix2 (i 0) k) - mean (ix2 (0 : Fin 1) k)) * Ideal.rsqrt (var (ix2 (0 : Fin 1) k) + Ideal.ofBits .f32 0x3727C5AC#32))
        * gamma (ix2 (0 : Fin 1) k) + beta (ix2 (0 : Fin 1) k)) * W (ix2 k (i 1)))
      + b (ix2 (0 : Fin 1) (i 1))

/-- The output at an index given by its two coordinates. -/
theorem outVal_apply (xc : S100000x256.Idx → EReal) (mean var gamma beta : S1x256.Idx → EReal) (W : S256x64.Idx → EReal)
    (b : S1x64.Idx → EReal) (P : Fin 100000) (q : Fin 64) :
    outVal xc mean var gamma beta W b (ix2 P q)
      = (∑ k : Fin 256, (((xc (ix2 P k) - mean (ix2 (0 : Fin 1) k)) * Ideal.rsqrt (var (ix2 (0 : Fin 1) k) + Ideal.ofBits .f32 0x3727C5AC#32))
            * gamma (ix2 (0 : Fin 1) k) + beta (ix2 (0 : Fin 1) k)) * W (ix2 k q))
          + b (ix2 (0 : Fin 1) q) := rfl

/-- One entry of a block against one entry of the arrays: if the block's row p is the features' row P and the six small
    operands are the six small arrays, the stored value at (p, q) is the output at (P, q). -/
theorem out_point (x0 : Vec Ideal S4000x256 .f32) (x1 x2 x3 x4 : Vec Ideal S1x256 .f32) (x5 : Vec Ideal S256x64 .f32)
    (x6 : Vec Ideal S1x64 .f32)
    (A0 : S100000x256.Idx → EReal) (A1 A2 A3 A4 : S1x256.Idx → EReal) (A5 : S256x64.Idx → EReal) (A6 : S1x64.Idx → EReal)
    (y : S4000x64.Idx) (i : S100000x64.Idx) (p : Fin 4000) (q : Fin 64) (P : Fin 100000)
    (hy : y = ix2 p q) (hi : i = ix2 P q)
    (h0 : ∀ k : Fin 256, x0 (ix2 p k) = A0 (ix2 P k))
    (h1 : ∀ j, x1 j = A1 j) (h2 : ∀ j, x2 j = A2 j) (h3 : ∀ j, x3 j = A3 j) (h4 : ∀ j, x4 j = A4 j)
    (h5 : ∀ j, x5 j = A5 j) (h6 : ∀ j, x6 j = A6 j) :
    k10_pay1 x0 x1 x2 x3 x4 x5 x6 y = outVal A0 A1 A2 A3 A4 A5 A6 i := by
  subst hy hi
  rw [out_pay_apply, outVal_apply, h6]
  exact congrArg (· + A6 (ix2 (0 : Fin 1) q)) (Finset.sum_congr rfl fun k _ => by rw [h0 k, h1, h2, h3, h4, h5])

end Cert.KernelIdeal.HandVal

end
-- ==== Proof.KIValOut.lean ====
/-
  Region 10 of the program, the normalisation and output projection: what the output array holds after the region, entry
  by entry. Block t of the feature window and of the output window is rows 4000·t … 4000·t + 3999 (all columns); the mean,
  the variance, the scale, the shift, the projection weight and its bias are one block each. So what point t writes back
  is block t of the output function of the arrays as the region finds them, and the 25 blocks tile the 100000 rows.
-/
import proofs.«161825_j7842610283390_1_alg».proof.Proof.KIReg10
import proofs.«161825_j7842610283390_1_alg».proof.Proof.KIValOutPay
import Idealize.ShloMosaic.Lib.Pipeline.Value

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zeros10 : (![0, 0] : Fin 2 → Nat) = fun _ => 0 := funext fun a => by fin_cases a <;> rfl

/-- The block indices over the grid: the feature window and the output window are at block row t, column block 0; the
    six small windows at block (0, 0). -/
theorem idx_facts10 : ∀ t : Fin cfg10.N,
    win10_0.index t (0 : Fin 2) = t.val ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) = 0 ∧ win10_5.index t (1 : Fin 2) = 0
    ∧ win10_6.index t (0 : Fin 2) = 0 ∧ win10_6.index t (1 : Fin 2) = 0
    ∧ win10_7.index t (0 : Fin 2) = t.val ∧ win10_7.index t (1 : Fin 2) = 0 :=
  (by decide +kernel : ∀ t : Fin grid10.N, _)

set_option maxHeartbeats 4000000 in
/-- Window 0's block at point t is rows 4000·t … of the concatenated features. -/
theorem blk10_0_apply (c : Dev nD) (t : Fin cfg10.N) (x : S4000x256.Idx) (k : S100000x256.Idx)
    (hk0 : (k 0).val = t.val * 4000 + (x 0).val) (hk1 : (k 1).val = (x 1).val) :
    (blk10 V c 0 t : Vec Ideal S4000x256 .f32) x = (V c (Pipeline.arrRef spec10 0) : S100000x256.Idx → EReal) k := by
  obtain ⟨e00, e01, -⟩ := idx_facts10 t
  unfold blk10
  rw [View.read_apply]
  show V c (Pipeline.arrRef spec10 0) _ = V c (Pipeline.arrRef spec10 0) _
  congr 1
  funext a
  apply Fin.ext
  match a with
  | ⟨0, _⟩ => show win10_0.index t 0 * 4000 + 1 * (x 0).val = (k 0).val; rw [e00, hk0]; omega
  | ⟨1, _⟩ => show win10_0.index t 1 * 256 + 1 * (x 1).val = (k 1).val; rw [e01, hk1]; omega

set_option maxHeartbeats 4000000 in
/-- Window 1's block at every point is the whole mean. -/
theorem blk10_1_apply (c : Dev nD) (t : Fin cfg10.N) (x : S1x256.Idx) :
    (blk10 V c 1 t : Vec Ideal S1x256 .f32) x = (V c (Pipeline.arrRef spec10 1) : S1x256.Idx → EReal) x := by
  have e := idx_facts10 t
  unfold blk10
  rw [View.read_apply]
  show V c (Pipeline.arrRef spec10 1) _ = V c (Pipeline.arrRef spec10 1) _
  congr 1
  funext a
  apply Fin.ext
  match a with
  | ⟨0, _⟩ => show win10_1.index t 0 * 1 + 1 * (x 0).val = (x 0).val; omega
  | ⟨1, _⟩ => show win10_1.index t 1 * 256 + 1 * (x 1).val = (x 1).val; omega

set_option maxHeartbeats 4000000 in
/-- Window 2's block at every point is the whole variance. -/
theorem blk10_2_apply (c : Dev nD) (t : Fin cfg10.N) (x : S1x256.Idx) :
    (blk10 V c 2 t : Vec Ideal S1x256 .f32) x = (V c (Pipeline.arrRef spec10 2) : S1x256.Idx → EReal) x := by
  have e := idx_facts10 t
  unfold blk10
  rw [View.read_apply]
  show V c (Pipeline.arrRef spec10 2) _ = V c (Pipeline.arrRef spec10 2) _
  congr 1
  funext a
  apply Fin.ext
  match a with
  | ⟨0, _⟩ => show win10_2.index t 0 * 1 + 1 * (x 0).val = (x 0).val; omega
  | ⟨1, _⟩ => show win10_2.index t 1 * 256 + 1 * (x 1).val = (x 1).val; omega

set_option maxHeartbeats 4000000 in
/-- Window 3's block at every point is the whole scale. -/
theorem blk10_3_apply (c : Dev nD) (t : Fin cfg10.N) (x : S1x256.Idx) :
    (blk10 V c 3 t : Vec Ideal S1x256 .f32) x = (V c (Pipeline.arrRef spec10 3) : S1x256.Idx → EReal) x := by
  have e := idx_facts10 t
  unfold blk10
  rw [View.read_apply]
  show V c (Pipeline.arrRef spec10 3) _ = V c (Pipeline.arrRef spec10 3) _
  congr 1
  funext a
  apply Fin.ext
  match a with
  | ⟨0, _⟩ => show win10_3.index t 0 * 1 + 1 * (x 0).val = (x 0).val; omega
  | ⟨1, _⟩ => show win10_3.index t 1 * 256 + 1 * (x 1).val = (x 1).val; omega

set_option maxHeartbeats 4000000 in
/-- Window 4's block at every point is the whole shift. -/
theorem blk10_4_apply (c : Dev nD) (t : Fin cfg10.N) (x : S1x256.Idx) :
    (blk10 V c 4 t : Vec Ideal S1x256 .f32) x = (V c (Pipeline.arrRef spec10 4) : S1x256.Idx → EReal) x := by
  have e := idx_facts10 t
  unfold blk10
  rw [View.read_apply]
  show V c (Pipeline.arrRef spec10 4) _ = V c (Pipeline.arrRef spec10 4) _
  congr 1
  funext a
  apply Fin.ext
  match a with
  | ⟨0, _⟩ => show win10_4.index t 0 * 1 + 1 * (x 0).val = (x 0).val; omega
  | ⟨1, _⟩ => show win10_4.index t 1 * 256 + 1 * (x 1).val = (x 1).val; omega

set_option maxHeartbeats 4000000 in
/-- Window 5's block at every point is the whole projection weight. -/
theorem blk10_5_apply (c : Dev nD) (t : Fin cfg10.N) (x : S256x64.Idx) :
    (blk10 V c 5 t : Vec Ideal S256x64 .f32) x = (V c (Pipeline.arrRef spec10 5) : S256x64.Idx → EReal) x := by
  have e := idx_facts10 t
  unfold blk10
  rw [View.read_apply]
  show V c (Pipeline.arrRef spec10 5) _ = V c (Pipeline.arrRef spec10 5) _
  congr 1
  funext a
  apply Fin.ext
  match a with
  | ⟨0, _⟩ => show win10_5.index t 0 * 256 + 1 * (x 0).val = (x 0).val; omega
  | ⟨1, _⟩ => show win10_5.index t 1 * 64 + 1 * (x 1).val = (x 1).val; omega

set_option maxHeartbeats 4000000 in
/-- Window 6's block at every point is the whole projection bias. -/
theorem blk10_6_apply (c : Dev nD) (t : Fin cfg10.N) (x : S1x64.Idx) :
    (blk10 V c 6 t : Vec Ideal S1x64 .f32) x = (V c (Pipeline.arrRef spec10 6) : S1x64.Idx → EReal) x := by
  have e := idx_facts10 t
  unfold blk10
  rw [View.read_apply]
  show V c (Pipeline.arrRef spec10 6) _ = V c (Pipeline.arrRef spec10 6) _
  congr 1
  funext a
  apply Fin.ext
  match a with
  | ⟨0, _⟩ => show win10_6.index t 0 * 1 + 1 * (x 0).val = (x 0).val; omega
  | ⟨1, _⟩ => show win10_6.index t 1 * 64 + 1 * (x 1).val = (x 1).val; omega

set_option maxHeartbeats 4000000 in
/-- What point t writes back is block t of the output function of the arrays as the region finds them. -/
theorem flushed10_7_eq (c : Dev nD) (t : Fin cfg10.N) :
    (dat10 (F := Ideal) V c).flushed 7 t = ((cfg10.win 7).blk t).view.read (Elt Ideal)
      (outVal (V c (Pipeline.arrRef spec10 0)) (V c (Pipeline.arrRef spec10 1)) (V c (Pipeline.arrRef spec10 2))
        (V c (Pipeline.arrRef spec10 3)) (V c (Pipeline.arrRef spec10 4)) (V c (Pipeline.arrRef spec10 5))
        (V c (Pipeline.arrRef spec10 6))) := by
  show (cfg10.win 7).cut (grid10.coords t) ((dat10 V c).after 7 t) = _
  rw [after10_7]
  unfold res10_7
  rw [View.canon_unit_zero zeros10]
  simp only [View.ld_unit_zero (S := S4000x256) zeros10, View.ld_unit_zero (S := S1x256) zeros10,
    View.ld_unit_zero (S := S256x64) zeros10, View.ld_unit_zero (S := S1x64) zeros10]
  have e := idx_facts10 t
  have hN : t.val < 25 := lt_of_lt_of_eq t.isLt (show cfg10.N = 25 from N_10)
  funext j
  have hj0 : (j 0).val < 4000 := (j 0).isLt
  have hj1 : (j 1).val < 64 := (j 1).isLt
  have hy : (cfg10.win 7).xinj (grid10.coords t) j = ix2 (⟨(j 0).val, hj0⟩ : Fin 4000) (⟨(j 1).val, hj1⟩ : Fin 64) :=
    funext fun a => Fin.ext (by match a with | ⟨0, _⟩ => rfl | ⟨1, _⟩ => rfl)
  have hi : ((cfg10.win 7).blk t).view.emb j
      = ix2 (⟨t.val * 4000 + (j 0).val, by omega⟩ : Fin 100000) (⟨(j 1).val, hj1⟩ : Fin 64) :=
    funext fun a => Fin.ext (by
      match a with
      | ⟨0, _⟩ => show win10_7.index t 0 * 4000 + 1 * (j 0).val = t.val * 4000 + (j 0).val; omega
      | ⟨1, _⟩ => show win10_7.index t 1 * 64 + 1 * (j 1).val = (j 1).val; omega)
  show k10_pay1 (blk10 V c 0 t) (blk10 V c 1 t) (blk10 V c 2 t) (blk10 V c 3 t) (blk10 V c 4 t) (blk10 V c 5 t) (blk10 V c 6 t)
      ((cfg10.win 7).xinj (grid10.coords t) j)
    = outVal (V c (Pipeline.arrRef spec10 0)) (V c (Pipeline.arrRef spec10 1)) (V c (Pipeline.arrRef spec10 2))
        (V c (Pipeline.arrRef spec10 3)) (V c (Pipeline.arrRef spec10 4)) (V c (Pipeline.arrRef spec10 5))
        (V c (Pipeline.arrRef spec10 6)) (((cfg10.win 7).blk t).view.emb j)
  exact out_point (blk10 V c 0 t) (blk10 V c 1 t) (blk10 V c 2 t) (blk10 V c 3 t) (blk10 V c 4 t) (blk10 V c 5 t) (blk10 V c 6 t)
    (V c (Pipeline.arrRef spec10 0)) (V c (Pipeline.arrRef spec10 1)) (V c (Pipeline.arrRef spec10 2))
    (V c (Pipeline.arrRef spec10 3)) (V c (Pipeline.arrRef spec10 4)) (V c (Pipeline.arrRef spec10 5))
    (V c (Pipeline.arrRef spec10 6))
    _ _ ⟨(j 0).val, hj0⟩ ⟨(j 1).val, hj1⟩ ⟨t.val * 4000 + (j 0).val, by omega⟩ hy hi
    (fun k => blk10_0_apply V c t _ _ rfl rfl)
    (blk10_1_apply V c t) (blk10_2_apply V c t) (blk10_3_apply V c t) (blk10_4_apply V c t) (blk10_5_apply V c t)
    (blk10_6_apply V c t)

set_option maxHeartbeats 4000000 in
/-- An index of the output array is in point t's block iff each coordinate is in the block's range on its axis. -/
theorem mem_blk10_7 (t : Fin cfg10.N) (i : S100000x64.Idx) :
    i ∈ ((cfg10.win 7).blk t).view.set ↔ ∀ a : Fin 2, win10_7.index t a * S4000x64.size a ≤ (i a).val ∧ (i a).val < win10_7.index t a * S4000x64.size a + S4000x64.size a := by
  show i ∈ ((View.whole main_v120).slice (win10_7.rect t)).set ↔ _
  rw [View.set_slice_whole, Rect.mem_set_unit]
  exact Iff.rfl

set_option maxHeartbeats 4000000 in
/-- Every row is in some point's block: row r is in block r / 4000. -/
theorem cover10_7 (i : S100000x64.Idx) :
    ∃ t : Fin cfg10.N, (cfg10.win 7).flush t = true ∧ i ∈ ((cfg10.win 7).blk t).view.set := by
  have hi0 : (i 0).val < 100000 := (i 0).isLt
  have hi1 : (i 1).val < 64 := (i 1).isLt
  have ht : (i 0).val / 4000 < cfg10.N := by rw [show cfg10.N = 25 from N_10]; omega
  obtain ⟨-, -, -, -, -, -, -, -, -, -, -, -, -, -, e70, e71⟩ := idx_facts10 ⟨(i 0).val / 4000, ht⟩
  refine ⟨⟨(i 0).val / 4000, ht⟩, flush10_7 _, ?_⟩
  rw [mem_blk10_7]
  intro a
  match a with
  | ⟨0, _⟩ =>
    show win10_7.index ⟨(i 0).val / 4000, ht⟩ 0 * 4000 ≤ (i 0).val ∧ (i 0).val < win10_7.index ⟨(i 0).val / 4000, ht⟩ 0 * 4000 + 4000
    rw [e70]; show (i 0).val / 4000 * 4000 ≤ (i 0).val ∧ (i 0).val < (i 0).val / 4000 * 4000 + 4000; omega
  | ⟨1, _⟩ =>
    show win10_7.index ⟨(i 0).val / 4000, ht⟩ 1 * 64 ≤ (i 1).val ∧ (i 1).val < win10_7.index ⟨(i 0).val / 4000, ht⟩ 1 * 64 + 64
    rw [e71]; omega

set_option maxHeartbeats 4000000 in
/-- THE OUTPUT ARRAY after the region: the output function of the arrays as the region finds them. -/
theorem arr10_7 (c : Dev nD) :
    (dat10 (F := Ideal) V c).arrAt 7 cfg10.N
      = outVal (V c (Pipeline.arrRef spec10 0)) (V c (Pipeline.arrRef spec10 1)) (V c (Pipeline.arrRef spec10 2))
          (V c (Pipeline.arrRef spec10 3)) (V c (Pipeline.arrRef spec10 4)) (V c (Pipeline.arrRef spec10 5))
          (V c (Pipeline.arrRef spec10 6)) :=
  (dat10 (F := Ideal) V c).arrAt_eq_of_cover 7 _ (fun t _ => flushed10_7_eq V c t) (cover10_7)

end Cert.KernelIdeal.HandVal

end
-- ==== Proof.KIGlue0.lean ====
/-
  The kernel's opening host stretch against the reference's stages: the edge endpoints, the degree plus one, the edge
  normaliser and the reciprocal degree, each the same function of the index argument as the reference's stage (the same
  host operations), the two reshaped ones read at an index.
-/
import proofs.«161825_j7842610283390_1_alg».proof.Proof.KIRun
import proofs.«161825_j7842610283390_1_alg».proof.Proof.RefRead
import proofs.«161825_j7842610283390_1_alg».proof.Proof.RefFacts0
import proofs.«161825_j7842610283390_1_alg».proof.Proof.BnTail
import Idealize.ShloMosaic.Lib.Pipeline.Value
import Idealize.ShloMosaic.Lib.ValueIdx

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx
open Cert.ReferenceIdeal.Read Cert.RefFacts

variable (m : (ℓ : Loc nD τ sig) → Buf (Elt Ideal) ℓ) (c : Dev nD)

set_option quotPrecheck false

local notation "A0" => m ((c.tc : Thread nD τ).loc main_arg0)
local notation "A1" => m ((c.tc : Thread nD τ).loc main_arg1)
local notation "A2" => m ((c.tc : Thread nD τ).loc main_arg2)
local notation "A3" => m ((c.tc : Thread nD τ).loc main_arg3)
local notation "A4" => m ((c.tc : Thread nD τ).loc main_arg4)
local notation "A5" => m ((c.tc : Thread nD τ).loc main_arg5)
local notation "A6" => m ((c.tc : Thread nD τ).loc main_arg6)
local notation "A7" => m ((c.tc : Thread nD τ).loc main_arg7)

/-- The source endpoints. -/
theorem g0_row : W1 m c (Proc.devRef .tc main_v1) = val_main_v1 (F := Ideal) A1 := by
  show StableHlo.after hostOps0 (W0 m c) (Proc.devRef .tc main_v1) = _
  after_results_simp
  rfl

/-- The target endpoints. -/
theorem g0_col : W1 m c (Proc.devRef .tc main_v3) = val_main_v3 (F := Ideal) A1 := by
  show StableHlo.after hostOps0 (W0 m c) (Proc.devRef .tc main_v3) = _
  after_results_simp
  rfl

/-- The degree plus one. -/
theorem g0_deg : W1 m c (Proc.devRef .tc main_v9) = val_main_v9 (F := Ideal) A1 := by
  show StableHlo.after hostOps0 (W0 m c) (Proc.devRef .tc main_v9) = _
  after_results_simp
  rfl

/-- The edge normaliser, as a vector. -/
theorem g0_nrm : W1 m c (Proc.devRef .tc main_v29) = val_main_v26 (F := Ideal) A1 := by
  show StableHlo.after hostOps0 (W0 m c) (Proc.devRef .tc main_v29) = _
  after_results_simp
  rfl

/-- The edge normaliser as a column, read at edge `e`. -/
theorem g0_nrm_at (e : Fin 1250000) :
    W1 m c (Proc.devRef .tc main_v30) (ix2 e (0 : Fin 1)) = val_main_v27 (F := Ideal) A1 (ix2 e (0 : Fin 1)) := by
  have h : W1 m c (Proc.devRef .tc main_v30) = shapeCast _ (val_main_v26 (F := Ideal) A1) shapeCasts_S1250000_S1250000x1 := by
    show StableHlo.after hostOps0 (W0 m c) (Proc.devRef .tc main_v30) = _
    after_results_simp
    rfl
  rw [h, val_main_v27_apply]
  have e1 : idx_main_v27 (ix2 e (0 : Fin 1)) = ix1 e := funext fun a => Fin.ext (by match a with | ⟨0, _⟩ => rfl)
  rw [e1]
  exact shapeCast_apply _ _ _ _ (by
    rewrite [Shape.rowMajor_val_one, Shape.rowMajor_val_two]; show e.val = e.val * 1 + 0; omega)

/-- The reciprocal degree as a column, read at node `p`: the float one over the degree plus one. -/
theorem g0_inv_at (p : Fin 100000) :
    W1 m c (Proc.devRef .tc main_v14) (ix2 p (0 : Fin 1))
      = Ideal.div (Ideal.ofBits .f32 0x3F800000#32) (val_main_v9 (F := Ideal) A1 (ix1 p)) := by
  have h : W1 m c (Proc.devRef .tc main_v14)
      = shapeCast _ (Host.divf (F := Ideal) (broadcastInDim S100000 ![] bcast_S_S100000 (constant (F := Ideal) S_ .f32 0x3F800000#32))
          (val_main_v9 (F := Ideal) A1)) shapeCasts_S100000_S100000x1 := by
    show StableHlo.after hostOps0 (W0 m c) (Proc.devRef .tc main_v14) = _
    after_results_simp
    rfl
  rw [h]
  refine (shapeCast_apply _ _ (ix2 p (0 : Fin 1)) (ix1 p) (by
    rewrite [Shape.rowMajor_val_one, Shape.rowMajor_val_two]; show p.val = p.val * 1 + 0; omega)).trans ?_
  rw [hostDivf_apply, broadcastInDim_scalar_apply]
  rfl

end Cert.KernelIdeal.HandVal

end
-- ==== Proof.KIValNodePay.lean ====
/-
  The node update of each of the three layers, read at one entry of a block of 4000 nodes.
  `linG` is the linear map on whole arrays: h = x · W + b, a sum over the 64 input features; `rootG` is the root
  branch: max (h + root_emb) 0 scaled by the node's inverse degree. The payload lemmas say that the body's two stored
  values, at entry (p, q) of a block, are these formulas of the loaded blocks: at the extended reals the casts to the
  narrower float format and the identity reshapes vanish, the matrix product into a zero accumulator is the plain sum
  over the contracted axis, a [1, 64] row broadcast over the rows reads its one row, and a [4000, 1] column broadcast
  over the columns reads its one column.
-/
import proofs.«161825_j7842610283390_1_alg».proof.Proof.Gen.KernelIdeal.Skeleton
import proofs.«161825_j7842610283390_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HandVal

open Cert.KernelIdeal Cert.KernelIdeal.Gen
open Idealize.ShloMosaic Idealize.ShloMosaic.ValueIdx

open scoped BigOperators

/-- The linear map on whole arrays: at node `i₀` and output feature `i₁`, the sum over the input features `k` of
    `x (i₀, k) · W (k, i₁)`, plus the bias `b (0, i₁)`. -/
def linG (x : S100000x64.Idx → EReal) (W : S64x64.Idx → EReal) (b : S1x64.Idx → EReal) : S100000x64.Idx → EReal :=
  fun i => (∑ k : Fin 64, x (ix2 (i 0) k) * W (ix2 k (i 1))) + b (ix2 (0 : Fin 1) (i 1))

theorem linG_apply (x : S100000x64.Idx → EReal) (W : S64x64.Idx → EReal) (b : S1x64.Idx → EReal) (i : S100000x64.Idx) :
    linG x W b i = (∑ k : Fin 64, x (ix2 (i 0) k) * W (ix2 k (i 1))) + b (ix2 (0 : Fin 1) (i 1)) := rfl

/-- The root branch on whole arrays: the linear map plus the root embedding `e (0, i₁)`, cut off below at zero,
    times the node's inverse degree `d (i₀, 0)`. -/
def rootG (x : S100000x64.Idx → EReal) (W : S64x64.Idx → EReal) (b e : S1x64.Idx → EReal) (d : S100000x1.Idx → EReal) :
    S100000x64.Idx → EReal :=
  fun i => max (linG x W b i + e (ix2 (0 : Fin 1) (i 1))) 0 * d (ix2 (i 0) (0 : Fin 1))

theorem rootG_apply (x : S100000x64.Idx → EReal) (W : S64x64.Idx → EReal) (b e : S1x64.Idx → EReal) (d : S100000x1.Idx → EReal)
    (i : S100000x64.Idx) :
    rootG x W b e d i = max (linG x W b i + e (ix2 (0 : Fin 1) (i 1))) 0 * d (ix2 (i 0) (0 : Fin 1)) := rfl

/-- The body's matrix product: a [4000, 64] block times the [64, 64] weights, contracting the block's columns with the
    weights' rows. -/
abbrev dotN : DotDims S4000x64 S64x64 S4000x64 := dot_S4000x64_S64x64_S4000x64_1_0_0_1_n_n

theorem dotN_lhs0 (i : S4000x64.Idx) (q : dotN.contr.Idx) : (dotN.lhsIdx i q 0).val = (i 0).val := by
  unfold DotDims.lhsIdx
  rw [dif_neg (show ¬(0 : Fin S4000x64.rank) ∈ dotN.lhsBatch by decide), dif_pos (show (0 : Fin S4000x64.rank) ∈ dotN.lhsNonContracting by decide)]
  rfl
theorem dotN_lhs1 (i : S4000x64.Idx) (q : dotN.contr.Idx) : (dotN.lhsIdx i q 1).val = (q ⟨0, by decide⟩).val :=
  dotN.lhsIdx_val_of_single rfl i q
theorem dotN_rhs0 (i : S4000x64.Idx) (q : dotN.contr.Idx) : (dotN.rhsIdx i q 0).val = (q ⟨0, by decide⟩).val :=
  dotN.rhsIdx_val_of_single rfl i q
theorem dotN_rhs1 (i : S4000x64.Idx) (q : dotN.contr.Idx) : (dotN.rhsIdx i q 1).val = (i 1).val := by
  unfold DotDims.rhsIdx
  rw [dif_neg (show ¬(1 : Fin S64x64.rank) ∈ dotN.rhsBatch by decide), dif_pos (show (1 : Fin S64x64.rank) ∈ dotN.rhsNonContracting by decide)]
  rfl

/-- The matrix product into a zero accumulator, at entry (p, q): the sum over `k` of row `p` of the block against
    column `q` of the weights. -/
theorem dotN_apply {φ₁ φ₂ : FTy} (l : FVec Ideal S4000x64 φ₁) (r : FVec Ideal S64x64 φ₂) (p : Fin 4000) (q : Fin 64) :
    FloatOps.matmul dotN none l r (constant S4000x64 .f32 0x00000000#32) (ix2 p q)
      = ∑ k : Fin 64, l (ix2 p k) * r (ix2 k q) := by
  rw [Ideal.matmul_constant_zero_apply, ← Equiv.sum_comp (contrEquiv1 dotN 64 rfl rfl).symm]
  refine Finset.sum_congr rfl fun k _ => ?_
  have hk := contrEquiv1_symm_val dotN 64 rfl rfl k
  have el : dotN.lhsIdx (ix2 p q) ((contrEquiv1 dotN 64 rfl rfl).symm k) = ix2 p k := funext fun a => Fin.ext (by
    match a with
    | ⟨0, _⟩ => exact dotN_lhs0 _ _
    | ⟨1, _⟩ => exact (dotN_lhs1 _ _).trans hk)
  have er : dotN.rhsIdx (ix2 p q) ((contrEquiv1 dotN 64 rfl rfl).symm k) = ix2 k q := funext fun a => Fin.ext (by
    match a with
    | ⟨0, _⟩ => exact (dotN_rhs0 _ _).trans hk
    | ⟨1, _⟩ => exact dotN_rhs1 _ _)
  rw [el, er]

/-- Layer 1's linear map at entry (p, q) of a block. -/
theorem node0_pay1_apply (v0 : Vec Ideal S4000x64 .f32) (vW : Vec Ideal S64x64 .f32) (vb : Vec Ideal S1x64 .f32)
    (p : Fin 4000) (q : Fin 64) :
    k0_pay1 v0 vW vb (ix2 p q) = (∑ k : Fin 64, v0 (ix2 p k) * vW (ix2 k q)) + vb (ix2 (0 : Fin 1) q) := by
  unfold k0_pay1
  simp only [shapeCast_self]
  have e1 : broadcastTo S4000x64 vb broadcasts_S1x64_S4000x64 (ix2 p q) = vb (ix2 (0 : Fin 1) q) :=
    broadcastTo_1b_ab_apply vb _ p q
  have e2 := dotN_apply (truncf .bf16 v0 bitsLt_bf16_f32 : FVec Ideal S4000x64 .bf16) (truncf .bf16 vW bitsLt_bf16_f32 : FVec Ideal S64x64 .bf16) p q
  exact congrArg₂ (· + ·) e2 e1

/-- Layer 1's root branch at entry (p, q) of a block. -/
theorem node0_pay2_apply (v0 : Vec Ideal S4000x64 .f32) (vW : Vec Ideal S64x64 .f32) (vb ve : Vec Ideal S1x64 .f32)
    (vd : Vec Ideal S4000x1 .f32) (p : Fin 4000) (q : Fin 64) :
    k0_pay2 v0 vW vb ve vd (ix2 p q)
      = max ((∑ k : Fin 64, v0 (ix2 p k) * vW (ix2 k q)) + vb (ix2 (0 : Fin 1) q) + ve (ix2 (0 : Fin 1) q)) 0 * vd (ix2 p (0 : Fin 1)) := by
  unfold k0_pay2
  simp only [shapeCast_self]
  have e1 : broadcastTo S4000x64 ve broadcasts_S1x64_S4000x64 (ix2 p q) = ve (ix2 (0 : Fin 1) q) :=
    broadcastTo_1b_ab_apply ve _ p q
  have e2 : broadcastTo S4000x64 vd broadcasts_S4000x1_S4000x64 (ix2 p q) = vd (ix2 p (0 : Fin 1)) :=
    Cert.Keepdims.broadcastTo_a1_ab_apply vd _ p q
  show max (k0_pay1 v0 vW vb (ix2 p q) + broadcastTo S4000x64 ve broadcasts_S1x64_S4000x64 (ix2 p q)) (Ideal.ofBits .f32 0x00000000#32)
      * broadcastTo S4000x64 vd broadcasts_S4000x1_S4000x64 (ix2 p q) = _
  rw [e1, e2, node0_pay1_apply, Ideal.ofBits_zero_f32]

/-- Layer 2's linear map at entry (p, q) of a block. -/
theorem node3_pay1_apply (v0 : Vec Ideal S4000x64 .f32) (vW : Vec Ideal S64x64 .f32) (vb : Vec Ideal S1x64 .f32)
    (p : Fin 4000) (q : Fin 64) :
    k3_pay1 v0 vW vb (ix2 p q) = (∑ k : Fin 64, v0 (ix2 p k) * vW (ix2 k q)) + vb (ix2 (0 : Fin 1) q) := by
  unfold k3_pay1
  simp only [shapeCast_self]
  have e1 : broadcastTo S4000x64 vb broadcasts_S1x64_S4000x64 (ix2 p q) = vb (ix2 (0 : Fin 1) q) :=
    broadcastTo_1b_ab_apply vb _ p q
  have e2 := dotN_apply (truncf .bf16 v0 bitsLt_bf16_f32 : FVec Ideal S4000x64 .bf16) (truncf .bf16 vW bitsLt_bf16_f32 : FVec Ideal S64x64 .bf16) p q
  exact congrArg₂ (· + ·) e2 e1

/-- Layer 2's root branch at entry (p, q) of a block. -/
theorem node3_pay2_apply (v0 : Vec Ideal S4000x64 .f32) (vW : Vec Ideal S64x64 .f32) (vb ve : Vec Ideal S1x64 .f32)
    (vd : Vec Ideal S4000x1 .f32) (p : Fin 4000) (q : Fin 64) :
    k3_pay2 v0 vW vb ve vd (ix2 p q)
      = max ((∑ k : Fin 64, v0 (ix2 p k) * vW (ix2 k q)) + vb (ix2 (0 : Fin 1) q) + ve (ix2 (0 : Fin 1) q)) 0 * vd (ix2 p (0 : Fin 1)) := by
  unfold k3_pay2
  simp only [shapeCast_self]
  have e1 : broadcastTo S4000x64 ve broadcasts_S1x64_S4000x64 (ix2 p q) = ve (ix2 (0 : Fin 1) q) :=
    broadcastTo_1b_ab_apply ve _ p q
  have e2 : broadcastTo S4000x64 vd broadcasts_S4000x1_S4000x64 (ix2 p q) = vd (ix2 p (0 : Fin 1)) :=
    Cert.Keepdims.broadcastTo_a1_ab_apply vd _ p q
  show max (k3_pay1 v0 vW vb (ix2 p q) + broadcastTo S4000x64 ve broadcasts_S1x64_S4000x64 (ix2 p q)) (Ideal.ofBits .f32 0x00000000#32)
      * broadcastTo S4000x64 vd broadcasts_S4000x1_S4000x64 (ix2 p q) = _
  rw [e1, e2, node3_pay1_apply, Ideal.ofBits_zero_f32]

/-- Layer 3's linear map at entry (p, q) of a block. -/
theorem node6_pay1_apply (v0 : Vec Ideal S4000x64 .f32) (vW : Vec Ideal S64x64 .f32) (vb : Vec Ideal S1x64 .f32)
    (p : Fin 4000) (q : Fin 64) :
    k6_pay1 v0 vW vb (ix2 p q) = (∑ k : Fin 64, v0 (ix2 p k) * vW (ix2 k q)) + vb (ix2 (0 : Fin 1) q) := by
  unfold k6_pay1
  simp only [shapeCast_self]
  have e1 : broadcastTo S4000x64 vb broadcasts_S1x64_S4000x64 (ix2 p q) = vb (ix2 (0 : Fin 1) q) :=
    broadcastTo_1b_ab_apply vb _ p q
  have e2 := dotN_apply (truncf .bf16 v0 bitsLt_bf16_f32 : FVec Ideal S4000x64 .bf16) (truncf .bf16 vW bitsLt_bf16_f32 : FVec Ideal S64x64 .bf16) p q
  exact congrArg₂ (· + ·) e2 e1

/-- Layer 3's root branch at entry (p, q) of a block. -/
theorem node6_pay2_apply (v0 : Vec Ideal S4000x64 .f32) (vW : Vec Ideal S64x64 .f32) (vb ve : Vec Ideal S1x64 .f32)
    (vd : Vec Ideal S4000x1 .f32) (p : Fin 4000) (q : Fin 64) :
    k6_pay2 v0 vW vb ve vd (ix2 p q)
      = max ((∑ k : Fin 64, v0 (ix2 p k) * vW (ix2 k q)) + vb (ix2 (0 : Fin 1) q) + ve (ix2 (0 : Fin 1) q)) 0 * vd (ix2 p (0 : Fin 1)) := by
  unfold k6_pay2
  simp only [shapeCast_self]
  have e1 : broadcastTo S4000x64 ve broadcasts_S1x64_S4000x64 (ix2 p q) = ve (ix2 (0 : Fin 1) q) :=
    broadcastTo_1b_ab_apply ve _ p q
  have e2 : broadcastTo S4000x64 vd broadcasts_S4000x1_S4000x64 (ix2 p q) = vd (ix2 p (0 : Fin 1)) :=
    Cert.Keepdims.broadcastTo_a1_ab_apply vd _ p q
  show max (k6_pay1 v0 vW vb (ix2 p q) + broadcastTo S4000x64 ve broadcasts_S1x64_S4000x64 (ix2 p q)) (Ideal.ofBits .f32 0x00000000#32)
      * broadcastTo S4000x64 vd broadcasts_S4000x1_S4000x64 (ix2 p q) = _
  rw [e1, e2, node6_pay1_apply, Ideal.ofBits_zero_f32]

/-! ## One entry of a block against one entry of the whole arrays -/

/-- If a block `x0` is rows `4000 T …` of `A0`, and the weights and bias blocks are the whole arrays, then the
    body's linear map at entry (p, q) of the block is `linG` at the array index `i` = (4000 T + p, q). -/
theorem lin_point (A0 : S100000x64.Idx → EReal) (A1 : S64x64.Idx → EReal) (A2 : S1x64.Idx → EReal)
    (x0 : Vec Ideal S4000x64 .f32) (x1 : Vec Ideal S64x64 .f32) (x2 : Vec Ideal S1x64 .f32)
    (T : ℕ) (p : Fin 4000) (q : Fin 64) (i : S100000x64.Idx)
    (hi0 : (i 0).val = 4000 * T + p.val) (hi1 : (i 1).val = q.val)
    (h0 : ∀ (k : Fin 64) (i' : S100000x64.Idx), (i' 0).val = 4000 * T + p.val → (i' 1).val = k.val → x0 (ix2 p k) = A0 i')
    (h1 : ∀ j, x1 j = A1 j) (h2 : ∀ j, x2 j = A2 j) :
    (∑ k : Fin 64, x0 (ix2 p k) * x1 (ix2 k q)) + x2 (ix2 (0 : Fin 1) q) = linG A0 A1 A2 i := by
  obtain ⟨r, s, rfl⟩ : ∃ (r : Fin 100000) (s : Fin 64), i = ix2 r s := ⟨i 0, i 1, eq_ix2 i⟩
  obtain rfl : s = q := Fin.ext hi1
  rw [linG_apply]
  show _ = (∑ k : Fin 64, A0 (ix2 r k) * A1 (ix2 k s)) + A2 (ix2 (0 : Fin 1) s)
  exact congrArg₂ (· + ·) (Finset.sum_congr rfl fun k _ => congrArg₂ (· * ·) (h0 k (ix2 r k) hi0 rfl) (h1 _)) (h2 _)

/-- The same for the root branch, with the root embedding's block the whole array and the inverse degrees' block rows
    `4000 T …` of the [100000, 1] column. -/
theorem root_point (A0 : S100000x64.Idx → EReal) (A1 : S64x64.Idx → EReal) (A2 A3 : S1x64.Idx → EReal) (A4 : S100000x1.Idx → EReal)
    (x0 : Vec Ideal S4000x64 .f32) (x1 : Vec Ideal S64x64 .f32) (x2 x3 : Vec Ideal S1x64 .f32) (x4 : Vec Ideal S4000x1 .f32)
    (T : ℕ) (p : Fin 4000) (q : Fin 64) (i : S100000x64.Idx)
    (hi0 : (i 0).val = 4000 * T + p.val) (hi1 : (i 1).val = q.val)
    (h0 : ∀ (k : Fin 64) (i' : S100000x64.Idx), (i' 0).val = 4000 * T + p.val → (i' 1).val = k.val → x0 (ix2 p k) = A0 i')
    (h1 : ∀ j, x1 j = A1 j) (h2 : ∀ j, x2 j = A2 j) (h3 : ∀ j, x3 j = A3 j)
    (h4 : ∀ i' : S100000x1.Idx, (i' 0).val = 4000 * T + p.val → (i' 1).val = 0 → x4 (ix2 p (0 : Fin 1)) = A4 i') :
    max ((∑ k : Fin 64, x0 (ix2 p k) * x1 (ix2 k q)) + x2 (ix2 (0 : Fin 1) q) + x3 (ix2 (0 : Fin 1) q)) 0 * x4 (ix2 p (0 : Fin 1))
      = rootG A0 A1 A2 A3 A4 i := by
  obtain ⟨r, s, rfl⟩ : ∃ (r : Fin 100000) (s : Fin 64), i = ix2 r s := ⟨i 0, i 1, eq_ix2 i⟩
  obtain rfl : s = q := Fin.ext hi1
  rw [rootG_apply, linG_apply]
  show _ = max ((∑ k : Fin 64, A0 (ix2 r k) * A1 (ix2 k s)) + A2 (ix2 (0 : Fin 1) s) + A3 (ix2 (0 : Fin 1) s)) 0 * A4 (ix2 r (0 : Fin 1))
  exact congrArg₂ (· * ·)
    (congrArg (fun z => max z 0)
      (congrArg₂ (· + ·)
        (congrArg₂ (· + ·) (Finset.sum_congr rfl fun k _ => congrArg₂ (· * ·) (h0 k (ix2 r k) hi0 rfl) (h1 _)) (h2 _))
        (h3 _)))
    (h4 (ix2 r (0 : Fin 1)) hi0 rfl)

end Cert.KernelIdeal.HandVal

end
-- ==== Proof.KIValNode.lean ====
/-
  The node update of a layer (regions 0, 3 and 6) on whole arrays. Each of the 25 grid points takes rows
  4000 t … 4000 t + 3999 of the node features and of the inverse degrees, with the [64, 64] weights, the bias and the
  root embedding whole, and writes back two blocks of the same rows: the linear map h = x · W + b, and the root
  branch max (h + root_emb) 0 · inv_deg. The blocks tile the [100000, 64] arrays (row r is in block r / 4000), so after
  the region the two output arrays hold `linG` and `rootG` of the region-entry arrays at every index.
-/
import proofs.«161825_j7842610283390_1_alg».proof.Proof.KIReg0
import proofs.«161825_j7842610283390_1_alg».proof.Proof.KIReg3
import proofs.«161825_j7842610283390_1_alg».proof.Proof.KIReg6
import proofs.«161825_j7842610283390_1_alg».proof.Proof.KIValNodePay
import Idealize.ShloMosaic.Lib.Pipeline.Value
import Idealize.ShloMosaic.Lib.ValueIdx

noncomputable section

namespace Cert.KernelIdeal.HandVal

open Cert.KernelIdeal Cert.KernelIdeal.Gen
open Idealize.ShloMosaic Idealize.ShloMosaic.ValueIdx

open Cert.KernelIdeal.Hand
open Idealize.ShloMosaic.TcCoe Idealize.SL.Sem
open Idealize.ShloMosaic.Pipeline (Dat)

variable (V : (c : Dev nD) → (b : Ref sig .tc) → Buf (Elt Ideal) ((c : Thread nD τ).loc b))

theorem hzN : (![0, 0] : Fin 2 → Nat) = fun _ => 0 := funext fun a => by fin_cases a <;> rfl

/-! ## Region 0: layer 1's node update, on the whole arrays -/

/-- The printed block maps over the 25 grid points: point `t` works on rows `4000 t … 4000 t + 3999` of the node
    features, of the inverse degrees and of the two outputs; the weights, the bias and the root embedding are read whole
    at every point. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The node features' block at point `t`, entry `j`, is the array's entry at row `4000 t + j₀`, column `j₁`. -/
theorem blk0_0_apply (c : Dev nD) (t : Fin cfg0.N) (j : S4000x64.Idx) (i : S100000x64.Idx)
    (h0 : (i 0).val = 4000 * t.val + (j 0).val) (h1 : (i 1).val = (j 1).val) :
    (blk0 V c 0 t : Vec Ideal S4000x64 .f32) j = (V c (Pipeline.arrRef spec0 0) : S100000x64.Idx → EReal) i := by
  obtain ⟨e0, e1, -, -, -, -, -, -, -, -, -, -, -, -⟩ := idx_facts0 t
  unfold blk0
  rw [View.read_apply]
  refine congrArg (V c (Pipeline.arrRef spec0 0) : S100000x64.Idx → EReal) (funext fun a => Fin.ext ?_)
  match a with
  | ⟨0, _⟩ => show win0_0.index t (0 : Fin 2) * 4000 + 1 * (j 0).val = (i 0).val; rw [e0, h0]; omega
  | ⟨1, _⟩ => show win0_0.index t (1 : Fin 2) * 64 + 1 * (j 1).val = (i 1).val; rw [e1, h1]; omega

/-- The weights' block is the whole [64, 64] array at every point. -/
theorem blk0_1_apply (c : Dev nD) (t : Fin cfg0.N) (j : S64x64.Idx) :
    (blk0 V c 1 t : Vec Ideal S64x64 .f32) j = (V c (Pipeline.arrRef spec0 1) : S64x64.Idx → EReal) j := by
  obtain ⟨-, -, e0, e1, -, -, -, -, -, -, -, -, -, -⟩ := idx_facts0 t
  unfold blk0
  rw [View.read_apply]
  refine congrArg (V c (Pipeline.arrRef spec0 1) : S64x64.Idx → EReal) (funext fun a => Fin.ext ?_)
  match a with
  | ⟨0, _⟩ => show win0_1.index t (0 : Fin 2) * 64 + 1 * (j 0).val = (j 0).val; rw [e0]; omega
  | ⟨1, _⟩ => show win0_1.index t (1 : Fin 2) * 64 + 1 * (j 1).val = (j 1).val; rw [e1]; omega

/-- The bias' block is the whole [1, 64] array at every point. -/
theorem blk0_2_apply (c : Dev nD) (t : Fin cfg0.N) (j : S1x64.Idx) :
    (blk0 V c 2 t : Vec Ideal S1x64 .f32) j = (V c (Pipeline.arrRef spec0 2) : S1x64.Idx → EReal) j := by
  obtain ⟨-, -, -, -, e0, e1, -, -, -, -, -, -, -, -⟩ := idx_facts0 t
  unfold blk0
  rw [View.read_apply]
  refine congrArg (V c (Pipeline.arrRef spec0 2) : S1x64.Idx → EReal) (funext fun a => Fin.ext ?_)
  match a with
  | ⟨0, _⟩ => show win0_2.index t (0 : Fin 2) * 1 + 1 * (j 0).val = (j 0).val; rw [e0]; omega
  | ⟨1, _⟩ => show win0_2.index t (1 : Fin 2) * 64 + 1 * (j 1).val = (j 1).val; rw [e1]; omega

/-- The root embedding's block is the whole [1, 64] array at every point. -/
theorem blk0_3_apply (c : Dev nD) (t : Fin cfg0.N) (j : S1x64.Idx) :
    (blk0 V c 3 t : Vec Ideal S1x64 .f32) j = (V c (Pipeline.arrRef spec0 3) : S1x64.Idx → EReal) j := by
  obtain ⟨-, -, -, -, -, -, e0, e1, -, -, -, -, -, -⟩ := idx_facts0 t
  unfold blk0
  rw [View.read_apply]
  refine congrArg (V c (Pipeline.arrRef spec0 3) : S1x64.Idx → EReal) (funext fun a => Fin.ext ?_)
  match a with
  | ⟨0, _⟩ => show win0_3.index t (0 : Fin 2) * 1 + 1 * (j 0).val = (j 0).val; rw [e0]; omega
  | ⟨1, _⟩ => show win0_3.index t (1 : Fin 2) * 64 + 1 * (j 1).val = (j 1).val; rw [e1]; omega

/-- The inverse degrees' block at point `t`, entry `j`, is the column's entry at row `4000 t + j₀`. -/
theorem blk0_4_apply (c : Dev nD) (t : Fin cfg0.N) (j : S4000x1.Idx) (i : S100000x1.Idx)
    (h0 : (i 0).val = 4000 * t.val + (j 0).val) (h1 : (i 1).val = (j 1).val) :
    (blk0 V c 4 t : Vec Ideal S4000x1 .f32) j = (V c (Pipeline.arrRef spec0 4) : S100000x1.Idx → EReal) i := by
  obtain ⟨-, -, -, -, -, -, -, -, e0, e1, -, -, -, -⟩ := idx_facts0 t
  unfold blk0
  rw [View.read_apply]
  refine congrArg (V c (Pipeline.arrRef spec0 4) : S100000x1.Idx → EReal) (funext fun a => Fin.ext ?_)
  match a with
  | ⟨0, _⟩ => show win0_4.index t (0 : Fin 2) * 4000 + 1 * (j 0).val = (i 0).val; rw [e0, h0]; omega
  | ⟨1, _⟩ => show win0_4.index t (1 : Fin 2) * 1 + 1 * (j 1).val = (i 1).val; rw [e1, h1]; omega

set_option maxHeartbeats 2000000 in
/-- What point `t` writes back through window 5 is block `t` of `linG` of the arrays as the region finds them. -/
theorem flushed0_5 (c : Dev nD) (t : Fin cfg0.N) :
    (dat0 V c).flushed 5 t = ((cfg0.win 5).blk t).view.read (Elt Ideal)
      (linG (V c (Pipeline.arrRef spec0 0)) (V c (Pipeline.arrRef spec0 1)) (V c (Pipeline.arrRef spec0 2))) := by
  show (cfg0.win 5).cut (grid0.coords t) ((dat0 V c).after 5 t) = _
  rw [after0_5]
  unfold res0_5
  rw [View.canon_unit_zero hzN]
  simp only [View.ld_unit_zero (S := S4000x64) hzN, View.ld_unit_zero (S := S64x64) hzN, View.ld_unit_zero (S := S1x64) hzN]
  obtain ⟨-, -, -, -, -, -, -, -, -, -, e0, e1, -, -⟩ := idx_facts0 t
  funext j
  obtain ⟨p, q, rfl⟩ : ∃ (p : Fin 4000) (q : Fin 64), j = ix2 p q := ⟨j 0, j 1, eq_ix2 j⟩
  show k0_pay1 (blk0 V c 0 t) (blk0 V c 1 t) (blk0 V c 2 t) (ix2 p q)
    = linG (V c (Pipeline.arrRef spec0 0)) (V c (Pipeline.arrRef spec0 1)) (V c (Pipeline.arrRef spec0 2)) (((cfg0.win 5).blk t).view.emb (ix2 p q))
  refine (node0_pay1_apply (blk0 V c 0 t) (blk0 V c 1 t) (blk0 V c 2 t) p q).trans ?_
  have q0 : ((((cfg0.win 5).blk t).view.emb (ix2 p q) : S100000x64.Idx) 0).val = 4000 * t.val + p.val := by
    show win0_5.index t (0 : Fin 2) * 4000 + 1 * p.val = _; rw [e0]; omega
  have q1 : ((((cfg0.win 5).blk t).view.emb (ix2 p q) : S100000x64.Idx) 1).val = q.val := by
    show win0_5.index t (1 : Fin 2) * 64 + 1 * q.val = _; rw [e1]; omega
  exact lin_point (V c (Pipeline.arrRef spec0 0)) (V c (Pipeline.arrRef spec0 1)) (V c (Pipeline.arrRef spec0 2))
    (blk0 V c 0 t) (blk0 V c 1 t) (blk0 V c 2 t) t.val p q _ q0 q1
    (fun k i' a b => blk0_0_apply V c t (ix2 p k) i' a b) (blk0_1_apply V c t) (blk0_2_apply V c t)

/-- An index of the array is in point `t`'s block of window 5 iff each coordinate is in the block's range on its axis. -/
theorem mem_blk0_5 (t : Fin cfg0.N) (i : S100000x64.Idx) :
    i ∈ ((cfg0.win 5).blk t).view.set ↔ ∀ a : Fin 2, win0_5.index t a * S4000x64.size a ≤ (i a).val ∧ (i a).val < win0_5.index t a * S4000x64.size a + S4000x64.size a := by
  show i ∈ ((View.whole main_v39_0).slice (win0_5.rect t)).set ↔ _
  rw [View.set_slice_whole, Rect.mem_set_unit]
  exact Iff.rfl

/-- The 25 blocks of window 5 tile the array: row `r` lies in the block of point `r / 4000`. -/
theorem cover0_5 (i : S100000x64.Idx) :
    ∃ t : Fin cfg0.N, (cfg0.win 5).flush t = true ∧ i ∈ ((cfg0.win 5).blk t).view.set := by
  have hi0 : (i 0).val < 100000 := idx2_lt0 i
  have hi1 : (i 1).val < 64 := idx2_lt1 i
  have hN : cfg0.N = 25 := N_0
  refine ⟨⟨(i 0).val / 4000, by rw [hN]; omega⟩, flush0_5 _, ?_⟩
  rw [mem_blk0_5]
  obtain ⟨-, -, -, -, -, -, -, -, -, -, e0, e1, -, -⟩ := idx_facts0 ⟨(i 0).val / 4000, by rw [hN]; omega⟩
  intro a
  match a with
  | ⟨0, _⟩ => show win0_5.index _ (0 : Fin 2) * 4000 ≤ (i 0).val ∧ (i 0).val < win0_5.index _ (0 : Fin 2) * 4000 + 4000; rw [e0]; show (i 0).val / 4000 * 4000 ≤ (i 0).val ∧ (i 0).val < (i 0).val / 4000 * 4000 + 4000; omega
  | ⟨1, _⟩ => show win0_5.index _ (1 : Fin 2) * 64 ≤ (i 1).val ∧ (i 1).val < win0_5.index _ (1 : Fin 2) * 64 + 64; rw [e1]; omega

/-- THE ARRAY of window 5 after region 0: at every node and feature, the linear map `x · W + b`. -/
theorem arr0_5 (c : Dev nD) : (dat0 (F := Ideal) V c).arrAt 5 cfg0.N
    = linG (V c (Pipeline.arrRef spec0 0)) (V c (Pipeline.arrRef spec0 1)) (V c (Pipeline.arrRef spec0 2)) :=
  (dat0 V c).arrAt_eq_of_cover 5 (linG (V c (Pipeline.arrRef spec0 0)) (V c (Pipeline.arrRef spec0 1)) (V c (Pipeline.arrRef spec0 2)))
    (fun t _ => flushed0_5 V c t) cover0_5

set_option maxHeartbeats 2000000 in
/-- What point `t` writes back through window 6 is block `t` of `rootG` of the arrays as the region finds them. -/
theorem flushed0_6 (c : Dev nD) (t : Fin cfg0.N) :
    (dat0 V c).flushed 6 t = ((cfg0.win 6).blk t).view.read (Elt Ideal)
      (rootG (V c (Pipeline.arrRef spec0 0)) (V c (Pipeline.arrRef spec0 1)) (V c (Pipeline.arrRef spec0 2)) (V c (Pipeline.arrRef spec0 3)) (V c (Pipeline.arrRef spec0 4))) := by
  show (cfg0.win 6).cut (grid0.coords t) ((dat0 V c).after 6 t) = _
  rw [after0_6]
  unfold res0_6
  rw [View.canon_unit_zero hzN]
  simp only [View.ld_unit_zero (S := S4000x64) hzN, View.ld_unit_zero (S := S64x64) hzN, View.ld_unit_zero (S := S1x64) hzN, View.ld_unit_zero (S := S4000x1) hzN]
  obtain ⟨-, -, -, -, -, -, -, -, -, -, -, -, e0, e1⟩ := idx_facts0 t
  funext j
  obtain ⟨p, q, rfl⟩ : ∃ (p : Fin 4000) (q : Fin 64), j = ix2 p q := ⟨j 0, j 1, eq_ix2 j⟩
  show k0_pay2 (blk0 V c 0 t) (blk0 V c 1 t) (blk0 V c 2 t) (blk0 V c 3 t) (blk0 V c 4 t) (ix2 p q)
    = rootG (V c (Pipeline.arrRef spec0 0)) (V c (Pipeline.arrRef spec0 1)) (V c (Pipeline.arrRef spec0 2)) (V c (Pipeline.arrRef spec0 3)) (V c (Pipeline.arrRef spec0 4)) (((cfg0.win 6).blk t).view.emb (ix2 p q))
  refine (node0_pay2_apply (blk0 V c 0 t) (blk0 V c 1 t) (blk0 V c 2 t) (blk0 V c 3 t) (blk0 V c 4 t) p q).trans ?_
  have q0 : ((((cfg0.win 6).blk t).view.emb (ix2 p q) : S100000x64.Idx) 0).val = 4000 * t.val + p.val := by
    show win0_6.index t (0 : Fin 2) * 4000 + 1 * p.val = _; rw [e0]; omega
  have q1 : ((((cfg0.win 6).blk t).view.emb (ix2 p q) : S100000x64.Idx) 1).val = q.val := by
    show win0_6.index t (1 : Fin 2) * 64 + 1 * q.val = _; rw [e1]; omega
  exact root_point (V c (Pipeline.arrRef spec0 0)) (V c (Pipeline.arrRef spec0 1)) (V c (Pipeline.arrRef spec0 2)) (V c (Pipeline.arrRef spec0 3)) (V c (Pipeline.arrRef spec0 4))
    (blk0 V c 0 t) (blk0 V c 1 t) (blk0 V c 2 t) (blk0 V c 3 t) (blk0 V c 4 t) t.val p q _ q0 q1
    (fun k i' a b => blk0_0_apply V c t (ix2 p k) i' a b) (blk0_1_apply V c t) (blk0_2_apply V c t) (blk0_3_apply V c t)
    (fun i' a b => blk0_4_apply V c t (ix2 p (0 : Fin 1)) i' a b)

/-- An index of the array is in point `t`'s block of window 6 iff each coordinate is in the block's range on its axis. -/
theorem mem_blk0_6 (t : Fin cfg0.N) (i : S100000x64.Idx) :
    i ∈ ((cfg0.win 6).blk t).view.set ↔ ∀ a : Fin 2, win0_6.index t a * S4000x64.size a ≤ (i a).val ∧ (i a).val < win0_6.index t a * S4000x64.size a + S4000x64.size a := by
  show i ∈ ((View.whole main_v39_1).slice (win0_6.rect t)).set ↔ _
  rw [View.set_slice_whole, Rect.mem_set_unit]
  exact Iff.rfl

/-- The 25 blocks of window 6 tile the array: row `r` lies in the block of point `r / 4000`. -/
theorem cover0_6 (i : S100000x64.Idx) :
    ∃ t : Fin cfg0.N, (cfg0.win 6).flush t = true ∧ i ∈ ((cfg0.win 6).blk t).view.set := by
  have hi0 : (i 0).val < 100000 := idx2_lt0 i
  have hi1 : (i 1).val < 64 := idx2_lt1 i
  have hN : cfg0.N = 25 := N_0
  refine ⟨⟨(i 0).val / 4000, by rw [hN]; omega⟩, flush0_6 _, ?_⟩
  rw [mem_blk0_6]
  obtain ⟨-, -, -, -, -, -, -, -, -, -, -, -, e0, e1⟩ := idx_facts0 ⟨(i 0).val / 4000, by rw [hN]; omega⟩
  intro a
  match a with
  | ⟨0, _⟩ => show win0_6.index _ (0 : Fin 2) * 4000 ≤ (i 0).val ∧ (i 0).val < win0_6.index _ (0 : Fin 2) * 4000 + 4000; rw [e0]; show (i 0).val / 4000 * 4000 ≤ (i 0).val ∧ (i 0).val < (i 0).val / 4000 * 4000 + 4000; omega
  | ⟨1, _⟩ => show win0_6.index _ (1 : Fin 2) * 64 ≤ (i 1).val ∧ (i 1).val < win0_6.index _ (1 : Fin 2) * 64 + 64; rw [e1]; omega

/-- THE ARRAY of window 6 after region 0: at every node and feature, `max (x · W + b + root_emb) 0` times the node's inverse degree. -/
theorem arr0_6 (c : Dev nD) : (dat0 (F := Ideal) V c).arrAt 6 cfg0.N
    = rootG (V c (Pipeline.arrRef spec0 0)) (V c (Pipeline.arrRef spec0 1)) (V c (Pipeline.arrRef spec0 2)) (V c (Pipeline.arrRef spec0 3)) (V c (Pipeline.arrRef spec0 4)) :=
  (dat0 V c).arrAt_eq_of_cover 6 (rootG (V c (Pipeline.arrRef spec0 0)) (V c (Pipeline.arrRef spec0 1)) (V c (Pipeline.arrRef spec0 2)) (V c (Pipeline.arrRef spec0 3)) (V c (Pipeline.arrRef spec0 4)))
    (fun t _ => flushed0_6 V c t) cover0_6

/-! ## Region 3: layer 2's node update, on the whole arrays -/

/-- The printed block maps over the 25 grid points: point `t` works on rows `4000 t … 4000 t + 3999` of the node
    features, of the inverse degrees and of the two outputs; the weights, the bias and the root embedding are read whole
    at every point. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0
    ∧ win3_6.index t (0 : Fin 2) = t.val ∧ win3_6.index t (1 : Fin 2) = 0 :=
  (by decide +kernel : ∀ t : Fin grid3.N, _)

/-- The node features' block at point `t`, entry `j`, is the array's entry at row `4000 t + j₀`, column `j₁`. -/
theorem blk3_0_apply (c : Dev nD) (t : Fin cfg3.N) (j : S4000x64.Idx) (i : S100000x64.Idx)
    (h0 : (i 0).val = 4000 * t.val + (j 0).val) (h1 : (i 1).val = (j 1).val) :
    (blk3 V c 0 t : Vec Ideal S4000x64 .f32) j = (V c (Pipeline.arrRef spec3 0) : S100000x64.Idx → EReal) i := by
  obtain ⟨e0, e1, -, -, -, -, -, -, -, -, -, -, -, -⟩ := idx_facts3 t
  unfold blk3
  rw [View.read_apply]
  refine congrArg (V c (Pipeline.arrRef spec3 0) : S100000x64.Idx → EReal) (funext fun a => Fin.ext ?_)
  match a with
  | ⟨0, _⟩ => show win3_0.index t (0 : Fin 2) * 4000 + 1 * (j 0).val = (i 0).val; rw [e0, h0]; omega
  | ⟨1, _⟩ => show win3_0.index t (1 : Fin 2) * 64 + 1 * (j 1).val = (i 1).val; rw [e1, h1]; omega

/-- The weights' block is the whole [64, 64] array at every point. -/
theorem blk3_1_apply (c : Dev nD) (t : Fin cfg3.N) (j : S64x64.Idx) :
    (blk3 V c 1 t : Vec Ideal S64x64 .f32) j = (V c (Pipeline.arrRef spec3 1) : S64x64.Idx → EReal) j := by
  obtain ⟨-, -, e0, e1, -, -, -, -, -, -, -, -, -, -⟩ := idx_facts3 t
  unfold blk3
  rw [View.read_apply]
  refine congrArg (V c (Pipeline.arrRef spec3 1) : S64x64.Idx → EReal) (funext fun a => Fin.ext ?_)
  match a with
  | ⟨0, _⟩ => show win3_1.index t (0 : Fin 2) * 64 + 1 * (j 0).val = (j 0).val; rw [e0]; omega
  | ⟨1, _⟩ => show win3_1.index t (1 : Fin 2) * 64 + 1 * (j 1).val = (j 1).val; rw [e1]; omega

/-- The bias' block is the whole [1, 64] array at every point. -/
theorem blk3_2_apply (c : Dev nD) (t : Fin cfg3.N) (j : S1x64.Idx) :
    (blk3 V c 2 t : Vec Ideal S1x64 .f32) j = (V c (Pipeline.arrRef spec3 2) : S1x64.Idx → EReal) j := by
  obtain ⟨-, -, -, -, e0, e1, -, -, -, -, -, -, -, -⟩ := idx_facts3 t
  unfold blk3
  rw [View.read_apply]
  refine congrArg (V c (Pipeline.arrRef spec3 2) : S1x64.Idx → EReal) (funext fun a => Fin.ext ?_)
  match a with
  | ⟨0, _⟩ => show win3_2.index t (0 : Fin 2) * 1 + 1 * (j 0).val = (j 0).val; rw [e0]; omega
  | ⟨1, _⟩ => show win3_2.index t (1 : Fin 2) * 64 + 1 * (j 1).val = (j 1).val; rw [e1]; omega

/-- The root embedding's block is the whole [1, 64] array at every point. -/
theorem blk3_3_apply (c : Dev nD) (t : Fin cfg3.N) (j : S1x64.Idx) :
    (blk3 V c 3 t : Vec Ideal S1x64 .f32) j = (V c (Pipeline.arrRef spec3 3) : S1x64.Idx → EReal) j := by
  obtain ⟨-, -, -, -, -, -, e0, e1, -, -, -, -, -, -⟩ := idx_facts3 t
  unfold blk3
  rw [View.read_apply]
  refine congrArg (V c (Pipeline.arrRef spec3 3) : S1x64.Idx → EReal) (funext fun a => Fin.ext ?_)
  match a with
  | ⟨0, _⟩ => show win3_3.index t (0 : Fin 2) * 1 + 1 * (j 0).val = (j 0).val; rw [e0]; omega
  | ⟨1, _⟩ => show win3_3.index t (1 : Fin 2) * 64 + 1 * (j 1).val = (j 1).val; rw [e1]; omega

/-- The inverse degrees' block at point `t`, entry `j`, is the column's entry at row `4000 t + j₀`. -/
theorem blk3_4_apply (c : Dev nD) (t : Fin cfg3.N) (j : S4000x1.Idx) (i : S100000x1.Idx)
    (h0 : (i 0).val = 4000 * t.val + (j 0).val) (h1 : (i 1).val = (j 1).val) :
    (blk3 V c 4 t : Vec Ideal S4000x1 .f32) j = (V c (Pipeline.arrRef spec3 4) : S100000x1.Idx → EReal) i := by
  obtain ⟨-, -, -, -, -, -, -, -, e0, e1, -, -, -, -⟩ := idx_facts3 t
  unfold blk3
  rw [View.read_apply]
  refine congrArg (V c (Pipeline.arrRef spec3 4) : S100000x1.Idx → EReal) (funext fun a => Fin.ext ?_)
  match a with
  | ⟨0, _⟩ => show win3_4.index t (0 : Fin 2) * 4000 + 1 * (j 0).val = (i 0).val; rw [e0, h0]; omega
  | ⟨1, _⟩ => show win3_4.index t (1 : Fin 2) * 1 + 1 * (j 1).val = (i 1).val; rw [e1, h1]; omega

set_option maxHeartbeats 2000000 in
/-- What point `t` writes back through window 5 is block `t` of `linG` of the arrays as the region finds them. -/
theorem flushed3_5 (c : Dev nD) (t : Fin cfg3.N) :
    (dat3 V c).flushed 5 t = ((cfg3.win 5).blk t).view.read (Elt Ideal)
      (linG (V c (Pipeline.arrRef spec3 0)) (V c (Pipeline.arrRef spec3 1)) (V c (Pipeline.arrRef spec3 2))) := by
  show (cfg3.win 5).cut (grid3.coords t) ((dat3 V c).after 5 t) = _
  rw [after3_5]
  unfold res3_5
  rw [View.canon_unit_zero hzN]
  simp only [View.ld_unit_zero (S := S4000x64) hzN, View.ld_unit_zero (S := S64x64) hzN, View.ld_unit_zero (S := S1x64) hzN]
  obtain ⟨-, -, -, -, -, -, -, -, -, -, e0, e1, -, -⟩ := idx_facts3 t
  funext j
  obtain ⟨p, q, rfl⟩ : ∃ (p : Fin 4000) (q : Fin 64), j = ix2 p q := ⟨j 0, j 1, eq_ix2 j⟩
  show k3_pay1 (blk3 V c 0 t) (blk3 V c 1 t) (blk3 V c 2 t) (ix2 p q)
    = linG (V c (Pipeline.arrRef spec3 0)) (V c (Pipeline.arrRef spec3 1)) (V c (Pipeline.arrRef spec3 2)) (((cfg3.win 5).blk t).view.emb (ix2 p q))
  refine (node3_pay1_apply (blk3 V c 0 t) (blk3 V c 1 t) (blk3 V c 2 t) p q).trans ?_
  have q0 : ((((cfg3.win 5).blk t).view.emb (ix2 p q) : S100000x64.Idx) 0).val = 4000 * t.val + p.val := by
    show win3_5.index t (0 : Fin 2) * 4000 + 1 * p.val = _; rw [e0]; omega
  have q1 : ((((cfg3.win 5).blk t).view.emb (ix2 p q) : S100000x64.Idx) 1).val = q.val := by
    show win3_5.index t (1 : Fin 2) * 64 + 1 * q.val = _; rw [e1]; omega
  exact lin_point (V c (Pipeline.arrRef spec3 0)) (V c (Pipeline.arrRef spec3 1)) (V c (Pipeline.arrRef spec3 2))
    (blk3 V c 0 t) (blk3 V c 1 t) (blk3 V c 2 t) t.val p q _ q0 q1
    (fun k i' a b => blk3_0_apply V c t (ix2 p k) i' a b) (blk3_1_apply V c t) (blk3_2_apply V c t)

/-- An index of the array is in point `t`'s block of window 5 iff each coordinate is in the block's range on its axis. -/
theorem mem_blk3_5 (t : Fin cfg3.N) (i : S100000x64.Idx) :
    i ∈ ((cfg3.win 5).blk t).view.set ↔ ∀ a : Fin 2, win3_5.index t a * S4000x64.size a ≤ (i a).val ∧ (i a).val < win3_5.index t a * S4000x64.size a + S4000x64.size a := by
  show i ∈ ((View.whole main_v65_0).slice (win3_5.rect t)).set ↔ _
  rw [View.set_slice_whole, Rect.mem_set_unit]
  exact Iff.rfl

/-- The 25 blocks of window 5 tile the array: row `r` lies in the block of point `r / 4000`. -/
theorem cover3_5 (i : S100000x64.Idx) :
    ∃ t : Fin cfg3.N, (cfg3.win 5).flush t = true ∧ i ∈ ((cfg3.win 5).blk t).view.set := by
  have hi0 : (i 0).val < 100000 := idx2_lt0 i
  have hi1 : (i 1).val < 64 := idx2_lt1 i
  have hN : cfg3.N = 25 := N_3
  refine ⟨⟨(i 0).val / 4000, by rw [hN]; omega⟩, flush3_5 _, ?_⟩
  rw [mem_blk3_5]
  obtain ⟨-, -, -, -, -, -, -, -, -, -, e0, e1, -, -⟩ := idx_facts3 ⟨(i 0).val / 4000, by rw [hN]; omega⟩
  intro a
  match a with
  | ⟨0, _⟩ => show win3_5.index _ (0 : Fin 2) * 4000 ≤ (i 0).val ∧ (i 0).val < win3_5.index _ (0 : Fin 2) * 4000 + 4000; rw [e0]; show (i 0).val / 4000 * 4000 ≤ (i 0).val ∧ (i 0).val < (i 0).val / 4000 * 4000 + 4000; omega
  | ⟨1, _⟩ => show win3_5.index _ (1 : Fin 2) * 64 ≤ (i 1).val ∧ (i 1).val < win3_5.index _ (1 : Fin 2) * 64 + 64; rw [e1]; omega

/-- THE ARRAY of window 5 after region 3: at every node and feature, the linear map `x · W + b`. -/
theorem arr3_5 (c : Dev nD) : (dat3 (F := Ideal) V c).arrAt 5 cfg3.N
    = linG (V c (Pipeline.arrRef spec3 0)) (V c (Pipeline.arrRef spec3 1)) (V c (Pipeline.arrRef spec3 2)) :=
  (dat3 V c).arrAt_eq_of_cover 5 (linG (V c (Pipeline.arrRef spec3 0)) (V c (Pipeline.arrRef spec3 1)) (V c (Pipeline.arrRef spec3 2)))
    (fun t _ => flushed3_5 V c t) cover3_5

set_option maxHeartbeats 2000000 in
/-- What point `t` writes back through window 6 is block `t` of `rootG` of the arrays as the region finds them. -/
theorem flushed3_6 (c : Dev nD) (t : Fin cfg3.N) :
    (dat3 V c).flushed 6 t = ((cfg3.win 6).blk t).view.read (Elt Ideal)
      (rootG (V c (Pipeline.arrRef spec3 0)) (V c (Pipeline.arrRef spec3 1)) (V c (Pipeline.arrRef spec3 2)) (V c (Pipeline.arrRef spec3 3)) (V c (Pipeline.arrRef spec3 4))) := by
  show (cfg3.win 6).cut (grid3.coords t) ((dat3 V c).after 6 t) = _
  rw [after3_6]
  unfold res3_6
  rw [View.canon_unit_zero hzN]
  simp only [View.ld_unit_zero (S := S4000x64) hzN, View.ld_unit_zero (S := S64x64) hzN, View.ld_unit_zero (S := S1x64) hzN, View.ld_unit_zero (S := S4000x1) hzN]
  obtain ⟨-, -, -, -, -, -, -, -, -, -, -, -, e0, e1⟩ := idx_facts3 t
  funext j
  obtain ⟨p, q, rfl⟩ : ∃ (p : Fin 4000) (q : Fin 64), j = ix2 p q := ⟨j 0, j 1, eq_ix2 j⟩
  show k3_pay2 (blk3 V c 0 t) (blk3 V c 1 t) (blk3 V c 2 t) (blk3 V c 3 t) (blk3 V c 4 t) (ix2 p q)
    = rootG (V c (Pipeline.arrRef spec3 0)) (V c (Pipeline.arrRef spec3 1)) (V c (Pipeline.arrRef spec3 2)) (V c (Pipeline.arrRef spec3 3)) (V c (Pipeline.arrRef spec3 4)) (((cfg3.win 6).blk t).view.emb (ix2 p q))
  refine (node3_pay2_apply (blk3 V c 0 t) (blk3 V c 1 t) (blk3 V c 2 t) (blk3 V c 3 t) (blk3 V c 4 t) p q).trans ?_
  have q0 : ((((cfg3.win 6).blk t).view.emb (ix2 p q) : S100000x64.Idx) 0).val = 4000 * t.val + p.val := by
    show win3_6.index t (0 : Fin 2) * 4000 + 1 * p.val = _; rw [e0]; omega
  have q1 : ((((cfg3.win 6).blk t).view.emb (ix2 p q) : S100000x64.Idx) 1).val = q.val := by
    show win3_6.index t (1 : Fin 2) * 64 + 1 * q.val = _; rw [e1]; omega
  exact root_point (V c (Pipeline.arrRef spec3 0)) (V c (Pipeline.arrRef spec3 1)) (V c (Pipeline.arrRef spec3 2)) (V c (Pipeline.arrRef spec3 3)) (V c (Pipeline.arrRef spec3 4))
    (blk3 V c 0 t) (blk3 V c 1 t) (blk3 V c 2 t) (blk3 V c 3 t) (blk3 V c 4 t) t.val p q _ q0 q1
    (fun k i' a b => blk3_0_apply V c t (ix2 p k) i' a b) (blk3_1_apply V c t) (blk3_2_apply V c t) (blk3_3_apply V c t)
    (fun i' a b => blk3_4_apply V c t (ix2 p (0 : Fin 1)) i' a b)

/-- An index of the array is in point `t`'s block of window 6 iff each coordinate is in the block's range on its axis. -/
theorem mem_blk3_6 (t : Fin cfg3.N) (i : S100000x64.Idx) :
    i ∈ ((cfg3.win 6).blk t).view.set ↔ ∀ a : Fin 2, win3_6.index t a * S4000x64.size a ≤ (i a).val ∧ (i a).val < win3_6.index t a * S4000x64.size a + S4000x64.size a := by
  show i ∈ ((View.whole main_v65_1).slice (win3_6.rect t)).set ↔ _
  rw [View.set_slice_whole, Rect.mem_set_unit]
  exact Iff.rfl

/-- The 25 blocks of window 6 tile the array: row `r` lies in the block of point `r / 4000`. -/
theorem cover3_6 (i : S100000x64.Idx) :
    ∃ t : Fin cfg3.N, (cfg3.win 6).flush t = true ∧ i ∈ ((cfg3.win 6).blk t).view.set := by
  have hi0 : (i 0).val < 100000 := idx2_lt0 i
  have hi1 : (i 1).val < 64 := idx2_lt1 i
  have hN : cfg3.N = 25 := N_3
  refine ⟨⟨(i 0).val / 4000, by rw [hN]; omega⟩, flush3_6 _, ?_⟩
  rw [mem_blk3_6]
  obtain ⟨-, -, -, -, -, -, -, -, -, -, -, -, e0, e1⟩ := idx_facts3 ⟨(i 0).val / 4000, by rw [hN]; omega⟩
  intro a
  match a with
  | ⟨0, _⟩ => show win3_6.index _ (0 : Fin 2) * 4000 ≤ (i 0).val ∧ (i 0).val < win3_6.index _ (0 : Fin 2) * 4000 + 4000; rw [e0]; show (i 0).val / 4000 * 4000 ≤ (i 0).val ∧ (i 0).val < (i 0).val / 4000 * 4000 + 4000; omega
  | ⟨1, _⟩ => show win3_6.index _ (1 : Fin 2) * 64 ≤ (i 1).val ∧ (i 1).val < win3_6.index _ (1 : Fin 2) * 64 + 64; rw [e1]; omega

/-- THE ARRAY of window 6 after region 3: at every node and feature, `max (x · W + b + root_emb) 0` times the node's inverse degree. -/
theorem arr3_6 (c : Dev nD) : (dat3 (F := Ideal) V c).arrAt 6 cfg3.N
    = rootG (V c (Pipeline.arrRef spec3 0)) (V c (Pipeline.arrRef spec3 1)) (V c (Pipeline.arrRef spec3 2)) (V c (Pipeline.arrRef spec3 3)) (V c (Pipeline.arrRef spec3 4)) :=
  (dat3 V c).arrAt_eq_of_cover 6 (rootG (V c (Pipeline.arrRef spec3 0)) (V c (Pipeline.arrRef spec3 1)) (V c (Pipeline.arrRef spec3 2)) (V c (Pipeline.arrRef spec3 3)) (V c (Pipeline.arrRef spec3 4)))
    (fun t _ => flushed3_6 V c t) cover3_6

/-! ## Region 6: layer 3's node update, on the whole arrays -/

/-- The printed block maps over the 25 grid points: point `t` works on rows `4000 t … 4000 t + 3999` of the node
    features, of the inverse degrees and of the two outputs; the weights, the bias and the root embedding are read whole
    at every point. -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0
    ∧ win6_5.index t (0 : Fin 2) = t.val ∧ win6_5.index t (1 : Fin 2) = 0
    ∧ win6_6.index t (0 : Fin 2) = t.val ∧ win6_6.index t (1 : Fin 2) = 0 :=
  (by decide +kernel : ∀ t : Fin grid6.N, _)

/-- The node features' block at point `t`, entry `j`, is the array's entry at row `4000 t + j₀`, column `j₁`. -/
theorem blk6_0_apply (c : Dev nD) (t : Fin cfg6.N) (j : S4000x64.Idx) (i : S100000x64.Idx)
    (h0 : (i 0).val = 4000 * t.val + (j 0).val) (h1 : (i 1).val = (j 1).val) :
    (blk6 V c 0 t : Vec Ideal S4000x64 .f32) j = (V c (Pipeline.arrRef spec6 0) : S100000x64.Idx → EReal) i := by
  obtain ⟨e0, e1, -, -, -, -, -, -, -, -, -, -, -, -⟩ := idx_facts6 t
  unfold blk6
  rw [View.read_apply]
  refine congrArg (V c (Pipeline.arrRef spec6 0) : S100000x64.Idx → EReal) (funext fun a => Fin.ext ?_)
  match a with
  | ⟨0, _⟩ => show win6_0.index t (0 : Fin 2) * 4000 + 1 * (j 0).val = (i 0).val; rw [e0, h0]; omega
  | ⟨1, _⟩ => show win6_0.index t (1 : Fin 2) * 64 + 1 * (j 1).val = (i 1).val; rw [e1, h1]; omega

/-- The weights' block is the whole [64, 64] array at every point. -/
theorem blk6_1_apply (c : Dev nD) (t : Fin cfg6.N) (j : S64x64.Idx) :
    (blk6 V c 1 t : Vec Ideal S64x64 .f32) j = (V c (Pipeline.arrRef spec6 1) : S64x64.Idx → EReal) j := by
  obtain ⟨-, -, e0, e1, -, -, -, -, -, -, -, -, -, -⟩ := idx_facts6 t
  unfold blk6
  rw [View.read_apply]
  refine congrArg (V c (Pipeline.arrRef spec6 1) : S64x64.Idx → EReal) (funext fun a => Fin.ext ?_)
  match a with
  | ⟨0, _⟩ => show win6_1.index t (0 : Fin 2) * 64 + 1 * (j 0).val = (j 0).val; rw [e0]; omega
  | ⟨1, _⟩ => show win6_1.index t (1 : Fin 2) * 64 + 1 * (j 1).val = (j 1).val; rw [e1]; omega

/-- The bias' block is the whole [1, 64] array at every point. -/
theorem blk6_2_apply (c : Dev nD) (t : Fin cfg6.N) (j : S1x64.Idx) :
    (blk6 V c 2 t : Vec Ideal S1x64 .f32) j = (V c (Pipeline.arrRef spec6 2) : S1x64.Idx → EReal) j := by
  obtain ⟨-, -, -, -, e0, e1, -, -, -, -, -, -, -, -⟩ := idx_facts6 t
  unfold blk6
  rw [View.read_apply]
  refine congrArg (V c (Pipeline.arrRef spec6 2) : S1x64.Idx → EReal) (funext fun a => Fin.ext ?_)
  match a with
  | ⟨0, _⟩ => show win6_2.index t (0 : Fin 2) * 1 + 1 * (j 0).val = (j 0).val; rw [e0]; omega
  | ⟨1, _⟩ => show win6_2.index t (1 : Fin 2) * 64 + 1 * (j 1).val = (j 1).val; rw [e1]; omega

/-- The root embedding's block is the whole [1, 64] array at every point. -/
theorem blk6_3_apply (c : Dev nD) (t : Fin cfg6.N) (j : S1x64.Idx) :
    (blk6 V c 3 t : Vec Ideal S1x64 .f32) j = (V c (Pipeline.arrRef spec6 3) : S1x64.Idx → EReal) j := by
  obtain ⟨-, -, -, -, -, -, e0, e1, -, -, -, -, -, -⟩ := idx_facts6 t
  unfold blk6
  rw [View.read_apply]
  refine congrArg (V c (Pipeline.arrRef spec6 3) : S1x64.Idx → EReal) (funext fun a => Fin.ext ?_)
  match a with
  | ⟨0, _⟩ => show win6_3.index t (0 : Fin 2) * 1 + 1 * (j 0).val = (j 0).val; rw [e0]; omega
  | ⟨1, _⟩ => show win6_3.index t (1 : Fin 2) * 64 + 1 * (j 1).val = (j 1).val; rw [e1]; omega

/-- The inverse degrees' block at point `t`, entry `j`, is the column's entry at row `4000 t + j₀`. -/
theorem blk6_4_apply (c : Dev nD) (t : Fin cfg6.N) (j : S4000x1.Idx) (i : S100000x1.Idx)
    (h0 : (i 0).val = 4000 * t.val + (j 0).val) (h1 : (i 1).val = (j 1).val) :
    (blk6 V c 4 t : Vec Ideal S4000x1 .f32) j = (V c (Pipeline.arrRef spec6 4) : S100000x1.Idx → EReal) i := by
  obtain ⟨-, -, -, -, -, -, -, -, e0, e1, -, -, -, -⟩ := idx_facts6 t
  unfold blk6
  rw [View.read_apply]
  refine congrArg (V c (Pipeline.arrRef spec6 4) : S100000x1.Idx → EReal) (funext fun a => Fin.ext ?_)
  match a with
  | ⟨0, _⟩ => show win6_4.index t (0 : Fin 2) * 4000 + 1 * (j 0).val = (i 0).val; rw [e0, h0]; omega
  | ⟨1, _⟩ => show win6_4.index t (1 : Fin 2) * 1 + 1 * (j 1).val = (i 1).val; rw [e1, h1]; omega

set_option maxHeartbeats 2000000 in
/-- What point `t` writes back through window 5 is block `t` of `linG` of the arrays as the region finds them. -/
theorem flushed6_5 (c : Dev nD) (t : Fin cfg6.N) :
    (dat6 V c).flushed 5 t = ((cfg6.win 5).blk t).view.read (Elt Ideal)
      (linG (V c (Pipeline.arrRef spec6 0)) (V c (Pipeline.arrRef spec6 1)) (V c (Pipeline.arrRef spec6 2))) := by
  show (cfg6.win 5).cut (grid6.coords t) ((dat6 V c).after 5 t) = _
  rw [after6_5]
  unfold res6_5
  rw [View.canon_unit_zero hzN]
  simp only [View.ld_unit_zero (S := S4000x64) hzN, View.ld_unit_zero (S := S64x64) hzN, View.ld_unit_zero (S := S1x64) hzN]
  obtain ⟨-, -, -, -, -, -, -, -, -, -, e0, e1, -, -⟩ := idx_facts6 t
  funext j
  obtain ⟨p, q, rfl⟩ : ∃ (p : Fin 4000) (q : Fin 64), j = ix2 p q := ⟨j 0, j 1, eq_ix2 j⟩
  show k6_pay1 (blk6 V c 0 t) (blk6 V c 1 t) (blk6 V c 2 t) (ix2 p q)
    = linG (V c (Pipeline.arrRef spec6 0)) (V c (Pipeline.arrRef spec6 1)) (V c (Pipeline.arrRef spec6 2)) (((cfg6.win 5).blk t).view.emb (ix2 p q))
  refine (node6_pay1_apply (blk6 V c 0 t) (blk6 V c 1 t) (blk6 V c 2 t) p q).trans ?_
  have q0 : ((((cfg6.win 5).blk t).view.emb (ix2 p q) : S100000x64.Idx) 0).val = 4000 * t.val + p.val := by
    show win6_5.index t (0 : Fin 2) * 4000 + 1 * p.val = _; rw [e0]; omega
  have q1 : ((((cfg6.win 5).blk t).view.emb (ix2 p q) : S100000x64.Idx) 1).val = q.val := by
    show win6_5.index t (1 : Fin 2) * 64 + 1 * q.val = _; rw [e1]; omega
  exact lin_point (V c (Pipeline.arrRef spec6 0)) (V c (Pipeline.arrRef spec6 1)) (V c (Pipeline.arrRef spec6 2))
    (blk6 V c 0 t) (blk6 V c 1 t) (blk6 V c 2 t) t.val p q _ q0 q1
    (fun k i' a b => blk6_0_apply V c t (ix2 p k) i' a b) (blk6_1_apply V c t) (blk6_2_apply V c t)

/-- An index of the array is in point `t`'s block of window 5 iff each coordinate is in the block's range on its axis. -/
theorem mem_blk6_5 (t : Fin cfg6.N) (i : S100000x64.Idx) :
    i ∈ ((cfg6.win 5).blk t).view.set ↔ ∀ a : Fin 2, win6_5.index t a * S4000x64.size a ≤ (i a).val ∧ (i a).val < win6_5.index t a * S4000x64.size a + S4000x64.size a := by
  show i ∈ ((View.whole main_v91_0).slice (win6_5.rect t)).set ↔ _
  rw [View.set_slice_whole, Rect.mem_set_unit]
  exact Iff.rfl

/-- The 25 blocks of window 5 tile the array: row `r` lies in the block of point `r / 4000`. -/
theorem cover6_5 (i : S100000x64.Idx) :
    ∃ t : Fin cfg6.N, (cfg6.win 5).flush t = true ∧ i ∈ ((cfg6.win 5).blk t).view.set := by
  have hi0 : (i 0).val < 100000 := idx2_lt0 i
  have hi1 : (i 1).val < 64 := idx2_lt1 i
  have hN : cfg6.N = 25 := N_6
  refine ⟨⟨(i 0).val / 4000, by rw [hN]; omega⟩, flush6_5 _, ?_⟩
  rw [mem_blk6_5]
  obtain ⟨-, -, -, -, -, -, -, -, -, -, e0, e1, -, -⟩ := idx_facts6 ⟨(i 0).val / 4000, by rw [hN]; omega⟩
  intro a
  match a with
  | ⟨0, _⟩ => show win6_5.index _ (0 : Fin 2) * 4000 ≤ (i 0).val ∧ (i 0).val < win6_5.index _ (0 : Fin 2) * 4000 + 4000; rw [e0]; show (i 0).val / 4000 * 4000 ≤ (i 0).val ∧ (i 0).val < (i 0).val / 4000 * 4000 + 4000; omega
  | ⟨1, _⟩ => show win6_5.index _ (1 : Fin 2) * 64 ≤ (i 1).val ∧ (i 1).val < win6_5.index _ (1 : Fin 2) * 64 + 64; rw [e1]; omega

/-- THE ARRAY of window 5 after region 6: at every node and feature, the linear map `x · W + b`. -/
theorem arr6_5 (c : Dev nD) : (dat6 (F := Ideal) V c).arrAt 5 cfg6.N
    = linG (V c (Pipeline.arrRef spec6 0)) (V c (Pipeline.arrRef spec6 1)) (V c (Pipeline.arrRef spec6 2)) :=
  (dat6 V c).arrAt_eq_of_cover 5 (linG (V c (Pipeline.arrRef spec6 0)) (V c (Pipeline.arrRef spec6 1)) (V c (Pipeline.arrRef spec6 2)))
    (fun t _ => flushed6_5 V c t) cover6_5

set_option maxHeartbeats 2000000 in
/-- What point `t` writes back through window 6 is block `t` of `rootG` of the arrays as the region finds them. -/
theorem flushed6_6 (c : Dev nD) (t : Fin cfg6.N) :
    (dat6 V c).flushed 6 t = ((cfg6.win 6).blk t).view.read (Elt Ideal)
      (rootG (V c (Pipeline.arrRef spec6 0)) (V c (Pipeline.arrRef spec6 1)) (V c (Pipeline.arrRef spec6 2)) (V c (Pipeline.arrRef spec6 3)) (V c (Pipeline.arrRef spec6 4))) := by
  show (cfg6.win 6).cut (grid6.coords t) ((dat6 V c).after 6 t) = _
  rw [after6_6]
  unfold res6_6
  rw [View.canon_unit_zero hzN]
  simp only [View.ld_unit_zero (S := S4000x64) hzN, View.ld_unit_zero (S := S64x64) hzN, View.ld_unit_zero (S := S1x64) hzN, View.ld_unit_zero (S := S4000x1) hzN]
  obtain ⟨-, -, -, -, -, -, -, -, -, -, -, -, e0, e1⟩ := idx_facts6 t
  funext j
  obtain ⟨p, q, rfl⟩ : ∃ (p : Fin 4000) (q : Fin 64), j = ix2 p q := ⟨j 0, j 1, eq_ix2 j⟩
  show k6_pay2 (blk6 V c 0 t) (blk6 V c 1 t) (blk6 V c 2 t) (blk6 V c 3 t) (blk6 V c 4 t) (ix2 p q)
    = rootG (V c (Pipeline.arrRef spec6 0)) (V c (Pipeline.arrRef spec6 1)) (V c (Pipeline.arrRef spec6 2)) (V c (Pipeline.arrRef spec6 3)) (V c (Pipeline.arrRef spec6 4)) (((cfg6.win 6).blk t).view.emb (ix2 p q))
  refine (node6_pay2_apply (blk6 V c 0 t) (blk6 V c 1 t) (blk6 V c 2 t) (blk6 V c 3 t) (blk6 V c 4 t) p q).trans ?_
  have q0 : ((((cfg6.win 6).blk t).view.emb (ix2 p q) : S100000x64.Idx) 0).val = 4000 * t.val + p.val := by
    show win6_6.index t (0 : Fin 2) * 4000 + 1 * p.val = _; rw [e0]; omega
  have q1 : ((((cfg6.win 6).blk t).view.emb (ix2 p q) : S100000x64.Idx) 1).val = q.val := by
    show win6_6.index t (1 : Fin 2) * 64 + 1 * q.val = _; rw [e1]; omega
  exact root_point (V c (Pipeline.arrRef spec6 0)) (V c (Pipeline.arrRef spec6 1)) (V c (Pipeline.arrRef spec6 2)) (V c (Pipeline.arrRef spec6 3)) (V c (Pipeline.arrRef spec6 4))
    (blk6 V c 0 t) (blk6 V c 1 t) (blk6 V c 2 t) (blk6 V c 3 t) (blk6 V c 4 t) t.val p q _ q0 q1
    (fun k i' a b => blk6_0_apply V c t (ix2 p k) i' a b) (blk6_1_apply V c t) (blk6_2_apply V c t) (blk6_3_apply V c t)
    (fun i' a b => blk6_4_apply V c t (ix2 p (0 : Fin 1)) i' a b)

/-- An index of the array is in point `t`'s block of window 6 iff each coordinate is in the block's range on its axis. -/
theorem mem_blk6_6 (t : Fin cfg6.N) (i : S100000x64.Idx) :
    i ∈ ((cfg6.win 6).blk t).view.set ↔ ∀ a : Fin 2, win6_6.index t a * S4000x64.size a ≤ (i a).val ∧ (i a).val < win6_6.index t a * S4000x64.size a + S4000x64.size a := by
  show i ∈ ((View.whole main_v91_1).slice (win6_6.rect t)).set ↔ _
  rw [View.set_slice_whole, Rect.mem_set_unit]
  exact Iff.rfl

/-- The 25 blocks of window 6 tile the array: row `r` lies in the block of point `r / 4000`. -/
theorem cover6_6 (i : S100000x64.Idx) :
    ∃ t : Fin cfg6.N, (cfg6.win 6).flush t = true ∧ i ∈ ((cfg6.win 6).blk t).view.set := by
  have hi0 : (i 0).val < 100000 := idx2_lt0 i
  have hi1 : (i 1).val < 64 := idx2_lt1 i
  have hN : cfg6.N = 25 := N_6
  refine ⟨⟨(i 0).val / 4000, by rw [hN]; omega⟩, flush6_6 _, ?_⟩
  rw [mem_blk6_6]
  obtain ⟨-, -, -, -, -, -, -, -, -, -, -, -, e0, e1⟩ := idx_facts6 ⟨(i 0).val / 4000, by rw [hN]; omega⟩
  intro a
  match a with
  | ⟨0, _⟩ => show win6_6.index _ (0 : Fin 2) * 4000 ≤ (i 0).val ∧ (i 0).val < win6_6.index _ (0 : Fin 2) * 4000 + 4000; rw [e0]; show (i 0).val / 4000 * 4000 ≤ (i 0).val ∧ (i 0).val < (i 0).val / 4000 * 4000 + 4000; omega
  | ⟨1, _⟩ => show win6_6.index _ (1 : Fin 2) * 64 ≤ (i 1).val ∧ (i 1).val < win6_6.index _ (1 : Fin 2) * 64 + 64; rw [e1]; omega

/-- THE ARRAY of window 6 after region 6: at every node and feature, `max (x · W + b + root_emb) 0` times the node's inverse degree. -/
theorem arr6_6 (c : Dev nD) : (dat6 (F := Ideal) V c).arrAt 6 cfg6.N
    = rootG (V c (Pipeline.arrRef spec6 0)) (V c (Pipeline.arrRef spec6 1)) (V c (Pipeline.arrRef spec6 2)) (V c (Pipeline.arrRef spec6 3)) (V c (Pipeline.arrRef spec6 4)) :=
  (dat6 V c).arrAt_eq_of_cover 6 (rootG (V c (Pipeline.arrRef spec6 0)) (V c (Pipeline.arrRef spec6 1)) (V c (Pipeline.arrRef spec6 2)) (V c (Pipeline.arrRef spec6 3)) (V c (Pipeline.arrRef spec6 4)))
    (fun t _ => flushed6_6 V c t) cover6_6

end Cert.KernelIdeal.HandVal

end
-- ==== Proof.KIValMsgPay.lean ====
/-
  The edge-message kernel's stored value read at one entry. On a block of 5000 edges the body stores
  norm · max(h_row + (edge_attr · W_e + b_e), 0); at row p and column q this is
  norm[p] · max(h_row[p,q] + (Σ_k edge_attr[p,k] · W_e[k,q] + b_e[q]), 0).
  The three layers' edge kernels store the same term, so one reading serves all three.
-/
import proofs.«161825_j7842610283390_1_alg».proof.Proof.Gen.KernelIdeal.Skeleton
import proofs.«161825_j7842610283390_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HandVal

open Cert.KernelIdeal Cert.KernelIdeal.Gen
open Idealize.ShloMosaic Idealize.ShloMosaic.ValueIdx

/-- The product's left operand index at output entry j and contraction index κ: row j 0, … -/
theorem msg_lhs_0 (j : S5000x64.Idx) (κ : dot_S5000x16_S16x64_S5000x64_1_0_0_1_n_n.contr.Idx) :
    (dot_S5000x16_S16x64_S5000x64_1_0_0_1_n_n.lhsIdx j κ 0).val = (j 0).val := by
  unfold DotDims.lhsIdx
  rw [dif_neg (show ¬(0 : Fin S5000x16.rank) ∈ dot_S5000x16_S16x64_S5000x64_1_0_0_1_n_n.lhsBatch by decide),
    dif_pos (show (0 : Fin S5000x16.rank) ∈ dot_S5000x16_S16x64_S5000x64_1_0_0_1_n_n.lhsNonContracting by decide)]
  rfl
/-- … column κ; -/
theorem msg_lhs_1 (j : S5000x64.Idx) (κ : dot_S5000x16_S16x64_S5000x64_1_0_0_1_n_n.contr.Idx) :
    (dot_S5000x16_S16x64_S5000x64_1_0_0_1_n_n.lhsIdx j κ 1).val = (κ ⟨0, by decide⟩).val :=
  dot_S5000x16_S16x64_S5000x64_1_0_0_1_n_n.lhsIdx_val_of_single rfl j κ
/-- the right operand's: row κ, … -/
theorem msg_rhs_0 (j : S5000x64.Idx) (κ : dot_S5000x16_S16x64_S5000x64_1_0_0_1_n_n.contr.Idx) :
    (dot_S5000x16_S16x64_S5000x64_1_0_0_1_n_n.rhsIdx j κ 0).val = (κ ⟨0, by decide⟩).val :=
  dot_S5000x16_S16x64_S5000x64_1_0_0_1_n_n.rhsIdx_val_of_single rfl j κ
/-- … column j 1. -/
theorem msg_rhs_1 (j : S5000x64.Idx) (κ : dot_S5000x16_S16x64_S5000x64_1_0_0_1_n_n.contr.Idx) :
    (dot_S5000x16_S16x64_S5000x64_1_0_0_1_n_n.rhsIdx j κ 1).val = (j 1).val := by
  unfold DotDims.rhsIdx
  rw [dif_neg (show ¬(1 : Fin S16x64.rank) ∈ dot_S5000x16_S16x64_S5000x64_1_0_0_1_n_n.rhsBatch by decide),
    dif_pos (show (1 : Fin S16x64.rank) ∈ dot_S5000x16_S16x64_S5000x64_1_0_0_1_n_n.rhsNonContracting by decide)]
  rfl

/-- The product into a zero accumulator, at entry (p, q): the sum over the 16 edge features. -/
theorem msg_dot_apply (a : FVec Ideal S5000x16 .bf16) (b : FVec Ideal S16x64 .bf16) (p : Fin 5000) (q : Fin 64) :
    FloatOps.matmul dot_S5000x16_S16x64_S5000x64_1_0_0_1_n_n none a b (constant S5000x64 .f32 0x00000000#32) (ix2 p q)
      = ∑ k : Fin 16, a (ix2 p k) * b (ix2 k q) := by
  rw [Ideal.matmul_constant_zero_apply,
    ← Equiv.sum_comp (contrEquiv1 dot_S5000x16_S16x64_S5000x64_1_0_0_1_n_n 16 rfl rfl).symm]
  refine Finset.sum_congr rfl fun k _ => ?_
  have hk := contrEquiv1_symm_val dot_S5000x16_S16x64_S5000x64_1_0_0_1_n_n 16 rfl rfl k
  have el : dot_S5000x16_S16x64_S5000x64_1_0_0_1_n_n.lhsIdx (ix2 p q)
      ((contrEquiv1 dot_S5000x16_S16x64_S5000x64_1_0_0_1_n_n 16 rfl rfl).symm k) = ix2 p k := funext fun a => Fin.ext (by
    match a with
    | ⟨0, _⟩ => exact msg_lhs_0 _ _
    | ⟨1, _⟩ => exact (msg_lhs_1 _ _).trans hk)
  have er : dot_S5000x16_S16x64_S5000x64_1_0_0_1_n_n.rhsIdx (ix2 p q)
      ((contrEquiv1 dot_S5000x16_S16x64_S5000x64_1_0_0_1_n_n 16 rfl rfl).symm k) = ix2 k q := funext fun a => Fin.ext (by
    match a with
    | ⟨0, _⟩ => exact (msg_rhs_0 _ _).trans hk
    | ⟨1, _⟩ => exact msg_rhs_1 _ _)
  rw [el, er]

/-- The edge kernel's stored value at entry (p, q) of its block. -/
theorem msg_pay_apply (v0 : Vec Ideal S5000x16 .f32) (v2 : Vec Ideal S16x64 .f32) (v6 : Vec Ideal S1x64 .f32)
    (v10 : Vec Ideal S5000x1 .f32) (v12 : Vec Ideal S5000x64 .f32) (p : Fin 5000) (q : Fin 64) :
    k1_pay1 v0 v2 v6 v10 v12 (ix2 p q)
      = (v10 (ix2 p (0 : Fin 1)) : EReal)
          * max ((v12 (ix2 p q) : EReal) + ((∑ k : Fin 16, (v0 (ix2 p k) : EReal) * (v2 (ix2 k q) : EReal)) + (v6 (ix2 (0 : Fin 1) q) : EReal)))
              (Ideal.ofBits .f32 0x00000000#32) := by
  unfold k1_pay1
  simp only [shapeCast_self]
  rw [mulf_apply, maximumf_apply, addf_apply, addf_apply, broadcast_apply]
  rw [Cert.Keepdims.broadcastTo_a1_ab_apply, broadcastTo_1b_ab_apply]
  show _ * max (_ + (FloatOps.matmul _ none _ _ _ _ + _)) _ = _
  rw [msg_dot_apply]
  rfl

/-- The edge messages as one function of the five arrays the kernel reads: at edge e and column q,
    norm[e] · max(h_row[e,q] + (Σ_k edge_attr[e,k] · W_e[k,q] + b_e[q]), 0). -/
def msgVal (ea : S1250000x16.Idx → EReal) (h : S1250000x64.Idx → EReal) (nrm : S1250000x1.Idx → EReal)
    (W : S16x64.Idx → EReal) (b : S1x64.Idx → EReal) : S1250000x64.Idx → EReal :=
  fun i => nrm (ix2 (i 0) (0 : Fin 1))
    * max (h i + ((∑ k : Fin 16, ea (ix2 (i 0) k) * W (ix2 k (i 1))) + b (ix2 (0 : Fin 1) (i 1)))) (Ideal.ofBits .f32 0x00000000#32)

/-- The edge messages at an index given by its two coordinates. -/
theorem msgVal_apply (ea : S1250000x16.Idx → EReal) (h : S1250000x64.Idx → EReal) (nrm : S1250000x1.Idx → EReal)
    (W : S16x64.Idx → EReal) (b : S1x64.Idx → EReal) (P : Fin 1250000) (q : Fin 64) :
    msgVal ea h nrm W b (ix2 P q) = nrm (ix2 P (0 : Fin 1))
      * max (h (ix2 P q) + ((∑ k : Fin 16, ea (ix2 P k) * W (ix2 k q)) + b (ix2 (0 : Fin 1) q))) (Ideal.ofBits .f32 0x00000000#32) := rfl

/-- One entry of a block against one entry of the arrays: if the block's entries the stored value reads at (p, q) are the
    arrays' entries the edge messages read at (P, q), the stored value there is the edge message there. -/
theorem msg_point (x0 : Vec Ideal S5000x16 .f32) (x1 : Vec Ideal S5000x64 .f32) (x2 : Vec Ideal S5000x1 .f32)
    (x3 : Vec Ideal S16x64 .f32) (x4 : Vec Ideal S1x64 .f32)
    (A0 : S1250000x16.Idx → EReal) (A1 : S1250000x64.Idx → EReal) (A2 : S1250000x1.Idx → EReal)
    (A3 : S16x64.Idx → EReal) (A4 : S1x64.Idx → EReal)
    (y : S5000x64.Idx) (i : S1250000x64.Idx) (p : Fin 5000) (q : Fin 64) (P : Fin 1250000)
    (hy : y = ix2 p q) (hi : i = ix2 P q)
    (h0 : ∀ k : Fin 16, x0 (ix2 p k) = A0 (ix2 P k))
    (h1 : x1 (ix2 p q) = A1 (ix2 P q))
    (h2 : x2 (ix2 p (0 : Fin 1)) = A2 (ix2 P (0 : Fin 1)))
    (h3 : ∀ k : Fin 16, x3 (ix2 k q) = A3 (ix2 k q))
    (h4 : x4 (ix2 (0 : Fin 1) q) = A4 (ix2 (0 : Fin 1) q)) :
    k1_pay1 x0 x3 x4 x2 x1 y = msgVal A0 A1 A2 A3 A4 i := by
  subst hy hi
  rw [msg_pay_apply, msgVal_apply, h1, h2, h4]
  exact congrArg (fun s => A2 (ix2 P (0 : Fin 1)) * max (A1 (ix2 P q) + (s + A4 (ix2 (0 : Fin 1) q))) (Ideal.ofBits .f32 0x00000000#32))
    (Finset.sum_congr rfl fun k _ => by rw [h0 k, h3 k])

/-- The same for layer 2's edge kernel. -/
theorem msg_point4 (x0 : Vec Ideal S5000x16 .f32) (x1 : Vec Ideal S5000x64 .f32) (x2 : Vec Ideal S5000x1 .f32)
    (x3 : Vec Ideal S16x64 .f32) (x4 : Vec Ideal S1x64 .f32)
    (A0 : S1250000x16.Idx → EReal) (A1 : S1250000x64.Idx → EReal) (A2 : S1250000x1.Idx → EReal)
    (A3 : S16x64.Idx → EReal) (A4 : S1x64.Idx → EReal)
    (y : S5000x64.Idx) (i : S1250000x64.Idx) (p : Fin 5000) (q : Fin 64) (P : Fin 1250000)
    (hy : y = ix2 p q) (hi : i = ix2 P q)
    (h0 : ∀ k : Fin 16, x0 (ix2 p k) = A0 (ix2 P k))
    (h1 : x1 (ix2 p q) = A1 (ix2 P q))
    (h2 : x2 (ix2 p (0 : Fin 1)) = A2 (ix2 P (0 : Fin 1)))
    (h3 : ∀ k : Fin 16, x3 (ix2 k q) = A3 (ix2 k q))
    (h4 : x4 (ix2 (0 : Fin 1) q) = A4 (ix2 (0 : Fin 1) q)) :
    k4_pay1 x0 x3 x4 x2 x1 y = msgVal A0 A1 A2 A3 A4 i :=
  msg_point x0 x1 x2 x3 x4 A0 A1 A2 A3 A4 y i p q P hy hi h0 h1 h2 h3 h4

/-- The same for layer 3's edge kernel. -/
theorem msg_point7 (x0 : Vec Ideal S5000x16 .f32) (x1 : Vec Ideal S5000x64 .f32) (x2 : Vec Ideal S5000x1 .f32)
    (x3 : Vec Ideal S16x64 .f32) (x4 : Vec Ideal S1x64 .f32)
    (A0 : S1250000x16.Idx → EReal) (A1 : S1250000x64.Idx → EReal) (A2 : S1250000x1.Idx → EReal)
    (A3 : S16x64.Idx → EReal) (A4 : S1x64.Idx → EReal)
    (y : S5000x64.Idx) (i : S1250000x64.Idx) (p : Fin 5000) (q : Fin 64) (P : Fin 1250000)
    (hy : y = ix2 p q) (hi : i = ix2 P q)
    (h0 : ∀ k : Fin 16, x0 (ix2 p k) = A0 (ix2 P k))
    (h1 : x1 (ix2 p q) = A1 (ix2 P q))
    (h2 : x2 (ix2 p (0 : Fin 1)) = A2 (ix2 P (0 : Fin 1)))
    (h3 : ∀ k : Fin 16, x3 (ix2 k q) = A3 (ix2 k q))
    (h4 : x4 (ix2 (0 : Fin 1) q) = A4 (ix2 (0 : Fin 1) q)) :
    k7_pay1 x0 x3 x4 x2 x1 y = msgVal A0 A1 A2 A3 A4 i :=
  msg_point x0 x1 x2 x3 x4 A0 A1 A2 A3 A4 y i p q P hy hi h0 h1 h2 h3 h4

/-- Layer 2's edge kernel stores the same term. -/
theorem msg_pay4_apply (v0 : Vec Ideal S5000x16 .f32) (v2 : Vec Ideal S16x64 .f32) (v6 : Vec Ideal S1x64 .f32)
    (v10 : Vec Ideal S5000x1 .f32) (v12 : Vec Ideal S5000x64 .f32) (p : Fin 5000) (q : Fin 64) :
    k4_pay1 v0 v2 v6 v10 v12 (ix2 p q)
      = (v10 (ix2 p (0 : Fin 1)) : EReal)
          * max ((v12 (ix2 p q) : EReal) + ((∑ k : Fin 16, (v0 (ix2 p k) : EReal) * (v2 (ix2 k q) : EReal)) + (v6 (ix2 (0 : Fin 1) q) : EReal)))
              (Ideal.ofBits .f32 0x00000000#32) :=
  msg_pay_apply v0 v2 v6 v10 v12 p q

/-- Layer 3's edge kernel stores the same term. -/
theorem msg_pay7_apply (v0 : Vec Ideal S5000x16 .f32) (v2 : Vec Ideal S16x64 .f32) (v6 : Vec Ideal S1x64 .f32)
    (v10 : Vec Ideal S5000x1 .f32) (v12 : Vec Ideal S5000x64 .f32) (p : Fin 5000) (q : Fin 64) :
    k7_pay1 v0 v2 v6 v10 v12 (ix2 p q)
      = (v10 (ix2 p (0 : Fin 1)) : EReal)
          * max ((v12 (ix2 p q) : EReal) + ((∑ k : Fin 16, (v0 (ix2 p k) : EReal) * (v2 (ix2 k q) : EReal)) + (v6 (ix2 (0 : Fin 1) q) : EReal)))
              (Ideal.ofBits .f32 0x00000000#32) :=
  msg_pay_apply v0 v2 v6 v10 v12 p q

end Cert.KernelIdeal.HandVal

end
-- ==== Proof.KIValMsg.lean ====
/-
  Region 1 of the program, the edge messages of layer 1: what the output array holds after the region, entry by entry.
  Block t of every edge-indexed window is rows 5000·t … 5000·t + 4999 (all columns); the weight and the bias are one block.
  So what point t writes back is block t of the edge messages of the arrays as the region finds them, and the 250 blocks
  tile the 1250000 rows: the array ends holding the edge messages.
-/
import proofs.«161825_j7842610283390_1_alg».proof.Proof.KIReg1
import proofs.«161825_j7842610283390_1_alg».proof.Proof.KIValMsgPay
import Idealize.ShloMosaic.Lib.Pipeline.Value

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zeros1 : (![0, 0] : Fin 2 → Nat) = fun _ => 0 := funext fun a => by fin_cases a <;> rfl

/-- The block indices over the grid: the edge-indexed windows are at block row t, column block 0; the weight and the
    bias at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

set_option maxHeartbeats 4000000 in
/-- Window 0's block at point t is rows 5000·t … of the edge attributes. -/
theorem blk1_0_apply (c : Dev nD) (t : Fin cfg1.N) (x : S5000x16.Idx) (k : S1250000x16.Idx)
    (hk0 : (k 0).val = t.val * 5000 + (x 0).val) (hk1 : (k 1).val = (x 1).val) :
    (blk1 V c 0 t : Vec Ideal S5000x16 .f32) x = (V c (Pipeline.arrRef spec1 0) : S1250000x16.Idx → EReal) k := by
  obtain ⟨e00, e01, -⟩ := idx_facts1 t
  unfold blk1
  rw [View.read_apply]
  show V c (Pipeline.arrRef spec1 0) _ = V c (Pipeline.arrRef spec1 0) _
  congr 1
  funext a
  apply Fin.ext
  match a with
  | ⟨0, _⟩ => show win1_0.index t 0 * 5000 + 1 * (x 0).val = (k 0).val; rw [e00, hk0]; omega
  | ⟨1, _⟩ => show win1_0.index t 1 * 16 + 1 * (x 1).val = (k 1).val; rw [e01, hk1]; omega

set_option maxHeartbeats 4000000 in
/-- Window 1's block at point t is rows 5000·t … of the gathered node features. -/
theorem blk1_1_apply (c : Dev nD) (t : Fin cfg1.N) (x : S5000x64.Idx) (k : S1250000x64.Idx)
    (hk0 : (k 0).val = t.val * 5000 + (x 0).val) (hk1 : (k 1).val = (x 1).val) :
    (blk1 V c 1 t : Vec Ideal S5000x64 .f32) x = (V c (Pipeline.arrRef spec1 1) : S1250000x64.Idx → EReal) k := by
  obtain ⟨-, -, e10, e11, -⟩ := idx_facts1 t
  unfold blk1
  rw [View.read_apply]
  show V c (Pipeline.arrRef spec1 1) _ = V c (Pipeline.arrRef spec1 1) _
  congr 1
  funext a
  apply Fin.ext
  match a with
  | ⟨0, _⟩ => show win1_1.index t 0 * 5000 + 1 * (x 0).val = (k 0).val; rw [e10, hk0]; omega
  | ⟨1, _⟩ => show win1_1.index t 1 * 64 + 1 * (x 1).val = (k 1).val; rw [e11, hk1]; omega

set_option maxHeartbeats 4000000 in
/-- Window 2's block at point t is rows 5000·t … of the edge norms. -/
theorem blk1_2_apply (c : Dev nD) (t : Fin cfg1.N) (x : S5000x1.Idx) (k : S1250000x1.Idx)
    (hk0 : (k 0).val = t.val * 5000 + (x 0).val) (hk1 : (k 1).val = (x 1).val) :
    (blk1 V c 2 t : Vec Ideal S5000x1 .f32) x = (V c (Pipeline.arrRef spec1 2) : S1250000x1.Idx → EReal) k := by
  obtain ⟨-, -, -, -, e20, e21, -⟩ := idx_facts1 t
  unfold blk1
  rw [View.read_apply]
  show V c (Pipeline.arrRef spec1 2) _ = V c (Pipeline.arrRef spec1 2) _
  congr 1
  funext a
  apply Fin.ext
  match a with
  | ⟨0, _⟩ => show win1_2.index t 0 * 5000 + 1 * (x 0).val = (k 0).val; rw [e20, hk0]; omega
  | ⟨1, _⟩ => show win1_2.index t 1 * 1 + 1 * (x 1).val = (k 1).val; rw [e21, hk1]; omega

set_option maxHeartbeats 4000000 in
/-- Window 3's block at every point is the whole weight. -/
theorem blk1_3_apply (c : Dev nD) (t : Fin cfg1.N) (x : S16x64.Idx) :
    (blk1 V c 3 t : Vec Ideal S16x64 .f32) x = (V c (Pipeline.arrRef spec1 3) : S16x64.Idx → EReal) x := by
  obtain ⟨-, -, -, -, -, -, e30, e31, -⟩ := idx_facts1 t
  unfold blk1
  rw [View.read_apply]
  show V c (Pipeline.arrRef spec1 3) _ = V c (Pipeline.arrRef spec1 3) _
  congr 1
  funext a
  apply Fin.ext
  match a with
  | ⟨0, _⟩ => show win1_3.index t 0 * 16 + 1 * (x 0).val = (x 0).val; rw [e30]; omega
  | ⟨1, _⟩ => show win1_3.index t 1 * 64 + 1 * (x 1).val = (x 1).val; rw [e31]; omega

set_option maxHeartbeats 4000000 in
/-- Window 4's block at every point is the whole bias. -/
theorem blk1_4_apply (c : Dev nD) (t : Fin cfg1.N) (x : S1x64.Idx) :
    (blk1 V c 4 t : Vec Ideal S1x64 .f32) x = (V c (Pipeline.arrRef spec1 4) : S1x64.Idx → EReal) x := by
  obtain ⟨-, -, -, -, -, -, -, -, e40, e41, -⟩ := idx_facts1 t
  unfold blk1
  rw [View.read_apply]
  show V c (Pipeline.arrRef spec1 4) _ = V c (Pipeline.arrRef spec1 4) _
  congr 1
  funext a
  apply Fin.ext
  match a with
  | ⟨0, _⟩ => show win1_4.index t 0 * 1 + 1 * (x 0).val = (x 0).val; rw [e40]; omega
  | ⟨1, _⟩ => show win1_4.index t 1 * 64 + 1 * (x 1).val = (x 1).val; rw [e41]; omega

set_option maxHeartbeats 4000000 in
/-- What point t writes back is block t of the edge messages of the arrays as the region finds them. -/
theorem flushed1_5_eq (c : Dev nD) (t : Fin cfg1.N) :
    (dat1 (F := Ideal) V c).flushed 5 t = ((cfg1.win 5).blk t).view.read (Elt Ideal)
      (msgVal (V c (Pipeline.arrRef spec1 0)) (V c (Pipeline.arrRef spec1 1)) (V c (Pipeline.arrRef spec1 2))
        (V c (Pipeline.arrRef spec1 3)) (V c (Pipeline.arrRef spec1 4))) := by
  show (cfg1.win 5).cut (grid1.coords t) ((dat1 V c).after 5 t) = _
  rw [after1_5]
  unfold res1_5
  rw [View.canon_unit_zero zeros1]
  simp only [View.ld_unit_zero (S := S5000x16) zeros1, View.ld_unit_zero (S := S5000x64) zeros1,
    View.ld_unit_zero (S := S5000x1) zeros1, View.ld_unit_zero (S := S16x64) zeros1, View.ld_unit_zero (S := S1x64) zeros1]
  obtain ⟨-, -, -, -, -, -, -, -, -, -, e50, e51⟩ := idx_facts1 t
  have hN : t.val < 250 := lt_of_lt_of_eq t.isLt (show cfg1.N = 250 from N_1)
  funext j
  have hj0 : (j 0).val < 5000 := (j 0).isLt
  have hj1 : (j 1).val < 64 := (j 1).isLt
  have hy : (cfg1.win 5).xinj (grid1.coords t) j = ix2 (⟨(j 0).val, hj0⟩ : Fin 5000) (⟨(j 1).val, hj1⟩ : Fin 64) :=
    funext fun a => Fin.ext (by match a with | ⟨0, _⟩ => rfl | ⟨1, _⟩ => rfl)
  have hi : ((cfg1.win 5).blk t).view.emb j
      = ix2 (⟨t.val * 5000 + (j 0).val, by omega⟩ : Fin 1250000) (⟨(j 1).val, hj1⟩ : Fin 64) :=
    funext fun a => Fin.ext (by
      match a with
      | ⟨0, _⟩ => show win1_5.index t 0 * 5000 + 1 * (j 0).val = t.val * 5000 + (j 0).val; rw [e50]; omega
      | ⟨1, _⟩ => show win1_5.index t 1 * 64 + 1 * (j 1).val = (j 1).val; rw [e51]; omega)
  show k1_pay1 (blk1 V c 0 t) (blk1 V c 3 t) (blk1 V c 4 t) (blk1 V c 2 t) (blk1 V c 1 t) ((cfg1.win 5).xinj (grid1.coords t) j)
    = msgVal (V c (Pipeline.arrRef spec1 0)) (V c (Pipeline.arrRef spec1 1)) (V c (Pipeline.arrRef spec1 2))
        (V c (Pipeline.arrRef spec1 3)) (V c (Pipeline.arrRef spec1 4)) (((cfg1.win 5).blk t).view.emb j)
  exact msg_point (blk1 V c 0 t) (blk1 V c 1 t) (blk1 V c 2 t) (blk1 V c 3 t) (blk1 V c 4 t)
    (V c (Pipeline.arrRef spec1 0)) (V c (Pipeline.arrRef spec1 1)) (V c (Pipeline.arrRef spec1 2))
    (V c (Pipeline.arrRef spec1 3)) (V c (Pipeline.arrRef spec1 4))
    _ _ ⟨(j 0).val, hj0⟩ ⟨(j 1).val, hj1⟩ ⟨t.val * 5000 + (j 0).val, by omega⟩ hy hi
    (fun k => blk1_0_apply V c t _ _ rfl rfl)
    (blk1_1_apply V c t _ _ rfl rfl)
    (blk1_2_apply V c t _ _ rfl rfl)
    (fun k => blk1_3_apply V c t _)
    (blk1_4_apply V c t _)

set_option maxHeartbeats 4000000 in
/-- An index of the output array is in point t's block iff each coordinate is in the block's range on its axis. -/
theorem mem_blk1_5 (t : Fin cfg1.N) (i : S1250000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v52).slice (win1_5.rect t)).set ↔ _
  rw [View.set_slice_whole, Rect.mem_set_unit]
  exact Iff.rfl

set_option maxHeartbeats 4000000 in
/-- Every row is in some point's block: row r is in block r / 5000. -/
theorem cover1_5 (i : S1250000x64.Idx) :
    ∃ t : Fin cfg1.N, (cfg1.win 5).flush t = true ∧ i ∈ ((cfg1.win 5).blk t).view.set := by
  have hi0 : (i 0).val < 1250000 := (i 0).isLt
  have hi1 : (i 1).val < 64 := (i 1).isLt
  have ht : (i 0).val / 5000 < cfg1.N := by rw [show cfg1.N = 250 from N_1]; omega
  obtain ⟨-, -, -, -, -, -, -, -, -, -, e50, e51⟩ := idx_facts1 ⟨(i 0).val / 5000, ht⟩
  refine ⟨⟨(i 0).val / 5000, ht⟩, flush1_5 _, ?_⟩
  rw [mem_blk1_5]
  intro a
  match a with
  | ⟨0, _⟩ =>
    show win1_5.index ⟨(i 0).val / 5000, ht⟩ 0 * 5000 ≤ (i 0).val ∧ (i 0).val < win1_5.index ⟨(i 0).val / 5000, ht⟩ 0 * 5000 + 5000
    rw [e50]; show (i 0).val / 5000 * 5000 ≤ (i 0).val ∧ (i 0).val < (i 0).val / 5000 * 5000 + 5000; omega
  | ⟨1, _⟩ =>
    show win1_5.index ⟨(i 0).val / 5000, ht⟩ 1 * 64 ≤ (i 1).val ∧ (i 1).val < win1_5.index ⟨(i 0).val / 5000, ht⟩ 1 * 64 + 64
    rw [e51]; omega

set_option maxHeartbeats 4000000 in
/-- THE OUTPUT ARRAY after the region: the edge messages of the arrays as the region finds them. -/
theorem arr1_5 (c : Dev nD) :
    (dat1 (F := Ideal) V c).arrAt 5 cfg1.N
      = msgVal (V c (Pipeline.arrRef spec1 0)) (V c (Pipeline.arrRef spec1 1)) (V c (Pipeline.arrRef spec1 2))
          (V c (Pipeline.arrRef spec1 3)) (V c (Pipeline.arrRef spec1 4)) :=
  (dat1 (F := Ideal) V c).arrAt_eq_of_cover 5 _ (fun t _ => flushed1_5_eq V c t) (cover1_5)

end Cert.KernelIdeal.HandVal

end
-- ==== Proof.KIValFinPay.lean ====
/-
  The closing step of each of the three layers: the aggregated messages plus the root term, cut off below at zero.
  `finG` is that step on whole [100000, 64] arrays, entry by entry. The payload lemmas read the body's stored value at
  one entry of a block of 4000 nodes: at the extended reals the two identity reshapes vanish and the zero word is the
  number 0, so the stored value at entry j is max (aggr j + root j) 0.
-/
import proofs.«161825_j7842610283390_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.HandVal

open Cert.KernelIdeal Cert.KernelIdeal.Gen
open Idealize.ShloMosaic Idealize.ShloMosaic.ValueIdx

/-- The closing step on whole arrays: entry by entry, the sum of the two arrays cut off below at zero. -/
def finG (a r : S100000x64.Idx → EReal) : S100000x64.Idx → EReal := fun i => max (a i + r i) 0

theorem finG_apply (a r : S100000x64.Idx → EReal) (i : S100000x64.Idx) : finG a r i = max (a i + r i) 0 := rfl

/-- Layer 1's closing step at entry `j` of a block. -/
theorem fin2_pay_apply (x0 x1 : Vec Ideal S4000x64 .f32) (j : S4000x64.Idx) :
    k2_pay1 x0 x1 j = max (x0 j + x1 j) 0 := by
  unfold k2_pay1
  simp only [shapeCast_self]
  show max (x0 j + x1 j) (Ideal.ofBits .f32 0x00000000#32) = _
  rw [Ideal.ofBits_zero_f32]

/-- Layer 2's closing step at entry `j` of a block. -/
theorem fin5_pay_apply (x0 x1 : Vec Ideal S4000x64 .f32) (j : S4000x64.Idx) :
    k5_pay1 x0 x1 j = max (x0 j + x1 j) 0 := by
  unfold k5_pay1
  simp only [shapeCast_self]
  show max (x0 j + x1 j) (Ideal.ofBits .f32 0x00000000#32) = _
  rw [Ideal.ofBits_zero_f32]

/-- Layer 3's closing step at entry `j` of a block. -/
theorem fin8_pay_apply (x0 x1 : Vec Ideal S4000x64 .f32) (j : S4000x64.Idx) :
    k8_pay1 x0 x1 j = max (x0 j + x1 j) 0 := by
  unfold k8_pay1
  simp only [shapeCast_self]
  show max (x0 j + x1 j) (Ideal.ofBits .f32 0x00000000#32) = _
  rw [Ideal.ofBits_zero_f32]

end Cert.KernelIdeal.HandVal

end
-- ==== Proof.KIValFin.lean ====
/-
  The closing step of a layer (regions 2, 5 and 8) on whole arrays. Each of the 25 grid points takes the block of rows
  4000 t … 4000 t + 3999 of the aggregated messages and of the root term, and writes back, entry by entry,
  max (aggr + root) 0 to the same rows of the output. The blocks tile the [100000, 64] array (row r is in block
  r / 4000), so after the region the output array holds that formula at every index.
-/
import proofs.«161825_j7842610283390_1_alg».proof.Proof.KIReg2
import proofs.«161825_j7842610283390_1_alg».proof.Proof.KIReg5
import proofs.«161825_j7842610283390_1_alg».proof.Proof.KIReg8
import proofs.«161825_j7842610283390_1_alg».proof.Proof.KIValFinPay
import Idealize.ShloMosaic.Lib.Pipeline.Value
import Idealize.ShloMosaic.Lib.ValueIdx

noncomputable section

namespace Cert.KernelIdeal.HandVal

open Cert.KernelIdeal Cert.KernelIdeal.Gen
open Idealize.ShloMosaic Idealize.ShloMosaic.ValueIdx

open Cert.KernelIdeal.Hand
open Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Region 2: the closing step of a layer, on the whole arrays -/

/-- The printed block maps over the 25 grid points: point `t` works on rows `4000 t … 4000 t + 3999`, all 64 columns,
    of each of the three arrays. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- The aggregated messages' block at point `t`, entry `j`, is the array's entry at row `4000 t + j₀`, column `j₁`. -/
theorem blk2_0_apply (c : Dev nD) (t : Fin cfg2.N) (j : S4000x64.Idx) (i : S100000x64.Idx)
    (h0 : (i 0).val = 4000 * t.val + (j 0).val) (h1 : (i 1).val = (j 1).val) :
    (blk2 V c 0 t : Vec Ideal S4000x64 .f32) j = (V c (Pipeline.arrRef spec2 0) : S100000x64.Idx → EReal) i := by
  obtain ⟨e0, e1, -, -, -, -⟩ := idx_facts2 t
  unfold blk2
  rw [View.read_apply]
  refine congrArg (V c (Pipeline.arrRef spec2 0) : S100000x64.Idx → EReal) (funext fun a => Fin.ext ?_)
  match a with
  | ⟨0, _⟩ => show win2_0.index t (0 : Fin 2) * 4000 + 1 * (j 0).val = (i 0).val; rw [e0, h0]; omega
  | ⟨1, _⟩ => show win2_0.index t (1 : Fin 2) * 64 + 1 * (j 1).val = (i 1).val; rw [e1, h1]; omega

/-- The same for the root term's block. -/
theorem blk2_1_apply (c : Dev nD) (t : Fin cfg2.N) (j : S4000x64.Idx) (i : S100000x64.Idx)
    (h0 : (i 0).val = 4000 * t.val + (j 0).val) (h1 : (i 1).val = (j 1).val) :
    (blk2 V c 1 t : Vec Ideal S4000x64 .f32) j = (V c (Pipeline.arrRef spec2 1) : S100000x64.Idx → EReal) i := by
  obtain ⟨-, -, e0, e1, -, -⟩ := idx_facts2 t
  unfold blk2
  rw [View.read_apply]
  refine congrArg (V c (Pipeline.arrRef spec2 1) : S100000x64.Idx → EReal) (funext fun a => Fin.ext ?_)
  match a with
  | ⟨0, _⟩ => show win2_1.index t (0 : Fin 2) * 4000 + 1 * (j 0).val = (i 0).val; rw [e0, h0]; omega
  | ⟨1, _⟩ => show win2_1.index t (1 : Fin 2) * 64 + 1 * (j 1).val = (i 1).val; rw [e1, h1]; omega

/-- What point `t` writes back is block `t` of `finG` of the two arrays as the region finds them. -/
theorem flushed2_2 (c : Dev nD) (t : Fin cfg2.N) :
    (dat2 V c).flushed 2 t = ((cfg2.win 2).blk t).view.read (Elt Ideal)
      (finG (V c (Pipeline.arrRef spec2 0)) (V c (Pipeline.arrRef spec2 1))) := by
  show (cfg2.win 2).cut (grid2.coords t) ((dat2 V c).after 2 t) = _
  rw [after2_2]
  unfold res2_2
  rw [View.canon_unit_zero hz]
  simp only [View.ld_unit_zero (S := S4000x64) hz]
  obtain ⟨-, -, -, -, e0, e1⟩ := idx_facts2 t
  funext j
  show k2_pay1 (blk2 V c 0 t) (blk2 V c 1 t) j
    = finG (V c (Pipeline.arrRef spec2 0)) (V c (Pipeline.arrRef spec2 1)) (((cfg2.win 2).blk t).view.emb j)
  refine (fin2_pay_apply (blk2 V c 0 t) (blk2 V c 1 t) j).trans ?_
  have q0 : ((((cfg2.win 2).blk t).view.emb j : S100000x64.Idx) 0).val = 4000 * t.val + (j 0).val := by
    show win2_2.index t (0 : Fin 2) * 4000 + 1 * (j 0).val = _; rw [e0]; omega
  have q1 : ((((cfg2.win 2).blk t).view.emb j : S100000x64.Idx) 1).val = (j 1).val := by
    show win2_2.index t (1 : Fin 2) * 64 + 1 * (j 1).val = _; rw [e1]; omega
  rw [blk2_0_apply V c t j _ q0 q1, blk2_1_apply V c t j _ q0 q1]
  rfl

/-- An index of the array is in point `t`'s block iff each coordinate is in the block's range on its axis. -/
theorem mem_blk2_2 (t : Fin cfg2.N) (i : S100000x64.Idx) :
    i ∈ ((cfg2.win 2).blk t).view.set ↔ ∀ a : Fin 2, win2_2.index t a * S4000x64.size a ≤ (i a).val ∧ (i a).val < win2_2.index t a * S4000x64.size a + S4000x64.size a := by
  show i ∈ ((View.whole main_v56).slice (win2_2.rect t)).set ↔ _
  rw [View.set_slice_whole, Rect.mem_set_unit]
  exact Iff.rfl

/-- The 25 blocks tile the array: row `r` lies in the block of point `r / 4000`. -/
theorem cover2_2 (i : S100000x64.Idx) :
    ∃ t : Fin cfg2.N, (cfg2.win 2).flush t = true ∧ i ∈ ((cfg2.win 2).blk t).view.set := by
  have hi0 : (i 0).val < 100000 := idx2_lt0 i
  have hi1 : (i 1).val < 64 := idx2_lt1 i
  have hN : cfg2.N = 25 := N_2
  refine ⟨⟨(i 0).val / 4000, by rw [hN]; omega⟩, flush2_2 _, ?_⟩
  rw [mem_blk2_2]
  obtain ⟨-, -, -, -, e0, e1⟩ := idx_facts2 ⟨(i 0).val / 4000, by rw [hN]; omega⟩
  intro a
  match a with
  | ⟨0, _⟩ => show win2_2.index _ (0 : Fin 2) * 4000 ≤ (i 0).val ∧ (i 0).val < win2_2.index _ (0 : Fin 2) * 4000 + 4000; rw [e0]; show (i 0).val / 4000 * 4000 ≤ (i 0).val ∧ (i 0).val < (i 0).val / 4000 * 4000 + 4000; omega
  | ⟨1, _⟩ => show win2_2.index _ (1 : Fin 2) * 64 ≤ (i 1).val ∧ (i 1).val < win2_2.index _ (1 : Fin 2) * 64 + 64; rw [e1]; omega

/-- THE ARRAY after region 2: at every node and feature, the aggregated messages plus the root term, cut off below at zero. -/
theorem arr2_2 (c : Dev nD) : (dat2 (F := Ideal) V c).arrAt 2 cfg2.N
    = finG (V c (Pipeline.arrRef spec2 0)) (V c (Pipeline.arrRef spec2 1)) :=
  (dat2 V c).arrAt_eq_of_cover 2 (finG (V c (Pipeline.arrRef spec2 0)) (V c (Pipeline.arrRef spec2 1)))
    (fun t _ => flushed2_2 V c t) cover2_2

/-! ## Region 5: the closing step of a layer, on the whole arrays -/

/-- The printed block maps over the 25 grid points: point `t` works on rows `4000 t … 4000 t + 3999`, all 64 columns,
    of each of the three arrays. -/
theorem idx_facts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0 :=
  (by decide +kernel : ∀ t : Fin grid5.N, _)

/-- The aggregated messages' block at point `t`, entry `j`, is the array's entry at row `4000 t + j₀`, column `j₁`. -/
theorem blk5_0_apply (c : Dev nD) (t : Fin cfg5.N) (j : S4000x64.Idx) (i : S100000x64.Idx)
    (h0 : (i 0).val = 4000 * t.val + (j 0).val) (h1 : (i 1).val = (j 1).val) :
    (blk5 V c 0 t : Vec Ideal S4000x64 .f32) j = (V c (Pipeline.arrRef spec5 0) : S100000x64.Idx → EReal) i := by
  obtain ⟨e0, e1, -, -, -, -⟩ := idx_facts5 t
  unfold blk5
  rw [View.read_apply]
  refine congrArg (V c (Pipeline.arrRef spec5 0) : S100000x64.Idx → EReal) (funext fun a => Fin.ext ?_)
  match a with
  | ⟨0, _⟩ => show win5_0.index t (0 : Fin 2) * 4000 + 1 * (j 0).val = (i 0).val; rw [e0, h0]; omega
  | ⟨1, _⟩ => show win5_0.index t (1 : Fin 2) * 64 + 1 * (j 1).val = (i 1).val; rw [e1, h1]; omega

/-- The same for the root term's block. -/
theorem blk5_1_apply (c : Dev nD) (t : Fin cfg5.N) (j : S4000x64.Idx) (i : S100000x64.Idx)
    (h0 : (i 0).val = 4000 * t.val + (j 0).val) (h1 : (i 1).val = (j 1).val) :
    (blk5 V c 1 t : Vec Ideal S4000x64 .f32) j = (V c (Pipeline.arrRef spec5 1) : S100000x64.Idx → EReal) i := by
  obtain ⟨-, -, e0, e1, -, -⟩ := idx_facts5 t
  unfold blk5
  rw [View.read_apply]
  refine congrArg (V c (Pipeline.arrRef spec5 1) : S100000x64.Idx → EReal) (funext fun a => Fin.ext ?_)
  match a with
  | ⟨0, _⟩ => show win5_1.index t (0 : Fin 2) * 4000 + 1 * (j 0).val = (i 0).val; rw [e0, h0]; omega
  | ⟨1, _⟩ => show win5_1.index t (1 : Fin 2) * 64 + 1 * (j 1).val = (i 1).val; rw [e1, h1]; omega

/-- What point `t` writes back is block `t` of `finG` of the two arrays as the region finds them. -/
theorem flushed5_2 (c : Dev nD) (t : Fin cfg5.N) :
    (dat5 V c).flushed 2 t = ((cfg5.win 2).blk t).view.read (Elt Ideal)
      (finG (V c (Pipeline.arrRef spec5 0)) (V c (Pipeline.arrRef spec5 1))) := by
  show (cfg5.win 2).cut (grid5.coords t) ((dat5 V c).after 2 t) = _
  rw [after5_2]
  unfold res5_2
  rw [View.canon_unit_zero hz]
  simp only [View.ld_unit_zero (S := S4000x64) hz]
  obtain ⟨-, -, -, -, e0, e1⟩ := idx_facts5 t
  funext j
  show k5_pay1 (blk5 V c 0 t) (blk5 V c 1 t) j
    = finG (V c (Pipeline.arrRef spec5 0)) (V c (Pipeline.arrRef spec5 1)) (((cfg5.win 2).blk t).view.emb j)
  refine (fin5_pay_apply (blk5 V c 0 t) (blk5 V c 1 t) j).trans ?_
  have q0 : ((((cfg5.win 2).blk t).view.emb j : S100000x64.Idx) 0).val = 4000 * t.val + (j 0).val := by
    show win5_2.index t (0 : Fin 2) * 4000 + 1 * (j 0).val = _; rw [e0]; omega
  have q1 : ((((cfg5.win 2).blk t).view.emb j : S100000x64.Idx) 1).val = (j 1).val := by
    show win5_2.index t (1 : Fin 2) * 64 + 1 * (j 1).val = _; rw [e1]; omega
  rw [blk5_0_apply V c t j _ q0 q1, blk5_1_apply V c t j _ q0 q1]
  rfl

/-- An index of the array is in point `t`'s block iff each coordinate is in the block's range on its axis. -/
theorem mem_blk5_2 (t : Fin cfg5.N) (i : S100000x64.Idx) :
    i ∈ ((cfg5.win 2).blk t).view.set ↔ ∀ a : Fin 2, win5_2.index t a * S4000x64.size a ≤ (i a).val ∧ (i a).val < win5_2.index t a * S4000x64.size a + S4000x64.size a := by
  show i ∈ ((View.whole main_v82).slice (win5_2.rect t)).set ↔ _
  rw [View.set_slice_whole, Rect.mem_set_unit]
  exact Iff.rfl

/-- The 25 blocks tile the array: row `r` lies in the block of point `r / 4000`. -/
theorem cover5_2 (i : S100000x64.Idx) :
    ∃ t : Fin cfg5.N, (cfg5.win 2).flush t = true ∧ i ∈ ((cfg5.win 2).blk t).view.set := by
  have hi0 : (i 0).val < 100000 := idx2_lt0 i
  have hi1 : (i 1).val < 64 := idx2_lt1 i
  have hN : cfg5.N = 25 := N_5
  refine ⟨⟨(i 0).val / 4000, by rw [hN]; omega⟩, flush5_2 _, ?_⟩
  rw [mem_blk5_2]
  obtain ⟨-, -, -, -, e0, e1⟩ := idx_facts5 ⟨(i 0).val / 4000, by rw [hN]; omega⟩
  intro a
  match a with
  | ⟨0, _⟩ => show win5_2.index _ (0 : Fin 2) * 4000 ≤ (i 0).val ∧ (i 0).val < win5_2.index _ (0 : Fin 2) * 4000 + 4000; rw [e0]; show (i 0).val / 4000 * 4000 ≤ (i 0).val ∧ (i 0).val < (i 0).val / 4000 * 4000 + 4000; omega
  | ⟨1, _⟩ => show win5_2.index _ (1 : Fin 2) * 64 ≤ (i 1).val ∧ (i 1).val < win5_2.index _ (1 : Fin 2) * 64 + 64; rw [e1]; omega

/-- THE ARRAY after region 5: at every node and feature, the aggregated messages plus the root term, cut off below at zero. -/
theorem arr5_2 (c : Dev nD) : (dat5 (F := Ideal) V c).arrAt 2 cfg5.N
    = finG (V c (Pipeline.arrRef spec5 0)) (V c (Pipeline.arrRef spec5 1)) :=
  (dat5 V c).arrAt_eq_of_cover 2 (finG (V c (Pipeline.arrRef spec5 0)) (V c (Pipeline.arrRef spec5 1)))
    (fun t _ => flushed5_2 V c t) cover5_2

/-! ## Region 8: the closing step of a layer, on the whole arrays -/

/-- The printed block maps over the 25 grid points: point `t` works on rows `4000 t … 4000 t + 3999`, all 64 columns,
    of each of the three arrays. -/
theorem idx_facts8 : ∀ t : Fin cfg8.N, win8_0.index t (0 : Fin 2) = t.val ∧ win8_0.index t (1 : Fin 2) = 0
    ∧ win8_1.index t (0 : Fin 2) = t.val ∧ win8_1.index t (1 : Fin 2) = 0
    ∧ win8_2.index t (0 : Fin 2) = t.val ∧ win8_2.index t (1 : Fin 2) = 0 :=
  (by decide +kernel : ∀ t : Fin grid8.N, _)

/-- The aggregated messages' block at point `t`, entry `j`, is the array's entry at row `4000 t + j₀`, column `j₁`. -/
theorem blk8_0_apply (c : Dev nD) (t : Fin cfg8.N) (j : S4000x64.Idx) (i : S100000x64.Idx)
    (h0 : (i 0).val = 4000 * t.val + (j 0).val) (h1 : (i 1).val = (j 1).val) :
    (blk8 V c 0 t : Vec Ideal S4000x64 .f32) j = (V c (Pipeline.arrRef spec8 0) : S100000x64.Idx → EReal) i := by
  obtain ⟨e0, e1, -, -, -, -⟩ := idx_facts8 t
  unfold blk8
  rw [View.read_apply]
  refine congrArg (V c (Pipeline.arrRef spec8 0) : S100000x64.Idx → EReal) (funext fun a => Fin.ext ?_)
  match a with
  | ⟨0, _⟩ => show win8_0.index t (0 : Fin 2) * 4000 + 1 * (j 0).val = (i 0).val; rw [e0, h0]; omega
  | ⟨1, _⟩ => show win8_0.index t (1 : Fin 2) * 64 + 1 * (j 1).val = (i 1).val; rw [e1, h1]; omega

/-- The same for the root term's block. -/
theorem blk8_1_apply (c : Dev nD) (t : Fin cfg8.N) (j : S4000x64.Idx) (i : S100000x64.Idx)
    (h0 : (i 0).val = 4000 * t.val + (j 0).val) (h1 : (i 1).val = (j 1).val) :
    (blk8 V c 1 t : Vec Ideal S4000x64 .f32) j = (V c (Pipeline.arrRef spec8 1) : S100000x64.Idx → EReal) i := by
  obtain ⟨-, -, e0, e1, -, -⟩ := idx_facts8 t
  unfold blk8
  rw [View.read_apply]
  refine congrArg (V c (Pipeline.arrRef spec8 1) : S100000x64.Idx → EReal) (funext fun a => Fin.ext ?_)
  match a with
  | ⟨0, _⟩ => show win8_1.index t (0 : Fin 2) * 4000 + 1 * (j 0).val = (i 0).val; rw [e0, h0]; omega
  | ⟨1, _⟩ => show win8_1.index t (1 : Fin 2) * 64 + 1 * (j 1).val = (i 1).val; rw [e1, h1]; omega

/-- What point `t` writes back is block `t` of `finG` of the two arrays as the region finds them. -/
theorem flushed8_2 (c : Dev nD) (t : Fin cfg8.N) :
    (dat8 V c).flushed 2 t = ((cfg8.win 2).blk t).view.read (Elt Ideal)
      (finG (V c (Pipeline.arrRef spec8 0)) (V c (Pipeline.arrRef spec8 1))) := by
  show (cfg8.win 2).cut (grid8.coords t) ((dat8 V c).after 2 t) = _
  rw [after8_2]
  unfold res8_2
  rw [View.canon_unit_zero hz]
  simp only [View.ld_unit_zero (S := S4000x64) hz]
  obtain ⟨-, -, -, -, e0, e1⟩ := idx_facts8 t
  funext j
  show k8_pay1 (blk8 V c 0 t) (blk8 V c 1 t) j
    = finG (V c (Pipeline.arrRef spec8 0)) (V c (Pipeline.arrRef spec8 1)) (((cfg8.win 2).blk t).view.emb j)
  refine (fin8_pay_apply (blk8 V c 0 t) (blk8 V c 1 t) j).trans ?_
  have q0 : ((((cfg8.win 2).blk t).view.emb j : S100000x64.Idx) 0).val = 4000 * t.val + (j 0).val := by
    show win8_2.index t (0 : Fin 2) * 4000 + 1 * (j 0).val = _; rw [e0]; omega
  have q1 : ((((cfg8.win 2).blk t).view.emb j : S100000x64.Idx) 1).val = (j 1).val := by
    show win8_2.index t (1 : Fin 2) * 64 + 1 * (j 1).val = _; rw [e1]; omega
  rw [blk8_0_apply V c t j _ q0 q1, blk8_1_apply V c t j _ q0 q1]
  rfl

/-- An index of the array is in point `t`'s block iff each coordinate is in the block's range on its axis. -/
theorem mem_blk8_2 (t : Fin cfg8.N) (i : S100000x64.Idx) :
    i ∈ ((cfg8.win 2).blk t).view.set ↔ ∀ a : Fin 2, win8_2.index t a * S4000x64.size a ≤ (i a).val ∧ (i a).val < win8_2.index t a * S4000x64.size a + S4000x64.size a := by
  show i ∈ ((View.whole main_v108).slice (win8_2.rect t)).set ↔ _
  rw [View.set_slice_whole, Rect.mem_set_unit]
  exact Iff.rfl

/-- The 25 blocks tile the array: row `r` lies in the block of point `r / 4000`. -/
theorem cover8_2 (i : S100000x64.Idx) :
    ∃ t : Fin cfg8.N, (cfg8.win 2).flush t = true ∧ i ∈ ((cfg8.win 2).blk t).view.set := by
  have hi0 : (i 0).val < 100000 := idx2_lt0 i
  have hi1 : (i 1).val < 64 := idx2_lt1 i
  have hN : cfg8.N = 25 := N_8
  refine ⟨⟨(i 0).val / 4000, by rw [hN]; omega⟩, flush8_2 _, ?_⟩
  rw [mem_blk8_2]
  obtain ⟨-, -, -, -, e0, e1⟩ := idx_facts8 ⟨(i 0).val / 4000, by rw [hN]; omega⟩
  intro a
  match a with
  | ⟨0, _⟩ => show win8_2.index _ (0 : Fin 2) * 4000 ≤ (i 0).val ∧ (i 0).val < win8_2.index _ (0 : Fin 2) * 4000 + 4000; rw [e0]; show (i 0).val / 4000 * 4000 ≤ (i 0).val ∧ (i 0).val < (i 0).val / 4000 * 4000 + 4000; omega
  | ⟨1, _⟩ => show win8_2.index _ (1 : Fin 2) * 64 ≤ (i 1).val ∧ (i 1).val < win8_2.index _ (1 : Fin 2) * 64 + 64; rw [e1]; omega

/-- THE ARRAY after region 8: at every node and feature, the aggregated messages plus the root term, cut off below at zero. -/
theorem arr8_2 (c : Dev nD) : (dat8 (F := Ideal) V c).arrAt 2 cfg8.N
    = finG (V c (Pipeline.arrRef spec8 0)) (V c (Pipeline.arrRef spec8 1)) :=
  (dat8 V c).arrAt_eq_of_cover 2 (finG (V c (Pipeline.arrRef spec8 0)) (V c (Pipeline.arrRef spec8 1)))
    (fun t _ => flushed8_2 V c t) cover8_2

end Cert.KernelIdeal.HandVal

end
-- ==== Proof.RefLayer.lean ====
/-
  One layer of the reference read at an index, stage by stage, for each of the three layers: the node linear map, the edge
  encoder, the message, the root branch and the layer's output, each from the stages it is computed from. Nothing is asked
  of the data: these are the stages composed, with the slices, reshapes and broadcasts of the per-layer parameters read
  through. The rectifier's zero is kept as the float zero's bit pattern.
-/
import proofs.«161825_j7842610283390_1_alg».proof.Proof.RefRead
import Idealize.ShloMosaic.Lib.ValueIdx

noncomputable section

namespace Cert.RefFacts

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

variable (x0 : (⟨S100000x64, .f32⟩ : BufTy).Contents (Elt Ideal)) (x1 : (⟨S2x1250000, .i32⟩ : BufTy).Contents (Elt Ideal))
  (x2 : (⟨S1250000x16, .f32⟩ : BufTy).Contents (Elt Ideal)) (x3 : (⟨S3x64x64, .f32⟩ : BufTy).Contents (Elt Ideal))
  (x4 x5 : (⟨S3x64, .f32⟩ : BufTy).Contents (Elt Ideal)) (x6 : (⟨S3x16x64, .f32⟩ : BufTy).Contents (Elt Ideal))
  (x7 : (⟨S3x64, .f32⟩ : BufTy).Contents (Elt Ideal))

/-! ### Layer 1 -/

/-- The node linear map of layer 1 at node `p`, feature `q`. -/
theorem h1_read (p : Fin 100000) (q : Fin 64) :
    val_main_v35 (F := Ideal) x0 x3 x4 (ix2 p q) = (∑ k : Fin 64, x0 (ix2 p k) * x3 (ix3 (0 : Fin 3) k q)) + x4 (ix2 (0 : Fin 3) q) := by
  rw [val_main_v35_apply, val_main_v30_apply, val_main_v34_apply, val_main_v33_apply, val_main_v32_apply, val_main_v31_apply]
  have e : ∀ k : Fin 64, x0 (lidx_main_v30 (ix2 p q) k) * (val_main_v29 (F := Ideal) x3) (ridx_main_v30 (ix2 p q) k)
      = x0 (ix2 p k) * x3 (ix3 (0 : Fin 3) k q) := fun k => by
    have el : lidx_main_v30 (ix2 p q) k = ix2 p k := funext fun a => Fin.ext (by match a with | ⟨0, _⟩ => rfl | ⟨1, _⟩ => rfl)
    rw [el, val_main_v29_apply, val_main_v28_apply]
    have er : idx_main_v28 (idx_main_v29 (ridx_main_v30 (ix2 p q) k)) = ix3 (0 : Fin 3) k q := funext fun a => Fin.ext (by
      have hk := k.isLt; have hq := q.isLt
      match a with
      | ⟨0, _⟩ => rfl
      | ⟨1, _⟩ => show (k.val * 64 + q.val) / 64 % 64 = k.val; omega
      | ⟨2, _⟩ => show (k.val * 64 + q.val) % 64 = q.val; omega)
    rw [er]
  have eb : idx_main_v31 (idx_main_v32 (idx_main_v33 (idx_main_v34 (ix2 p q)))) = ix2 (0 : Fin 3) q := funext fun a => Fin.ext (by
    have hq := q.isLt
    match a with
    | ⟨0, _⟩ => rfl
    | ⟨1, _⟩ => show (q.val) % 64 = q.val; omega)
  rw [Finset.sum_congr rfl fun k _ => e k, eb]
  rfl

/-- The edge encoder of layer 1 at edge `e`, feature `q`. -/
theorem ee1_read (e : Fin 1250000) (q : Fin 64) :
    val_main_v43 (F := Ideal) x2 x6 x7 (ix2 e q) = (∑ k : Fin 16, x2 (ix2 e k) * x6 (ix3 (0 : Fin 3) k q)) + x7 (ix2 (0 : Fin 3) q) := by
  rw [val_main_v43_apply, val_main_v38_apply, val_main_v42_apply, val_main_v41_apply, val_main_v40_apply, val_main_v39_apply]
  have e' : ∀ k : Fin 16, x2 (lidx_main_v38 (ix2 e q) k) * (val_main_v37 (F := Ideal) x6) (ridx_main_v38 (ix2 e q) k)
      = x2 (ix2 e k) * x6 (ix3 (0 : Fin 3) k q) := fun k => by
    have el : lidx_main_v38 (ix2 e q) k = ix2 e k := funext fun a => Fin.ext (by match a with | ⟨0, _⟩ => rfl | ⟨1, _⟩ => rfl)
    rw [el, val_main_v37_apply, val_main_v36_apply]
    have er : idx_main_v36 (idx_main_v37 (ridx_main_v38 (ix2 e q) k)) = ix3 (0 : Fin 3) k q := funext fun a => Fin.ext (by
      have hk := k.isLt; have hq := q.isLt
      match a with
      | ⟨0, _⟩ => rfl
      | ⟨1, _⟩ => show (k.val * 64 + q.val) / 64 % 16 = k.val; omega
      | ⟨2, _⟩ => show (k.val * 64 + q.val) % 64 = q.val; omega)
    rw [er]
  have eb : idx_main_v39 (idx_main_v40 (idx_main_v41 (idx_main_v42 (ix2 e q)))) = ix2 (0 : Fin 3) q := funext fun a => Fin.ext (by
    have hq := q.isLt
    match a with
    | ⟨0, _⟩ => rfl
    | ⟨1, _⟩ => show (q.val) % 64 = q.val; omega)
  rw [Finset.sum_congr rfl fun k _ => e' k, eb]
  rfl

/-- The message of layer 1 at edge `e`, feature `q`: the edge normaliser times the rectified sum of the gathered node
    feature and the edge encoding. -/
theorem msg1_read (e : Fin 1250000) (q : Fin 64) :
    val_main_v54 (F := Ideal) x0 x1 x2 x3 x4 x6 x7 (ix2 e q)
      = val_main_v27 (F := Ideal) x1 (ix2 e (0 : Fin 1))
        * max (val_main_v50 (F := Ideal) x0 x1 x3 x4 (ix2 e q) + val_main_v43 (F := Ideal) x2 x6 x7 (ix2 e q)) (Ideal.ofBits .f32 0x00000000#32) := by
  rw [val_main_v54_apply, val_main_v53_apply, val_main_v52_apply, val_main_v51_apply, val_main_call0_v0_apply, val_main_call0_cst_apply]
  have e1 : idx_main_v53 (ix2 e q) = ix2 e (0 : Fin 1) := funext fun a => Fin.ext (by match a with | ⟨0, _⟩ => rfl | ⟨1, _⟩ => rfl)
  rw [e1]
  rfl

/-- The root branch of layer 1 at node `p`, feature `q`: the rectified node feature plus root embedding, over the
    degree plus one. -/
theorem root1_read (p : Fin 100000) (q : Fin 64) :
    val_main_v66 (F := Ideal) x0 x1 x3 x4 x5 (ix2 p q)
      = Ideal.div (max (val_main_v35 (F := Ideal) x0 x3 x4 (ix2 p q) + x5 (ix2 (0 : Fin 3) q)) (Ideal.ofBits .f32 0x00000000#32)) (val_main_v9 (F := Ideal) x1 (ix1 p)) := by
  rw [val_main_v66_apply, val_main_v63_apply, val_main_v62_apply, val_main_call1_v0_apply, val_main_call1_cst_apply, val_main_v61_apply, val_main_v60_apply,
    val_main_v59_apply, val_main_v58_apply, val_main_v65_apply, val_main_v64_apply]
  have eb : idx_main_v58 (idx_main_v59 (idx_main_v60 (idx_main_v61 (ix2 p q)))) = ix2 (0 : Fin 3) q := funext fun a => Fin.ext (by
    have hq := q.isLt
    match a with
    | ⟨0, _⟩ => rfl
    | ⟨1, _⟩ => show (q.val) % 64 = q.val; omega)
  have ed : idx_main_v64 (idx_main_v65 (ix2 p q)) = ix1 p := funext fun a => Fin.ext (by match a with | ⟨0, _⟩ => rfl)
  rw [eb, ed]
  rfl

/-- The node features after layer 1: the rectified sum of the accumulated messages and the root branch. -/
theorem feat1_read (p : Fin 100000) (q : Fin 64) :
    val_main_v68 (F := Ideal) x0 x1 x2 x3 x4 x5 x6 x7 (ix2 p q)
      = max (val_main_v57 (F := Ideal) x0 x1 x2 x3 x4 x6 x7 (ix2 p q) + val_main_v66 (F := Ideal) x0 x1 x3 x4 x5 (ix2 p q)) (Ideal.ofBits .f32 0x00000000#32) := by
  rw [val_main_v68_apply, val_main_v67_apply, val_main_call2_v0_apply, val_main_call2_cst_apply]
  rfl

/-! ### Layer 2 -/

/-- The node linear map of layer 2 at node `p`, feature `q`. -/
theorem h2_read (p : Fin 100000) (q : Fin 64) :
    val_main_v76 (F := Ideal) x0 x1 x2 x3 x4 x5 x6 x7 (ix2 p q) = (∑ k : Fin 64, (val_main_v68 (F := Ideal) x0 x1 x2 x3 x4 x5 x6 x7) (ix2 p k) * x3 (ix3 (1 : Fin 3) k q)) + x4 (ix2 (1 : Fin 3) q) := by
  rw [val_main_v76_apply, val_main_v71_apply, val_main_v75_apply, val_main_v74_apply, val_main_v73_apply, val_main_v72_apply]
  have e : ∀ k : Fin 64, (val_main_v68 (F := Ideal) x0 x1 x2 x3 x4 x5 x6 x7) (lidx_main_v71 (ix2 p q) k) * (val_main_v70 (F := Ideal) x3) (ridx_main_v71 (ix2 p q) k)
      = (val_main_v68 (F := Ideal) x0 x1 x2 x3 x4 x5 x6 x7) (ix2 p k) * x3 (ix3 (1 : Fin 3) k q) := fun k => by
    have el : lidx_main_v71 (ix2 p q) k = ix2 p k := funext fun a => Fin.ext (by match a with | ⟨0, _⟩ => rfl | ⟨1, _⟩ => rfl)
    rw [el, val_main_v70_apply, val_main_v69_apply]
    have er : idx_main_v69 (idx_main_v70 (ridx_main_v71 (ix2 p q) k)) = ix3 (1 : Fin 3) k q := funext fun a => Fin.ext (by
      have hk := k.isLt; have hq := q.isLt
      match a with
      | ⟨0, _⟩ => rfl
      | ⟨1, _⟩ => show (k.val * 64 + q.val) / 64 % 64 = k.val; omega
      | ⟨2, _⟩ => show (k.val * 64 + q.val) % 64 = q.val; omega)
    rw [er]
  have eb : idx_main_v72 (idx_main_v73 (idx_main_v74 (idx_main_v75 (ix2 p q)))) = ix2 (1 : Fin 3) q := funext fun a => Fin.ext (by
    have hq := q.isLt
    match a with
    | ⟨0, _⟩ => rfl
    | ⟨1, _⟩ => show (q.val) % 64 = q.val; omega)
  rw [Finset.sum_congr rfl fun k _ => e k, eb]
  rfl

/-- The edge encoder of layer 2 at edge `e`, feature `q`. -/
theorem ee2_read (e : Fin 1250000) (q : Fin 64) :
    val_main_v84 (F := Ideal) x2 x6 x7 (ix2 e q) = (∑ k : Fin 16, x2 (ix2 e k) * x6 (ix3 (1 : Fin 3) k q)) + x7 (ix2 (1 : Fin 3) q) := by
  rw [val_main_v84_apply, val_main_v79_apply, val_main_v83_apply, val_main_v82_apply, val_main_v81_apply, val_main_v80_apply]
  have e' : ∀ k : Fin 16, x2 (lidx_main_v79 (ix2 e q) k) * (val_main_v78 (F := Ideal) x6) (ridx_main_v79 (ix2 e q) k)
      = x2 (ix2 e k) * x6 (ix3 (1 : Fin 3) k q) := fun k => by
    have el : lidx_main_v79 (ix2 e q) k = ix2 e k := funext fun a => Fin.ext (by match a with | ⟨0, _⟩ => rfl | ⟨1, _⟩ => rfl)
    rw [el, val_main_v78_apply, val_main_v77_apply]
    have er : idx_main_v77 (idx_main_v78 (ridx_main_v79 (ix2 e q) k)) = ix3 (1 : Fin 3) k q := funext fun a => Fin.ext (by
      have hk := k.isLt; have hq := q.isLt
      match a with
      | ⟨0, _⟩ => rfl
      | ⟨1, _⟩ => show (k.val * 64 + q.val) / 64 % 16 = k.val; omega
      | ⟨2, _⟩ => show (k.val * 64 + q.val) % 64 = q.val; omega)
    rw [er]
  have eb : idx_main_v80 (idx_main_v81 (idx_main_v82 (idx_main_v83 (ix2 e q)))) = ix2 (1 : Fin 3) q := funext fun a => Fin.ext (by
    have hq := q.isLt
    match a with
    | ⟨0, _⟩ => rfl
    | ⟨1, _⟩ => show (q.val) % 64 = q.val; omega)
  rw [Finset.sum_congr rfl fun k _ => e' k, eb]
  rfl

/-- The message of layer 2 at edge `e`, feature `q`: the edge normaliser times the rectified sum of the gathered node
    feature and the edge encoding. -/
theorem msg2_read (e : Fin 1250000) (q : Fin 64) :
    val_main_v95 (F := Ideal) x0 x1 x2 x3 x4 x5 x6 x7 (ix2 e q)
      = val_main_v27 (F := Ideal) x1 (ix2 e (0 : Fin 1))
        * max (val_main_v91 (F := Ideal) x0 x1 x2 x3 x4 x5 x6 x7 (ix2 e q) + val_main_v84 (F := Ideal) x2 x6 x7 (ix2 e q)) (Ideal.ofBits .f32 0x00000000#32) := by
  rw [val_main_v95_apply, val_main_v94_apply, val_main_v93_apply, val_main_v92_apply, val_main_call3_v0_apply, val_main_call3_cst_apply]
  have e1 : idx_main_v94 (ix2 e q) = ix2 e (0 : Fin 1) := funext fun a => Fin.ext (by match a with | ⟨0, _⟩ => rfl | ⟨1, _⟩ => rfl)
  rw [e1]
  rfl

/-- The root branch of layer 2 at node `p`, feature `q`: the rectified node feature plus root embedding, over the
    degree plus one. -/
theorem root2_read (p : Fin 100000) (q : Fin 64) :
    val_main_v107 (F := Ideal) x0 x1 x2 x3 x4 x5 x6 x7 (ix2 p q)
      = Ideal.div (max (val_main_v76 (F := Ideal) x0 x1 x2 x3 x4 x5 x6 x7 (ix2 p q) + x5 (ix2 (1 : Fin 3) q)) (Ideal.ofBits .f32 0x00000000#32)) (val_main_v9 (F := Ideal) x1 (ix1 p)) := by
  rw [val_main_v107_apply, val_main_v104_apply, val_main_v103_apply, val_main_call4_v0_apply, val_main_call4_cst_apply, val_main_v102_apply, val_main_v101_apply,
    val_main_v100_apply, val_main_v99_apply, val_main_v106_apply, val_main_v105_apply]
  have eb : idx_main_v99 (idx_main_v100 (idx_main_v101 (idx_main_v102 (ix2 p q)))) = ix2 (1 : Fin 3) q := funext fun a => Fin.ext (by
    have hq := q.isLt
    match a with
    | ⟨0, _⟩ => rfl
    | ⟨1, _⟩ => show (q.val) % 64 = q.val; omega)
  have ed : idx_main_v105 (idx_main_v106 (ix2 p q)) = ix1 p := funext fun a => Fin.ext (by match a with | ⟨0, _⟩ => rfl)
  rw [eb, ed]
  rfl

/-- The node features after layer 2: the rectified sum of the accumulated messages and the root branch. -/
theorem feat2_read (p : Fin 100000) (q : Fin 64) :
    val_main_v109 (F := Ideal) x0 x1 x2 x3 x4 x5 x6 x7 (ix2 p q)
      = max (val_main_v98 (F := Ideal) x0 x1 x2 x3 x4 x5 x6 x7 (ix2 p q) + val_main_v107 (F := Ideal) x0 x1 x2 x3 x4 x5 x6 x7 (ix2 p q)) (Ideal.ofBits .f32 0x00000000#32) := by
  rw [val_main_v109_apply, val_main_v108_apply, val_main_call5_v0_apply, val_main_call5_cst_apply]
  rfl

/-! ### Layer 3 -/

/-- The node linear map of layer 3 at node `p`, feature `q`. -/
theorem h3_read (p : Fin 100000) (q : Fin 64) :
    val_main_v117 (F := Ideal) x0 x1 x2 x3 x4 x5 x6 x7 (ix2 p q) = (∑ k : Fin 64, (val_main_v109 (F := Ideal) x0 x1 x2 x3 x4 x5 x6 x7) (ix2 p k) * x3 (ix3 (2 : Fin 3) k q)) + x4 (ix2 (2 : Fin 3) q) := by
  rw [val_main_v117_apply, val_main_v112_apply, val_main_v116_apply, val_main_v115_apply, val_main_v114_apply, val_main_v113_apply]
  have e : ∀ k : Fin 64, (val_main_v109 (F := Ideal) x0 x1 x2 x3 x4 x5 x6 x7) (lidx_main_v112 (ix2 p q) k) * (val_main_v111 (F := Ideal) x3) (ridx_main_v112 (ix2 p q) k)
      = (val_main_v109 (F := Ideal) x0 x1 x2 x3 x4 x5 x6 x7) (ix2 p k) * x3 (ix3 (2 : Fin 3) k q) := fun k => by
    have el : lidx_main_v112 (ix2 p q) k = ix2 p k := funext fun a => Fin.ext (by match a with | ⟨0, _⟩ => rfl | ⟨1, _⟩ => rfl)
    rw [el, val_main_v111_apply, val_main_v110_apply]
    have er : idx_main_v110 (idx_main_v111 (ridx_main_v112 (ix2 p q) k)) = ix3 (2 : Fin 3) k q := funext fun a => Fin.ext (by
      have hk := k.isLt; have hq := q.isLt
      match a with
      | ⟨0, _⟩ => rfl
      | ⟨1, _⟩ => show (k.val * 64 + q.val) / 64 % 64 = k.val; omega
      | ⟨2, _⟩ => show (k.val * 64 + q.val) % 64 = q.val; omega)
    rw [er]
  have eb : idx_main_v113 (idx_main_v114 (idx_main_v115 (idx_main_v116 (ix2 p q)))) = ix2 (2 : Fin 3) q := funext fun a => Fin.ext (by
    have hq := q.isLt
    match a with
    | ⟨0, _⟩ => rfl
    | ⟨1, _⟩ => show (q.val) % 64 = q.val; omega)
  rw [Finset.sum_congr rfl fun k _ => e k, eb]
  rfl

/-- The edge encoder of layer 3 at edge `e`, feature `q`. -/
theorem ee3_read (e : Fin 1250000) (q : Fin 64) :
    val_main_v125 (F := Ideal) x2 x6 x7 (ix2 e q) = (∑ k : Fin 16, x2 (ix2 e k) * x6 (ix3 (2 : Fin 3) k q)) + x7 (ix2 (2 : Fin 3) q) := by
  rw [val_main_v125_apply, val_main_v120_apply, val_main_v124_apply, val_main_v123_apply, val_main_v122_apply, val_main_v121_apply]
  have e' : ∀ k : Fin 16, x2 (lidx_main_v120 (ix2 e q) k) * (val_main_v119 (F := Ideal) x6) (ridx_main_v120 (ix2 e q) k)
      = x2 (ix2 e k) * x6 (ix3 (2 : Fin 3) k q) := fun k => by
    have el : lidx_main_v120 (ix2 e q) k = ix2 e k := funext fun a => Fin.ext (by match a with | ⟨0, _⟩ => rfl | ⟨1, _⟩ => rfl)
    rw [el, val_main_v119_apply, val_main_v118_apply]
    have er : idx_main_v118 (idx_main_v119 (ridx_main_v120 (ix2 e q) k)) = ix3 (2 : Fin 3) k q := funext fun a => Fin.ext (by
      have hk := k.isLt; have hq := q.isLt
      match a with
      | ⟨0, _⟩ => rfl
      | ⟨1, _⟩ => show (k.val * 64 + q.val) / 64 % 16 = k.val; omega
      | ⟨2, _⟩ => show (k.val * 64 + q.val) % 64 = q.val; omega)
    rw [er]
  have eb : idx_main_v121 (idx_main_v122 (idx_main_v123 (idx_main_v124 (ix2 e q)))) = ix2 (2 : Fin 3) q := funext fun a => Fin.ext (by
    have hq := q.isLt
    match a with
    | ⟨0, _⟩ => rfl
    | ⟨1, _⟩ => show (q.val) % 64 = q.val; omega)
  rw [Finset.sum_congr rfl fun k _ => e' k, eb]
  rfl

/-- The message of layer 3 at edge `e`, feature `q`: the edge normaliser times the rectified sum of the gathered node
    feature and the edge encoding. -/
theorem msg3_read (e : Fin 1250000) (q : Fin 64) :
    val_main_v136 (F := Ideal) x0 x1 x2 x3 x4 x5 x6 x7 (ix2 e q)
      = val_main_v27 (F := Ideal) x1 (ix2 e (0 : Fin 1))
        * max (val_main_v132 (F := Ideal) x0 x1 x2 x3 x4 x5 x6 x7 (ix2 e q) + val_main_v125 (F := Ideal) x2 x6 x7 (ix2 e q)) (Ideal.ofBits .f32 0x00000000#32) := by
  rw [val_main_v136_apply, val_main_v135_apply, val_main_v134_apply, val_main_v133_apply, val_main_call6_v0_apply, val_main_call6_cst_apply]
  have e1 : idx_main_v135 (ix2 e q) = ix2 e (0 : Fin 1) := funext fun a => Fin.ext (by match a with | ⟨0, _⟩ => rfl | ⟨1, _⟩ => rfl)
  rw [e1]
  rfl

/-- The root branch of layer 3 at node `p`, feature `q`: the rectified node feature plus root embedding, over the
    degree plus one. -/
theorem root3_read (p : Fin 100000) (q : Fin 64) :
    val_main_v148 (F := Ideal) x0 x1 x2 x3 x4 x5 x6 x7 (ix2 p q)
      = Ideal.div (max (val_main_v117 (F := Ideal) x0 x1 x2 x3 x4 x5 x6 x7 (ix2 p q) + x5 (ix2 (2 : Fin 3) q)) (Ideal.ofBits .f32 0x00000000#32)) (val_main_v9 (F := Ideal) x1 (ix1 p)) := by
  rw [val_main_v148_apply, val_main_v145_apply, val_main_v144_apply, val_main_call7_v0_apply, val_main_call7_cst_apply, val_main_v143_apply, val_main_v142_apply,
    val_main_v141_apply, val_main_v140_apply, val_main_v147_apply, val_main_v146_apply]
  have eb : idx_main_v140 (idx_main_v141 (idx_main_v142 (idx_main_v143 (ix2 p q)))) = ix2 (2 : Fin 3) q := funext fun a => Fin.ext (by
    have hq := q.isLt
    match a with
    | ⟨0, _⟩ => rfl
    | ⟨1, _⟩ => show (q.val) % 64 = q.val; omega)
  have ed : idx_main_v146 (idx_main_v147 (ix2 p q)) = ix1 p := funext fun a => Fin.ext (by match a with | ⟨0, _⟩ => rfl)
  rw [eb, ed]
  rfl

/-- The node features after layer 3: the rectified sum of the accumulated messages and the root branch. -/
theorem feat3_read (p : Fin 100000) (q : Fin 64) :
    val_main_v150 (F := Ideal) x0 x1 x2 x3 x4 x5 x6 x7 (ix2 p q)
      = max (val_main_v139 (F := Ideal) x0 x1 x2 x3 x4 x5 x6 x7 (ix2 p q) + val_main_v148 (F := Ideal) x0 x1 x2 x3 x4 x5 x6 x7 (ix2 p q)) (Ideal.ofBits .f32 0x00000000#32) := by
  rw [val_main_v150_apply, val_main_v149_apply, val_main_call8_v0_apply, val_main_call8_cst_apply]
  rfl

end Cert.RefFacts

end
-- ==== Proof.RefParams.lean ====
/-
  The per-layer parameters of the reference read at an index: the slice of layer l of each stacked parameter array,
  reshaped to a matrix ([64, 64], [16, 64]) or kept as a row ([1, 64]), is the stacked array at first coordinate l.
-/
import proofs.«161825_j7842610283390_1_alg».proof.Proof.RefRead
import Idealize.ShloMosaic.Lib.ValueIdx

noncomputable section

namespace Cert.RefFacts

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

variable (x3 : (⟨S3x64x64, .f32⟩ : BufTy).Contents (Elt Ideal)) (x4 x5 : (⟨S3x64, .f32⟩ : BufTy).Contents (Elt Ideal))
  (x6 : (⟨S3x16x64, .f32⟩ : BufTy).Contents (Elt Ideal)) (x7 : (⟨S3x64, .f32⟩ : BufTy).Contents (Elt Ideal))

/-! ### Layer 1 -/

/-- The node weights of layer 1 as a [64, 64] array. -/
theorem W1_at (k : Fin 64) (q : Fin 64) : val_main_v29 (F := Ideal) x3 (ix2 k q) = x3 (ix3 (0 : Fin 3) k q) := by
  rw [val_main_v29_apply, val_main_v28_apply]
  have e : idx_main_v28 (idx_main_v29 (ix2 k q)) = ix3 (0 : Fin 3) k q := funext fun a => Fin.ext (by
    have hk := k.isLt; have hq := q.isLt
    match a with
    | ⟨0, _⟩ => rfl
    | ⟨1, _⟩ => show (k.val * 64 + q.val) / 64 % 64 = k.val; omega
    | ⟨2, _⟩ => show (k.val * 64 + q.val) % 64 = q.val; omega)
  rw [e]

/-- The node bias of layer 1 as a [1, 64] array. -/
theorem b1_at (q : Fin 64) : val_main_v31 (F := Ideal) x4 (ix2 (0 : Fin 1) q) = x4 (ix2 (0 : Fin 3) q) := by
  rw [val_main_v31_apply]
  have e : idx_main_v31 (ix2 (0 : Fin 1) q) = ix2 (0 : Fin 3) q := funext fun a => Fin.ext (by match a with | ⟨0, _⟩ => rfl | ⟨1, _⟩ => rfl)
  rw [e]

/-- The root embedding of layer 1 as a [1, 64] array. -/
theorem r1_at (q : Fin 64) : val_main_v58 (F := Ideal) x5 (ix2 (0 : Fin 1) q) = x5 (ix2 (0 : Fin 3) q) := by
  rw [val_main_v58_apply]
  have e : idx_main_v58 (ix2 (0 : Fin 1) q) = ix2 (0 : Fin 3) q := funext fun a => Fin.ext (by match a with | ⟨0, _⟩ => rfl | ⟨1, _⟩ => rfl)
  rw [e]

/-- The edge weights of layer 1 as a [16, 64] array. -/
theorem We1_at (k : Fin 16) (q : Fin 64) : val_main_v37 (F := Ideal) x6 (ix2 k q) = x6 (ix3 (0 : Fin 3) k q) := by
  rw [val_main_v37_apply, val_main_v36_apply]
  have e : idx_main_v36 (idx_main_v37 (ix2 k q)) = ix3 (0 : Fin 3) k q := funext fun a => Fin.ext (by
    have hk := k.isLt; have hq := q.isLt
    match a with
    | ⟨0, _⟩ => rfl
    | ⟨1, _⟩ => show (k.val * 64 + q.val) / 64 % 16 = k.val; omega
    | ⟨2, _⟩ => show (k.val * 64 + q.val) % 64 = q.val; omega)
  rw [e]

/-- The edge bias of layer 1 as a [1, 64] array. -/
theorem be1_at (q : Fin 64) : val_main_v39 (F := Ideal) x7 (ix2 (0 : Fin 1) q) = x7 (ix2 (0 : Fin 3) q) := by
  rw [val_main_v39_apply]
  have e : idx_main_v39 (ix2 (0 : Fin 1) q) = ix2 (0 : Fin 3) q := funext fun a => Fin.ext (by match a with | ⟨0, _⟩ => rfl | ⟨1, _⟩ => rfl)
  rw [e]

/-! ### Layer 2 -/

/-- The node weights of layer 2 as a [64, 64] array. -/
theorem W2_at (k : Fin 64) (q : Fin 64) : val_main_v70 (F := Ideal) x3 (ix2 k q) = x3 (ix3 (1 : Fin 3) k q) := by
  rw [val_main_v70_apply, val_main_v69_apply]
  have e : idx_main_v69 (idx_main_v70 (ix2 k q)) = ix3 (1 : Fin 3) k q := funext fun a => Fin.ext (by
    have hk := k.isLt; have hq := q.isLt
    match a with
    | ⟨0, _⟩ => rfl
    | ⟨1, _⟩ => show (k.val * 64 + q.val) / 64 % 64 = k.val; omega
    | ⟨2, _⟩ => show (k.val * 64 + q.val) % 64 = q.val; omega)
  rw [e]

/-- The node bias of layer 2 as a [1, 64] array. -/
theorem b2_at (q : Fin 64) : val_main_v72 (F := Ideal) x4 (ix2 (0 : Fin 1) q) = x4 (ix2 (1 : Fin 3) q) := by
  rw [val_main_v72_apply]
  have e : idx_main_v72 (ix2 (0 : Fin 1) q) = ix2 (1 : Fin 3) q := funext fun a => Fin.ext (by match a with | ⟨0, _⟩ => rfl | ⟨1, _⟩ => rfl)
  rw [e]

/-- The root embedding of layer 2 as a [1, 64] array. -/
theorem r2_at (q : Fin 64) : val_main_v99 (F := Ideal) x5 (ix2 (0 : Fin 1) q) = x5 (ix2 (1 : Fin 3) q) := by
  rw [val_main_v99_apply]
  have e : idx_main_v99 (ix2 (0 : Fin 1) q) = ix2 (1 : Fin 3) q := funext fun a => Fin.ext (by match a with | ⟨0, _⟩ => rfl | ⟨1, _⟩ => rfl)
  rw [e]

/-- The edge weights of layer 2 as a [16, 64] array. -/
theorem We2_at (k : Fin 16) (q : Fin 64) : val_main_v78 (F := Ideal) x6 (ix2 k q) = x6 (ix3 (1 : Fin 3) k q) := by
  rw [val_main_v78_apply, val_main_v77_apply]
  have e : idx_main_v77 (idx_main_v78 (ix2 k q)) = ix3 (1 : Fin 3) k q := funext fun a => Fin.ext (by
    have hk := k.isLt; have hq := q.isLt
    match a with
    | ⟨0, _⟩ => rfl
    | ⟨1, _⟩ => show (k.val * 64 + q.val) / 64 % 16 = k.val; omega
    | ⟨2, _⟩ => show (k.val * 64 + q.val) % 64 = q.val; omega)
  rw [e]

/-- The edge bias of layer 2 as a [1, 64] array. -/
theorem be2_at (q : Fin 64) : val_main_v80 (F := Ideal) x7 (ix2 (0 : Fin 1) q) = x7 (ix2 (1 : Fin 3) q) := by
  rw [val_main_v80_apply]
  have e : idx_main_v80 (ix2 (0 : Fin 1) q) = ix2 (1 : Fin 3) q := funext fun a => Fin.ext (by match a with | ⟨0, _⟩ => rfl | ⟨1, _⟩ => rfl)
  rw [e]

/-! ### Layer 3 -/

/-- The node weights of layer 3 as a [64, 64] array. -/
theorem W3_at (k : Fin 64) (q : Fin 64) : val_main_v111 (F := Ideal) x3 (ix2 k q) = x3 (ix3 (2 : Fin 3) k q) := by
  rw [val_main_v111_apply, val_main_v110_apply]
  have e : idx_main_v110 (idx_main_v111 (ix2 k q)) = ix3 (2 : Fin 3) k q := funext fun a => Fin.ext (by
    have hk := k.isLt; have hq := q.isLt
    match a with
    | ⟨0, _⟩ => rfl
    | ⟨1, _⟩ => show (k.val * 64 + q.val) / 64 % 64 = k.val; omega
    | ⟨2, _⟩ => show (k.val * 64 + q.val) % 64 = q.val; omega)
  rw [e]

/-- The node bias of layer 3 as a [1, 64] array. -/
theorem b3_at (q : Fin 64) : val_main_v113 (F := Ideal) x4 (ix2 (0 : Fin 1) q) = x4 (ix2 (2 : Fin 3) q) := by
  rw [val_main_v113_apply]
  have e : idx_main_v113 (ix2 (0 : Fin 1) q) = ix2 (2 : Fin 3) q := funext fun a => Fin.ext (by match a with | ⟨0, _⟩ => rfl | ⟨1, _⟩ => rfl)
  rw [e]

/-- The root embedding of layer 3 as a [1, 64] array. -/
theorem r3_at (q : Fin 64) : val_main_v140 (F := Ideal) x5 (ix2 (0 : Fin 1) q) = x5 (ix2 (2 : Fin 3) q) := by
  rw [val_main_v140_apply]
  have e : idx_main_v140 (ix2 (0 : Fin 1) q) = ix2 (2 : Fin 3) q := funext fun a => Fin.ext (by match a with | ⟨0, _⟩ => rfl | ⟨1, _⟩ => rfl)
  rw [e]

/-- The edge weights of layer 3 as a [16, 64] array. -/
theorem We3_at (k : Fin 16) (q : Fin 64) : val_main_v119 (F := Ideal) x6 (ix2 k q) = x6 (ix3 (2 : Fin 3) k q) := by
  rw [val_main_v119_apply, val_main_v118_apply]
  have e : idx_main_v118 (idx_main_v119 (ix2 k q)) = ix3 (2 : Fin 3) k q := funext fun a => Fin.ext (by
    have hk := k.isLt; have hq := q.isLt
    match a with
    | ⟨0, _⟩ => rfl
    | ⟨1, _⟩ => show (k.val * 64 + q.val) / 64 % 16 = k.val; omega
    | ⟨2, _⟩ => show (k.val * 64 + q.val) % 64 = q.val; omega)
  rw [e]

/-- The edge bias of layer 3 as a [1, 64] array. -/
theorem be3_at (q : Fin 64) : val_main_v121 (F := Ideal) x7 (ix2 (0 : Fin 1) q) = x7 (ix2 (2 : Fin 3) q) := by
  rw [val_main_v121_apply]
  have e : idx_main_v121 (ix2 (0 : Fin 1) q) = ix2 (2 : Fin 3) q := funext fun a => Fin.ext (by match a with | ⟨0, _⟩ => rfl | ⟨1, _⟩ => rfl)
  rw [e]

end Cert.RefFacts

end
-- ==== Proof.RefMatch.lean ====
/-
  The whole-array specifications of the kernel's regions against the reference's stages, layer by layer: the linear map,
  the root branch (a product with the reciprocal of the degree plus one against a quotient by it, equal because the degree
  plus one is a real at least one), the messages and the closing rectified sum, each equal to the reference's stage once
  its operands are the reference's stages.
-/
import proofs.«161825_j7842610283390_1_alg».proof.Proof.RefLayer
import proofs.«161825_j7842610283390_1_alg».proof.Proof.RefParams
import proofs.«161825_j7842610283390_1_alg».proof.Proof.RefFacts0
import proofs.«161825_j7842610283390_1_alg».proof.Proof.BnTail
import proofs.«161825_j7842610283390_1_alg».proof.Proof.KIValNodePay
import proofs.«161825_j7842610283390_1_alg».proof.Proof.KIValMsgPay
import proofs.«161825_j7842610283390_1_alg».proof.Proof.KIValFinPay

noncomputable section

namespace Cert.RefFacts

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

variable (x0 : (⟨S100000x64, .f32⟩ : BufTy).Contents (Elt Ideal)) (x1 : (⟨S2x1250000, .i32⟩ : BufTy).Contents (Elt Ideal))
  (x2 : (⟨S1250000x16, .f32⟩ : BufTy).Contents (Elt Ideal)) (x3 : (⟨S3x64x64, .f32⟩ : BufTy).Contents (Elt Ideal))
  (x4 x5 : (⟨S3x64, .f32⟩ : BufTy).Contents (Elt Ideal)) (x6 : (⟨S3x16x64, .f32⟩ : BufTy).Contents (Elt Ideal))
  (x7 : (⟨S3x64, .f32⟩ : BufTy).Contents (Elt Ideal))

/-! ### Layer 1 -/

/-- The node linear map of layer 1, as a whole array. -/
theorem h1_whole (x : S100000x64.Idx → EReal) (W : S64x64.Idx → EReal) (b : S1x64.Idx → EReal)
    (hx : x = x0) (hW : W = val_main_v29 (F := Ideal) x3) (hb : b = val_main_v31 (F := Ideal) x4) :
    Cert.KernelIdeal.HandVal.linG x W b = val_main_v35 (F := Ideal) x0 x3 x4 := by
  rw [hx, hW, hb]
  funext i
  obtain ⟨p, q, rfl⟩ : ∃ (p : Fin 100000) (q : Fin 64), i = ix2 p q := ⟨i 0, i 1, eq_ix2 i⟩
  rw [h1_read]
  show (∑ k : Fin 64, x0 (ix2 p k) * val_main_v29 (F := Ideal) x3 (ix2 k q))
      + val_main_v31 (F := Ideal) x4 (ix2 (0 : Fin 1) q) = _
  have hsum : (∑ k : Fin 64, x0 (ix2 p k) * val_main_v29 (F := Ideal) x3 (ix2 k q))
      = ∑ k : Fin 64, x0 (ix2 p k) * x3 (ix3 (0 : Fin 3) k q) := Finset.sum_congr rfl fun k _ => by rw [W1_at]
  rw [hsum, b1_at]

/-- The root branch of layer 1, as a whole array: a product with the reciprocal of the degree plus one on one side, a
    quotient by it on the other. -/
theorem root1_whole (x : S100000x64.Idx → EReal) (W : S64x64.Idx → EReal) (b : S1x64.Idx → EReal) (e : S1x64.Idx → EReal) (d : S100000x1.Idx → EReal)
    (hx : x = x0) (hW : W = val_main_v29 (F := Ideal) x3) (hb : b = val_main_v31 (F := Ideal) x4) (he : e = val_main_v58 (F := Ideal) x5)
    (hd : ∀ p : Fin 100000, d (ix2 p (0 : Fin 1))
      = Ideal.div (Ideal.ofBits .f32 0x3F800000#32) (val_main_v9 (F := Ideal) x1 (ix1 p))) :
    Cert.KernelIdeal.HandVal.rootG x W b e d = val_main_v66 (F := Ideal) x0 x1 x3 x4 x5 := by
  rw [hx, hW, hb, he]
  funext i
  obtain ⟨p, q, rfl⟩ : ∃ (p : Fin 100000) (q : Fin 64), i = ix2 p q := ⟨i 0, i 1, eq_ix2 i⟩
  rw [root1_read, h1_read]
  show max ((∑ k : Fin 64, x0 (ix2 p k) * val_main_v29 (F := Ideal) x3 (ix2 k q))
      + val_main_v31 (F := Ideal) x4 (ix2 (0 : Fin 1) q) + val_main_v58 (F := Ideal) x5 (ix2 (0 : Fin 1) q)) 0
      * d (ix2 p (0 : Fin 1)) = _
  obtain ⟨dd, hd1, hde⟩ := ge_one_v9 x1 (ix1 p)
  have hsum : (∑ k : Fin 64, x0 (ix2 p k) * val_main_v29 (F := Ideal) x3 (ix2 k q))
      = ∑ k : Fin 64, x0 (ix2 p k) * x3 (ix3 (0 : Fin 3) k q) := Finset.sum_congr rfl fun k _ => by rw [W1_at]
  rw [hd p, BnTail.mul_recip_of_one_le _ hde hd1, hsum, b1_at, r1_at, Ideal.ofBits_zero_f32]

/-- The messages of layer 1, as a whole array. -/
theorem msg1_whole (ea : S1250000x16.Idx → EReal) (h : S1250000x64.Idx → EReal) (nrm : S1250000x1.Idx → EReal)
    (W : S16x64.Idx → EReal) (b : S1x64.Idx → EReal)
    (hea : ea = x2) (hh : h = val_main_v50 (F := Ideal) x0 x1 x3 x4)
    (hn : ∀ e : Fin 1250000, nrm (ix2 e (0 : Fin 1)) = val_main_v27 (F := Ideal) x1 (ix2 e (0 : Fin 1)))
    (hW : W = val_main_v37 (F := Ideal) x6) (hb : b = val_main_v39 (F := Ideal) x7) :
    Cert.KernelIdeal.HandVal.msgVal ea h nrm W b = val_main_v54 (F := Ideal) x0 x1 x2 x3 x4 x6 x7 := by
  rw [hea, hh, hW, hb]
  funext i
  obtain ⟨e, q, rfl⟩ : ∃ (e : Fin 1250000) (q : Fin 64), i = ix2 e q := ⟨i 0, i 1, eq_ix2 i⟩
  have hsum : (∑ k : Fin 16, x2 (ix2 e k) * val_main_v37 (F := Ideal) x6 (ix2 k q))
      = ∑ k : Fin 16, x2 (ix2 e k) * x6 (ix3 (0 : Fin 3) k q) := Finset.sum_congr rfl fun k _ => by rw [We1_at]
  rw [msg1_read, ee1_read, Cert.KernelIdeal.HandVal.msgVal_apply, hn e, hsum, be1_at]

/-- The node features after layer 1, as a whole array. -/
theorem feat1_whole (a r : S100000x64.Idx → EReal)
    (ha : a = val_main_v57 (F := Ideal) x0 x1 x2 x3 x4 x6 x7) (hr : r = val_main_v66 (F := Ideal) x0 x1 x3 x4 x5) :
    Cert.KernelIdeal.HandVal.finG a r = val_main_v68 (F := Ideal) x0 x1 x2 x3 x4 x5 x6 x7 := by
  rw [ha, hr]
  funext i
  obtain ⟨p, q, rfl⟩ : ∃ (p : Fin 100000) (q : Fin 64), i = ix2 p q := ⟨i 0, i 1, eq_ix2 i⟩
  rw [feat1_read, Cert.KernelIdeal.HandVal.finG_apply, Ideal.ofBits_zero_f32]

/-! ### Layer 2 -/

/-- The node linear map of layer 2, as a whole array. -/
theorem h2_whole (x : S100000x64.Idx → EReal) (W : S64x64.Idx → EReal) (b : S1x64.Idx → EReal)
    (hx : x = (val_main_v68 (F := Ideal) x0 x1 x2 x3 x4 x5 x6 x7)) (hW : W = val_main_v70 (F := Ideal) x3) (hb : b = val_main_v72 (F := Ideal) x4) :
    Cert.KernelIdeal.HandVal.linG x W b = val_main_v76 (F := Ideal) x0 x1 x2 x3 x4 x5 x6 x7 := by
  rw [hx, hW, hb]
  funext i
  obtain ⟨p, q, rfl⟩ : ∃ (p : Fin 100000) (q : Fin 64), i = ix2 p q := ⟨i 0, i 1, eq_ix2 i⟩
  rw [h2_read]
  show (∑ k : Fin 64, (val_main_v68 (F := Ideal) x0 x1 x2 x3 x4 x5 x6 x7) (ix2 p k) * val_main_v70 (F := Ideal) x3 (ix2 k q))
      + val_main_v72 (F := Ideal) x4 (ix2 (0 : Fin 1) q) = _
  have hsum : (∑ k : Fin 64, (val_main_v68 (F := Ideal) x0 x1 x2 x3 x4 x5 x6 x7) (ix2 p k) * val_main_v70 (F := Ideal) x3 (ix2 k q))
      = ∑ k : Fin 64, (val_main_v68 (F := Ideal) x0 x1 x2 x3 x4 x5 x6 x7) (ix2 p k) * x3 (ix3 (1 : Fin 3) k q) := Finset.sum_congr rfl fun k _ => by rw [W2_at]
  rw [hsum, b2_at]

/-- The root branch of layer 2, as a whole array: a product with the reciprocal of the degree plus one on one side, a
    quotient by it on the other. -/
theorem root2_whole (x : S100000x64.Idx → EReal) (W : S64x64.Idx → EReal) (b : S1x64.Idx → EReal) (e : S1x64.Idx → EReal) (d : S100000x1.Idx → EReal)
    (hx : x = (val_main_v68 (F := Ideal) x0 x1 x2 x3 x4 x5 x6 x7)) (hW : W = val_main_v70 (F := Ideal) x3) (hb : b = val_main_v72 (F := Ideal) x4) (he : e = val_main_v99 (F := Ideal) x5)
    (hd : ∀ p : Fin 100000, d (ix2 p (0 : Fin 1))
      = Ideal.div (Ideal.ofBits .f32 0x3F800000#32) (val_main_v9 (F := Ideal) x1 (ix1 p))) :
    Cert.KernelIdeal.HandVal.rootG x W b e d = val_main_v107 (F := Ideal) x0 x1 x2 x3 x4 x5 x6 x7 := by
  rw [hx, hW, hb, he]
  funext i
  obtain ⟨p, q, rfl⟩ : ∃ (p : Fin 100000) (q : Fin 64), i = ix2 p q := ⟨i 0, i 1, eq_ix2 i⟩
  rw [root2_read, h2_read]
  show max ((∑ k : Fin 64, (val_main_v68 (F := Ideal) x0 x1 x2 x3 x4 x5 x6 x7) (ix2 p k) * val_main_v70 (F := Ideal) x3 (ix2 k q))
      + val_main_v72 (F := Ideal) x4 (ix2 (0 : Fin 1) q) + val_main_v99 (F := Ideal) x5 (ix2 (0 : Fin 1) q)) 0
      * d (ix2 p (0 : Fin 1)) = _
  obtain ⟨dd, hd1, hde⟩ := ge_one_v9 x1 (ix1 p)
  have hsum : (∑ k : Fin 64, (val_main_v68 (F := Ideal) x0 x1 x2 x3 x4 x5 x6 x7) (ix2 p k) * val_main_v70 (F := Ideal) x3 (ix2 k q))
      = ∑ k : Fin 64, (val_main_v68 (F := Ideal) x0 x1 x2 x3 x4 x5 x6 x7) (ix2 p k) * x3 (ix3 (1 : Fin 3) k q) := Finset.sum_congr rfl fun k _ => by rw [W2_at]
  rw [hd p, BnTail.mul_recip_of_one_le _ hde hd1, hsum, b2_at, r2_at, Ideal.ofBits_zero_f32]

/-- The messages of layer 2, as a whole array. -/
theorem msg2_whole (ea : S1250000x16.Idx → EReal) (h : S1250000x64.Idx → EReal) (nrm : S1250000x1.Idx → EReal)
    (W : S16x64.Idx → EReal) (b : S1x64.Idx → EReal)
    (hea : ea = x2) (hh : h = val_main_v91 (F := Ideal) x0 x1 x2 x3 x4 x5 x6 x7)
    (hn : ∀ e : Fin 1250000, nrm (ix2 e (0 : Fin 1)) = val_main_v27 (F := Ideal) x1 (ix2 e (0 : Fin 1)))
    (hW : W = val_main_v78 (F := Ideal) x6) (hb : b = val_main_v80 (F := Ideal) x7) :
    Cert.KernelIdeal.HandVal.msgVal ea h nrm W b = val_main_v95 (F := Ideal) x0 x1 x2 x3 x4 x5 x6 x7 := by
  rw [hea, hh, hW, hb]
  funext i
  obtain ⟨e, q, rfl⟩ : ∃ (e : Fin 1250000) (q : Fin 64), i = ix2 e q := ⟨i 0, i 1, eq_ix2 i⟩
  have hsum : (∑ k : Fin 16, x2 (ix2 e k) * val_main_v78 (F := Ideal) x6 (ix2 k q))
      = ∑ k : Fin 16, x2 (ix2 e k) * x6 (ix3 (1 : Fin 3) k q) := Finset.sum_congr rfl fun k _ => by rw [We2_at]
  rw [msg2_read, ee2_read, Cert.KernelIdeal.HandVal.msgVal_apply, hn e, hsum, be2_at]

/-- The node features after layer 2, as a whole array. -/
theorem feat2_whole (a r : S100000x64.Idx → EReal)
    (ha : a = val_main_v98 (F := Ideal) x0 x1 x2 x3 x4 x5 x6 x7) (hr : r = val_main_v107 (F := Ideal) x0 x1 x2 x3 x4 x5 x6 x7) :
    Cert.KernelIdeal.HandVal.finG a r = val_main_v109 (F := Ideal) x0 x1 x2 x3 x4 x5 x6 x7 := by
  rw [ha, hr]
  funext i
  obtain ⟨p, q, rfl⟩ : ∃ (p : Fin 100000) (q : Fin 64), i = ix2 p q := ⟨i 0, i 1, eq_ix2 i⟩
  rw [feat2_read, Cert.KernelIdeal.HandVal.finG_apply, Ideal.ofBits_zero_f32]

/-! ### Layer 3 -/

/-- The node linear map of layer 3, as a whole array. -/
theorem h3_whole (x : S100000x64.Idx → EReal) (W : S64x64.Idx → EReal) (b : S1x64.Idx → EReal)
    (hx : x = (val_main_v109 (F := Ideal) x0 x1 x2 x3 x4 x5 x6 x7)) (hW : W = val_main_v111 (F := Ideal) x3) (hb : b = val_main_v113 (F := Ideal) x4) :
    Cert.KernelIdeal.HandVal.linG x W b = val_main_v117 (F := Ideal) x0 x1 x2 x3 x4 x5 x6 x7 := by
  rw [hx, hW, hb]
  funext i
  obtain ⟨p, q, rfl⟩ : ∃ (p : Fin 100000) (q : Fin 64), i = ix2 p q := ⟨i 0, i 1, eq_ix2 i⟩
  rw [h3_read]
  show (∑ k : Fin 64, (val_main_v109 (F := Ideal) x0 x1 x2 x3 x4 x5 x6 x7) (ix2 p k) * val_main_v111 (F := Ideal) x3 (ix2 k q))
      + val_main_v113 (F := Ideal) x4 (ix2 (0 : Fin 1) q) = _
  have hsum : (∑ k : Fin 64, (val_main_v109 (F := Ideal) x0 x1 x2 x3 x4 x5 x6 x7) (ix2 p k) * val_main_v111 (F := Ideal) x3 (ix2 k q))
      = ∑ k : Fin 64, (val_main_v109 (F := Ideal) x0 x1 x2 x3 x4 x5 x6 x7) (ix2 p k) * x3 (ix3 (2 : Fin 3) k q) := Finset.sum_congr rfl fun k _ => by rw [W3_at]
  rw [hsum, b3_at]

/-- The root branch of layer 3, as a whole array: a product with the reciprocal of the degree plus one on one side, a
    quotient by it on the other. -/
theorem root3_whole (x : S100000x64.Idx → EReal) (W : S64x64.Idx → EReal) (b : S1x64.Idx → EReal) (e : S1x64.Idx → EReal) (d : S100000x1.Idx → EReal)
    (hx : x = (val_main_v109 (F := Ideal) x0 x1 x2 x3 x4 x5 x6 x7)) (hW : W = val_main_v111 (F := Ideal) x3) (hb : b = val_main_v113 (F := Ideal) x4) (he : e = val_main_v140 (F := Ideal) x5)
    (hd : ∀ p : Fin 100000, d (ix2 p (0 : Fin 1))
      = Ideal.div (Ideal.ofBits .f32 0x3F800000#32) (val_main_v9 (F := Ideal) x1 (ix1 p))) :
    Cert.KernelIdeal.HandVal.rootG x W b e d = val_main_v148 (F := Ideal) x0 x1 x2 x3 x4 x5 x6 x7 := by
  rw [hx, hW, hb, he]
  funext i
  obtain ⟨p, q, rfl⟩ : ∃ (p : Fin 100000) (q : Fin 64), i = ix2 p q := ⟨i 0, i 1, eq_ix2 i⟩
  rw [root3_read, h3_read]
  show max ((∑ k : Fin 64, (val_main_v109 (F := Ideal) x0 x1 x2 x3 x4 x5 x6 x7) (ix2 p k) * val_main_v111 (F := Ideal) x3 (ix2 k q))
      + val_main_v113 (F := Ideal) x4 (ix2 (0 : Fin 1) q) + val_main_v140 (F := Ideal) x5 (ix2 (0 : Fin 1) q)) 0
      * d (ix2 p (0 : Fin 1)) = _
  obtain ⟨dd, hd1, hde⟩ := ge_one_v9 x1 (ix1 p)
  have hsum : (∑ k : Fin 64, (val_main_v109 (F := Ideal) x0 x1 x2 x3 x4 x5 x6 x7) (ix2 p k) * val_main_v111 (F := Ideal) x3 (ix2 k q))
      = ∑ k : Fin 64, (val_main_v109 (F := Ideal) x0 x1 x2 x3 x4 x5 x6 x7) (ix2 p k) * x3 (ix3 (2 : Fin 3) k q) := Finset.sum_congr rfl fun k _ => by rw [W3_at]
  rw [hd p, BnTail.mul_recip_of_one_le _ hde hd1, hsum, b3_at, r3_at, Ideal.ofBits_zero_f32]

/-- The messages of layer 3, as a whole array. -/
theorem msg3_whole (ea : S1250000x16.Idx → EReal) (h : S1250000x64.Idx → EReal) (nrm : S1250000x1.Idx → EReal)
    (W : S16x64.Idx → EReal) (b : S1x64.Idx → EReal)
    (hea : ea = x2) (hh : h = val_main_v132 (F := Ideal) x0 x1 x2 x3 x4 x5 x6 x7)
    (hn : ∀ e : Fin 1250000, nrm (ix2 e (0 : Fin 1)) = val_main_v27 (F := Ideal) x1 (ix2 e (0 : Fin 1)))
    (hW : W = val_main_v119 (F := Ideal) x6) (hb : b = val_main_v121 (F := Ideal) x7) :
    Cert.KernelIdeal.HandVal.msgVal ea h nrm W b = val_main_v136 (F := Ideal) x0 x1 x2 x3 x4 x5 x6 x7 := by
  rw [hea, hh, hW, hb]
  funext i
  obtain ⟨e, q, rfl⟩ : ∃ (e : Fin 1250000) (q : Fin 64), i = ix2 e q := ⟨i 0, i 1, eq_ix2 i⟩
  have hsum : (∑ k : Fin 16, x2 (ix2 e k) * val_main_v119 (F := Ideal) x6 (ix2 k q))
      = ∑ k : Fin 16, x2 (ix2 e k) * x6 (ix3 (2 : Fin 3) k q) := Finset.sum_congr rfl fun k _ => by rw [We3_at]
  rw [msg3_read, ee3_read, Cert.KernelIdeal.HandVal.msgVal_apply, hn e, hsum, be3_at]

/-- The node features after layer 3, as a whole array. -/
theorem feat3_whole (a r : S100000x64.Idx → EReal)
    (ha : a = val_main_v139 (F := Ideal) x0 x1 x2 x3 x4 x5 x6 x7) (hr : r = val_main_v148 (F := Ideal) x0 x1 x2 x3 x4 x5 x6 x7) :
    Cert.KernelIdeal.HandVal.finG a r = val_main_v150 (F := Ideal) x0 x1 x2 x3 x4 x5 x6 x7 := by
  rw [ha, hr]
  funext i
  obtain ⟨p, q, rfl⟩ : ∃ (p : Fin 100000) (q : Fin 64), i = ix2 p q := ⟨i 0, i 1, eq_ix2 i⟩
  rw [feat3_read, Cert.KernelIdeal.HandVal.finG_apply, Ideal.ofBits_zero_f32]

end Cert.RefFacts

end
-- ==== Proof.KIGlue1.lean ====
/-
  Layer 1 of the kernel against the reference, stage by stage: each array the kernel's host glue or one of its three
  regions leaves is the reference's stage of the same arguments. The regions' arrays are read through their whole-array
  specifications; the gather and the accumulating scatter are the same operations on the same operands.
-/
import proofs.«161825_j7842610283390_1_alg».proof.Proof.KIGlue0
import proofs.«161825_j7842610283390_1_alg».proof.Proof.KICarry
import proofs.«161825_j7842610283390_1_alg».proof.Proof.KIValNode
import proofs.«161825_j7842610283390_1_alg».proof.Proof.KIValMsg
import proofs.«161825_j7842610283390_1_alg».proof.Proof.KIValFin
import proofs.«161825_j7842610283390_1_alg».proof.Proof.RefMatch
import Idealize.ShloMosaic.Lib.Pipeline.Value
import Idealize.ShloMosaic.Lib.ValueIdx

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx
open Cert.ReferenceIdeal.Read Cert.RefFacts

variable (m : (ℓ : Loc nD τ sig) → Buf (Elt Ideal) ℓ) (c : Dev nD)

set_option quotPrecheck false

local notation "A0" => m ((c.tc : Thread nD τ).loc main_arg0)
local notation "A1" => m ((c.tc : Thread nD τ).loc main_arg1)
local notation "A2" => m ((c.tc : Thread nD τ).loc main_arg2)
local notation "A3" => m ((c.tc : Thread nD τ).loc main_arg3)
local notation "A4" => m ((c.tc : Thread nD τ).loc main_arg4)
local notation "A5" => m ((c.tc : Thread nD τ).loc main_arg5)
local notation "A6" => m ((c.tc : Thread nD τ).loc main_arg6)
local notation "A7" => m ((c.tc : Thread nD τ).loc main_arg7)

/-! ### The parameters of layer 1, as the kernel's host glue leaves them -/

/-- The node weights of layer 1. -/
theorem g1_W : W1 m c (Proc.devRef .tc main_v32) = val_main_v29 (F := Ideal) A3 := by
  show StableHlo.after hostOps0 (W0 m c) (Proc.devRef .tc main_v32) = _
  after_results_simp
  rfl

/-- The node bias of layer 1, as a row: a reshape there and back. -/
theorem g1_b : W1 m c (Proc.devRef .tc main_v37) = val_main_v31 (F := Ideal) A4 := by
  show StableHlo.after hostOps0 (W0 m c) (Proc.devRef .tc main_v37) = _
  after_results_simp
  exact shapeCast_shapeCast _ _ _

/-- The root embedding of layer 1, as a row. -/
theorem g1_r : W1 m c (Proc.devRef .tc main_v38) = val_main_v58 (F := Ideal) A5 := by
  show StableHlo.after hostOps0 (W0 m c) (Proc.devRef .tc main_v38) = _
  after_results_simp
  exact shapeCast_shapeCast _ _ _

/-! ### The node region of layer 1 -/

set_option maxHeartbeats 1000000 in
/-- The node linear map of layer 1. -/
theorem g1_h : W2 m c (Proc.devRef .tc main_v39_0) = val_main_v35 (F := Ideal) A0 A3 A4 :=
  ((W2_arr m c 5).trans (arr0_5 (VW1 m) c)).trans
    (h1_whole A0 A3 A4 _ _ _ (carry_main_arg0_0_1 m c) (g1_W m c) (g1_b m c))

set_option maxHeartbeats 1000000 in
/-- The root branch of layer 1: the kernel multiplies by the reciprocal of the degree plus one, the reference divides
    by it. -/
theorem g1_root : W2 m c (Proc.devRef .tc main_v39_1) = val_main_v66 (F := Ideal) A0 A1 A3 A4 A5 :=
  ((W2_arr m c 6).trans (arr0_6 (VW1 m) c)).trans
    (root1_whole A0 A1 A3 A4 A5 _ _ _ _ _ (carry_main_arg0_0_1 m c) (g1_W m c) (g1_b m c) (g1_r m c)
      (fun p => g0_inv_at m c p))

/-! ### The message region of layer 1 -/

/-- The gathered node features: the same gather, at the same start indices, of the same array. -/
theorem g1_hrow : W3 m c (Proc.devRef .tc main_v46) = val_main_v50 (F := Ideal) A0 A1 A3 A4 := by
  show StableHlo.after hostOps1 (W2 m c) (Proc.devRef .tc main_v46) = _
  after_results_simp
  rw [g1_h m c, carry_main_v1_1_2 m c, g0_row m c]
  rfl

/-- The edge weights of layer 1. -/
theorem g1_We : W3 m c (Proc.devRef .tc main_v48) = val_main_v37 (F := Ideal) A6 := by
  show StableHlo.after hostOps1 (W2 m c) (Proc.devRef .tc main_v48) = _
  after_results_simp
  rw [carry_main_arg6_0_2 m c]
  rfl

/-- The edge bias of layer 1, as a row. -/
theorem g1_be : W3 m c (Proc.devRef .tc main_v51) = val_main_v39 (F := Ideal) A7 := by
  show StableHlo.after hostOps1 (W2 m c) (Proc.devRef .tc main_v51) = _
  after_results_simp
  rw [carry_main_arg7_0_2 m c]
  exact shapeCast_shapeCast _ _ _

set_option maxHeartbeats 1000000 in
/-- The messages of layer 1. -/
theorem g1_msg : W4 m c (Proc.devRef .tc main_v52) = val_main_v54 (F := Ideal) A0 A1 A2 A3 A4 A6 A7 :=
  ((W4_arr m c 5).trans (arr1_5 (VW3 m) c)).trans
    (msg1_whole A0 A1 A2 A3 A4 A6 A7 _ _ _ _ _ (carry_main_arg2_0_3 m c) (g1_hrow m c)
      (fun e => (congrFun (carry_main_v30_1_3 m c) (ix2 e (0 : Fin 1))).trans (g0_nrm_at m c e))
      (g1_We m c) (g1_be m c))

/-! ### The accumulation and the closing region of layer 1 -/

/-- The accumulated messages: the same accumulating scatter, at the same indices, of the same updates. -/
theorem g1_aggr : W5 m c (Proc.devRef .tc main_v55) = val_main_v57 (F := Ideal) A0 A1 A2 A3 A4 A6 A7 := by
  show StableHlo.after hostOps2 (W4 m c) (Proc.devRef .tc main_v55) = _
  after_results_simp
  rw [g1_msg m c, carry_main_v3_1_4 m c, g0_col m c]
  rfl

set_option maxHeartbeats 1000000 in
/-- The node features after layer 1. -/
theorem glue_x1 : W6 m c (Proc.devRef .tc main_v56) = val_main_v68 (F := Ideal) A0 A1 A2 A3 A4 A5 A6 A7 :=
  ((W6_arr m c 2).trans (arr2_2 (VW5 m) c)).trans
    (feat1_whole A0 A1 A2 A3 A4 A5 A6 A7 _ _ (g1_aggr m c)
      ((carry_main_v39_1_2_5 m c).trans (g1_root m c)))

end Cert.KernelIdeal.HandVal

end
-- ==== Proof.KIValMsg4.lean ====
/-
  Region 4 of the program, the edge messages of layer 2: what the output array holds after the region, entry by entry.
  Block t of every edge-indexed window is rows 5000·t … 5000·t + 4999 (all columns); the weight and the bias are one block.
  So what point t writes back is block t of the edge messages of the arrays as the region finds them, and the 250 blocks
  tile the 1250000 rows: the array ends holding the edge messages.
-/
import proofs.«161825_j7842610283390_1_alg».proof.Proof.KIReg4
import proofs.«161825_j7842610283390_1_alg».proof.Proof.KIValMsgPay
import Idealize.ShloMosaic.Lib.Pipeline.Value

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zeros4 : (![0, 0] : Fin 2 → Nat) = fun _ => 0 := funext fun a => by fin_cases a <;> rfl

/-- The block indices over the grid: the edge-indexed windows are at block row t, column block 0; the weight and the
    bias at block (0, 0). -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

set_option maxHeartbeats 4000000 in
/-- Window 0's block at point t is rows 5000·t … of the edge attributes. -/
theorem blk4_0_apply (c : Dev nD) (t : Fin cfg4.N) (x : S5000x16.Idx) (k : S1250000x16.Idx)
    (hk0 : (k 0).val = t.val * 5000 + (x 0).val) (hk1 : (k 1).val = (x 1).val) :
    (blk4 V c 0 t : Vec Ideal S5000x16 .f32) x = (V c (Pipeline.arrRef spec4 0) : S1250000x16.Idx → EReal) k := by
  obtain ⟨e00, e01, -⟩ := idx_facts4 t
  unfold blk4
  rw [View.read_apply]
  show V c (Pipeline.arrRef spec4 0) _ = V c (Pipeline.arrRef spec4 0) _
  congr 1
  funext a
  apply Fin.ext
  match a with
  | ⟨0, _⟩ => show win4_0.index t 0 * 5000 + 1 * (x 0).val = (k 0).val; rw [e00, hk0]; omega
  | ⟨1, _⟩ => show win4_0.index t 1 * 16 + 1 * (x 1).val = (k 1).val; rw [e01, hk1]; omega

set_option maxHeartbeats 4000000 in
/-- Window 1's block at point t is rows 5000·t … of the gathered node features. -/
theorem blk4_1_apply (c : Dev nD) (t : Fin cfg4.N) (x : S5000x64.Idx) (k : S1250000x64.Idx)
    (hk0 : (k 0).val = t.val * 5000 + (x 0).val) (hk1 : (k 1).val = (x 1).val) :
    (blk4 V c 1 t : Vec Ideal S5000x64 .f32) x = (V c (Pipeline.arrRef spec4 1) : S1250000x64.Idx → EReal) k := by
  obtain ⟨-, -, e10, e11, -⟩ := idx_facts4 t
  unfold blk4
  rw [View.read_apply]
  show V c (Pipeline.arrRef spec4 1) _ = V c (Pipeline.arrRef spec4 1) _
  congr 1
  funext a
  apply Fin.ext
  match a with
  | ⟨0, _⟩ => show win4_1.index t 0 * 5000 + 1 * (x 0).val = (k 0).val; rw [e10, hk0]; omega
  | ⟨1, _⟩ => show win4_1.index t 1 * 64 + 1 * (x 1).val = (k 1).val; rw [e11, hk1]; omega

set_option maxHeartbeats 4000000 in
/-- Window 2's block at point t is rows 5000·t … of the edge norms. -/
theorem blk4_2_apply (c : Dev nD) (t : Fin cfg4.N) (x : S5000x1.Idx) (k : S1250000x1.Idx)
    (hk0 : (k 0).val = t.val * 5000 + (x 0).val) (hk1 : (k 1).val = (x 1).val) :
    (blk4 V c 2 t : Vec Ideal S5000x1 .f32) x = (V c (Pipeline.arrRef spec4 2) : S1250000x1.Idx → EReal) k := by
  obtain ⟨-, -, -, -, e20, e21, -⟩ := idx_facts4 t
  unfold blk4
  rw [View.read_apply]
  show V c (Pipeline.arrRef spec4 2) _ = V c (Pipeline.arrRef spec4 2) _
  congr 1
  funext a
  apply Fin.ext
  match a with
  | ⟨0, _⟩ => show win4_2.index t 0 * 5000 + 1 * (x 0).val = (k 0).val; rw [e20, hk0]; omega
  | ⟨1, _⟩ => show win4_2.index t 1 * 1 + 1 * (x 1).val = (k 1).val; rw [e21, hk1]; omega

set_option maxHeartbeats 4000000 in
/-- Window 3's block at every point is the whole weight. -/
theorem blk4_3_apply (c : Dev nD) (t : Fin cfg4.N) (x : S16x64.Idx) :
    (blk4 V c 3 t : Vec Ideal S16x64 .f32) x = (V c (Pipeline.arrRef spec4 3) : S16x64.Idx → EReal) x := by
  obtain ⟨-, -, -, -, -, -, e30, e31, -⟩ := idx_facts4 t
  unfold blk4
  rw [View.read_apply]
  show V c (Pipeline.arrRef spec4 3) _ = V c (Pipeline.arrRef spec4 3) _
  congr 1
  funext a
  apply Fin.ext
  match a with
  | ⟨0, _⟩ => show win4_3.index t 0 * 16 + 1 * (x 0).val = (x 0).val; rw [e30]; omega
  | ⟨1, _⟩ => show win4_3.index t 1 * 64 + 1 * (x 1).val = (x 1).val; rw [e31]; omega

set_option maxHeartbeats 4000000 in
/-- Window 4's block at every point is the whole bias. -/
theorem blk4_4_apply (c : Dev nD) (t : Fin cfg4.N) (x : S1x64.Idx) :
    (blk4 V c 4 t : Vec Ideal S1x64 .f32) x = (V c (Pipeline.arrRef spec4 4) : S1x64.Idx → EReal) x := by
  obtain ⟨-, -, -, -, -, -, -, -, e40, e41, -⟩ := idx_facts4 t
  unfold blk4
  rw [View.read_apply]
  show V c (Pipeline.arrRef spec4 4) _ = V c (Pipeline.arrRef spec4 4) _
  congr 1
  funext a
  apply Fin.ext
  match a with
  | ⟨0, _⟩ => show win4_4.index t 0 * 1 + 1 * (x 0).val = (x 0).val; rw [e40]; omega
  | ⟨1, _⟩ => show win4_4.index t 1 * 64 + 1 * (x 1).val = (x 1).val; rw [e41]; omega

set_option maxHeartbeats 4000000 in
/-- What point t writes back is block t of the edge messages of the arrays as the region finds them. -/
theorem flushed4_5_eq (c : Dev nD) (t : Fin cfg4.N) :
    (dat4 (F := Ideal) V c).flushed 5 t = ((cfg4.win 5).blk t).view.read (Elt Ideal)
      (msgVal (V c (Pipeline.arrRef spec4 0)) (V c (Pipeline.arrRef spec4 1)) (V c (Pipeline.arrRef spec4 2))
        (V c (Pipeline.arrRef spec4 3)) (V c (Pipeline.arrRef spec4 4))) := by
  show (cfg4.win 5).cut (grid4.coords t) ((dat4 V c).after 5 t) = _
  rw [after4_5]
  unfold res4_5
  rw [View.canon_unit_zero zeros4]
  simp only [View.ld_unit_zero (S := S5000x16) zeros4, View.ld_unit_zero (S := S5000x64) zeros4,
    View.ld_unit_zero (S := S5000x1) zeros4, View.ld_unit_zero (S := S16x64) zeros4, View.ld_unit_zero (S := S1x64) zeros4]
  obtain ⟨-, -, -, -, -, -, -, -, -, -, e50, e51⟩ := idx_facts4 t
  have hN : t.val < 250 := lt_of_lt_of_eq t.isLt (show cfg4.N = 250 from N_4)
  funext j
  have hj0 : (j 0).val < 5000 := (j 0).isLt
  have hj1 : (j 1).val < 64 := (j 1).isLt
  have hy : (cfg4.win 5).xinj (grid4.coords t) j = ix2 (⟨(j 0).val, hj0⟩ : Fin 5000) (⟨(j 1).val, hj1⟩ : Fin 64) :=
    funext fun a => Fin.ext (by match a with | ⟨0, _⟩ => rfl | ⟨1, _⟩ => rfl)
  have hi : ((cfg4.win 5).blk t).view.emb j
      = ix2 (⟨t.val * 5000 + (j 0).val, by omega⟩ : Fin 1250000) (⟨(j 1).val, hj1⟩ : Fin 64) :=
    funext fun a => Fin.ext (by
      match a with
      | ⟨0, _⟩ => show win4_5.index t 0 * 5000 + 1 * (j 0).val = t.val * 5000 + (j 0).val; rw [e50]; omega
      | ⟨1, _⟩ => show win4_5.index t 1 * 64 + 1 * (j 1).val = (j 1).val; rw [e51]; omega)
  show k4_pay1 (blk4 V c 0 t) (blk4 V c 3 t) (blk4 V c 4 t) (blk4 V c 2 t) (blk4 V c 1 t) ((cfg4.win 5).xinj (grid4.coords t) j)
    = msgVal (V c (Pipeline.arrRef spec4 0)) (V c (Pipeline.arrRef spec4 1)) (V c (Pipeline.arrRef spec4 2))
        (V c (Pipeline.arrRef spec4 3)) (V c (Pipeline.arrRef spec4 4)) (((cfg4.win 5).blk t).view.emb j)
  exact msg_point4 (blk4 V c 0 t) (blk4 V c 1 t) (blk4 V c 2 t) (blk4 V c 3 t) (blk4 V c 4 t)
    (V c (Pipeline.arrRef spec4 0)) (V c (Pipeline.arrRef spec4 1)) (V c (Pipeline.arrRef spec4 2))
    (V c (Pipeline.arrRef spec4 3)) (V c (Pipeline.arrRef spec4 4))
    _ _ ⟨(j 0).val, hj0⟩ ⟨(j 1).val, hj1⟩ ⟨t.val * 5000 + (j 0).val, by omega⟩ hy hi
    (fun k => blk4_0_apply V c t _ _ rfl rfl)
    (blk4_1_apply V c t _ _ rfl rfl)
    (blk4_2_apply V c t _ _ rfl rfl)
    (fun k => blk4_3_apply V c t _)
    (blk4_4_apply V c t _)

set_option maxHeartbeats 4000000 in
/-- An index of the output array is in point t's block iff each coordinate is in the block's range on its axis. -/
theorem mem_blk4_5 (t : Fin cfg4.N) (i : S1250000x64.Idx) :
    i ∈ ((cfg4.win 5).blk t).view.set ↔ ∀ a : Fin 2, win4_5.index t a * S5000x64.size a ≤ (i a).val ∧ (i a).val < win4_5.index t a * S5000x64.size a + S5000x64.size a := by
  show i ∈ ((View.whole main_v78).slice (win4_5.rect t)).set ↔ _
  rw [View.set_slice_whole, Rect.mem_set_unit]
  exact Iff.rfl

set_option maxHeartbeats 4000000 in
/-- Every row is in some point's block: row r is in block r / 5000. -/
theorem cover4_5 (i : S1250000x64.Idx) :
    ∃ t : Fin cfg4.N, (cfg4.win 5).flush t = true ∧ i ∈ ((cfg4.win 5).blk t).view.set := by
  have hi0 : (i 0).val < 1250000 := (i 0).isLt
  have hi1 : (i 1).val < 64 := (i 1).isLt
  have ht : (i 0).val / 5000 < cfg4.N := by rw [show cfg4.N = 250 from N_4]; omega
  obtain ⟨-, -, -, -, -, -, -, -, -, -, e50, e51⟩ := idx_facts4 ⟨(i 0).val / 5000, ht⟩
  refine ⟨⟨(i 0).val / 5000, ht⟩, flush4_5 _, ?_⟩
  rw [mem_blk4_5]
  intro a
  match a with
  | ⟨0, _⟩ =>
    show win4_5.index ⟨(i 0).val / 5000, ht⟩ 0 * 5000 ≤ (i 0).val ∧ (i 0).val < win4_5.index ⟨(i 0).val / 5000, ht⟩ 0 * 5000 + 5000
    rw [e50]; show (i 0).val / 5000 * 5000 ≤ (i 0).val ∧ (i 0).val < (i 0).val / 5000 * 5000 + 5000; omega
  | ⟨1, _⟩ =>
    show win4_5.index ⟨(i 0).val / 5000, ht⟩ 1 * 64 ≤ (i 1).val ∧ (i 1).val < win4_5.index ⟨(i 0).val / 5000, ht⟩ 1 * 64 + 64
    rw [e51]; omega

set_option maxHeartbeats 4000000 in
/-- THE OUTPUT ARRAY after the region: the edge messages of the arrays as the region finds them. -/
theorem arr4_5 (c : Dev nD) :
    (dat4 (F := Ideal) V c).arrAt 5 cfg4.N
      = msgVal (V c (Pipeline.arrRef spec4 0)) (V c (Pipeline.arrRef spec4 1)) (V c (Pipeline.arrRef spec4 2))
          (V c (Pipeline.arrRef spec4 3)) (V c (Pipeline.arrRef spec4 4)) :=
  (dat4 (F := Ideal) V c).arrAt_eq_of_cover 5 _ (fun t _ => flushed4_5_eq V c t) (cover4_5)

end Cert.KernelIdeal.HandVal

end
-- ==== Proof.KIGlue2.lean ====
/-
  Layer 2 of the kernel against the reference, stage by stage: each array the kernel's host glue or one of its three
  regions leaves is the reference's stage of the same arguments. The regions' arrays are read through their whole-array
  specifications; the gather and the accumulating scatter are the same operations on the same operands.
-/
import proofs.«161825_j7842610283390_1_alg».proof.Proof.KIGlue1
import proofs.«161825_j7842610283390_1_alg».proof.Proof.KICarry
import proofs.«161825_j7842610283390_1_alg».proof.Proof.KIValNode
import proofs.«161825_j7842610283390_1_alg».proof.Proof.KIValMsg4
import proofs.«161825_j7842610283390_1_alg».proof.Proof.KIValFin
import proofs.«161825_j7842610283390_1_alg».proof.Proof.RefMatch
import Idealize.ShloMosaic.Lib.Pipeline.Value
import Idealize.ShloMosaic.Lib.ValueIdx

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx
open Cert.ReferenceIdeal.Read Cert.RefFacts

variable (m : (ℓ : Loc nD τ sig) → Buf (Elt Ideal) ℓ) (c : Dev nD)

set_option quotPrecheck false

local notation "A0" => m ((c.tc : Thread nD τ).loc main_arg0)
local notation "A1" => m ((c.tc : Thread nD τ).loc main_arg1)
local notation "A2" => m ((c.tc : Thread nD τ).loc main_arg2)
local notation "A3" => m ((c.tc : Thread nD τ).loc main_arg3)
local notation "A4" => m ((c.tc : Thread nD τ).loc main_arg4)
local notation "A5" => m ((c.tc : Thread nD τ).loc main_arg5)
local notation "A6" => m ((c.tc : Thread nD τ).loc main_arg6)
local notation "A7" => m ((c.tc : Thread nD τ).loc main_arg7)

/-! ### The parameters of layer 2, as the kernel's host glue leaves them -/

/-- The node weights of layer 2. -/
theorem g2_W : W7 m c (Proc.devRef .tc main_v58) = val_main_v70 (F := Ideal) A3 := by
  show StableHlo.after hostOps3 (W6 m c) (Proc.devRef .tc main_v58) = _
  after_results_simp
  rw [carry_main_arg3_0_6 m c]
  rfl

/-- The node bias of layer 2, as a row: a reshape there and back. -/
theorem g2_b : W7 m c (Proc.devRef .tc main_v63) = val_main_v72 (F := Ideal) A4 := by
  show StableHlo.after hostOps3 (W6 m c) (Proc.devRef .tc main_v63) = _
  after_results_simp
  rw [carry_main_arg4_0_6 m c]
  exact shapeCast_shapeCast _ _ _

/-- The root embedding of layer 2, as a row. -/
theorem g2_r : W7 m c (Proc.devRef .tc main_v64) = val_main_v99 (F := Ideal) A5 := by
  show StableHlo.after hostOps3 (W6 m c) (Proc.devRef .tc main_v64) = _
  after_results_simp
  rw [carry_main_arg5_0_6 m c]
  exact shapeCast_shapeCast _ _ _

/-! ### The node region of layer 2 -/

set_option maxHeartbeats 1000000 in
/-- The node linear map of layer 2. -/
theorem g2_h : W8 m c (Proc.devRef .tc main_v65_0) = val_main_v76 (F := Ideal) A0 A1 A2 A3 A4 A5 A6 A7 :=
  ((W8_arr m c 5).trans (arr3_5 (VW7 m) c)).trans
    (h2_whole A0 A1 A2 A3 A4 A5 A6 A7 _ _ _ ((carry_main_v56_6_7 m c).trans (glue_x1 m c)) (g2_W m c) (g2_b m c))

set_option maxHeartbeats 1000000 in
/-- The root branch of layer 2: the kernel multiplies by the reciprocal of the degree plus one, the reference divides
    by it. -/
theorem g2_root : W8 m c (Proc.devRef .tc main_v65_1) = val_main_v107 (F := Ideal) A0 A1 A2 A3 A4 A5 A6 A7 :=
  ((W8_arr m c 6).trans (arr3_6 (VW7 m) c)).trans
    (root2_whole A0 A1 A2 A3 A4 A5 A6 A7 _ _ _ _ _ ((carry_main_v56_6_7 m c).trans (glue_x1 m c)) (g2_W m c) (g2_b m c) (g2_r m c)
      (fun p => (congrFun (carry_main_v14_1_7 m c) (ix2 p (0 : Fin 1))).trans (g0_inv_at m c p)))

/-! ### The message region of layer 2 -/

/-- The gathered node features: the same gather, at the same start indices, of the same array. -/
theorem g2_hrow : W9 m c (Proc.devRef .tc main_v72) = val_main_v91 (F := Ideal) A0 A1 A2 A3 A4 A5 A6 A7 := by
  show StableHlo.after hostOps4 (W8 m c) (Proc.devRef .tc main_v72) = _
  after_results_simp
  rw [g2_h m c, carry_main_v1_1_8 m c, g0_row m c]
  rfl

/-- The edge weights of layer 2. -/
theorem g2_We : W9 m c (Proc.devRef .tc main_v74) = val_main_v78 (F := Ideal) A6 := by
  show StableHlo.after hostOps4 (W8 m c) (Proc.devRef .tc main_v74) = _
  after_results_simp
  rw [carry_main_arg6_0_8 m c]
  rfl

/-- The edge bias of layer 2, as a row. -/
theorem g2_be : W9 m c (Proc.devRef .tc main_v77) = val_main_v80 (F := Ideal) A7 := by
  show StableHlo.after hostOps4 (W8 m c) (Proc.devRef .tc main_v77) = _
  after_results_simp
  rw [carry_main_arg7_0_8 m c]
  exact shapeCast_shapeCast _ _ _

set_option maxHeartbeats 1000000 in
/-- The messages of layer 2. -/
theorem g2_msg : W10 m c (Proc.devRef .tc main_v78) = val_main_v95 (F := Ideal) A0 A1 A2 A3 A4 A5 A6 A7 :=
  ((W10_arr m c 5).trans (arr4_5 (VW9 m) c)).trans
    (msg2_whole A0 A1 A2 A3 A4 A5 A6 A7 _ _ _ _ _ (carry_main_arg2_0_9 m c) (g2_hrow m c)
      (fun e => (congrFun (carry_main_v30_1_9 m c) (ix2 e (0 : Fin 1))).trans (g0_nrm_at m c e))
      (g2_We m c) (g2_be m c))

/-! ### The accumulation and the closing region of layer 2 -/

/-- The accumulated messages: the same accumulating scatter, at the same indices, of the same updates. -/
theorem g2_aggr : W11 m c (Proc.devRef .tc main_v81) = val_main_v98 (F := Ideal) A0 A1 A2 A3 A4 A5 A6 A7 := by
  show StableHlo.after hostOps5 (W10 m c) (Proc.devRef .tc main_v81) = _
  after_results_simp
  rw [g2_msg m c, carry_main_v3_1_10 m c, g0_col m c]
  rfl

set_option maxHeartbeats 1000000 in
/-- The node features after layer 2. -/
theorem glue_x2 : W12 m c (Proc.devRef .tc main_v82) = val_main_v109 (F := Ideal) A0 A1 A2 A3 A4 A5 A6 A7 :=
  ((W12_arr m c 2).trans (arr5_2 (VW11 m) c)).trans
    (feat2_whole A0 A1 A2 A3 A4 A5 A6 A7 _ _ (g2_aggr m c)
      ((carry_main_v65_1_8_11 m c).trans (g2_root m c)))

end Cert.KernelIdeal.HandVal

end
-- ==== Proof.KIValMsg7.lean ====
/-
  Region 7 of the program, the edge messages of layer 3: what the output array holds after the region, entry by entry.
  Block t of every edge-indexed window is rows 5000·t … 5000·t + 4999 (all columns); the weight and the bias are one block.
  So what point t writes back is block t of the edge messages of the arrays as the region finds them, and the 250 blocks
  tile the 1250000 rows: the array ends holding the edge messages.
-/
import proofs.«161825_j7842610283390_1_alg».proof.Proof.KIReg7
import proofs.«161825_j7842610283390_1_alg».proof.Proof.KIValMsgPay
import Idealize.ShloMosaic.Lib.Pipeline.Value

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zeros7 : (![0, 0] : Fin 2 → Nat) = fun _ => 0 := funext fun a => by fin_cases a <;> rfl

/-- The block indices over the grid: the edge-indexed windows are at block row t, column block 0; the weight and the
    bias at block (0, 0). -/
theorem idx_facts7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

set_option maxHeartbeats 4000000 in
/-- Window 0's block at point t is rows 5000·t … of the edge attributes. -/
theorem blk7_0_apply (c : Dev nD) (t : Fin cfg7.N) (x : S5000x16.Idx) (k : S1250000x16.Idx)
    (hk0 : (k 0).val = t.val * 5000 + (x 0).val) (hk1 : (k 1).val = (x 1).val) :
    (blk7 V c 0 t : Vec Ideal S5000x16 .f32) x = (V c (Pipeline.arrRef spec7 0) : S1250000x16.Idx → EReal) k := by
  obtain ⟨e00, e01, -⟩ := idx_facts7 t
  unfold blk7
  rw [View.read_apply]
  show V c (Pipeline.arrRef spec7 0) _ = V c (Pipeline.arrRef spec7 0) _
  congr 1
  funext a
  apply Fin.ext
  match a with
  | ⟨0, _⟩ => show win7_0.index t 0 * 5000 + 1 * (x 0).val = (k 0).val; rw [e00, hk0]; omega
  | ⟨1, _⟩ => show win7_0.index t 1 * 16 + 1 * (x 1).val = (k 1).val; rw [e01, hk1]; omega

set_option maxHeartbeats 4000000 in
/-- Window 1's block at point t is rows 5000·t … of the gathered node features. -/
theorem blk7_1_apply (c : Dev nD) (t : Fin cfg7.N) (x : S5000x64.Idx) (k : S1250000x64.Idx)
    (hk0 : (k 0).val = t.val * 5000 + (x 0).val) (hk1 : (k 1).val = (x 1).val) :
    (blk7 V c 1 t : Vec Ideal S5000x64 .f32) x = (V c (Pipeline.arrRef spec7 1) : S1250000x64.Idx → EReal) k := by
  obtain ⟨-, -, e10, e11, -⟩ := idx_facts7 t
  unfold blk7
  rw [View.read_apply]
  show V c (Pipeline.arrRef spec7 1) _ = V c (Pipeline.arrRef spec7 1) _
  congr 1
  funext a
  apply Fin.ext
  match a with
  | ⟨0, _⟩ => show win7_1.index t 0 * 5000 + 1 * (x 0).val = (k 0).val; rw [e10, hk0]; omega
  | ⟨1, _⟩ => show win7_1.index t 1 * 64 + 1 * (x 1).val = (k 1).val; rw [e11, hk1]; omega

set_option maxHeartbeats 4000000 in
/-- Window 2's block at point t is rows 5000·t … of the edge norms. -/
theorem blk7_2_apply (c : Dev nD) (t : Fin cfg7.N) (x : S5000x1.Idx) (k : S1250000x1.Idx)
    (hk0 : (k 0).val = t.val * 5000 + (x 0).val) (hk1 : (k 1).val = (x 1).val) :
    (blk7 V c 2 t : Vec Ideal S5000x1 .f32) x = (V c (Pipeline.arrRef spec7 2) : S1250000x1.Idx → EReal) k := by
  obtain ⟨-, -, -, -, e20, e21, -⟩ := idx_facts7 t
  unfold blk7
  rw [View.read_apply]
  show V c (Pipeline.arrRef spec7 2) _ = V c (Pipeline.arrRef spec7 2) _
  congr 1
  funext a
  apply Fin.ext
  match a with
  | ⟨0, _⟩ => show win7_2.index t 0 * 5000 + 1 * (x 0).val = (k 0).val; rw [e20, hk0]; omega
  | ⟨1, _⟩ => show win7_2.index t 1 * 1 + 1 * (x 1).val = (k 1).val; rw [e21, hk1]; omega

set_option maxHeartbeats 4000000 in
/-- Window 3's block at every point is the whole weight. -/
theorem blk7_3_apply (c : Dev nD) (t : Fin cfg7.N) (x : S16x64.Idx) :
    (blk7 V c 3 t : Vec Ideal S16x64 .f32) x = (V c (Pipeline.arrRef spec7 3) : S16x64.Idx → EReal) x := by
  obtain ⟨-, -, -, -, -, -, e30, e31, -⟩ := idx_facts7 t
  unfold blk7
  rw [View.read_apply]
  show V c (Pipeline.arrRef spec7 3) _ = V c (Pipeline.arrRef spec7 3) _
  congr 1
  funext a
  apply Fin.ext
  match a with
  | ⟨0, _⟩ => show win7_3.index t 0 * 16 + 1 * (x 0).val = (x 0).val; rw [e30]; omega
  | ⟨1, _⟩ => show win7_3.index t 1 * 64 + 1 * (x 1).val = (x 1).val; rw [e31]; omega

set_option maxHeartbeats 4000000 in
/-- Window 4's block at every point is the whole bias. -/
theorem blk7_4_apply (c : Dev nD) (t : Fin cfg7.N) (x : S1x64.Idx) :
    (blk7 V c 4 t : Vec Ideal S1x64 .f32) x = (V c (Pipeline.arrRef spec7 4) : S1x64.Idx → EReal) x := by
  obtain ⟨-, -, -, -, -, -, -, -, e40, e41, -⟩ := idx_facts7 t
  unfold blk7
  rw [View.read_apply]
  show V c (Pipeline.arrRef spec7 4) _ = V c (Pipeline.arrRef spec7 4) _
  congr 1
  funext a
  apply Fin.ext
  match a with
  | ⟨0, _⟩ => show win7_4.index t 0 * 1 + 1 * (x 0).val = (x 0).val; rw [e40]; omega
  | ⟨1, _⟩ => show win7_4.index t 1 * 64 + 1 * (x 1).val = (x 1).val; rw [e41]; omega

set_option maxHeartbeats 4000000 in
/-- What point t writes back is block t of the edge messages of the arrays as the region finds them. -/
theorem flushed7_5_eq (c : Dev nD) (t : Fin cfg7.N) :
    (dat7 (F := Ideal) V c).flushed 5 t = ((cfg7.win 5).blk t).view.read (Elt Ideal)
      (msgVal (V c (Pipeline.arrRef spec7 0)) (V c (Pipeline.arrRef spec7 1)) (V c (Pipeline.arrRef spec7 2))
        (V c (Pipeline.arrRef spec7 3)) (V c (Pipeline.arrRef spec7 4))) := by
  show (cfg7.win 5).cut (grid7.coords t) ((dat7 V c).after 5 t) = _
  rw [after7_5]
  unfold res7_5
  rw [View.canon_unit_zero zeros7]
  simp only [View.ld_unit_zero (S := S5000x16) zeros7, View.ld_unit_zero (S := S5000x64) zeros7,
    View.ld_unit_zero (S := S5000x1) zeros7, View.ld_unit_zero (S := S16x64) zeros7, View.ld_unit_zero (S := S1x64) zeros7]
  obtain ⟨-, -, -, -, -, -, -, -, -, -, e50, e51⟩ := idx_facts7 t
  have hN : t.val < 250 := lt_of_lt_of_eq t.isLt (show cfg7.N = 250 from N_7)
  funext j
  have hj0 : (j 0).val < 5000 := (j 0).isLt
  have hj1 : (j 1).val < 64 := (j 1).isLt
  have hy : (cfg7.win 5).xinj (grid7.coords t) j = ix2 (⟨(j 0).val, hj0⟩ : Fin 5000) (⟨(j 1).val, hj1⟩ : Fin 64) :=
    funext fun a => Fin.ext (by match a with | ⟨0, _⟩ => rfl | ⟨1, _⟩ => rfl)
  have hi : ((cfg7.win 5).blk t).view.emb j
      = ix2 (⟨t.val * 5000 + (j 0).val, by omega⟩ : Fin 1250000) (⟨(j 1).val, hj1⟩ : Fin 64) :=
    funext fun a => Fin.ext (by
      match a with
      | ⟨0, _⟩ => show win7_5.index t 0 * 5000 + 1 * (j 0).val = t.val * 5000 + (j 0).val; rw [e50]; omega
      | ⟨1, _⟩ => show win7_5.index t 1 * 64 + 1 * (j 1).val = (j 1).val; rw [e51]; omega)
  show k7_pay1 (blk7 V c 0 t) (blk7 V c 3 t) (blk7 V c 4 t) (blk7 V c 2 t) (blk7 V c 1 t) ((cfg7.win 5).xinj (grid7.coords t) j)
    = msgVal (V c (Pipeline.arrRef spec7 0)) (V c (Pipeline.arrRef spec7 1)) (V c (Pipeline.arrRef spec7 2))
        (V c (Pipeline.arrRef spec7 3)) (V c (Pipeline.arrRef spec7 4)) (((cfg7.win 5).blk t).view.emb j)
  exact msg_point7 (blk7 V c 0 t) (blk7 V c 1 t) (blk7 V c 2 t) (blk7 V c 3 t) (blk7 V c 4 t)
    (V c (Pipeline.arrRef spec7 0)) (V c (Pipeline.arrRef spec7 1)) (V c (Pipeline.arrRef spec7 2))
    (V c (Pipeline.arrRef spec7 3)) (V c (Pipeline.arrRef spec7 4))
    _ _ ⟨(j 0).val, hj0⟩ ⟨(j 1).val, hj1⟩ ⟨t.val * 5000 + (j 0).val, by omega⟩ hy hi
    (fun k => blk7_0_apply V c t _ _ rfl rfl)
    (blk7_1_apply V c t _ _ rfl rfl)
    (blk7_2_apply V c t _ _ rfl rfl)
    (fun k => blk7_3_apply V c t _)
    (blk7_4_apply V c t _)

set_option maxHeartbeats 4000000 in
/-- An index of the output array is in point t's block iff each coordinate is in the block's range on its axis. -/
theorem mem_blk7_5 (t : Fin cfg7.N) (i : S1250000x64.Idx) :
    i ∈ ((cfg7.win 5).blk t).view.set ↔ ∀ a : Fin 2, win7_5.index t a * S5000x64.size a ≤ (i a).val ∧ (i a).val < win7_5.index t a * S5000x64.size a + S5000x64.size a := by
  show i ∈ ((View.whole main_v104).slice (win7_5.rect t)).set ↔ _
  rw [View.set_slice_whole, Rect.mem_set_unit]
  exact Iff.rfl

set_option maxHeartbeats 4000000 in
/-- Every row is in some point's block: row r is in block r / 5000. -/
theorem cover7_5 (i : S1250000x64.Idx) :
    ∃ t : Fin cfg7.N, (cfg7.win 5).flush t = true ∧ i ∈ ((cfg7.win 5).blk t).view.set := by
  have hi0 : (i 0).val < 1250000 := (i 0).isLt
  have hi1 : (i 1).val < 64 := (i 1).isLt
  have ht : (i 0).val / 5000 < cfg7.N := by rw [show cfg7.N = 250 from N_7]; omega
  obtain ⟨-, -, -, -, -, -, -, -, -, -, e50, e51⟩ := idx_facts7 ⟨(i 0).val / 5000, ht⟩
  refine ⟨⟨(i 0).val / 5000, ht⟩, flush7_5 _, ?_⟩
  rw [mem_blk7_5]
  intro a
  match a with
  | ⟨0, _⟩ =>
    show win7_5.index ⟨(i 0).val / 5000, ht⟩ 0 * 5000 ≤ (i 0).val ∧ (i 0).val < win7_5.index ⟨(i 0).val / 5000, ht⟩ 0 * 5000 + 5000
    rw [e50]; show (i 0).val / 5000 * 5000 ≤ (i 0).val ∧ (i 0).val < (i 0).val / 5000 * 5000 + 5000; omega
  | ⟨1, _⟩ =>
    show win7_5.index ⟨(i 0).val / 5000, ht⟩ 1 * 64 ≤ (i 1).val ∧ (i 1).val < win7_5.index ⟨(i 0).val / 5000, ht⟩ 1 * 64 + 64
    rw [e51]; omega

set_option maxHeartbeats 4000000 in
/-- THE OUTPUT ARRAY after the region: the edge messages of the arrays as the region finds them. -/
theorem arr7_5 (c : Dev nD) :
    (dat7 (F := Ideal) V c).arrAt 5 cfg7.N
      = msgVal (V c (Pipeline.arrRef spec7 0)) (V c (Pipeline.arrRef spec7 1)) (V c (Pipeline.arrRef spec7 2))
          (V c (Pipeline.arrRef spec7 3)) (V c (Pipeline.arrRef spec7 4)) :=
  (dat7 (F := Ideal) V c).arrAt_eq_of_cover 5 _ (fun t _ => flushed7_5_eq V c t) (cover7_5)

end Cert.KernelIdeal.HandVal

end
-- ==== Proof.KIGlue3.lean ====
/-
  Layer 3 of the kernel against the reference, stage by stage: each array the kernel's host glue or one of its three
  regions leaves is the reference's stage of the same arguments. The regions' arrays are read through their whole-array
  specifications; the gather and the accumulating scatter are the same operations on the same operands.
-/
import proofs.«161825_j7842610283390_1_alg».proof.Proof.KIGlue2
import proofs.«161825_j7842610283390_1_alg».proof.Proof.KICarry
import proofs.«161825_j7842610283390_1_alg».proof.Proof.KIValNode
import proofs.«161825_j7842610283390_1_alg».proof.Proof.KIValMsg7
import proofs.«161825_j7842610283390_1_alg».proof.Proof.KIValFin
import proofs.«161825_j7842610283390_1_alg».proof.Proof.RefMatch
import Idealize.ShloMosaic.Lib.Pipeline.Value
import Idealize.ShloMosaic.Lib.ValueIdx

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx
open Cert.ReferenceIdeal.Read Cert.RefFacts

variable (m : (ℓ : Loc nD τ sig) → Buf (Elt Ideal) ℓ) (c : Dev nD)

set_option quotPrecheck false

local notation "A0" => m ((c.tc : Thread nD τ).loc main_arg0)
local notation "A1" => m ((c.tc : Thread nD τ).loc main_arg1)
local notation "A2" => m ((c.tc : Thread nD τ).loc main_arg2)
local notation "A3" => m ((c.tc : Thread nD τ).loc main_arg3)
local notation "A4" => m ((c.tc : Thread nD τ).loc main_arg4)
local notation "A5" => m ((c.tc : Thread nD τ).loc main_arg5)
local notation "A6" => m ((c.tc : Thread nD τ).loc main_arg6)
local notation "A7" => m ((c.tc : Thread nD τ).loc main_arg7)

/-! ### The parameters of layer 3, as the kernel's host glue leaves them -/

/-- The node weights of layer 3. -/
theorem g3_W : W13 m c (Proc.devRef .tc main_v84) = val_main_v111 (F := Ideal) A3 := by
  show StableHlo.after hostOps6 (W12 m c) (Proc.devRef .tc main_v84) = _
  after_results_simp
  rw [carry_main_arg3_0_12 m c]
  rfl

/-- The node bias of layer 3, as a row: a reshape there and back. -/
theorem g3_b : W13 m c (Proc.devRef .tc main_v89) = val_main_v113 (F := Ideal) A4 := by
  show StableHlo.after hostOps6 (W12 m c) (Proc.devRef .tc main_v89) = _
  after_results_simp
  rw [carry_main_arg4_0_12 m c]
  exact shapeCast_shapeCast _ _ _

/-- The root embedding of layer 3, as a row. -/
theorem g3_r : W13 m c (Proc.devRef .tc main_v90) = val_main_v140 (F := Ideal) A5 := by
  show StableHlo.after hostOps6 (W12 m c) (Proc.devRef .tc main_v90) = _
  after_results_simp
  rw [carry_main_arg5_0_12 m c]
  exact shapeCast_shapeCast _ _ _

/-! ### The node region of layer 3 -/

set_option maxHeartbeats 1000000 in
/-- The node linear map of layer 3. -/
theorem g3_h : W14 m c (Proc.devRef .tc main_v91_0) = val_main_v117 (F := Ideal) A0 A1 A2 A3 A4 A5 A6 A7 :=
  ((W14_arr m c 5).trans (arr6_5 (VW13 m) c)).trans
    (h3_whole A0 A1 A2 A3 A4 A5 A6 A7 _ _ _ ((carry_main_v82_12_13 m c).trans (glue_x2 m c)) (g3_W m c) (g3_b m c))

set_option maxHeartbeats 1000000 in
/-- The root branch of layer 3: the kernel multiplies by the reciprocal of the degree plus one, the reference divides
    by it. -/
theorem g3_root : W14 m c (Proc.devRef .tc main_v91_1) = val_main_v148 (F := Ideal) A0 A1 A2 A3 A4 A5 A6 A7 :=
  ((W14_arr m c 6).trans (arr6_6 (VW13 m) c)).trans
    (root3_whole A0 A1 A2 A3 A4 A5 A6 A7 _ _ _ _ _ ((carry_main_v82_12_13 m c).trans (glue_x2 m c)) (g3_W m c) (g3_b m c) (g3_r m c)
      (fun p => (congrFun (carry_main_v14_1_13 m c) (ix2 p (0 : Fin 1))).trans (g0_inv_at m c p)))

/-! ### The message region of layer 3 -/

/-- The gathered node features: the same gather, at the same start indices, of the same array. -/
theorem g3_hrow : W15 m c (Proc.devRef .tc main_v98) = val_main_v132 (F := Ideal) A0 A1 A2 A3 A4 A5 A6 A7 := by
  show StableHlo.after hostOps7 (W14 m c) (Proc.devRef .tc main_v98) = _
  after_results_simp
  rw [g3_h m c, carry_main_v1_1_14 m c, g0_row m c]
  rfl

/-- The edge weights of layer 3. -/
theorem g3_We : W15 m c (Proc.devRef .tc main_v100) = val_main_v119 (F := Ideal) A6 := by
  show StableHlo.after hostOps7 (W14 m c) (Proc.devRef .tc main_v100) = _
  after_results_simp
  rw [carry_main_arg6_0_14 m c]
  rfl

/-- The edge bias of layer 3, as a row. -/
theorem g3_be : W15 m c (Proc.devRef .tc main_v103) = val_main_v121 (F := Ideal) A7 := by
  show StableHlo.after hostOps7 (W14 m c) (Proc.devRef .tc main_v103) = _
  after_results_simp
  rw [carry_main_arg7_0_14 m c]
  exact shapeCast_shapeCast _ _ _

set_option maxHeartbeats 1000000 in
/-- The messages of layer 3. -/
theorem g3_msg : W16 m c (Proc.devRef .tc main_v104) = val_main_v136 (F := Ideal) A0 A1 A2 A3 A4 A5 A6 A7 :=
  ((W16_arr m c 5).trans (arr7_5 (VW15 m) c)).trans
    (msg3_whole A0 A1 A2 A3 A4 A5 A6 A7 _ _ _ _ _ (carry_main_arg2_0_15 m c) (g3_hrow m c)
      (fun e => (congrFun (carry_main_v30_1_15 m c) (ix2 e (0 : Fin 1))).trans (g0_nrm_at m c e))
      (g3_We m c) (g3_be m c))

/-! ### The accumulation and the closing region of layer 3 -/

/-- The accumulated messages: the same accumulating scatter, at the same indices, of the same updates. -/
theorem g3_aggr : W17 m c (Proc.devRef .tc main_v107) = val_main_v139 (F := Ideal) A0 A1 A2 A3 A4 A5 A6 A7 := by
  show StableHlo.after hostOps8 (W16 m c) (Proc.devRef .tc main_v107) = _
  after_results_simp
  rw [g3_msg m c, carry_main_v3_1_16 m c, g0_col m c]
  rfl

set_option maxHeartbeats 1000000 in
/-- The node features after layer 3. -/
theorem glue_x3 : W18 m c (Proc.devRef .tc main_v108) = val_main_v150 (F := Ideal) A0 A1 A2 A3 A4 A5 A6 A7 :=
  ((W18_arr m c 2).trans (arr8_2 (VW17 m) c)).trans
    (feat3_whole A0 A1 A2 A3 A4 A5 A6 A7 _ _ (g3_aggr m c)
      ((carry_main_v91_1_14_17 m c).trans (g3_root m c)))

end Cert.KernelIdeal.HandVal

end
-- ==== Proof.PreReal.lean ====
/-
  From the finiteness precondition to real-valued inputs.

  The precondition compares, for each float argument array, the absolute value of every element with plus infinity,
  takes the conjunction of all these comparisons over the whole array, and then the conjunction over the arrays.
  When the result is the bit one, every element of every float argument has its absolute value strictly below plus
  infinity, so it is neither infinity: it is a real number.
-/
import proofs.«161825_j7842610283390_1_alg».proof.Pre_finite_inputs
import proofs.«161825_j7842610283390_1_alg».proof.Proof.Gen.Pre_finite_inputs
import proofs.«161825_j7842610283390_1_alg».proof.Proof.RealOps
import Idealize.ShloMosaic.Lib.ReduceAll
import Idealize.ShloMosaic.Lib.ValueIdx
import Idealize.ShloMosaic.PureOps.Ideal

noncomputable section

namespace Cert.PreReal

open Idealize.ShloMosaic Cert.RealOps Cert.Pre_finite_inputs

/-- The f32 pattern whose exponent bits are all ones and whose fraction is zero is plus infinity. -/
theorem ofBits_inf : Ideal.ofBits .f32 0x7F800000#32 = (⊤ : EReal) := by
  simp [Ideal.ofBits, Ideal.ieee]

/-- An extended real whose absolute value (the larger of itself and its negation) is strictly below plus infinity
    is a real number: minus infinity has absolute value plus infinity, and so has plus infinity. -/
theorem isReal_of_abs_lt_top (x : EReal) (h : max x (-x) < (⊤ : EReal)) : IsReal x := by
  induction x using EReal.rec with
  | bot => exact absurd h (by simp)
  | coe r => exact ⟨r, rfl⟩
  | top => exact absurd h (by simp)

/-- A decided proposition whose truth bit is one holds. -/
theorem of_ofBool_decide {p : Prop} [Decidable p] (h : BitVec.ofBool (decide p) = 1#1) : p := by
  by_contra hp
  rw [decide_eq_false hp] at h
  exact absurd h (by decide)

/-- The scalar shape has one index. -/
instance subsingleton_S_ : Subsingleton S_.Idx := ⟨fun a b => funext fun d => d.elim0⟩

/-- One array's part of the precondition: if the conjunction over all elements of "the absolute value is strictly
    below plus infinity" is one, every element is a real number. -/
theorem all_finite {s : Shape} {axes : List (Fin s.rank)} (x : FVec Ideal s .f32)
    (hb : S_.BroadcastsInDim s (![] : Fin 0 → Fin s.rank)) (hr : s.ReducesTo axes S_) (h0 : 0 < S_.numel)
    (e : Host.reduce IntOp.andi
        (cmpf .olt (Host.absf x) (broadcastInDim s ![] hb (constant (F := Ideal) S_ .f32 0x7F800000#32)))
        (constantI S_ 1 1#1) hr h0 ValueIdx.ix0 = 1#1) :
    ∀ i, IsReal (x i) := by
  intro i
  have hi := Host.reduce_andi_all _ _ hr h0 ValueIdx.ix0 e i
  have hlt : max (x i) (-(x i)) < Ideal.ofBits .f32 0x7F800000#32 :=
    of_ofBool_decide (p := max (x i) (-(x i)) < Ideal.ofBits .f32 0x7F800000#32) hi
  rw [ofBits_inf] at hlt
  exact isReal_of_abs_lt_top _ hlt

/-- Under the finiteness precondition every element of every float argument is a real number (the second argument
    holds integer words and is not constrained). The precondition is the conjunction, array by array, of the
    all-elements comparison above. -/
theorem real_of_pre [Facts] (a0 : FVec Ideal S100000x64 .f32) (a1 : IVec S2x1250000 32) (a2 : FVec Ideal S1250000x16 .f32)
    (a3 : FVec Ideal S3x64x64 .f32) (a4 : FVec Ideal S3x64 .f32) (a5 : FVec Ideal S3x64 .f32) (a6 : FVec Ideal S3x16x64 .f32)
    (a7 : FVec Ideal S3x64 .f32) (a8 : FVec Ideal S256 .f32) (a9 : FVec Ideal S256 .f32) (a10 : FVec Ideal S256x64 .f32)
    (a11 : FVec Ideal S64 .f32)
    (h : fn (F := Ideal) a0 a1 a2 a3 a4 a5 a6 a7 a8 a9 a10 a11 = fun _ => 1#1) :
    (∀ i, IsReal (a0 i)) ∧ (∀ i, IsReal (a2 i)) ∧ (∀ i, IsReal (a3 i)) ∧ (∀ i, IsReal (a4 i)) ∧ (∀ i, IsReal (a5 i)) ∧ (∀ i, IsReal (a6 i)) ∧ (∀ i, IsReal (a7 i)) ∧ (∀ i, IsReal (a8 i)) ∧ (∀ i, IsReal (a9 i)) ∧ (∀ i, IsReal (a10 i)) ∧ (∀ i, IsReal (a11 i)) := by
  have h0 := congrFun h ValueIdx.ix0
  dsimp only [fn, fn_part1, fn_part2, fn_part3, andi] at h0
  simp only [IntOp.andi_eq_one] at h0
  obtain ⟨⟨⟨⟨⟨⟨⟨⟨⟨⟨e0, e2⟩, e3⟩, e4⟩, e5⟩, e6⟩, e7⟩, e8⟩, e9⟩, e10⟩, e11⟩ := h0
  exact ⟨all_finite a0 _ _ _ e0, all_finite a2 _ _ _ e2, all_finite a3 _ _ _ e3, all_finite a4 _ _ _ e4, all_finite a5 _ _ _ e5, all_finite a6 _ _ _ e6, all_finite a7 _ _ _ e7, all_finite a8 _ _ _ e8, all_finite a9 _ _ _ e9, all_finite a10 _ _ _ e10, all_finite a11 _ _ _ e11⟩

/-- Argument 0 is real-valued under the precondition. -/
theorem real_arg0 [Facts] (a0 : FVec Ideal S100000x64 .f32) (a1 : IVec S2x1250000 32) (a2 : FVec Ideal S1250000x16 .f32)
    (a3 : FVec Ideal S3x64x64 .f32) (a4 : FVec Ideal S3x64 .f32) (a5 : FVec Ideal S3x64 .f32) (a6 : FVec Ideal S3x16x64 .f32)
    (a7 : FVec Ideal S3x64 .f32) (a8 : FVec Ideal S256 .f32) (a9 : FVec Ideal S256 .f32) (a10 : FVec Ideal S256x64 .f32)
    (a11 : FVec Ideal S64 .f32)
    (h : fn (F := Ideal) a0 a1 a2 a3 a4 a5 a6 a7 a8 a9 a10 a11 = fun _ => 1#1) :
    ∀ i, IsReal (a0 i) :=
  (real_of_pre a0 a1 a2 a3 a4 a5 a6 a7 a8 a9 a10 a11 h).1

/-- Argument 2 is real-valued under the precondition. -/
theorem real_arg2 [Facts] (a0 : FVec Ideal S100000x64 .f32) (a1 : IVec S2x1250000 32) (a2 : FVec Ideal S1250000x16 .f32)
    (a3 : FVec Ideal S3x64x64 .f32) (a4 : FVec Ideal S3x64 .f32) (a5 : FVec Ideal S3x64 .f32) (a6 : FVec Ideal S3x16x64 .f32)
    (a7 : FVec Ideal S3x64 .f32) (a8 : FVec Ideal S256 .f32) (a9 : FVec Ideal S256 .f32) (a10 : FVec Ideal S256x64 .f32)
    (a11 : FVec Ideal S64 .f32)
    (h : fn (F := Ideal) a0 a1 a2 a3 a4 a5 a6 a7 a8 a9 a10 a11 = fun _ => 1#1) :
    ∀ i, IsReal (a2 i) :=
  (real_of_pre a0 a1 a2 a3 a4 a5 a6 a7 a8 a9 a10 a11 h).2.1

/-- Argument 3 is real-valued under the precondition. -/
theorem real_arg3 [Facts] (a0 : FVec Ideal S100000x64 .f32) (a1 : IVec S2x1250000 32) (a2 : FVec Ideal S1250000x16 .f32)
    (a3 : FVec Ideal S3x64x64 .f32) (a4 : FVec Ideal S3x64 .f32) (a5 : FVec Ideal S3x64 .f32) (a6 : FVec Ideal S3x16x64 .f32)
    (a7 : FVec Ideal S3x64 .f32) (a8 : FVec Ideal S256 .f32) (a9 : FVec Ideal S256 .f32) (a10 : FVec Ideal S256x64 .f32)
    (a11 : FVec Ideal S64 .f32)
    (h : fn (F := Ideal) a0 a1 a2 a3 a4 a5 a6 a7 a8 a9 a10 a11 = fun _ => 1#1) :
    ∀ i, IsReal (a3 i) :=
  (real_of_pre a0 a1 a2 a3 a4 a5 a6 a7 a8 a9 a10 a11 h).2.2.1

/-- Argument 4 is real-valued under the precondition. -/
theorem real_arg4 [Facts] (a0 : FVec Ideal S100000x64 .f32) (a1 : IVec S2x1250000 32) (a2 : FVec Ideal S1250000x16 .f32)
    (a3 : FVec Ideal S3x64x64 .f32) (a4 : FVec Ideal S3x64 .f32) (a5 : FVec Ideal S3x64 .f32) (a6 : FVec Ideal S3x16x64 .f32)
    (a7 : FVec Ideal S3x64 .f32) (a8 : FVec Ideal S256 .f32) (a9 : FVec Ideal S256 .f32) (a10 : FVec Ideal S256x64 .f32)
    (a11 : FVec Ideal S64 .f32)
    (h : fn (F := Ideal) a0 a1 a2 a3 a4 a5 a6 a7 a8 a9 a10 a11 = fun _ => 1#1) :
    ∀ i, IsReal (a4 i) :=
  (real_of_pre a0 a1 a2 a3 a4 a5 a6 a7 a8 a9 a10 a11 h).2.2.2.1

/-- Argument 5 is real-valued under the precondition. -/
theorem real_arg5 [Facts] (a0 : FVec Ideal S100000x64 .f32) (a1 : IVec S2x1250000 32) (a2 : FVec Ideal S1250000x16 .f32)
    (a3 : FVec Ideal S3x64x64 .f32) (a4 : FVec Ideal S3x64 .f32) (a5 : FVec Ideal S3x64 .f32) (a6 : FVec Ideal S3x16x64 .f32)
    (a7 : FVec Ideal S3x64 .f32) (a8 : FVec Ideal S256 .f32) (a9 : FVec Ideal S256 .f32) (a10 : FVec Ideal S256x64 .f32)
    (a11 : FVec Ideal S64 .f32)
    (h : fn (F := Ideal) a0 a1 a2 a3 a4 a5 a6 a7 a8 a9 a10 a11 = fun _ => 1#1) :
    ∀ i, IsReal (a5 i) :=
  (real_of_pre a0 a1 a2 a3 a4 a5 a6 a7 a8 a9 a10 a11 h).2.2.2.2.1

/-- Argument 6 is real-valued under the precondition. -/
theorem real_arg6 [Facts] (a0 : FVec Ideal S100000x64 .f32) (a1 : IVec S2x1250000 32) (a2 : FVec Ideal S1250000x16 .f32)
    (a3 : FVec Ideal S3x64x64 .f32) (a4 : FVec Ideal S3x64 .f32) (a5 : FVec Ideal S3x64 .f32) (a6 : FVec Ideal S3x16x64 .f32)
    (a7 : FVec Ideal S3x64 .f32) (a8 : FVec Ideal S256 .f32) (a9 : FVec Ideal S256 .f32) (a10 : FVec Ideal S256x64 .f32)
    (a11 : FVec Ideal S64 .f32)
    (h : fn (F := Ideal) a0 a1 a2 a3 a4 a5 a6 a7 a8 a9 a10 a11 = fun _ => 1#1) :
    ∀ i, IsReal (a6 i) :=
  (real_of_pre a0 a1 a2 a3 a4 a5 a6 a7 a8 a9 a10 a11 h).2.2.2.2.2.1

/-- Argument 7 is real-valued under the precondition. -/
theorem real_arg7 [Facts] (a0 : FVec Ideal S100000x64 .f32) (a1 : IVec S2x1250000 32) (a2 : FVec Ideal S1250000x16 .f32)
    (a3 : FVec Ideal S3x64x64 .f32) (a4 : FVec Ideal S3x64 .f32) (a5 : FVec Ideal S3x64 .f32) (a6 : FVec Ideal S3x16x64 .f32)
    (a7 : FVec Ideal S3x64 .f32) (a8 : FVec Ideal S256 .f32) (a9 : FVec Ideal S256 .f32) (a10 : FVec Ideal S256x64 .f32)
    (a11 : FVec Ideal S64 .f32)
    (h : fn (F := Ideal) a0 a1 a2 a3 a4 a5 a6 a7 a8 a9 a10 a11 = fun _ => 1#1) :
    ∀ i, IsReal (a7 i) :=
  (real_of_pre a0 a1 a2 a3 a4 a5 a6 a7 a8 a9 a10 a11 h).2.2.2.2.2.2.1

/-- Argument 8 is real-valued under the precondition. -/
theorem real_arg8 [Facts] (a0 : FVec Ideal S100000x64 .f32) (a1 : IVec S2x1250000 32) (a2 : FVec Ideal S1250000x16 .f32)
    (a3 : FVec Ideal S3x64x64 .f32) (a4 : FVec Ideal S3x64 .f32) (a5 : FVec Ideal S3x64 .f32) (a6 : FVec Ideal S3x16x64 .f32)
    (a7 : FVec Ideal S3x64 .f32) (a8 : FVec Ideal S256 .f32) (a9 : FVec Ideal S256 .f32) (a10 : FVec Ideal S256x64 .f32)
    (a11 : FVec Ideal S64 .f32)
    (h : fn (F := Ideal) a0 a1 a2 a3 a4 a5 a6 a7 a8 a9 a10 a11 = fun _ => 1#1) :
    ∀ i, IsReal (a8 i) :=
  (real_of_pre a0 a1 a2 a3 a4 a5 a6 a7 a8 a9 a10 a11 h).2.2.2.2.2.2.2.1

/-- Argument 9 is real-valued under the precondition. -/
theorem real_arg9 [Facts] (a0 : FVec Ideal S100000x64 .f32) (a1 : IVec S2x1250000 32) (a2 : FVec Ideal S1250000x16 .f32)
    (a3 : FVec Ideal S3x64x64 .f32) (a4 : FVec Ideal S3x64 .f32) (a5 : FVec Ideal S3x64 .f32) (a6 : FVec Ideal S3x16x64 .f32)
    (a7 : FVec Ideal S3x64 .f32) (a8 : FVec Ideal S256 .f32) (a9 : FVec Ideal S256 .f32) (a10 : FVec Ideal S256x64 .f32)
    (a11 : FVec Ideal S64 .f32)
    (h : fn (F := Ideal) a0 a1 a2 a3 a4 a5 a6 a7 a8 a9 a10 a11 = fun _ => 1#1) :
    ∀ i, IsReal (a9 i) :=
  (real_of_pre a0 a1 a2 a3 a4 a5 a6 a7 a8 a9 a10 a11 h).2.2.2.2.2.2.2.2.1

/-- Argument 10 is real-valued under the precondition. -/
theorem real_arg10 [Facts] (a0 : FVec Ideal S100000x64 .f32) (a1 : IVec S2x1250000 32) (a2 : FVec Ideal S1250000x16 .f32)
    (a3 : FVec Ideal S3x64x64 .f32) (a4 : FVec Ideal S3x64 .f32) (a5 : FVec Ideal S3x64 .f32) (a6 : FVec Ideal S3x16x64 .f32)
    (a7 : FVec Ideal S3x64 .f32) (a8 : FVec Ideal S256 .f32) (a9 : FVec Ideal S256 .f32) (a10 : FVec Ideal S256x64 .f32)
    (a11 : FVec Ideal S64 .f32)
    (h : fn (F := Ideal) a0 a1 a2 a3 a4 a5 a6 a7 a8 a9 a10 a11 = fun _ => 1#1) :
    ∀ i, IsReal (a10 i) :=
  (real_of_pre a0 a1 a2 a3 a4 a5 a6 a7 a8 a9 a10 a11 h).2.2.2.2.2.2.2.2.2.1

/-- Argument 11 is real-valued under the precondition. -/
theorem real_arg11 [Facts] (a0 : FVec Ideal S100000x64 .f32) (a1 : IVec S2x1250000 32) (a2 : FVec Ideal S1250000x16 .f32)
    (a3 : FVec Ideal S3x64x64 .f32) (a4 : FVec Ideal S3x64 .f32) (a5 : FVec Ideal S3x64 .f32) (a6 : FVec Ideal S3x16x64 .f32)
    (a7 : FVec Ideal S3x64 .f32) (a8 : FVec Ideal S256 .f32) (a9 : FVec Ideal S256 .f32) (a10 : FVec Ideal S256x64 .f32)
    (a11 : FVec Ideal S64 .f32)
    (h : fn (F := Ideal) a0 a1 a2 a3 a4 a5 a6 a7 a8 a9 a10 a11 = fun _ => 1#1) :
    ∀ i, IsReal (a11 i) :=
  (real_of_pre a0 a1 a2 a3 a4 a5 a6 a7 a8 a9 a10 a11 h).2.2.2.2.2.2.2.2.2.2

end Cert.PreReal

end
-- ==== Proof.KITail.lean ====
import proofs.«161825_j7842610283390_1_alg».proof.Proof.KITail2
import proofs.«161825_j7842610283390_1_alg».proof.Proof.KIReg9v
import proofs.«161825_j7842610283390_1_alg».proof.Proof.KIValOut
import proofs.«161825_j7842610283390_1_alg».proof.Proof.KIGlue3
import proofs.«161825_j7842610283390_1_alg».proof.Proof.PreReal
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem

variable (m : (ℓ : Loc nD τ sig) → Buf (Elt Ideal) ℓ) (c : Dev nD)

open Cert.RealOps

set_option maxHeartbeats 4000000 in
/-- THE VALUE OF THE RESULT BUFFER. Under the precondition (every float input entry is finite, hence a real number) the kernel
    program's result buffer ends at the reference's last stage of the twelve argument arrays: the three layers' features are the
    reference's (buffer by buffer), so is their concatenation; the statistics region leaves the column sums and sums of squares of
    that; the last region stores the normalised, projected rows; and the tail identity joins the two spellings of the variance. -/
theorem final_value (hpre : Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) = fun _ => 1#1) :
    W22 m c (Proc.devRef .tc main_v120) = Cert.ReferenceIdeal.Read.val_main_v180 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  have h0 := Cert.PreReal.real_arg0 _ _ _ _ _ _ _ _ _ _ _ _ hpre
  have h2 := Cert.PreReal.real_arg2 _ _ _ _ _ _ _ _ _ _ _ _ hpre
  have h3 := Cert.PreReal.real_arg3 _ _ _ _ _ _ _ _ _ _ _ _ hpre
  have h4 := Cert.PreReal.real_arg4 _ _ _ _ _ _ _ _ _ _ _ _ hpre
  have h5 := Cert.PreReal.real_arg5 _ _ _ _ _ _ _ _ _ _ _ _ hpre
  have h6 := Cert.PreReal.real_arg6 _ _ _ _ _ _ _ _ _ _ _ _ hpre
  have h7 := Cert.PreReal.real_arg7 _ _ _ _ _ _ _ _ _ _ _ _ hpre
  have hxc : W19 m c (Proc.devRef .tc main_v109) = Cert.ReferenceIdeal.Read.val_main_v151 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
    rw [host9_xc, carry_main_arg0_0_18 m c, carry_main_v56_6_18 m c, carry_main_v82_12_18 m c, glue_x1 m c, glue_x2 m c, glue_x3 m c]
    rfl
  refine tail_value m c hxc (fun k => ?_) (fun k => ?_) (fun r d => ?_) (Cert.RefTail.xc_real (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) h0 h2 h3 h4 h5 h6 h7)
  · exact (congrFun (W20_arr m c 1) (ValueIdx.ix2 (0 : Fin 1) k)).trans (Cert.KernelIdeal.Hand.arrAt9_1_apply (VW19 m) c 0 k)
  · exact (congrFun (W20_arr m c 2) (ValueIdx.ix2 (0 : Fin 1) k)).trans (Cert.KernelIdeal.Hand.arrAt9_2_apply (VW19 m) c 0 k)
  · exact (congrFun ((W22_arr m c 7).trans (arr10_7 (VW21 m) c)) (ValueIdx.ix2 r d)).trans (outVal_apply _ _ _ _ _ _ _ r d)

end Cert.KernelIdeal.HandVal

end
-- ==== Proof.Algebraic.lean ====
/-
  The value conjunct: run from memories that agree on the arguments, the idealized kernel program and the idealized reference end with
  the same result array. The common value is the kernel run's last boundary's contents of the result buffer; the reference's run ends at
  its last stage of the arguments, and the two are the same array (the chain of buffer-by-buffer identities that ends in final_value).
-/
import proofs.«161825_j7842610283390_1_alg».proof.Defs
import proofs.«161825_j7842610283390_1_alg».proof.Proof.Gen.KernelIdeal
import proofs.«161825_j7842610283390_1_alg».proof.Proof.Gen.ReferenceIdeal
import proofs.«161825_j7842610283390_1_alg».proof.Proof.Gen.Pre_finite_inputs
import proofs.«161825_j7842610283390_1_alg».proof.Proof.KIRun
import proofs.«161825_j7842610283390_1_alg».proof.Proof.RefRun
import proofs.«161825_j7842610283390_1_alg».proof.Proof.KITail

set_option maxRecDepth 16384

noncomputable section

namespace Cert.Proof.Algebraic

open Idealize.ShloMosaic Idealize.ShloMosaic.TcCoe Idealize.SL.Sem

theorem algebraic : Cert.algebraic_KernelIdeal_ReferenceIdeal := by
  intro m ρ m' ρ' hpre hagree
  refine ⟨fun c => Cert.KernelIdeal.Hand.W22 m c (Proc.devRef .tc Cert.KernelIdeal.main_v120), ?_, ?_⟩
  · exact (θ_run Cert.KernelIdeal.defs _ _).mono (fun r h c =>
      ⟨h c _ (Cert.KernelIdeal.Hand.mem_uc Cert.KernelIdeal.main_v120 (by decide)),
       (h c _ (Cert.KernelIdeal.Hand.mem_uc Cert.KernelIdeal.main_arg0 (by decide))).trans (Cert.KernelIdeal.Hand.W22_main_arg0 m c),
       (h c _ (Cert.KernelIdeal.Hand.mem_uc Cert.KernelIdeal.main_arg1 (by decide))).trans (Cert.KernelIdeal.Hand.W22_main_arg1 m c),
       (h c _ (Cert.KernelIdeal.Hand.mem_uc Cert.KernelIdeal.main_arg2 (by decide))).trans (Cert.KernelIdeal.Hand.W22_main_arg2 m c),
       (h c _ (Cert.KernelIdeal.Hand.mem_uc Cert.KernelIdeal.main_arg3 (by decide))).trans (Cert.KernelIdeal.Hand.W22_main_arg3 m c),
       (h c _ (Cert.KernelIdeal.Hand.mem_uc Cert.KernelIdeal.main_arg4 (by decide))).trans (Cert.KernelIdeal.Hand.W22_main_arg4 m c),
       (h c _ (Cert.KernelIdeal.Hand.mem_uc Cert.KernelIdeal.main_arg5 (by decide))).trans (Cert.KernelIdeal.Hand.W22_main_arg5 m c),
       (h c _ (Cert.KernelIdeal.Hand.mem_uc Cert.KernelIdeal.main_arg6 (by decide))).trans (Cert.KernelIdeal.Hand.W22_main_arg6 m c),
       (h c _ (Cert.KernelIdeal.Hand.mem_uc Cert.KernelIdeal.main_arg7 (by decide))).trans (Cert.KernelIdeal.Hand.W22_main_arg7 m c),
       (h c _ (Cert.KernelIdeal.Hand.mem_uc Cert.KernelIdeal.main_arg8 (by decide))).trans (Cert.KernelIdeal.Hand.W22_main_arg8 m c),
       (h c _ (Cert.KernelIdeal.Hand.mem_uc Cert.KernelIdeal.main_arg9 (by decide))).trans (Cert.KernelIdeal.Hand.W22_main_arg9 m c),
       (h c _ (Cert.KernelIdeal.Hand.mem_uc Cert.KernelIdeal.main_arg10 (by decide))).trans (Cert.KernelIdeal.Hand.W22_main_arg10 m c),
       (h c _ (Cert.KernelIdeal.Hand.mem_uc Cert.KernelIdeal.main_arg11 (by decide))).trans (Cert.KernelIdeal.Hand.W22_main_arg11 m c)⟩)
      (Cert.KernelIdeal.Hand.run_all (F := Ideal) m ρ)
  · refine (θ_run Cert.ReferenceIdeal.defs _ _).mono (fun r h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
    exact (Cert.KernelIdeal.HandVal.final_value m c (hpre c)).symm

end Cert.Proof.Algebraic

end
-- ==== Proof.lean ====
/-
  The certificate of a three-layer graph convolution network followed by batch normalisation and an output projection, run as
  eleven TPU kernels among host operations (gather, scatter-add, concatenation, small divisions), against the plain jnp program.
  Per layer, on 100000 nodes and 1250000 edges: h = x·W + b; each edge's message is norm·max(h[source] + (edge_attr·W_e + b_e), 0);
  the messages are summed at their target nodes; the new features are max(sum + max(h + root_emb, 0)/deg, 0). The four feature
  blocks are joined into 256 columns, each column is normalised by its mean and variance over the nodes, scaled, shifted, and
  projected to 64 columns.
  At the exact instance the two programs differ in three ways only: the kernels round matrix operands to bf16 (the identity there),
  they multiply by 1/deg where the reference divides by deg (equal because deg is a real number ≥ 1), and they compute the variance as
  mean of squares minus squared mean where the reference averages squared deviations (equal for real data, which the precondition
  gives). The frames are the run of @main's 22 segments; the value claim follows the same run, buffer by buffer, against the
  reference's own stages.
-/
import proofs.«161825_j7842610283390_1_alg».proof.Defs
import proofs.«161825_j7842610283390_1_alg».proof.Proof.Gen.Kernel
import proofs.«161825_j7842610283390_1_alg».proof.Proof.Gen.Kernel.Skeleton
import proofs.«161825_j7842610283390_1_alg».proof.Proof.Gen.Kernel.Launch
import proofs.«161825_j7842610283390_1_alg».proof.Proof.Gen.Kernel.Regions
import proofs.«161825_j7842610283390_1_alg».proof.Proof.Gen.Kernel.Points
import proofs.«161825_j7842610283390_1_alg».proof.Proof.Gen.KernelIdeal
import proofs.«161825_j7842610283390_1_alg».proof.Proof.Gen.KernelIdeal.Skeleton
import proofs.«161825_j7842610283390_1_alg».proof.Proof.Gen.KernelIdeal.Launch
import proofs.«161825_j7842610283390_1_alg».proof.Proof.Gen.KernelIdeal.Regions
import proofs.«161825_j7842610283390_1_alg».proof.Proof.Gen.KernelIdeal.Points
import proofs.«161825_j7842610283390_1_alg».proof.Proof.Gen.ReferenceIdeal
import proofs.«161825_j7842610283390_1_alg».proof.Proof.Gen.Pre_finite_inputs
import proofs.«161825_j7842610283390_1_alg».proof.Proof.Frames
import proofs.«161825_j7842610283390_1_alg».proof.Proof.Algebraic
import Idealize.ShloMosaic.Adequacy
import Idealize.ShloMosaic.Init

noncomputable section

namespace Cert.Proof

/-- The five conjuncts: the three frames, the (empty) idealization ledger, and the equality of results at the exact instance. -/
theorem claim : Cert.Claim := ⟨Cert.Kernel.Gen.facts, Cert.KernelIdeal.Gen.facts, Cert.ReferenceIdeal.Gen.facts, Cert.Pre_finite_inputs.Gen.facts,
  Cert.Proof.Frames.frame_Kernel, Cert.Proof.Frames.frame_KernelIdeal, Cert.Proof.Frames.frame_ReferenceIdeal, trivial,
  Cert.Proof.Algebraic.algebraic⟩

end Cert.Proof

end
